-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x20 : Shape := ⟨2, ![16384, 20]⟩
abbrev S98x128 : Shape := ⟨2, ![98, 128]⟩
abbrev S25x128 : Shape := ⟨2, ![25, 128]⟩
abbrev S128 : Shape := ⟨1, ![128]⟩
abbrev S_ : Shape := ⟨0, ![]⟩

class Facts : Prop where
  bcast_S_S98x128 : S_.BroadcastsInDim S98x128 (![] : Fin 0 → Fin S98x128.rank)
  reducesTo_S98x128_S_d0_1 : S98x128.ReducesTo [0, 1] S_
  h_S_ : 0 < S_.numel
  bcast_S_S25x128 : S_.BroadcastsInDim S25x128 (![] : Fin 0 → Fin S25x128.rank)
  reducesTo_S25x128_S_d0_1 : S25x128.ReducesTo [0, 1] S_
  bcast_S_S128 : S_.BroadcastsInDim S128 (![] : Fin 0 → Fin S128.rank)
  reducesTo_S128_S_d0 : S128.ReducesTo [0] S_
  bcast_S_S16384x20 : S_.BroadcastsInDim S16384x20 (![] : Fin 0 → Fin S16384x20.rank)
  reducesTo_S16384x20_S_d0_1 : S16384x20.ReducesTo [0, 1] S_

variable [Facts]

def fn_part1 {F : FTy → Type} [FloatOps F] (main_arg0 : IVec S16384x20 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_c_6 : IVec S_ 32 := constantI S_ 32 0#32
  let main_v19 : IVec S16384x20 32 := broadcastInDim S16384x20 ![] bcast_S_S16384x20 main_c_6
  let main_v20 : IVec S16384x20 1 := cmpi .sge main_arg0 main_v19
  let main_c_7 : IVec S_ 32 := constantI S_ 32 97#32
  let main_v21 : IVec S16384x20 32 := broadcastInDim S16384x20 ![] bcast_S_S16384x20 main_c_7
  let main_v22 : IVec S16384x20 1 := cmpi .sle main_arg0 main_v21
  let main_v23 : IVec S16384x20 1 := andi main_v20 main_v22
  let main_c_8 : IVec S_ 1 := constantI S_ 1 1#1
  let main_v24 : IVec S_ 1 := (fun x v => Host.reduce IntOp.andi x v reducesTo_S16384x20_S_d0_1 h_S_) main_v23 main_c_8
  let main_v25 : IVec S_ 1 := andi main_v18 main_v24
  main_v25

def fn {F : FTy → Type} [FloatOps F] (main_arg0 : IVec S16384x20 32) (main_arg1 : FVec F S98x128 .f32) (main_arg2 : FVec F S25x128 .f32) (main_arg3 : FVec F S128 .f32) (main_arg4 : FVec F S128 .f32) : IVec S_ 1 :=
  let main_v0 : FVec F S98x128 .f32 := Host.absf main_arg1
  let main_cst : FVec F S_ .f32 := constant S_ .f32 0x7F800000#32
  let main_v1 : FVec F S98x128 .f32 := broadcastInDim S98x128 ![] bcast_S_S98x128 main_cst
  let main_v2 : IVec S98x128 1 := cmpf .olt main_v0 main_v1
  let main_c : IVec S_ 1 := constantI S_ 1 1#1
  let main_v3 : IVec S_ 1 := (fun x v => Host.reduce IntOp.andi x v reducesTo_S98x128_S_d0_1 h_S_) main_v2 main_c
  let main_v4 : FVec F S25x128 .f32 := Host.absf main_arg2
  let main_cst_0 : FVec F S_ .f32 := constant S_ .f32 0x7F800000#32
  let main_v5 : FVec F S25x128 .f32 := broadcastInDim S25x128 ![] bcast_S_S25x128 main_cst_0
  let main_v6 : IVec S25x128 1 := cmpf .olt main_v4 main_v5
  let main_c_1 : IVec S_ 1 := constantI S_ 1 1#1
  let main_v7 : IVec S_ 1 := (fun x v => Host.reduce IntOp.andi x v reducesTo_S25x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_v13 main_v16
-- ==== Kernel.lean ====
abbrev S16384x20 : Shape := ⟨2, ![16384, 20]⟩
abbrev S98x128 : Shape := ⟨2, ![98, 128]⟩
abbrev S25x128 : Shape := ⟨2, ![25, 128]⟩
abbrev S128 : Shape := ⟨1, ![128]⟩
abbrev S20x128 : Shape := ⟨2, ![20, 128]⟩
abbrev S1x128 : Shape := ⟨2, ![1, 128]⟩
abbrev S20x98x128 : Shape := ⟨3, ![20, 98, 128]⟩
abbrev S20x1x128 : Shape := ⟨3, ![20, 1, 128]⟩
abbrev S1x98x128 : Shape := ⟨3, ![1, 98, 128]⟩
abbrev S20x98 : Shape := ⟨2, ![20, 98]⟩
abbrev S20x98x1 : Shape := ⟨3, ![20, 98, 1]⟩
abbrev S1x1x128 : Shape := ⟨3, ![1, 1, 128]⟩
abbrev S1024x20 : Shape := ⟨2, ![1024, 20]⟩
abbrev S1960x128 : Shape := ⟨2, ![1960, 128]⟩
abbrev S32x128x80 : Shape := ⟨3, ![32, 128, 80]⟩
abbrev S16384x20x128 : Shape := ⟨3, ![16384, 20, 128]⟩
abbrev S128x80 : Shape := ⟨2, ![128, 80]⟩
abbrev S80x128 : Shape := ⟨2, ![80, 128]⟩
abbrev S_ : Shape := ⟨0, ![]⟩
abbrev S1x128x80 : Shape := ⟨3, ![1, 128, 80]⟩
abbrev S1x20x128 : Shape := ⟨3, ![1, 20, 128]⟩
abbrev S1x80 : Shape := ⟨2, ![1, 80]⟩
abbrev S80 : Shape := ⟨1, ![80]⟩

abbrev nBuf : Table → Nat
  | .hbm => 13
  | .local .tc .vmem => 9
  | .local .scVector .vmem => 9
  | _ => 0

abbrev bufTy : (tb : Table) → Fin (nBuf tb) → BufTy
  | .hbm, ⟨0, _⟩ => ⟨S16384x20, .i32⟩
  | .hbm, ⟨1, _⟩ => ⟨S98x128, .f32⟩
  | .hbm, ⟨2, _⟩ => ⟨S25x128, .f32⟩
  | .hbm, ⟨3, _⟩ => ⟨S128, .f32⟩
  | .hbm, ⟨4, _⟩ => ⟨S128, .f32⟩
  | .hbm, ⟨5, _⟩ => ⟨S20x128, .f32⟩
  | .hbm, ⟨6, _⟩ => ⟨S1x128, .f32⟩
  | .hbm, ⟨7, _⟩ => ⟨S1x128, .f32⟩
  | .hbm, ⟨8, _⟩ => ⟨S20x98x128, .f32⟩
  | .hbm, ⟨9, _⟩ => ⟨S16384x20, .i32⟩
  | .hbm, ⟨10, _⟩ => ⟨S1960x128, .f32⟩
  | .hbm, ⟨11, _⟩ => ⟨S32x128x80, .i32⟩
  | .hbm, ⟨12, _⟩ => ⟨S16384x20x128, .f32⟩
  | .local .tc .vmem, ⟨0, _⟩ => ⟨S98x128, .f32⟩
  | .local .tc .vmem, ⟨1, _⟩ => ⟨S20x128, .f32⟩
  | .local .tc .vmem, ⟨2, _⟩ => ⟨S1x128, .f32⟩
  | .local .tc .vmem, ⟨3, _⟩ => ⟨S1x128, .f32⟩
  | .local .tc .vmem, ⟨4, _⟩ => ⟨S20x98x128, .f32⟩
  | .local .tc .vmem, ⟨5, _⟩ => ⟨S1024x20, .i32⟩
  | .local .tc .vmem, ⟨6, _⟩ => ⟨S1024x20, .i32⟩
  | .local .tc .vmem, ⟨7, _⟩ => ⟨S1024x20, .i32⟩
  | .local .tc .vmem, ⟨8, _⟩ => ⟨S1024x20, .i32⟩
  | .local .scVector .vmem, ⟨0, _⟩ => ⟨S128x80, .i32⟩
  | .local .scVector .vmem, ⟨1, _⟩ => ⟨S80x128, .f32⟩
  | .local .scVector .vmem, ⟨2, _⟩ => ⟨S80x128, .f32⟩
  | .local .scVector .vmem, ⟨3, _⟩ => ⟨S80x128, .f32⟩
  | .local .scVector .vmem, ⟨4, _⟩ => ⟨S80x128, .f32⟩
  | .local .scVector .vmem, ⟨5, _⟩ => ⟨S80x128, .f32⟩
  | .local .scVector .vmem, ⟨6, _⟩ => ⟨S80x128, .f32⟩
  | .local .scVector .vmem, ⟨7, _⟩ => ⟨S80x128, .f32⟩
  | .local .scVector .vmem, ⟨8, _⟩ => ⟨S80x128, .f32⟩
  | _, _ => ⟨S16384x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v5_scv : Ref sig .scVector := ⟨.hbm, 10, rfl⟩
abbrev main_v6_scv : Ref sig .scVector := ⟨.hbm, 11, rfl⟩
abbrev main_v7_scv : Ref sig .scVector := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc2_scratch5 : Ref sig .scVector := ⟨.vmem, 5, rfl⟩
abbrev cc2_scratch6 : Ref sig .scVector := ⟨.vmem, 6, rfl⟩
abbrev cc2_scratch7 : Ref sig .scVector := ⟨.vmem, 7, rfl⟩
abbrev cc2_scratch8 : Ref sig .scVector := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S98x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20x98x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x20 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x20 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_318_r0 : BitVec 32 := 0#32
  let c0_i32_319_r0 : BitVec 32 := 0#32
  ![v1.toNat, 0, 0]
@[reducible] def k2_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k2_cond1 (k2_t1 : Fin k2_t1_loop.trips) : BitVec 1 :=
  let c0_i32_0 : BitVec 32 := 0#32
  let c1_i32 : BitVec 32 := 1#32
  let arg30 : BitVec 32 := Scf.iv c0_i32_0 c1_i32 k2_t1
  let c0_i32_319 : BitVec 32 := 0#32
  let v262 : BitVec 1 := Scalar.cmpi .sgt arg30 c0_i32_319
  let v263 : BitVec 32 := Scalar.extui v262
  let c0_i32_320 : BitVec 32 := 0#32
  let v264 : BitVec 1 := Scalar.cmpi .ne v263 c0_i32_320
  v264

def k2_off2 (i : grid2.Coords) (k2_t1 : Fin k2_t1_loop.trips) (c0_i32_730 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg30 : BitVec 32 := Scf.iv c0_i32_0 c1_i32 k2_t1
  let c8_i32 : BitVec 32 := 8#32
  let v260 : BitVec 32 := Scalar.muli arg30 c8_i32
  let c0_i32_318 : BitVec 32 := 0#32
  let v261 : BitVec 32 := Scalar.addi v260 c0_i32_318
  let c4_i32_729 : BitVec 32 := 4#32
  let v652 : BitVec 32 := Scalar.muli v261 c4_i32_729
  let v653 : BitVec 32 := Scalar.addi v2 v652
  let v654 : BitVec 32 := Scalar.addi v653 c0_i32_730
  let c0_i32_739 : BitVec 32 := 0#32
  let c0_i32_740 : BitVec 32 := 0#32
  ![v654.toNat, 0, 0]
def k2_off3 (k2_t1 : Fin k2_t1_loop.trips) (c0_i32_318 : BitVec 32) : Fin 2 → Nat :=
  let c0_i32_0 : BitVec 32 := 0#32
  let c1_i32 : BitVec 32 := 1#32
  let arg30 : BitVec 32 := Scf.iv c0_i32_0 c1_i32 k2_t1
  let c8_i32 : BitVec 32 := 8#32
  let v260 : BitVec 32 := Scalar.muli arg30 c8_i32
  let v261 : BitVec 32 := Scalar.addi v260 c0_i32_318
  let c0_i32_321 : BitVec 32 := 0#32
  ![v261.toNat, 0]
def k2_cond2 (k2_t1 : Fin k2_t1_loop.trips) : BitVec 1 :=
  let c0_i32_0 : BitVec 32 := 0#32
  let c1_i32 : BitVec 32 := 1#32
  let arg30 : BitVec 32 := Scf.iv c0_i32_0 c1_i32 k2_t1
  let c0_i32_326 : BitVec 32 := 0#32
  let v270 : BitVec 1 := Scalar.cmpi .sgt arg30 c0_i32_326
  let v271 : BitVec 32 := Scalar.extui v270
  let c0_i32_327 : BitVec 32 := 0#32
  let v272 : BitVec 1 := Scalar.cmpi .ne v271 c0_i32_327
  v272

def k2_off4 (i : grid2.Coords) (k2_t1 : Fin k2_t1_loop.trips) (c0_i32_730 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg30 : BitVec 32 := Scf.iv c0_i32_0 c1_i32 k2_t1
  let c8_i32_324 : BitVec 32 := 8#32
  let v268 : BitVec 32 := Scalar.muli arg30 c8_i32_324
  let c1_i32_325 : BitVec 32 := 1#32
  let v269 : BitVec 32 := Scalar.addi v268 c1_i32_325
  let c4_i32_729 : BitVec 32 := 4#32
  let v652 : BitVec 32 := Scalar.muli v269 c4_i32_729
  let v653 : BitVec 32 := Scalar.addi v2 v652
  let v654 : BitVec 32 := Scalar.addi v653 c0_i32_730
  let c0_i32_739 : BitVec 32 := 0#32
  let c0_i32_740 : BitVec 32 := 0#32
  ![v654.toNat, 0, 0]
def k2_cond3 (k2_t1 : Fin k2_t1_loop.trips) : BitVec 1 :=
  let c0_i32_0 : BitVec 32 := 0#32
  let c1_i32 : BitVec 32 := 1#32
  let arg30 : BitVec 32 := Scf.iv c0_i32_0 c1_i32 k2_t1
  let c0_i32_333 : BitVec 32 := 0#32
  let v278 : BitVec 1 := Scalar.cmpi .sgt arg30 c0_i32_333
  let v279 : BitVec 32 := Scalar.extui v278
  let c0_i32_334 : BitVec 32 := 0#32
  let v280 : BitVec 1 := Scalar.cmpi .ne v279 c0_i32_334
  v280

def k2_off5 (i : grid2.Coords) (k2_t1 : Fin k2_t1_loop.trips) (c0_i32_730 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg30 : BitVec 32 := Scf.iv c0_i32_0 c1_i32 k2_t1
  let c8_i32_331 : BitVec 32 := 8#32
  let v276 : BitVec 32 := Scalar.muli arg30 c8_i32_331
  let c2_i32_332 : BitVec 32 := 2#32
  let v277 : BitVec 32 := Scalar.addi v276 c2_i32_332
  let c4_i32_729 : BitVec 32 := 4#32
  let v652 : BitVec 32 := Scalar.muli v277 c4_i32_729
  let v653 : BitVec 32 := Scalar.addi v2 v652
  let v654 : BitVec 32 := Scalar.addi v653 c0_i32_730
  let c0_i32_739 : BitVec 32 := 0#32
  let c0_i32_740 : BitVec 32 := 0#32
  ![v654.toNat, 0, 0]
def k2_cond4 (k2_t1 : Fin k2_t1_loop.trips) : BitVec 1 :=
  let c0_i32_0 : BitVec 32 := 0#32
  let c1_i32 : BitVec 32 := 1#32
  let arg30 : BitVec 32 := Scf.iv c0_i32_0 c1_i32 k2_t1
  let c0_i32_340 : BitVec 32 := 0#32
  let v286 : BitVec 1 := Scalar.cmpi .sgt arg30 c0_i32_340
  let v287 : BitVec 32 := Scalar.extui v286
  let c0_i32_341 : BitVec 32 := 0#32
  let v288 : BitVec 1 := Scalar.cmpi .ne v287 c0_i32_341
  v288

def k2_off6 (i : grid2.Coords) (k2_t1 : Fin k2_t1_loop.trips) (c0_i32_730 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg30 : BitVec 32 := Scf.iv c0_i32_0 c1_i32 k2_t1
  let c8_i32_338 : BitVec 32 := 8#32
  let v284 : BitVec 32 := Scalar.muli arg30 c8_i32_338
  let c3_i32_339 : BitVec 32 := 3#32
  let v285 : BitVec 32 := Scalar.addi v284 c3_i32_339
  let c4_i32_729 : BitVec 32 := 4#32
  let v652 : BitVec 32 := Scalar.muli v285 c4_i32_729
  let v653 : BitVec 32 := Scalar.addi v2 v652
  let v654 : BitVec 32 := Scalar.addi v653 c0_i32_730
  let c0_i32_739 : BitVec 32 := 0#32
  let c0_i32_740 : BitVec 32 := 0#32
  ![v654.toNat, 0, 0]
def k2_cond5 (k2_t1 : Fin k2_t1_loop.trips) : BitVec 1 :=
  let c0_i32_0 : BitVec 32 := 0#32
  let c1_i32 : BitVec 32 := 1#32
  let arg30 : BitVec 32 := Scf.iv c0_i32_0 c1_i32 k2_t1
  let c0_i32_346 : BitVec 32 := 0#32
  let v294 : BitVec 1 := Scalar.cmpi .sgt arg30 c0_i32_346
  let v295 : BitVec 32 := Scalar.extui v294
  let c0_i32_347 : BitVec 32 := 0#32
  let v296 : BitVec 1 := Scalar.cmpi .ne v295 c0_i32_347
  v296

def k2_off7 (i : grid2.Coords) (k2_t1 : Fin k2_t1_loop.trips) (c0_i32_730 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg30 : BitVec 32 := Scf.iv c0_i32_0 c1_i32 k2_t1
  let c8_i32_345 : BitVec 32 := 8#32
  let v292 : BitVec 32 := Scalar.muli arg30 c8_i32_345
  let c4_i32 : BitVec 32 := 4#32
  let v293 : BitVec 32 := Scalar.addi v292 c4_i32
  let c4_i32_729 : BitVec 32 := 4#32
  let v652 : BitVec 32 := Scalar.muli v293 c4_i32_729
  let v653 : BitVec 32 := Scalar.addi v2 v652
  let v654 : BitVec 32 := Scalar.addi v653 c0_i32_730
  let c0_i32_739 : BitVec 32 := 0#32
  let c0_i32_740 : BitVec 32 := 0#32
  ![v654.toNat, 0, 0]
def k2_cond6 (k2_t1 : Fin k2_t1_loop.trips) : BitVec 1 :=
  let c0_i32_0 : BitVec 32 := 0#32
  let c1_i32 : BitVec 32 := 1#32
  let arg30 : BitVec 32 := Scf.iv c0_i32_0 c1_i32 k2_t1
  let c0_i32_352 : BitVec 32 := 0#32
  let v302 : BitVec 1 := Scalar.cmpi .sgt arg30 c0_i32_352
  let v303 : BitVec 32 := Scalar.extui v302
  let c0_i32_353 : BitVec 32 := 0#32
  let v304 : BitVec 1 := Scalar.cmpi .ne v303 c0_i32_353
  v304

def k2_off8 (i : grid2.Coords) (k2_t1 : Fin k2_t1_loop.trips) (c0_i32_730 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg30 : BitVec 32 := Scf.iv c0_i32_0 c1_i32 k2_t1
  let c8_i32_351 : BitVec 32 := 8#32
  let v300 : BitVec 32 := Scalar.muli arg30 c8_i32_351
  let c5_i32 : BitVec 32 := 5#32
  let v301 : BitVec 32 := Scalar.addi v300 c5_i32
  let c4_i32_729 : BitVec 32 := 4#32
  let v652 : BitVec 32 := Scalar.muli v301 c4_i32_729
  let v653 : BitVec 32 := Scalar.addi v2 v652
  let v654 : BitVec 32 := Scalar.addi v653 c0_i32_730
  let c0_i32_739 : BitVec 32 := 0#32
  let c0_i32_740 : BitVec 32 := 0#32
  ![v654.toNat, 0, 0]
def k2_cond7 (k2_t1 : Fin k2_t1_loop.trips) : BitVec 1 :=
  let c0_i32_0 : BitVec 32 := 0#32
  let c1_i32 : BitVec 32 := 1#32
  let arg30 : BitVec 32 := Scf.iv c0_i32_0 c1_i32 k2_t1
  let c0_i32_358 : BitVec 32 := 0#32
  let v310 : BitVec 1 := Scalar.cmpi .sgt arg30 c0_i32_358
  let v311 : BitVec 32 := Scalar.extui v310
  let c0_i32_359 : BitVec 32 := 0#32
  let v312 : BitVec 1 := Scalar.cmpi .ne v311 c0_i32_359
  v312

def k2_off9 (i : grid2.Coords) (k2_t1 : Fin k2_t1_loop.trips) (c0_i32_730 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg30 : BitVec 32 := Scf.iv c0_i32_0 c1_i32 k2_t1
  let c8_i32_357 : BitVec 32 := 8#32
  let v308 : BitVec 32 := Scalar.muli arg30 c8_i32_357
  let c6_i32 : BitVec 32 := 6#32
  let v309 : BitVec 32 := Scalar.addi v308 c6_i32
  let c4_i32_729 : BitVec 32 := 4#32
  let v652 : BitVec 32 := Scalar.muli v309 c4_i32_729
  let v653 : BitVec 32 := Scalar.addi v2 v652
  let v654 : BitVec 32 := Scalar.addi v653 c0_i32_730
  let c0_i32_739 : BitVec 32 := 0#32
  let c0_i32_740 : BitVec 32 := 0#32
  ![v654.toNat, 0, 0]
def k2_cond8 (k2_t1 : Fin k2_t1_loop.trips) : BitVec 1 :=
  let c0_i32_0 : BitVec 32 := 0#32
  let c1_i32 : BitVec 32 := 1#32
  let arg30 : BitVec 32 := Scf.iv c0_i32_0 c1_i32 k2_t1
  let c0_i32_364 : BitVec 32 := 0#32
  let v318 : BitVec 1 := Scalar.cmpi .sgt arg30 c0_i32_364
  let v319 : BitVec 32 := Scalar.extui v318
  let c0_i32_365 : BitVec 32 := 0#32
  let v320 : BitVec 1 := Scalar.cmpi .ne v319 c0_i32_365
  v320

def k2_off10 (i : grid2.Coords) (k2_t1 : Fin k2_t1_loop.trips) (c0_i32_730 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg30 : BitVec 32 := Scf.iv c0_i32_0 c1_i32 k2_t1
  let c8_i32_363 : BitVec 32 := 8#32
  let v316 : BitVec 32 := Scalar.muli arg30 c8_i32_363
  let c7_i32 : BitVec 32 := 7#32
  let v317 : BitVec 32 := Scalar.addi v316 c7_i32
  let c4_i32_729 : BitVec 32 := 4#32
  let v652 : BitVec 32 := Scalar.muli v317 c4_i32_729
  let v653 : BitVec 32 := Scalar.addi v2 v652
  let v654 : BitVec 32 := Scalar.addi v653 c0_i32_730
  let c0_i32_739 : BitVec 32 := 0#32
  let c0_i32_740 : BitVec 32 := 0#32
  ![v654.toNat, 0, 0]
def k2_off11 (i : grid2.Coords) (k2_t1 : Fin k2_t1_loop.trips) (c0_i32_370 : BitVec 32) (c0_i32_375 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg30 : BitVec 32 := Scf.iv c0_i32_0 c1_i32 k2_t1
  let c8_i32_369 : BitVec 32 := 8#32
  let v324 : BitVec 32 := Scalar.muli arg30 c8_i32_369
  let v325 : BitVec 32 := Scalar.addi v324 c0_i32_370
  let c4_i32_374 : BitVec 32 := 4#32
  let v329 : BitVec 32 := Scalar.muli v325 c4_i32_374
  let v330 : BitVec 32 := Scalar.addi v2 v329
  let v331 : BitVec 32 := Scalar.addi v330 c0_i32_375
  let c0_i32_384 : BitVec 32 := 0#32
  let c0_i32_385 : BitVec 32 := 0#32
  ![v331.toNat, 0, 0]
def k2_off12 (i : grid2.Coords) (c0_i32_3 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_2 : BitVec 32 := 0#32
  let v4 : BitVec 32 := Scalar.addi v2 c0_i32_2
  let v5 : BitVec 32 := Scalar.addi v4 c0_i32_3
  let c0_i32_11 : BitVec 32 := 0#32
  let c0_i32_12 : BitVec 32 := 0#32
  ![v5.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S25x128_S20x128_0_0 : S25x128.Slices ![0, 0] S20x128
  shapeCasts_S128_S1x128 : S128.ShapeCasts S1x128
  inb_S20x128_S20x128_0_0 : ∀ a, (![0, 0] : Fin 2 → Nat) a + S20x128.size a ≤ S20x128.size a
  h_S20x128 : 0 < S20x128.numel
  shapeCasts_S20x128_S20x128 : S20x128.ShapeCasts S20x128
  shapeCasts_S20x128_S20x1x128 : S20x128.ShapeCasts S20x1x128
  inb_S98x128_S98x128_0_0 : ∀ a, (![0, 0] : Fin 2 → Nat) a + S98x128.size a ≤ S98x128.size a
  h_S98x128 : 0 < S98x128.numel
  shapeCasts_S98x128_S1x98x128 : S98x128.ShapeCasts S1x98x128
  broadcasts_S20x1x128_S20x98x128 : S20x1x128.Broadcasts S20x98x128
  broadcasts_S1x98x128_S20x98x128 : S1x98x128.Broadcasts S20x98x128
  reduces_S20x98x128_S20x98 : S20x98x128.Reduces [2] S20x98
  shapeCasts_S20x98_S20x98x1 : S20x98.ShapeCasts S20x98x1
  broadcasts_S20x98x1_S20x98x128 : S20x98x1.Broadcasts S20x98x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S1x1x128_S20x98x128 : S1x1x128.Broadcasts S20x98x128
  inb_S20x98x128_S20x98x128_0_0_0 : ∀ a, (![0, 0, 0] : Fin 3 → Nat) a + S20x98x128.size a ≤ S20x98x128.size a
  h_S20x98x128 : 0 < S20x98x128.numel
  iota_S1024x20_d1_w32 : S1024x20.Iotas .tc 32 [1]
  inb_S1024x20_S1024x20_0_0 : ∀ a, (![0, 0] : Fin 2 → Nat) a + S1024x20.size a ≤ S1024x20.size a
  h_S1024x20 : 0 < S1024x20.numel
  shapeCasts_S20x98x128_S1960x128 : S20x98x128.ShapeCasts S1960x128
  shapeCasts_S16384x20_S32x128x80 : S16384x20.ShapeCasts S32x128x80
  squeezes_S1x128x80_S128x80 : S1x128x80.Squeezes S128x80
  inb_S80x128_S20x128_0_0 : ∀ a, (![0, 0] : Fin 2 → Nat) a + S20x128.size a ≤ S80x128.size a
  squeezes_S1x20x128_S20x128 : S1x20x128.Squeezes S20x128
  inb_S80x128_S20x128_20_0 : ∀ a, (![20, 0] : Fin 2 → Nat) a + S20x128.size a ≤ S80x128.size a
  inb_S80x128_S20x128_40_0 : ∀ a, (![40, 0] : Fin 2 → Nat) a + S20x128.size a ≤ S80x128.size a
  inb_S80x128_S20x128_60_0 : ∀ a, (![60, 0] : Fin 2 → Nat) a + S20x128.size a ≤ S80x128.size a
  squeezes_S1x80_S80 : S1x80.Squeezes S80
  inb_S1960x128_S1960x128_0_0 : ∀ a, (![0, 0] : Fin 2 → Nat) a + S1960x128.size a ≤ S1960x128.size a
  gathers_S1960x128_S80x128 : S1960x128.Gathers 0 S80x128
  hcc2_scratch9 : 9 + S_.numel ≤ 26
  hcc2_scratch10 : 10 + S_.numel ≤ 26
  hcc2_scratch11 : 11 + S_.numel ≤ 26
  hcc2_scratch12 : 12 + S_.numel ≤ 26
  hcc2_scratch13 : 13 + S_.numel ≤ 26
  hcc2_scratch14 : 14 + S_.numel ≤ 26
  hcc2_scratch15 : 15 + S_.numel ≤ 26
  hcc2_scratch16 : 16 + S_.numel ≤ 26
  hcc2_scratch17 : 17 + S_.numel ≤ 26
  hcc2_scratch18 : 18 + S_.numel ≤ 26
  hcc2_scratch19 : 19 + S_.numel ≤ 26
  hcc2_scratch20 : 20 + S_.numel ≤ 26
  hcc2_scratch21 : 21 + S_.numel ≤ 26
  hcc2_scratch22 : 22 + S_.numel ≤ 26
  hcc2_scratch23 : 23 + S_.numel ≤ 26
  hcc2_scratch24 : 24 + S_.numel ≤ 26
  hcc2_scoped0 : 25 + S_.numel ≤ 26
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x20.size a ≤ S16384x20.size a
  hwx1_0 : ∀ i : grid1.Coords, EltTy.bits .i32 = 32 ∨ (Rect.block (s := S16384x20) S1024x20.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x20.size a ≤ S16384x20.size a
  hwx1_1 : ∀ i : grid1.Coords, EltTy.bits .i32 = 32 ∨ (Rect.block (s := S16384x20) S1024x20.size (cc1_transform_1 i) (hinb1_1 i)).WholeWords (EltTy.packing .i32)
  hcore2 : grid2.bound 0 ≤ τ.nSC
  hsub2 : grid2.bound 1 ≤ τ.nSub
  k2_off1_inb : ∀ i : grid2.Coords, ∀ a, (k2_off1 i) a + S1x128x80.size a ≤ S32x128x80.size a
  k2_t1_ok : k2_t1_loop.OK
  k2_off2_inb : ∀ (i : grid2.Coords) (k2_t1 : Fin k2_t1_loop.trips), ∀ (k2_h1 : k2_cond1 k2_t1 = 1#1), ∀ (r : Fin 4), ∀ a, (k2_off2 i k2_t1 (BitVec.ofNat 32 r.val)) a + S1x20x128.size a ≤ S16384x20x128.size a
  k2_off3_inb : ∀ k2_t1 : Fin k2_t1_loop.trips, ∀ (r : Fin 8), ∀ a, (k2_off3 k2_t1 (BitVec.ofNat 32 r.val)) a + S1x80.size a ≤ S128x80.size a
  k2_off4_inb : ∀ (i : grid2.Coords) (k2_t1 : Fin k2_t1_loop.trips), ∀ (k2_h2 : k2_cond2 k2_t1 = 1#1), ∀ (r : Fin 4), ∀ a, (k2_off4 i k2_t1 (BitVec.ofNat 32 r.val)) a + S1x20x128.size a ≤ S16384x20x128.size a
  k2_off5_inb : ∀ (i : grid2.Coords) (k2_t1 : Fin k2_t1_loop.trips), ∀ (k2_h3 : k2_cond3 k2_t1 = 1#1), ∀ (r : Fin 4), ∀ a, (k2_off5 i k2_t1 (BitVec.ofNat 32 r.val)) a + S1x20x128.size a ≤ S16384x20x128.size a
  k2_off6_inb : ∀ (i : grid2.Coords) (k2_t1 : Fin k2_t1_loop.trips), ∀ (k2_h4 : k2_cond4 k2_t1 = 1#1), ∀ (r : Fin 4), ∀ a, (k2_off6 i k2_t1 (BitVec.ofNat 32 r.val)) a + S1x20x128.size a ≤ S16384x20x128.size a
  k2_off7_inb : ∀ (i : grid2.Coords) (k2_t1 : Fin k2_t1_loop.trips), ∀ (k2_h5 : k2_cond5 k2_t1 = 1#1), ∀ (r : Fin 4), ∀ a, (k2_off7 i k2_t1 (BitVec.ofNat 32 r.val)) a + S1x20x128.size a ≤ S16384x20x128.size a
  k2_off8_inb : ∀ (i : grid2.Coords) (k2_t1 : Fin k2_t1_loop.trips), ∀ (k2_h6 : k2_cond6 k2_t1 = 1#1), ∀ (r : Fin 4), ∀ a, (k2_off8 i k2_t1 (BitVec.ofNat 32 r.val)) a + S1x20x128.size a ≤ S16384x20x128.size a
  k2_off9_inb : ∀ (i : grid2.Coords) (k2_t1 : Fin k2_t1_loop.trips), ∀ (k2_h7 : k2_cond7 k2_t1 = 1#1), ∀ (r : Fin 4), ∀ a, (k2_off9 i k2_t1 (BitVec.ofNat 32 r.val)) a + S1x20x128.size a ≤ S16384x20x128.size a
  k2_off10_inb : ∀ (i : grid2.Coords) (k2_t1 : Fin k2_t1_loop.trips), ∀ (k2_h8 : k2_cond8 k2_t1 = 1#1), ∀ (r : Fin 4), ∀ a, (k2_off10 i k2_t1 (BitVec.ofNat 32 r.val)) a + S1x20x128.size a ≤ S16384x20x128.size a
  k2_off11_inb : ∀ (i : grid2.Coords) (k2_t1 : Fin k2_t1_loop.trips), ∀ (r₁ : Fin 8) (r₂ : Fin 4), ∀ a, (k2_off11 i k2_t1 (BitVec.ofNat 32 r₁.val) (BitVec.ofNat 32 r₂.val)) a + S1x20x128.size a ≤ S16384x20x128.size a
  k2_off12_inb : ∀ i : grid2.Coords, ∀ (r : Fin 4), ∀ a, (k2_off12 i (BitVec.ofNat 32 r.val)) a + S1x20x128.size a ≤ S16384x20x128.size a

variable [Facts₀]

abbrev cc2_scratch9 : DmaSems sig S_ := SemArray.consecutive 9 S_ hcc2_scratch9
abbrev cc2_scratch10 : DmaSems sig S_ := SemArray.consecutive 10 S_ hcc2_scratch10
abbrev cc2_scratch11 : DmaSems sig S_ := SemArray.consecutive 11 S_ hcc2_scratch11
abbrev cc2_scratch12 : DmaSems sig S_ := SemArray.consecutive 12 S_ hcc2_scratch12
abbrev cc2_scratch13 : DmaSems sig S_ := SemArray.consecutive 13 S_ hcc2_scratch13
abbrev cc2_scratch14 : DmaSems sig S_ := SemArray.consecutive 14 S_ hcc2_scratch14
abbrev cc2_scratch15 : DmaSems sig S_ := SemArray.consecutive 15 S_ hcc2_scratch15
abbrev cc2_scratch16 : DmaSems sig S_ := SemArray.consecutive 16 S_ hcc2_scratch16
abbrev cc2_scratch17 : DmaSems sig S_ := SemArray.consecutive 17 S_ hcc2_scratch17
abbrev cc2_scratch18 : DmaSems sig S_ := SemArray.consecutive 18 S_ hcc2_scratch18
abbrev cc2_scratch19 : DmaSems sig S_ := SemArray.consecutive 19 S_ hcc2_scratch19
abbrev cc2_scratch20 : DmaSems sig S_ := SemArray.consecutive 20 S_ hcc2_scratch20
abbrev cc2_scratch21 : DmaSems sig S_ := SemArray.consecutive 21 S_ hcc2_scratch21
abbrev cc2_scratch22 : DmaSems sig S_ := SemArray.consecutive 22 S_ hcc2_scratch22
abbrev cc2_scratch23 : DmaSems sig S_ := SemArray.consecutive 23 S_ hcc2_scratch23
abbrev cc2_scratch24 : DmaSems sig S_ := SemArray.consecutive 24 S_ hcc2_scratch24
abbrev cc2_scoped0 : DmaSems sig S_ := SemArray.consecutive 25 S_ hcc2_scoped0

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_v1) false false (stage0_2 0) (sem0_2 0) (Memref.isWhole_whole _) (hstage0_2 0)

abbrev win0_3 : Pipeline.Window sig grid0 :=
  Pipeline.Window.whole (Memref.whole main_v2) false false (stage0_3 0) (sem0_3 0) (Memref.isWhole_whole _) (hstage0_3 0)

abbrev win0_4 : Pipeline.Window sig grid0 :=
  Pipeline.Window.whole (Memref.whole main_v3) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1024x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x20.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S16384x20 : Shape := ⟨2, ![16384, 20]⟩
abbrev S98x128 : Shape := ⟨2, ![98, 128]⟩
abbrev S25x128 : Shape := ⟨2, ![25, 128]⟩
abbrev S128 : Shape := ⟨1, ![128]⟩
abbrev S20x128 : Shape := ⟨2, ![20, 128]⟩
abbrev S_ : Shape := ⟨0, ![]⟩
abbrev S16384x20x1 : Shape := ⟨3, ![16384, 20, 1]⟩
abbrev S1 : Shape := ⟨1, ![1]⟩
abbrev S1x1x1 : Shape := ⟨3, ![1, 1, 1]⟩
abbrev S16384x20x128 : Shape := ⟨3, ![16384, 20, 128]⟩
abbrev S1x20x128 : Shape := ⟨3, ![1, 20, 128]⟩
abbrev S1x1x128 : Shape := ⟨3, ![1, 1, 128]⟩

abbrev nBuf : Space → Nat
  | .hbm => 61
  | .vmem => 0
  | .smem => 0
  | _ => 0

abbrev bufTy : (tb : Table) → Fin (tcTables nBuf tb) → BufTy
  | .hbm, ⟨0, _⟩ => ⟨S16384x20, .i32⟩
  | .hbm, ⟨1, _⟩ => ⟨S98x128, .f32⟩
  | .hbm, ⟨2, _⟩ => ⟨S25x128, .f32⟩
  | .hbm, ⟨3, _⟩ => ⟨S128, .f32⟩
  | .hbm, ⟨4, _⟩ => ⟨S128, .f32⟩
  | .hbm, ⟨5, _⟩ => ⟨S20x128, .f32⟩
  | .hbm, ⟨6, _⟩ => ⟨S_, .i32⟩
  | .hbm, ⟨7, _⟩ => ⟨S16384x20, .i32⟩
  | .hbm, ⟨8, _⟩ => ⟨S16384x20, .i1⟩
  | .hbm, ⟨9, _⟩ => ⟨S_, .i32⟩
  | .hbm, ⟨10, _⟩ => ⟨S16384x20, .i32⟩
  | .hbm, ⟨11, _⟩ => ⟨S16384x20, .i32⟩
  | .hbm, ⟨12, _⟩ => ⟨S16384x20, .i32⟩
  | .hbm, ⟨13, _⟩ => ⟨S16384x20x1, .i32⟩
  | .hbm, ⟨14, _⟩ => ⟨S1, .i32⟩
  | .hbm, ⟨15, _⟩ => ⟨S_, .i32⟩
  | .hbm, ⟨16, _⟩ => ⟨S16384x20x1, .i32⟩
  | .hbm, ⟨17, _⟩ => ⟨S16384x20x1, .i1⟩
  | .hbm, ⟨18, _⟩ => ⟨S1x1x1, .i32⟩
  | .hbm, ⟨19, _⟩ => ⟨S16384x20x1, .i32⟩
  | .hbm, ⟨20, _⟩ => ⟨S16384x20x1, .i1⟩
  | .hbm, ⟨21, _⟩ => ⟨S16384x20x1, .i1⟩
  | .hbm, ⟨22, _⟩ => ⟨S_, .i1⟩
  | .hbm, ⟨23, _⟩ => ⟨S16384x20, .i1⟩
  | .hbm, ⟨24, _⟩ => ⟨S16384x20x128, .f32⟩
  | .hbm, ⟨25, _⟩ => ⟨S16384x20x128, .i1⟩
  | .hbm, ⟨26, _⟩ => ⟨S_, .f32⟩
  | .hbm, ⟨27, _⟩ => ⟨S16384x20x128, .f32⟩
  | .hbm, ⟨28, _⟩ => ⟨S16384x20x128, .f32⟩
  | .hbm, ⟨29, _⟩ => ⟨S1x20x128, .f32⟩
  | .hbm, ⟨30, _⟩ => ⟨S16384x20x128, .f32⟩
  | .hbm, ⟨31, _⟩ => ⟨S16384x20x128, .f32⟩
  | .hbm, ⟨32, _⟩ => ⟨S_, .f32⟩
  | .hbm, ⟨33, _⟩ => ⟨S16384x20, .f32⟩
  | .hbm, ⟨34, _⟩ => ⟨S16384x20x1, .f32⟩
  | .hbm, ⟨35, _⟩ => ⟨S_, .f32⟩
  | .hbm, ⟨36, _⟩ => ⟨S16384x20x1, .f32⟩
  | .hbm, ⟨37, _⟩ => ⟨S16384x20x1, .f32⟩
  | .hbm, ⟨38, _⟩ => ⟨S16384x20x128, .f32⟩
  | .hbm, ⟨39, _⟩ => ⟨S16384x20x128, .f32⟩
  | .hbm, ⟨40, _⟩ => ⟨S16384x20x128, .f32⟩
  | .hbm, ⟨41, _⟩ => ⟨S_, .f32⟩
  | .hbm, ⟨42, _⟩ => ⟨S16384x20, .f32⟩
  | .hbm, ⟨43, _⟩ => ⟨S16384x20x1, .f32⟩
  | .hbm, ⟨44, _⟩ => ⟨S_, .f32⟩
  | .hbm, ⟨45, _⟩ => ⟨S16384x20x1, .f32⟩
  | .hbm, ⟨46, _⟩ => ⟨S16384x20x1, .f32⟩
  | .hbm, ⟨47, _⟩ => ⟨S16384x20x128, .f32⟩
  | .hbm, ⟨48, _⟩ => ⟨S16384x20x128, .f32⟩
  | .hbm, ⟨49, _⟩ => ⟨S_, .f32⟩
  | .hbm, ⟨50, _⟩ => ⟨S16384x20x1, .f32⟩
  | .hbm, ⟨51, _⟩ => ⟨S16384x20x1, .f32⟩
  | .hbm, ⟨52, _⟩ => ⟨S16384x20x1, .f32⟩
  | .hbm, ⟨53, _⟩ => ⟨S16384x20x128, .f32⟩
  | .hbm, ⟨54, _⟩ => ⟨S16384x20x128, .f32⟩
  | .hbm, ⟨55, _⟩ => ⟨S1x1x128, .f32⟩
  | .hbm, ⟨56, _⟩ => ⟨S16384x20x128, .f32⟩
  | .hbm, ⟨57, _⟩ => ⟨S16384x20x128, .f32⟩
  | .hbm, ⟨58, _⟩ => ⟨S1x1x128, .f32⟩
  | .hbm, ⟨59, _⟩ => ⟨S16384x20x128, .f32⟩
  | .hbm, ⟨60, _⟩ => ⟨S16384x20x128, .f32⟩
  | _, _ => ⟨S16384x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_cst_0 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_1 : Ref sig .tc := ⟨.hbm, 41, rfl⟩
abbrev main_v12 : Ref sig .tc := ⟨.hbm, 42, rfl⟩
abbrev main_v13 : Ref sig .tc := ⟨.hbm, 43, rfl⟩
abbrev main_cst_2 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_cst_3 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩

abbrev nD : Nat := 1
abbrev τ : Topo := Topo.v7x

variable {F : FTy → Type} [FloatOps F]

class Facts₀ : Prop where
  slices_S25x128_S20x128_0_0 : S25x128.Slices ![0, 0] S20x128
  bcast_S_S16384x20 : S_.BroadcastsInDim S16384x20 (![] : Fin 0 → Fin S16384x20.rank)
  bcast_S16384x20_S16384x20x1_0_1 : S16384x20.BroadcastsInDim S16384x20x1 (![0, 1] : Fin 2 → Fin S16384x20x1.rank)
  bcast_S_S16384x20x1 : S_.BroadcastsInDim S16384x20x1 (![] : Fin 0 → Fin S16384x20x1.rank)
  bcast_S1_S1x1x1_2 : S1.BroadcastsInDim S1x1x1 (![2] : Fin 1 → Fin S1x1x1.rank)
  bcast_S1x1x1_S16384x20x1_0_1_2 : S1x1x1.BroadcastsInDim S16384x20x1 (![0, 1, 2] : Fin 3 → Fin S16384x20x1.rank)
  reducesTo_S16384x20x1_S16384x20_d2 : S16384x20x1.ReducesTo [2] S16384x20
  h_S_ : 0 < S_.numel
  bcast_S16384x20_S16384x20x128_0_1 : S16384x20.BroadcastsInDim S16384x20x128 (![0, 1] : Fin 2 → Fin S16384x20x128.rank)
  bcast_S_S16384x20x128 : S_.BroadcastsInDim S16384x20x128 (![] : Fin 0 → Fin S16384x20x128.rank)
  bcast_S20x128_S1x20x128_1_2 : S20x128.BroadcastsInDim S1x20x128 (![1, 2] : Fin 2 → Fin S1x20x128.rank)
  bcast_S1x20x128_S16384x20x128_0_1_2 : S1x20x128.BroadcastsInDim S16384x20x128 (![0, 1, 2] : Fin 3 → Fin S16384x20x128.rank)
  reducesTo_S16384x20x128_S16384x20_d2 : S16384x20x128.ReducesTo [2] S16384x20
  bcast_S16384x20x1_S16384x20x128_0_1_2 : S16384x20x1.BroadcastsInDim S16384x20x128 (![0, 1, 2] : Fin 3 → Fin S16384x20x128.rank)
  bcast_S128_S1x1x128_2 : S128.BroadcastsInDim S1x1x128 (![2] : Fin 1 → Fin S1x1x128.rank)
  bcast_S1x1x128_S16384x20x128_0_1_2 : S1x1x128.BroadcastsInDim S16384x20x128 (![0, 1, 2] : Fin 3 → Fin S16384x20x128.rank)
  gather_S98x128_S16384x20x1_S16384x20x128_2_0_n_n_0_2_1128_wf : GatherDims.WF S98x128 S16384x20x1 S16384x20x128 [2] [0] [] [0] [] 2 ![1, 128]

variable [Facts₀]

def gather_S98x128_S16384x20x1_S16384x20x128_2_0_n_n_0_2_1128 : GatherDims S98x128 S16384x20x1 S16384x20x128 where
  offsetDims := [2]
  collapsedSliceDims := [0]
  operandBatchingDims := []
  startIndicesBatchingDims := []
  startIndexMap := [0]
  indexVectorDim := 2
  sliceSizes := ![1, 128]
  wf := gather_S98x128_S16384x20x1_S16384x20x128_2_0_n_n_0_2_1128_wf

class Facts : Prop extends Facts₀ where

variable [Facts]
-- ==== Proof.Common.lean ====
/-
  Shared definitions: the values the kernel's three calls compute, as pure functions generic in the float
  instance, and the per-tile operands of the SparseCore call.

  * `comb0`: the layer-normalised table of the first TensorCore call, entry (s, n, k) = LN(pos s + letter n) k · w k + b k,
    written with the body's own vector operations.
  * `idx0`: the flat row numbers of the second TensorCore call, entry (r, s) = x (r, s) + 98 · s as 32-bit words.
  * `gOut`: the gather's result as ONE whole-array function: entry (b, s, k) of the output is column k of the table row
    named by the index word at chunk position (b / 512, (b mod 512) / 4, (b mod 4) · 20 + s) — tile b / 512 handles batch
    rows [512 · (b / 512), …), in chunks of four batch elements of twenty positions each.
-/
import proofs.«206393_g35751307772044_cont_8to1_b_353_20_alg».proof.KernelIdeal
import Idealize.ShloMosaic.Lib.SparseCore.Launch
import Idealize.ShloMosaic.Lib.Transfers
import Idealize.ShloMosaic.Lib.ValueIdx

noncomputable section

namespace Cert.Proof.Common

open Cert.KernelIdeal
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)
open Cert.KernelIdeal.Facts₀ Cert.KernelIdeal.Facts

variable {F : FTy → Type} [FloatOps F] [Cert.KernelIdeal.Facts]

/-! ## The three calls' values -/

/-- The first call's table: `(pos s + letter n)` normalised over its 128 columns (mean and variance as sums divided by
    128, the variance shifted by ε under the square root), scaled by `w` and shifted by `b`; the operations are the body's. -/
def comb0 (lt : FVec F S98x128 .f32) (p20 : FVec F S20x128 .f32) (w1 b1 : FVec F S1x128 .f32) : FVec F S20x98x128 .f32 :=
  let v1 : FVec F S20x128 .f32 := shapeCast S20x128 p20 shapeCasts_S20x128_S20x128
  let v2 : FVec F S20x1x128 .f32 := shapeCast S20x1x128 v1 shapeCasts_S20x128_S20x1x128
  let v4 : FVec F S1x98x128 .f32 := shapeCast S1x98x128 lt shapeCasts_S98x128_S1x98x128
  let v5 : FVec F S20x98x128 .f32 := broadcastTo S20x98x128 v2 broadcasts_S20x1x128_S20x98x128
  let v6 : FVec F S20x98x128 .f32 := broadcastTo S20x98x128 v4 broadcasts_S1x98x128_S20x98x128
  let v7 : FVec F S20x98x128 .f32 := addf v5 v6
  let v8 : FVec F S20x98 .f32 := multiReduction .add [2] S20x98 v7 0x00000000#32 reduces_S20x98x128_S20x98 (.inl rfl) rfl
  let v9 : FVec F S20x98x1 .f32 := shapeCast S20x98x1 v8 shapeCasts_S20x98_S20x98x1
  let v10 : FVec F S20x98x1 .f32 := broadcast S20x98x1 (Scalar.ofBits .f32 0x43000000#32)
  let v11 : FVec F S20x98x1 .f32 := divf v9 v10
  let v12 : FVec F S20x98x128 .f32 := broadcastTo S20x98x128 v11 broadcasts_S20x98x1_S20x98x128
  let v13 : FVec F S20x98x128 .f32 := subf v7 v12
  let v14 : FVec F S20x98x128 .f32 := mulf v13 v13
  let v15 : FVec F S20x98 .f32 := multiReduction .add [2] S20x98 v14 0x00000000#32 reduces_S20x98x128_S20x98 (.inl rfl) rfl
  let v16 : FVec F S20x98x1 .f32 := shapeCast S20x98x1 v15 shapeCasts_S20x98_S20x98x1
  let v17 : FVec F S20x98x1 .f32 := broadcast S20x98x1 (Scalar.ofBits .f32 0x43000000#32)
  let v18 : FVec F S20x98x1 .f32 := divf v16 v17
  let v19 : FVec F S20x98x128 .f32 := broadcastTo S20x98x128 v11 broadcasts_S20x98x1_S20x98x128
  let v20 : FVec F S20x98x128 .f32 := subf v7 v19
  let v21 : FVec F S20x98x1 .f32 := broadcast S20x98x1 (Scalar.ofBits .f32 0x3727C5AC#32)
  let v22 : FVec F S20x98x1 .f32 := addf v18 v21
  let v23 : FVec F S20x98x1 .f32 := sqrt v22
  let v24 : FVec F S20x98x128 .f32 := broadcastTo S20x98x128 v23 broadcasts_S20x98x1_S20x98x128
  let v25 : FVec F S20x98x128 .f32 := divf v20 v24
  let v27 : FVec F S1x128 .f32 := shapeCast S1x128 w1 shapeCasts_S1x128_S1x128
  let v28 : FVec F S1x1x128 .f32 := shapeCast S1x1x128 v27 shapeCasts_S1x128_S1x1x128
  let v29 : FVec F S20x98x128 .f32 := broadcastTo S20x98x128 v28 broadcasts_S1x1x128_S20x98x128
  let v30 : FVec F S20x98x128 .f32 := mulf v25 v29
  let v32 : FVec F S1x128 .f32 := shapeCast S1x128 b1 shapeCasts_S1x128_S1x128
  let v33 : FVec F S1x1x128 .f32 := shapeCast S1x1x128 v32 shapeCasts_S1x128_S1x1x128
  let v34 : FVec F S20x98x128 .f32 := broadcastTo S20x98x128 v33 broadcasts_S1x1x128_S20x98x128
  addf v30 v34

/-- One block of the second call: the block's words plus 98 times the column number. -/
def idxBlk (x : IVec S1024x20 32) : IVec S1024x20 32 :=
  addi x (muli (iota .tc S1024x20 32 [1] iota_S1024x20_d1_w32) (broadcast S1024x20 (98#32 : BitVec 32)))

/-- The second call's whole result: word (r, s) is `x (r, s) + 98 · s`. -/
def idx0 (x : IVec S16384x20 32) : IVec S16384x20 32 :=
  fun j => x j + BitVec.ofNat 32 (j 1).val * 98#32

/-- A natural number as a row of the 1960-row table (itself, when below 1960). -/
def rowOf (n : ℕ) : Fin 1960 := ⟨n % 1960, Nat.mod_lt _ (by decide)⟩

theorem rowOf_of_lt {n : ℕ} (h : n < 1960) : (rowOf n).val = n := Nat.mod_eq_of_lt h

/-- Where the index word of output element (b, s, ·) sits in the [32, 128, 80] index array: tile `b / 512`, chunk
    `(b mod 512) / 4`, position `(b mod 4) · 20 + s`. -/
def pos3 (j : S16384x20x128.Idx) : S32x128x80.Idx :=
  have h0 : (j 0).val < 16384 := (j 0).isLt
  have h1 : (j 1).val < 20 := (j 1).isLt
  ix3 (⟨(j 0).val / 512, by omega⟩ : Fin 32) (⟨(j 0).val % 512 / 4, by omega⟩ : Fin 128) (⟨(j 0).val % 4 * 20 + (j 1).val, by omega⟩ : Fin 80)

/-- The gather's result as one whole-array function of the table and the index array. -/
def gOut (cmb : FVec F S1960x128 .f32) (ix : IVec S32x128x80 32) : FVec F S16384x20x128 .f32 :=
  fun j => cmb (ix2 (rowOf (ix (pos3 j)).toNat) (⟨(j 2).val, (j 2).isLt⟩ : Fin 128))

/-! ## The arrays the SparseCore call works on, and a tile's operands -/

section Tile

variable {U : Type} [URA U]

local notation "𝕄" => MT nD τ sig (HIx 1) (Elt F) ℕ U ℕ

abbrev v5Loc (d : Dev nD) : Loc nD τ sig := (SparseCore.T d).loc main_v5
abbrev v6Loc (d : Dev nD) : Loc nD τ sig := (SparseCore.T d).loc main_v6
abbrev v7Loc (d : Dev nD) : Loc nD τ sig := (SparseCore.T d).loc main_v7

abbrev v5V : Memref sig .scVector .hbm S1960x128 .f32 := Memref.whole main_v5_scv
abbrev v6V : Memref sig .scVector .hbm S32x128x80 .i32 := Memref.whole main_v6_scv
abbrev v7V : Memref sig .scVector .hbm S16384x20x128 .f32 := Memref.whole main_v7_scv

/-- Tile `i` of SparseCore `c` is worker `2 i + c`. -/
def wid (c : Fin 2) (i : Fin 16) : Fin 32 := ⟨i.val * 2 + c.val, by omega⟩

theorem idiv : 32 ∣ S32x128x80.size 0 := ⟨1, rfl⟩
theorem odiv : 32 ∣ S16384x20x128.size 0 := ⟨512, rfl⟩

/-- Worker `w`'s rows of the index array (row `w`), and of the output (rows `[512 w, 512 w + 512)`). -/
abbrev idxRect (w : Fin 32) : Rect S32x128x80 := Rect.part (s := S32x128x80) (a₀ := 0) idiv w
abbrev outRect (w : Fin 32) : Rect S16384x20x128 := Rect.part (s := S16384x20x128) (a₀ := 0) odiv w
abbrev idxRows (w : Fin 32) : Finset S32x128x80.Idx := ((v6V).view.slice (idxRect w)).set
abbrev outRows (w : Fin 32) : Finset S16384x20x128.Idx := ((v7V).view.slice (outRect w)).set

/-- Worker `w`'s read share of the table. -/
abbrev cq (w : Fin 32) : PosShare TreeShare := shareTok fullShare 32 w

/-- What a tile is handed: its read share of the whole table, its row of the index array, its rows of the output. -/
def tileGo (d : Dev nD) (w : Fin 32) (cmb : Buf (Elt F) (v5Loc d)) (ix : Buf (Elt F) (v6Loc d)) (o : Buf (Elt F) (v7Loc d)) : sProp 𝕄 :=
  iprop((v5Loc d ↦{cq w} cmb) ∗ (v6Loc d ↦[idxRows w]{fullShare} ix) ∗ (v7Loc d ↦[outRows w]{fullShare} o))

end Tile

end Cert.Proof.Common

end
-- ==== Proof.Launch.lean ====
/-
  The launch: the program's threads — @main on the TensorCore, the two SparseCores' sequencers and their sixteen tiles
  each — run to the end from any memory with zero semaphores, the arguments unchanged and the result array holding
  `gOut` of the table and the index array @main computed.
-/
import proofs.«206393_g35751307772044_cont_8to1_b_353_20_alg».proof.Proof.Common
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import proofs.«206393_g35751307772044_cont_8to1_b_353_20_alg».proof.Proof.Gen.KernelIdeal
import proofs.«206393_g35751307772044_cont_8to1_b_353_20_alg».proof.Proof.Gen.KernelIdeal.Launch

noncomputable section

namespace Cert.Proof.Launch

open Cert.KernelIdeal Cert.Proof.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Facts₀ Cert.KernelIdeal.Facts

variable {F : FTy → Type} [Cert.KernelIdeal.Facts]

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR
instance EP_landsIn : (EP : Emb UP 𝕄).LandsIn (upEmb : UEmb _ 𝕄) := by infer_instance

/-! ## The launch memory and what @main computes from it -/

variable (m : (ℓ : Loc nD τ sig) → Buf (Elt F) ℓ) (ρ : Dev nD → PrngReg)

variable [FloatOps F]

/-- The table the SparseCore call gathers from: the first call's result on the launch arguments, as 1960 rows. -/
def cmbV (d : Dev nD) : Buf (Elt F) (v5Loc d) :=
  shapeCast S1960x128
    (comb0 (F := F) (m ((SparseCore.T d).loc main_arg1)) (extractStridedSlice S20x128 ![0, 0] (m ((SparseCore.T d).loc main_arg2)) slices_S25x128_S20x128_0_0)
      (shapeCast S1x128 (m ((SparseCore.T d).loc main_arg3)) shapeCasts_S128_S1x128) (shapeCast S1x128 (m ((SparseCore.T d).loc main_arg4)) shapeCasts_S128_S1x128))
    shapeCasts_S20x98x128_S1960x128

/-- The index array: the second call's result on the launch argument, as [32, 128, 80]. -/
def ixV (d : Dev nD) : Buf (Elt F) (v6Loc d) :=
  shapeCast S32x128x80 (idx0 (m ((SparseCore.T d).loc main_arg0))) shapeCasts_S16384x20_S32x128x80

/-- What the proof asks of the launch memory: every index word names a row of the table. -/
def PreOK : Prop := ∀ (d : Dev nD) (j : S32x128x80.Idx), (ixV m d j).toNat < 1960

/-! ## What the handshakes carry -/

abbrev goRes (d : Dev nD) (c : Fin 2) (i : Fin 16) : sProp 𝕄 := tileGo d (wid c i) (cmbV m d) (ixV m d) (m (v7Loc d))
abbrev tdRes (d : Dev nD) (c : Fin 2) (i : Fin 16) : sProp 𝕄 := tileGo d (wid c i) (cmbV m d) (ixV m d) (gOut (cmbV m d) (ixV m d))

instance tileGo_storable (d : Dev nD) (w : Fin 32) (cmb : Buf (Elt F) (v5Loc d)) (ix : Buf (Elt F) (v6Loc d)) (o : Buf (Elt F) (v7Loc d)) :
    BI.Storable (upEmb : UEmb _ 𝕄) (tileGo (U := UU) d w cmb ix o) := by unfold tileGo; infer_instance

/-- The one call hands each SparseCore its sixteen tiles' operands and takes their results back. -/
def P : (K (F := F)).Pay (nD := nD) (Val := Elt F) (Name := ℕ) (U := UU) where
  st := fun q d c => match q with
    | 0 => bigSep Finset.univ fun i : Fin ((K (F := F)).nSub 0) => goRes m d (Fin.cast nCore_zero c) (Fin.cast nSub_zero i)
  dn := fun q d c => match q with
    | 0 => bigSep Finset.univ fun i : Fin ((K (F := F)).nSub 0) => tdRes m d (Fin.cast nCore_zero c) (Fin.cast nSub_zero i)
  go := fun q d c i => match q with
    | 0 => goRes m d (Fin.cast nCore_zero c) (Fin.cast nSub_zero i)
  td := fun q d c i => match q with
    | 0 => tdRes m d (Fin.cast nCore_zero c) (Fin.cast nSub_zero i)
  x := fun _ _ => iprop(emp)

instance P_storable : (P (F := F) m).IsStorable where
  st q d c := match q with
    | 0 => (inferInstance : BI.Storable (upEmb : UEmb _ 𝕄)
      (bigSep Finset.univ fun i : Fin ((K (F := F)).nSub 0) => goRes m d (Fin.cast nCore_zero c) (Fin.cast nSub_zero i)))
  dn q d c := match q with
    | 0 => (inferInstance : BI.Storable (upEmb : UEmb _ 𝕄)
      (bigSep Finset.univ fun i : Fin ((K (F := F)).nSub 0) => tdRes m d (Fin.cast nCore_zero c) (Fin.cast nSub_zero i)))
  go q d c i := match q with
    | 0 => (inferInstance : BI.Storable (upEmb : UEmb _ 𝕄) (goRes m d (Fin.cast nCore_zero c) (Fin.cast nSub_zero i)))
  td q d c i := match q with
    | 0 => (inferInstance : BI.Storable (upEmb : UEmb _ 𝕄) (tdRes m d (Fin.cast nCore_zero c) (Fin.cast nSub_zero i)))

/-- A SparseCore's operands ARE its tiles' operands, and its results theirs. -/
theorem vecSplit : (K (F := F)).VecSplit' (P m) 0 := by
  intro d c
  show (bigSep Finset.univ fun i : Fin ((K (F := F)).nSub 0) => goRes m d (Fin.cast nCore_zero c) (Fin.cast nSub_zero i)) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ (bigSep Finset.univ fun i : Fin ((K (F := F)).nSub 0) => tdRes m d (Fin.cast nCore_zero c) (Fin.cast nSub_zero i))))
  iintro H; imodintro
  isplitl [H]; · iexact H
  iintro H; iexact H

/-! ## The launch element of the ghost state -/

/-- The handshakes' rounds, the two pipelines' staging cells' rounds, the transfers' counters. -/
def u₀ : UU :=
  (initOf (K (F := F)).hsCells (K (F := F)).hsToks,
    (initOf (Pipeline.cells cfgs Gen.cellOf_inj) (Pipeline.launchToks cfgs Gen.cellOf_inj), 1))

/-- What @main's proof starts from beside the launch memory: both pipelines' staging cells' ghost state and duty tokens. -/
abbrev Gd (d : Dev nD) : sProp 𝕄 :=
  bigSep Finset.univ fun p : Fin 2 => iprop(Pipeline.cellsGhost cfgs (EP (F := F)) p d ∗ Pipeline.toksInit cfgs (EP (F := F)) p d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  unfold u₀
  iintro Hu
  ihave H := (ownU_pair (A := UH) (B := UP × Counters) (initOf (K (F := F)).hsCells (K (F := F)).hsToks) (initOf (Pipeline.cells cfgs Gen.cellOf_inj) (Pipeline.launchToks cfgs Gen.cellOf_inj), (1 : Counters))) $$ Hu
  icases H with ⟨HH, HR⟩
  ihave H2 := (own_pair_emb (embR : Emb (UP × Counters) 𝕄) (initOf (Pipeline.cells cfgs Gen.cellOf_inj) (Pipeline.launchToks cfgs Gen.cellOf_inj)) (1 : Counters)) $$ HR
  icases H2 with ⟨HP, -⟩
  imod (Pipeline.fund_ghost cfgs (EP (F := F)) Gen.cellOf_inj) $$ HP with ⟨Hg, Ht⟩
  imodintro
  isplitl [HH]; · iexact HH
  isplitl [Hg Ht]
  · unfold Gd
    simp only [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## What the TensorCore ends with, read off the final memory -/

abbrev argLoc0 (d : Dev nD) : Loc nD τ sig := (SparseCore.T d).loc main_arg0
abbrev argLoc1 (d : Dev nD) : Loc nD τ sig := (SparseCore.T d).loc main_arg1
abbrev argLoc2 (d : Dev nD) : Loc nD τ sig := (SparseCore.T d).loc main_arg2
abbrev argLoc3 (d : Dev nD) : Loc nD τ sig := (SparseCore.T d).loc main_arg3
abbrev argLoc4 (d : Dev nD) : Loc nD τ sig := (SparseCore.T d).loc main_arg4

/-- The result array at the gather's whole-array function, the five arguments at their launch contents. -/
abbrev FIN (d : Dev nD) : sProp 𝕄 :=
  iprop((v7Loc d ↦{fullShare} gOut (cmbV m d) (ixV m d)) ∗ (argLoc0 d ↦{fullShare} m (argLoc0 d)) ∗ (argLoc1 d ↦{fullShare} m (argLoc1 d))
    ∗ (argLoc2 d ↦{fullShare} m (argLoc2 d)) ∗ (argLoc3 d ↦{fullShare} m (argLoc3 d)) ∗ (argLoc4 d ↦{fullShare} m (argLoc4 d)))

def fq (d : Dev nD) (s' : Phys nD τ sig (Elt F)) : Prop :=
  s'.mem.mem (v7Loc d) = gOut (cmbV m d) (ixV m d) ∧ s'.mem.mem (argLoc0 d) = m (argLoc0 d) ∧ s'.mem.mem (argLoc1 d) = m (argLoc1 d)
    ∧ s'.mem.mem (argLoc2 d) = m (argLoc2 d) ∧ s'.mem.mem (argLoc3 d) = m (argLoc3 d) ∧ s'.mem.mem (argLoc4 d) = m (argLoc4 d)

set_option maxRecDepth 16384 in
theorem hfin (d : Dev nD) (s' : Phys nD τ sig (Elt F)) : iprop(FIN m d ∗ SI s') ⊢ (⌜fq m d s'⌝ : sProp 𝕄) := by
  iintro ⟨⟨Ho, H0, H1, H2, H3, H4⟩, HSI⟩
  ihave H := (persistent_entails_right (SI_pointsTo_agree (st := s') (ℓ := v7Loc d) (I := Finset.univ) (q := fullShare) (f := gOut (cmbV m d) (ixV m d)))) $$ [HSI Ho]
  · isplitl [HSI] <;> iassumption
  icases H with ⟨%ho, HSI, -⟩
  ihave H := (persistent_entails_right (SI_pointsTo_agree (st := s') (ℓ := argLoc0 d) (I := Finset.univ) (q := fullShare) (f := m (argLoc0 d)))) $$ [HSI H0]
  · isplitl [HSI] <;> iassumption
  icases H with ⟨%h0, HSI, -⟩
  ihave H := (persistent_entails_right (SI_pointsTo_agree (st := s') (ℓ := argLoc1 d) (I := Finset.univ) (q := fullShare) (f := m (argLoc1 d)))) $$ [HSI H1]
  · isplitl [HSI] <;> iassumption
  icases H with ⟨%h1, HSI, -⟩
  ihave H := (persistent_entails_right (SI_pointsTo_agree (st := s') (ℓ := argLoc2 d) (I := Finset.univ) (q := fullShare) (f := m (argLoc2 d)))) $$ [HSI H2]
  · isplitl [HSI] <;> iassumption
  icases H with ⟨%h2, HSI, -⟩
  ihave H := (persistent_entails_right (SI_pointsTo_agree (st := s') (ℓ := argLoc3 d) (I := Finset.univ) (q := fullShare) (f := m (argLoc3 d)))) $$ [HSI H3]
  · isplitl [HSI] <;> iassumption
  icases H with ⟨%h3, HSI, -⟩
  ihave H := (SI_pointsTo_agree (st := s') (ℓ := argLoc4 d) (I := Finset.univ) (q := fullShare) (f := m (argLoc4 d))) $$ [HSI H4]
  · isplitl [HSI] <;> iassumption
  icases H with %h4
  ipureintro
  exact ⟨funext fun i => ho i (Finset.mem_univ i), funext fun i => h0 i (Finset.mem_univ i), funext fun i => h1 i (Finset.mem_univ i),
    funext fun i => h2 i (Finset.mem_univ i), funext fun i => h3 i (Finset.mem_univ i), funext fun i => h4 i (Finset.mem_univ i)⟩

/-! ## The program's run -/

def QC : PUnit × MemSt nD τ sig (Elt F) → Prop := fun r => ∀ c : Dev nD,
  r.2.mem (v7Loc c) = gOut (cmbV m c) (ixV m c) ∧ r.2.mem (argLoc0 c) = m (argLoc0 c) ∧ r.2.mem (argLoc1 c) = m (argLoc1 c)
    ∧ r.2.mem (argLoc2 c) = m (argLoc2 c) ∧ r.2.mem (argLoc3 c) = m (argLoc3 c) ∧ r.2.mem (argLoc4 c) = m (argLoc4 c)

/-- The run, from the tile's obligation and @main's proof on the TensorCore. -/
theorem run_of [∀ e, Nonempty (Elt F e)]
    (htile : (K (F := F)).TileObl (D (F := F)) 𝒱 (P m) v₀ 0)
    (hmain : ∀ (κ : GSem nD τ sig → ℕ) (d : Dev nD),
      iprop((K (F := F)).ctx EH (P m) κ ∗ (K (F := F)).tcSt EH d 0 ∗ (K (F := F)).tcRes m ρ d ∗ Gd (F := F) d)
        ⊢ wp frame (wpE ((K (F := F)).defs (D (F := F))) 𝒱 (SparseCore.T d) none) Set.univ (main d)
            fun _ => iprop((K (F := F)).tcSt EH d 1 ∗ FIN m d)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun d => Gd (F := F) d) (FIN m) (u₀ (F := F)) (sep_elim_left.trans (hu₀ m)) hmain (fq m) (hfin m) (QC m) (fun _ h => h)

end Cert.Proof.Launch

end
-- ==== Proof.Spec.lean ====
/-
  The specification: the embedding layer's result as ONE function of the argument arrays, on the extended reals.

  Entry (bb, s, k) of the result is the layer normalisation, over the 128 lanes, of the row
  e = letter_table[x (bb, s)] + pos_table[s]: with μ the mean of e (zero plus the sum of the 128 lanes, divided by 128) and
  var the mean of the squared deviations (e − μ)·(e − μ), the entry is (e k − μ) / sqrt (var + ε) · w k + b k.
  Every operation is the extended reals' own (sum, difference, product, the quotient `Ideal.div`, `Ideal.sqrt`), in the
  order the reference applies them; the three float literals (0, 128, ε) stay the words the programs print. A letter
  word outside [0, 97] is read as the last letter; under the precondition no such word occurs.
-/
import Idealize.ShloMosaic.PureOps.Ideal.Laws
import Idealize.ShloMosaic.Lib.ValueIdx

noncomputable section

namespace Cert.Proof.Spec

open Idealize.ShloMosaic Idealize.ShloMosaic.ValueIdx
open scoped BigOperators

/-- The letter a 32-bit word names: the word read unsigned, capped at the last letter, 97. -/
def row (w : BitVec 32) : Fin 98 := ⟨min w.toNat 97, by omega⟩

/-- A word that reads, signed, in [0, 97] reads the same unsigned. -/
theorem toNat_le_of_range {w : BitVec 32} (h : 0 ≤ w.toInt ∧ w.toInt ≤ 97) : w.toNat ≤ 97 := by
  have h1 := BitVec.toInt_eq_toNat_cond w
  have h2 := w.isLt
  split at h1 <;> omega

/-- In range, the letter is the word itself. -/
theorem row_val {w : BitVec 32} (h : 0 ≤ w.toInt ∧ w.toInt ≤ 97) : (row w).val = w.toNat :=
  Nat.min_eq_left (toNat_le_of_range h)

/-- The mean of 128 lanes as both programs take it: zero plus their sum, divided by 128. -/
def mean (e : Fin 128 → EReal) : EReal :=
  Ideal.div (Ideal.ofBits .f32 0x00000000#32 + ∑ k : Fin 128, e k) (Ideal.ofBits .f32 0x43000000#32)

/-- The variance: the mean of the squared deviations from the mean. -/
def var (e : Fin 128 → EReal) : EReal := mean fun k => (e k - mean e) * (e k - mean e)

/-- Layer normalisation of the row `e` at lane `k`, scaled by `wk` and shifted by `bk`. -/
def ln (e : Fin 128 → EReal) (wk bk : EReal) (k : Fin 128) : EReal :=
  Ideal.div (e k - mean e) (Ideal.sqrt (var e + Ideal.ofBits .f32 0x3727C5AC#32)) * wk + bk

/-- The embedded token of batch element `bb` at position `s`: its letter's row plus the position's row. -/
def emb (x : (⟨2, ![16384, 20]⟩ : Shape).Idx → BitVec 32) (lt : (⟨2, ![98, 128]⟩ : Shape).Idx → EReal)
    (pt : (⟨2, ![25, 128]⟩ : Shape).Idx → EReal) (bb : Fin 16384) (s : Fin 20) : Fin 128 → EReal :=
  fun k => lt (ix2 (row (x (ix2 bb s))) k) + pt (ix2 (⟨s.val, by omega⟩ : Fin 25) k)

/-- The result at coordinates (bb, s, k). -/
def outAt (x : (⟨2, ![16384, 20]⟩ : Shape).Idx → BitVec 32) (lt : (⟨2, ![98, 128]⟩ : Shape).Idx → EReal)
    (pt : (⟨2, ![25, 128]⟩ : Shape).Idx → EReal) (w b : (⟨1, ![128]⟩ : Shape).Idx → EReal)
    (bb : Fin 16384) (s : Fin 20) (k : Fin 128) : EReal :=
  ln (emb x lt pt bb s) (w (ix1 k)) (b (ix1 k)) k

/-- The result as one function of the five argument arrays. -/
def out (x : (⟨2, ![16384, 20]⟩ : Shape).Idx → BitVec 32) (lt : (⟨2, ![98, 128]⟩ : Shape).Idx → EReal)
    (pt : (⟨2, ![25, 128]⟩ : Shape).Idx → EReal) (w b : (⟨1, ![128]⟩ : Shape).Idx → EReal) :
    (⟨3, ![16384, 20, 128]⟩ : Shape).Idx → EReal :=
  fun j => outAt x lt pt w b (j 0) (j 1) (j 2)

/-- At an index given by coordinates the result is `outAt` there. -/
theorem out_ix3 (x : (⟨2, ![16384, 20]⟩ : Shape).Idx → BitVec 32) (lt : (⟨2, ![98, 128]⟩ : Shape).Idx → EReal)
    (pt : (⟨2, ![25, 128]⟩ : Shape).Idx → EReal) (w b : (⟨1, ![128]⟩ : Shape).Idx → EReal)
    (bb : Fin 16384) (s : Fin 20) (k : Fin 128) : out x lt pt w b (ix3 bb s k) = outAt x lt pt w b bb s k := rfl

end Cert.Proof.Spec

end
-- ==== Proof.PreDecode.lean ====
/-
  The precondition decoded. The printed precondition is the conjunction of five `all`-reductions: four say every
  float input is finite, the fifth that every letter word x (r, s) satisfies 0 ≤ x (r, s) ≤ 97 read signed. From "the
  conjunction is the bit 1" the fifth conjunct is the bit 1, an `all`-reduction that is 1 had a 1 at every index, and a
  signed comparison that is 1 says the inequality. This holds at every float instance: the float inputs play no part.

  The consequence for the flat row numbers: a word w in [0, 97] plus 98 · s for a position s < 20 does not wrap; as a
  natural number it is w + 98 s < 1960, so it names a row of the [1960, 128] table. Stated for any index array whose word
  at (r, s) is x (r, s) + 98 · s, and for that array re-laid as [32, 128, 80].
-/
import proofs.«206393_g35751307772044_cont_8to1_b_353_20_alg».proof.Pre_input_domain
import proofs.«206393_g35751307772044_cont_8to1_b_353_20_alg».proof.Proof.Spec
import Idealize.ShloMosaic.Lib.ReduceAll
import Idealize.ShloMosaic.Lib.ValueIdx

namespace Cert.Proof.PreDecode

open Idealize.ShloMosaic Idealize.ShloMosaic.ValueIdx

/-- The scalar shape has one index. -/
instance subsingleton_scalar_idx : Subsingleton Cert.Pre_input_domain.S_.Idx := ⟨fun _ _ => funext fun d => d.elim0⟩

section Decode
variable {F : FTy → Type} [FloatOps F] [Cert.Pre_input_domain.Facts]

/-- Under the precondition every letter word is in [0, 97], read signed. -/
theorem letters_in_range (x : IVec Cert.Pre_input_domain.S16384x20 32) (lt : FVec F Cert.Pre_input_domain.S98x128 .f32)
    (pt : FVec F Cert.Pre_input_domain.S25x128 .f32) (w b : FVec F Cert.Pre_input_domain.S128 .f32)
    (h : Cert.Pre_input_domain.fn (F := F) x lt pt w b = fun _ => 1#1) (j : Cert.Pre_input_domain.S16384x20.Idx) :
    0 ≤ (x j).toInt ∧ (x j).toInt ≤ 97 := by
  have e := congrFun h ix0
  dsimp only [Cert.Pre_input_domain.fn, Cert.Pre_input_domain.fn_part1] at e
  -- the last conjunct: the `all` over the letters' range test
  have e24 := (IntOp.andi_eq_one.1 e).2
  have ej := Host.reduce_andi_all _ _ _ _ ix0 e24 j
  obtain ⟨h0, h97⟩ := IntOp.andi_eq_one.1 ej
  have a : (0#32 : BitVec 32).toInt ≤ (x j).toInt := IntOp.cmpi_sge.1 h0
  have c : (x j).toInt ≤ (97#32 : BitVec 32).toInt := IntOp.cmpi_sle.1 h97
  have z : (0#32 : BitVec 32).toInt = 0 := by decide
  have n : (97#32 : BitVec 32).toInt = 97 := by decide
  omega

end Decode

/-- A letter word in [0, 97] plus 98 times a position below 20 does not wrap: it is the natural number w + 98 s. -/
theorem word_toNat (w : BitVec 32) (s : ℕ) (hs : s < 20) (hw : 0 ≤ w.toInt ∧ w.toInt ≤ 97) :
    (w + BitVec.ofNat 32 s * 98#32).toNat = w.toNat + 98 * s := by
  have hn := Spec.toNat_le_of_range hw
  rw [BitVec.toNat_add, BitVec.toNat_mul, BitVec.toNat_ofNat, BitVec.toNat_ofNat]
  omega

/-- … and names a row of the [1960, 128] table. -/
theorem word_lt (w : BitVec 32) (s : ℕ) (hs : s < 20) (hw : 0 ≤ w.toInt ∧ w.toInt ≤ 97) :
    (w + BitVec.ofNat 32 s * 98#32).toNat < 1960 := by
  have hn := Spec.toNat_le_of_range hw
  rw [word_toNat w s hs hw]
  omega

/-- Every word of the flat row numbers is below 1960. -/
theorem idx_lt (x ix : IVec ⟨2, ![16384, 20]⟩ 32) (hix : ∀ j, ix j = x j + BitVec.ofNat 32 (j 1).val * 98#32)
    (hx : ∀ j, 0 ≤ (x j).toInt ∧ (x j).toInt ≤ 97) (j : (⟨2, ![16384, 20]⟩ : Shape).Idx) : (ix j).toNat < 1960 := by
  rw [hix j]
  exact word_lt (x j) (j 1).val (idx2_lt1 j) (hx j)

/-- The same of the row numbers re-laid as [32, 128, 80]: a shape cast only renames the indices. -/
theorem idx3_lt (x ix : IVec ⟨2, ![16384, 20]⟩ 32) (hix : ∀ j, ix j = x j + BitVec.ofNat 32 (j 1).val * 98#32)
    (hx : ∀ j, 0 ≤ (x j).toInt ∧ (x j).toInt ≤ 97) (hc : (⟨2, ![16384, 20]⟩ : Shape).ShapeCasts ⟨3, ![32, 128, 80]⟩)
    (p : (⟨3, ![32, 128, 80]⟩ : Shape).Idx) : (shapeCast ⟨3, ![32, 128, 80]⟩ ix hc p).toNat < 1960 := by
  unfold shapeCast
  exact idx_lt x ix hix hx _

end Cert.Proof.PreDecode
-- ==== Proof.Bridge.lean ====
/-
  The kernel's value is the specification, at the extended reals.

  The kernel computes the normalised table comb (s, n, ·) = LN (pos s + letter n) · w + b once for every (position,
  letter) pair, flat row numbers idx (r, s) = x (r, s) + 98 s, and gathers: output element (r, s, k) is column k of row
  idx (r, s) of the table re-laid as [1960, 128]. Three facts join this to the specification:
  * the re-layings are row-major renamings: position ((r / 512) · 128 + (r mod 512) / 4) · 80 + (r mod 4) · 20 + s of the
    [32, 128, 80] index array is position r · 20 + s of the [16384, 20] one, and row 98 s + n of the [1960, 128] table is
    entry (s, n) of the [20, 98, 128] one;
  * for a letter word in [0, 97] the row number 98 s + x does not wrap and is below 1960, so the gathered row is entry
    (s, x) of the table;
  * the table's entry, read through the body's broadcasts, unit-axis casts and lane sums, is the layer normalisation of the
    row pos s + letter n, which is letter n + pos s lane by lane (addition of extended reals commutes; nothing here needs
    the entries finite). The lane sum of the kernel has no initial value where the specification adds the zero word:
    0 + a = a.
-/
import proofs.«206393_g35751307772044_cont_8to1_b_353_20_alg».proof.Proof.Common
import proofs.«206393_g35751307772044_cont_8to1_b_353_20_alg».proof.Proof.Spec
import proofs.«206393_g35751307772044_cont_8to1_b_353_20_alg».proof.Proof.PreDecode
import Idealize.ShloMosaic.Lib.ValueLayout
import Idealize.ShloMosaic.PureOps.Ideal.Laws

noncomputable section

namespace Cert.Proof.Bridge

open Cert.KernelIdeal Cert.Proof.Common
open Idealize.ShloMosaic Idealize.ShloMosaic.ValueIdx
open Cert.KernelIdeal.Facts₀ Cert.KernelIdeal.Facts
open scoped BigOperators

variable [Cert.KernelIdeal.Facts]

/-! ## The body's layout operations read at (s, n, k) -/

section Layout
variable {α : Type}

/-- A [20, 128] array given a unit middle axis and laid along the 98 letters reads its row s at (s, n, ·). -/
theorem bcast_pos (v : S20x128.Idx → α) (s : Fin 20) (n : Fin 98) (k : Fin 128) :
    broadcastTo S20x98x128
        (shapeCast S20x1x128 (shapeCast S20x128 v shapeCasts_S20x128_S20x128) shapeCasts_S20x128_S20x1x128)
        broadcasts_S20x1x128_S20x98x128 (ix3 s n k) = v (ix2 s k) := by
  rw [shapeCast_self]
  refine (broadcastTo_apply _ _ (ix3 s n k) (ix3 s (0 : Fin 1) k) fun a => ?_).trans ?_
  · match a with
    | ⟨0, _⟩ => rfl
    | ⟨1, _⟩ => rfl
    | ⟨2, _⟩ => rfl
  · refine shapeCast_apply _ _ _ _ ?_
    rw [Shape.rowMajor_val_two, Shape.rowMajor_val_three]
    show s.val * 128 + k.val = (s.val * 1 + 0) * 128 + k.val
    omega

/-- A [98, 128] array given a unit leading axis and laid along the 20 positions reads its row n at (s, n, ·). -/
theorem bcast_letter (v : S98x128.Idx → α) (s : Fin 20) (n : Fin 98) (k : Fin 128) :
    broadcastTo S20x98x128 (shapeCast S1x98x128 v shapeCasts_S98x128_S1x98x128) broadcasts_S1x98x128_S20x98x128 (ix3 s n k)
      = v (ix2 n k) := by
  refine (broadcastTo_apply _ _ (ix3 s n k) (ix3 (0 : Fin 1) n k) fun a => ?_).trans ?_
  · match a with
    | ⟨0, _⟩ => rfl
    | ⟨1, _⟩ => rfl
    | ⟨2, _⟩ => rfl
  · exact shapeCast_ab_1ab_apply v _ 0 n k

/-- A [20, 98, 1] column laid along the 128 lanes reads its one entry at (s, n, ·). -/
theorem bcast_col (v : S20x98x1.Idx → α) (s : Fin 20) (n : Fin 98) (k : Fin 128) :
    broadcastTo S20x98x128 v broadcasts_S20x98x1_S20x98x128 (ix3 s n k) = v (ix3 s n (0 : Fin 1)) := by
  refine broadcastTo_apply _ _ (ix3 s n k) (ix3 s n (0 : Fin 1)) fun a => ?_
  match a with
  | ⟨0, _⟩ => rfl
  | ⟨1, _⟩ => rfl
  | ⟨2, _⟩ => rfl

/-- A [20, 98] array given a unit last axis reads (s, n) at (s, n, 0). -/
theorem cast_col (v : S20x98.Idx → α) (s : Fin 20) (n : Fin 98) (u : Fin 1) :
    shapeCast S20x98x1 v shapeCasts_S20x98_S20x98x1 (ix3 s n u) = v (ix2 s n) := by
  refine shapeCast_apply _ _ _ _ ?_
  have hu : u.val = 0 := by omega
  rw [Shape.rowMajor_val_two, Shape.rowMajor_val_three]
  show s.val * 98 + n.val = (s.val * 98 + n.val) * 1 + u.val
  omega

/-- A [1, 128] row given a second unit axis and laid over all (s, n) reads its lane k at (s, n, k). -/
theorem bcast_lane (v : S1x128.Idx → α) (s : Fin 20) (n : Fin 98) (k : Fin 128) :
    broadcastTo S20x98x128
        (shapeCast S1x1x128 (shapeCast S1x128 v shapeCasts_S1x128_S1x128) shapeCasts_S1x128_S1x1x128)
        broadcasts_S1x1x128_S20x98x128 (ix3 s n k) = v (ix2 (0 : Fin 1) k) := by
  rw [shapeCast_self]
  refine (broadcastTo_apply _ _ (ix3 s n k) (ix3 (0 : Fin 1) (0 : Fin 1) k) fun a => ?_).trans ?_
  · match a with
    | ⟨0, _⟩ => rfl
    | ⟨1, _⟩ => rfl
    | ⟨2, _⟩ => rfl
  · exact shapeCast_ab_1ab_apply v _ 0 0 k

/-- Row 98 s + n of the table re-laid as [1960, 128] is entry (s, n) of the [20, 98, 128] table. -/
theorem table_row (cmb : S20x98x128.Idx → α) (r : Fin 1960) (s : Fin 20) (n : Fin 98) (k k' : Fin 128)
    (hr : r.val = s.val * 98 + n.val) (hk : k'.val = k.val) :
    shapeCast S1960x128 cmb shapeCasts_S20x98x128_S1960x128 (ix2 r k') = cmb (ix3 s n k) := by
  refine shapeCast_apply _ _ _ _ ?_
  rw [Shape.rowMajor_val_two, Shape.rowMajor_val_three]
  show (s.val * 98 + n.val) * 128 + k.val = r.val * 128 + k'.val
  omega

/-- Position (r / 512, (r mod 512) / 4, (r mod 4) · 20 + s) of the index array re-laid as [32, 128, 80] is (r, s). -/
theorem index_word (ix : S16384x20.Idx → α) (bb : Fin 16384) (s : Fin 20) (k : Fin 128) :
    shapeCast S32x128x80 ix shapeCasts_S16384x20_S32x128x80 (pos3 (ix3 bb s k)) = ix (ix2 bb s) := by
  refine shapeCast_apply _ _ _ _ ?_
  rw [Shape.rowMajor_val_two, Shape.rowMajor_val_three]
  show bb.val * 20 + s.val = (bb.val / 512 * 128 + bb.val % 512 / 4) * 80 + (bb.val % 4 * 20 + s.val)
  omega

end Layout

/-! ## The lane sum, and the square root, read at an index -/

/-- The body's sum over the 128 lanes at (s, n), whatever evidence the reduction carries that its accumulator word is the
    sum's neutral element (the zero word is, by computation). -/
theorem reduce_lane (src : FVec Ideal S20x98x128 .f32) (hφ : FKind.Formats .f32)
    (hacc : (0x00000000#32 : BitVec FTy.f32.bits) = 0x00000000#32) (s : Fin 20) (n : Fin 98) :
    multiReduction .add [2] S20x98 src 0x00000000#32 reduces_S20x98x128_S20x98 hφ hacc (ix2 s n)
      = ∑ k : Fin 128, src (ix3 s n k) := by
  refine (Ideal.multiReduction_add_single src 0x00000000#32 reduces_S20x98x128_S20x98 hφ hacc (ix2 s n)).trans ?_
  refine Finset.sum_congr rfl fun k _ => congrArg src (funext fun a => Fin.ext ?_)
  match a with
  | ⟨0, _⟩ => rfl
  | ⟨1, _⟩ => rfl
  | ⟨2, _⟩ => rfl

/-- A square root at an index is the extended reals' square root of the element. -/
theorem sqrt_apply {s : Shape} {φ : FTy} (a : FVec Ideal s φ) (i : s.Idx) : sqrt a i = Ideal.sqrt (a i) := rfl

/-- A scalar literal at the extended reals is the number its word denotes. -/
theorem scalar_ofBits (φ : FTy) (b : BitVec φ.bits) : Scalar.ofBits (F := Ideal) φ b = Ideal.ofBits φ b := rfl

/-! ## The table's entry -/

/-- Entry (s, n, k) of the table is the layer normalisation of the row pos s + letter n at lane k. -/
theorem comb0_apply (lt : FVec Ideal S98x128 .f32) (p20 : FVec Ideal S20x128 .f32) (w1 b1 : FVec Ideal S1x128 .f32)
    (s : Fin 20) (n : Fin 98) (k : Fin 128) :
    comb0 (F := Ideal) lt p20 w1 b1 (ix3 s n k)
      = Spec.ln (fun k' => p20 (ix2 s k') + lt (ix2 n k')) (w1 (ix2 (0 : Fin 1) k)) (b1 (ix2 (0 : Fin 1) k)) k := by
  unfold comb0 Spec.ln Spec.var Spec.mean
  -- read the pointwise and layout operations at the index; each lane sum is opened in turn, outermost first
  simp only [addf_apply, mulf_apply, divf_apply, subf_apply, sqrt_apply, broadcast_apply, scalar_ofBits,
    bcast_pos, bcast_letter, bcast_col, cast_col, bcast_lane, Ideal.ofBits_zero_f32, zero_add]
  rw [reduce_lane, reduce_lane]
  simp only [addf_apply, mulf_apply, divf_apply, subf_apply, broadcast_apply, scalar_ofBits,
    bcast_pos, bcast_letter, bcast_col, cast_col]
  rw [reduce_lane]
  simp only [addf_apply, bcast_pos, bcast_letter]

/-! ## The bridge -/

/-- The gathered, re-laid table is the specification. -/
theorem kernel_eq_spec (x : IVec S16384x20 32) (lt : FVec Ideal S98x128 .f32) (pt : FVec Ideal S25x128 .f32)
    (w b : FVec Ideal S128 .f32) (hx : ∀ j, 0 ≤ (x j).toInt ∧ (x j).toInt ≤ 97) :
    gOut (F := Ideal)
        (shapeCast S1960x128
          (comb0 lt (extractStridedSlice S20x128 ![0, 0] pt slices_S25x128_S20x128_0_0)
            (shapeCast S1x128 w shapeCasts_S128_S1x128) (shapeCast S1x128 b shapeCasts_S128_S1x128))
          shapeCasts_S20x98x128_S1960x128)
        (shapeCast S32x128x80 (idx0 x) shapeCasts_S16384x20_S32x128x80)
      = Spec.out x lt pt w b := by
  funext j
  obtain ⟨bb, s, k, rfl⟩ : ∃ (bb : Fin 16384) (s : Fin 20) (k : Fin 128), j = ix3 bb s k := ⟨j 0, j 1, j 2, eq_ix3 j⟩
  rw [Spec.out_ix3]
  unfold gOut
  -- the index word, and the row it names
  have hword : shapeCast S32x128x80 (idx0 x) shapeCasts_S16384x20_S32x128x80 (pos3 (ix3 bb s k))
      = x (ix2 bb s) + BitVec.ofNat 32 s.val * 98#32 := index_word (idx0 x) bb s k
  have hnat := PreDecode.word_toNat (x (ix2 bb s)) s.val s.isLt (hx (ix2 bb s))
  have hlt := PreDecode.word_lt (x (ix2 bb s)) s.val s.isLt (hx (ix2 bb s))
  have hn : (Spec.row (x (ix2 bb s))).val = (x (ix2 bb s)).toNat := Spec.row_val (hx (ix2 bb s))
  rw [hword]
  have hr : (rowOf (x (ix2 bb s) + BitVec.ofNat 32 s.val * 98#32).toNat).val
      = s.val * 98 + (Spec.row (x (ix2 bb s))).val := by
    rw [rowOf_of_lt hlt, hnat, hn]; omega
  rw [table_row _ _ s (Spec.row (x (ix2 bb s))) k _ hr rfl, comb0_apply]
  unfold Spec.outAt
  congr 1
  · funext k'
    unfold Spec.emb
    rw [slice2_axis0_apply 0 pt slices_S25x128_S20x128_0_0 s k' (⟨s.val, by omega⟩ : Fin 25) (Nat.zero_add _).symm]
    exact add_comm _ _
  · exact shapeCast_a_1a_apply w _ 0 k
  · exact shapeCast_a_1a_apply b _ 0 k

end Cert.Proof.Bridge

end
-- ==== Proof.PreOK.lean ====
/-
  From the precondition to what the kernel's run asks of the launch memory: every flat row number the second call
  computes names a row of the table. Each letter word is in [0, 97] (the precondition's last conjunct), so the word at
  position s plus 98 s is below 20 · 98 = 1960. This holds at every float instance: the float inputs play no part.
-/
import proofs.«206393_g35751307772044_cont_8to1_b_353_20_alg».proof.Proof.Gen.Pre_input_domain
import proofs.«206393_g35751307772044_cont_8to1_b_353_20_alg».proof.Proof.Launch
import proofs.«206393_g35751307772044_cont_8to1_b_353_20_alg».proof.Proof.PreDecode

noncomputable section

namespace Cert.Proof.Launch

open Idealize.ShloMosaic Idealize.SL.Sem
open Cert.Proof

/-- Under the precondition every flat row number the second call computes names a row of the table: each letter word is
    in [0, 97], so x + 98 s < 1960. At any float instance (the float inputs play no part). -/
theorem preOK_of_pre {F : FTy → Type} [FloatOps F]
    (m : (ℓ : Loc Cert.KernelIdeal.nD Cert.KernelIdeal.τ Cert.KernelIdeal.sig) → Buf (Elt F) ℓ)
    (hpre : ∀ c : Dev Cert.KernelIdeal.nD,
      (Cert.Pre_input_domain.fn (F := F) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))) = (fun _ => 1#1)) :
    PreOK (F := F) m := by
  intro d j
  unfold ixV
  exact PreDecode.idx3_lt _ _ (fun _ => rfl)
    (fun i => PreDecode.letters_in_range (F := F) _ _ _ _ _ (hpre d) i) _ j

end Cert.Proof.Launch

end
-- ==== Proof.RefRun.lean ====
/-
  The reference's run. @main of the reference program is a straight line of StableHLO operations once the two
  module-local functions it calls (the index lookup `_take`, which calls the select `_where`) are unfolded at
  their call sites over the calls' buffer records: fifty-six operations. Every weakly fair execution ends
  with the result buffer at the operations' composed term of the five arguments' launch contents (`refTerm`)
  and the arguments unchanged.

  `refTerm` in words: the indices with a negative one wrapped by the table's 98 rows (`wrapIdx`), as a column
  (`idxCol`); the rows of the letter table gathered at them, kept where the index lies in [0, 97] and NaN
  elsewhere (`take`); plus the first twenty rows of the position table, broadcast over the batch (`emb`); the
  mean over the last axis (`mean`: the sum from zero, divided by 128), the centered value, the variance
  (the mean of the centered value's square), the centered value divided by the square root of the variance
  plus epsilon (`normed`), times the scale, plus the shift, both broadcast over batch and position.
-/
import proofs.«206393_g35751307772044_cont_8to1_b_353_20_alg».proof.Defs
import proofs.«206393_g35751307772044_cont_8to1_b_353_20_alg».proof.Proof.Gen.ReferenceIdeal
import proofs.«206393_g35751307772044_cont_8to1_b_353_20_alg».proof.Proof.Gen.Pre_input_domain
import Idealize.ShloMosaic.Lib.StableHlo.Run

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- The indices as `_take` normalizes them: an index below zero has the table's 98 rows added. -/
def wrapIdx (x : IVec S16384x20 32) : IVec S16384x20 32 :=
  select (cmpi .slt x (broadcastInDim S16384x20 ![] bcast_S_S16384x20 (constantI S_ 32 0#32)))
    (addi x (broadcastInDim S16384x20 ![] bcast_S_S16384x20 (constantI S_ 32 98#32))) x

/-- The normalized indices as a column: the gather's start indices. -/
def idxCol (x : IVec S16384x20 32) : IVec S16384x20x1 32 :=
  broadcastInDim S16384x20x1 ![0, 1] bcast_S16384x20_S16384x20x1_0_1 (wrapIdx x)

/-- Where the normalized index lies in [0, 97]: the two comparisons' conjunction, reduced by `and` over the
    column's one-element axis. -/
def inBounds (x : IVec S16384x20 32) : IVec S16384x20 1 :=
  Host.reduce IntOp.andi
    (andi (cmpi .sge (idxCol x) (broadcastInDim S16384x20x1 ![] bcast_S_S16384x20x1 (constantI S_ 32 0#32)))
      (cmpi .sle (idxCol x)
        (broadcastInDim S16384x20x1 ![0, 1, 2] bcast_S1x1x1_S16384x20x1_0_1_2
          (broadcastInDim S1x1x1 ![2] bcast_S1_S1x1x1_2 (constantI S1 32 97#32)))))
    (constantI S_ 1 1#1) reducesTo_S16384x20x1_S16384x20_d2 h_S_

/-- `jnp.take(letter_table, x, axis=0)`: the gathered rows where the index is in bounds, NaN elsewhere. -/
def take (lt : FVec F S98x128 .f32) (x : IVec S16384x20 32) : FVec F S16384x20x128 .f32 :=
  select (broadcastInDim S16384x20x128 ![0, 1] bcast_S16384x20_S16384x20x128_0_1 (inBounds x))
    (Host.gather gather_S98x128_S16384x20x1_S16384x20x128_2_0_n_n_0_2_1128 lt (idxCol x))
    (broadcastInDim S16384x20x128 ![] bcast_S_S16384x20x128 (constant S_ .f32 0x7FC00000#32))

/-- The embedding: the gathered letter rows plus the first twenty position rows, broadcast over the batch. -/
def emb (x : IVec S16384x20 32) (lt : FVec F S98x128 .f32) (pt : FVec F S25x128 .f32) : FVec F S16384x20x128 .f32 :=
  addf (take lt x)
    (broadcastInDim S16384x20x128 ![0, 1, 2] bcast_S1x20x128_S16384x20x128_0_1_2
      (broadcastInDim S1x20x128 ![1, 2] bcast_S20x128_S1x20x128_1_2
        (extractStridedSlice S20x128 ![0, 0] pt slices_S25x128_S20x128_0_0)))

/-- The mean over the last axis, kept as a unit axis: the sum from zero, divided by 128. -/
def mean (e : FVec F S16384x20x128 .f32) : FVec F S16384x20x1 .f32 :=
  Host.divf
    (broadcastInDim S16384x20x1 ![0, 1] bcast_S16384x20_S16384x20x1_0_1
      (Host.reduceAdd e (constant S_ .f32 0x00000000#32) reducesTo_S16384x20x128_S16384x20_d2 h_S_))
    (broadcastInDim S16384x20x1 ![] bcast_S_S16384x20x1 (constant S_ .f32 0x43000000#32))

/-- The value less its mean. -/
def centered (e : FVec F S16384x20x128 .f32) : FVec F S16384x20x128 .f32 :=
  subf e (broadcastInDim S16384x20x128 ![0, 1, 2] bcast_S16384x20x1_S16384x20x128_0_1_2 (mean e))

/-- The variance: the mean of the centered value's square. -/
def variance (e : FVec F S16384x20x128 .f32) : FVec F S16384x20x1 .f32 :=
  mean (mulf (centered e) (centered e))

/-- The centered value over the square root of the variance plus epsilon. -/
def normed (e : FVec F S16384x20x128 .f32) : FVec F S16384x20x128 .f32 :=
  Host.divf (centered e)
    (broadcastInDim S16384x20x128 ![0, 1, 2] bcast_S16384x20x1_S16384x20x128_0_1_2
      (Host.sqrt (addf (variance e)
        (broadcastInDim S16384x20x1 ![] bcast_S_S16384x20x1 (constant S_ .f32 0x3727C5AC#32)))))

/-- What the reference computes from its five arguments' contents. -/
def refTerm (x : IVec S16384x20 32) (lt : FVec F S98x128 .f32) (pt : FVec F S25x128 .f32) (w b : FVec F S128 .f32) :
    FVec F S16384x20x128 .f32 :=
  addf
    (mulf (normed (emb x lt pt))
      (broadcastInDim S16384x20x128 ![0, 1, 2] bcast_S1x1x128_S16384x20x128_0_1_2
        (broadcastInDim S1x1x128 ![2] bcast_S128_S1x1x128_2 w)))
    (broadcastInDim S16384x20x128 ![0, 1, 2] bcast_S1x1x128_S16384x20x128_0_1_2
      (broadcastInDim S1x1x128 ![2] bcast_S128_S1x1x128_2 b))

/-! ## The program as a list of operations -/

/-- @main's fifty-six operations in order, the two calls unfolded over their buffer records: the slice of the
    position table; `_take`'s twenty-three (among them `_where`'s select); then @main's own thirty-two. -/
abbrev ops : List (HloOp τ sig (Elt F)) :=
  [ unary main_arg2 main_v0 ((extractStridedSlice S20x128 ![0, 0] · slices_S25x128_S20x128_0_0) : (⟨S25x128, .f32⟩ : BufTy).Contents (Elt F) → (⟨S20x128, .f32⟩ : BufTy).Contents (Elt F)),
    TRef.nullary main_call0.c (constantI S_ 32 0#32),
    TRef.unary main_call0.c main_call0.v0 (broadcastInDim S16384x20 ![] bcast_S_S16384x20),
    TRef.binary (TRef.of main_arg0 : TRef sig ⟨S16384x20, .i32⟩) main_call0.v0 main_call0.v1 (cmpi .slt),
    TRef.nullary main_call0.c_0 (constantI S_ 32 98#32),
    TRef.unary main_call0.c_0 main_call0.v2 (broadcastInDim S16384x20 ![] bcast_S_S16384x20),
    TRef.binary (TRef.of main_arg0 : TRef sig ⟨S16384x20, .i32⟩) main_call0.v2 main_call0.v3 addi,
    TRef.ternary main_call0.v1 main_call0.v3 (TRef.of main_arg0 : TRef sig ⟨S16384x20, .i32⟩) main_call0.call0.v0 select,
    TRef.unary main_call0.call0.v0 main_call0.v5 (broadcastInDim S16384x20x1 ![0, 1] bcast_S16384x20_S16384x20x1_0_1),
    TRef.nullary main_call0.c_1 (constantI S1 32 97#32),
    TRef.nullary main_call0.c_2 (constantI S_ 32 0#32),
    TRef.unary main_call0.c_2 main_call0.v6 (broadcastInDim S16384x20x1 ![] bcast_S_S16384x20x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x20x1 ![0, 1, 2] bcast_S1x1x1_S16384x20x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x20x1_S16384x20_d2 h_S_),
    TRef.binary (TRef.of main_arg1 : TRef sig ⟨S98x128, .f32⟩) main_call0.v5 main_call0.v13 (fun x i => Host.gather gather_S98x128_S16384x20x1_S16384x20x128_2_0_n_n_0_2_1128 x i),
    TRef.unary main_call0.v12 main_call0.v14 (broadcastInDim S16384x20x128 ![0, 1] bcast_S16384x20_S16384x20x128_0_1),
    TRef.nullary main_call0.cst (constant S_ .f32 0x7FC00000#32),
    TRef.unary main_call0.cst main_call0.v15 (broadcastInDim S16384x20x128 ![] bcast_S_S16384x20x128),
    TRef.ternary main_call0.v14 main_call0.v13 main_call0.v15 main_call0.v16 select,
    unary main_v0 main_v2 (broadcastInDim S1x20x128 ![1, 2] bcast_S20x128_S1x20x128_1_2 : (⟨S20x128, .f32⟩ : BufTy).Contents (Elt F) → (⟨S1x20x128, .f32⟩ : BufTy).Contents (Elt F)),
    unary main_v2 main_v3 (broadcastInDim S16384x20x128 ![0, 1, 2] bcast_S1x20x128_S16384x20x128_0_1_2 : (⟨S1x20x128, .f32⟩ : BufTy).Contents (Elt F) → (⟨S16384x20x128, .f32⟩ : BufTy).Contents (Elt F)),
    binary main_v1 main_v3 main_v4 (addf : (⟨S16384x20x128, .f32⟩ : BufTy).Contents (Elt F) → (⟨S16384x20x128, .f32⟩ : BufTy).Contents (Elt F) → (⟨S16384x20x128, .f32⟩ : BufTy).Contents (Elt F)),
    nullary main_cst (constant S_ .f32 0x00000000#32),
    binary main_v4 main_cst main_v5 ((fun x v => Host.reduceAdd x v reducesTo_S16384x20x128_S16384x20_d2 h_S_) : (⟨S16384x20x128, .f32⟩ : BufTy).Contents (Elt F) → (⟨S_, .f32⟩ : BufTy).Contents (Elt F) → (⟨S16384x20, .f32⟩ : BufTy).Contents (Elt F)),
    unary main_v5 main_v6 (broadcastInDim S16384x20x1 ![0, 1] bcast_S16384x20_S16384x20x1_0_1 : (⟨S16384x20, .f32⟩ : BufTy).Contents (Elt F) → (⟨S16384x20x1, .f32⟩ : BufTy).Contents (Elt F)),
    nullary main_cst_0 (constant S_ .f32 0x43000000#32),
    unary main_cst_0 main_v7 (broadcastInDim S16384x20x1 ![] bcast_S_S16384x20x1 : (⟨S_, .f32⟩ : BufTy).Contents (Elt F) → (⟨S16384x20x1, .f32⟩ : BufTy).Contents (Elt F)),
    binary main_v6 main_v7 main_v8 (Host.divf : (⟨S16384x20x1, .f32⟩ : BufTy).Contents (Elt F) → (⟨S16384x20x1, .f32⟩ : BufTy).Contents (Elt F) → (⟨S16384x20x1, .f32⟩ : BufTy).Contents (Elt F)),
    unary main_v8 main_v9 (broadcastInDim S16384x20x128 ![0, 1, 2] bcast_S16384x20x1_S16384x20x128_0_1_2 : (⟨S16384x20x1, .f32⟩ : BufTy).Contents (Elt F) → (⟨S16384x20x128, .f32⟩ : BufTy).Contents (Elt F)),
    binary main_v4 main_v9 main_v10 (subf : (⟨S16384x20x128, .f32⟩ : BufTy).Contents (Elt F) → (⟨S16384x20x128, .f32⟩ : BufTy).Contents (Elt F) → (⟨S16384x20x128, .f32⟩ : BufTy).Contents (Elt F)),
    binary main_v10 main_v10 main_v11 (mulf : (⟨S16384x20x128, .f32⟩ : BufTy).Contents (Elt F) → (⟨S16384x20x128, .f32⟩ : BufTy).Contents (Elt F) → (⟨S16384x20x128, .f32⟩ : BufTy).Contents (Elt F)),
    nullary main_cst_1 (constant S_ .f32 0x00000000#32),
    binary main_v11 main_cst_1 main_v12 ((fun x v => Host.reduceAdd x v reducesTo_S16384x20x128_S16384x20_d2 h_S_) : (⟨S16384x20x128, .f32⟩ : BufTy).Contents (Elt F) → (⟨S_, .f32⟩ : BufTy).Contents (Elt F) → (⟨S16384x20, .f32⟩ : BufTy).Contents (Elt F)),
    unary main_v12 main_v13 (broadcastInDim S16384x20x1 ![0, 1] bcast_S16384x20_S16384x20x1_0_1 : (⟨S16384x20, .f32⟩ : BufTy).Contents (Elt F) → (⟨S16384x20x1, .f32⟩ : BufTy).Contents (Elt F)),
    nullary main_cst_2 (constant S_ .f32 0x43000000#32),
    unary main_cst_2 main_v14 (broadcastInDim S16384x20x1 ![] bcast_S_S16384x20x1 : (⟨S_, .f32⟩ : BufTy).Contents (Elt F) → (⟨S16384x20x1, .f32⟩ : BufTy).Contents (Elt F)),
    binary main_v13 main_v14 main_v15 (Host.divf : (⟨S16384x20x1, .f32⟩ : BufTy).Contents (Elt F) → (⟨S16384x20x1, .f32⟩ : BufTy).Contents (Elt F) → (⟨S16384x20x1, .f32⟩ : BufTy).Contents (Elt F)),
    unary main_v8 main_v16 (broadcastInDim S16384x20x128 ![0, 1, 2] bcast_S16384x20x1_S16384x20x128_0_1_2 : (⟨S16384x20x1, .f32⟩ : BufTy).Contents (Elt F) → (⟨S16384x20x128, .f32⟩ : BufTy).Contents (Elt F)),
    binary main_v4 main_v16 main_v17 (subf : (⟨S16384x20x128, .f32⟩ : BufTy).Contents (Elt F) → (⟨S16384x20x128, .f32⟩ : BufTy).Contents (Elt F) → (⟨S16384x20x128, .f32⟩ : BufTy).Contents (Elt F)),
    nullary main_cst_3 (constant S_ .f32 0x3727C5AC#32),
    unary main_cst_3 main_v18 (broadcastInDim S16384x20x1 ![] bcast_S_S16384x20x1 : (⟨S_, .f32⟩ : BufTy).Contents (Elt F) → (⟨S16384x20x1, .f32⟩ : BufTy).Contents (Elt F)),
    binary main_v15 main_v18 main_v19 (addf : (⟨S16384x20x1, .f32⟩ : BufTy).Contents (Elt F) → (⟨S16384x20x1, .f32⟩ : BufTy).Contents (Elt F) → (⟨S16384x20x1, .f32⟩ : BufTy).Contents (Elt F)),
    unary main_v19 main_v20 (Host.sqrt : (⟨S16384x20x1, .f32⟩ : BufTy).Contents (Elt F) → (⟨S16384x20x1, .f32⟩ : BufTy).Contents (Elt F)),
    unary main_v20 main_v21 (broadcastInDim S16384x20x128 ![0, 1, 2] bcast_S16384x20x1_S16384x20x128_0_1_2 : (⟨S16384x20x1, .f32⟩ : BufTy).Contents (Elt F) → (⟨S16384x20x128, .f32⟩ : BufTy).Contents (Elt F)),
    binary main_v17 main_v21 main_v22 (Host.divf : (⟨S16384x20x128, .f32⟩ : BufTy).Contents (Elt F) → (⟨S16384x20x128, .f32⟩ : BufTy).Contents (Elt F) → (⟨S16384x20x128, .f32⟩ : BufTy).Contents (Elt F)),
    unary main_arg3 main_v23 (broadcastInDim S1x1x128 ![2] bcast_S128_S1x1x128_2 : (⟨S128, .f32⟩ : BufTy).Contents (Elt F) → (⟨S1x1x128, .f32⟩ : BufTy).Contents (Elt F)),
    unary main_v23 main_v24 (broadcastInDim S16384x20x128 ![0, 1, 2] bcast_S1x1x128_S16384x20x128_0_1_2 : (⟨S1x1x128, .f32⟩ : BufTy).Contents (Elt F) → (⟨S16384x20x128, .f32⟩ : BufTy).Contents (Elt F)),
    binary main_v22 main_v24 main_v25 (mulf : (⟨S16384x20x128, .f32⟩ : BufTy).Contents (Elt F) → (⟨S16384x20x128, .f32⟩ : BufTy).Contents (Elt F) → (⟨S16384x20x128, .f32⟩ : BufTy).Contents (Elt F)),
    unary main_arg4 main_v26 (broadcastInDim S1x1x128 ![2] bcast_S128_S1x1x128_2 : (⟨S128, .f32⟩ : BufTy).Contents (Elt F) → (⟨S1x1x128, .f32⟩ : BufTy).Contents (Elt F)),
    unary main_v26 main_v27 (broadcastInDim S16384x20x128 ![0, 1, 2] bcast_S1x1x128_S16384x20x128_0_1_2 : (⟨S1x1x128, .f32⟩ : BufTy).Contents (Elt F) → (⟨S16384x20x128, .f32⟩ : BufTy).Contents (Elt F)),
    binary main_v25 main_v27 main_v28 (addf : (⟨S16384x20x128, .f32⟩ : BufTy).Contents (Elt F) → (⟨S16384x20x128, .f32⟩ : BufTy).Contents (Elt F) → (⟨S16384x20x128, .f32⟩ : BufTy).Contents (Elt F)) ]

-- fifty-six binds re-associated: the rewrite under the chain recurses once per statement
set_option maxRecDepth 2048 in
/-- @main is that straight line: the two functions' definitions unfolded at their calls and the records at their
    fields, both sides are one chain of `hlo` steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

attribute [local irreducible] Host.reduce Host.gather in
set_option maxRecDepth 8192 in
set_option maxHeartbeats 400000 in
/-- The fold at the result buffer is `refTerm` of the arguments' contents by computation: each operation's result
    decides whether the buffer read is the one it writes, and the typed references' casts are the identity at
    these literal references. The integer reduce and the gather are kept folded meanwhile: the equation never
    looks inside them. -/
theorem out_eq (V : Valuation τ sig (Elt F)) :
    after ops V (main_v28 : DevRef τ sig)
      = refTerm (V (main_arg0 : DevRef τ sig)) (V (main_arg1 : DevRef τ sig)) (V (main_arg2 : DevRef τ sig))
          (V (main_arg3 : DevRef τ sig)) (V (main_arg4 : DevRef τ sig)) := by
  after_results_simp
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

/-- At the compiled mesh, for any float values, from any memory with zero counters: every weakly fair execution of
    @main terminates with the result at `refTerm` of the arguments' launch contents and the arguments unchanged. -/
theorem run (m : (ℓ : Loc nD τ sig) → Buf (Elt F) ℓ) (ρ : Dev nD → PrngReg) :
    θ_run (Cert.ReferenceIdeal.defs (F := F)) (onTc (τ := Cert.ReferenceIdeal.τ) (Cert.ReferenceIdeal.main (F := F))) ⟨m, fun _ => 0, ρ⟩ (fun r => ∀ c : Dev Cert.ReferenceIdeal.nD,
      r.2.mem ((c.tc : Thread Cert.ReferenceIdeal.nD Cert.ReferenceIdeal.τ).loc Cert.ReferenceIdeal.main_v28)
          = refTerm (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run defs _ _).mono (fun _ h c => ⟨(h c main_v28).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

/-- The reference's frame: its run with the result's value dropped. -/
theorem frame : Cert.frame_ReferenceIdeal (hReferenceIdeal := Cert.ReferenceIdeal.Gen.facts) (hPre_input_domain := Cert.Pre_input_domain.Gen.facts) :=
  fun m g _ => (θ_run _ _ _).mono (fun _ h c => (h c).2) (run (F := Ideal) m g)

end Cert.Proof.Ref

end
-- ==== Proof.RefRead.lean ====
/-
  The reference's value, index by index. Under the range hypothesis on the letter indices (every word reads, signed, in
  [0, 97]) the reference's composed term `refTerm` is the specification `Spec.out`:
  the index side — an index at least zero is not wrapped; the two bounds comparisons and their conjunction are 1, so
  the reduce by `and` over the column's one-element axis is 1 and the select keeps the gathered row; the gather at
  (bb, s, k) reads the letter table at the row the start index names, lane k —
  and the float side — each broadcast read at an index given by coordinates, the slice of the position table, the
  host's sum over the last axis as the initial value plus the sum over its 128 coordinates, the quotient and the square
  root the extended reals' own — so that each stage at (bb, s, k) is the specification's stage of the row (bb, s, ·).
-/
import proofs.«206393_g35751307772044_cont_8to1_b_353_20_alg».proof.Proof.RefRun
import proofs.«206393_g35751307772044_cont_8to1_b_353_20_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.Proof.Ref

open Cert.ReferenceIdeal Cert.ReferenceIdeal.Gen Idealize.ShloMosaic Idealize.ShloMosaic.ValueIdx
open scoped BigOperators

/-! ## Words: the three comparisons on an index in range -/

/-- A word that reads, signed, at least zero is not below zero. -/
theorem slt_zero_of_nonneg {v : BitVec 32} (h : 0 ≤ v.toInt) : IntOp.cmpi .slt v 0#32 = 0#1 := by
  show BitVec.ofBool (v.slt 0#32) = 0#1
  rw [BitVec.slt_eq_decide, BitVec.toInt_zero, decide_eq_false (by omega)]
  rfl

/-- … and is at least zero. -/
theorem sge_zero_of_nonneg {v : BitVec 32} (h : 0 ≤ v.toInt) : IntOp.cmpi .sge v 0#32 = 1#1 := by
  show BitVec.ofBool ((0#32 : BitVec 32).sle v) = 1#1
  rw [BitVec.sle_eq_decide, BitVec.toInt_zero, decide_eq_true h]
  rfl

/-- A word that reads, signed, at most 97 is at most the word 97. -/
theorem sle_97_of_le {v : BitVec 32} (h : v.toInt ≤ 97) : IntOp.cmpi .sle v 97#32 = 1#1 := by
  show BitVec.ofBool (v.sle 97#32) = 1#1
  rw [BitVec.sle_eq_decide, show (97#32 : BitVec 32).toInt = 97 from by decide, decide_eq_true h]
  rfl

/-- A word that reads, signed, at least zero reads the same unsigned. -/
theorem toInt_toNat_of_nonneg {v : BitVec 32} (h : 0 ≤ v.toInt) : v.toInt.toNat = v.toNat := by
  have h1 := BitVec.toInt_eq_toNat_cond v
  have h2 := v.isLt
  split at h1 <;> omega

/-! ## Broadcasts read at an index given by coordinates -/

section Bcast
variable {α : Type}

theorem bc_ab_ab1 (X : S16384x20.Idx → α) (bb : Fin 16384) (s : Fin 20) (u : Fin 1) :
    broadcastInDim S16384x20x1 ![0, 1] bcast_S16384x20_S16384x20x1_0_1 X (ix3 bb s u) = X (ix2 bb s) :=
  broadcastInDim_apply _ _ _ _ _ fun a => match a with | ⟨0, _⟩ => rfl | ⟨1, _⟩ => rfl

theorem bc_ab_abc (X : S16384x20.Idx → α) (bb : Fin 16384) (s : Fin 20) (k : Fin 128) :
    broadcastInDim S16384x20x128 ![0, 1] bcast_S16384x20_S16384x20x128_0_1 X (ix3 bb s k) = X (ix2 bb s) :=
  broadcastInDim_apply _ _ _ _ _ fun a => match a with | ⟨0, _⟩ => rfl | ⟨1, _⟩ => rfl

theorem bc_1bc_abc (X : S1x20x128.Idx → α) (bb : Fin 16384) (s : Fin 20) (k : Fin 128) :
    broadcastInDim S16384x20x128 ![0, 1, 2] bcast_S1x20x128_S16384x20x128_0_1_2 X (ix3 bb s k) = X (ix3 (0 : Fin 1) s k) :=
  broadcastInDim_apply _ _ _ _ _ fun a => match a with | ⟨0, _⟩ => rfl | ⟨1, _⟩ => rfl | ⟨2, _⟩ => rfl

theorem bc_bc_1bc (X : S20x128.Idx → α) (u : Fin 1) (s : Fin 20) (k : Fin 128) :
    broadcastInDim S1x20x128 ![1, 2] bcast_S20x128_S1x20x128_1_2 X (ix3 u s k) = X (ix2 s k) :=
  broadcastInDim_apply _ _ _ _ _ fun a => match a with | ⟨0, _⟩ => rfl | ⟨1, _⟩ => rfl

theorem bc_ab1_abc (X : S16384x20x1.Idx → α) (bb : Fin 16384) (s : Fin 20) (k : Fin 128) :
    broadcastInDim S16384x20x128 ![0, 1, 2] bcast_S16384x20x1_S16384x20x128_0_1_2 X (ix3 bb s k) = X (ix3 bb s (0 : Fin 1)) :=
  broadcastInDim_apply _ _ _ _ _ fun a => match a with | ⟨0, _⟩ => rfl | ⟨1, _⟩ => rfl | ⟨2, _⟩ => rfl

theorem bc_11c_abc (X : S1x1x128.Idx → α) (bb : Fin 16384) (s : Fin 20) (k : Fin 128) :
    broadcastInDim S16384x20x128 ![0, 1, 2] bcast_S1x1x128_S16384x20x128_0_1_2 X (ix3 bb s k) = X (ix3 (0 : Fin 1) (0 : Fin 1) k) :=
  broadcastInDim_apply _ _ _ _ _ fun a => match a with | ⟨0, _⟩ => rfl | ⟨1, _⟩ => rfl | ⟨2, _⟩ => rfl

theorem bc_c_11c (X : S128.Idx → α) (u v : Fin 1) (k : Fin 128) :
    broadcastInDim S1x1x128 ![2] bcast_S128_S1x1x128_2 X (ix3 u v k) = X (ix1 k) :=
  broadcastInDim_apply _ _ _ _ _ fun a => match a with | ⟨0, _⟩ => rfl

end Bcast

/-! ## The index side: under the range hypothesis the lookup reads the named row -/

/-- An index at least zero is not wrapped. -/
theorem wrapIdx_apply (x : IVec S16384x20 32) (j : S16384x20.Idx) (h : 0 ≤ (x j).toInt) : wrapIdx x j = x j := by
  show Scalar.select (IntOp.cmpi .slt (x j) 0#32) (IntOp.addi (x j) 98#32) (x j) = x j
  rw [slt_zero_of_nonneg h, select_zero]

/-- The column of start indices at (bb, s, 0) is the normalized index at (bb, s). -/
theorem idxCol_apply (x : IVec S16384x20 32) (bb : Fin 16384) (s : Fin 20) (u : Fin 1) :
    idxCol x (ix3 bb s u) = wrapIdx x (ix2 bb s) := bc_ab_ab1 _ bb s u

/-- A left fold by `and` from 1 over words that are all 1 is 1. -/
theorem foldl_andi_ones {ι : Type} (f : ι → BitVec 1) : ∀ l : List ι, (∀ n ∈ l, f n = 1#1) →
    l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_ones f l fun n hn => h n (List.mem_cons_of_mem _ hn)

/-- A reduce by `and` from 1 of an array that is 1 everywhere is 1 everywhere. -/
theorem reduce_andi_ones {s t u : Shape} {axes : List (Fin s.rank)} (X : s.Idx → BitVec 1) (init : u.Idx → BitVec 1)
    (h : s.ReducesTo axes t) (hu : 0 < u.numel) (hinit : init (Shape.Idx.first hu) = 1#1) (hX : ∀ i, X i = 1#1) (j : t.Idx) :
    Host.reduce IntOp.andi X init h hu j = 1#1 := by
  rw [Host.reduce_eq_foldl, hinit]
  exact foldl_andi_ones X _ fun i _ => hX i

/-- Under the range hypothesis every index is in bounds. -/
theorem inBounds_apply (x : IVec S16384x20 32) (hx : ∀ j, 0 ≤ (x j).toInt ∧ (x j).toInt ≤ 97) (j : S16384x20.Idx) :
    inBounds x j = 1#1 := by
  unfold inBounds
  refine reduce_andi_ones _ _ _ _ rfl (fun i => ?_) j
  obtain ⟨bb, s, u, rfl⟩ : ∃ (bb : Fin 16384) (s : Fin 20) (u : Fin 1), i = ix3 bb s u := ⟨i 0, i 1, i 2, eq_ix3 i⟩
  show IntOp.andi (IntOp.cmpi .sge (idxCol x (ix3 bb s u)) 0#32) (IntOp.cmpi .sle (idxCol x (ix3 bb s u)) 97#32) = 1#1
  rw [idxCol_apply, wrapIdx_apply x _ (hx _).1, sge_zero_of_nonneg (hx _).1, sle_97_of_le (hx _).2]
  decide

/-- The gather of rows of a [98, 128] table at a column of start indices, read at (bb, s, k): the table at the row the
    start index names, read signed and clamped into [0, 97], lane k. -/
theorem gather_apply {α : Type} (lt : S98x128.Idx → α) (idx : IVec S16384x20x1 32) (bb : Fin 16384) (s : Fin 20) (k : Fin 128) :
    Host.gather gather_S98x128_S16384x20x1_S16384x20x128_2_0_n_n_0_2_1128 lt idx (ix3 bb s k)
      = lt (ix2 (⟨min (idx (ix3 bb s (0 : Fin 1))).toInt.toNat 97, by omega⟩ : Fin 98) k) := by
  unfold Host.gather
  refine congrArg lt (funext fun a => Fin.ext ?_)
  match a with
  | ⟨0, _⟩ =>
    show gather_S98x128_S16384x20x1_S16384x20x128_2_0_n_n_0_2_1128.start (ix3 bb s k) idx 0 + gather_S98x128_S16384x20x1_S16384x20x128_2_0_n_n_0_2_1128.batchCoord (ix3 bb s k) 0 + gather_S98x128_S16384x20x1_S16384x20x128_2_0_n_n_0_2_1128.offCoord (ix3 bb s k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S98x128_S16384x20x1_S16384x20x128_2_0_n_n_0_2_1128.startIndexMap from List.mem_singleton.mpr rfl)]
    have hsi : gather_S98x128_S16384x20x1_S16384x20x128_2_0_n_n_0_2_1128.siIdx (ix3 bb s k) ⟨List.idxOf (0 : Fin 2) gather_S98x128_S16384x20x1_S16384x20x128_2_0_n_n_0_2_1128.startIndexMap,
        List.idxOf_lt_length_iff.2 (List.mem_singleton.mpr rfl)⟩ = ix3 bb s (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S98x128_S16384x20x1_S16384x20x128_2_0_n_n_0_2_1128.start (ix3 bb s k) idx 1 + gather_S98x128_S16384x20x1_S16384x20x128_2_0_n_n_0_2_1128.batchCoord (ix3 bb s k) 1 + gather_S98x128_S16384x20x1_S16384x20x128_2_0_n_n_0_2_1128.offCoord (ix3 bb s k) 1 = k.val
    rw [GatherDims.batchCoord_eq_zero _ _ _ List.not_mem_nil]
    have hs : gather_S98x128_S16384x20x1_S16384x20x128_2_0_n_n_0_2_1128.start (ix3 bb s k) idx 1 = 0 := by
      unfold GatherDims.start; rw [dif_neg (by decide)]
    have ho : gather_S98x128_S16384x20x1_S16384x20x128_2_0_n_n_0_2_1128.offCoord (ix3 bb s k) 1 = k.val := by
      unfold GatherDims.offCoord; rw [dif_pos (by decide)]; rfl
    rw [hs, ho]
    omega

/-- Under the range hypothesis the lookup at (bb, s, k) is the letter table's row named by the index, lane k. -/
theorem take_apply (lt : FVec Ideal S98x128 .f32) (x : IVec S16384x20 32) (hx : ∀ j, 0 ≤ (x j).toInt ∧ (x j).toInt ≤ 97)
    (bb : Fin 16384) (s : Fin 20) (k : Fin 128) :
    take lt x (ix3 bb s k) = lt (ix2 (Spec.row (x (ix2 bb s))) k) := by
  unfold take
  rw [select_apply, bc_ab_abc, inBounds_apply x hx, select_one, gather_apply]
  refine congrArg lt (congrArg (fun r : Fin 98 => ix2 r k) (Fin.ext ?_))
  show min (idxCol x (ix3 bb s (0 : Fin 1))).toInt.toNat 97 = min (x (ix2 bb s)).toNat 97
  rw [idxCol_apply, wrapIdx_apply x _ (hx _).1, toInt_toNat_of_nonneg (hx _).1]

/-! ## The float side: each stage read at (bb, s, k) -/

/-- The embedding at (bb, s, ·) is the specification's row. -/
theorem emb_apply (x : IVec S16384x20 32) (lt : FVec Ideal S98x128 .f32) (pt : FVec Ideal S25x128 .f32)
    (hx : ∀ j, 0 ≤ (x j).toInt ∧ (x j).toInt ≤ 97) (bb : Fin 16384) (s : Fin 20) (k : Fin 128) :
    emb x lt pt (ix3 bb s k) = Spec.emb x lt pt bb s k := by
  unfold emb Spec.emb
  rw [addf_apply, take_apply lt x hx, bc_1bc_abc, bc_bc_1bc,
    slice2_axis0_apply 0 pt slices_S25x128_S20x128_0_0 s k ⟨s.val, by omega⟩ (Nat.zero_add _).symm]

/-- The mean at (bb, s, 0) is the specification's mean of the row (bb, s, ·). -/
theorem mean_apply (e : FVec Ideal S16384x20x128 .f32) (bb : Fin 16384) (s : Fin 20) (u : Fin 1) :
    mean e (ix3 bb s u) = Spec.mean fun k => e (ix3 bb s k) := by
  unfold mean Spec.mean
  show Ideal.div (broadcastInDim S16384x20x1 ![0, 1] bcast_S16384x20_S16384x20x1_0_1
      (Host.reduceAdd e (constant S_ .f32 0x00000000#32) reducesTo_S16384x20x128_S16384x20_d2 h_S_) (ix3 bb s u))
    (Ideal.ofBits .f32 0x43000000#32) = _
  rw [bc_ab_ab1]
  show Ideal.div (Ideal.hostReduceAdd reducesTo_S16384x20x128_S16384x20_d2 e (Ideal.ofBits .f32 0x00000000#32) (ix2 bb s)) _ = _
  rw [Ideal.hostReduceAdd_single reducesTo_S16384x20x128_S16384x20_d2 (by decide : S16384x20x128.Reduces [2] S16384x20)]
  refine congrArg (fun t => Ideal.div (Ideal.ofBits .f32 0x00000000#32 + t) (Ideal.ofBits .f32 0x43000000#32)) ?_
  refine Finset.sum_congr rfl fun k _ => congrArg e (funext fun a => Fin.ext ?_)
  match a with
  | ⟨0, _⟩ => rfl
  | ⟨1, _⟩ => rfl
  | ⟨2, _⟩ => rfl

/-- The centered value at (bb, s, k). -/
theorem centered_apply (e : FVec Ideal S16384x20x128 .f32) (bb : Fin 16384) (s : Fin 20) (k : Fin 128) :
    centered e (ix3 bb s k) = e (ix3 bb s k) - Spec.mean fun k' => e (ix3 bb s k') := by
  unfold centered
  rw [subf_apply, bc_ab1_abc, mean_apply]

/-- The variance at (bb, s, 0) is the specification's variance of the row. -/
theorem variance_apply (e : FVec Ideal S16384x20x128 .f32) (bb : Fin 16384) (s : Fin 20) (u : Fin 1) :
    variance e (ix3 bb s u) = Spec.var fun k => e (ix3 bb s k) := by
  unfold variance Spec.var
  rw [mean_apply]
  refine congrArg Spec.mean (funext fun k => ?_)
  rw [mulf_apply, centered_apply]

/-- The normalized value at (bb, s, k). -/
theorem normed_apply (e : FVec Ideal S16384x20x128 .f32) (bb : Fin 16384) (s : Fin 20) (k : Fin 128) :
    normed e (ix3 bb s k)
      = Ideal.div (e (ix3 bb s k) - Spec.mean fun k' => e (ix3 bb s k'))
          (Ideal.sqrt ((Spec.var fun k' => e (ix3 bb s k')) + Ideal.ofBits .f32 0x3727C5AC#32)) := by
  unfold normed
  show Ideal.div (centered e (ix3 bb s k))
    (broadcastInDim S16384x20x128 ![0, 1, 2] bcast_S16384x20x1_S16384x20x128_0_1_2
      (Host.sqrt (addf (variance e) (broadcastInDim S16384x20x1 ![] bcast_S_S16384x20x1 (constant S_ .f32 0x3727C5AC#32))))
      (ix3 bb s k)) = _
  rw [centered_apply, bc_ab1_abc]
  show Ideal.div _ (Ideal.sqrt (variance e (ix3 bb s (0 : Fin 1)) + Ideal.ofBits .f32 0x3727C5AC#32)) = _
  rw [variance_apply]

/-- THE VALUE at (bb, s, k): under the range hypothesis the reference's term is the specification. -/
theorem refTerm_apply (x : IVec S16384x20 32) (lt : FVec Ideal S98x128 .f32) (pt : FVec Ideal S25x128 .f32)
    (w b : FVec Ideal S128 .f32) (hx : ∀ j, 0 ≤ (x j).toInt ∧ (x j).toInt ≤ 97) (bb : Fin 16384) (s : Fin 20) (k : Fin 128) :
    refTerm x lt pt w b (ix3 bb s k) = Spec.out x lt pt w b (ix3 bb s k) := by
  rw [Spec.out_ix3]
  unfold refTerm Spec.outAt Spec.ln
  rw [addf_apply, mulf_apply, normed_apply, bc_11c_abc, bc_c_11c, bc_11c_abc, bc_c_11c,
    show (fun k' => emb x lt pt (ix3 bb s k')) = Spec.emb x lt pt bb s from funext fun k' => emb_apply x lt pt hx bb s k',
    emb_apply x lt pt hx]

/-- The reference's term IS the specification, as arrays. -/
theorem refTerm_eq (x : IVec S16384x20 32) (lt : FVec Ideal S98x128 .f32) (pt : FVec Ideal S25x128 .f32)
    (w b : FVec Ideal S128 .f32) (hx : ∀ j, 0 ≤ (x j).toInt ∧ (x j).toInt ≤ 97) :
    refTerm x lt pt w b = Spec.out x lt pt w b :=
  funext fun j => by rw [eq_ix3 j]; exact refTerm_apply x lt pt w b hx _ _ _

end Cert.Proof.Ref

end
-- ==== Proof.Final.lean ====
/-
  The claim assembled. Given the two kernel programs' runs — the idealised one ending with the result array at the
  gather's whole-array function of the table and the index array its own host operations and first two calls compute,
  all arguments unchanged; the word-level one ending with its arguments unchanged — the five conjuncts follow:
  * the three frames are runs with the result's value dropped;
  * `preserves` asks nothing (the ideal pass rewrote no operation);
  * `algebraic`: both idealised programs end at the specification. The kernel's result is the specification by the
    bridge (the gathered row 98 s + x of the re-laid table is the normalised row letter x + pos s), the reference's by
    reading its host operations at an index; both use that every letter word is in [0, 97], which is the precondition's
    last conjunct, and the same fact bounds every flat row number below 1960, which the kernel's run needs.
-/
import proofs.«206393_g35751307772044_cont_8to1_b_353_20_alg».proof.Defs
import proofs.«206393_g35751307772044_cont_8to1_b_353_20_alg».proof.Proof.Gen.Kernel
import proofs.«206393_g35751307772044_cont_8to1_b_353_20_alg».proof.Proof.Gen.KernelIdeal
import proofs.«206393_g35751307772044_cont_8to1_b_353_20_alg».proof.Proof.Gen.ReferenceIdeal
import proofs.«206393_g35751307772044_cont_8to1_b_353_20_alg».proof.Proof.Gen.Pre_input_domain
import proofs.«206393_g35751307772044_cont_8to1_b_353_20_alg».proof.Proof.Launch
import proofs.«206393_g35751307772044_cont_8to1_b_353_20_alg».proof.Proof.Bridge
import proofs.«206393_g35751307772044_cont_8to1_b_353_20_alg».proof.Proof.PreDecode
import proofs.«206393_g35751307772044_cont_8to1_b_353_20_alg».proof.Proof.PreOK
import proofs.«206393_g35751307772044_cont_8to1_b_353_20_alg».proof.Proof.RefRead

noncomputable section

namespace Cert.Proof.Final

open Idealize.ShloMosaic Idealize.SL.Sem
open Cert.Proof

/-! ## The conjuncts -/

section Conjuncts

variable
  (hI : ∀ (m : (ℓ : Loc Cert.KernelIdeal.nD Cert.KernelIdeal.τ Cert.KernelIdeal.sig) → Buf (Elt Ideal) ℓ)
      (ρ : Dev Cert.KernelIdeal.nD → PrngReg), Launch.PreOK (F := Ideal) m →
      θ_run (Cert.KernelIdeal.defs (F := Ideal)) (Cert.KernelIdeal.threads (F := Ideal)) ⟨m, fun _ => 0, ρ⟩ (Launch.QC m))

include hI

/-- The idealised kernel's frame: its run with the result's value dropped. -/
theorem frame_KernelIdeal :
    Cert.frame_KernelIdeal (hKernelIdeal := Cert.KernelIdeal.Gen.facts) (hPre_input_domain := Cert.Pre_input_domain.Gen.facts) :=
  fun m g hpre => (θ_run _ _ _).mono (fun _ h c => (h c).2) (hI m g (Launch.preOK_of_pre m hpre))

/-- Both idealised programs end at the specification. -/
theorem algebraic :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m g m' g' hpre hagree
  refine ⟨fun c => Common.gOut (F := Ideal) (Launch.cmbV m c) (Launch.ixV m c), ?_, ?_⟩
  · exact (θ_run _ _ _).mono (fun _ h c => h c) (hI m g (Launch.preOK_of_pre m hpre))
  · refine (θ_run _ _ _).mono (fun _ h c => ⟨?_, (h c).2⟩) (Ref.run (F := Ideal) m' g')
    have hx := fun i => PreDecode.letters_in_range (F := Ideal) _ _ _ _ _ (hpre c) i
    rw [(h c).1, (hagree c).1, (hagree c).2.1, (hagree c).2.2.1, (hagree c).2.2.2.1, (hagree c).2.2.2.2,
      Ref.refTerm_eq _ _ _ _ _ hx]
    exact (Bridge.kernel_eq_spec _ _ _ _ _ hx).symm

end Conjuncts

/-- THE CLAIM, from the two kernel programs' runs. -/
theorem claim_of
    (hI : ∀ (m : (ℓ : Loc Cert.KernelIdeal.nD Cert.KernelIdeal.τ Cert.KernelIdeal.sig) → Buf (Elt Ideal) ℓ)
      (ρ : Dev Cert.KernelIdeal.nD → PrngReg), Launch.PreOK (F := Ideal) m →
      θ_run (Cert.KernelIdeal.defs (F := Ideal)) (Cert.KernelIdeal.threads (F := Ideal)) ⟨m, fun _ => 0, ρ⟩ (Launch.QC m))
    (hB : Cert.frame_Kernel (hKernel := Cert.Kernel.Gen.facts) (hPre_input_domain := Cert.Pre_input_domain.Gen.facts)) :
    Cert.Claim :=
  ⟨Cert.Kernel.Gen.facts, Cert.KernelIdeal.Gen.facts, Cert.ReferenceIdeal.Gen.facts, Cert.Pre_input_domain.Gen.facts,
    hB, frame_KernelIdeal hI, Ref.frame, trivial, algebraic hI⟩

end Cert.Proof.Final

end
-- ==== Proof.Tail.lean ====
/-
  The SparseCore call on the TensorCore: the whole table, index array and output split among the thirty-two workers —
  a read share of the table each, a row of the index array each, 512 batch rows of the output each — and the output
  joined back at the one whole-array function every worker wrote its rows of.
-/
import proofs.«206393_g35751307772044_cont_8to1_b_353_20_alg».proof.Proof.Launch

noncomputable section

namespace Cert.Proof.Launch

open Cert.KernelIdeal Cert.Proof.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split)
open Cert.KernelIdeal.Facts₀ Cert.KernelIdeal.Facts

variable {F : FTy → Type} [Cert.KernelIdeal.Facts]

local notation "𝕄" => MT nD τ sig (HIx 1) (Elt F) ℕ UU ℕ

/-! ## The workers' rows split and join -/

theorem idxRows_eq (w : Fin 32) : idxRows w = (idxRect w).set := by
  show ((View.whole (main_v6_scv : Ref sig .scVector)).slice (idxRect w)).set = _
  rw [View.set_slice]; exact Finset.map_refl
theorem outRows_eq (w : Fin 32) : outRows w = (outRect w).set := by
  show ((View.whole (main_v7_scv : Ref sig .scVector)).slice (outRect w)).set = _
  rw [View.set_slice]; exact Finset.map_refl
theorem idxRows_disjoint : ∀ i ∈ (Finset.univ : Finset (Fin 32)), ∀ j ∈ (Finset.univ : Finset (Fin 32)), i ≠ j → Disjoint (idxRows i) (idxRows j) :=
  fun i _ j _ h => by rw [idxRows_eq, idxRows_eq]; exact Rect.part_disjoint idiv h
theorem outRows_disjoint : ∀ i ∈ (Finset.univ : Finset (Fin 32)), ∀ j ∈ (Finset.univ : Finset (Fin 32)), i ≠ j → Disjoint (outRows i) (outRows j) :=
  fun i _ j _ h => by rw [outRows_eq, outRows_eq]; exact Rect.part_disjoint odiv h
theorem idxRows_cover : (Finset.univ : Finset (Fin 32)).biUnion idxRows = Finset.univ :=
  (Finset.biUnion_congr rfl fun i _ => idxRows_eq i).trans (Rect.biUnion_part idiv)
theorem outRows_cover : (Finset.univ : Finset (Fin 32)).biUnion outRows = Finset.univ :=
  (Finset.biUnion_congr rfl fun i _ => outRows_eq i).trans (Rect.biUnion_part odiv)

theorem v6_rows (d : Dev nD) (f : Buf (Elt F) (v6Loc d)) :
    (v6Loc d ↦{fullShare} f : sProp 𝕄) = bigSep Finset.univ fun w : Fin 32 => v6Loc d ↦[idxRows w]{fullShare} f := by
  rw [← pointsTo_biUnion Finset.univ (ℓ := v6Loc d) idxRows idxRows_disjoint, idxRows_cover]; try rfl
theorem v7_rows (d : Dev nD) (f : Buf (Elt F) (v7Loc d)) :
    (v7Loc d ↦{fullShare} f : sProp 𝕄) = bigSep Finset.univ fun w : Fin 32 => v7Loc d ↦[outRows w]{fullShare} f := by
  rw [← pointsTo_biUnion Finset.univ (ℓ := v7Loc d) outRows outRows_disjoint, outRows_cover]; try rfl

/-! ## Workers as (SparseCore, tile) pairs -/

/-- Worker `2 i + c` is tile `i` of SparseCore `c`. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    obtain ⟨⟨c, hc⟩, ⟨i, hi⟩⟩ := p
    simp only [wid, Prod.mk.injEq, Fin.mk.injEq]
    constructor <;> omega
  right_inv w := by
    obtain ⟨w, hw⟩ := w
    simp only [wid, Fin.mk.injEq]
    omega

theorem bigSep_wid (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]; rfl

variable (m : (ℓ : Loc nD τ sig) → Buf (Elt F) ℓ) (ρ : Dev nD → PrngReg)
variable [FloatOps F]

theorem st0_eq (d : Dev nD) :
    (bigSep Finset.univ fun c : Fin ((K (F := F)).nCore 0) => (P m).st 0 d c)
      = bigSep Finset.univ fun w : Fin 32 => tileGo (U := UU) d w (cmbV m d) (ixV m d) (m (v7Loc d)) := by
  rw [bigSep_wid]
  exact bigSep_congr fun c _ => by
    show (bigSep Finset.univ fun i : Fin ((K (F := F)).nSub 0) => goRes m d (Fin.cast nCore_zero c) (Fin.cast nSub_zero i)) = _
    rfl
theorem dn0_eq (d : Dev nD) :
    (bigSep Finset.univ fun c : Fin ((K (F := F)).nCore 0) => (P m).dn 0 d c)
      = bigSep Finset.univ fun w : Fin 32 => tileGo (U := UU) d w (cmbV m d) (ixV m d) (gOut (cmbV m d) (ixV m d)) := by
  rw [bigSep_wid]
  exact bigSep_congr fun c _ => by
    show (bigSep Finset.univ fun i : Fin ((K (F := F)).nSub 0) => tdRes m d (Fin.cast nCore_zero c) (Fin.cast nSub_zero i)) = _
    rfl

/-! ## The call -/

/-- The SparseCore call on the TensorCore: from the whole table, index array and output, to the output at `gOut`. -/
theorem hcall (κ : GSem nD τ sig → ℕ) (d : Dev nD) {Φ : PUnit → sProp 𝕄} :
    iprop((K (F := F)).ctx EH (P m) κ ∗ (K (F := F)).tcSt EH d 0
        ∗ (v5Loc d ↦{fullShare} cmbV m d) ∗ (v6Loc d ↦{fullShare} ixV m d) ∗ (v7Loc d ↦{fullShare} m (v7Loc d))
        ∗ (iprop((K (F := F)).tcSt EH d 1 ∗ (v7Loc d ↦{fullShare} gOut (cmbV m d) (ixV m d))) -∗ Φ ⟨⟩))
      ⊢ wp frame (wpE ((K (F := F)).defs (D (F := F))) 𝒱 (SparseCore.T d) none) Set.univ ((K (F := F)).run d 0) Φ := by
  iintro ⟨#Hctx, Hst, H5, H6, H7, Hk⟩
  ihave H5' := (pointsTo_toks_split (ℓ := v5Loc d) (S := Finset.univ) (f := cmbV m d) fullShare 32) $$ H5
  icases H5' with ⟨-, H5s⟩
  ihave H6s := (Entails.of_eq (v6_rows d (ixV m d))) $$ H6
  ihave H7s := (Entails.of_eq (v7_rows d (m (v7Loc d)))) $$ H7
  iapply ((K (F := F)).wp_run (D (F := F)) 𝒱 (EH := EH) (P := P m) κ d 0) $$ [Hst H5s H6s H7s Hk]
  isplitr; · iexact Hctx
  isplitl [Hst]; · iexact Hst
  isplitl [H5s H6s H7s]
  · rw [st0_eq]; unfold tileGo
    rw [bigSep_sep', bigSep_sep']
    isplitl [H5s]; · iexact H5s
    isplitl [H6s]; · iexact H6s
    iexact H7s
  iintro ⟨Hst, Hdn⟩
  ihave Hdn' := (Entails.of_eq (dn0_eq m d)) $$ Hdn
  ihave Hdn'' := (Entails.of_eq (show (bigSep Finset.univ fun w : Fin 32 => tileGo (U := UU) d w (cmbV m d) (ixV m d) (gOut (cmbV m d) (ixV m d)))
      = iprop((bigSep Finset.univ fun w : Fin 32 => v5Loc d ↦{cq w} cmbV m d) ∗ (bigSep Finset.univ fun w : Fin 32 => v6Loc d ↦[idxRows w]{fullShare} ixV m d)
          ∗ (bigSep Finset.univ fun w : Fin 32 => v7Loc d ↦[outRows w]{fullShare} gOut (cmbV m d) (ixV m d))) by
        unfold tileGo; rw [bigSep_sep', bigSep_sep'])) $$ Hdn'
  icases Hdn'' with ⟨-, -, H7s⟩
  ihave H7 := (Entails.of_eq (v7_rows d (gOut (cmbV m d) (ixV m d))).symm) $$ H7s
  iapply Hk
  isplitl [Hst]; · iexact Hst
  iexact H7

end Cert.Proof.Launch

end
-- ==== Proof.Region0.lean ====
/-
  The first TensorCore call (the normalised table) as a pipeline: what each window's staging buffer holds around the
  body, the body's run, the proof data and the body obligation, at a parameter `V` for the core's buffer contents when
  the call is entered and a parameter `O` for what the core owes while it runs.

  The call has no grid: one point, five windows that are each their whole array. The body loads the four input
  buffers whole, computes the table from them and stores it whole into the output buffer.
-/
import proofs.«206393_g35751307772044_cont_8to1_b_353_20_alg».proof.Proof.Gen.KernelIdeal.Launch
import proofs.«206393_g35751307772044_cont_8to1_b_353_20_alg».proof.Proof.Gen.KernelIdeal.Skeleton
import proofs.«206393_g35751307772044_cont_8to1_b_353_20_alg».proof.Proof.Gen.KernelIdeal.Points
import proofs.«206393_g35751307772044_cont_8to1_b_353_20_alg».proof.Proof.Common
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Proof.Reg0

open Cert.KernelIdeal Cert.KernelIdeal.Gen Cert.Proof.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx)

variable {F : FTy → Type} [FloatOps F]
variable {U : Type} [URA U]

local notation "𝕄" => MT nD τ sig (HIx 1) (Elt F) ℕ U ℕ

/- The TensorCore's buffer contents when the region is entered, the tallies each core owes throughout, the
   kernel's variants and the credit tokens' index: parameters. -/
variable (V : (c : Dev nD) → (b : Ref sig .tc) → Buf (Elt F) ((c : Thread nD τ).loc b))
variable (O : Dev nD → CellTallies nD τ sig (HIx 1)) (𝒱₀ : Variants) (ι : HIx 1)

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/- An input window's staging buffer holds its block at the point, fetched there or not, for any proof data whose
   array is the entry contents and whose body leaves the block in place. -/
theorem before0_0_of {c : Dev nD} (dat : Dat τ (Elt F) (HIx 1) ℕ U ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) (HIx 1) ℕ U ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) (HIx 1) ℕ U ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) (HIx 1) ℕ U ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole-shape rectangle -/

abbrev rP : Rect S20x128 := Rect.unit (s := S20x128) ![0, 0] S20x128.size inb_S20x128_S20x128_0_0
abbrev rL : Rect S98x128 := Rect.unit (s := S98x128) ![0, 0] S98x128.size inb_S98x128_S98x128_0_0
abbrev rW : Rect S1x128 := Rect.unit (s := S1x128) ![0, 0] S1x128.size inb_S1x128_S1x128_0_0
abbrev rC : Rect S20x98x128 := Rect.unit (s := S20x98x128) ![0, 0, 0] S20x98x128.size inb_S20x98x128_S20x98x128_0_0_0

/-- The table's staging buffer after the body, from the four input blocks: its one store as a piece. -/
def out0_4 (x0 : Vec F S98x128 .f32) (x1 : Vec F S20x128 .f32) (x2 : Vec F S1x128 .f32) (x3 : Vec F S1x128 .f32) : Vec F S20x98x128 .f32 :=
  View.canon [⟨rC, k0_pay1 (View.ld x1 rP) (View.ld x0 rL) (View.ld x2 rW) (View.ld x3 rW)⟩]

theorem hz3 : (![0, 0, 0] : Fin 3 → Nat) = fun _ => 0 := funext fun a => by fin_cases a <;> rfl
theorem hz2 : (![0, 0] : Fin 2 → Nat) = fun _ => 0 := funext fun a => by fin_cases a <;> rfl

/-- The one store is through the whole shape, so it covers the buffer. -/
theorem cover0_4 (p0 : Vec F S20x98x128 .f32) (y : S20x98x128.Idx) :
    ∃ pc ∈ ([⟨rC, p0⟩] : List (View.Piece (Elt F) S20x98x128 .f32)), y ∈ pc.1.set :=
  ⟨_, List.mem_singleton_self _, View.mem_set_unit_zero hz3 inb_S20x98x128_S20x98x128_0_0_0 y⟩

/-! ## The body's triple -/

set_option maxHeartbeats 1000000 in
/-- The body on whole staging memrefs, the four inputs' at read contents `xW` and the output's at anything, runs to the
    continuation holding the inputs' as they were and the output's at `out0_4` of them. -/
theorem sound_kernel0 (c : Dev nD) (E : Set ℕ) (arg0 : Memref sig .tc .vmem S98x128 .f32) (harg0 : arg0.IsWhole) (arg1 : Memref sig .tc .vmem S20x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S20x98x128 .f32) (harg4 : arg4.IsWhole)
    (x0 : Vec F S98x128 .f32) (x1 : Vec F S20x128 .f32) (x2 : Vec F S1x128 .f32) (x3 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out0_4 x0 x1 x2 x3)) -∗ K ⟨⟩))
      ⊢ wp frame (wpE (defs₀ (F := F)) 𝒱₀ c none) E (cc0__comb_body arg0 harg0 arg1 harg1 arg2 harg2 arg3 harg3 arg4 harg4) K := by
  simp only [cc0__comb_body_eq_skeleton]; unfold cc0__comb_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the first call on core `c`: the arrays as the region finds them; after the body each input's
    buffer at its block and the output's at `out0_4` of the input blocks; the invariant the core's scoped buffers that
    are no staging buffer of this call, untouched; the core owing `O c` throughout, every pair its waits
    have recorded being at the index `none`; full shares. -/
def dat0 (c : Dev nD) : Dat τ (Elt F) (HIx 1) ℕ U ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.scopedRest (Ix := HIx 1) (Name := ℕ) (U := U) (Lvl := ℕ) (Val := Elt F) spec0 c
  q _ := fullShare
  owed _ := O c
  recorded _ := {p | p.2 = none}

theorem A_eq0 (c : Dev nD) (w : Fin cfg0.W) : (dat0 (U := U) V O c).A w = V c (Pipeline.arrRef spec0 w) := by
  dsimp only [dat0]

theorem after0_0 (c : Dev nD) (t : Fin cfg0.N) : (dat0 (U := U) V O c).after 0 t = iblk0 V c 0 t := by dsimp only [dat0]
theorem after0_1 (c : Dev nD) (t : Fin cfg0.N) : (dat0 (U := U) V O c).after 1 t = iblk0 V c 1 t := by dsimp only [dat0]
theorem after0_2 (c : Dev nD) (t : Fin cfg0.N) : (dat0 (U := U) V O c).after 2 t = iblk0 V c 2 t := by dsimp only [dat0]
theorem after0_3 (c : Dev nD) (t : Fin cfg0.N) : (dat0 (U := U) V O c).after 3 t = iblk0 V c 3 t := by dsimp only [dat0]
theorem after0_4 (c : Dev nD) (t : Fin cfg0.N) : (dat0 (U := U) V O c).after 4 t = out0_4 (iblk0 V c 0 t) (iblk0 V c 1 t) (iblk0 V c 2 t) (iblk0 V c 3 t) := by dsimp only [dat0]

theorem before0_0 (c : Dev nD) (t : Fin cfg0.N) (d) : (dat0 (U := U) V O c).before 0 t d = iblk0 V c 0 t :=
  before0_0_of V (dat0 V O c) (A_eq0 V O c 0) (after0_0 V O c) t d
theorem before0_1 (c : Dev nD) (t : Fin cfg0.N) (d) : (dat0 (U := U) V O c).before 1 t d = iblk0 V c 1 t :=
  before0_1_of V (dat0 V O c) (A_eq0 V O c 1) (after0_1 V O c) t d
theorem before0_2 (c : Dev nD) (t : Fin cfg0.N) (d) : (dat0 (U := U) V O c).before 2 t d = iblk0 V c 2 t :=
  before0_2_of V (dat0 V O c) (A_eq0 V O c 2) (after0_2 V O c) t d
theorem before0_3 (c : Dev nD) (t : Fin cfg0.N) (d) : (dat0 (U := U) V O c).before 3 t d = iblk0 V c 3 t :=
  before0_3_of V (dat0 V O c) (A_eq0 V O c 3) (after0_3 V O c) t d

/-! ## The body obligation, at a generic point -/

/-- What the body is called with at point `t`, the windows one by one, -/
def bodyPre0 (c : Dev nD) (t : Fin cfg0.N) : sProp 𝕄 :=
  iprop((dat0 (U := U) V O c).Φ t.castSucc ∗ (dat0 (U := U) V O c).owesAt ι t.castSucc
    ∗ (∃ d, owns (c : Thread nD τ) (st0_0 t) fullShare ((dat0 (U := U) V O c).before 0 t d))
    ∗ (∃ d, owns (c : Thread nD τ) (st0_1 t) fullShare ((dat0 (U := U) V O c).before 1 t d))
    ∗ (∃ d, owns (c : Thread nD τ) (st0_2 t) fullShare ((dat0 (U := U) V O c).before 2 t d))
    ∗ (∃ d, owns (c : Thread nD τ) (st0_3 t) fullShare ((dat0 (U := U) V O c).before 3 t d))
    ∗ (∃ d, owns (c : Thread nD τ) (st0_4 t) fullShare ((dat0 (U := U) V O c).before 4 t d)))

/-- and what it returns. -/
def bodyPost0 (c : Dev nD) (t : Fin cfg0.N) : sProp 𝕄 :=
  iprop((dat0 (U := U) V O c).Φ t.succ ∗ (dat0 (U := U) V O c).owesAt ι t.succ
    ∗ owns (c : Thread nD τ) (st0_0 t) fullShare ((dat0 (U := U) V O c).after 0 t)
    ∗ owns (c : Thread nD τ) (st0_1 t) fullShare ((dat0 (U := U) V O c).after 1 t)
    ∗ owns (c : Thread nD τ) (st0_2 t) fullShare ((dat0 (U := U) V O c).after 2 t)
    ∗ owns (c : Thread nD τ) (st0_3 t) fullShare ((dat0 (U := U) V O c).after 3 t)
    ∗ owns (c : Thread nD τ) (st0_4 t) fullShare ((dat0 (U := U) V O c).after 4 t))

/-- The body at the point: the inputs' memrefs hold their blocks, so the triple applies; the invariant and what the
    core owes pass through unread. -/
theorem sound_body0 (c : Dev nD) (t : Fin cfg0.N) :
    bodyPre0 (U := U) V O ι c t ⊢ wp frame (wpE (defs₀ (F := F)) 𝒱₀ c none) Set.univ (bodyAt0 t) (fun _ => bodyPost0 (U := U) V O ι c t) := by
  unfold bodyPre0 bodyPost0 bodyAt0
  simp only [before0_0, before0_1, before0_2, before0_3]
  rw [show (dat0 (U := U) V O c).Φ t.succ = (dat0 (U := U) V O c).Φ t.castSucc from rfl,
    show (dat0 (U := U) V O c).owesAt ι t.succ = (dat0 (U := U) V O c).owesAt ι t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 𝒱₀ c Set.univ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) (U := U) V O c) (defs₀ (F := F)) 𝒱₀ ι Set.univ := fun t => by
  rw [bigSep_W0, bigSep_W0]
  exact sound_body0 V O 𝒱₀ ι c t

theorem body_obligation0_loose (c : Dev nD) : BodyObligationLoose (dat0 (F := F) (U := U) V O c) (defs₀ (F := F)) 𝒱₀ ι Set.univ :=
  (body_obligation0 V O 𝒱₀ ι c).loose

/-! ## The value: the output array after the call, as one function of the input arrays -/

/-- The stored value is the table of the four loaded buffers. -/
theorem out0_4_eq (x0 : Vec F S98x128 .f32) (x1 : Vec F S20x128 .f32) (x2 : Vec F S1x128 .f32) (x3 : Vec F S1x128 .f32) :
    out0_4 x0 x1 x2 x3 = comb0 x0 x1 x2 x3 := by
  unfold out0_4
  rw [View.canon_unit_zero hz3]
  simp only [View.ld_unit_zero (S := S20x128) hz2, View.ld_unit_zero (S := S98x128) hz2, View.ld_unit_zero (S := S1x128) hz2]
  rfl

/-- Every window's block index is zero on every axis: each block is its whole array. -/
theorem idx_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0 :=
  (by decide +kernel : ∀ t : Fin grid0.N, _)

/- Each input window's block is its whole array. -/
theorem iblk0_0 (c : Dev nD) (t : Fin cfg0.N) : iblk0 V c 0 t = V c main_arg1 := by
  have e := idx_facts0 t
  funext j
  show V c main_arg1 (((cfg0.win 0).blk t).view.emb j) = V c main_arg1 j
  have h : ((cfg0.win 0).blk t).view.emb j = j := by
    funext a; apply Fin.ext
    match a with
    | ⟨0, _⟩ => show win0_0.index t (0 : Fin 2) * 98 + 1 * (j 0).val = (j 0).val; omega
    | ⟨1, _⟩ => show win0_0.index t (1 : Fin 2) * 128 + 1 * (j 1).val = (j 1).val; omega
  rw [h]
theorem iblk0_1 (c : Dev nD) (t : Fin cfg0.N) : iblk0 V c 1 t = V c main_v0 := by
  have e := idx_facts0 t
  funext j
  show V c main_v0 (((cfg0.win 1).blk t).view.emb j) = V c main_v0 j
  have h : ((cfg0.win 1).blk t).view.emb j = j := by
    funext a; apply Fin.ext
    match a with
    | ⟨0, _⟩ => show win0_1.index t (0 : Fin 2) * 20 + 1 * (j 0).val = (j 0).val; omega
    | ⟨1, _⟩ => show win0_1.index t (1 : Fin 2) * 128 + 1 * (j 1).val = (j 1).val; omega
  rw [h]
theorem iblk0_2 (c : Dev nD) (t : Fin cfg0.N) : iblk0 V c 2 t = V c main_v1 := by
  have e := idx_facts0 t
  funext j
  show V c main_v1 (((cfg0.win 2).blk t).view.emb j) = V c main_v1 j
  have h : ((cfg0.win 2).blk t).view.emb j = j := by
    funext a; apply Fin.ext
    match a with
    | ⟨0, _⟩ => show win0_2.index t (0 : Fin 2) * 1 + 1 * (j 0).val = (j 0).val; omega
    | ⟨1, _⟩ => show win0_2.index t (1 : Fin 2) * 128 + 1 * (j 1).val = (j 1).val; omega
  rw [h]
theorem iblk0_3 (c : Dev nD) (t : Fin cfg0.N) : iblk0 V c 3 t = V c main_v2 := by
  have e := idx_facts0 t
  funext j
  show V c main_v2 (((cfg0.win 3).blk t).view.emb j) = V c main_v2 j
  have h : ((cfg0.win 3).blk t).view.emb j = j := by
    funext a; apply Fin.ext
    match a with
    | ⟨0, _⟩ => show win0_3.index t (0 : Fin 2) * 1 + 1 * (j 0).val = (j 0).val; omega
    | ⟨1, _⟩ => show win0_3.index t (1 : Fin 2) * 128 + 1 * (j 1).val = (j 1).val; omega
  rw [h]

/-- What the point writes back is the (whole) block of the table of the input arrays as the call finds them. -/
theorem flushed0_4_eq (c : Dev nD) (t : Fin cfg0.N) :
    (dat0 (U := U) V O c).flushed 4 t
      = ((cfg0.win 4).blk t).view.read (Elt F) (comb0 (V c main_arg1) (V c main_v0) (V c main_v1) (V c main_v2)) := by
  show (cfg0.win 4).cut (grid0.coords t) ((dat0 (U := U) V O c).after 4 t) = _
  rw [after0_4, out0_4_eq, iblk0_0, iblk0_1, iblk0_2, iblk0_3]
  have e := idx_facts0 t
  funext j
  show comb0 (V c main_arg1) (V c main_v0) (V c main_v1) (V c main_v2) j
    = comb0 (V c main_arg1) (V c main_v0) (V c main_v1) (V c main_v2) (((cfg0.win 4).blk t).view.emb j)
  have h : ((cfg0.win 4).blk t).view.emb j = j := by
    funext a; apply Fin.ext
    match a with
    | ⟨0, _⟩ => show win0_4.index t (0 : Fin 3) * 20 + 1 * (j 0).val = (j 0).val; omega
    | ⟨1, _⟩ => show win0_4.index t (1 : Fin 3) * 98 + 1 * (j 1).val = (j 1).val; omega
    | ⟨2, _⟩ => show win0_4.index t (2 : Fin 3) * 128 + 1 * (j 2).val = (j 2).val; omega
  rw [h]

/-- An index of the output array is in the point's block iff each coordinate is in the block's range on its axis. -/
theorem mem_blk0_4 (t : Fin cfg0.N) (i : S20x98x128.Idx) :
    i ∈ ((cfg0.win 4).blk t).view.set ↔ ∀ a : Fin 3, win0_4.index t a * S20x98x128.size a ≤ (i a).val ∧ (i a).val < win0_4.index t a * S20x98x128.size a + S20x98x128.size a := by
  show i ∈ ((View.whole main_v3).slice (win0_4.rect t)).set ↔ _
  rw [View.set_slice_whole, Rect.mem_set_unit]
  exact Iff.rfl

/-- The one point's block covers the output array. -/
theorem cover0 (i : S20x98x128.Idx) : ∃ t : Fin cfg0.N, (cfg0.win 4).flush t = true ∧ i ∈ ((cfg0.win 4).blk t).view.set := by
  refine ⟨t0_0, flush0_4 t0_0, ?_⟩
  rw [mem_blk0_4]
  have e := idx_facts0 t0_0
  have h0 : (i 0).val < 20 := (i 0).isLt
  have h1 : (i 1).val < 98 := (i 1).isLt
  have h2 : (i 2).val < 128 := (i 2).isLt
  intro a
  match a with
  | ⟨0, _⟩ => show win0_4.index t0_0 (0 : Fin 3) * 20 ≤ (i 0).val ∧ (i 0).val < win0_4.index t0_0 (0 : Fin 3) * 20 + 20; omega
  | ⟨1, _⟩ => show win0_4.index t0_0 (1 : Fin 3) * 98 ≤ (i 1).val ∧ (i 1).val < win0_4.index t0_0 (1 : Fin 3) * 98 + 98; omega
  | ⟨2, _⟩ => show win0_4.index t0_0 (2 : Fin 3) * 128 ≤ (i 2).val ∧ (i 2).val < win0_4.index t0_0 (2 : Fin 3) * 128 + 128; omega

/-- THE VALUE: after the call the output array is the normalised table of the three input arrays as the call found them. -/
theorem value0 (c : Dev nD) :
    (dat0 (U := U) V O c).arrAt 4 cfg0.N = comb0 (V c main_arg1) (V c main_v0) (V c main_v1) (V c main_v2) :=
  (dat0 (U := U) V O c).arrAt_eq_of_cover 4 _ (fun t _ => flushed0_4_eq V O c t) cover0

/-- An input's array is never written. -/
theorem kept0 (c : Dev nD) (w : Fin cfg0.W) (hw : (cfg0.win w).isOut = false) (n : Nat) :
    (dat0 (U := U) V O c).arrAt w n = V c (Pipeline.arrRef spec0 w) :=
  ((dat0 (U := U) V O c).arrAt_in w hw n).trans (A_eq0 V O c w)

end Cert.Proof.Reg0

end
-- ==== Proof.Region1.lean ====
/-
  The second TensorCore call (the flat row numbers) as a pipeline: what each window's staging buffer holds around the
  body, the body's run, the proof data and the body obligation, at a parameter `V` for the core's buffer contents when
  the call is entered and a parameter `O` for what the core owes while it runs.

  The grid has 16 points; point `t` works on rows [1024 t, 1024 t + 1024) of the input and of the result, each staged
  through two buffers in turn. The body loads the input block whole, adds 98 times the column number to every word and
  stores the block whole into the output buffer.
-/
import proofs.«206393_g35751307772044_cont_8to1_b_353_20_alg».proof.Proof.Gen.KernelIdeal.Launch
import proofs.«206393_g35751307772044_cont_8to1_b_353_20_alg».proof.Proof.Gen.KernelIdeal.Skeleton
import proofs.«206393_g35751307772044_cont_8to1_b_353_20_alg».proof.Proof.Gen.KernelIdeal.Points
import proofs.«206393_g35751307772044_cont_8to1_b_353_20_alg».proof.Proof.Common
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Proof.Reg1

open Cert.KernelIdeal Cert.KernelIdeal.Gen Cert.Proof.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx)

variable {F : FTy → Type} [FloatOps F]
variable {U : Type} [URA U]

local notation "𝕄" => MT nD τ sig (HIx 1) (Elt F) ℕ U ℕ

/- The TensorCore's buffer contents when the region is entered, the tallies each core owes throughout, the
   kernel's variants and the credit tokens' index: parameters. -/
variable (V : (c : Dev nD) → (b : Ref sig .tc) → Buf (Elt F) ((c : Thread nD τ).loc b))
variable (O : Dev nD → CellTallies nD τ sig (HIx 1)) (𝒱₀ : Variants) (ι : HIx 1)

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/- The input window's staging buffer holds its block at the point, fetched there or not, for any proof data whose
   array is the entry contents and whose body leaves the block in place. -/
theorem before1_0_of {c : Dev nD} (dat : Dat τ (Elt F) (HIx 1) ℕ U ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer through its whole-shape rectangle -/

abbrev rX : Rect S1024x20 := Rect.unit (s := S1024x20) ![0, 0] S1024x20.size inb_S1024x20_S1024x20_0_0

/-- The result's staging buffer after the body, from the input block: its one store as a piece. -/
def out1_1 (x0 : Vec F S1024x20 .i32) : Vec F S1024x20 .i32 :=
  View.canon [⟨rX, k1_pay1 (View.ld x0 rX)⟩]

theorem hz2 : (![0, 0] : Fin 2 → Nat) = fun _ => 0 := funext fun a => by fin_cases a <;> rfl

/-- The one store is through the whole shape, so it covers the buffer. -/
theorem cover1_1 (p0 : Vec F S1024x20 .i32) (y : S1024x20.Idx) :
    ∃ pc ∈ ([⟨rX, p0⟩] : List (View.Piece (Elt F) S1024x20 .i32)), y ∈ pc.1.set :=
  ⟨_, List.mem_singleton_self _, View.mem_set_unit_zero hz2 inb_S1024x20_S1024x20_0_0 y⟩

/-! ## The body's triple -/

set_option maxHeartbeats 1000000 in
/-- The body on whole staging memrefs, the input's at read contents `x0` and the output's at anything, runs to the
    continuation holding the input's as it was and the output's at `out1_1 x0`. -/
theorem sound_kernel1 (c : Dev nD) (E : Set ℕ) (i : grid1.Coords) (arg1 : Memref sig .tc .vmem S1024x20 .i32) (harg1 : arg1.IsWhole) (arg2 : Memref sig .tc .vmem S1024x20 .i32) (harg2 : arg2.IsWhole)
    (x0 : Vec F S1024x20 .i32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) 𝒱₀ c none) E (cc1__idx_body i arg1 harg1 arg2 harg2) K := by
  simp only [cc1__idx_body_eq_skeleton]; unfold cc1__idx_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of the second call on core `c`: the arrays as the region finds them; after the body at point `t` the
    input's buffer at its block and the output's at `out1_1` of it; the invariant the core's scoped buffers that are no
    staging buffer of this call, untouched; the core owing `O c` throughout, every pair its waits
    have recorded being at the index `none`; full shares. -/
def dat1 (c : Dev nD) : Dat τ (Elt F) (HIx 1) ℕ U ℕ cfg1 c where
  A w := V c (Pipeline.arrRef spec1 w)
  after w t := match w with
    | ⟨0, _⟩ => iblk1 V c 0 t
    | ⟨1, _⟩ => out1_1 (iblk1 V c 0 t)
  Φ _ := Pipeline.scopedRest (Ix := HIx 1) (Name := ℕ) (U := U) (Lvl := ℕ) (Val := Elt F) spec1 c
  q _ := fullShare
  owed _ := O c
  recorded _ := {p | p.2 = none}

theorem A_eq1 (c : Dev nD) (w : Fin cfg1.W) : (dat1 (U := U) V O c).A w = V c (Pipeline.arrRef spec1 w) := by
  dsimp only [dat1]

theorem after1_0 (c : Dev nD) (t : Fin cfg1.N) : (dat1 (U := U) V O c).after 0 t = iblk1 V c 0 t := by dsimp only [dat1]
theorem after1_1 (c : Dev nD) (t : Fin cfg1.N) : (dat1 (U := U) V O c).after 1 t = out1_1 (iblk1 V c 0 t) := by dsimp only [dat1]

theorem before1_0 (c : Dev nD) (t : Fin cfg1.N) (d) : (dat1 (U := U) V O c).before 0 t d = iblk1 V c 0 t :=
  before1_0_of V (dat1 V O c) (A_eq1 V O c 0) (after1_0 V O c) t d

/-! ## The body obligation, at a generic point -/

/-- What the body is called with at point `t`, the windows one by one, -/
def bodyPre1 (c : Dev nD) (t : Fin cfg1.N) : sProp 𝕄 :=
  iprop((dat1 (U := U) V O c).Φ t.castSucc ∗ (dat1 (U := U) V O c).owesAt ι t.castSucc
    ∗ (∃ d, owns (c : Thread nD τ) (st1_0 t) fullShare ((dat1 (U := U) V O c).before 0 t d))
    ∗ (∃ d, owns (c : Thread nD τ) (st1_1 t) fullShare ((dat1 (U := U) V O c).before 1 t d)))

/-- and what it returns. -/
def bodyPost1 (c : Dev nD) (t : Fin cfg1.N) : sProp 𝕄 :=
  iprop((dat1 (U := U) V O c).Φ t.succ ∗ (dat1 (U := U) V O c).owesAt ι t.succ
    ∗ owns (c : Thread nD τ) (st1_0 t) fullShare ((dat1 (U := U) V O c).after 0 t)
    ∗ owns (c : Thread nD τ) (st1_1 t) fullShare ((dat1 (U := U) V O c).after 1 t))

/-- The body at any point: the input's memref holds its block, so the triple applies; the invariant and what the core
    owes pass through unread. -/
theorem sound_body1 (c : Dev nD) (t : Fin cfg1.N) :
    bodyPre1 (U := U) V O ι c t ⊢ wp frame (wpE (defs₀ (F := F)) 𝒱₀ c none) Set.univ (bodyAt1 t) (fun _ => bodyPost1 (U := U) V O ι c t) := by
  unfold bodyPre1 bodyPost1 bodyAt1
  simp only [before1_0]
  rw [show (dat1 (U := U) V O c).Φ t.succ = (dat1 (U := U) V O c).Φ t.castSucc from rfl,
    show (dat1 (U := U) V O c).owesAt ι t.succ = (dat1 (U := U) V O c).owesAt ι t.castSucc from rfl,
    after1_0, after1_1]
  iintro ⟨HΦ, Ho, ⟨%d0, H0⟩, ⟨%d1, H1⟩⟩
  iapply (sound_kernel1 𝒱₀ c Set.univ (grid1.coords t) _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) (U := U) V O c) (defs₀ (F := F)) 𝒱₀ ι Set.univ := fun t => by
  rw [bigSep_W1, bigSep_W1]
  exact sound_body1 V O 𝒱₀ ι c t

theorem body_obligation1_loose (c : Dev nD) : BodyObligationLoose (dat1 (F := F) (U := U) V O c) (defs₀ (F := F)) 𝒱₀ ι Set.univ :=
  (body_obligation1 V O 𝒱₀ ι c).loose

/-! ## The value: the output array after the call, as one function of the input array -/

/-- The stored word at (r, s) of a block is the loaded word plus 98 s. -/
theorem pay1_apply (x : Vec F S1024x20 .i32) (j : S1024x20.Idx) :
    k1_pay1 x j = (x j : BitVec 32) + BitVec.ofNat 32 (j 1).val * 98#32 := by
  unfold k1_pay1
  show (x j : BitVec 32) + iota .tc S1024x20 32 [1] iota_S1024x20_d1_w32 j * 98#32 = _
  rw [iota_single_apply]

/-- The printed index maps, decided over the grid: the input window moves with the output window, whose block index
    is the point's number on the rows and zero on the columns. -/
theorem idx_facts1 : ∀ t : Fin cfg1.N, win1_0.index t (0 : Fin 2) = win1_1.index t (0 : Fin 2) + 0
    ∧ win1_0.index t (1 : Fin 2) = win1_1.index t (1 : Fin 2) + 0
    ∧ 0 ≤ win1_1.index t (0 : Fin 2) ∧ win1_1.index t (0 : Fin 2) ≤ 15
    ∧ 0 ≤ win1_1.index t (1 : Fin 2) ∧ win1_1.index t (1 : Fin 2) ≤ 0 :=
  (by decide +kernel : ∀ t : Fin grid1.N, _)

/-- Every block of the output array is some point's. -/
theorem idx_onto1 : ∀ (q0 : Fin 16) (q1 : Fin 1), ∃ t : Fin cfg1.N, win1_1.index t = ![q0.val + 0, q1.val + 0] :=
  (by decide +kernel : ∀ (q0 : Fin 16) (q1 : Fin 1), ∃ t : Fin grid1.N, win1_1.index t = ![q0.val + 0, q1.val + 0])

/-- At one element: if the loaded block's word at `j` is the array's at `i`, and `i` is column `j 1`, the stored word is the
    array's row number there. -/
theorem pay1_eq_idx0 (A : IVec S16384x20 32) (x : Vec F S1024x20 .i32) (j : S1024x20.Idx) (i i' : S16384x20.Idx)
    (hx : x j = A i) (hi : i = i') (h1 : (i' 1).val = (j 1).val) : k1_pay1 x j = idx0 A i' := by
  subst hi
  rw [pay1_apply, hx]
  show A i + BitVec.ofNat 32 (j 1).val * 98#32 = A i + BitVec.ofNat 32 (i 1).val * 98#32
  rw [h1]

/-- What point `t` writes back is block `t` of the row numbers of the input array as the call finds it. -/
theorem flushed1_1_eq (c : Dev nD) (t : Fin cfg1.N) :
    (dat1 (U := U) V O c).flushed 1 t = ((cfg1.win 1).blk t).view.read (Elt F) (idx0 (V c main_arg0)) := by
  show (cfg1.win 1).cut (grid1.coords t) ((dat1 (U := U) V O c).after 1 t) = _
  rw [after1_1]
  unfold out1_1
  rw [View.canon_unit_zero hz2]
  simp only [View.ld_unit_zero (S := S1024x20) hz2]
  obtain ⟨e0, e1, e2, e3, e4, e5⟩ := idx_facts1 t
  funext j
  have h0 : ((cfg1.win 0).blk t).view.emb j = ((cfg1.win 1).blk t).view.emb j := by
    funext a; apply Fin.ext
    match a with
    | ⟨0, _⟩ => show win1_0.index t (0 : Fin 2) * 1024 + 1 * (j 0).val = win1_1.index t (0 : Fin 2) * 1024 + 1 * (j 0).val; omega
    | ⟨1, _⟩ => show win1_0.index t (1 : Fin 2) * 20 + 1 * (j 1).val = win1_1.index t (1 : Fin 2) * 20 + 1 * (j 1).val; omega
  have h1 : ((((cfg1.win 1).blk t).view.emb j) 1).val = (j 1).val := by
    show win1_1.index t (1 : Fin 2) * 20 + 1 * (j 1).val = (j 1).val; omega
  show k1_pay1 (iblk1 V c 0 t) j = idx0 (V c main_arg0) (((cfg1.win 1).blk t).view.emb j)
  exact pay1_eq_idx0 (V c main_arg0) (iblk1 V c 0 t) j (((cfg1.win 0).blk t).view.emb j) _ rfl h0 h1

/-- An index of the output array is in point `t`'s block iff each coordinate is in the block's range on its axis. -/
theorem mem_blk1_1 (t : Fin cfg1.N) (i : S16384x20.Idx) :
    i ∈ ((cfg1.win 1).blk t).view.set ↔ ∀ a : Fin 2, win1_1.index t a * S1024x20.size a ≤ (i a).val ∧ (i a).val < win1_1.index t a * S1024x20.size a + S1024x20.size a := by
  show i ∈ ((View.whole main_v4).slice (win1_1.rect t)).set ↔ _
  rw [View.set_slice_whole, Rect.mem_set_unit]
  exact Iff.rfl

/-- The sixteen points' blocks cover the output array: row `r` is in the block of point `r / 1024`. -/
theorem cover1 (i : S16384x20.Idx) : ∃ t : Fin cfg1.N, (cfg1.win 1).flush t = true ∧ i ∈ ((cfg1.win 1).blk t).view.set := by
  have hi0 : (i 0).val < 16384 := (i 0).isLt
  have hi1 : (i 1).val < 20 := (i 1).isLt
  obtain ⟨t, ht⟩ := idx_onto1 ⟨(i 0).val / 1024 - 0, by omega⟩ ⟨(i 1).val / 20 - 0, by omega⟩
  have q0 : win1_1.index t (0 : Fin 2) = (i 0).val / 1024 - 0 + 0 := congrFun ht 0
  have q1 : win1_1.index t (1 : Fin 2) = (i 1).val / 20 - 0 + 0 := congrFun ht 1
  refine ⟨t, flush1_1 t, ?_⟩
  rw [mem_blk1_1]
  intro a
  match a with
  | ⟨0, _⟩ => show win1_1.index t (0 : Fin 2) * 1024 ≤ (i 0).val ∧ (i 0).val < win1_1.index t (0 : Fin 2) * 1024 + 1024; omega
  | ⟨1, _⟩ => show win1_1.index t (1 : Fin 2) * 20 ≤ (i 1).val ∧ (i 1).val < win1_1.index t (1 : Fin 2) * 20 + 20; omega

/-- THE VALUE: after the call the output array holds, at (r, s), the input's word there plus 98 s. -/
theorem value1 (c : Dev nD) : (dat1 (U := U) V O c).arrAt 1 cfg1.N = idx0 (V c main_arg0) :=
  (dat1 (U := U) V O c).arrAt_eq_of_cover 1 _ (fun t _ => flushed1_1_eq V O c t) cover1

/-- The input's array is never written. -/
theorem kept1 (c : Dev nD) (n : Nat) : (dat1 (U := U) V O c).arrAt 0 n = V c main_arg0 :=
  ((dat1 (U := U) V O c).arrAt_in 0 rfl n).trans (A_eq1 V O c 0)

end Cert.Proof.Reg1

end
-- ==== Proof.Regions.lean ====
/-
  The two TensorCore calls as segments of @main, over a thread state that carries every unscoped buffer of the core at a
  valuation: the valuations at the three boundaries (before the first call, between the calls, after the second), both
  calls' proof data at their entry valuations, the two segment records, and the calls' results read at the valuations.
-/
import proofs.«206393_g35751307772044_cont_8to1_b_353_20_alg».proof.Proof.Region0
import proofs.«206393_g35751307772044_cont_8to1_b_353_20_alg».proof.Proof.Region1
import Idealize.ShloMosaic.Lib.Pipeline.RegionsLoop
import Idealize.ShloMosaic.Lib.Pipeline.FrameSuffix

set_option maxRecDepth 16384

noncomputable section

namespace Cert.Proof.Regs

open Cert.KernelIdeal Cert.KernelIdeal.Gen Cert.Proof.Common Cert.Proof.Reg0 Cert.Proof.Reg1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx)

variable {F : FTy → Type} [FloatOps F]
variable {U : Type} [URA U]

local notation "𝕄" => MT nD τ sig (HIx 1) (Elt F) ℕ U ℕ

variable (m : (ℓ : Loc nD τ sig) → Buf (Elt F) ℓ)
variable (O : Dev nD → CellTallies nD τ sig (HIx 1)) (hO : ∀ c g, O c g none = 0)

/-! ## The buffer contents at each boundary: a fold through @main -/

/-- The three host operations before the first call: the first twenty rows of the position table, and the scale and the
    shift as one-row arrays. -/
abbrev hostA : List (HloOp τ sig (Elt F)) :=
  [StableHlo.unary main_arg2 main_v0 ((extractStridedSlice S20x128 ![0, 0] · slices_S25x128_S20x128_0_0) : (⟨S25x128, .f32⟩ : BufTy).Contents (Elt F) → (⟨S20x128, .f32⟩ : BufTy).Contents (Elt F)),
   StableHlo.reshape main_arg3 main_v1 rfl shapeCasts_S128_S1x128,
   StableHlo.reshape main_arg4 main_v2 rfl shapeCasts_S128_S1x128]

/-- Core `c`'s buffers at launch. -/
abbrev W0 : Dev nD → Valuation τ sig (Elt F) := fun c b => m ((c : Dev nD), b)
/-- After the three host operations (the first call's entry). -/
abbrev W1 : Dev nD → Valuation τ sig (Elt F) := fun c => StableHlo.after hostA (W0 m c)
/-- The same read at the TensorCore's references. -/
abbrev V1 : (c : Dev nD) → (b : Ref sig .tc) → Buf (Elt F) ((c : Thread nD τ).loc b) := fun c b => W1 m c b
/-- At the first call's exit: its arrays at what the pipeline leaves, every other buffer as entered. -/
def W2 (c : Dev nD) : Valuation τ sig (Elt F) :=
  Pipeline.withArrays spec0 c (W1 m c) fun w => (dat0 (U := U) (V1 m) O c).arrAt w cfg0.N
theorem W2_arr (c : Dev nD) (w : Fin cfg0.W) :
    W2 (U := U) m O c (Proc.devRef .tc (Pipeline.arrRef spec0 w)) = (dat0 (U := U) (V1 m) O c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 (U := U) m O c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 (U := U) m O c b
theorem hF0 (c : Dev nD) (w : Fin cfg0.W) : (dat0 (U := U) (V1 m) O c).arrAt w cfg0.N = V2 (U := U) m O c (Pipeline.arrRef spec0 w) :=
  (W2_arr m O c w).symm
theorem hrest0 (c : Dev nD) : ∀ b, b ∉ Finset.univ.image (Pipeline.arrRef spec0) → V2 (U := U) m O c b = V1 m c b :=
  fun b hb => W2_of_ne m O c b fun w e => hb (Finset.mem_image.mpr ⟨w, Finset.mem_univ _, e⟩)

/-- At the second call's exit: its arrays at what the pipeline leaves, every other buffer as entered. -/
def W3 (c : Dev nD) : Valuation τ sig (Elt F) :=
  Pipeline.withArrays spec1 c (W2 (U := U) m O c) fun w => (dat1 (U := U) (V2 (U := U) m O) O c).arrAt w cfg1.N
theorem W3_arr (c : Dev nD) (w : Fin cfg1.W) :
    W3 (U := U) m O c (Proc.devRef .tc (Pipeline.arrRef spec1 w)) = (dat1 (U := U) (V2 (U := U) m O) O c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 (U := U) m O c (Proc.devRef .tc b) = W2 (U := U) m O c (Proc.devRef .tc b) := by
  unfold W3; exact Pipeline.withArrays_of_ne spec1 c _ _ b hb
abbrev V3 : (c : Dev nD) → (b : Ref sig .tc) → Buf (Elt F) ((c : Thread nD τ).loc b) := fun c b => W3 (U := U) m O c b
theorem hF1 (c : Dev nD) (w : Fin cfg1.W) : (dat1 (U := U) (V2 (U := U) m O) O c).arrAt w cfg1.N = V3 (U := U) m O c (Pipeline.arrRef spec1 w) :=
  (W3_arr m O c w).symm
theorem hrest1 (c : Dev nD) : ∀ b, b ∉ Finset.univ.image (Pipeline.arrRef spec1) → V3 (U := U) m O c b = V2 (U := U) m O c b :=
  fun b hb => W3_of_ne m O c b fun w e => hb (Finset.mem_image.mpr ⟨w, Finset.mem_univ _, e⟩)

/-! ## The proof data family and the thread state -/

/-- No pipeline has a prefetched table. -/
abbrev adm : (p : Fin 2) → (pcfgs (F := F) p).Adm := fun p => (cfgs p).toPCfg_adm

/-- Both pipelines' proof data, each at its call's entry contents: a literal match, so that the pinned configuration at a
    numeral reduces to the printed one. -/
def pdats : (p : Fin 2) → (c : Dev nD) → Dat τ (Elt F) (HIx 1) ℕ U ℕ (Pipeline.pin (pcfgs (F := F)) adm p) c
  | ⟨0, _⟩ => fun c => dat0 (U := U) (V1 m) O c
  | ⟨1, _⟩ => fun c => dat1 (U := U) (V2 (U := U) m O) O c

/-- The thread state between two segments, at the valuation `Wv`: every unscoped buffer at it, what the core owes with
    every recorded pair at the index `none`, the generator register at some state, and whatever else rides along. -/
abbrev TS (Rest : Dev nD → sProp 𝕄) (Wv : Dev nD → Valuation τ sig (Elt F)) (c : Dev nD) : sProp 𝕄 :=
  iprop(StableHlo.held (c : Thread nD τ) (Pipeline.ucRefs τ sig) (Wv c)
    ∗ (∃ W : Finset (SemLoc sig × HIx 1), ⌜(↑W : Set (SemLoc sig × HIx 1)) ⊆ {p : SemLoc sig × HIx 1 | p.2 = none}⌝ ∗ owes (c : Thread nD τ) (O c) W)
    ∗ (∃ r, prngReg c r) ∗ Rest c)

set_option backward.isDefEq.respectTransparency.types false in
/-- Call 0 as a segment over the thread state: entered from every unscoped buffer at the entry valuation, left with the
    call's arrays at what its write-backs leave. Its arrays are split out of the unscoped buffers at the entry and put
    back at the exit; what the core owes passes through with its recorded pairs still at the index `none` (the call's
    own waits are at that index); the generator register and what rides along bypass the call; the call has no
    semaphore of its own. -/
def reg0 (Rest : Dev nD → sProp 𝕄) : Pipeline.RegionSeg (pcfgs (F := F)) adm (pdats (U := U) m O) none defs₀ Variants.none (sc (F := F)).L (sc (F := F)).lev 0 where
  win := launch0.win.to₀
  block_pos := launch0.block_pos
  stage_whole := launch0.stage_whole
  K := PEmpty
  osem k := k.elim
  ho := Pipeline.OwnSemFacts.none _
  hbody c := body_obligation0_loose (V1 m) O Variants.none none c
  hwaits c := Pipeline.cellsWaits_of_cut (Pipeline.pin (pcfgs (F := F)) adm) (pdats (U := U) m O) none 0 c 0 (O c) (fun _ => rfl)
    (fun _ _ => Finset.mem_univ _) (fun _ _ => le_rfl)
    (fun g i h => ⟨Finset.mem_univ _, by
      cases i with
      | none => rw [hO] at h; exact absurd h (lt_irrefl _)
      | some q => exact (sc (F := F)).lev_some_pos g q⟩)
  pre c := TS (U := U) O Rest (W1 m) c
  post c := TS (U := U) O Rest (W2 (U := U) m O) c
  X _ := iprop(emp)
  Y _ := iprop(emp)
  Z c := iprop(Pipeline.unscopedRest (Ix := HIx 1) (Name := ℕ) (U := U) (Lvl := ℕ) spec0 c ((V1 m) c) ∗ (∃ r, prngReg c r) ∗ Rest c)
  hentry c := by
    rw [Pipeline.ownSems0_none]
    have hsplit := Pipeline.arrays_of_unscopedBufs (p := 0) (pcfgs (F := F)) adm (pdats (U := U) m O) launch0.win launch0.arr_whole c
      ((pdats (U := U) m O 0 c).share_full fun _ => rfl) (V1 m c) fun _ => rfl
    rw [Pipeline.unscopedBufs_held] at hsplit
    iintro ⟨⟨Hub, HO, Hp, HR⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    isplitl [Hrest]; · iexact Hrest
    isplitl [Hp]; · iexact Hp
    iexact HR
  hin c := by
    rw [show (pdats (U := U) m O 0 c).Φ 0 = Pipeline.scopedRest (Ix := HIx 1) (Name := ℕ) (U := U) (Lvl := ℕ) (Val := Elt F) spec0 c from rfl]
    iintro ⟨-, -, Hr⟩
    iexact Hr
  hout c := by
    rw [Pipeline.ownSems0_none, show (pdats (U := U) m O 0 c).Φ (Fin.last _) = Pipeline.scopedRest (Ix := HIx 1) (Name := ℕ) (U := U) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := U) (Lvl := ℕ)
      launch0.win launch0.arr_whole c (pdats (U := U) m O) ((pdats (U := U) m O 0 c).share_full fun _ => rfl)
      (V1 m c) (V2 (U := U) m O c) ((pdats (U := U) m O 0 c).arrAt · cfg0.N) (hF0 m O c) (hrest0 m O c)
    rw [Pipeline.unscopedBufs_held] at hjoin
    iintro ⟨Ha, HO, -, Hrest, Hp, HR⟩
    imodintro
    isplitl [Ha Hrest]
    · iapply hjoin; isplitl [Ha] <;> iassumption
    isplitl [HO]
    · unfold Pipeline.Dat.owesAt Pipeline.owesWithin
      icases HO with ⟨%W, %hW, HO⟩; iexists W; isplitr
      · ipureintro; exact fun p hp => (hW hp).elim id (by rintro ⟨w, s, rfl⟩; rfl)
      iexact HO
    isplitl [Hp]; · iexact Hp
    iexact HR

set_option backward.isDefEq.respectTransparency.types false in
/-- Call 1 as a segment over the thread state: entered from every unscoped buffer at the entry valuation, left with the
    call's arrays at what its write-backs leave. Its arrays are split out of the unscoped buffers at the entry and put
    back at the exit; what the core owes passes through with its recorded pairs still at the index `none` (the call's
    own waits are at that index); the generator register and what rides along bypass the call; the call has no
    semaphore of its own. -/
def reg1 (Rest : Dev nD → sProp 𝕄) : Pipeline.RegionSeg (pcfgs (F := F)) adm (pdats (U := U) m O) none defs₀ Variants.none (sc (F := F)).L (sc (F := F)).lev 1 where
  win := launch1.win.to₀
  block_pos := launch1.block_pos
  stage_whole := launch1.stage_whole
  K := PEmpty
  osem k := k.elim
  ho := Pipeline.OwnSemFacts.none _
  hbody c := body_obligation1_loose (V2 (U := U) m O) O Variants.none none c
  hwaits c := Pipeline.cellsWaits_of_cut (Pipeline.pin (pcfgs (F := F)) adm) (pdats (U := U) m O) none 1 c 0 (O c) (fun _ => rfl)
    (fun _ _ => Finset.mem_univ _) (fun _ _ => le_rfl)
    (fun g i h => ⟨Finset.mem_univ _, by
      cases i with
      | none => rw [hO] at h; exact absurd h (lt_irrefl _)
      | some q => exact (sc (F := F)).lev_some_pos g q⟩)
  pre c := TS (U := U) O Rest (W2 (U := U) m O) c
  post c := TS (U := U) O Rest (W3 (U := U) m O) c
  X _ := iprop(emp)
  Y _ := iprop(emp)
  Z c := iprop(Pipeline.unscopedRest (Ix := HIx 1) (Name := ℕ) (U := U) (Lvl := ℕ) spec1 c ((V2 (U := U) m O) c) ∗ (∃ r, prngReg c r) ∗ Rest c)
  hentry c := by
    rw [Pipeline.ownSems0_none]
    have hsplit := Pipeline.arrays_of_unscopedBufs (p := 1) (pcfgs (F := F)) adm (pdats (U := U) m O) launch1.win launch1.arr_whole c
      ((pdats (U := U) m O 1 c).share_full fun _ => rfl) (V2 (U := U) m O c) fun _ => rfl
    rw [Pipeline.unscopedBufs_held] at hsplit
    iintro ⟨⟨Hub, HO, Hp, HR⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    isplitl [Hrest]; · iexact Hrest
    isplitl [Hp]; · iexact Hp
    iexact HR
  hin c := by
    rw [show (pdats (U := U) m O 1 c).Φ 0 = Pipeline.scopedRest (Ix := HIx 1) (Name := ℕ) (U := U) (Lvl := ℕ) (Val := Elt F) spec1 c from rfl]
    iintro ⟨-, -, Hr⟩
    iexact Hr
  hout c := by
    rw [Pipeline.ownSems0_none, show (pdats (U := U) m O 1 c).Φ (Fin.last _) = Pipeline.scopedRest (Ix := HIx 1) (Name := ℕ) (U := U) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := U) (Lvl := ℕ)
      launch1.win launch1.arr_whole c (pdats (U := U) m O) ((pdats (U := U) m O 1 c).share_full fun _ => rfl)
      (V2 (U := U) m O c) (V3 (U := U) m O c) ((pdats (U := U) m O 1 c).arrAt · cfg1.N) (hF1 m O c) (hrest1 m O c)
    rw [Pipeline.unscopedBufs_held] at hjoin
    iintro ⟨Ha, HO, -, Hrest, Hp, HR⟩
    imodintro
    isplitl [Ha Hrest]
    · iapply hjoin; isplitl [Ha] <;> iassumption
    isplitl [HO]
    · unfold Pipeline.Dat.owesAt Pipeline.owesWithin
      icases HO with ⟨%W, %hW, HO⟩; iexists W; isplitr
      · ipureintro; exact fun p hp => (hW hp).elim id (by rintro ⟨w, s, rfl⟩; rfl)
      iexact HO
    isplitl [Hp]; · iexact Hp
    iexact HR

/-! ## The two calls' results, read at the valuations -/

/-- No host operation before the first call writes the index array, -/
theorem W1_main_arg0 (c : Dev nD) : W1 m c (Proc.devRef .tc main_arg0) = W0 m c (Proc.devRef .tc main_arg0) :=
  StableHlo.after_of_forall_not_mem (b := Proc.devRef .tc main_arg0) _ _ (List.forall_iff_forall_mem.mp (by
    simp only [hostA, List.Forall, StableHlo.unary_writes, StableHlo.reshape_writes, Finset.mem_singleton]
    repeat' apply And.intro
    all_goals exact StableHlo.devRef_ne_of_ne (by decide)))
/-- nor the letter table. -/
theorem W1_main_arg1 (c : Dev nD) : W1 m c (Proc.devRef .tc main_arg1) = W0 m c (Proc.devRef .tc main_arg1) :=
  StableHlo.after_of_forall_not_mem (b := Proc.devRef .tc main_arg1) _ _ (List.forall_iff_forall_mem.mp (by
    simp only [hostA, List.Forall, StableHlo.unary_writes, StableHlo.reshape_writes, Finset.mem_singleton]
    repeat' apply And.intro
    all_goals exact StableHlo.devRef_ne_of_ne (by decide)))

/-- After the first call its result array is the normalised table of the letter table, the first twenty position rows, the
    scale and the shift, as the call found them. -/
theorem W2_main_v3 (c : Dev nD) :
    W2 (U := U) m O c (Proc.devRef .tc main_v3) = comb0 (V1 m c main_arg1) (V1 m c main_v0) (V1 m c main_v1) (V1 m c main_v2) :=
  (W2_arr m O c 4).trans (value0 (V1 m) O c)

/-- The first call leaves the index array as it was. -/
theorem W2_main_arg0 (c : Dev nD) : W2 (U := U) m O c (Proc.devRef .tc main_arg0) = W0 m c (Proc.devRef .tc main_arg0) :=
  (W2_of_ne m O c main_arg0 (by decide)).trans (W1_main_arg0 m c)

/-- After the second call its result array holds, at (r, s), the launch's index word there plus 98 s. -/
theorem W3_main_v4 (c : Dev nD) :
    W3 (U := U) m O c (Proc.devRef .tc main_v4) = idx0 (W0 m c (Proc.devRef .tc main_arg0)) :=
  (W3_arr m O c 1).trans ((value1 (V2 (U := U) m O) O c).trans (congrArg idx0 (W2_main_arg0 m O c)))

/-- The second call leaves the first call's table as it was. -/
theorem W3_main_v3 (c : Dev nD) : W3 (U := U) m O c (Proc.devRef .tc main_v3) = W2 (U := U) m O c (Proc.devRef .tc main_v3) :=
  W3_of_ne m O c main_v3 (by decide)

end Cert.Proof.Regs

end
-- ==== Proof.Segs.lean ====
/-
  @main's TensorCore part as four segments — the host operations before the calls, the two calls, the host operations
  after them — over the thread state that carries every unscoped buffer at a valuation; the program as the run of
  those segments followed by the SparseCore call; and the last valuation read back: the table and the index array the
  SparseCore call works on, and the arguments and the result array as launched.
-/
import proofs.«206393_g35751307772044_cont_8to1_b_353_20_alg».proof.Proof.Regions
import proofs.«206393_g35751307772044_cont_8to1_b_353_20_alg».proof.Proof.Launch
import Idealize.ShloMosaic.Lib.StableHlo.Run

set_option maxRecDepth 16384

noncomputable section

namespace Cert.Proof.Regs

open Cert.KernelIdeal Cert.KernelIdeal.Gen Cert.Proof.Common Cert.Proof.Reg0 Cert.Proof.Reg1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Idealize.ShloMosaic.SparseCore.Cfg (HIx)

variable {F : FTy → Type} [FloatOps F]
variable {U : Type} [URA U]

local notation "𝕄" => MT nD τ sig (HIx 1) (Elt F) ℕ U ℕ

variable (m : (ℓ : Loc nD τ sig) → Buf (Elt F) ℓ)
variable (O : Dev nD → CellTallies nD τ sig (HIx 1)) (hO : ∀ c g, O c g none = 0)

/-! ## The host operations after the calls, and the last valuation -/

/-- The two host operations after the calls: the table as 1960 rows, the row numbers as [32, 128, 80]. -/
abbrev hostB : List (HloOp τ sig (Elt F)) :=
  [StableHlo.reshape main_v3 main_v5 rfl shapeCasts_S20x98x128_S1960x128,
   StableHlo.reshape main_v4 main_v6 rfl shapeCasts_S16384x20_S32x128x80]

/-- After them: what the SparseCore call is started from. -/
abbrev W4 : Dev nD → Valuation τ sig (Elt F) := fun c => StableHlo.after hostB (W3 (U := U) m O c)

/-! ## The host stretches as segments -/

theorem hostA_sub : (hostA : List (HloOp τ sig (Elt F))).Forall fun op => op.bufs ⊆ StableHlo.tcRefs τ sig :=
  ⟨StableHlo.unary_bufs_sub .., StableHlo.reshape_bufs_sub .., StableHlo.reshape_bufs_sub ..⟩
theorem hostB_sub : (hostB : List (HloOp τ sig (Elt F))).Forall fun op => op.bufs ⊆ StableHlo.tcRefs τ sig :=
  ⟨StableHlo.reshape_bufs_sub .., StableHlo.reshape_bufs_sub ..⟩
theorem hostA_fresh : (hostA : List (HloOp τ sig (Elt F))).Forall fun op => op.fresh = ∅ := by
  simp only [List.Forall]; repeat' constructor
theorem hostB_fresh : (hostB : List (HloOp τ sig (Elt F))).Forall fun op => op.fresh = ∅ := by
  simp only [List.Forall]; repeat' constructor

/-- What rides beside the buffers through a host stretch: the thread state but for the buffers. -/
abbrev RR (Rest : Dev nD → sProp 𝕄) (c : Dev nD) : sProp 𝕄 :=
  iprop((∃ W : Finset (SemLoc sig × HIx 1), ⌜(↑W : Set (SemLoc sig × HIx 1)) ⊆ {p : SemLoc sig × HIx 1 | p.2 = none}⌝ ∗ owes (c : Thread nD τ) (O c) W)
    ∗ (∃ r, prngReg c r) ∗ Rest c)

/-- A line of host operations as a segment: over the unscoped references from the valuation `W`, the rest of the
    thread state riding along; it leaves them at the valuation the operations make of `W`. -/
abbrev hseg (Rest : Dev nD → sProp 𝕄) (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := U) (pcfgs (F := F)) defs₀ Variants.none (sc (F := F)).L (sc (F := F)).lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (RR (U := U) O Rest)

abbrev hsegA (Rest : Dev nD → sProp 𝕄) := hseg (U := U) O Rest hostA hostA_sub hostA_fresh (W0 m)
abbrev hsegB (Rest : Dev nD → sProp 𝕄) := hseg (U := U) O Rest hostB hostB_sub hostB_fresh (W3 (U := U) m O)

/-! ## The four segments -/

abbrev segs (Rest : Dev nD → sProp 𝕄) : List (Pipeline.Seg (pcfgs (F := F)) adm (pdats (U := U) m O) none defs₀ Variants.none (sc (F := F)).L (sc (F := F)).lev) :=
  [.host (hsegA (U := U) m O Rest), .region (reg0 (U := U) m O hO Rest), .region (reg1 (U := U) m O hO Rest), .host (hsegB (U := U) m O Rest)]

/-- The two calls are different pipelines. -/
theorem segs_pipes (Rest : Dev nD → sProp 𝕄) : (Pipeline.Seg.pipes (segs (U := U) m O hO Rest)).Nodup := by
  simp only [segs, Pipeline.Seg.pipes_host, Pipeline.Seg.pipes_region, Pipeline.Seg.pipes_nil]; decide

/-- Each segment is entered from what the one before it left: the thread state at the launch valuation, then at the
    valuation each segment makes of the one before. -/
theorem segs_chain (Rest : Dev nD → sProp 𝕄) :
    Pipeline.Seg.Chains (TS (U := U) O Rest (W0 m)) (segs (U := U) m O hO Rest) (TS (U := U) O Rest (W4 (U := U) m O)) :=
  ⟨fun _ => .rfl, fun _ => .rfl, fun _ => .rfl, fun _ => .rfl, fun _ => .rfl⟩

/-! ## The program is the segments' run, then the SparseCore call -/

theorem main_eq (Rest : Dev nD → sProp 𝕄) (d : Dev nD) :
    Cert.KernelIdeal.main (F := F) d
      = (SparseCore.liftProg (Pipeline.Seg.run (segs (U := U) m O hO Rest)) >>= fun _ => (sc (F := F)).run d 0 >>= fun _ => pure ⟨⟩) := by
  chain_rfl

/-! ## The last valuation, read back -/

/-- Before the first call the position rows are the first twenty of the position table, -/
theorem W1_main_v0 (c : Dev nD) :
    (W1 m c (Proc.devRef .tc main_v0) : Vec F S20x128 .f32)
      = extractStridedSlice S20x128 ![0, 0] (W0 m c (Proc.devRef .tc main_arg2) : Vec F S25x128 .f32) slices_S25x128_S20x128_0_0 := by
  dsimp only [W1, hostA]; after_results <;> rfl
/-- the scale is the scale vector as one row, -/
theorem W1_main_v1 (c : Dev nD) :
    (W1 m c (Proc.devRef .tc main_v1) : Vec F S1x128 .f32)
      = shapeCast S1x128 (W0 m c (Proc.devRef .tc main_arg3) : Vec F S128 .f32) shapeCasts_S128_S1x128 := by
  dsimp only [W1, hostA]; after_results <;> rfl
/-- and the shift is the shift vector as one row. -/
theorem W1_main_v2 (c : Dev nD) :
    (W1 m c (Proc.devRef .tc main_v2) : Vec F S1x128 .f32)
      = shapeCast S1x128 (W0 m c (Proc.devRef .tc main_arg4) : Vec F S128 .f32) shapeCasts_S128_S1x128 := by
  dsimp only [W1, hostA]; after_results <;> rfl

/-- After the calls the table the SparseCore call reads is the first call's result as 1960 rows, -/
theorem W4_main_v5_raw (c : Dev nD) :
    (W4 (U := U) m O c (Proc.devRef .tc main_v5) : Vec F S1960x128 .f32)
      = shapeCast S1960x128 (W3 (U := U) m O c (Proc.devRef .tc main_v3) : Vec F S20x98x128 .f32) shapeCasts_S20x98x128_S1960x128 := by
  dsimp only [W4, hostB]; after_results <;> rfl
/-- and the index array is the second call's result as [32, 128, 80]. -/
theorem W4_main_v6_raw (c : Dev nD) :
    (W4 (U := U) m O c (Proc.devRef .tc main_v6) : Vec F S32x128x80 .i32)
      = shapeCast S32x128x80 (W3 (U := U) m O c (Proc.devRef .tc main_v4) : Vec F S16384x20 .i32) shapeCasts_S16384x20_S32x128x80 := by
  dsimp only [W4, hostB]; after_results <;> rfl

/-- The table the SparseCore call gathers from is the normalised table of the launch arguments, as 1960 rows. -/
theorem W4_main_v5 (c : Dev nD) : W4 (U := U) m O c (Proc.devRef .tc main_v5) = Cert.Proof.Launch.cmbV m c := by
  refine (W4_main_v5_raw m O c).trans ?_
  unfold Cert.Proof.Launch.cmbV
  refine congrArg (fun x => shapeCast S1960x128 x shapeCasts_S20x98x128_S1960x128) ?_
  refine ((W3_main_v3 m O c).trans (W2_main_v3 m O c)).trans ?_
  have h1 : (V1 m c main_arg1 : Vec F S98x128 .f32) = m ((SparseCore.T c).loc main_arg1) := W1_main_arg1 m c
  have h0 := W1_main_v0 m c
  have hw := W1_main_v1 m c
  have hb := W1_main_v2 m c
  show comb0 (V1 m c main_arg1) (V1 m c main_v0) (V1 m c main_v1) (V1 m c main_v2) = _
  rw [h1, show (V1 m c main_v0 : Vec F S20x128 .f32) = _ from h0, show (V1 m c main_v1 : Vec F S1x128 .f32) = _ from hw,
    show (V1 m c main_v2 : Vec F S1x128 .f32) = _ from hb]

/-- The index array the SparseCore call reads is the row numbers of the launch's index argument, as [32, 128, 80]. -/
theorem W4_main_v6 (c : Dev nD) : W4 (U := U) m O c (Proc.devRef .tc main_v6) = Cert.Proof.Launch.ixV m c := by
  refine (W4_main_v6_raw m O c).trans ?_
  unfold Cert.Proof.Launch.ixV
  exact congrArg (fun x => shapeCast S32x128x80 x shapeCasts_S16384x20_S32x128x80) (W3_main_v4 m O c)

/-- No host operation after the calls writes `main_arg0`. -/
theorem W4_W3_main_arg0 (c : Dev nD) : W4 (U := U) m O c (Proc.devRef .tc main_arg0) = W3 (U := U) m O c (Proc.devRef .tc main_arg0) :=
  StableHlo.after_of_forall_not_mem (b := Proc.devRef .tc main_arg0) _ _ (List.forall_iff_forall_mem.mp (by
    simp only [hostB, List.Forall, StableHlo.unary_writes, StableHlo.reshape_writes, Finset.mem_singleton]
    repeat' apply And.intro
    all_goals exact StableHlo.devRef_ne_of_ne (by decide)))
/-- `main_arg0` is as launched after the two calls and the host operations around them: none of them writes it. -/
theorem W4_main_arg0 (c : Dev nD) : W4 (U := U) m O c (Proc.devRef .tc main_arg0) = m ((SparseCore.T c).loc main_arg0) :=
  calc W4 (U := U) m O c (Proc.devRef .tc main_arg0)
    _ = W3 (U := U) m O c (Proc.devRef .tc main_arg0) := W4_W3_main_arg0 m O c
    _ = W2 (U := U) m O c (Proc.devRef .tc main_arg0) := (W3_arr m O c 0).trans (kept1 (V2 (U := U) m O) O c _)
    _ = W1 m c (Proc.devRef .tc main_arg0) := W2_of_ne m O c main_arg0 (by decide)
    _ = W0 m c (Proc.devRef .tc main_arg0) := W1_main_arg0 m c
    _ = m ((SparseCore.T c).loc main_arg0) := rfl

/-- No host operation after the calls writes `main_arg1`. -/
theorem W4_W3_main_arg1 (c : Dev nD) : W4 (U := U) m O c (Proc.devRef .tc main_arg1) = W3 (U := U) m O c (Proc.devRef .tc main_arg1) :=
  StableHlo.after_of_forall_not_mem (b := Proc.devRef .tc main_arg1) _ _ (List.forall_iff_forall_mem.mp (by
    simp only [hostB, List.Forall, StableHlo.unary_writes, StableHlo.reshape_writes, Finset.mem_singleton]
    repeat' apply And.intro
    all_goals exact StableHlo.devRef_ne_of_ne (by decide)))
/-- `main_arg1` is as launched after the two calls and the host operations around them: none of them writes it. -/
theorem W4_main_arg1 (c : Dev nD) : W4 (U := U) m O c (Proc.devRef .tc main_arg1) = m ((SparseCore.T c).loc main_arg1) :=
  calc W4 (U := U) m O c (Proc.devRef .tc main_arg1)
    _ = W3 (U := U) m O c (Proc.devRef .tc main_arg1) := W4_W3_main_arg1 m O c
    _ = W2 (U := U) m O c (Proc.devRef .tc main_arg1) := W3_of_ne m O c main_arg1 (by decide)
    _ = W1 m c (Proc.devRef .tc main_arg1) := (W2_arr m O c 0).trans (kept0 (V1 m) O c 0 rfl _)
    _ = W0 m c (Proc.devRef .tc main_arg1) := W1_main_arg1 m c
    _ = m ((SparseCore.T c).loc main_arg1) := rfl

/-- No host operation before the calls writes `main_arg2`. -/
theorem W1_main_arg2 (c : Dev nD) : W1 m c (Proc.devRef .tc main_arg2) = W0 m c (Proc.devRef .tc main_arg2) :=
  StableHlo.after_of_forall_not_mem (b := Proc.devRef .tc main_arg2) _ _ (List.forall_iff_forall_mem.mp (by
    simp only [hostA, List.Forall, StableHlo.unary_writes, StableHlo.reshape_writes, Finset.mem_singleton]
    repeat' apply And.intro
    all_goals exact StableHlo.devRef_ne_of_ne (by decide)))
/-- No host operation after the calls writes `main_arg2`. -/
theorem W4_W3_main_arg2 (c : Dev nD) : W4 (U := U) m O c (Proc.devRef .tc main_arg2) = W3 (U := U) m O c (Proc.devRef .tc main_arg2) :=
  StableHlo.after_of_forall_not_mem (b := Proc.devRef .tc main_arg2) _ _ (List.forall_iff_forall_mem.mp (by
    simp only [hostB, List.Forall, StableHlo.unary_writes, StableHlo.reshape_writes, Finset.mem_singleton]
    repeat' apply And.intro
    all_goals exact StableHlo.devRef_ne_of_ne (by decide)))
/-- `main_arg2` is as launched after the two calls and the host operations around them: none of them writes it. -/
theorem W4_main_arg2 (c : Dev nD) : W4 (U := U) m O c (Proc.devRef .tc main_arg2) = m ((SparseCore.T c).loc main_arg2) :=
  calc W4 (U := U) m O c (Proc.devRef .tc main_arg2)
    _ = W3 (U := U) m O c (Proc.devRef .tc main_arg2) := W4_W3_main_arg2 m O c
    _ = W2 (U := U) m O c (Proc.devRef .tc main_arg2) := W3_of_ne m O c main_arg2 (by decide)
    _ = W1 m c (Proc.devRef .tc main_arg2) := W2_of_ne m O c main_arg2 (by decide)
    _ = W0 m c (Proc.devRef .tc main_arg2) := W1_main_arg2 m c
    _ = m ((SparseCore.T c).loc main_arg2) := rfl

/-- No host operation before the calls writes `main_arg3`. -/
theorem W1_main_arg3 (c : Dev nD) : W1 m c (Proc.devRef .tc main_arg3) = W0 m c (Proc.devRef .tc main_arg3) :=
  StableHlo.after_of_forall_not_mem (b := Proc.devRef .tc main_arg3) _ _ (List.forall_iff_forall_mem.mp (by
    simp only [hostA, List.Forall, StableHlo.unary_writes, StableHlo.reshape_writes, Finset.mem_singleton]
    repeat' apply And.intro
    all_goals exact StableHlo.devRef_ne_of_ne (by decide)))
/-- No host operation after the calls writes `main_arg3`. -/
theorem W4_W3_main_arg3 (c : Dev nD) : W4 (U := U) m O c (Proc.devRef .tc main_arg3) = W3 (U := U) m O c (Proc.devRef .tc main_arg3) :=
  StableHlo.after_of_forall_not_mem (b := Proc.devRef .tc main_arg3) _ _ (List.forall_iff_forall_mem.mp (by
    simp only [hostB, List.Forall, StableHlo.unary_writes, StableHlo.reshape_writes, Finset.mem_singleton]
    repeat' apply And.intro
    all_goals exact StableHlo.devRef_ne_of_ne (by decide)))
/-- `main_arg3` is as launched after the two calls and the host operations around them: none of them writes it. -/
theorem W4_main_arg3 (c : Dev nD) : W4 (U := U) m O c (Proc.devRef .tc main_arg3) = m ((SparseCore.T c).loc main_arg3) :=
  calc W4 (U := U) m O c (Proc.devRef .tc main_arg3)
    _ = W3 (U := U) m O c (Proc.devRef .tc main_arg3) := W4_W3_main_arg3 m O c
    _ = W2 (U := U) m O c (Proc.devRef .tc main_arg3) := W3_of_ne m O c main_arg3 (by decide)
    _ = W1 m c (Proc.devRef .tc main_arg3) := W2_of_ne m O c main_arg3 (by decide)
    _ = W0 m c (Proc.devRef .tc main_arg3) := W1_main_arg3 m c
    _ = m ((SparseCore.T c).loc main_arg3) := rfl

/-- No host operation before the calls writes `main_arg4`. -/
theorem W1_main_arg4 (c : Dev nD) : W1 m c (Proc.devRef .tc main_arg4) = W0 m c (Proc.devRef .tc main_arg4) :=
  StableHlo.after_of_forall_not_mem (b := Proc.devRef .tc main_arg4) _ _ (List.forall_iff_forall_mem.mp (by
    simp only [hostA, List.Forall, StableHlo.unary_writes, StableHlo.reshape_writes, Finset.mem_singleton]
    repeat' apply And.intro
    all_goals exact StableHlo.devRef_ne_of_ne (by decide)))
/-- No host operation after the calls writes `main_arg4`. -/
theorem W4_W3_main_arg4 (c : Dev nD) : W4 (U := U) m O c (Proc.devRef .tc main_arg4) = W3 (U := U) m O c (Proc.devRef .tc main_arg4) :=
  StableHlo.after_of_forall_not_mem (b := Proc.devRef .tc main_arg4) _ _ (List.forall_iff_forall_mem.mp (by
    simp only [hostB, List.Forall, StableHlo.unary_writes, StableHlo.reshape_writes, Finset.mem_singleton]
    repeat' apply And.intro
    all_goals exact StableHlo.devRef_ne_of_ne (by decide)))
/-- `main_arg4` is as launched after the two calls and the host operations around them: none of them writes it. -/
theorem W4_main_arg4 (c : Dev nD) : W4 (U := U) m O c (Proc.devRef .tc main_arg4) = m ((SparseCore.T c).loc main_arg4) :=
  calc W4 (U := U) m O c (Proc.devRef .tc main_arg4)
    _ = W3 (U := U) m O c (Proc.devRef .tc main_arg4) := W4_W3_main_arg4 m O c
    _ = W2 (U := U) m O c (Proc.devRef .tc main_arg4) := W3_of_ne m O c main_arg4 (by decide)
    _ = W1 m c (Proc.devRef .tc main_arg4) := W2_of_ne m O c main_arg4 (by decide)
    _ = W0 m c (Proc.devRef .tc main_arg4) := W1_main_arg4 m c
    _ = m ((SparseCore.T c).loc main_arg4) := rfl

/-- No host operation before the calls writes `main_v7`. -/
theorem W1_main_v7 (c : Dev nD) : W1 m c (Proc.devRef .tc main_v7) = W0 m c (Proc.devRef .tc main_v7) :=
  StableHlo.after_of_forall_not_mem (b := Proc.devRef .tc main_v7) _ _ (List.forall_iff_forall_mem.mp (by
    simp only [hostA, List.Forall, StableHlo.unary_writes, StableHlo.reshape_writes, Finset.mem_singleton]
    repeat' apply And.intro
    all_goals exact StableHlo.devRef_ne_of_ne (by decide)))
/-- No host operation after the calls writes `main_v7`. -/
theorem W4_W3_main_v7 (c : Dev nD) : W4 (U := U) m O c (Proc.devRef .tc main_v7) = W3 (U := U) m O c (Proc.devRef .tc main_v7) :=
  StableHlo.after_of_forall_not_mem (b := Proc.devRef .tc main_v7) _ _ (List.forall_iff_forall_mem.mp (by
    simp only [hostB, List.Forall, StableHlo.unary_writes, StableHlo.reshape_writes, Finset.mem_singleton]
    repeat' apply And.intro
    all_goals exact StableHlo.devRef_ne_of_ne (by decide)))
/-- `main_v7` is as launched after the two calls and the host operations around them: none of them writes it. -/
theorem W4_main_v7 (c : Dev nD) : W4 (U := U) m O c (Proc.devRef .tc main_v7) = m ((SparseCore.T c).loc main_v7) :=
  calc W4 (U := U) m O c (Proc.devRef .tc main_v7)
    _ = W3 (U := U) m O c (Proc.devRef .tc main_v7) := W4_W3_main_v7 m O c
    _ = W2 (U := U) m O c (Proc.devRef .tc main_v7) := W3_of_ne m O c main_v7 (by decide)
    _ = W1 m c (Proc.devRef .tc main_v7) := W2_of_ne m O c main_v7 (by decide)
    _ = W0 m c (Proc.devRef .tc main_v7) := W1_main_v7 m c
    _ = m ((SparseCore.T c).loc main_v7) := rfl

end Cert.Proof.Regs

end
-- ==== Proof.Main.lean ====
/-
  @main on the TensorCore: three host operations, the two TensorCore calls, two host reshapes, then the SparseCore
  call — from the launch memory to the result array at `gOut` of the table and index array computed on the way.
-/
import proofs.«206393_g35751307772044_cont_8to1_b_353_20_alg».proof.Proof.Tail
import proofs.«206393_g35751307772044_cont_8to1_b_353_20_alg».proof.Proof.Segs

noncomputable section

namespace Cert.Proof.Launch

open Cert.KernelIdeal Cert.Proof.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Facts₀ Cert.KernelIdeal.Facts

variable {F : FTy → Type} [Cert.KernelIdeal.Facts]

local notation "𝕄" => MT nD τ sig (HIx 1) (Elt F) ℕ UU ℕ

/-! ## What the TensorCore owes while the regions run, and what its waits have recorded -/

/-- The TensorCore owes nothing at the kernels' own index. -/
theorem Otc_none (d : Dev nD) (g : GSem nD τ sig) : (K (F := F)).Otc d 0 g none = 0 := by
  by_contra h
  have := SparseCore.Cfg.lev_of_Otc_pos (K := K (F := F)) (Nat.pos_of_ne_zero h)
  rw [SparseCore.Cfg.lev_none] at this; omega

/-- Recorded pairs all at the kernels' own index are below every level of the handshakes. -/
theorem wbelow_of_sub (d : Dev nD) {W : Waits sig (HIx 1)} (h : (↑W : Set (SemLoc sig × HIx 1)) ⊆ {p | p.2 = none}) :
    (K (F := F)).WBelow (SparseCore.T d) W 0 := fun p hp => by
  have e : p.2 = none := h (Finset.mem_coe.mpr hp)
  rw [e]; exact le_rfl

theorem sub_of_wbelow (d : Dev nD) {W : Waits sig (HIx 1)} (h : (K (F := F)).WBelow (SparseCore.T d) W 0) :
    (↑W : Set (SemLoc sig × HIx 1)) ⊆ {p | p.2 = none} := fun p hp => by
  have hp' := h p (Finset.mem_coe.mp hp)
  show p.2 = none
  cases hι : p.2 with
  | none => rfl
  | some q =>
    rw [hι] at hp'
    have := (K (F := F)).lev_some_pos (SparseCore.T d, p.1) q
    omega

/-! ## The TensorCore's unscoped buffers, one by one -/

theorem unscopedBufs_eq (d : Dev nD) (W : (b : Ref sig .tc) → Buf (Elt F) ((d.tc : Thread nD τ).loc b)) :
    (unscopedBufs d W : sProp 𝕄)
      = iprop((argLoc0 d ↦{fullShare} W main_arg0) ∗ (argLoc1 d ↦{fullShare} W main_arg1) ∗ (argLoc2 d ↦{fullShare} W main_arg2)
          ∗ (argLoc3 d ↦{fullShare} W main_arg3) ∗ (argLoc4 d ↦{fullShare} W main_arg4)
          ∗ ((SparseCore.T d).loc main_v0 ↦{fullShare} W main_v0) ∗ ((SparseCore.T d).loc main_v1 ↦{fullShare} W main_v1)
          ∗ ((SparseCore.T d).loc main_v2 ↦{fullShare} W main_v2) ∗ ((SparseCore.T d).loc main_v3 ↦{fullShare} W main_v3)
          ∗ ((SparseCore.T d).loc main_v4 ↦{fullShare} W main_v4) ∗ (v5Loc d ↦{fullShare} W main_v5) ∗ (v6Loc d ↦{fullShare} W main_v6)
          ∗ (v7Loc d ↦{fullShare} W main_v7)) := by
  unfold unscopedBufs
  rw [show (Finset.univ.filter fun b : Ref sig .tc => ¬ b.isScoped)
      = {main_arg0, main_arg1, main_arg2, main_arg3, main_arg4, main_v0, main_v1, main_v2, main_v3, main_v4, main_v5, main_v6, main_v7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-! ## @main -/

variable (m : (ℓ : Loc nD τ sig) → Buf (Elt F) ℓ) (ρ : Dev nD → PrngReg)
variable [FloatOps F]

/-- What the TensorCore owes while the two TensorCore calls run: the start signals of the SparseCore call to come. -/
abbrev OO : Dev nD → CellTallies nD τ sig (HIx 1) := fun d => (K (F := F)).Otc d 0
theorem hOO : ∀ (c : Dev nD) (g : GSem nD τ sig), OO (F := F) c g none = 0 := fun c g => Otc_none c g

/-- What of the TensorCore's handshake state rides through the two calls untouched, with its own protocol's semaphores. -/
abbrev tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))
abbrev RestTc (d : Dev nD) : sProp 𝕄 := iprop(tcRest (F := F) d ∗ (K (F := F)).tcSems0 d)

theorem tcSt_zero (d : Dev nD) :
    ((K (F := F)).tcSt EH d 0 : sProp 𝕄)
      = iprop((∃ W, ⌜(K (F := F)).WBelow (SparseCore.T d) W 0⌝ ∗ owes (SparseCore.T d) ((K (F := F)).Otc d 0) W) ∗ tcRest (F := F) d) := rfl

set_option maxRecDepth 16384 in
theorem hmain (κ : GSem nD τ sig → ℕ) (d : Dev nD) :
    iprop((K (F := F)).ctx EH (P m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  rw [Regs.main_eq (U := UU) m (OO (F := F)) hOO (RestTc (F := F)) d]
  simp only [wp_bind, wp_pure]
  unfold SparseCore.Cfg.tcRes
  rw [tcSt_zero]
  iintro ⟨#Hctx, ⟨⟨%W, %hW, HO⟩, Hrest⟩, ⟨Hbd, Hub, Hsems, Hprng⟩, HG⟩
  ihave Hlev := (SparseCore.Cfg.ctx_levAts κ) $$ Hctx
  iapply ((K (F := F)).wp_liftProg (D (F := F)) 𝒱 (SparseCore.T d) Set.univ none _ _)
  iapply (Pipeline.wp_segs (pcfgs (F := F)) Regs.adm (Regs.pdats (U := UU) m (OO (F := F))) none Gen.cellOf_inj (EP (F := F)) defs₀ 𝒱₀ (K (F := F)).L (K (F := F)).lev d
      (Regs.segs (U := UU) m (OO (F := F)) hOO (RestTc (F := F))) Finset.univ (Regs.TS (U := UU) (OO (F := F)) (RestTc (F := F)) (Regs.W0 m))
      (Regs.TS (U := UU) (OO (F := F)) (RestTc (F := F)) (Regs.W4 (U := UU) m (OO (F := F))))
      (Regs.segs_pipes m (OO (F := F)) hOO (RestTc (F := F))) (fun p _ => Finset.mem_univ p) (Regs.segs_chain m (OO (F := F)) hOO (RestTc (F := F)))) $$ [Hbd Hub HO Hrest Hsems Hprng HG]
  isplitr
  · -- after the segments: the SparseCore call from the last valuation
    have e0 := Regs.W4_main_arg0 (U := UU) m (OO (F := F)) d
    have e1 := Regs.W4_main_arg1 (U := UU) m (OO (F := F)) d
    have e2 := Regs.W4_main_arg2 (U := UU) m (OO (F := F)) d
    have e3 := Regs.W4_main_arg3 (U := UU) m (OO (F := F)) d
    have e4 := Regs.W4_main_arg4 (U := UU) m (OO (F := F)) d
    have e5 := Regs.W4_main_v5 (U := UU) m (OO (F := F)) d
    have e6 := Regs.W4_main_v6 (U := UU) m (OO (F := F)) d
    have e7 := Regs.W4_main_v7 (U := UU) m (OO (F := F)) d
    iintro ⟨-, Hh, ⟨%W', %hW', HO⟩, -, Hrest, -⟩
    ihave Hub := (Entails.of_eq (Pipeline.unscopedBufs_held (Ix := HIx 1) (Name := ℕ) (U := UU) (Lvl := ℕ) d (Regs.W4 (U := UU) m (OO (F := F)) d)).symm) $$ Hh
    ihave Hub' := (Entails.of_eq (unscopedBufs_eq d _)) $$ Hub
    icases Hub' with ⟨H0, H1, H2, H3, H4, -, -, -, -, -, H5, H6, H7⟩
    ihave H0' := (Entails.of_eq (congrArg (fun f => (argLoc0 d ↦{fullShare} f : sProp 𝕄)) e0)) $$ H0
    ihave H1' := (Entails.of_eq (congrArg (fun f => (argLoc1 d ↦{fullShare} f : sProp 𝕄)) e1)) $$ H1
    ihave H2' := (Entails.of_eq (congrArg (fun f => (argLoc2 d ↦{fullShare} f : sProp 𝕄)) e2)) $$ H2
    ihave H3' := (Entails.of_eq (congrArg (fun f => (argLoc3 d ↦{fullShare} f : sProp 𝕄)) e3)) $$ H3
    ihave H4' := (Entails.of_eq (congrArg (fun f => (argLoc4 d ↦{fullShare} f : sProp 𝕄)) e4)) $$ H4
    ihave H5' := (Entails.of_eq (congrArg (fun f => (v5Loc d ↦{fullShare} f : sProp 𝕄)) e5)) $$ H5
    ihave H6' := (Entails.of_eq (congrArg (fun f => (v6Loc d ↦{fullShare} f : sProp 𝕄)) e6)) $$ H6
    ihave H7' := (Entails.of_eq (congrArg (fun f => (v7Loc d ↦{fullShare} f : sProp 𝕄)) e7)) $$ H7
    iapply (hcall m κ d) $$ [HO Hrest H5' H6' H7' H0' H1' H2' H3' H4']
    isplitr; · iexact Hctx
    isplitl [HO Hrest]
    · rw [tcSt_zero]
      isplitl [HO]
      · iexists W'; isplitr
        · ipureintro; exact wbelow_of_sub d hW'
        · iexact HO
      iexact Hrest
    isplitl [H5']; · iexact H5'
    isplitl [H6']; · iexact H6'
    isplitl [H7']; · iexact H7'
    iintro ⟨Hst, H7⟩
    imodintro
    isplitl [Hst]; · iexact Hst
    isplitl [H7]; · iexact H7
    isplitl [H0']; · iexact H0'
    isplitl [H1']; · iexact H1'
    isplitl [H2']; · iexact H2'
    isplitl [H3']; · iexact H3'
    iexact H4'
  isplitl [Hbd]; · iexact Hbd
  isplitl [Hub HO Hrest Hsems Hprng]
  · -- the first thread state: the launch's buffers, what the TensorCore owes, the rest riding along
    isplitl [Hub]
    · iapply (Entails.of_eq (Pipeline.unscopedBufs_held (Ix := HIx 1) (Name := ℕ) (U := UU) (Lvl := ℕ) d (Regs.W0 m d))); iexact Hub
    isplitl [HO]
    · iexists W; isplitr
      · ipureintro; exact sub_of_wbelow d hW
      · iexact HO
    isplitl [Hprng]; · iexists _; iexact Hprng
    isplitl [Hrest]; · iexact Hrest
    iexact Hsems
  isplitr; · iexact Hlev
  iapply (Entails.of_eq (show (Gd (F := F) d : sProp 𝕄) = Pipeline.ghostOn (pcfgs (F := F)) Regs.adm (EP (F := F)) Finset.univ d from rfl))
  iexact HG

end Cert.Proof.Launch

end
-- ==== Proof.TileBodyDefs.lean ====
import proofs.«206393_g35751307772044_cont_8to1_b_353_20_alg».proof.Proof.Common
import Idealize.ShloMosaic.Lib.SparseCore.Launch
import Idealize.ShloMosaic.Lib.SparseCore.Ops
import Idealize.ShloMosaic.Lib.SparseCore.Stream
import Idealize.ShloMosaic.Lib.Batch
import Idealize.ShloMosaic.Lib.Pipeline.Kit
import Idealize.ShloMosaic.Lib.Tactic
import proofs.«206393_g35751307772044_cont_8to1_b_353_20_alg».proof.Proof.Gen.KernelIdeal
import proofs.«206393_g35751307772044_cont_8to1_b_353_20_alg».proof.Proof.Gen.KernelIdeal.Skeleton

noncomputable section

namespace Cert.Proof.Tile

open Cert.KernelIdeal Cert.KernelIdeal.Gen
open Cert.Proof.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev 𝒱₀ : Variants := Variants.none

variable {U : Type} [URA U] [CountersIn U]

local notation "𝕄" => MT nD τ sig (HIx 1) (Elt F) ℕ U ℕ

/-! ## The tile -/

theorem bound_zero : grid2.bound 0 = 2 := rfl
theorem bound_one : grid2.bound 1 = 16 := rfl

abbrev cV (L : grid2.Coords) : Fin τ.nSC := (L 0).castLE hcore2
abbrev jV (L : grid2.Coords) : Fin τ.nSub := (L 1).castLE hsub2
/-- The worker number of the tile at grid coordinates `L`: twice the subcore plus the core. -/
abbrev widL (L : grid2.Coords) : Fin 32 := wid (Fin.cast bound_zero (L 0)) (Fin.cast bound_one (L 1))

/-! ## The memrefs as the program spells them -/

abbrev thrV (d : Dev nD) (L : grid2.Coords) : Thread nD τ := V d (cV L) (jV L)

/-- The whole table as the gathers slice it. -/
abbrev srcAll : Memref sig .scVector .hbm S1960x128 .f32 :=
  (v5V).slice (Rect.unit (s := S1960x128) ![0, 0] S1960x128.size inb_S1960x128_S1960x128_0_0) (fun _ => rfl)
/-- The tile's row of the index array, squeezed. -/
abbrev idxRowM (L : grid2.Coords) : Memref sig .scVector .hbm S128x80 .i32 :=
  ((v6V).slice (Rect.unit (s := S32x128x80) (k2_off1 L) S1x128x80.size (k2_off1_inb L)) (fun _ => rfl)).squeeze S128x80 squeezes_S1x128x80_S128x80
abbrev lstV : Memref sig .scVector .vmem S128x80 .i32 := Memref.whole cc2_scratch0
abbrev bufM0 : Memref sig .scVector .vmem S80x128 .f32 := Memref.whole cc2_scratch1
abbrev bufM1 : Memref sig .scVector .vmem S80x128 .f32 := Memref.whole cc2_scratch2
abbrev bufM2 : Memref sig .scVector .vmem S80x128 .f32 := Memref.whole cc2_scratch3
abbrev bufM3 : Memref sig .scVector .vmem S80x128 .f32 := Memref.whole cc2_scratch4
abbrev bufM4 : Memref sig .scVector .vmem S80x128 .f32 := Memref.whole cc2_scratch5
abbrev bufM5 : Memref sig .scVector .vmem S80x128 .f32 := Memref.whole cc2_scratch6
abbrev bufM6 : Memref sig .scVector .vmem S80x128 .f32 := Memref.whole cc2_scratch7
abbrev bufM7 : Memref sig .scVector .vmem S80x128 .f32 := Memref.whole cc2_scratch8
abbrev lstM0 (k : Fin k2_t1_loop.trips) : Memref sig .scVector .vmem S80 .i32 :=
  ((lstV).slice (Rect.unit (s := S128x80) (k2_off3 k 0#32) S1x80.size (k2_off3_inb k 0)) (fun _ => rfl)).squeeze S80 squeezes_S1x80_S80
abbrev lstM1 (k : Fin k2_t1_loop.trips) : Memref sig .scVector .vmem S80 .i32 :=
  ((lstV).slice (Rect.unit (s := S128x80) (k2_off3 k 1#32) S1x80.size (k2_off3_inb k 1)) (fun _ => rfl)).squeeze S80 squeezes_S1x80_S80
abbrev lstM2 (k : Fin k2_t1_loop.trips) : Memref sig .scVector .vmem S80 .i32 :=
  ((lstV).slice (Rect.unit (s := S128x80) (k2_off3 k 2#32) S1x80.size (k2_off3_inb k 2)) (fun _ => rfl)).squeeze S80 squeezes_S1x80_S80
abbrev lstM3 (k : Fin k2_t1_loop.trips) : Memref sig .scVector .vmem S80 .i32 :=
  ((lstV).slice (Rect.unit (s := S128x80) (k2_off3 k 3#32) S1x80.size (k2_off3_inb k 3)) (fun _ => rfl)).squeeze S80 squeezes_S1x80_S80
abbrev lstM4 (k : Fin k2_t1_loop.trips) : Memref sig .scVector .vmem S80 .i32 :=
  ((lstV).slice (Rect.unit (s := S128x80) (k2_off3 k 4#32) S1x80.size (k2_off3_inb k 4)) (fun _ => rfl)).squeeze S80 squeezes_S1x80_S80
abbrev lstM5 (k : Fin k2_t1_loop.trips) : Memref sig .scVector .vmem S80 .i32 :=
  ((lstV).slice (Rect.unit (s := S128x80) (k2_off3 k 5#32) S1x80.size (k2_off3_inb k 5)) (fun _ => rfl)).squeeze S80 squeezes_S1x80_S80
abbrev lstM6 (k : Fin k2_t1_loop.trips) : Memref sig .scVector .vmem S80 .i32 :=
  ((lstV).slice (Rect.unit (s := S128x80) (k2_off3 k 6#32) S1x80.size (k2_off3_inb k 6)) (fun _ => rfl)).squeeze S80 squeezes_S1x80_S80
abbrev lstM7 (k : Fin k2_t1_loop.trips) : Memref sig .scVector .vmem S80 .i32 :=
  ((lstV).slice (Rect.unit (s := S128x80) (k2_off3 k 7#32) S1x80.size (k2_off3_inb k 7)) (fun _ => rfl)).squeeze S80 squeezes_S1x80_S80
abbrev bsl0_0 : Memref sig .scVector .vmem S20x128 .f32 := (bufM0).slice (Rect.unit (s := S80x128) ![0, 0] S20x128.size inb_S80x128_S20x128_0_0) (fun _ => rfl)
abbrev bsl0_1 : Memref sig .scVector .vmem S20x128 .f32 := (bufM0).slice (Rect.unit (s := S80x128) ![20, 0] S20x128.size inb_S80x128_S20x128_20_0) (fun _ => rfl)
abbrev bsl0_2 : Memref sig .scVector .vmem S20x128 .f32 := (bufM0).slice (Rect.unit (s := S80x128) ![40, 0] S20x128.size inb_S80x128_S20x128_40_0) (fun _ => rfl)
abbrev bsl0_3 : Memref sig .scVector .vmem S20x128 .f32 := (bufM0).slice (Rect.unit (s := S80x128) ![60, 0] S20x128.size inb_S80x128_S20x128_60_0) (fun _ => rfl)
abbrev bsl1_0 : Memref sig .scVector .vmem S20x128 .f32 := (bufM1).slice (Rect.unit (s := S80x128) ![0, 0] S20x128.size inb_S80x128_S20x128_0_0) (fun _ => rfl)
abbrev bsl1_1 : Memref sig .scVector .vmem S20x128 .f32 := (bufM1).slice (Rect.unit (s := S80x128) ![20, 0] S20x128.size inb_S80x128_S20x128_20_0) (fun _ => rfl)
abbrev bsl1_2 : Memref sig .scVector .vmem S20x128 .f32 := (bufM1).slice (Rect.unit (s := S80x128) ![40, 0] S20x128.size inb_S80x128_S20x128_40_0) (fun _ => rfl)
abbrev bsl1_3 : Memref sig .scVector .vmem S20x128 .f32 := (bufM1).slice (Rect.unit (s := S80x128) ![60, 0] S20x128.size inb_S80x128_S20x128_60_0) (fun _ => rfl)
abbrev bsl2_0 : Memref sig .scVector .vmem S20x128 .f32 := (bufM2).slice (Rect.unit (s := S80x128) ![0, 0] S20x128.size inb_S80x128_S20x128_0_0) (fun _ => rfl)
abbrev bsl2_1 : Memref sig .scVector .vmem S20x128 .f32 := (bufM2).slice (Rect.unit (s := S80x128) ![20, 0] S20x128.size inb_S80x128_S20x128_20_0) (fun _ => rfl)
abbrev bsl2_2 : Memref sig .scVector .vmem S20x128 .f32 := (bufM2).slice (Rect.unit (s := S80x128) ![40, 0] S20x128.size inb_S80x128_S20x128_40_0) (fun _ => rfl)
abbrev bsl2_3 : Memref sig .scVector .vmem S20x128 .f32 := (bufM2).slice (Rect.unit (s := S80x128) ![60, 0] S20x128.size inb_S80x128_S20x128_60_0) (fun _ => rfl)
abbrev bsl3_0 : Memref sig .scVector .vmem S20x128 .f32 := (bufM3).slice (Rect.unit (s := S80x128) ![0, 0] S20x128.size inb_S80x128_S20x128_0_0) (fun _ => rfl)
abbrev bsl3_1 : Memref sig .scVector .vmem S20x128 .f32 := (bufM3).slice (Rect.unit (s := S80x128) ![20, 0] S20x128.size inb_S80x128_S20x128_20_0) (fun _ => rfl)
abbrev bsl3_2 : Memref sig .scVector .vmem S20x128 .f32 := (bufM3).slice (Rect.unit (s := S80x128) ![40, 0] S20x128.size inb_S80x128_S20x128_40_0) (fun _ => rfl)
abbrev bsl3_3 : Memref sig .scVector .vmem S20x128 .f32 := (bufM3).slice (Rect.unit (s := S80x128) ![60, 0] S20x128.size inb_S80x128_S20x128_60_0) (fun _ => rfl)
abbrev bsl4_0 : Memref sig .scVector .vmem S20x128 .f32 := (bufM4).slice (Rect.unit (s := S80x128) ![0, 0] S20x128.size inb_S80x128_S20x128_0_0) (fun _ => rfl)
abbrev bsl4_1 : Memref sig .scVector .vmem S20x128 .f32 := (bufM4).slice (Rect.unit (s := S80x128) ![20, 0] S20x128.size inb_S80x128_S20x128_20_0) (fun _ => rfl)
abbrev bsl4_2 : Memref sig .scVector .vmem S20x128 .f32 := (bufM4).slice (Rect.unit (s := S80x128) ![40, 0] S20x128.size inb_S80x128_S20x128_40_0) (fun _ => rfl)
abbrev bsl4_3 : Memref sig .scVector .vmem S20x128 .f32 := (bufM4).slice (Rect.unit (s := S80x128) ![60, 0] S20x128.size inb_S80x128_S20x128_60_0) (fun _ => rfl)
abbrev bsl5_0 : Memref sig .scVector .vmem S20x128 .f32 := (bufM5).slice (Rect.unit (s := S80x128) ![0, 0] S20x128.size inb_S80x128_S20x128_0_0) (fun _ => rfl)
abbrev bsl5_1 : Memref sig .scVector .vmem S20x128 .f32 := (bufM5).slice (Rect.unit (s := S80x128) ![20, 0] S20x128.size inb_S80x128_S20x128_20_0) (fun _ => rfl)
abbrev bsl5_2 : Memref sig .scVector .vmem S20x128 .f32 := (bufM5).slice (Rect.unit (s := S80x128) ![40, 0] S20x128.size inb_S80x128_S20x128_40_0) (fun _ => rfl)
abbrev bsl5_3 : Memref sig .scVector .vmem S20x128 .f32 := (bufM5).slice (Rect.unit (s := S80x128) ![60, 0] S20x128.size inb_S80x128_S20x128_60_0) (fun _ => rfl)
abbrev bsl6_0 : Memref sig .scVector .vmem S20x128 .f32 := (bufM6).slice (Rect.unit (s := S80x128) ![0, 0] S20x128.size inb_S80x128_S20x128_0_0) (fun _ => rfl)
abbrev bsl6_1 : Memref sig .scVector .vmem S20x128 .f32 := (bufM6).slice (Rect.unit (s := S80x128) ![20, 0] S20x128.size inb_S80x128_S20x128_20_0) (fun _ => rfl)
abbrev bsl6_2 : Memref sig .scVector .vmem S20x128 .f32 := (bufM6).slice (Rect.unit (s := S80x128) ![40, 0] S20x128.size inb_S80x128_S20x128_40_0) (fun _ => rfl)
abbrev bsl6_3 : Memref sig .scVector .vmem S20x128 .f32 := (bufM6).slice (Rect.unit (s := S80x128) ![60, 0] S20x128.size inb_S80x128_S20x128_60_0) (fun _ => rfl)
abbrev bsl7_0 : Memref sig .scVector .vmem S20x128 .f32 := (bufM7).slice (Rect.unit (s := S80x128) ![0, 0] S20x128.size inb_S80x128_S20x128_0_0) (fun _ => rfl)
abbrev bsl7_1 : Memref sig .scVector .vmem S20x128 .f32 := (bufM7).slice (Rect.unit (s := S80x128) ![20, 0] S20x128.size inb_S80x128_S20x128_20_0) (fun _ => rfl)
abbrev bsl7_2 : Memref sig .scVector .vmem S20x128 .f32 := (bufM7).slice (Rect.unit (s := S80x128) ![40, 0] S20x128.size inb_S80x128_S20x128_40_0) (fun _ => rfl)
abbrev bsl7_3 : Memref sig .scVector .vmem S20x128 .f32 := (bufM7).slice (Rect.unit (s := S80x128) ![60, 0] S20x128.size inb_S80x128_S20x128_60_0) (fun _ => rfl)
abbrev oRow0_0 (L : grid2.Coords) (k : Fin k2_t1_loop.trips) : Memref sig .scVector .hbm S20x128 .f32 :=
  ((v7V).slice (Rect.unit (s := S16384x20x128) (k2_off11 L k 0#32 0#32) S1x20x128.size (k2_off11_inb L k 0 0)) (fun _ => rfl)).squeeze S20x128 squeezes_S1x20x128_S20x128
abbrev oRow0_1 (L : grid2.Coords) (k : Fin k2_t1_loop.trips) : Memref sig .scVector .hbm S20x128 .f32 :=
  ((v7V).slice (Rect.unit (s := S16384x20x128) (k2_off11 L k 0#32 1#32) S1x20x128.size (k2_off11_inb L k 0 1)) (fun _ => rfl)).squeeze S20x128 squeezes_S1x20x128_S20x128
abbrev oRow0_2 (L : grid2.Coords) (k : Fin k2_t1_loop.trips) : Memref sig .scVector .hbm S20x128 .f32 :=
  ((v7V).slice (Rect.unit (s := S16384x20x128) (k2_off11 L k 0#32 2#32) S1x20x128.size (k2_off11_inb L k 0 2)) (fun _ => rfl)).squeeze S20x128 squeezes_S1x20x128_S20x128
abbrev oRow0_3 (L : grid2.Coords) (k : Fin k2_t1_loop.trips) : Memref sig .scVector .hbm S20x128 .f32 :=
  ((v7V).slice (Rect.unit (s := S16384x20x128) (k2_off11 L k 0#32 3#32) S1x20x128.size (k2_off11_inb L k 0 3)) (fun _ => rfl)).squeeze S20x128 squeezes_S1x20x128_S20x128
abbrev oRow1_0 (L : grid2.Coords) (k : Fin k2_t1_loop.trips) : Memref sig .scVector .hbm S20x128 .f32 :=
  ((v7V).slice (Rect.unit (s := S16384x20x128) (k2_off11 L k 1#32 0#32) S1x20x128.size (k2_off11_inb L k 1 0)) (fun _ => rfl)).squeeze S20x128 squeezes_S1x20x128_S20x128
abbrev oRow1_1 (L : grid2.Coords) (k : Fin k2_t1_loop.trips) : Memref sig .scVector .hbm S20x128 .f32 :=
  ((v7V).slice (Rect.unit (s := S16384x20x128) (k2_off11 L k 1#32 1#32) S1x20x128.size (k2_off11_inb L k 1 1)) (fun _ => rfl)).squeeze S20x128 squeezes_S1x20x128_S20x128
abbrev oRow1_2 (L : grid2.Coords) (k : Fin k2_t1_loop.trips) : Memref sig .scVector .hbm S20x128 .f32 :=
  ((v7V).slice (Rect.unit (s := S16384x20x128) (k2_off11 L k 1#32 2#32) S1x20x128.size (k2_off11_inb L k 1 2)) (fun _ => rfl)).squeeze S20x128 squeezes_S1x20x128_S20x128
abbrev oRow1_3 (L : grid2.Coords) (k : Fin k2_t1_loop.trips) : Memref sig .scVector .hbm S20x128 .f32 :=
  ((v7V).slice (Rect.unit (s := S16384x20x128) (k2_off11 L k 1#32 3#32) S1x20x128.size (k2_off11_inb L k 1 3)) (fun _ => rfl)).squeeze S20x128 squeezes_S1x20x128_S20x128
abbrev oRow2_0 (L : grid2.Coords) (k : Fin k2_t1_loop.trips) : Memref sig .scVector .hbm S20x128 .f32 :=
  ((v7V).slice (Rect.unit (s := S16384x20x128) (k2_off11 L k 2#32 0#32) S1x20x128.size (k2_off11_inb L k 2 0)) (fun _ => rfl)).squeeze S20x128 squeezes_S1x20x128_S20x128
abbrev oRow2_1 (L : grid2.Coords) (k : Fin k2_t1_loop.trips) : Memref sig .scVector .hbm S20x128 .f32 :=
  ((v7V).slice (Rect.unit (s := S16384x20x128) (k2_off11 L k 2#32 1#32) S1x20x128.size (k2_off11_inb L k 2 1)) (fun _ => rfl)).squeeze S20x128 squeezes_S1x20x128_S20x128
abbrev oRow2_2 (L : grid2.Coords) (k : Fin k2_t1_loop.trips) : Memref sig .scVector .hbm S20x128 .f32 :=
  ((v7V).slice (Rect.unit (s := S16384x20x128) (k2_off11 L k 2#32 2#32) S1x20x128.size (k2_off11_inb L k 2 2)) (fun _ => rfl)).squeeze S20x128 squeezes_S1x20x128_S20x128
abbrev oRow2_3 (L : grid2.Coords) (k : Fin k2_t1_loop.trips) : Memref sig .scVector .hbm S20x128 .f32 :=
  ((v7V).slice (Rect.unit (s := S16384x20x128) (k2_off11 L k 2#32 3#32) S1x20x128.size (k2_off11_inb L k 2 3)) (fun _ => rfl)).squeeze S20x128 squeezes_S1x20x128_S20x128
abbrev oRow3_0 (L : grid2.Coords) (k : Fin k2_t1_loop.trips) : Memref sig .scVector .hbm S20x128 .f32 :=
  ((v7V).slice (Rect.unit (s := S16384x20x128) (k2_off11 L k 3#32 0#32) S1x20x128.size (k2_off11_inb L k 3 0)) (fun _ => rfl)).squeeze S20x128 squeezes_S1x20x128_S20x128
abbrev oRow3_1 (L : grid2.Coords) (k : Fin k2_t1_loop.trips) : Memref sig .scVector .hbm S20x128 .f32 :=
  ((v7V).slice (Rect.unit (s := S16384x20x128) (k2_off11 L k 3#32 1#32) S1x20x128.size (k2_off11_inb L k 3 1)) (fun _ => rfl)).squeeze S20x128 squeezes_S1x20x128_S20x128
abbrev oRow3_2 (L : grid2.Coords) (k : Fin k2_t1_loop.trips) : Memref sig .scVector .hbm S20x128 .f32 :=
  ((v7V).slice (Rect.unit (s := S16384x20x128) (k2_off11 L k 3#32 2#32) S1x20x128.size (k2_off11_inb L k 3 2)) (fun _ => rfl)).squeeze S20x128 squeezes_S1x20x128_S20x128
abbrev oRow3_3 (L : grid2.Coords) (k : Fin k2_t1_loop.trips) : Memref sig .scVector .hbm S20x128 .f32 :=
  ((v7V).slice (Rect.unit (s := S16384x20x128) (k2_off11 L k 3#32 3#32) S1x20x128.size (k2_off11_inb L k 3 3)) (fun _ => rfl)).squeeze S20x128 squeezes_S1x20x128_S20x128
abbrev oRow4_0 (L : grid2.Coords) (k : Fin k2_t1_loop.trips) : Memref sig .scVector .hbm S20x128 .f32 :=
  ((v7V).slice (Rect.unit (s := S16384x20x128) (k2_off11 L k 4#32 0#32) S1x20x128.size (k2_off11_inb L k 4 0)) (fun _ => rfl)).squeeze S20x128 squeezes_S1x20x128_S20x128
abbrev oRow4_1 (L : grid2.Coords) (k : Fin k2_t1_loop.trips) : Memref sig .scVector .hbm S20x128 .f32 :=
  ((v7V).slice (Rect.unit (s := S16384x20x128) (k2_off11 L k 4#32 1#32) S1x20x128.size (k2_off11_inb L k 4 1)) (fun _ => rfl)).squeeze S20x128 squeezes_S1x20x128_S20x128
abbrev oRow4_2 (L : grid2.Coords) (k : Fin k2_t1_loop.trips) : Memref sig .scVector .hbm S20x128 .f32 :=
  ((v7V).slice (Rect.unit (s := S16384x20x128) (k2_off11 L k 4#32 2#32) S1x20x128.size (k2_off11_inb L k 4 2)) (fun _ => rfl)).squeeze S20x128 squeezes_S1x20x128_S20x128
abbrev oRow4_3 (L : grid2.Coords) (k : Fin k2_t1_loop.trips) : Memref sig .scVector .hbm S20x128 .f32 :=
  ((v7V).slice (Rect.unit (s := S16384x20x128) (k2_off11 L k 4#32 3#32) S1x20x128.size (k2_off11_inb L k 4 3)) (fun _ => rfl)).squeeze S20x128 squeezes_S1x20x128_S20x128
abbrev oRow5_0 (L : grid2.Coords) (k : Fin k2_t1_loop.trips) : Memref sig .scVector .hbm S20x128 .f32 :=
  ((v7V).slice (Rect.unit (s := S16384x20x128) (k2_off11 L k 5#32 0#32) S1x20x128.size (k2_off11_inb L k 5 0)) (fun _ => rfl)).squeeze S20x128 squeezes_S1x20x128_S20x128
abbrev oRow5_1 (L : grid2.Coords) (k : Fin k2_t1_loop.trips) : Memref sig .scVector .hbm S20x128 .f32 :=
  ((v7V).slice (Rect.unit (s := S16384x20x128) (k2_off11 L k 5#32 1#32) S1x20x128.size (k2_off11_inb L k 5 1)) (fun _ => rfl)).squeeze S20x128 squeezes_S1x20x128_S20x128
abbrev oRow5_2 (L : grid2.Coords) (k : Fin k2_t1_loop.trips) : Memref sig .scVector .hbm S20x128 .f32 :=
  ((v7V).slice (Rect.unit (s := S16384x20x128) (k2_off11 L k 5#32 2#32) S1x20x128.size (k2_off11_inb L k 5 2)) (fun _ => rfl)).squeeze S20x128 squeezes_S1x20x128_S20x128
abbrev oRow5_3 (L : grid2.Coords) (k : Fin k2_t1_loop.trips) : Memref sig .scVector .hbm S20x128 .f32 :=
  ((v7V).slice (Rect.unit (s := S16384x20x128) (k2_off11 L k 5#32 3#32) S1x20x128.size (k2_off11_inb L k 5 3)) (fun _ => rfl)).squeeze S20x128 squeezes_S1x20x128_S20x128
abbrev oRow6_0 (L : grid2.Coords) (k : Fin k2_t1_loop.trips) : Memref sig .scVector .hbm S20x128 .f32 :=
  ((v7V).slice (Rect.unit (s := S16384x20x128) (k2_off11 L k 6#32 0#32) S1x20x128.size (k2_off11_inb L k 6 0)) (fun _ => rfl)).squeeze S20x128 squeezes_S1x20x128_S20x128
abbrev oRow6_1 (L : grid2.Coords) (k : Fin k2_t1_loop.trips) : Memref sig .scVector .hbm S20x128 .f32 :=
  ((v7V).slice (Rect.unit (s := S16384x20x128) (k2_off11 L k 6#32 1#32) S1x20x128.size (k2_off11_inb L k 6 1)) (fun _ => rfl)).squeeze S20x128 squeezes_S1x20x128_S20x128
abbrev oRow6_2 (L : grid2.Coords) (k : Fin k2_t1_loop.trips) : Memref sig .scVector .hbm S20x128 .f32 :=
  ((v7V).slice (Rect.unit (s := S16384x20x128) (k2_off11 L k 6#32 2#32) S1x20x128.size (k2_off11_inb L k 6 2)) (fun _ => rfl)).squeeze S20x128 squeezes_S1x20x128_S20x128
abbrev oRow6_3 (L : grid2.Coords) (k : Fin k2_t1_loop.trips) : Memref sig .scVector .hbm S20x128 .f32 :=
  ((v7V).slice (Rect.unit (s := S16384x20x128) (k2_off11 L k 6#32 3#32) S1x20x128.size (k2_off11_inb L k 6 3)) (fun _ => rfl)).squeeze S20x128 squeezes_S1x20x128_S20x128
abbrev oRow7_0 (L : grid2.Coords) (k : Fin k2_t1_loop.trips) : Memref sig .scVector .hbm S20x128 .f32 :=
  ((v7V).slice (Rect.unit (s := S16384x20x128) (k2_off11 L k 7#32 0#32) S1x20x128.size (k2_off11_inb L k 7 0)) (fun _ => rfl)).squeeze S20x128 squeezes_S1x20x128_S20x128
abbrev oRow7_1 (L : grid2.Coords) (k : Fin k2_t1_loop.trips) : Memref sig .scVector .hbm S20x128 .f32 :=
  ((v7V).slice (Rect.unit (s := S16384x20x128) (k2_off11 L k 7#32 1#32) S1x20x128.size (k2_off11_inb L k 7 1)) (fun _ => rfl)).squeeze S20x128 squeezes_S1x20x128_S20x128
abbrev oRow7_2 (L : grid2.Coords) (k : Fin k2_t1_loop.trips) : Memref sig .scVector .hbm S20x128 .f32 :=
  ((v7V).slice (Rect.unit (s := S16384x20x128) (k2_off11 L k 7#32 2#32) S1x20x128.size (k2_off11_inb L k 7 2)) (fun _ => rfl)).squeeze S20x128 squeezes_S1x20x128_S20x128
abbrev oRow7_3 (L : grid2.Coords) (k : Fin k2_t1_loop.trips) : Memref sig .scVector .hbm S20x128 .f32 :=
  ((v7V).slice (Rect.unit (s := S16384x20x128) (k2_off11 L k 7#32 3#32) S1x20x128.size (k2_off11_inb L k 7 3)) (fun _ => rfl)).squeeze S20x128 squeezes_S1x20x128_S20x128

/-! ## Rows of the output array -/

section Geometry

/-- The tile's rows from its `a`-th on; its first `a` rows; its `a`-th row. -/
def rowsFrom (w : Fin 32) (a : ℕ) : Finset S16384x20x128.Idx :=
  Finset.univ.filter fun j => 512 * w.val + a ≤ (j 0).val ∧ (j 0).val < 512 * w.val + 512
def rowsTo (w : Fin 32) (a : ℕ) : Finset S16384x20x128.Idx :=
  Finset.univ.filter fun j => 512 * w.val ≤ (j 0).val ∧ (j 0).val < 512 * w.val + a
def rowAt (w : Fin 32) (a : ℕ) : Finset S16384x20x128.Idx :=
  Finset.univ.filter fun j => (j 0).val = 512 * w.val + a

theorem mem_rowsFrom {w : Fin 32} {a : ℕ} {j : S16384x20x128.Idx} :
    j ∈ rowsFrom w a ↔ 512 * w.val + a ≤ (j 0).val ∧ (j 0).val < 512 * w.val + 512 := by simp [rowsFrom]
theorem mem_rowsTo {w : Fin 32} {a : ℕ} {j : S16384x20x128.Idx} :
    j ∈ rowsTo w a ↔ 512 * w.val ≤ (j 0).val ∧ (j 0).val < 512 * w.val + a := by simp [rowsTo]
theorem mem_rowAt {w : Fin 32} {a : ℕ} {j : S16384x20x128.Idx} :
    j ∈ rowAt w a ↔ (j 0).val = 512 * w.val + a := by simp [rowAt]

theorem rowsFrom_succ (w : Fin 32) {a : ℕ} (ha : a < 512) : rowsFrom w a = rowAt w a ∪ rowsFrom w (a + 1) := by
  ext j; simp only [Finset.mem_union, mem_rowsFrom, mem_rowAt]; omega
theorem rowAt_disj_from (w : Fin 32) (a : ℕ) : Disjoint (rowAt w a) (rowsFrom w (a + 1)) := by
  rw [Finset.disjoint_left]; intro j h1 h2; rw [mem_rowAt] at h1; rw [mem_rowsFrom] at h2; omega
theorem rowsTo_succ (w : Fin 32) (a : ℕ) : rowsTo w (a + 1) = rowsTo w a ∪ rowAt w a := by
  ext j; simp only [Finset.mem_union, mem_rowsTo, mem_rowAt]; omega
theorem rowsTo_disj_at (w : Fin 32) (a : ℕ) : Disjoint (rowsTo w a) (rowAt w a) := by
  rw [Finset.disjoint_left]; intro j h1 h2; rw [mem_rowAt] at h2; rw [mem_rowsTo] at h1; omega
theorem rowsTo_zero (w : Fin 32) : rowsTo w 0 = ∅ := by
  ext j; simp only [mem_rowsTo, Finset.notMem_empty, iff_false]; omega
theorem rowsFrom_end (w : Fin 32) : rowsFrom w 512 = ∅ := by
  ext j; simp only [mem_rowsFrom, Finset.notMem_empty, iff_false]; omega
theorem rowsTo_end (w : Fin 32) : rowsTo w 512 = rowsFrom w 0 := by
  ext j; simp only [mem_rowsTo, mem_rowsFrom]; omega

/-- A unit rectangle of whole rows of the output, by its first row and row count. -/
theorem mem_unit_rows {off size : Fin 3 → ℕ} {inb : ∀ a, off a + size a ≤ S16384x20x128.size a} {A n : ℕ}
    (hoff : off = ![A, 0, 0]) (hsz : size = ![n, 20, 128]) (j : S16384x20x128.Idx) :
    j ∈ (Rect.unit (s := S16384x20x128) off size inb).set ↔ A ≤ (j 0).val ∧ (j 0).val < A + n := by
  subst hoff hsz
  rw [Rect.mem_set_unit]
  constructor
  · intro h; exact h 0
  · intro h a
    have h1 : (j 1).val < 20 := (j 1).isLt
    have h2 : (j 2).val < 128 := (j 2).isLt
    fin_cases a
    · exact h
    · show 0 ≤ (j 1).val ∧ (j 1).val < 0 + 20; omega
    · show 0 ≤ (j 2).val ∧ (j 2).val < 0 + 128; omega

theorem outRows_eq (w : Fin 32) : outRows w = rowsFrom w 0 := by
  ext j
  rw [mem_rowsFrom]
  show j ∈ ((View.whole main_v7_scv).slice (outRect w)).set ↔ _
  rw [View.set_slice_whole]
  refine (mem_unit_rows (A := 512 * w.val) (n := 512) ?_ ?_ j).trans ?_
  · funext a; fin_cases a <;> simp [Shape.partIx, Shape.partSize] <;> omega
  · funext a; fin_cases a <;> simp [Shape.partSize]
  · omega

/-- One batch element's rows of the output as a squeezed slice: its elements are the tile's row. -/
theorem set_oRow (w : Fin 32) (n : ℕ) (off : Fin 3 → ℕ) (inb : ∀ a, off a + S1x20x128.size a ≤ S16384x20x128.size a)
    (hoff : off = ![512 * w.val + n, 0, 0]) :
    (((v7V).slice (Rect.unit (s := S16384x20x128) off S1x20x128.size inb) (fun _ => rfl)).squeeze S20x128 squeezes_S1x20x128_S20x128).view.set
      = rowAt w n := by
  show (((View.whole main_v7_scv).slice (Rect.unit (s := S16384x20x128) off S1x20x128.size inb)).reshape S20x128 squeezes_S1x20x128_S20x128.numel_eq).set = _
  rw [View.set_reshape, View.set_slice_whole]
  ext j
  rw [mem_rowAt, mem_unit_rows hoff rfl j]
  omega

end Geometry

/-! ## The tile's own semaphores and buffers -/

section Own

variable (d : Dev nD) (L : grid2.Coords)

abbrev cellV (s : DmaSem sig) : GSem nD τ sig := (thrV d L, .dma s)

theorem cellV_ne {a b : DmaSem sig} (h : a ≠ b) : cellV d L a ≠ cellV d L b :=
  fun e => h (SemLoc.dma.inj (Prod.mk.inj e).2)

/-- The seventeen DMA semaphores of the kernel are among the subcore's own cells: they, at zero, and the rest. -/
theorem ownSems0_V :
    (ownSems0 (thrV d L) : sProp 𝕄)
      = iprop(semVal (cellV d L cc2_scratch9.sem) 0
          ∗ semVal (cellV d L cc2_scratch10.sem) 0
          ∗ semVal (cellV d L cc2_scratch11.sem) 0
          ∗ semVal (cellV d L cc2_scratch12.sem) 0
          ∗ semVal (cellV d L cc2_scratch13.sem) 0
          ∗ semVal (cellV d L cc2_scratch14.sem) 0
          ∗ semVal (cellV d L cc2_scratch15.sem) 0
          ∗ semVal (cellV d L cc2_scratch16.sem) 0
          ∗ semVal (cellV d L cc2_scratch17.sem) 0
          ∗ semVal (cellV d L cc2_scratch18.sem) 0
          ∗ semVal (cellV d L cc2_scratch19.sem) 0
          ∗ semVal (cellV d L cc2_scratch20.sem) 0
          ∗ semVal (cellV d L cc2_scratch21.sem) 0
          ∗ semVal (cellV d L cc2_scratch22.sem) 0
          ∗ semVal (cellV d L cc2_scratch23.sem) 0
          ∗ semVal (cellV d L cc2_scratch24.sem) 0
          ∗ semVal (cellV d L cc2_scoped0.sem) 0
          ∗ bigSep ((((((((((((((((((ownCells (thrV d L)).erase (cellV d L cc2_scratch9.sem)).erase (cellV d L cc2_scratch10.sem)).erase (cellV d L cc2_scratch11.sem)).erase (cellV d L cc2_scratch12.sem)).erase (cellV d L cc2_scratch13.sem)).erase (cellV d L cc2_scratch14.sem)).erase (cellV d L cc2_scratch15.sem)).erase (cellV d L cc2_scratch16.sem)).erase (cellV d L cc2_scratch17.sem)).erase (cellV d L cc2_scratch18.sem)).erase (cellV d L cc2_scratch19.sem)).erase (cellV d L cc2_scratch20.sem)).erase (cellV d L cc2_scratch21.sem)).erase (cellV d L cc2_scratch22.sem)).erase (cellV d L cc2_scratch23.sem)).erase (cellV d L cc2_scratch24.sem)).erase (cellV d L cc2_scoped0.sem)) fun g => semVal g 0) := by
  unfold SparseCore.Cfg.ownSems0
  rw [SparseCore.bigSep_erase' ((mem_ownCells (g := cellV d L cc2_scratch9.sem)).mpr ⟨rfl, by show (SemLoc.dma cc2_scratch9.sem : SemLoc sig).isScoped .scVector = true; decide⟩),
    SparseCore.bigSep_erase' (Finset.mem_erase.mpr ⟨cellV_ne d L (show cc2_scratch10.sem ≠ cc2_scratch9.sem by decide), (mem_ownCells (g := cellV d L cc2_scratch10.sem)).mpr ⟨rfl, by show (SemLoc.dma cc2_scratch10.sem : SemLoc sig).isScoped .scVector = true; decide⟩⟩),
    SparseCore.bigSep_erase' (Finset.mem_erase.mpr ⟨cellV_ne d L (show cc2_scratch11.sem ≠ cc2_scratch10.sem by decide), Finset.mem_erase.mpr ⟨cellV_ne d L (show cc2_scratch11.sem ≠ cc2_scratch9.sem by decide), (mem_ownCells (g := cellV d L cc2_scratch11.sem)).mpr ⟨rfl, by show (SemLoc.dma cc2_scratch11.sem : SemLoc sig).isScoped .scVector = true; decide⟩⟩⟩),
    SparseCore.bigSep_erase' (Finset.mem_erase.mpr ⟨cellV_ne d L (show cc2_scratch12.sem ≠ cc2_scratch11.sem by decide), Finset.mem_erase.mpr ⟨cellV_ne d L (show cc2_scratch12.sem ≠ cc2_scratch10.sem by decide), Finset.mem_erase.mpr ⟨cellV_ne d L (show cc2_scratch12.sem ≠ cc2_scratch9.sem by decide), (mem_ownCells (g := cellV d L cc2_scratch12.sem)).mpr ⟨rfl, by show (SemLoc.dma cc2_scratch12.sem : SemLoc sig).isScoped .scVector = true; decide⟩⟩⟩⟩),
    SparseCore.bigSep_erase' (Finset.mem_erase.mpr ⟨cellV_ne d L (show cc2_scratch13.sem ≠ cc2_scratch12.sem by decide), Finset.mem_erase.mpr ⟨cellV_ne d L (show cc2_scratch13.sem ≠ cc2_scratch11.sem by decide), Finset.mem_erase.mpr ⟨cellV_ne d L (show cc2_scratch13.sem ≠ cc2_scratch10.sem by decide), Finset.mem_erase.mpr ⟨cellV_ne d L (show cc2_scratch13.sem ≠ cc2_scratch9.sem by decide), (mem_ownCells (g := cellV d L cc2_scratch13.sem)).mpr ⟨rfl, by show (SemLoc.dma cc2_scratch13.sem : SemLoc sig).isScoped .scVector = true; decide⟩⟩⟩⟩⟩),
    SparseCore.bigSep_erase' (Finset.mem_erase.mpr ⟨cellV_ne d L (show cc2_scratch14.sem ≠ cc2_scratch13.sem by decide), Finset.mem_erase.mpr ⟨cellV_ne d L (show cc2_scratch14.sem ≠ cc2_scratch12.sem by decide), Finset.mem_erase.mpr ⟨cellV_ne d L (show cc2_scratch14.sem ≠ cc2_scratch11.sem by decide), Finset.mem_erase.mpr ⟨cellV_ne d L (show cc2_scratch14.sem ≠ cc2_scratch10.sem by decide), Finset.mem_erase.mpr ⟨cellV_ne d L (show cc2_scratch14.sem ≠ cc2_scratch9.sem by decide), (mem_ownCells (g := cellV d L cc2_scratch14.sem)).mpr ⟨rfl, by show (SemLoc.dma cc2_scratch14.sem : SemLoc sig).isScoped .scVector = true; decide⟩⟩⟩⟩⟩⟩),
    SparseCore.bigSep_erase' (Finset.mem_erase.mpr ⟨cellV_ne d L (show cc2_scratch15.sem ≠ cc2_scratch14.sem by decide), Finset.mem_erase.mpr ⟨cellV_ne d L (show cc2_scratch15.sem ≠ cc2_scratch13.sem by decide), Finset.mem_erase.mpr ⟨cellV_ne d L (show cc2_scratch15.sem ≠ cc2_scratch12.sem by decide), Finset.mem_erase.mpr ⟨cellV_ne d L (show cc2_scratch15.sem ≠ cc2_scratch11.sem by decide), Finset.mem_erase.mpr ⟨cellV_ne d L (show cc2_scratch15.sem ≠ cc2_scratch10.sem by decide), Finset.mem_erase.mpr ⟨cellV_ne d L (show cc2_scratch15.sem ≠ cc2_scratch9.sem by decide), (mem_ownCells (g := cellV d L cc2_scratch15.sem)).mpr ⟨rfl, by show (SemLoc.dma cc2_scratch15.sem : SemLoc sig).isScoped .scVector = true; decide⟩⟩⟩⟩⟩⟩⟩),
    SparseCore.bigSep_erase' (Finset.mem_erase.mpr ⟨cellV_ne d L (show cc2_scratch16.sem ≠ cc2_scratch15.sem by decide), Finset.mem_erase.mpr ⟨cellV_ne d L (show cc2_scratch16.sem ≠ cc2_scratch14.sem by decide), Finset.mem_erase.mpr ⟨cellV_ne d L (show cc2_scratch16.sem ≠ cc2_scratch13.sem by decide), Finset.mem_erase.mpr ⟨cellV_ne d L (show cc2_scratch16.sem ≠ cc2_scratch12.sem by decide), Finset.mem_erase.mpr ⟨cellV_ne d L (show cc2_scratch16.sem ≠ cc2_scratch11.sem by decide), Finset.mem_erase.mpr ⟨cellV_ne d L (show cc2_scratch16.sem ≠ cc2_scratch10.sem by decide), Finset.mem_erase.mpr ⟨cellV_ne d L (show cc2_scratch16.sem ≠ cc2_scratch9.sem by decide), (mem_ownCells (g := cellV d L cc2_scratch16.sem)).mpr ⟨rfl, by show (SemLoc.dma cc2_scratch16.sem : SemLoc sig).isScoped .scVector = true; decide⟩⟩⟩⟩⟩⟩⟩⟩),
    SparseCore.bigSep_erase' (Finset.mem_erase.mpr ⟨cellV_ne d L (show cc2_scratch17.sem ≠ cc2_scratch16.sem by decide), Finset.mem_erase.mpr ⟨cellV_ne d L (show cc2_scratch17.sem ≠ cc2_scratch15.sem by decide), Finset.mem_erase.mpr ⟨cellV_ne d L (show cc2_scratch17.sem ≠ cc2_scratch14.sem by decide), Finset.mem_erase.mpr ⟨cellV_ne d L (show cc2_scratch17.sem ≠ cc2_scratch13.sem by decide), Finset.mem_erase.mpr ⟨cellV_ne d L (show cc2_scratch17.sem ≠ cc2_scratch12.sem by decide), Finset.mem_erase.mpr ⟨cellV_ne d L (show cc2_scratch17.sem ≠ cc2_scratch11.sem by decide), Finset.mem_erase.mpr ⟨cellV_ne d L (show cc2_scratch17.sem ≠ cc2_scratch10.sem by decide), Finset.mem_erase.mpr ⟨cellV_ne d L (show cc2_scratch17.sem ≠ cc2_scratch9.sem by decide), (mem_ownCells (g := cellV d L cc2_scratch17.sem)).mpr ⟨rfl, by show (SemLoc.dma cc2_scratch17.sem : SemLoc sig).isScoped .scVector = true; decide⟩⟩⟩⟩⟩⟩⟩⟩⟩),
    SparseCore.bigSep_erase' (Finset.mem_erase.mpr ⟨cellV_ne d L (show cc2_scratch18.sem ≠ cc2_scratch17.sem by decide), Finset.mem_erase.mpr ⟨cellV_ne d L (show cc2_scratch18.sem ≠ cc2_scratch16.sem by decide), Finset.mem_erase.mpr ⟨cellV_ne d L (show cc2_scratch18.sem ≠ cc2_scratch15.sem by decide), Finset.mem_erase.mpr ⟨cellV_ne d L (show cc2_scratch18.sem ≠ cc2_scratch14.sem by decide), Finset.mem_erase.mpr ⟨cellV_ne d L (show cc2_scratch18.sem ≠ cc2_scratch13.sem by decide), Finset.mem_erase.mpr ⟨cellV_ne d L (show cc2_scratch18.sem ≠ cc2_scratch12.sem by decide), Finset.mem_erase.mpr ⟨cellV_ne d L (show cc2_scratch18.sem ≠ cc2_scratch11.sem by decide), Finset.mem_erase.mpr ⟨cellV_ne d L (show cc2_scratch18.sem ≠ cc2_scratch10.sem by decide), Finset.mem_erase.mpr ⟨cellV_ne d L (show cc2_scratch18.sem ≠ cc2_scratch9.sem by decide), (mem_ownCells (g := cellV d L cc2_scratch18.sem)).mpr ⟨rfl, by show (SemLoc.dma cc2_scratch18.sem : SemLoc sig).isScoped .scVector = true; decide⟩⟩⟩⟩⟩⟩⟩⟩⟩⟩),
    SparseCore.bigSep_erase' (Finset.mem_erase.mpr ⟨cellV_ne d L (show cc2_scratch19.sem ≠ cc2_scratch18.sem by decide), Finset.mem_erase.mpr ⟨cellV_ne d L (show cc2_scratch19.sem ≠ cc2_scratch17.sem by decide), Finset.mem_erase.mpr ⟨cellV_ne d L (show cc2_scratch19.sem ≠ cc2_scratch16.sem by decide), Finset.mem_erase.mpr ⟨cellV_ne d L (show cc2_scratch19.sem ≠ cc2_scratch15.sem by decide), Finset.mem_erase.mpr ⟨cellV_ne d L (show cc2_scratch19.sem ≠ cc2_scratch14.sem by decide), Finset.mem_erase.mpr ⟨cellV_ne d L (show cc2_scratch19.sem ≠ cc2_scratch13.sem by decide), Finset.mem_erase.mpr ⟨cellV_ne d L (show cc2_scratch19.sem ≠ cc2_scratch12.sem by decide), Finset.mem_erase.mpr ⟨cellV_ne d L (show cc2_scratch19.sem ≠ cc2_scratch11.sem by decide), Finset.mem_erase.mpr ⟨cellV_ne d L (show cc2_scratch19.sem ≠ cc2_scratch10.sem by decide), Finset.mem_erase.mpr ⟨cellV_ne d L (show cc2_scratch19.sem ≠ cc2_scratch9.sem by decide), (mem_ownCells (g := cellV d L cc2_scratch19.sem)).mpr ⟨rfl, by show (SemLoc.dma cc2_scratch19.sem : SemLoc sig).isScoped .scVector = true; decide⟩⟩⟩⟩⟩⟩⟩⟩⟩⟩⟩),
    SparseCore.bigSep_erase' (Finset.mem_erase.mpr ⟨cellV_ne d L (show cc2_scratch20.sem ≠ cc2_scratch19.sem by decide), Finset.mem_erase.mpr ⟨cellV_ne d L (show cc2_scratch20.sem ≠ cc2_scratch18.sem by decide), Finset.mem_erase.mpr ⟨cellV_ne d L (show cc2_scratch20.sem ≠ cc2_scratch17.sem by decide), Finset.mem_erase.mpr ⟨cellV_ne d L (show cc2_scratch20.sem ≠ cc2_scratch16.sem by decide), Finset.mem_erase.mpr ⟨cellV_ne d L (show cc2_scratch20.sem ≠ cc2_scratch15.sem by decide), Finset.mem_erase.mpr ⟨cellV_ne d L (show cc2_scratch20.sem ≠ cc2_scratch14.sem by decide), Finset.mem_erase.mpr ⟨cellV_ne d L (show cc2_scratch20.sem ≠ cc2_scratch13.sem by decide), Finset.mem_erase.mpr ⟨cellV_ne d L (show cc2_scratch20.sem ≠ cc2_scratch12.sem by decide), Finset.mem_erase.mpr ⟨cellV_ne d L (show cc2_scratch20.sem ≠ cc2_scratch11.sem by decide), Finset.mem_erase.mpr ⟨cellV_ne d L (show cc2_scratch20.sem ≠ cc2_scratch10.sem by decide), Finset.mem_erase.mpr ⟨cellV_ne d L (show cc2_scratch20.sem ≠ cc2_scratch9.sem by decide), (mem_ownCells (g := cellV d L cc2_scratch20.sem)).mpr ⟨rfl, by show (SemLoc.dma cc2_scratch20.sem : SemLoc sig).isScoped .scVector = true; decide⟩⟩⟩⟩⟩⟩⟩⟩⟩⟩⟩⟩),
    SparseCore.bigSep_erase' (Finset.mem_erase.mpr ⟨cellV_ne d L (show cc2_scratch21.sem ≠ cc2_scratch20.sem by decide), Finset.mem_erase.mpr ⟨cellV_ne d L (show cc2_scratch21.sem ≠ cc2_scratch19.sem by decide), Finset.mem_erase.mpr ⟨cellV_ne d L (show cc2_scratch21.sem ≠ cc2_scratch18.sem by decide), Finset.mem_erase.mpr ⟨cellV_ne d L (show cc2_scratch21.sem ≠ cc2_scratch17.sem by decide), Finset.mem_erase.mpr ⟨cellV_ne d L (show cc2_scratch21.sem ≠ cc2_scratch16.sem by decide), Finset.mem_erase.mpr ⟨cellV_ne d L (show cc2_scratch21.sem ≠ cc2_scratch15.sem by decide), Finset.mem_erase.mpr ⟨cellV_ne d L (show cc2_scratch21.sem ≠ cc2_scratch14.sem by decide), Finset.mem_erase.mpr ⟨cellV_ne d L (show cc2_scratch21.sem ≠ cc2_scratch13.sem by decide), Finset.mem_erase.mpr ⟨cellV_ne d L (show cc2_scratch21.sem ≠ cc2_scratch12.sem by decide), Finset.mem_erase.mpr ⟨cellV_ne d L (show cc2_scratch21.sem ≠ cc2_scratch11.sem by decide), Finset.mem_erase.mpr ⟨cellV_ne d L (show cc2_scratch21.sem ≠ cc2_scratch10.sem by decide), Finset.mem_erase.mpr ⟨cellV_ne d L (show cc2_scratch21.sem ≠ cc2_scratch9.sem by decide), (mem_ownCells (g := cellV d L cc2_scratch21.sem)).mpr ⟨rfl, by show (SemLoc.dma cc2_scratch21.sem : SemLoc sig).isScoped .scVector = true; decide⟩⟩⟩⟩⟩⟩⟩⟩⟩⟩⟩⟩⟩),
    SparseCore.bigSep_erase' (Finset.mem_erase.mpr ⟨cellV_ne d L (show cc2_scratch22.sem ≠ cc2_scratch21.sem by decide), Finset.mem_erase.mpr ⟨cellV_ne d L (show cc2_scratch22.sem ≠ cc2_scratch20.sem by decide), Finset.mem_erase.mpr ⟨cellV_ne d L (show cc2_scratch22.sem ≠ cc2_scratch19.sem by decide), Finset.mem_erase.mpr ⟨cellV_ne d L (show cc2_scratch22.sem ≠ cc2_scratch18.sem by decide), Finset.mem_erase.mpr ⟨cellV_ne d L (show cc2_scratch22.sem ≠ cc2_scratch17.sem by decide), Finset.mem_erase.mpr ⟨cellV_ne d L (show cc2_scratch22.sem ≠ cc2_scratch16.sem by decide), Finset.mem_erase.mpr ⟨cellV_ne d L (show cc2_scratch22.sem ≠ cc2_scratch15.sem by decide), Finset.mem_erase.mpr ⟨cellV_ne d L (show cc2_scratch22.sem ≠ cc2_scratch14.sem by decide), Finset.mem_erase.mpr ⟨cellV_ne d L (show cc2_scratch22.sem ≠ cc2_scratch13.sem by decide), Finset.mem_erase.mpr ⟨cellV_ne d L (show cc2_scratch22.sem ≠ cc2_scratch12.sem by decide), Finset.mem_erase.mpr ⟨cellV_ne d L (show cc2_scratch22.sem ≠ cc2_scratch11.sem by decide), Finset.mem_erase.mpr ⟨cellV_ne d L (show cc2_scratch22.sem ≠ cc2_scratch10.sem by decide), Finset.mem_erase.mpr ⟨cellV_ne d L (show cc2_scratch22.sem ≠ cc2_scratch9.sem by decide), (mem_ownCells (g := cellV d L cc2_scratch22.sem)).mpr ⟨rfl, by show (SemLoc.dma cc2_scratch22.sem : SemLoc sig).isScoped .scVector = true; decide⟩⟩⟩⟩⟩⟩⟩⟩⟩⟩⟩⟩⟩⟩),
    SparseCore.bigSep_erase' (Finset.mem_erase.mpr ⟨cellV_ne d L (show cc2_scratch23.sem ≠ cc2_scratch22.sem by decide), Finset.mem_erase.mpr ⟨cellV_ne d L (show cc2_scratch23.sem ≠ cc2_scratch21.sem by decide), Finset.mem_erase.mpr ⟨cellV_ne d L (show cc2_scratch23.sem ≠ cc2_scratch20.sem by decide), Finset.mem_erase.mpr ⟨cellV_ne d L (show cc2_scratch23.sem ≠ cc2_scratch19.sem by decide), Finset.mem_erase.mpr ⟨cellV_ne d L (show cc2_scratch23.sem ≠ cc2_scratch18.sem by decide), Finset.mem_erase.mpr ⟨cellV_ne d L (show cc2_scratch23.sem ≠ cc2_scratch17.sem by decide), Finset.mem_erase.mpr ⟨cellV_ne d L (show cc2_scratch23.sem ≠ cc2_scratch16.sem by decide), Finset.mem_erase.mpr ⟨cellV_ne d L (show cc2_scratch23.sem ≠ cc2_scratch15.sem by decide), Finset.mem_erase.mpr ⟨cellV_ne d L (show cc2_scratch23.sem ≠ cc2_scratch14.sem by decide), Finset.mem_erase.mpr ⟨cellV_ne d L (show cc2_scratch23.sem ≠ cc2_scratch13.sem by decide), Finset.mem_erase.mpr ⟨cellV_ne d L (show cc2_scratch23.sem ≠ cc2_scratch12.sem by decide), Finset.mem_erase.mpr ⟨cellV_ne d L (show cc2_scratch23.sem ≠ cc2_scratch11.sem by decide), Finset.mem_erase.mpr ⟨cellV_ne d L (show cc2_scratch23.sem ≠ cc2_scratch10.sem by decide), Finset.mem_erase.mpr ⟨cellV_ne d L (show cc2_scratch23.sem ≠ cc2_scratch9.sem by decide), (mem_ownCells (g := cellV d L cc2_scratch23.sem)).mpr ⟨rfl, by show (SemLoc.dma cc2_scratch23.sem : SemLoc sig).isScoped .scVector = true; decide⟩⟩⟩⟩⟩⟩⟩⟩⟩⟩⟩⟩⟩⟩⟩),
    SparseCore.bigSep_erase' (Finset.mem_erase.mpr ⟨cellV_ne d L (show cc2_scratch24.sem ≠ cc2_scratch23.sem by decide), Finset.mem_erase.mpr ⟨cellV_ne d L (show cc2_scratch24.sem ≠ cc2_scratch22.sem by decide), Finset.mem_erase.mpr ⟨cellV_ne d L (show cc2_scratch24.sem ≠ cc2_scratch21.sem by decide), Finset.mem_erase.mpr ⟨cellV_ne d L (show cc2_scratch24.sem ≠ cc2_scratch20.sem by decide), Finset.mem_erase.mpr ⟨cellV_ne d L (show cc2_scratch24.sem ≠ cc2_scratch19.sem by decide), Finset.mem_erase.mpr ⟨cellV_ne d L (show cc2_scratch24.sem ≠ cc2_scratch18.sem by decide), Finset.mem_erase.mpr ⟨cellV_ne d L (show cc2_scratch24.sem ≠ cc2_scratch17.sem by decide), Finset.mem_erase.mpr ⟨cellV_ne d L (show cc2_scratch24.sem ≠ cc2_scratch16.sem by decide), Finset.mem_erase.mpr ⟨cellV_ne d L (show cc2_scratch24.sem ≠ cc2_scratch15.sem by decide), Finset.mem_erase.mpr ⟨cellV_ne d L (show cc2_scratch24.sem ≠ cc2_scratch14.sem by decide), Finset.mem_erase.mpr ⟨cellV_ne d L (show cc2_scratch24.sem ≠ cc2_scratch13.sem by decide), Finset.mem_erase.mpr ⟨cellV_ne d L (show cc2_scratch24.sem ≠ cc2_scratch12.sem by decide), Finset.mem_erase.mpr ⟨cellV_ne d L (show cc2_scratch24.sem ≠ cc2_scratch11.sem by decide), Finset.mem_erase.mpr ⟨cellV_ne d L (show cc2_scratch24.sem ≠ cc2_scratch10.sem by decide), Finset.mem_erase.mpr ⟨cellV_ne d L (show cc2_scratch24.sem ≠ cc2_scratch9.sem by decide), (mem_ownCells (g := cellV d L cc2_scratch24.sem)).mpr ⟨rfl, by show (SemLoc.dma cc2_scratch24.sem : SemLoc sig).isScoped .scVector = true; decide⟩⟩⟩⟩⟩⟩⟩⟩⟩⟩⟩⟩⟩⟩⟩⟩),
    SparseCore.bigSep_erase' (Finset.mem_erase.mpr ⟨cellV_ne d L (show cc2_scoped0.sem ≠ cc2_scratch24.sem by decide), Finset.mem_erase.mpr ⟨cellV_ne d L (show cc2_scoped0.sem ≠ cc2_scratch23.sem by decide), Finset.mem_erase.mpr ⟨cellV_ne d L (show cc2_scoped0.sem ≠ cc2_scratch22.sem by decide), Finset.mem_erase.mpr ⟨cellV_ne d L (show cc2_scoped0.sem ≠ cc2_scratch21.sem by decide), Finset.mem_erase.mpr ⟨cellV_ne d L (show cc2_scoped0.sem ≠ cc2_scratch20.sem by decide), Finset.mem_erase.mpr ⟨cellV_ne d L (show cc2_scoped0.sem ≠ cc2_scratch19.sem by decide), Finset.mem_erase.mpr ⟨cellV_ne d L (show cc2_scoped0.sem ≠ cc2_scratch18.sem by decide), Finset.mem_erase.mpr ⟨cellV_ne d L (show cc2_scoped0.sem ≠ cc2_scratch17.sem by decide), Finset.mem_erase.mpr ⟨cellV_ne d L (show cc2_scoped0.sem ≠ cc2_scratch16.sem by decide), Finset.mem_erase.mpr ⟨cellV_ne d L (show cc2_scoped0.sem ≠ cc2_scratch15.sem by decide), Finset.mem_erase.mpr ⟨cellV_ne d L (show cc2_scoped0.sem ≠ cc2_scratch14.sem by decide), Finset.mem_erase.mpr ⟨cellV_ne d L (show cc2_scoped0.sem ≠ cc2_scratch13.sem by decide), Finset.mem_erase.mpr ⟨cellV_ne d L (show cc2_scoped0.sem ≠ cc2_scratch12.sem by decide), Finset.mem_erase.mpr ⟨cellV_ne d L (show cc2_scoped0.sem ≠ cc2_scratch11.sem by decide), Finset.mem_erase.mpr ⟨cellV_ne d L (show cc2_scoped0.sem ≠ cc2_scratch10.sem by decide), Finset.mem_erase.mpr ⟨cellV_ne d L (show cc2_scoped0.sem ≠ cc2_scratch9.sem by decide), (mem_ownCells (g := cellV d L cc2_scoped0.sem)).mpr ⟨rfl, by show (SemLoc.dma cc2_scoped0.sem : SemLoc sig).isScoped .scVector = true; decide⟩⟩⟩⟩⟩⟩⟩⟩⟩⟩⟩⟩⟩⟩⟩⟩⟩)]

/-- The nine scratch buffers are among the subcore's own: they, each at some contents, and the rest. -/
theorem ownBufs_V :
    (ownBufs (thrV d L) : sProp 𝕄)
      = iprop((∃ f, (thrV d L).loc cc2_scratch0 ↦{fullShare} f)
          ∗ (∃ f, (thrV d L).loc cc2_scratch1 ↦{fullShare} f)
          ∗ (∃ f, (thrV d L).loc cc2_scratch2 ↦{fullShare} f)
          ∗ (∃ f, (thrV d L).loc cc2_scratch3 ↦{fullShare} f)
          ∗ (∃ f, (thrV d L).loc cc2_scratch4 ↦{fullShare} f)
          ∗ (∃ f, (thrV d L).loc cc2_scratch5 ↦{fullShare} f)
          ∗ (∃ f, (thrV d L).loc cc2_scratch6 ↦{fullShare} f)
          ∗ (∃ f, (thrV d L).loc cc2_scratch7 ↦{fullShare} f)
          ∗ (∃ f, (thrV d L).loc cc2_scratch8 ↦{fullShare} f)
          ∗ bigSep ((((((((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2)).erase ((Proc.scVector (cV L) (jV L)).devRef cc2_scratch3)).erase ((Proc.scVector (cV L) (jV L)).devRef cc2_scratch4)).erase ((Proc.scVector (cV L) (jV L)).devRef cc2_scratch5)).erase ((Proc.scVector (cV L) (jV L)).devRef cc2_scratch6)).erase ((Proc.scVector (cV L) (jV L)).devRef cc2_scratch7)).erase ((Proc.scVector (cV L) (jV L)).devRef cc2_scratch8))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc2_scratch0) rfl),
    SparseCore.bigSep_erase' (Finset.mem_erase.mpr ⟨fun e => absurd (Proc.devRef_injective _ e) (show (cc2_scratch1 : Ref sig .scVector) ≠ cc2_scratch0 by decide), SparseCore.Cfg.mem_ownRefs_of_owner (p := Proc.scVector (cV L) (jV L)) (b := (Proc.scVector (cV L) (jV L)).devRef cc2_scratch1) rfl⟩),
    SparseCore.bigSep_erase' (Finset.mem_erase.mpr ⟨fun e => absurd (Proc.devRef_injective _ e) (show (cc2_scratch2 : Ref sig .scVector) ≠ cc2_scratch1 by decide), Finset.mem_erase.mpr ⟨fun e => absurd (Proc.devRef_injective _ e) (show (cc2_scratch2 : Ref sig .scVector) ≠ cc2_scratch0 by decide), SparseCore.Cfg.mem_ownRefs_of_owner (p := Proc.scVector (cV L) (jV L)) (b := (Proc.scVector (cV L) (jV L)).devRef cc2_scratch2) rfl⟩⟩),
    SparseCore.bigSep_erase' (Finset.mem_erase.mpr ⟨fun e => absurd (Proc.devRef_injective _ e) (show (cc2_scratch3 : Ref sig .scVector) ≠ cc2_scratch2 by decide), Finset.mem_erase.mpr ⟨fun e => absurd (Proc.devRef_injective _ e) (show (cc2_scratch3 : Ref sig .scVector) ≠ cc2_scratch1 by decide), Finset.mem_erase.mpr ⟨fun e => absurd (Proc.devRef_injective _ e) (show (cc2_scratch3 : Ref sig .scVector) ≠ cc2_scratch0 by decide), SparseCore.Cfg.mem_ownRefs_of_owner (p := Proc.scVector (cV L) (jV L)) (b := (Proc.scVector (cV L) (jV L)).devRef cc2_scratch3) rfl⟩⟩⟩),
    SparseCore.bigSep_erase' (Finset.mem_erase.mpr ⟨fun e => absurd (Proc.devRef_injective _ e) (show (cc2_scratch4 : Ref sig .scVector) ≠ cc2_scratch3 by decide), Finset.mem_erase.mpr ⟨fun e => absurd (Proc.devRef_injective _ e) (show (cc2_scratch4 : Ref sig .scVector) ≠ cc2_scratch2 by decide), Finset.mem_erase.mpr ⟨fun e => absurd (Proc.devRef_injective _ e) (show (cc2_scratch4 : Ref sig .scVector) ≠ cc2_scratch1 by decide), Finset.mem_erase.mpr ⟨fun e => absurd (Proc.devRef_injective _ e) (show (cc2_scratch4 : Ref sig .scVector) ≠ cc2_scratch0 by decide), SparseCore.Cfg.mem_ownRefs_of_owner (p := Proc.scVector (cV L) (jV L)) (b := (Proc.scVector (cV L) (jV L)).devRef cc2_scratch4) rfl⟩⟩⟩⟩),
    SparseCore.bigSep_erase' (Finset.mem_erase.mpr ⟨fun e => absurd (Proc.devRef_injective _ e) (show (cc2_scratch5 : Ref sig .scVector) ≠ cc2_scratch4 by decide), Finset.mem_erase.mpr ⟨fun e => absurd (Proc.devRef_injective _ e) (show (cc2_scratch5 : Ref sig .scVector) ≠ cc2_scratch3 by decide), Finset.mem_erase.mpr ⟨fun e => absurd (Proc.devRef_injective _ e) (show (cc2_scratch5 : Ref sig .scVector) ≠ cc2_scratch2 by decide), Finset.mem_erase.mpr ⟨fun e => absurd (Proc.devRef_injective _ e) (show (cc2_scratch5 : Ref sig .scVector) ≠ cc2_scratch1 by decide), Finset.mem_erase.mpr ⟨fun e => absurd (Proc.devRef_injective _ e) (show (cc2_scratch5 : Ref sig .scVector) ≠ cc2_scratch0 by decide), SparseCore.Cfg.mem_ownRefs_of_owner (p := Proc.scVector (cV L) (jV L)) (b := (Proc.scVector (cV L) (jV L)).devRef cc2_scratch5) rfl⟩⟩⟩⟩⟩),
    SparseCore.bigSep_erase' (Finset.mem_erase.mpr ⟨fun e => absurd (Proc.devRef_injective _ e) (show (cc2_scratch6 : Ref sig .scVector) ≠ cc2_scratch5 by decide), Finset.mem_erase.mpr ⟨fun e => absurd (Proc.devRef_injective _ e) (show (cc2_scratch6 : Ref sig .scVector) ≠ cc2_scratch4 by decide), Finset.mem_erase.mpr ⟨fun e => absurd (Proc.devRef_injective _ e) (show (cc2_scratch6 : Ref sig .scVector) ≠ cc2_scratch3 by decide), Finset.mem_erase.mpr ⟨fun e => absurd (Proc.devRef_injective _ e) (show (cc2_scratch6 : Ref sig .scVector) ≠ cc2_scratch2 by decide), Finset.mem_erase.mpr ⟨fun e => absurd (Proc.devRef_injective _ e) (show (cc2_scratch6 : Ref sig .scVector) ≠ cc2_scratch1 by decide), Finset.mem_erase.mpr ⟨fun e => absurd (Proc.devRef_injective _ e) (show (cc2_scratch6 : Ref sig .scVector) ≠ cc2_scratch0 by decide), SparseCore.Cfg.mem_ownRefs_of_owner (p := Proc.scVector (cV L) (jV L)) (b := (Proc.scVector (cV L) (jV L)).devRef cc2_scratch6) rfl⟩⟩⟩⟩⟩⟩),
    SparseCore.bigSep_erase' (Finset.mem_erase.mpr ⟨fun e => absurd (Proc.devRef_injective _ e) (show (cc2_scratch7 : Ref sig .scVector) ≠ cc2_scratch6 by decide), Finset.mem_erase.mpr ⟨fun e => absurd (Proc.devRef_injective _ e) (show (cc2_scratch7 : Ref sig .scVector) ≠ cc2_scratch5 by decide), Finset.mem_erase.mpr ⟨fun e => absurd (Proc.devRef_injective _ e) (show (cc2_scratch7 : Ref sig .scVector) ≠ cc2_scratch4 by decide), Finset.mem_erase.mpr ⟨fun e => absurd (Proc.devRef_injective _ e) (show (cc2_scratch7 : Ref sig .scVector) ≠ cc2_scratch3 by decide), Finset.mem_erase.mpr ⟨fun e => absurd (Proc.devRef_injective _ e) (show (cc2_scratch7 : Ref sig .scVector) ≠ cc2_scratch2 by decide), Finset.mem_erase.mpr ⟨fun e => absurd (Proc.devRef_injective _ e) (show (cc2_scratch7 : Ref sig .scVector) ≠ cc2_scratch1 by decide), Finset.mem_erase.mpr ⟨fun e => absurd (Proc.devRef_injective _ e) (show (cc2_scratch7 : Ref sig .scVector) ≠ cc2_scratch0 by decide), SparseCore.Cfg.mem_ownRefs_of_owner (p := Proc.scVector (cV L) (jV L)) (b := (Proc.scVector (cV L) (jV L)).devRef cc2_scratch7) rfl⟩⟩⟩⟩⟩⟩⟩),
    SparseCore.bigSep_erase' (Finset.mem_erase.mpr ⟨fun e => absurd (Proc.devRef_injective _ e) (show (cc2_scratch8 : Ref sig .scVector) ≠ cc2_scratch7 by decide), Finset.mem_erase.mpr ⟨fun e => absurd (Proc.devRef_injective _ e) (show (cc2_scratch8 : Ref sig .scVector) ≠ cc2_scratch6 by decide), Finset.mem_erase.mpr ⟨fun e => absurd (Proc.devRef_injective _ e) (show (cc2_scratch8 : Ref sig .scVector) ≠ cc2_scratch5 by decide), Finset.mem_erase.mpr ⟨fun e => absurd (Proc.devRef_injective _ e) (show (cc2_scratch8 : Ref sig .scVector) ≠ cc2_scratch4 by decide), Finset.mem_erase.mpr ⟨fun e => absurd (Proc.devRef_injective _ e) (show (cc2_scratch8 : Ref sig .scVector) ≠ cc2_scratch3 by decide), Finset.mem_erase.mpr ⟨fun e => absurd (Proc.devRef_injective _ e) (show (cc2_scratch8 : Ref sig .scVector) ≠ cc2_scratch2 by decide), Finset.mem_erase.mpr ⟨fun e => absurd (Proc.devRef_injective _ e) (show (cc2_scratch8 : Ref sig .scVector) ≠ cc2_scratch1 by decide), Finset.mem_erase.mpr ⟨fun e => absurd (Proc.devRef_injective _ e) (show (cc2_scratch8 : Ref sig .scVector) ≠ cc2_scratch0 by decide), SparseCore.Cfg.mem_ownRefs_of_owner (p := Proc.scVector (cV L) (jV L)) (b := (Proc.scVector (cV L) (jV L)).devRef cc2_scratch8) rfl⟩⟩⟩⟩⟩⟩⟩⟩)]

end Own

/-! ## Carving and joining -/

section Res

variable (d : Dev nD) (L : grid2.Coords)

/-- An assertion kept out of a run's sight. -/
def hid (P : sProp 𝕄) : sProp 𝕄 := P
theorem hid_eq (P : sProp 𝕄) : hid P = P := rfl

/-- One batch element's rows of the output, as the copies slice them. -/
abbrev oRowG (off : Fin 3 → ℕ) (inb : ∀ a, off a + S1x20x128.size a ≤ S16384x20x128.size a) : Memref sig .scVector .hbm S20x128 .f32 :=
  ((v7V).slice (Rect.unit (s := S16384x20x128) off S1x20x128.size inb) (fun _ => rfl)).squeeze S20x128 squeezes_S1x20x128_S20x128

/-- The tile's rows from the `a`-th on are its `a`-th row, as a copy names it, and the rows after. -/
theorem take_oRow (w : Fin 32) (a : ℕ) (ha : a < 512) (off : Fin 3 → ℕ) (inb : ∀ a, off a + S1x20x128.size a ≤ S16384x20x128.size a)
    (hoff : off = ![512 * w.val + a, 0, 0]) (f : Buf (Elt F) (v7Loc d)) :
    (v7Loc d ↦[rowsFrom w a]{fullShare} f : sProp 𝕄)
      ⊣⊢ iprop(((oRowG off inb).view.loc (thrV d L) ↦[(oRowG off inb).view.set]{fullShare} f) ∗ v7Loc d ↦[rowsFrom w (a + 1)]{fullShare} f) := by
  rw [rowsFrom_succ w ha, set_oRow w a off inb hoff]
  exact pointsTo_union (rowAt_disj_from w a)

/-- The tile's first `a` rows and its `a`-th, as a copy names it, are its first `a + 1`. -/
theorem put_oRow (w : Fin 32) (a : ℕ) (off : Fin 3 → ℕ) (inb : ∀ a, off a + S1x20x128.size a ≤ S16384x20x128.size a)
    (hoff : off = ![512 * w.val + a, 0, 0]) (g : Buf (Elt F) (v7Loc d)) :
    iprop((v7Loc d ↦[rowsTo w a]{fullShare} g) ∗ ((oRowG off inb).view.loc (thrV d L) ↦[(oRowG off inb).view.set]{fullShare} g))
      ⊢ (v7Loc d ↦[rowsTo w (a + 1)]{fullShare} g : sProp 𝕄) := by
  rw [rowsTo_succ w a, set_oRow w a off inb hoff]
  exact (pointsTo_union (rowsTo_disj_at w a)).2

end Res

/-! ## The gathered values -/

section Values

/-- What the gather of chunk `c` of worker `w` leaves in a row buffer: row `r` is the table row the index word at
    (w, c, r) names. -/
def gbuf (cmb : FVec F S1960x128 .f32) (ix : IVec S32x128x80 32) (w : Fin 32) (c : ℕ) : FVec F S80x128 .f32 :=
  fun i => cmb (ValueIdx.ix2 (rowOf (ix (ValueIdx.ix3 w (⟨c % 128, Nat.mod_lt _ (by decide)⟩ : Fin 128) (⟨(i 0).val, (i 0).isLt⟩ : Fin 80))).toNat)
    (⟨(i 1).val, (i 1).isLt⟩ : Fin 128))

/-- A row of the list scratch, squeezed, as the gathers slice it. -/
abbrev lstG (off : Fin 2 → ℕ) (inb : ∀ a, off a + S1x80.size a ≤ S128x80.size a) : Memref sig .scVector .vmem S80 .i32 :=
  ((lstV).slice (Rect.unit (s := S128x80) off S1x80.size inb) (fun _ => rfl)).squeeze S80 squeezes_S1x80_S80

end Values

end Cert.Proof.Tile

end
-- ==== Proof.TileBodyPro.lean ====
import proofs.«206393_g35751307772044_cont_8to1_b_353_20_alg».proof.Proof.TileBodyDefs
import Idealize.ShloMosaic.Lib.ValueLayout

noncomputable section

namespace Cert.Proof.Tile

open Cert.KernelIdeal Cert.KernelIdeal.Gen
open Cert.Proof.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ

section Prologue

variable (d : Dev nD) (L : grid2.Coords)

/-- The worker number of the tile at grid coordinates `L`, as a number. -/
theorem widL_val : (widL L).val = 2 * (L 1).val + (L 0).val := by
  show (L 1).val * 2 + (L 0).val = _
  omega

/-- The rectangle the index fetch slices — one row of the [32, 128, 80] index array at the tile's worker number — is the
    worker's part of the array cut into 32 along its first axis. -/
theorem idxRect_eq :
    Rect.unit (s := S32x128x80) (k2_off1 L) S1x128x80.size (k2_off1_inb L) = idxRect (widL L) := by
  unfold idxRect Rect.part Rect.block
  congr 1 <;> funext a
  · rw [k2_off1_eq]
    match a with
    | 0 => simp [Shape.partIx, Shape.partSize, widL_val]
    | 1 => simp [Shape.partIx, Shape.partSize]
    | 2 => simp [Shape.partIx, Shape.partSize]
  · match a with
    | 0 => simp [Shape.partSize]
    | 1 => simp [Shape.partSize]
    | 2 => simp [Shape.partSize]

/-- The tile's row of the index array, as the index fetch slices it, is worker `widL L`'s rows. -/
theorem set_idxRow : (idxRowM L).view.set = idxRows (widL L) := by
  show (((v6V).view.slice (Rect.unit (s := S32x128x80) (k2_off1 L) S1x128x80.size (k2_off1_inb L))).reshape S128x80
      squeezes_S1x128x80_S128x80.numel_eq).set = ((v6V).view.slice (idxRect (widL L))).set
  rw [View.set_reshape]
  exact idxRect_eq L ▸ rfl

/-- What the index fetch lands in the list scratch: word (r, x) is the index array's word (worker, r, x). -/
theorem fetch_val (ix : Buf (Elt F) (v6Loc d)) (r : Fin 128) (x : Fin 80) :
    (ReadAs.same.apply ((idxRowM L).view.read (Elt F) ix) : S128x80.Idx → BitVec 32) (ValueIdx.ix2 r x)
      = ix (ValueIdx.ix3 (widL L) r x) := by
  show (idxRowM L).view.read (Elt F) ix (ValueIdx.ix2 r x) = _
  refine ((View.read_apply _ _).trans (cast_eq _ _)).trans (congrArg ix ?_)
  -- the squeezed slice places (r, x) at (worker, r, x): the unit axis put back at 0, then the rectangle's offsets added
  show (Rect.unit (s := S32x128x80) (k2_off1 L) S1x128x80.size (k2_off1_inb L)).emb
      (Shape.reshapeEquiv squeezes_S1x128x80_S128x80.numel_eq (ValueIdx.ix2 r x)) = _
  rw [ValueIdx.reshapeEquiv_ix2_1ab]
  funext a
  apply Fin.ext
  rw [Rect.emb_apply]
  have hw := widL_val L
  have ho := k2_off1_eq L
  match a with
  | 0 => show k2_off1 L 0 + 1 * 0 = (widL L).val; rw [ho, hw]; rfl
  | 1 => show k2_off1 L 1 + 1 * r.val = r.val; rw [ho]; show 0 + 1 * r.val = r.val; omega
  | 2 => show k2_off1 L 2 + 1 * x.val = x.val; rw [ho]; show 0 + 1 * x.val = x.val; omega

/-- A points-to at share `q` as: what is left after seventeen read tokens, the first nine tokens kept together, and
    tokens 9 … 16 one by one (one per gather semaphore, by the semaphore's number). -/
theorem toks_9_16 {ℓ : Loc nD τ sig} (S : Finset (Idx ℓ)) (q : PosShare TreeShare) (f : Buf (Elt F) ℓ) :
    (ℓ ↦[S]{q} f : sProp 𝕄)
      ⊣⊢ iprop((ℓ ↦[S]{Transfers.shareDrop q 17} f) ∗ (BI.bigSep (Finset.range 9) fun i => ℓ ↦[S]{Transfers.shareTokN q i} f)
          ∗ (ℓ ↦[S]{Transfers.shareTokN q 9} f) ∗ (ℓ ↦[S]{Transfers.shareTokN q 10} f) ∗ (ℓ ↦[S]{Transfers.shareTokN q 11} f) ∗ (ℓ ↦[S]{Transfers.shareTokN q 12} f) ∗ (ℓ ↦[S]{Transfers.shareTokN q 13} f) ∗ (ℓ ↦[S]{Transfers.shareTokN q 14} f) ∗ (ℓ ↦[S]{Transfers.shareTokN q 15} f) ∗ (ℓ ↦[S]{Transfers.shareTokN q 16} f)) := by
  -- one more token off the remainder
  have step : ∀ k, (ℓ ↦[S]{Transfers.shareDrop q k} f : sProp 𝕄)
      ⊣⊢ iprop((ℓ ↦[S]{Transfers.shareDrop q (k + 1)} f) ∗ ℓ ↦[S]{Transfers.shareTokN q k} f) :=
    fun k => pointsTo_share (PosShare.mem_left_op_right _)
  constructor
  · iintro H
    ihave H := (Transfers.pointsTo_toks_range (ℓ := ℓ) (S := S) (f := f) q 9).1 $$ H
    icases H with ⟨Hd, Hb⟩
    ihave Hd := (step 9).1 $$ Hd; icases Hd with ⟨Hd, H9⟩
    ihave Hd := (step 10).1 $$ Hd; icases Hd with ⟨Hd, H10⟩
    ihave Hd := (step 11).1 $$ Hd; icases Hd with ⟨Hd, H11⟩
    ihave Hd := (step 12).1 $$ Hd; icases Hd with ⟨Hd, H12⟩
    ihave Hd := (step 13).1 $$ Hd; icases Hd with ⟨Hd, H13⟩
    ihave Hd := (step 14).1 $$ Hd; icases Hd with ⟨Hd, H14⟩
    ihave Hd := (step 15).1 $$ Hd; icases Hd with ⟨Hd, H15⟩
    ihave Hd := (step 16).1 $$ Hd; icases Hd with ⟨Hd, H16⟩
    isplitl [Hd]; · iexact Hd
    isplitl [Hb]; · iexact Hb
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · iintro ⟨Hd, Hb, H9, H10, H11, H12, H13, H14, H15, H16⟩
    ihave Hd := (step 16).2 $$ [Hd H16]
    · isplitl [Hd] <;> iassumption
    ihave Hd := (step 15).2 $$ [Hd H15]
    · isplitl [Hd] <;> iassumption
    ihave Hd := (step 14).2 $$ [Hd H14]
    · isplitl [Hd] <;> iassumption
    ihave Hd := (step 13).2 $$ [Hd H13]
    · isplitl [Hd] <;> iassumption
    ihave Hd := (step 12).2 $$ [Hd H12]
    · isplitl [Hd] <;> iassumption
    ihave Hd := (step 11).2 $$ [Hd H11]
    · isplitl [Hd] <;> iassumption
    ihave Hd := (step 10).2 $$ [Hd H10]
    · isplitl [Hd] <;> iassumption
    ihave Hd := (step 9).2 $$ [Hd H9]
    · isplitl [Hd] <;> iassumption
    iapply (Transfers.pointsTo_toks_range (ℓ := ℓ) (S := S) (f := f) q 9).2
    isplitl [Hd]; · iexact Hd
    iexact Hb

end Prologue

end Cert.Proof.Tile

end
-- ==== Proof.TileBodyVal.lean ====
import proofs.«206393_g35751307772044_cont_8to1_b_353_20_alg».proof.Proof.TileBodyDefs

noncomputable section

namespace Cert.Proof.Tile

open Cert.KernelIdeal Cert.KernelIdeal.Gen
open Cert.Proof.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ

section ValueLemmas

variable (d : Dev nD) (L : grid2.Coords)

/-- The whole table sliced at offset zero and full size places an index at itself. -/
private theorem srcAll_emb (y : S1960x128.Idx) : (srcAll).view.emb y = y := by
  funext a; apply Fin.ext
  show ((Rect.unit (s := S1960x128) ![0, 0] S1960x128.size inb_S1960x128_S1960x128_0_0).emb y a : ℕ) = (y a).val
  rw [Rect.emb_apply]
  match a with
  | ⟨0, _⟩ => show 0 + 1 * (y 0).val = (y 0).val; omega
  | ⟨1, _⟩ => show 0 + 1 * (y 1).val = (y 1).val; omega

/-- Row `c` of the list scratch, squeezed, places position `k` at (c, k). -/
private theorem lstG_emb (c : ℕ) (hc : c < 128) (inb : ∀ a, (![c, 0] : Fin 2 → ℕ) a + S1x80.size a ≤ S128x80.size a) (k : Fin 80) :
    (lstG ![c, 0] inb).view.emb (ValueIdx.ix1 k) = ValueIdx.ix2 (⟨c, hc⟩ : Fin 128) k := by
  have hre : Shape.reshapeEquiv squeezes_S1x80_S80.numel_eq (ValueIdx.ix1 k : S80.Idx) = (ValueIdx.ix2 (0 : Fin 1) k : S1x80.Idx) :=
    Shape.reshapeEquiv_eq_of_rowMajor _ (by
      rw [Shape.rowMajor_val_two, Shape.rowMajor_val_one]
      show 0 * 80 + k.val = k.val
      omega)
  show (Rect.unit (s := S128x80) ![c, 0] S1x80.size inb).emb (Shape.reshapeEquiv squeezes_S1x80_S80.numel_eq (ValueIdx.ix1 k : S80.Idx)) = _
  rw [hre]
  funext a; apply Fin.ext
  rw [Rect.emb_apply]
  match a with
  | ⟨0, _⟩ => show c + 1 * 0 = c; omega
  | ⟨1, _⟩ => show 0 + 1 * k.val = k.val; omega

/-- The index of a one-axis shape at a row-major position is that position. -/
private theorem rowMajor_symm_S80 (q : Fin S80.numel) : S80.rowMajor.symm q = ValueIdx.ix1 (⟨q.val, q.isLt⟩ : Fin 80) := by
  rw [Equiv.symm_apply_eq]
  apply Fin.ext
  rw [Shape.rowMajor_val_one]

/-- One batch element's rows of the output, squeezed, place (p, k) at (A, p, k), `A` the element's row. -/
private theorem oRowG_emb (A : ℕ) (hA : A < 16384) (inb : ∀ a, (![A, 0, 0] : Fin 3 → ℕ) a + S1x20x128.size a ≤ S16384x20x128.size a)
    (x : S20x128.Idx) :
    (oRowG ![A, 0, 0] inb).view.emb x
      = ValueIdx.ix3 (⟨A, hA⟩ : Fin 16384) (⟨(x 0).val, (x 0).isLt⟩ : Fin 20) (⟨(x 1).val, (x 1).isLt⟩ : Fin 128) := by
  have hre : Shape.reshapeEquiv squeezes_S1x20x128_S20x128.numel_eq x
      = (ValueIdx.ix3 (0 : Fin 1) (⟨(x 0).val, (x 0).isLt⟩ : Fin 20) (⟨(x 1).val, (x 1).isLt⟩ : Fin 128) : S1x20x128.Idx) :=
    Shape.reshapeEquiv_eq_of_rowMajor _ (by
      rw [Shape.rowMajor_val_three, Shape.rowMajor_val_two]
      show (0 * 20 + (x 0).val) * 128 + (x 1).val = (x 0).val * 128 + (x 1).val
      omega)
  show (Rect.unit (s := S16384x20x128) ![A, 0, 0] S1x20x128.size inb).emb (Shape.reshapeEquiv squeezes_S1x20x128_S20x128.numel_eq x) = _
  rw [hre]
  funext a; apply Fin.ext
  rw [Rect.emb_apply]
  match a with
  | ⟨0, _⟩ => show A + 1 * 0 = A; omega
  | ⟨1, _⟩ => show 0 + 1 * (x 0).val = (x 0).val; omega
  | ⟨2, _⟩ => show 0 + 1 * (x 1).val = (x 1).val; omega

/-- The gather's payload over list row `c` of the fetched index rows is `gbuf` at chunk `c`. -/
theorem gather_val (cmb : Buf (Elt F) (v5Loc d)) (ix : Buf (Elt F) (v6Loc d)) (sc0 : Buf (Elt F) ((lstV).view.loc (thrV d L)))
    (hsc0 : ∀ (r : Fin 128) (x : Fin 80), sc0 (ValueIdx.ix2 r x) = ix (ValueIdx.ix3 (widL L) r x))
    (c : ℕ) (hc : c < 128) (off : Fin 2 → ℕ) (inb : ∀ a, off a + S1x80.size a ≤ S128x80.size a) (hoff : off = ![c, 0])
    (hin : ∀ x, ((lstG off inb).view.read (Elt F) sc0 x).toNat < S1960x128.size gathers_S1960x128_S80x128.axis) :
    SparseCore.gatherPayload gathers_S1960x128_S80x128 ((srcAll).view.read (Elt F) cmb)
        (SparseCore.rows ((lstG off inb).view.read (Elt F) sc0) rfl hin)
      = gbuf cmb ix (widL L) c := by
  subst hoff
  have hrd : ∀ k : Fin 80, (lstG ![c, 0] inb).view.read (Elt F) sc0 (ValueIdx.ix1 k) = ix (ValueIdx.ix3 (widL L) (⟨c, hc⟩ : Fin 128) k) := fun k => by
    rw [show (lstG ![c, 0] inb).view.read (Elt F) sc0 (ValueIdx.ix1 k) = sc0 ((lstG ![c, 0] inb).view.emb (ValueIdx.ix1 k)) from
      (View.read_apply _ _).trans (cast_eq _ _), lstG_emb c hc inb k, hsc0]
  have hcm : (⟨c % 128, Nat.mod_lt _ (by decide)⟩ : Fin 128) = ⟨c, hc⟩ := Fin.ext (Nat.mod_eq_of_lt hc)
  funext i
  obtain ⟨r, k, rfl⟩ : ∃ (r : Fin 80) (k : Fin 128), i = ValueIdx.ix2 r k := ⟨i 0, i 1, ValueIdx.eq_ix2 i⟩
  unfold SparseCore.gatherPayload gbuf
  rw [show ∀ y, (srcAll).view.read (Elt F) cmb y = cmb ((srcAll).view.emb y) from fun y => (View.read_apply _ _).trans (cast_eq _ _),
    srcAll_emb, hcm]
  refine congrArg cmb (funext fun a => Fin.ext ?_)
  match a with
  | ⟨0, _⟩ =>
    have h1 : (SparseCore.rows ((lstG ![c, 0] inb).view.read (Elt F) sc0) rfl hin r).val = (ix (ValueIdx.ix3 (widL L) (⟨c, hc⟩ : Fin 128) r)).toNat := by
      unfold SparseCore.rows
      show ((lstG ![c, 0] inb).view.read (Elt F) sc0 (S80.rowMajor.symm (Fin.cast _ r))).toNat = _
      rw [rowMajor_symm_S80, hrd]
      rfl
    have h2 := hin (ValueIdx.ix1 r)
    rw [hrd] at h2
    show ((gathers_S1960x128_S80x128.idx _ (ValueIdx.ix2 r k)) gathers_S1960x128_S80x128.axis).val
      = (ix (ValueIdx.ix3 (widL L) (⟨c, hc⟩ : Fin 128) (⟨r.val, r.isLt⟩ : Fin 80))).toNat % 1960
    rw [Shape.Gathers.idx_axis]
    exact h1.trans (Nat.mod_eq_of_lt h2).symm
  | ⟨1, _⟩ =>
    show ((gathers_S1960x128_S80x128.idx _ (ValueIdx.ix2 r k)) (⟨1, by decide⟩ : Fin 2)).val = k.val
    rw [Shape.Gathers.idx_of_ne _ _ _ _ (by decide)]
    rfl

/-- A batch element's rows of the output written with a payload that is slice `e` of `gbuf` at chunk `c` are the
    whole-array function `gOut` there. -/
theorem oRow_landed (cmb : Buf (Elt F) (v5Loc d)) (ix : Buf (Elt F) (v6Loc d)) (o : Buf (Elt F) (v7Loc d))
    (c : ℕ) (hc : c < 128) (e : Fin 4) (off : Fin 3 → ℕ) (inb : ∀ a, off a + S1x20x128.size a ≤ S16384x20x128.size a)
    (hoff : off = ![512 * (widL L).val + (4 * c + e.val), 0, 0])
    (pay : S20x128.Idx → F .f32)
    (hpay : ∀ x : S20x128.Idx, pay x = gbuf cmb ix (widL L) c (ValueIdx.ix2 (⟨20 * e.val + (x 0).val, by have := e.isLt; have h0 : (x 0).val < 20 := (x 0).isLt; omega⟩ : Fin 80) (⟨(x 1).val, (x 1).isLt⟩ : Fin 128))) :
    ((oRowG off inb).view.loc (thrV d L) ↦[(oRowG off inb).view.set]{fullShare}
        (oRowG off inb).view.writes (Elt F) o [⟨Rect.whole S20x128, pay⟩] : sProp 𝕄)
      = ((oRowG off inb).view.loc (thrV d L) ↦[(oRowG off inb).view.set]{fullShare} gOut cmb ix) := by
  subst hoff
  have hA : 512 * (widL L).val + (4 * c + e.val) < 16384 := by have := (widL L).isLt; have := e.isLt; omega
  refine pointsTo_congr fun i hi => ?_
  obtain ⟨x, -, rfl⟩ := Finset.mem_map.mp hi
  have hpos : pos3 (ValueIdx.ix3 (⟨512 * (widL L).val + (4 * c + e.val), hA⟩ : Fin 16384) (⟨(x 0).val, (x 0).isLt⟩ : Fin 20) (⟨(x 1).val, (x 1).isLt⟩ : Fin 128))
      = ValueIdx.ix3 (widL L) (⟨c % 128, Nat.mod_lt _ (by decide)⟩ : Fin 128)
          (⟨20 * e.val + (x 0).val, by have := e.isLt; have h0 : (x 0).val < 20 := (x 0).isLt; omega⟩ : Fin 80) := by
    have := e.isLt
    funext a; apply Fin.ext
    match a with
    | ⟨0, _⟩ => show (512 * (widL L).val + (4 * c + e.val)) / 512 = (widL L).val; omega
    | ⟨1, _⟩ => show (512 * (widL L).val + (4 * c + e.val)) % 512 / 4 = c % 128; omega
    | ⟨2, _⟩ => show (512 * (widL L).val + (4 * c + e.val)) % 4 * 20 + (x 0).val = 20 * e.val + (x 0).val; omega
  have hw : (oRowG ![512 * (widL L).val + (4 * c + e.val), 0, 0] inb).view.writes (Elt F) o [⟨Rect.whole S20x128, pay⟩]
      = (oRowG ![512 * (widL L).val + (4 * c + e.val), 0, 0] inb).view.write (Elt F) o pay Finset.univ :=
    (View.write_univ_eq_writes_whole (oRowG ![512 * (widL L).val + (4 * c + e.val), 0, 0] inb).view o [] pay).symm
  rw [hw, View.write_emb_of_mem _ _ (Finset.mem_univ x), cast_eq, hpay x, oRowG_emb _ hA inb x]
  unfold gbuf gOut
  rw [hpos]

end ValueLemmas

end Cert.Proof.Tile

end
-- ==== Proof.TileBodyInv.lean ====
import proofs.«206393_g35751307772044_cont_8to1_b_353_20_alg».proof.Proof.TileBodyVal

noncomputable section

namespace Cert.Proof.Tile

open Cert.KernelIdeal Cert.KernelIdeal.Gen
open Cert.Proof.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U]

local notation "𝕄" => MT nD τ sig (HIx 1) (Elt F) ℕ U ℕ

/-! ## The loop's conditions, the row buffers' slices, the batches -/

section Conds

theorem cond1_iff : ∀ k : Fin k2_t1_loop.trips, k2_cond1 k = 1#1 ↔ 0 < k.val := by decide +kernel
theorem cond2_iff : ∀ k : Fin k2_t1_loop.trips, k2_cond2 k = 1#1 ↔ 0 < k.val := by decide +kernel
theorem cond3_iff : ∀ k : Fin k2_t1_loop.trips, k2_cond3 k = 1#1 ↔ 0 < k.val := by decide +kernel
theorem cond4_iff : ∀ k : Fin k2_t1_loop.trips, k2_cond4 k = 1#1 ↔ 0 < k.val := by decide +kernel
theorem cond5_iff : ∀ k : Fin k2_t1_loop.trips, k2_cond5 k = 1#1 ↔ 0 < k.val := by decide +kernel
theorem cond6_iff : ∀ k : Fin k2_t1_loop.trips, k2_cond6 k = 1#1 ↔ 0 < k.val := by decide +kernel
theorem cond7_iff : ∀ k : Fin k2_t1_loop.trips, k2_cond7 k = 1#1 ↔ 0 < k.val := by decide +kernel
theorem cond8_iff : ∀ k : Fin k2_t1_loop.trips, k2_cond8 k = 1#1 ↔ 0 < k.val := by decide +kernel

theorem trips_eq : k2_t1_loop.trips = 16 := by decide +kernel

end Conds

section Slices

variable (d : Dev nD) (L : grid2.Coords)

theorem pts_union_eq {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

theorem pts_split4 {ℓ : Loc nD τ sig} (A B C D' : Finset (Idx ℓ)) (q : PosShare TreeShare) (f : Buf (Elt F) ℓ)
    (h1 : Disjoint A (B ∪ (C ∪ D'))) (h2 : Disjoint B (C ∪ D')) (h3 : Disjoint C D') (hcov : A ∪ (B ∪ (C ∪ D')) = Finset.univ) :
    (ℓ ↦{q} f : sProp 𝕄) = iprop((ℓ ↦[A]{q} f) ∗ (ℓ ↦[B]{q} f) ∗ (ℓ ↦[C]{q} f) ∗ ℓ ↦[D']{q} f) := by
  rw [show (ℓ ↦{q} f : sProp 𝕄) = (ℓ ↦[Finset.univ]{q} f) from rfl, ← hcov, pts_union_eq h1, pts_union_eq h2, pts_union_eq h3]

theorem inb_bsl (e : Fin 4) : ∀ a, (![20 * e.val, 0] : Fin 2 → ℕ) a + S20x128.size a ≤ S80x128.size a := by
  have := e.isLt; intro a; fin_cases a
  · show 20 * e.val + 20 ≤ 80; omega
  · show 0 + 128 ≤ 128; omega

/-- Rows `[20 e, 20 e + 20)` of a row buffer's shape. -/
abbrev brect (e : Fin 4) : Rect S80x128 := Rect.unit (s := S80x128) ![20 * e.val, 0] S20x128.size (inb_bsl e)

theorem mem_brect (e : Fin 4) (j : S80x128.Idx) : j ∈ (brect e).set ↔ 20 * e.val ≤ (j 0).val ∧ (j 0).val < 20 * e.val + 20 := by
  rw [Rect.mem_set_unit]
  constructor
  · intro h; exact h 0
  · intro h a
    have h1 : (j 1).val < 128 := (j 1).isLt
    fin_cases a
    · exact h
    · show 0 ≤ (j 1).val ∧ (j 1).val < 0 + 128; omega

theorem brect_cover : (brect 0).set ∪ ((brect 1).set ∪ ((brect 2).set ∪ (brect 3).set)) = Finset.univ := by
  ext j
  have h0 : (j 0).val < 80 := (j 0).isLt
  simp only [Finset.mem_union, mem_brect, Finset.mem_univ, iff_true]
  show (20 * 0 ≤ (j 0).val ∧ (j 0).val < 20 * 0 + 20) ∨ (20 * 1 ≤ (j 0).val ∧ (j 0).val < 20 * 1 + 20) ∨ (20 * 2 ≤ (j 0).val ∧ (j 0).val < 20 * 2 + 20) ∨ (20 * 3 ≤ (j 0).val ∧ (j 0).val < 20 * 3 + 20)
  omega

theorem brect_disj {e e' : Fin 4} (h : e.val < e'.val) : Disjoint (brect e).set (brect e').set := by
  rw [Finset.disjoint_left]; intro j h1 h2; rw [mem_brect] at h1 h2; omega

theorem brect_h3 : Disjoint (brect 2).set (brect 3).set := brect_disj (by decide)
theorem brect_h2 : Disjoint (brect 1).set ((brect 2).set ∪ (brect 3).set) :=
  Finset.disjoint_union_right.mpr ⟨brect_disj (by decide), brect_disj (by decide)⟩
theorem brect_h1 : Disjoint (brect 0).set ((brect 1).set ∪ ((brect 2).set ∪ (brect 3).set)) :=
  Finset.disjoint_union_right.mpr ⟨brect_disj (by decide), Finset.disjoint_union_right.mpr ⟨brect_disj (by decide), brect_disj (by decide)⟩⟩

/-- Row buffer 0 held whole is its four slices. -/
theorem buf_split0 (f : Buf (Elt F) ((bufM0).view.loc (thrV d L))) :
    ((bufM0).view.loc (thrV d L) ↦{fullShare} f : sProp 𝕄)
      = iprop(((bsl0_0).view.loc (thrV d L) ↦[(bsl0_0).view.set]{fullShare} f) ∗ ((bsl0_1).view.loc (thrV d L) ↦[(bsl0_1).view.set]{fullShare} f) ∗ ((bsl0_2).view.loc (thrV d L) ↦[(bsl0_2).view.set]{fullShare} f) ∗ ((bsl0_3).view.loc (thrV d L) ↦[(bsl0_3).view.set]{fullShare} f)) := by
  have s0 : (bsl0_0).view.set = (brect 0).set := by
    show ((View.whole cc2_scratch1).slice _).set = _
    rw [View.set_slice_whole]; rfl
  have s1 : (bsl0_1).view.set = (brect 1).set := by
    show ((View.whole cc2_scratch1).slice _).set = _
    rw [View.set_slice_whole]; rfl
  have s2 : (bsl0_2).view.set = (brect 2).set := by
    show ((View.whole cc2_scratch1).slice _).set = _
    rw [View.set_slice_whole]; rfl
  have s3 : (bsl0_3).view.set = (brect 3).set := by
    show ((View.whole cc2_scratch1).slice _).set = _
    rw [View.set_slice_whole]; rfl
  rw [s0, s1, s2, s3]
  exact pts_split4 _ _ _ _ _ _ brect_h1 brect_h2 brect_h3 brect_cover
/-- Row buffer 1 held whole is its four slices. -/
theorem buf_split1 (f : Buf (Elt F) ((bufM1).view.loc (thrV d L))) :
    ((bufM1).view.loc (thrV d L) ↦{fullShare} f : sProp 𝕄)
      = iprop(((bsl1_0).view.loc (thrV d L) ↦[(bsl1_0).view.set]{fullShare} f) ∗ ((bsl1_1).view.loc (thrV d L) ↦[(bsl1_1).view.set]{fullShare} f) ∗ ((bsl1_2).view.loc (thrV d L) ↦[(bsl1_2).view.set]{fullShare} f) ∗ ((bsl1_3).view.loc (thrV d L) ↦[(bsl1_3).view.set]{fullShare} f)) := by
  have s0 : (bsl1_0).view.set = (brect 0).set := by
    show ((View.whole cc2_scratch2).slice _).set = _
    rw [View.set_slice_whole]; rfl
  have s1 : (bsl1_1).view.set = (brect 1).set := by
    show ((View.whole cc2_scratch2).slice _).set = _
    rw [View.set_slice_whole]; rfl
  have s2 : (bsl1_2).view.set = (brect 2).set := by
    show ((View.whole cc2_scratch2).slice _).set = _
    rw [View.set_slice_whole]; rfl
  have s3 : (bsl1_3).view.set = (brect 3).set := by
    show ((View.whole cc2_scratch2).slice _).set = _
    rw [View.set_slice_whole]; rfl
  rw [s0, s1, s2, s3]
  exact pts_split4 _ _ _ _ _ _ brect_h1 brect_h2 brect_h3 brect_cover
/-- Row buffer 2 held whole is its four slices. -/
theorem buf_split2 (f : Buf (Elt F) ((bufM2).view.loc (thrV d L))) :
    ((bufM2).view.loc (thrV d L) ↦{fullShare} f : sProp 𝕄)
      = iprop(((bsl2_0).view.loc (thrV d L) ↦[(bsl2_0).view.set]{fullShare} f) ∗ ((bsl2_1).view.loc (thrV d L) ↦[(bsl2_1).view.set]{fullShare} f) ∗ ((bsl2_2).view.loc (thrV d L) ↦[(bsl2_2).view.set]{fullShare} f) ∗ ((bsl2_3).view.loc (thrV d L) ↦[(bsl2_3).view.set]{fullShare} f)) := by
  have s0 : (bsl2_0).view.set = (brect 0).set := by
    show ((View.whole cc2_scratch3).slice _).set = _
    rw [View.set_slice_whole]; rfl
  have s1 : (bsl2_1).view.set = (brect 1).set := by
    show ((View.whole cc2_scratch3).slice _).set = _
    rw [View.set_slice_whole]; rfl
  have s2 : (bsl2_2).view.set = (brect 2).set := by
    show ((View.whole cc2_scratch3).slice _).set = _
    rw [View.set_slice_whole]; rfl
  have s3 : (bsl2_3).view.set = (brect 3).set := by
    show ((View.whole cc2_scratch3).slice _).set = _
    rw [View.set_slice_whole]; rfl
  rw [s0, s1, s2, s3]
  exact pts_split4 _ _ _ _ _ _ brect_h1 brect_h2 brect_h3 brect_cover
/-- Row buffer 3 held whole is its four slices. -/
theorem buf_split3 (f : Buf (Elt F) ((bufM3).view.loc (thrV d L))) :
    ((bufM3).view.loc (thrV d L) ↦{fullShare} f : sProp 𝕄)
      = iprop(((bsl3_0).view.loc (thrV d L) ↦[(bsl3_0).view.set]{fullShare} f) ∗ ((bsl3_1).view.loc (thrV d L) ↦[(bsl3_1).view.set]{fullShare} f) ∗ ((bsl3_2).view.loc (thrV d L) ↦[(bsl3_2).view.set]{fullShare} f) ∗ ((bsl3_3).view.loc (thrV d L) ↦[(bsl3_3).view.set]{fullShare} f)) := by
  have s0 : (bsl3_0).view.set = (brect 0).set := by
    show ((View.whole cc2_scratch4).slice _).set = _
    rw [View.set_slice_whole]; rfl
  have s1 : (bsl3_1).view.set = (brect 1).set := by
    show ((View.whole cc2_scratch4).slice _).set = _
    rw [View.set_slice_whole]; rfl
  have s2 : (bsl3_2).view.set = (brect 2).set := by
    show ((View.whole cc2_scratch4).slice _).set = _
    rw [View.set_slice_whole]; rfl
  have s3 : (bsl3_3).view.set = (brect 3).set := by
    show ((View.whole cc2_scratch4).slice _).set = _
    rw [View.set_slice_whole]; rfl
  rw [s0, s1, s2, s3]
  exact pts_split4 _ _ _ _ _ _ brect_h1 brect_h2 brect_h3 brect_cover
/-- Row buffer 4 held whole is its four slices. -/
theorem buf_split4 (f : Buf (Elt F) ((bufM4).view.loc (thrV d L))) :
    ((bufM4).view.loc (thrV d L) ↦{fullShare} f : sProp 𝕄)
      = iprop(((bsl4_0).view.loc (thrV d L) ↦[(bsl4_0).view.set]{fullShare} f) ∗ ((bsl4_1).view.loc (thrV d L) ↦[(bsl4_1).view.set]{fullShare} f) ∗ ((bsl4_2).view.loc (thrV d L) ↦[(bsl4_2).view.set]{fullShare} f) ∗ ((bsl4_3).view.loc (thrV d L) ↦[(bsl4_3).view.set]{fullShare} f)) := by
  have s0 : (bsl4_0).view.set = (brect 0).set := by
    show ((View.whole cc2_scratch5).slice _).set = _
    rw [View.set_slice_whole]; rfl
  have s1 : (bsl4_1).view.set = (brect 1).set := by
    show ((View.whole cc2_scratch5).slice _).set = _
    rw [View.set_slice_whole]; rfl
  have s2 : (bsl4_2).view.set = (brect 2).set := by
    show ((View.whole cc2_scratch5).slice _).set = _
    rw [View.set_slice_whole]; rfl
  have s3 : (bsl4_3).view.set = (brect 3).set := by
    show ((View.whole cc2_scratch5).slice _).set = _
    rw [View.set_slice_whole]; rfl
  rw [s0, s1, s2, s3]
  exact pts_split4 _ _ _ _ _ _ brect_h1 brect_h2 brect_h3 brect_cover
/-- Row buffer 5 held whole is its four slices. -/
theorem buf_split5 (f : Buf (Elt F) ((bufM5).view.loc (thrV d L))) :
    ((bufM5).view.loc (thrV d L) ↦{fullShare} f : sProp 𝕄)
      = iprop(((bsl5_0).view.loc (thrV d L) ↦[(bsl5_0).view.set]{fullShare} f) ∗ ((bsl5_1).view.loc (thrV d L) ↦[(bsl5_1).view.set]{fullShare} f) ∗ ((bsl5_2).view.loc (thrV d L) ↦[(bsl5_2).view.set]{fullShare} f) ∗ ((bsl5_3).view.loc (thrV d L) ↦[(bsl5_3).view.set]{fullShare} f)) := by
  have s0 : (bsl5_0).view.set = (brect 0).set := by
    show ((View.whole cc2_scratch6).slice _).set = _
    rw [View.set_slice_whole]; rfl
  have s1 : (bsl5_1).view.set = (brect 1).set := by
    show ((View.whole cc2_scratch6).slice _).set = _
    rw [View.set_slice_whole]; rfl
  have s2 : (bsl5_2).view.set = (brect 2).set := by
    show ((View.whole cc2_scratch6).slice _).set = _
    rw [View.set_slice_whole]; rfl
  have s3 : (bsl5_3).view.set = (brect 3).set := by
    show ((View.whole cc2_scratch6).slice _).set = _
    rw [View.set_slice_whole]; rfl
  rw [s0, s1, s2, s3]
  exact pts_split4 _ _ _ _ _ _ brect_h1 brect_h2 brect_h3 brect_cover
/-- Row buffer 6 held whole is its four slices. -/
theorem buf_split6 (f : Buf (Elt F) ((bufM6).view.loc (thrV d L))) :
    ((bufM6).view.loc (thrV d L) ↦{fullShare} f : sProp 𝕄)
      = iprop(((bsl6_0).view.loc (thrV d L) ↦[(bsl6_0).view.set]{fullShare} f) ∗ ((bsl6_1).view.loc (thrV d L) ↦[(bsl6_1).view.set]{fullShare} f) ∗ ((bsl6_2).view.loc (thrV d L) ↦[(bsl6_2).view.set]{fullShare} f) ∗ ((bsl6_3).view.loc (thrV d L) ↦[(bsl6_3).view.set]{fullShare} f)) := by
  have s0 : (bsl6_0).view.set = (brect 0).set := by
    show ((View.whole cc2_scratch7).slice _).set = _
    rw [View.set_slice_whole]; rfl
  have s1 : (bsl6_1).view.set = (brect 1).set := by
    show ((View.whole cc2_scratch7).slice _).set = _
    rw [View.set_slice_whole]; rfl
  have s2 : (bsl6_2).view.set = (brect 2).set := by
    show ((View.whole cc2_scratch7).slice _).set = _
    rw [View.set_slice_whole]; rfl
  have s3 : (bsl6_3).view.set = (brect 3).set := by
    show ((View.whole cc2_scratch7).slice _).set = _
    rw [View.set_slice_whole]; rfl
  rw [s0, s1, s2, s3]
  exact pts_split4 _ _ _ _ _ _ brect_h1 brect_h2 brect_h3 brect_cover
/-- Row buffer 7 held whole is its four slices. -/
theorem buf_split7 (f : Buf (Elt F) ((bufM7).view.loc (thrV d L))) :
    ((bufM7).view.loc (thrV d L) ↦{fullShare} f : sProp 𝕄)
      = iprop(((bsl7_0).view.loc (thrV d L) ↦[(bsl7_0).view.set]{fullShare} f) ∗ ((bsl7_1).view.loc (thrV d L) ↦[(bsl7_1).view.set]{fullShare} f) ∗ ((bsl7_2).view.loc (thrV d L) ↦[(bsl7_2).view.set]{fullShare} f) ∗ ((bsl7_3).view.loc (thrV d L) ↦[(bsl7_3).view.set]{fullShare} f)) := by
  have s0 : (bsl7_0).view.set = (brect 0).set := by
    show ((View.whole cc2_scratch8).slice _).set = _
    rw [View.set_slice_whole]; rfl
  have s1 : (bsl7_1).view.set = (brect 1).set := by
    show ((View.whole cc2_scratch8).slice _).set = _
    rw [View.set_slice_whole]; rfl
  have s2 : (bsl7_2).view.set = (brect 2).set := by
    show ((View.whole cc2_scratch8).slice _).set = _
    rw [View.set_slice_whole]; rfl
  have s3 : (bsl7_3).view.set = (brect 3).set := by
    show ((View.whole cc2_scratch8).slice _).set = _
    rw [View.set_slice_whole]; rfl
  rw [s0, s1, s2, s3]
  exact pts_split4 _ _ _ _ _ _ brect_h1 brect_h2 brect_h3 brect_cover

end Slices

section Batches

variable [FloatOps F]

variable (d : Dev nD) (L : grid2.Coords)

theorem mem_ins {W W' : Waits sig (HIx 1)} {p₀ : SemLoc sig × HIx 1} (h : ∀ p ∈ W', p ∈ W ∨ p.2 = none) (h0 : p₀.2 = none) :
    ∀ p ∈ insert p₀ W', p ∈ W ∨ p.2 = none := by
  intro p hp
  rcases Finset.mem_insert.mp hp with rfl | hp
  · exact .inr h0
  · exact h p hp

/-- Every word of a list row is in range when every word of the list scratch is. -/
theorem lst_inb (sc0 : Buf (Elt F) ((lstV).view.loc (thrV d L))) (h : ∀ i, (sc0 i).toNat < 1960)
    (off : Fin 2 → ℕ) (inb : ∀ a, off a + S1x80.size a ≤ S128x80.size a) :
    ∀ x, ((lstG off inb).view.read (Elt F) sc0 x).toNat < 1960 := fun x => by
  rw [show (lstG off inb).view.read (Elt F) sc0 x = sc0 ((lstG off inb).view.emb x) from (View.read_apply _ _).trans (cast_eq _ _)]
  exact h _

/-- Slice `e` of row buffer 0, and batch element `e` of its chunk's rows of the output, uniformly in `e`. -/
abbrev bslE0 (e : Fin 4) : Memref sig .scVector .vmem S20x128 .f32 := (bufM0).slice (brect e) (fun _ => rfl)
abbrev oRowE0 (L : grid2.Coords) (k : Fin k2_t1_loop.trips) (e : Fin 4) : Memref sig .scVector .hbm S20x128 .f32 :=
  oRowG (k2_off11 L k 0#32 (BitVec.ofNat 32 e.val)) (k2_off11_inb L k 0 e)
/-- The deliveries of the four copies out of row buffer 0 at trip `k`: the output rows written with the slice, the slice back. -/
abbrev dlv0 (k : Fin k2_t1_loop.trips) (o : Buf (Elt F) (v7Loc d)) (gv : FVec F S80x128 .f32) (e : Fin 4) : sProp 𝕄 :=
  iprop(((oRowE0 L k e).view.loc (thrV d L) ↦[(oRowE0 L k e).view.set]{fullShare}
          (oRowE0 L k e).view.writes (Elt F) o [⟨Rect.whole S20x128, ReadAs.same.apply ((bslE0 e).view.read (Elt F) gv)⟩])
      ∗ ((bslE0 e).view.loc (thrV d L) ↦[(bslE0 e).view.set]{fullShare} gv))
abbrev bat0 (k : Fin k2_t1_loop.trips) (o : Buf (Elt F) (v7Loc d)) (gv : FVec F S80x128 .f32) (j u : ℕ) : sProp 𝕄 :=
  Transfers.Batch countersEmb (thrV d L) (.dma cc2_scratch17.sem) default 81920 (dlv0 d L k o gv) j u
/-- Slice `e` of row buffer 1, and batch element `e` of its chunk's rows of the output, uniformly in `e`. -/
abbrev bslE1 (e : Fin 4) : Memref sig .scVector .vmem S20x128 .f32 := (bufM1).slice (brect e) (fun _ => rfl)
abbrev oRowE1 (L : grid2.Coords) (k : Fin k2_t1_loop.trips) (e : Fin 4) : Memref sig .scVector .hbm S20x128 .f32 :=
  oRowG (k2_off11 L k 1#32 (BitVec.ofNat 32 e.val)) (k2_off11_inb L k 1 e)
/-- The deliveries of the four copies out of row buffer 1 at trip `k`: the output rows written with the slice, the slice back. -/
abbrev dlv1 (k : Fin k2_t1_loop.trips) (o : Buf (Elt F) (v7Loc d)) (gv : FVec F S80x128 .f32) (e : Fin 4) : sProp 𝕄 :=
  iprop(((oRowE1 L k e).view.loc (thrV d L) ↦[(oRowE1 L k e).view.set]{fullShare}
          (oRowE1 L k e).view.writes (Elt F) o [⟨Rect.whole S20x128, ReadAs.same.apply ((bslE1 e).view.read (Elt F) gv)⟩])
      ∗ ((bslE1 e).view.loc (thrV d L) ↦[(bslE1 e).view.set]{fullShare} gv))
abbrev bat1 (k : Fin k2_t1_loop.trips) (o : Buf (Elt F) (v7Loc d)) (gv : FVec F S80x128 .f32) (j u : ℕ) : sProp 𝕄 :=
  Transfers.Batch countersEmb (thrV d L) (.dma cc2_scratch18.sem) default 81920 (dlv1 d L k o gv) j u
/-- Slice `e` of row buffer 2, and batch element `e` of its chunk's rows of the output, uniformly in `e`. -/
abbrev bslE2 (e : Fin 4) : Memref sig .scVector .vmem S20x128 .f32 := (bufM2).slice (brect e) (fun _ => rfl)
abbrev oRowE2 (L : grid2.Coords) (k : Fin k2_t1_loop.trips) (e : Fin 4) : Memref sig .scVector .hbm S20x128 .f32 :=
  oRowG (k2_off11 L k 2#32 (BitVec.ofNat 32 e.val)) (k2_off11_inb L k 2 e)
/-- The deliveries of the four copies out of row buffer 2 at trip `k`: the output rows written with the slice, the slice back. -/
abbrev dlv2 (k : Fin k2_t1_loop.trips) (o : Buf (Elt F) (v7Loc d)) (gv : FVec F S80x128 .f32) (e : Fin 4) : sProp 𝕄 :=
  iprop(((oRowE2 L k e).view.loc (thrV d L) ↦[(oRowE2 L k e).view.set]{fullShare}
          (oRowE2 L k e).view.writes (Elt F) o [⟨Rect.whole S20x128, ReadAs.same.apply ((bslE2 e).view.read (Elt F) gv)⟩])
      ∗ ((bslE2 e).view.loc (thrV d L) ↦[(bslE2 e).view.set]{fullShare} gv))
abbrev bat2 (k : Fin k2_t1_loop.trips) (o : Buf (Elt F) (v7Loc d)) (gv : FVec F S80x128 .f32) (j u : ℕ) : sProp 𝕄 :=
  Transfers.Batch countersEmb (thrV d L) (.dma cc2_scratch19.sem) default 81920 (dlv2 d L k o gv) j u
/-- Slice `e` of row buffer 3, and batch element `e` of its chunk's rows of the output, uniformly in `e`. -/
abbrev bslE3 (e : Fin 4) : Memref sig .scVector .vmem S20x128 .f32 := (bufM3).slice (brect e) (fun _ => rfl)
abbrev oRowE3 (L : grid2.Coords) (k : Fin k2_t1_loop.trips) (e : Fin 4) : Memref sig .scVector .hbm S20x128 .f32 :=
  oRowG (k2_off11 L k 3#32 (BitVec.ofNat 32 e.val)) (k2_off11_inb L k 3 e)
/-- The deliveries of the four copies out of row buffer 3 at trip `k`: the output rows written with the slice, the slice back. -/
abbrev dlv3 (k : Fin k2_t1_loop.trips) (o : Buf (Elt F) (v7Loc d)) (gv : FVec F S80x128 .f32) (e : Fin 4) : sProp 𝕄 :=
  iprop(((oRowE3 L k e).view.loc (thrV d L) ↦[(oRowE3 L k e).view.set]{fullShare}
          (oRowE3 L k e).view.writes (Elt F) o [⟨Rect.whole S20x128, ReadAs.same.apply ((bslE3 e).view.read (Elt F) gv)⟩])
      ∗ ((bslE3 e).view.loc (thrV d L) ↦[(bslE3 e).view.set]{fullShare} gv))
abbrev bat3 (k : Fin k2_t1_loop.trips) (o : Buf (Elt F) (v7Loc d)) (gv : FVec F S80x128 .f32) (j u : ℕ) : sProp 𝕄 :=
  Transfers.Batch countersEmb (thrV d L) (.dma cc2_scratch20.sem) default 81920 (dlv3 d L k o gv) j u
/-- Slice `e` of row buffer 4, and batch element `e` of its chunk's rows of the output, uniformly in `e`. -/
abbrev bslE4 (e : Fin 4) : Memref sig .scVector .vmem S20x128 .f32 := (bufM4).slice (brect e) (fun _ => rfl)
abbrev oRowE4 (L : grid2.Coords) (k : Fin k2_t1_loop.trips) (e : Fin 4) : Memref sig .scVector .hbm S20x128 .f32 :=
  oRowG (k2_off11 L k 4#32 (BitVec.ofNat 32 e.val)) (k2_off11_inb L k 4 e)
/-- The deliveries of the four copies out of row buffer 4 at trip `k`: the output rows written with the slice, the slice back. -/
abbrev dlv4 (k : Fin k2_t1_loop.trips) (o : Buf (Elt F) (v7Loc d)) (gv : FVec F S80x128 .f32) (e : Fin 4) : sProp 𝕄 :=
  iprop(((oRowE4 L k e).view.loc (thrV d L) ↦[(oRowE4 L k e).view.set]{fullShare}
          (oRowE4 L k e).view.writes (Elt F) o [⟨Rect.whole S20x128, ReadAs.same.apply ((bslE4 e).view.read (Elt F) gv)⟩])
      ∗ ((bslE4 e).view.loc (thrV d L) ↦[(bslE4 e).view.set]{fullShare} gv))
abbrev bat4 (k : Fin k2_t1_loop.trips) (o : Buf (Elt F) (v7Loc d)) (gv : FVec F S80x128 .f32) (j u : ℕ) : sProp 𝕄 :=
  Transfers.Batch countersEmb (thrV d L) (.dma cc2_scratch21.sem) default 81920 (dlv4 d L k o gv) j u
/-- Slice `e` of row buffer 5, and batch element `e` of its chunk's rows of the output, uniformly in `e`. -/
abbrev bslE5 (e : Fin 4) : Memref sig .scVector .vmem S20x128 .f32 := (bufM5).slice (brect e) (fun _ => rfl)
abbrev oRowE5 (L : grid2.Coords) (k : Fin k2_t1_loop.trips) (e : Fin 4) : Memref sig .scVector .hbm S20x128 .f32 :=
  oRowG (k2_off11 L k 5#32 (BitVec.ofNat 32 e.val)) (k2_off11_inb L k 5 e)
/-- The deliveries of the four copies out of row buffer 5 at trip `k`: the output rows written with the slice, the slice back. -/
abbrev dlv5 (k : Fin k2_t1_loop.trips) (o : Buf (Elt F) (v7Loc d)) (gv : FVec F S80x128 .f32) (e : Fin 4) : sProp 𝕄 :=
  iprop(((oRowE5 L k e).view.loc (thrV d L) ↦[(oRowE5 L k e).view.set]{fullShare}
          (oRowE5 L k e).view.writes (Elt F) o [⟨Rect.whole S20x128, ReadAs.same.apply ((bslE5 e).view.read (Elt F) gv)⟩])
      ∗ ((bslE5 e).view.loc (thrV d L) ↦[(bslE5 e).view.set]{fullShare} gv))
abbrev bat5 (k : Fin k2_t1_loop.trips) (o : Buf (Elt F) (v7Loc d)) (gv : FVec F S80x128 .f32) (j u : ℕ) : sProp 𝕄 :=
  Transfers.Batch countersEmb (thrV d L) (.dma cc2_scratch22.sem) default 81920 (dlv5 d L k o gv) j u
/-- Slice `e` of row buffer 6, and batch element `e` of its chunk's rows of the output, uniformly in `e`. -/
abbrev bslE6 (e : Fin 4) : Memref sig .scVector .vmem S20x128 .f32 := (bufM6).slice (brect e) (fun _ => rfl)
abbrev oRowE6 (L : grid2.Coords) (k : Fin k2_t1_loop.trips) (e : Fin 4) : Memref sig .scVector .hbm S20x128 .f32 :=
  oRowG (k2_off11 L k 6#32 (BitVec.ofNat 32 e.val)) (k2_off11_inb L k 6 e)
/-- The deliveries of the four copies out of row buffer 6 at trip `k`: the output rows written with the slice, the slice back. -/
abbrev dlv6 (k : Fin k2_t1_loop.trips) (o : Buf (Elt F) (v7Loc d)) (gv : FVec F S80x128 .f32) (e : Fin 4) : sProp 𝕄 :=
  iprop(((oRowE6 L k e).view.loc (thrV d L) ↦[(oRowE6 L k e).view.set]{fullShare}
          (oRowE6 L k e).view.writes (Elt F) o [⟨Rect.whole S20x128, ReadAs.same.apply ((bslE6 e).view.read (Elt F) gv)⟩])
      ∗ ((bslE6 e).view.loc (thrV d L) ↦[(bslE6 e).view.set]{fullShare} gv))
abbrev bat6 (k : Fin k2_t1_loop.trips) (o : Buf (Elt F) (v7Loc d)) (gv : FVec F S80x128 .f32) (j u : ℕ) : sProp 𝕄 :=
  Transfers.Batch countersEmb (thrV d L) (.dma cc2_scratch23.sem) default 81920 (dlv6 d L k o gv) j u
/-- Slice `e` of row buffer 7, and batch element `e` of its chunk's rows of the output, uniformly in `e`. -/
abbrev bslE7 (e : Fin 4) : Memref sig .scVector .vmem S20x128 .f32 := (bufM7).slice (brect e) (fun _ => rfl)
abbrev oRowE7 (L : grid2.Coords) (k : Fin k2_t1_loop.trips) (e : Fin 4) : Memref sig .scVector .hbm S20x128 .f32 :=
  oRowG (k2_off11 L k 7#32 (BitVec.ofNat 32 e.val)) (k2_off11_inb L k 7 e)
/-- The deliveries of the four copies out of row buffer 7 at trip `k`: the output rows written with the slice, the slice back. -/
abbrev dlv7 (k : Fin k2_t1_loop.trips) (o : Buf (Elt F) (v7Loc d)) (gv : FVec F S80x128 .f32) (e : Fin 4) : sProp 𝕄 :=
  iprop(((oRowE7 L k e).view.loc (thrV d L) ↦[(oRowE7 L k e).view.set]{fullShare}
          (oRowE7 L k e).view.writes (Elt F) o [⟨Rect.whole S20x128, ReadAs.same.apply ((bslE7 e).view.read (Elt F) gv)⟩])
      ∗ ((bslE7 e).view.loc (thrV d L) ↦[(bslE7 e).view.set]{fullShare} gv))
abbrev bat7 (k : Fin k2_t1_loop.trips) (o : Buf (Elt F) (v7Loc d)) (gv : FVec F S80x128 .f32) (j u : ℕ) : sProp 𝕄 :=
  Transfers.Batch countersEmb (thrV d L) (.dma cc2_scratch24.sem) default 81920 (dlv7 d L k o gv) j u

end Batches

section Offs

theorem widL_eq (L : grid2.Coords) : (widL L).val = 2 * (L 1).val + (L 0).val := by
  show (L 1).val * 2 + (L 0).val = _; omega

/-- The rows of the output the copies of buffer `r₁`, batch element `r₂`, at trip `k` name: the tile's row `32 k + 4 r₁ + r₂`. -/
theorem off11_n (L : grid2.Coords) (k : Fin k2_t1_loop.trips) (r₁ : Fin 8) (r₂ : Fin 4) (a : ℕ) (ha : a = 32 * k.val + (4 * r₁.val + r₂.val)) :
    k2_off11 L k (BitVec.ofNat 32 r₁.val) (BitVec.ofNat 32 r₂.val) = ![512 * (widL L).val + a, 0, 0] := by
  subst ha
  rw [k2_off11_eq, widL_eq]
  refine congrArg (fun a => (![a, 0, 0] : Fin 3 → ℕ)) ?_
  omega

end Offs

section Res2

variable (d : Dev nD) (L : grid2.Coords)

/-- `take_oRow` with the next row number given. -/
theorem take_oRow' (w : Fin 32) (a a' : ℕ) (ha : a < 512) (ha' : a' = a + 1) (off : Fin 3 → ℕ) (inb : ∀ a, off a + S1x20x128.size a ≤ S16384x20x128.size a)
    (hoff : off = ![512 * w.val + a, 0, 0]) (f : Buf (Elt F) (v7Loc d)) :
    (v7Loc d ↦[rowsFrom w a]{fullShare} f : sProp 𝕄)
      ⊢ iprop(((oRowG off inb).view.loc (thrV d L) ↦[(oRowG off inb).view.set]{fullShare} f) ∗ v7Loc d ↦[rowsFrom w a']{fullShare} f) := by
  subst ha'; exact (take_oRow d L w a ha off inb hoff f).1

end Res2

section Land

variable (d : Dev nD) (L : grid2.Coords)

theorem writes_whole0 (f : Buf (Elt F) ((bufM0).view.loc (thrV d L))) (pay : (Rect.whole S80x128).shape.Idx → Elt F .f32) :
    (bufM0).view.writes (Elt F) f [⟨Rect.whole S80x128, pay⟩] = pay := by
  funext i
  show ((View.whole cc2_scratch1).slice (Rect.whole S80x128)).write (Elt F) f pay Finset.univ i = pay i
  have hi : ((View.whole cc2_scratch1).slice (Rect.whole S80x128)).emb i = i := by
    show (View.whole cc2_scratch1).emb ((Rect.whole S80x128).emb i) = i
    rw [Rect.emb_whole_apply]; rfl
  conv_lhs => rw [← hi]
  exact (View.write_emb_of_mem _ _ (Finset.mem_univ _)).trans (cast_eq _ _)

/-- Row buffer 0 after a gather landed in it whole: its four slices at the gathered rows. -/
theorem buf_land0 (f : Buf (Elt F) ((bufM0).view.loc (thrV d L))) (pay : (Rect.whole S80x128).shape.Idx → Elt F .f32) :
    ((bufM0).view.loc (thrV d L) ↦{fullShare} (bufM0).view.writes (Elt F) f [⟨Rect.whole S80x128, pay⟩] : sProp 𝕄)
      ⊢ iprop(∃ g : FVec F S80x128 .f32, ⌜g = pay⌝ ∗ ((bsl0_0).view.loc (thrV d L) ↦[(bsl0_0).view.set]{fullShare} g) ∗ ((bsl0_1).view.loc (thrV d L) ↦[(bsl0_1).view.set]{fullShare} g) ∗ ((bsl0_2).view.loc (thrV d L) ↦[(bsl0_2).view.set]{fullShare} g) ∗ ((bsl0_3).view.loc (thrV d L) ↦[(bsl0_3).view.set]{fullShare} g)) := by
  rw [writes_whole0, buf_split0]
  iintro H
  iexists pay
  isplitr; · ipureintro; rfl
  iexact H
theorem writes_whole1 (f : Buf (Elt F) ((bufM1).view.loc (thrV d L))) (pay : (Rect.whole S80x128).shape.Idx → Elt F .f32) :
    (bufM1).view.writes (Elt F) f [⟨Rect.whole S80x128, pay⟩] = pay := by
  funext i
  show ((View.whole cc2_scratch2).slice (Rect.whole S80x128)).write (Elt F) f pay Finset.univ i = pay i
  have hi : ((View.whole cc2_scratch2).slice (Rect.whole S80x128)).emb i = i := by
    show (View.whole cc2_scratch2).emb ((Rect.whole S80x128).emb i) = i
    rw [Rect.emb_whole_apply]; rfl
  conv_lhs => rw [← hi]
  exact (View.write_emb_of_mem _ _ (Finset.mem_univ _)).trans (cast_eq _ _)

/-- Row buffer 1 after a gather landed in it whole: its four slices at the gathered rows. -/
theorem buf_land1 (f : Buf (Elt F) ((bufM1).view.loc (thrV d L))) (pay : (Rect.whole S80x128).shape.Idx → Elt F .f32) :
    ((bufM1).view.loc (thrV d L) ↦{fullShare} (bufM1).view.writes (Elt F) f [⟨Rect.whole S80x128, pay⟩] : sProp 𝕄)
      ⊢ iprop(∃ g : FVec F S80x128 .f32, ⌜g = pay⌝ ∗ ((bsl1_0).view.loc (thrV d L) ↦[(bsl1_0).view.set]{fullShare} g) ∗ ((bsl1_1).view.loc (thrV d L) ↦[(bsl1_1).view.set]{fullShare} g) ∗ ((bsl1_2).view.loc (thrV d L) ↦[(bsl1_2).view.set]{fullShare} g) ∗ ((bsl1_3).view.loc (thrV d L) ↦[(bsl1_3).view.set]{fullShare} g)) := by
  rw [writes_whole1, buf_split1]
  iintro H
  iexists pay
  isplitr; · ipureintro; rfl
  iexact H
theorem writes_whole2 (f : Buf (Elt F) ((bufM2).view.loc (thrV d L))) (pay : (Rect.whole S80x128).shape.Idx → Elt F .f32) :
    (bufM2).view.writes (Elt F) f [⟨Rect.whole S80x128, pay⟩] = pay := by
  funext i
  show ((View.whole cc2_scratch3).slice (Rect.whole S80x128)).write (Elt F) f pay Finset.univ i = pay i
  have hi : ((View.whole cc2_scratch3).slice (Rect.whole S80x128)).emb i = i := by
    show (View.whole cc2_scratch3).emb ((Rect.whole S80x128).emb i) = i
    rw [Rect.emb_whole_apply]; rfl
  conv_lhs => rw [← hi]
  exact (View.write_emb_of_mem _ _ (Finset.mem_univ _)).trans (cast_eq _ _)

/-- Row buffer 2 after a gather landed in it whole: its four slices at the gathered rows. -/
theorem buf_land2 (f : Buf (Elt F) ((bufM2).view.loc (thrV d L))) (pay : (Rect.whole S80x128).shape.Idx → Elt F .f32) :
    ((bufM2).view.loc (thrV d L) ↦{fullShare} (bufM2).view.writes (Elt F) f [⟨Rect.whole S80x128, pay⟩] : sProp 𝕄)
      ⊢ iprop(∃ g : FVec F S80x128 .f32, ⌜g = pay⌝ ∗ ((bsl2_0).view.loc (thrV d L) ↦[(bsl2_0).view.set]{fullShare} g) ∗ ((bsl2_1).view.loc (thrV d L) ↦[(bsl2_1).view.set]{fullShare} g) ∗ ((bsl2_2).view.loc (thrV d L) ↦[(bsl2_2).view.set]{fullShare} g) ∗ ((bsl2_3).view.loc (thrV d L) ↦[(bsl2_3).view.set]{fullShare} g)) := by
  rw [writes_whole2, buf_split2]
  iintro H
  iexists pay
  isplitr; · ipureintro; rfl
  iexact H
theorem writes_whole3 (f : Buf (Elt F) ((bufM3).view.loc (thrV d L))) (pay : (Rect.whole S80x128).shape.Idx → Elt F .f32) :
    (bufM3).view.writes (Elt F) f [⟨Rect.whole S80x128, pay⟩] = pay := by
  funext i
  show ((View.whole cc2_scratch4).slice (Rect.whole S80x128)).write (Elt F) f pay Finset.univ i = pay i
  have hi : ((View.whole cc2_scratch4).slice (Rect.whole S80x128)).emb i = i := by
    show (View.whole cc2_scratch4).emb ((Rect.whole S80x128).emb i) = i
    rw [Rect.emb_whole_apply]; rfl
  conv_lhs => rw [← hi]
  exact (View.write_emb_of_mem _ _ (Finset.mem_univ _)).trans (cast_eq _ _)

/-- Row buffer 3 after a gather landed in it whole: its four slices at the gathered rows. -/
theorem buf_land3 (f : Buf (Elt F) ((bufM3).view.loc (thrV d L))) (pay : (Rect.whole S80x128).shape.Idx → Elt F .f32) :
    ((bufM3).view.loc (thrV d L) ↦{fullShare} (bufM3).view.writes (Elt F) f [⟨Rect.whole S80x128, pay⟩] : sProp 𝕄)
      ⊢ iprop(∃ g : FVec F S80x128 .f32, ⌜g = pay⌝ ∗ ((bsl3_0).view.loc (thrV d L) ↦[(bsl3_0).view.set]{fullShare} g) ∗ ((bsl3_1).view.loc (thrV d L) ↦[(bsl3_1).view.set]{fullShare} g) ∗ ((bsl3_2).view.loc (thrV d L) ↦[(bsl3_2).view.set]{fullShare} g) ∗ ((bsl3_3).view.loc (thrV d L) ↦[(bsl3_3).view.set]{fullShare} g)) := by
  rw [writes_whole3, buf_split3]
  iintro H
  iexists pay
  isplitr; · ipureintro; rfl
  iexact H
theorem writes_whole4 (f : Buf (Elt F) ((bufM4).view.loc (thrV d L))) (pay : (Rect.whole S80x128).shape.Idx → Elt F .f32) :
    (bufM4).view.writes (Elt F) f [⟨Rect.whole S80x128, pay⟩] = pay := by
  funext i
  show ((View.whole cc2_scratch5).slice (Rect.whole S80x128)).write (Elt F) f pay Finset.univ i = pay i
  have hi : ((View.whole cc2_scratch5).slice (Rect.whole S80x128)).emb i = i := by
    show (View.whole cc2_scratch5).emb ((Rect.whole S80x128).emb i) = i
    rw [Rect.emb_whole_apply]; rfl
  conv_lhs => rw [← hi]
  exact (View.write_emb_of_mem _ _ (Finset.mem_univ _)).trans (cast_eq _ _)

/-- Row buffer 4 after a gather landed in it whole: its four slices at the gathered rows. -/
theorem buf_land4 (f : Buf (Elt F) ((bufM4).view.loc (thrV d L))) (pay : (Rect.whole S80x128).shape.Idx → Elt F .f32) :
    ((bufM4).view.loc (thrV d L) ↦{fullShare} (bufM4).view.writes (Elt F) f [⟨Rect.whole S80x128, pay⟩] : sProp 𝕄)
      ⊢ iprop(∃ g : FVec F S80x128 .f32, ⌜g = pay⌝ ∗ ((bsl4_0).view.loc (thrV d L) ↦[(bsl4_0).view.set]{fullShare} g) ∗ ((bsl4_1).view.loc (thrV d L) ↦[(bsl4_1).view.set]{fullShare} g) ∗ ((bsl4_2).view.loc (thrV d L) ↦[(bsl4_2).view.set]{fullShare} g) ∗ ((bsl4_3).view.loc (thrV d L) ↦[(bsl4_3).view.set]{fullShare} g)) := by
  rw [writes_whole4, buf_split4]
  iintro H
  iexists pay
  isplitr; · ipureintro; rfl
  iexact H
theorem writes_whole5 (f : Buf (Elt F) ((bufM5).view.loc (thrV d L))) (pay : (Rect.whole S80x128).shape.Idx → Elt F .f32) :
    (bufM5).view.writes (Elt F) f [⟨Rect.whole S80x128, pay⟩] = pay := by
  funext i
  show ((View.whole cc2_scratch6).slice (Rect.whole S80x128)).write (Elt F) f pay Finset.univ i = pay i
  have hi : ((View.whole cc2_scratch6).slice (Rect.whole S80x128)).emb i = i := by
    show (View.whole cc2_scratch6).emb ((Rect.whole S80x128).emb i) = i
    rw [Rect.emb_whole_apply]; rfl
  conv_lhs => rw [← hi]
  exact (View.write_emb_of_mem _ _ (Finset.mem_univ _)).trans (cast_eq _ _)

/-- Row buffer 5 after a gather landed in it whole: its four slices at the gathered rows. -/
theorem buf_land5 (f : Buf (Elt F) ((bufM5).view.loc (thrV d L))) (pay : (Rect.whole S80x128).shape.Idx → Elt F .f32) :
    ((bufM5).view.loc (thrV d L) ↦{fullShare} (bufM5).view.writes (Elt F) f [⟨Rect.whole S80x128, pay⟩] : sProp 𝕄)
      ⊢ iprop(∃ g : FVec F S80x128 .f32, ⌜g = pay⌝ ∗ ((bsl5_0).view.loc (thrV d L) ↦[(bsl5_0).view.set]{fullShare} g) ∗ ((bsl5_1).view.loc (thrV d L) ↦[(bsl5_1).view.set]{fullShare} g) ∗ ((bsl5_2).view.loc (thrV d L) ↦[(bsl5_2).view.set]{fullShare} g) ∗ ((bsl5_3).view.loc (thrV d L) ↦[(bsl5_3).view.set]{fullShare} g)) := by
  rw [writes_whole5, buf_split5]
  iintro H
  iexists pay
  isplitr; · ipureintro; rfl
  iexact H
theorem writes_whole6 (f : Buf (Elt F) ((bufM6).view.loc (thrV d L))) (pay : (Rect.whole S80x128).shape.Idx → Elt F .f32) :
    (bufM6).view.writes (Elt F) f [⟨Rect.whole S80x128, pay⟩] = pay := by
  funext i
  show ((View.whole cc2_scratch7).slice (Rect.whole S80x128)).write (Elt F) f pay Finset.univ i = pay i
  have hi : ((View.whole cc2_scratch7).slice (Rect.whole S80x128)).emb i = i := by
    show (View.whole cc2_scratch7).emb ((Rect.whole S80x128).emb i) = i
    rw [Rect.emb_whole_apply]; rfl
  conv_lhs => rw [← hi]
  exact (View.write_emb_of_mem _ _ (Finset.mem_univ _)).trans (cast_eq _ _)

/-- Row buffer 6 after a gather landed in it whole: its four slices at the gathered rows. -/
theorem buf_land6 (f : Buf (Elt F) ((bufM6).view.loc (thrV d L))) (pay : (Rect.whole S80x128).shape.Idx → Elt F .f32) :
    ((bufM6).view.loc (thrV d L) ↦{fullShare} (bufM6).view.writes (Elt F) f [⟨Rect.whole S80x128, pay⟩] : sProp 𝕄)
      ⊢ iprop(∃ g : FVec F S80x128 .f32, ⌜g = pay⌝ ∗ ((bsl6_0).view.loc (thrV d L) ↦[(bsl6_0).view.set]{fullShare} g) ∗ ((bsl6_1).view.loc (thrV d L) ↦[(bsl6_1).view.set]{fullShare} g) ∗ ((bsl6_2).view.loc (thrV d L) ↦[(bsl6_2).view.set]{fullShare} g) ∗ ((bsl6_3).view.loc (thrV d L) ↦[(bsl6_3).view.set]{fullShare} g)) := by
  rw [writes_whole6, buf_split6]
  iintro H
  iexists pay
  isplitr; · ipureintro; rfl
  iexact H
theorem writes_whole7 (f : Buf (Elt F) ((bufM7).view.loc (thrV d L))) (pay : (Rect.whole S80x128).shape.Idx → Elt F .f32) :
    (bufM7).view.writes (Elt F) f [⟨Rect.whole S80x128, pay⟩] = pay := by
  funext i
  show ((View.whole cc2_scratch8).slice (Rect.whole S80x128)).write (Elt F) f pay Finset.univ i = pay i
  have hi : ((View.whole cc2_scratch8).slice (Rect.whole S80x128)).emb i = i := by
    show (View.whole cc2_scratch8).emb ((Rect.whole S80x128).emb i) = i
    rw [Rect.emb_whole_apply]; rfl
  conv_lhs => rw [← hi]
  exact (View.write_emb_of_mem _ _ (Finset.mem_univ _)).trans (cast_eq _ _)

/-- Row buffer 7 after a gather landed in it whole: its four slices at the gathered rows. -/
theorem buf_land7 (f : Buf (Elt F) ((bufM7).view.loc (thrV d L))) (pay : (Rect.whole S80x128).shape.Idx → Elt F .f32) :
    ((bufM7).view.loc (thrV d L) ↦{fullShare} (bufM7).view.writes (Elt F) f [⟨Rect.whole S80x128, pay⟩] : sProp 𝕄)
      ⊢ iprop(∃ g : FVec F S80x128 .f32, ⌜g = pay⌝ ∗ ((bsl7_0).view.loc (thrV d L) ↦[(bsl7_0).view.set]{fullShare} g) ∗ ((bsl7_1).view.loc (thrV d L) ↦[(bsl7_1).view.set]{fullShare} g) ∗ ((bsl7_2).view.loc (thrV d L) ↦[(bsl7_2).view.set]{fullShare} g) ∗ ((bsl7_3).view.loc (thrV d L) ↦[(bsl7_3).view.set]{fullShare} g)) := by
  rw [writes_whole7, buf_split7]
  iintro H
  iexists pay
  isplitr; · ipureintro; rfl
  iexact H

end Land

section DrainProg

/-- The kernel's statements after the loop: the thirty-two waits that drain the last trip's copies. -/
noncomputable def drainProg (i : grid2.Coords) (arg2 : Memref sig .scVector .hbm S1960x128 .f32) (harg2 : arg2.IsWhole) (arg3 : Memref sig .scVector .hbm S32x128x80 .i32) (harg3 : arg3.IsWhole) (arg4 : Memref sig .scVector .hbm S16384x20x128 .f32) (harg4 : arg4.IsWhole) (arg5 : Memref sig .scVector .vmem S128x80 .i32) (harg5 : arg5.IsWhole) (arg6 : Memref sig .scVector .vmem S80x128 .f32) (harg6 : arg6.IsWhole) (arg7 : Memref sig .scVector .vmem S80x128 .f32) (harg7 : arg7.IsWhole) (arg8 : Memref sig .scVector .vmem S80x128 .f32) (harg8 : arg8.IsWhole) (arg9 : Memref sig .scVector .vmem S80x128 .f32) (harg9 : arg9.IsWhole) (arg10 : Memref sig .scVector .vmem S80x128 .f32) (harg10 : arg10.IsWhole) (arg11 : Memref sig .scVector .vmem S80x128 .f32) (harg11 : arg11.IsWhole) (arg12 : Memref sig .scVector .vmem S80x128 .f32) (harg12 : arg12.IsWhole) (arg13 : Memref sig .scVector .vmem S80x128 .f32) (harg13 : arg13.IsWhole) (arg14 : DmaSems sig S_) (arg15 : DmaSems sig S_) (arg16 : DmaSems sig S_) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) (arg25 : DmaSems sig S_) (arg26 : DmaSems sig S_) (arg27 : DmaSems sig S_) (arg28 : DmaSems sig S_) (arg29 : DmaSems sig S_) (v260_r0 : DmaSems sig S_) (v2 : BitVec 32) :
    Prog (TpuEff nD τ sig (Elt F) Λ₀ (.scVector ((i 0).castLE hcore2) ((i 1).castLE hsub2))) PUnit := do
  k2_part24 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 arg23 arg24 arg25 arg26 arg27 arg28 arg29 v260_r0 v2 -- statements 61–120 of 641: their part
  k2_part25 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 arg23 arg24 arg25 arg26 arg27 arg28 arg29 v260_r0 v2 -- statements 121–180 of 641: their part
  k2_part26 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 arg23 arg24 arg25 arg26 arg27 arg28 arg29 v260_r0 v2 -- statements 181–240 of 641: their part
  k2_part27 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 arg23 arg24 arg25 arg26 arg27 arg28 arg29 v260_r0 v2 -- statements 241–300 of 641: their part
  k2_part28 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 arg23 arg24 arg25 arg26 arg27 arg28 arg29 v260_r0 v2 -- statements 301–360 of 641: their part
  k2_part29 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 arg23 arg24 arg25 arg26 arg27 arg28 arg29 v260_r0 v2 -- statements 361–420 of 641: their part
  k2_part30 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 arg23 arg24 arg25 arg26 arg27 arg28 arg29 v260_r0 v2 -- statements 421–480 of 641: their part
  k2_part31 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 arg23 arg24 arg25 arg26 arg27 arg28 arg29 v260_r0 v2 -- statements 481–540 of 641: their part
  k2_part32 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 arg23 arg24 arg25 arg26 arg27 arg28 arg29 v260_r0 v2 -- statements 541–600 of 641: their part
  -- %243 = tpu.memref_slice %arg4[%231, %c0_i32_296, %c0_i32_297] : memref<16384x20x128xf32, #tpu.memory_space<hbm>> -> memref<1x20x128xf32, #tpu.memory_space<hbm>>  @ kernel:72  — not in the skeleton
  -- %244 = tpu.memref_squeeze %243 : memref<1x20x128xf32, #tpu.memory_space<hbm>> -> memref<20x128xf32, #tpu.memory_space<hbm>>  @ kernel:72  — not in the skeleton
  let v245 : Memref sig .scVector .hbm S1x20x128 .f32 := arg4.slice (Rect.unit (s := S16384x20x128) (k2_off12 i 1#32) S1x20x128.size (k2_off12_inb i 1)) (fun _ => rfl) -- %245 = tpu.memref_slice %arg4[%231, %c0_i32_298, %c0_i32_299] : memref<16384x20x128xf32, #tpu.memory_space<hbm>> -> memref<1x20x128xf32, #tpu.memory_space<hbm>>  @ kernel:72
  let v246 : Memref sig .scVector .hbm S20x128 .f32 := v245.squeeze S20x128 squeezes_S1x20x128_S20x128 -- %246 = tpu.memref_squeeze %245 : memref<1x20x128xf32, #tpu.memory_space<hbm>> -> memref<20x128xf32, #tpu.memory_space<hbm>>  @ kernel:72
  let v247 : Memref sig .scVector .vmem S20x128 .f32 := arg13.slice (Rect.unit (s := S80x128) ![20, 0] S20x128.size inb_S80x128_S20x128_20_0) (fun _ => rfl) -- %247 = tpu.memref_slice %arg13[%c20_i32_300, %c0_i32_301] : memref<80x128xf32, #tpu.memory_space<vmem>> -> memref<20x128xf32, #tpu.memory_space<vmem>>  @ kernel:72
  Prog.lift (.waitDma2 arg29.sem v247 v246 (View.wordExact_bits rfl) ((View.wordExact_bits rfl).reshape _ _)) -- tpu.wait_dma2 semaphore(%arg29 : memref<!tpu.dma_semaphore, #tpu.memory_space<semaphore_mem>>) src(%247 : memref<20x128xf32, #tpu.memory_space<vmem>>) dst(%246 : memref<20x128xf32, #tpu.memory_space<hbm>>)  @ kernel:72
  -- %248 = tpu.memref_slice %arg13[%c40_i32_302, %c0_i32_303] : memref<80x128xf32, #tpu.memory_space<vmem>> -> memref<20x128xf32, #tpu.memory_space<vmem>>  @ kernel:72  — not in the skeleton
  -- %249 = tpu.memref_slice %arg4[%233, %c0_i32_304, %c0_i32_305] : memref<16384x20x128xf32, #tpu.memory_space<hbm>> -> memref<1x20x128xf32, #tpu.memory_space<hbm>>  @ kernel:72  — not in the skeleton
  -- %250 = tpu.memref_squeeze %249 : memref<1x20x128xf32, #tpu.memory_space<hbm>> -> memref<20x128xf32, #tpu.memory_space<hbm>>  @ kernel:72  — not in the skeleton
  let v251 : Memref sig .scVector .hbm S1x20x128 .f32 := arg4.slice (Rect.unit (s := S16384x20x128) (k2_off12 i 2#32) S1x20x128.size (k2_off12_inb i 2)) (fun _ => rfl) -- %251 = tpu.memref_slice %arg4[%233, %c0_i32_306, %c0_i32_307] : memref<16384x20x128xf32, #tpu.memory_space<hbm>> -> memref<1x20x128xf32, #tpu.memory_space<hbm>>  @ kernel:72
  let v252 : Memref sig .scVector .hbm S20x128 .f32 := v251.squeeze S20x128 squeezes_S1x20x128_S20x128 -- %252 = tpu.memref_squeeze %251 : memref<1x20x128xf32, #tpu.memory_space<hbm>> -> memref<20x128xf32, #tpu.memory_space<hbm>>  @ kernel:72
  let v253 : Memref sig .scVector .vmem S20x128 .f32 := arg13.slice (Rect.unit (s := S80x128) ![40, 0] S20x128.size inb_S80x128_S20x128_40_0) (fun _ => rfl) -- %253 = tpu.memref_slice %arg13[%c40_i32_308, %c0_i32_309] : memref<80x128xf32, #tpu.memory_space<vmem>> -> memref<20x128xf32, #tpu.memory_space<vmem>>  @ kernel:72
  Prog.lift (.waitDma2 arg29.sem v253 v252 (View.wordExact_bits rfl) ((View.wordExact_bits rfl).reshape _ _)) -- tpu.wait_dma2 semaphore(%arg29 : memref<!tpu.dma_semaphore, #tpu.memory_space<semaphore_mem>>) src(%253 : memref<20x128xf32, #tpu.memory_space<vmem>>) dst(%252 : memref<20x128xf32, #tpu.memory_space<hbm>>)  @ kernel:72
  -- %254 = tpu.memref_slice %arg13[%c60_i32_310, %c0_i32_311] : memref<80x128xf32, #tpu.memory_space<vmem>> -> memref<20x128xf32, #tpu.memory_space<vmem>>  @ kernel:72  — not in the skeleton
  -- %255 = tpu.memref_slice %arg4[%235, %c0_i32_312, %c0_i32_313] : memref<16384x20x128xf32, #tpu.memory_space<hbm>> -> memref<1x20x128xf32, #tpu.memory_space<hbm>>  @ kernel:72  — not in the skeleton
  -- %256 = tpu.memref_squeeze %255 : memref<1x20x128xf32, #tpu.memory_space<hbm>> -> memref<20x128xf32, #tpu.memory_space<hbm>>  @ kernel:72  — not in the skeleton
  let v257 : Memref sig .scVector .hbm S1x20x128 .f32 := arg4.slice (Rect.unit (s := S16384x20x128) (k2_off12 i 3#32) S1x20x128.size (k2_off12_inb i 3)) (fun _ => rfl) -- %257 = tpu.memref_slice %arg4[%235, %c0_i32_314, %c0_i32_315] : memref<16384x20x128xf32, #tpu.memory_space<hbm>> -> memref<1x20x128xf32, #tpu.memory_space<hbm>>  @ kernel:72
  let v258 : Memref sig .scVector .hbm S20x128 .f32 := v257.squeeze S20x128 squeezes_S1x20x128_S20x128 -- %258 = tpu.memref_squeeze %257 : memref<1x20x128xf32, #tpu.memory_space<hbm>> -> memref<20x128xf32, #tpu.memory_space<hbm>>  @ kernel:72
  let v259 : Memref sig .scVector .vmem S20x128 .f32 := arg13.slice (Rect.unit (s := S80x128) ![60, 0] S20x128.size inb_S80x128_S20x128_60_0) (fun _ => rfl) -- %259 = tpu.memref_slice %arg13[%c60_i32_316, %c0_i32_317] : memref<80x128xf32, #tpu.memory_space<vmem>> -> memref<20x128xf32, #tpu.memory_space<vmem>>  @ kernel:72
  Prog.lift (.waitDma2 arg29.sem v259 v258 (View.wordExact_bits rfl) ((View.wordExact_bits rfl).reshape _ _)) -- tpu.wait_dma2 semaphore(%arg29 : memref<!tpu.dma_semaphore, #tpu.memory_space<semaphore_mem>>) src(%259 : memref<20x128xf32, #tpu.memory_space<vmem>>) dst(%258 : memref<20x128xf32, #tpu.memory_space<hbm>>)  @ kernel:72
  pure ⟨⟩                                                               -- func.return

end DrainProg

/-! ## The loop's invariant -/

section Inv

variable (d : Dev nD) (L : grid2.Coords) (cmb : Buf (Elt F) (v5Loc d)) (ix : Buf (Elt F) (v6Loc d)) (o : Buf (Elt F) (v7Loc d))
  (sc0 : Buf (Elt F) ((lstV).view.loc (thrV d L))) (O : CellTallies nD τ sig (HIx 1))

/-- A natural number as a trip (itself, below sixteen). -/
def fk (n : ℕ) : Fin k2_t1_loop.trips := ⟨n % 16, trips_eq ▸ Nat.mod_lt _ (by decide)⟩

/-- The table's and the list's read tokens, one per gather semaphore, and the gather semaphores at zero: every trip
    finds them so and leaves them so. -/
abbrev toksI : sProp 𝕄 :=
  iprop(((v5V).view.loc (thrV d L) ↦{Transfers.shareTokN (cq (widL L)) 9} cmb)
      ∗ ((v5V).view.loc (thrV d L) ↦{Transfers.shareTokN (cq (widL L)) 10} cmb)
      ∗ ((v5V).view.loc (thrV d L) ↦{Transfers.shareTokN (cq (widL L)) 11} cmb)
      ∗ ((v5V).view.loc (thrV d L) ↦{Transfers.shareTokN (cq (widL L)) 12} cmb)
      ∗ ((v5V).view.loc (thrV d L) ↦{Transfers.shareTokN (cq (widL L)) 13} cmb)
      ∗ ((v5V).view.loc (thrV d L) ↦{Transfers.shareTokN (cq (widL L)) 14} cmb)
      ∗ ((v5V).view.loc (thrV d L) ↦{Transfers.shareTokN (cq (widL L)) 15} cmb)
      ∗ ((v5V).view.loc (thrV d L) ↦{Transfers.shareTokN (cq (widL L)) 16} cmb)
      ∗ ((lstV).view.loc (thrV d L) ↦{Transfers.shareTokN fullShare 9} sc0)
      ∗ ((lstV).view.loc (thrV d L) ↦{Transfers.shareTokN fullShare 10} sc0)
      ∗ ((lstV).view.loc (thrV d L) ↦{Transfers.shareTokN fullShare 11} sc0)
      ∗ ((lstV).view.loc (thrV d L) ↦{Transfers.shareTokN fullShare 12} sc0)
      ∗ ((lstV).view.loc (thrV d L) ↦{Transfers.shareTokN fullShare 13} sc0)
      ∗ ((lstV).view.loc (thrV d L) ↦{Transfers.shareTokN fullShare 14} sc0)
      ∗ ((lstV).view.loc (thrV d L) ↦{Transfers.shareTokN fullShare 15} sc0)
      ∗ ((lstV).view.loc (thrV d L) ↦{Transfers.shareTokN fullShare 16} sc0)
      ∗ semVal (thrV d L, SemLoc.dma cc2_scratch9.sem) 0
      ∗ semVal (thrV d L, SemLoc.dma cc2_scratch10.sem) 0
      ∗ semVal (thrV d L, SemLoc.dma cc2_scratch11.sem) 0
      ∗ semVal (thrV d L, SemLoc.dma cc2_scratch12.sem) 0
      ∗ semVal (thrV d L, SemLoc.dma cc2_scratch13.sem) 0
      ∗ semVal (thrV d L, SemLoc.dma cc2_scratch14.sem) 0
      ∗ semVal (thrV d L, SemLoc.dma cc2_scratch15.sem) 0
      ∗ semVal (thrV d L, SemLoc.dma cc2_scratch16.sem) 0)

/-- The waits recorded so far are the launch's or the kernel's own. -/
abbrev owesI (W : Waits sig (HIx 1)) : sProp 𝕄 :=
  iprop(∃ W', ⌜∀ p ∈ W', p ∈ W ∨ p.2 = none⌝ ∗ owes (thrV d L) O W')

/-- The eight batches of four copies each that trip `k` leaves in flight, chunk `c + b` out of row buffer `b`. -/
abbrev batsI (k : Fin k2_t1_loop.trips) (c : ℕ) : sProp 𝕄 :=
  iprop(bat0 d L k o (gbuf cmb ix (widL L) (c + 0)) 4 0
      ∗ bat1 d L k o (gbuf cmb ix (widL L) (c + 1)) 4 0
      ∗ bat2 d L k o (gbuf cmb ix (widL L) (c + 2)) 4 0
      ∗ bat3 d L k o (gbuf cmb ix (widL L) (c + 3)) 4 0
      ∗ bat4 d L k o (gbuf cmb ix (widL L) (c + 4)) 4 0
      ∗ bat5 d L k o (gbuf cmb ix (widL L) (c + 5)) 4 0
      ∗ bat6 d L k o (gbuf cmb ix (widL L) (c + 6)) 4 0
      ∗ bat7 d L k o (gbuf cmb ix (widL L) (c + 7)) 4 0)

/-- Before the first trip: the row buffers at some contents, the copies' semaphores at zero (kept out of a run's sight). -/
abbrev firstI : sProp 𝕄 :=
  iprop((∃ f, (bufM0).view.loc (thrV d L) ↦{fullShare} f)
      ∗ (∃ f, (bufM1).view.loc (thrV d L) ↦{fullShare} f)
      ∗ (∃ f, (bufM2).view.loc (thrV d L) ↦{fullShare} f)
      ∗ (∃ f, (bufM3).view.loc (thrV d L) ↦{fullShare} f)
      ∗ (∃ f, (bufM4).view.loc (thrV d L) ↦{fullShare} f)
      ∗ (∃ f, (bufM5).view.loc (thrV d L) ↦{fullShare} f)
      ∗ (∃ f, (bufM6).view.loc (thrV d L) ↦{fullShare} f)
      ∗ (∃ f, (bufM7).view.loc (thrV d L) ↦{fullShare} f)
      ∗ hid (semVal (thrV d L, SemLoc.dma cc2_scratch17.sem) 0)
      ∗ hid (semVal (thrV d L, SemLoc.dma cc2_scratch18.sem) 0)
      ∗ hid (semVal (thrV d L, SemLoc.dma cc2_scratch19.sem) 0)
      ∗ hid (semVal (thrV d L, SemLoc.dma cc2_scratch20.sem) 0)
      ∗ hid (semVal (thrV d L, SemLoc.dma cc2_scratch21.sem) 0)
      ∗ hid (semVal (thrV d L, SemLoc.dma cc2_scratch22.sem) 0)
      ∗ hid (semVal (thrV d L, SemLoc.dma cc2_scratch23.sem) 0)
      ∗ hid (semVal (thrV d L, SemLoc.dma cc2_scratch24.sem) 0))

/-- After the last wait: the row buffers at some contents, the copies' semaphores at zero. -/
abbrev lastI : sProp 𝕄 :=
  iprop((∃ f, (bufM0).view.loc (thrV d L) ↦{fullShare} f)
      ∗ (∃ f, (bufM1).view.loc (thrV d L) ↦{fullShare} f)
      ∗ (∃ f, (bufM2).view.loc (thrV d L) ↦{fullShare} f)
      ∗ (∃ f, (bufM3).view.loc (thrV d L) ↦{fullShare} f)
      ∗ (∃ f, (bufM4).view.loc (thrV d L) ↦{fullShare} f)
      ∗ (∃ f, (bufM5).view.loc (thrV d L) ↦{fullShare} f)
      ∗ (∃ f, (bufM6).view.loc (thrV d L) ↦{fullShare} f)
      ∗ (∃ f, (bufM7).view.loc (thrV d L) ↦{fullShare} f)
      ∗ semVal (thrV d L, SemLoc.dma cc2_scratch17.sem) 0
      ∗ semVal (thrV d L, SemLoc.dma cc2_scratch18.sem) 0
      ∗ semVal (thrV d L, SemLoc.dma cc2_scratch19.sem) 0
      ∗ semVal (thrV d L, SemLoc.dma cc2_scratch20.sem) 0
      ∗ semVal (thrV d L, SemLoc.dma cc2_scratch21.sem) 0
      ∗ semVal (thrV d L, SemLoc.dma cc2_scratch22.sem) 0
      ∗ semVal (thrV d L, SemLoc.dma cc2_scratch23.sem) 0
      ∗ semVal (thrV d L, SemLoc.dma cc2_scratch24.sem) 0)

/-- The tile's first `a` rows of the output at the gathered values; its rows from the `a`-th on as launched. -/
abbrev doneI (a : ℕ) : sProp 𝕄 := v7Loc d ↦[rowsTo (widL L) a]{fullShare} gOut cmb ix
abbrev todoI (a : ℕ) : sProp 𝕄 := v7Loc d ↦[rowsFrom (widL L) a]{fullShare} o

/-- Before trip `n`. -/
def tripI (W : Waits sig (HIx 1)) (n : ℕ) (_ : Unit) : sProp 𝕄 :=
  iprop(Transfers.MayWaits (thrV d L) none O ∗ owesI d L O W ∗ toksI d L cmb sc0 ∗ doneI d L cmb ix (32 * (n - 1)) ∗ todoI d L o (32 * n)
    ∗ (if n = 0 then firstI d L else batsI d L cmb ix o (fk (n - 1)) (8 * (n - 1))))

end Inv

end Cert.Proof.Tile

end
-- ==== Proof.TileBodyTrip0.lean ====
import proofs.«206393_g35751307772044_cont_8to1_b_353_20_alg».proof.Proof.TileBodyInv

noncomputable section

namespace Cert.Proof.Tile

open Cert.KernelIdeal Cert.KernelIdeal.Gen
open Cert.Proof.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ

variable (d : Dev nD) (L : grid2.Coords) (cmb : Buf (Elt F) (v5Loc d)) (ix : Buf (Elt F) (v6Loc d)) (o : Buf (Elt F) (v7Loc d))
  (sc0 : Buf (Elt F) ((lstV).view.loc (thrV d L))) (O : CellTallies nD τ sig (HIx 1))

set_option maxHeartbeats 8000000 in
theorem trip_first (v2 : BitVec 32) (k : Fin k2_t1_loop.trips) (hk : k.val = 0)
    (hsc0 : ∀ (r : Fin 128) (x : Fin 80), sc0 (ValueIdx.ix2 r x) = ix (ValueIdx.ix3 (widL L) r x))
    (hscb : ∀ i, (sc0 i).toNat < 1960) (W : Waits sig (HIx 1)) :
    iprop(Transfers.MayWaits (thrV d L) none O ∗ owes (thrV d L) O W ∗ toksI d L cmb sc0 ∗ todoI d L o (32 * k.val) ∗ firstI d L)
      ⊢ (wp frame (wpE (defs₀ (F := F)) 𝒱₀ (thrV d L) none) Set.univ
          (k2_t1_body L v5V (Memref.isWhole_whole _) v6V (Memref.isWhole_whole _) v7V (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) (Memref.whole cc2_scratch5) (Memref.isWhole_whole _)
            (Memref.whole cc2_scratch6) (Memref.isWhole_whole _) (Memref.whole cc2_scratch7) (Memref.isWhole_whole _)
            (Memref.whole cc2_scratch8) (Memref.isWhole_whole _)
            cc2_scratch9 cc2_scratch10 cc2_scratch11 cc2_scratch12 cc2_scratch13 cc2_scratch14 cc2_scratch15 cc2_scratch16
            cc2_scratch17 cc2_scratch18 cc2_scratch19 cc2_scratch20 cc2_scratch21 cc2_scratch22 cc2_scratch23 cc2_scratch24 cc2_scoped0 v2 k ())
          (fun _ => iprop(Transfers.MayWaits (thrV d L) none O ∗ owesI d L O W ∗ toksI d L cmb sc0 ∗ todoI d L o (32 * k.val + 32)
            ∗ batsI d L cmb ix o k (8 * k.val))) : sProp 𝕄) := by
  have hk16 : k.val < 16 := trips_eq ▸ k.isLt
  have hc1 : ¬ k2_cond1 k = 1#1 := fun h => by have := (cond1_iff k).mp h; omega
  have hc2 : ¬ k2_cond2 k = 1#1 := fun h => by have := (cond2_iff k).mp h; omega
  have hc3 : ¬ k2_cond3 k = 1#1 := fun h => by have := (cond3_iff k).mp h; omega
  have hc4 : ¬ k2_cond4 k = 1#1 := fun h => by have := (cond4_iff k).mp h; omega
  have hc5 : ¬ k2_cond5 k = 1#1 := fun h => by have := (cond5_iff k).mp h; omega
  have hc6 : ¬ k2_cond6 k = 1#1 := fun h => by have := (cond6_iff k).mp h; omega
  have hc7 : ¬ k2_cond7 k = 1#1 := fun h => by have := (cond7_iff k).mp h; omega
  have hc8 : ¬ k2_cond8 k = 1#1 := fun h => by have := (cond8_iff k).mp h; omega
  have hin0 : ∀ x, ((lstM0 k).view.read (Elt F) sc0 x).toNat < 1960 := lst_inb d L sc0 hscb _ _
  have hin1 : ∀ x, ((lstM1 k).view.read (Elt F) sc0 x).toNat < 1960 := lst_inb d L sc0 hscb _ _
  have hin2 : ∀ x, ((lstM2 k).view.read (Elt F) sc0 x).toNat < 1960 := lst_inb d L sc0 hscb _ _
  have hin3 : ∀ x, ((lstM3 k).view.read (Elt F) sc0 x).toNat < 1960 := lst_inb d L sc0 hscb _ _
  have hin4 : ∀ x, ((lstM4 k).view.read (Elt F) sc0 x).toNat < 1960 := lst_inb d L sc0 hscb _ _
  have hin5 : ∀ x, ((lstM5 k).view.read (Elt F) sc0 x).toNat < 1960 := lst_inb d L sc0 hscb _ _
  have hin6 : ∀ x, ((lstM6 k).view.read (Elt F) sc0 x).toNat < 1960 := lst_inb d L sc0 hscb _ _
  have hin7 : ∀ x, ((lstM7 k).view.read (Elt F) sc0 x).toNat < 1960 := lst_inb d L sc0 hscb _ _
  iintro ⟨#Hmw, HO, ⟨Hv0, Hv1, Hv2, Hv3, Hv4, Hv5, Hv6, Hv7, Hl0, Hl1, Hl2, Hl3, Hl4, Hl5, Hl6, Hl7, Hg0, Hg1, Hg2, Hg3, Hg4, Hg5, Hg6, Hg7⟩, Ht, ⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, Hs0, Hs1, Hs2, Hs3, Hs4, Hs5, Hs6, Hs7⟩
  ihave Ht := (take_oRow' d L (widL L) (32 * k.val) (32 * k.val + 1) (by omega) (by omega) (k2_off11 L k 0#32 0#32) (k2_off11_inb L k 0 0) (off11_n L k 0 0 _ (by rfl)) o) $$ Ht
  icases Ht with ⟨Ho0_0, Ht⟩
  ihave Ht := (take_oRow' d L (widL L) (32 * k.val + 1) (32 * k.val + 2) (by omega) (by omega) (k2_off11 L k 0#32 1#32) (k2_off11_inb L k 0 1) (off11_n L k 0 1 _ (by rfl)) o) $$ Ht
  icases Ht with ⟨Ho0_1, Ht⟩
  ihave Ht := (take_oRow' d L (widL L) (32 * k.val + 2) (32 * k.val + 3) (by omega) (by omega) (k2_off11 L k 0#32 2#32) (k2_off11_inb L k 0 2) (off11_n L k 0 2 _ (by rfl)) o) $$ Ht
  icases Ht with ⟨Ho0_2, Ht⟩
  ihave Ht := (take_oRow' d L (widL L) (32 * k.val + 3) (32 * k.val + 4) (by omega) (by omega) (k2_off11 L k 0#32 3#32) (k2_off11_inb L k 0 3) (off11_n L k 0 3 _ (by rfl)) o) $$ Ht
  icases Ht with ⟨Ho0_3, Ht⟩
  ihave Ht := (take_oRow' d L (widL L) (32 * k.val + 4) (32 * k.val + 5) (by omega) (by omega) (k2_off11 L k 1#32 0#32) (k2_off11_inb L k 1 0) (off11_n L k 1 0 _ (by rfl)) o) $$ Ht
  icases Ht with ⟨Ho1_0, Ht⟩
  ihave Ht := (take_oRow' d L (widL L) (32 * k.val + 5) (32 * k.val + 6) (by omega) (by omega) (k2_off11 L k 1#32 1#32) (k2_off11_inb L k 1 1) (off11_n L k 1 1 _ (by rfl)) o) $$ Ht
  icases Ht with ⟨Ho1_1, Ht⟩
  ihave Ht := (take_oRow' d L (widL L) (32 * k.val + 6) (32 * k.val + 7) (by omega) (by omega) (k2_off11 L k 1#32 2#32) (k2_off11_inb L k 1 2) (off11_n L k 1 2 _ (by rfl)) o) $$ Ht
  icases Ht with ⟨Ho1_2, Ht⟩
  ihave Ht := (take_oRow' d L (widL L) (32 * k.val + 7) (32 * k.val + 8) (by omega) (by omega) (k2_off11 L k 1#32 3#32) (k2_off11_inb L k 1 3) (off11_n L k 1 3 _ (by rfl)) o) $$ Ht
  icases Ht with ⟨Ho1_3, Ht⟩
  ihave Ht := (take_oRow' d L (widL L) (32 * k.val + 8) (32 * k.val + 9) (by omega) (by omega) (k2_off11 L k 2#32 0#32) (k2_off11_inb L k 2 0) (off11_n L k 2 0 _ (by rfl)) o) $$ Ht
  icases Ht with ⟨Ho2_0, Ht⟩
  ihave Ht := (take_oRow' d L (widL L) (32 * k.val + 9) (32 * k.val + 10) (by omega) (by omega) (k2_off11 L k 2#32 1#32) (k2_off11_inb L k 2 1) (off11_n L k 2 1 _ (by rfl)) o) $$ Ht
  icases Ht with ⟨Ho2_1, Ht⟩
  ihave Ht := (take_oRow' d L (widL L) (32 * k.val + 10) (32 * k.val + 11) (by omega) (by omega) (k2_off11 L k 2#32 2#32) (k2_off11_inb L k 2 2) (off11_n L k 2 2 _ (by rfl)) o) $$ Ht
  icases Ht with ⟨Ho2_2, Ht⟩
  ihave Ht := (take_oRow' d L (widL L) (32 * k.val + 11) (32 * k.val + 12) (by omega) (by omega) (k2_off11 L k 2#32 3#32) (k2_off11_inb L k 2 3) (off11_n L k 2 3 _ (by rfl)) o) $$ Ht
  icases Ht with ⟨Ho2_3, Ht⟩
  ihave Ht := (take_oRow' d L (widL L) (32 * k.val + 12) (32 * k.val + 13) (by omega) (by omega) (k2_off11 L k 3#32 0#32) (k2_off11_inb L k 3 0) (off11_n L k 3 0 _ (by rfl)) o) $$ Ht
  icases Ht with ⟨Ho3_0, Ht⟩
  ihave Ht := (take_oRow' d L (widL L) (32 * k.val + 13) (32 * k.val + 14) (by omega) (by omega) (k2_off11 L k 3#32 1#32) (k2_off11_inb L k 3 1) (off11_n L k 3 1 _ (by rfl)) o) $$ Ht
  icases Ht with ⟨Ho3_1, Ht⟩
  ihave Ht := (take_oRow' d L (widL L) (32 * k.val + 14) (32 * k.val + 15) (by omega) (by omega) (k2_off11 L k 3#32 2#32) (k2_off11_inb L k 3 2) (off11_n L k 3 2 _ (by rfl)) o) $$ Ht
  icases Ht with ⟨Ho3_2, Ht⟩
  ihave Ht := (take_oRow' d L (widL L) (32 * k.val + 15) (32 * k.val + 16) (by omega) (by omega) (k2_off11 L k 3#32 3#32) (k2_off11_inb L k 3 3) (off11_n L k 3 3 _ (by rfl)) o) $$ Ht
  icases Ht with ⟨Ho3_3, Ht⟩
  ihave Ht := (take_oRow' d L (widL L) (32 * k.val + 16) (32 * k.val + 17) (by omega) (by omega) (k2_off11 L k 4#32 0#32) (k2_off11_inb L k 4 0) (off11_n L k 4 0 _ (by rfl)) o) $$ Ht
  icases Ht with ⟨Ho4_0, Ht⟩
  ihave Ht := (take_oRow' d L (widL L) (32 * k.val + 17) (32 * k.val + 18) (by omega) (by omega) (k2_off11 L k 4#32 1#32) (k2_off11_inb L k 4 1) (off11_n L k 4 1 _ (by rfl)) o) $$ Ht
  icases Ht with ⟨Ho4_1, Ht⟩
  ihave Ht := (take_oRow' d L (widL L) (32 * k.val + 18) (32 * k.val + 19) (by omega) (by omega) (k2_off11 L k 4#32 2#32) (k2_off11_inb L k 4 2) (off11_n L k 4 2 _ (by rfl)) o) $$ Ht
  icases Ht with ⟨Ho4_2, Ht⟩
  ihave Ht := (take_oRow' d L (widL L) (32 * k.val + 19) (32 * k.val + 20) (by omega) (by omega) (k2_off11 L k 4#32 3#32) (k2_off11_inb L k 4 3) (off11_n L k 4 3 _ (by rfl)) o) $$ Ht
  icases Ht with ⟨Ho4_3, Ht⟩
  ihave Ht := (take_oRow' d L (widL L) (32 * k.val + 20) (32 * k.val + 21) (by omega) (by omega) (k2_off11 L k 5#32 0#32) (k2_off11_inb L k 5 0) (off11_n L k 5 0 _ (by rfl)) o) $$ Ht
  icases Ht with ⟨Ho5_0, Ht⟩
  ihave Ht := (take_oRow' d L (widL L) (32 * k.val + 21) (32 * k.val + 22) (by omega) (by omega) (k2_off11 L k 5#32 1#32) (k2_off11_inb L k 5 1) (off11_n L k 5 1 _ (by rfl)) o) $$ Ht
  icases Ht with ⟨Ho5_1, Ht⟩
  ihave Ht := (take_oRow' d L (widL L) (32 * k.val + 22) (32 * k.val + 23) (by omega) (by omega) (k2_off11 L k 5#32 2#32) (k2_off11_inb L k 5 2) (off11_n L k 5 2 _ (by rfl)) o) $$ Ht
  icases Ht with ⟨Ho5_2, Ht⟩
  ihave Ht := (take_oRow' d L (widL L) (32 * k.val + 23) (32 * k.val + 24) (by omega) (by omega) (k2_off11 L k 5#32 3#32) (k2_off11_inb L k 5 3) (off11_n L k 5 3 _ (by rfl)) o) $$ Ht
  icases Ht with ⟨Ho5_3, Ht⟩
  ihave Ht := (take_oRow' d L (widL L) (32 * k.val + 24) (32 * k.val + 25) (by omega) (by omega) (k2_off11 L k 6#32 0#32) (k2_off11_inb L k 6 0) (off11_n L k 6 0 _ (by rfl)) o) $$ Ht
  icases Ht with ⟨Ho6_0, Ht⟩
  ihave Ht := (take_oRow' d L (widL L) (32 * k.val + 25) (32 * k.val + 26) (by omega) (by omega) (k2_off11 L k 6#32 1#32) (k2_off11_inb L k 6 1) (off11_n L k 6 1 _ (by rfl)) o) $$ Ht
  icases Ht with ⟨Ho6_1, Ht⟩
  ihave Ht := (take_oRow' d L (widL L) (32 * k.val + 26) (32 * k.val + 27) (by omega) (by omega) (k2_off11 L k 6#32 2#32) (k2_off11_inb L k 6 2) (off11_n L k 6 2 _ (by rfl)) o) $$ Ht
  icases Ht with ⟨Ho6_2, Ht⟩
  ihave Ht := (take_oRow' d L (widL L) (32 * k.val + 27) (32 * k.val + 28) (by omega) (by omega) (k2_off11 L k 6#32 3#32) (k2_off11_inb L k 6 3) (off11_n L k 6 3 _ (by rfl)) o) $$ Ht
  icases Ht with ⟨Ho6_3, Ht⟩
  ihave Ht := (take_oRow' d L (widL L) (32 * k.val + 28) (32 * k.val + 29) (by omega) (by omega) (k2_off11 L k 7#32 0#32) (k2_off11_inb L k 7 0) (off11_n L k 7 0 _ (by rfl)) o) $$ Ht
  icases Ht with ⟨Ho7_0, Ht⟩
  ihave Ht := (take_oRow' d L (widL L) (32 * k.val + 29) (32 * k.val + 30) (by omega) (by omega) (k2_off11 L k 7#32 1#32) (k2_off11_inb L k 7 1) (off11_n L k 7 1 _ (by rfl)) o) $$ Ht
  icases Ht with ⟨Ho7_1, Ht⟩
  ihave Ht := (take_oRow' d L (widL L) (32 * k.val + 30) (32 * k.val + 31) (by omega) (by omega) (k2_off11 L k 7#32 2#32) (k2_off11_inb L k 7 2) (off11_n L k 7 2 _ (by rfl)) o) $$ Ht
  icases Ht with ⟨Ho7_2, Ht⟩
  ihave Ht := (take_oRow' d L (widL L) (32 * k.val + 31) (32 * k.val + 32) (by omega) (by omega) (k2_off11 L k 7#32 3#32) (k2_off11_inb L k 7 3) (off11_n L k 7 3 _ (by rfl)) o) $$ Ht
  icases Ht with ⟨Ho7_3, Ht⟩
  unfold k2_t1_body
  sl_exec
  -- buffer 0: the gathered rows named, the buffer as its four slices, the batch of its four copies allocated
  ihave Hb0 := (buf_land0 d L _ _) $$ Hb0
  icases Hb0 with ⟨%g0, %hg0, Hq0_0, Hq0_1, Hq0_2, Hq0_3⟩
  have hg0' : g0 = gbuf cmb ix (widL L) (8 * k.val + 0) :=
    hg0.trans (gather_val d L cmb ix sc0 hsc0 (8 * k.val + 0) (by omega) _ (k2_off3_inb k 0) (k2_off3_eq k 0) (fun x => hin0 x))
  subst hg0'
  ihave Hs0 := (Entails.of_eq (hid_eq _)) $$ Hs0
  imod (Transfers.batch_alloc' (Lvl := ℕ) countersEmb (thrV d L) default 81920 (dlv0 d L k o (gbuf cmb ix (widL L) (8 * k.val + 0))) (sm := .dma cc2_scratch17.sem) (E := Set.univ)) $$ Hs0 with HB0
  sl_exec
  -- buffer 1: the gathered rows named, the buffer as its four slices, the batch of its four copies allocated
  ihave Hb1 := (buf_land1 d L _ _) $$ Hb1
  icases Hb1 with ⟨%g1, %hg1, Hq1_0, Hq1_1, Hq1_2, Hq1_3⟩
  have hg1' : g1 = gbuf cmb ix (widL L) (8 * k.val + 1) :=
    hg1.trans (gather_val d L cmb ix sc0 hsc0 (8 * k.val + 1) (by omega) _ (k2_off3_inb k 1) (k2_off3_eq k 1) (fun x => hin1 x))
  subst hg1'
  ihave Hs1 := (Entails.of_eq (hid_eq _)) $$ Hs1
  imod (Transfers.batch_alloc' (Lvl := ℕ) countersEmb (thrV d L) default 81920 (dlv1 d L k o (gbuf cmb ix (widL L) (8 * k.val + 1))) (sm := .dma cc2_scratch18.sem) (E := Set.univ)) $$ Hs1 with HB1
  sl_exec
  -- buffer 2: the gathered rows named, the buffer as its four slices, the batch of its four copies allocated
  ihave Hb2 := (buf_land2 d L _ _) $$ Hb2
  icases Hb2 with ⟨%g2, %hg2, Hq2_0, Hq2_1, Hq2_2, Hq2_3⟩
  have hg2' : g2 = gbuf cmb ix (widL L) (8 * k.val + 2) :=
    hg2.trans (gather_val d L cmb ix sc0 hsc0 (8 * k.val + 2) (by omega) _ (k2_off3_inb k 2) (k2_off3_eq k 2) (fun x => hin2 x))
  subst hg2'
  ihave Hs2 := (Entails.of_eq (hid_eq _)) $$ Hs2
  imod (Transfers.batch_alloc' (Lvl := ℕ) countersEmb (thrV d L) default 81920 (dlv2 d L k o (gbuf cmb ix (widL L) (8 * k.val + 2))) (sm := .dma cc2_scratch19.sem) (E := Set.univ)) $$ Hs2 with HB2
  sl_exec
  -- buffer 3: the gathered rows named, the buffer as its four slices, the batch of its four copies allocated
  ihave Hb3 := (buf_land3 d L _ _) $$ Hb3
  icases Hb3 with ⟨%g3, %hg3, Hq3_0, Hq3_1, Hq3_2, Hq3_3⟩
  have hg3' : g3 = gbuf cmb ix (widL L) (8 * k.val + 3) :=
    hg3.trans (gather_val d L cmb ix sc0 hsc0 (8 * k.val + 3) (by omega) _ (k2_off3_inb k 3) (k2_off3_eq k 3) (fun x => hin3 x))
  subst hg3'
  ihave Hs3 := (Entails.of_eq (hid_eq _)) $$ Hs3
  imod (Transfers.batch_alloc' (Lvl := ℕ) countersEmb (thrV d L) default 81920 (dlv3 d L k o (gbuf cmb ix (widL L) (8 * k.val + 3))) (sm := .dma cc2_scratch20.sem) (E := Set.univ)) $$ Hs3 with HB3
  sl_exec
  -- buffer 4: the gathered rows named, the buffer as its four slices, the batch of its four copies allocated
  ihave Hb4 := (buf_land4 d L _ _) $$ Hb4
  icases Hb4 with ⟨%g4, %hg4, Hq4_0, Hq4_1, Hq4_2, Hq4_3⟩
  have hg4' : g4 = gbuf cmb ix (widL L) (8 * k.val + 4) :=
    hg4.trans (gather_val d L cmb ix sc0 hsc0 (8 * k.val + 4) (by omega) _ (k2_off3_inb k 4) (k2_off3_eq k 4) (fun x => hin4 x))
  subst hg4'
  ihave Hs4 := (Entails.of_eq (hid_eq _)) $$ Hs4
  imod (Transfers.batch_alloc' (Lvl := ℕ) countersEmb (thrV d L) default 81920 (dlv4 d L k o (gbuf cmb ix (widL L) (8 * k.val + 4))) (sm := .dma cc2_scratch21.sem) (E := Set.univ)) $$ Hs4 with HB4
  sl_exec
  -- buffer 5: the gathered rows named, the buffer as its four slices, the batch of its four copies allocated
  ihave Hb5 := (buf_land5 d L _ _) $$ Hb5
  icases Hb5 with ⟨%g5, %hg5, Hq5_0, Hq5_1, Hq5_2, Hq5_3⟩
  have hg5' : g5 = gbuf cmb ix (widL L) (8 * k.val + 5) :=
    hg5.trans (gather_val d L cmb ix sc0 hsc0 (8 * k.val + 5) (by omega) _ (k2_off3_inb k 5) (k2_off3_eq k 5) (fun x => hin5 x))
  subst hg5'
  ihave Hs5 := (Entails.of_eq (hid_eq _)) $$ Hs5
  imod (Transfers.batch_alloc' (Lvl := ℕ) countersEmb (thrV d L) default 81920 (dlv5 d L k o (gbuf cmb ix (widL L) (8 * k.val + 5))) (sm := .dma cc2_scratch22.sem) (E := Set.univ)) $$ Hs5 with HB5
  sl_exec
  -- buffer 6: the gathered rows named, the buffer as its four slices, the batch of its four copies allocated
  ihave Hb6 := (buf_land6 d L _ _) $$ Hb6
  icases Hb6 with ⟨%g6, %hg6, Hq6_0, Hq6_1, Hq6_2, Hq6_3⟩
  have hg6' : g6 = gbuf cmb ix (widL L) (8 * k.val + 6) :=
    hg6.trans (gather_val d L cmb ix sc0 hsc0 (8 * k.val + 6) (by omega) _ (k2_off3_inb k 6) (k2_off3_eq k 6) (fun x => hin6 x))
  subst hg6'
  ihave Hs6 := (Entails.of_eq (hid_eq _)) $$ Hs6
  imod (Transfers.batch_alloc' (Lvl := ℕ) countersEmb (thrV d L) default 81920 (dlv6 d L k o (gbuf cmb ix (widL L) (8 * k.val + 6))) (sm := .dma cc2_scratch23.sem) (E := Set.univ)) $$ Hs6 with HB6
  sl_exec
  -- buffer 7: the gathered rows named, the buffer as its four slices, the batch of its four copies allocated
  ihave Hb7 := (buf_land7 d L _ _) $$ Hb7
  icases Hb7 with ⟨%g7, %hg7, Hq7_0, Hq7_1, Hq7_2, Hq7_3⟩
  have hg7' : g7 = gbuf cmb ix (widL L) (8 * k.val + 7) :=
    hg7.trans (gather_val d L cmb ix sc0 hsc0 (8 * k.val + 7) (by omega) _ (k2_off3_inb k 7) (k2_off3_eq k 7) (fun x => hin7 x))
  subst hg7'
  ihave Hs7 := (Entails.of_eq (hid_eq _)) $$ Hs7
  imod (Transfers.batch_alloc' (Lvl := ℕ) countersEmb (thrV d L) default 81920 (dlv7 d L k o (gbuf cmb ix (widL L) (8 * k.val + 7))) (sm := .dma cc2_scratch24.sem) (E := Set.univ)) $$ Hs7 with HB7
  sl_exec
  sl_step
  isplitr; · iexact Hmw
  isplitl [HO]
  · iexists _; isplitr
    swap; · iexact HO
    ipureintro
    repeat (first | exact fun p hp => Or.inl hp | refine mem_ins ?_ rfl)
  isplitl [Hv0 Hv1 Hv2 Hv3 Hv4 Hv5 Hv6 Hv7 Hl0 Hl1 Hl2 Hl3 Hl4 Hl5 Hl6 Hl7 Hg0 Hg1 Hg2 Hg3 Hg4 Hg5 Hg6 Hg7]
  · isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    iexact Hg7
  isplitl [Ht]; · iexact Ht
  isplitl [HB0]; · iexact HB0
  isplitl [HB1]; · iexact HB1
  isplitl [HB2]; · iexact HB2
  isplitl [HB3]; · iexact HB3
  isplitl [HB4]; · iexact HB4
  isplitl [HB5]; · iexact HB5
  isplitl [HB6]; · iexact HB6
  iexact HB7

end Cert.Proof.Tile

end
-- ==== Proof.TileBodyDrn.lean ====
import proofs.«206393_g35751307772044_cont_8to1_b_353_20_alg».proof.Proof.TileBodyInv

noncomputable section

namespace Cert.Proof.Tile

open Cert.KernelIdeal Cert.KernelIdeal.Gen
open Cert.Proof.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ

section DrainLemmas

variable (d : Dev nD) (L : grid2.Coords) (cmb : Buf (Elt F) (v5Loc d)) (ix : Buf (Elt F) (v6Loc d)) (o : Buf (Elt F) (v7Loc d))

/-- Slice `e` of row buffer 0 read at (p, q) is the buffer at (20 e + p, q). -/
private theorem drn_pay0 (gv : FVec F S80x128 .f32) (e : Fin 4) (x : S20x128.Idx) :
    ReadAs.same.apply ((bslE0 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE0 e).view.read (Elt F) gv x = _
  rw [show (bslE0 e).view.read (Elt F) gv x = gv ((bslE0 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- Slice `e` of row buffer 1 read at (p, q) is the buffer at (20 e + p, q). -/
private theorem drn_pay1 (gv : FVec F S80x128 .f32) (e : Fin 4) (x : S20x128.Idx) :
    ReadAs.same.apply ((bslE1 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE1 e).view.read (Elt F) gv x = _
  rw [show (bslE1 e).view.read (Elt F) gv x = gv ((bslE1 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- Slice `e` of row buffer 2 read at (p, q) is the buffer at (20 e + p, q). -/
private theorem drn_pay2 (gv : FVec F S80x128 .f32) (e : Fin 4) (x : S20x128.Idx) :
    ReadAs.same.apply ((bslE2 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE2 e).view.read (Elt F) gv x = _
  rw [show (bslE2 e).view.read (Elt F) gv x = gv ((bslE2 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- Slice `e` of row buffer 3 read at (p, q) is the buffer at (20 e + p, q). -/
private theorem drn_pay3 (gv : FVec F S80x128 .f32) (e : Fin 4) (x : S20x128.Idx) :
    ReadAs.same.apply ((bslE3 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE3 e).view.read (Elt F) gv x = _
  rw [show (bslE3 e).view.read (Elt F) gv x = gv ((bslE3 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- Slice `e` of row buffer 4 read at (p, q) is the buffer at (20 e + p, q). -/
private theorem drn_pay4 (gv : FVec F S80x128 .f32) (e : Fin 4) (x : S20x128.Idx) :
    ReadAs.same.apply ((bslE4 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE4 e).view.read (Elt F) gv x = _
  rw [show (bslE4 e).view.read (Elt F) gv x = gv ((bslE4 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- Slice `e` of row buffer 5 read at (p, q) is the buffer at (20 e + p, q). -/
private theorem drn_pay5 (gv : FVec F S80x128 .f32) (e : Fin 4) (x : S20x128.Idx) :
    ReadAs.same.apply ((bslE5 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE5 e).view.read (Elt F) gv x = _
  rw [show (bslE5 e).view.read (Elt F) gv x = gv ((bslE5 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- Slice `e` of row buffer 6 read at (p, q) is the buffer at (20 e + p, q). -/
private theorem drn_pay6 (gv : FVec F S80x128 .f32) (e : Fin 4) (x : S20x128.Idx) :
    ReadAs.same.apply ((bslE6 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE6 e).view.read (Elt F) gv x = _
  rw [show (bslE6 e).view.read (Elt F) gv x = gv ((bslE6 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- Slice `e` of row buffer 7 read at (p, q) is the buffer at (20 e + p, q). -/
private theorem drn_pay7 (gv : FVec F S80x128 .f32) (e : Fin 4) (x : S20x128.Idx) :
    ReadAs.same.apply ((bslE7 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE7 e).view.read (Elt F) gv x = _
  rw [show (bslE7 e).view.read (Elt F) gv x = gv ((bslE7 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- A landed copy out of row buffer 0 joins the tile's finished rows. -/
theorem drn_put0 (k' : Fin k2_t1_loop.trips) (e : Fin 4) (a a' : ℕ) (ha : a = 32 * k'.val + (4 * 0 + e.val)) (ha' : a' = a + 1) :
    (iprop(doneI d L cmb ix a ∗ ((oRowE0 L k' e).view.loc (thrV d L) ↦[(oRowE0 L k' e).view.set]{fullShare}
        (oRowE0 L k' e).view.writes (Elt F) o
          [⟨Rect.whole S20x128, ReadAs.same.apply ((bslE0 e).view.read (Elt F) (gbuf cmb ix (widL L) (8 * k'.val + 0)))⟩])) : sProp 𝕄)
      ⊢ doneI d L cmb ix a' := by
  subst ha ha'
  have he := e.isLt
  have hk : k'.val < 16 := trips_eq ▸ k'.isLt
  have hc : 8 * k'.val + 0 < 128 := by omega
  have hoff1 : k2_off11 L k' 0#32 (BitVec.ofNat 32 e.val) = ![512 * (widL L).val + (4 * (8 * k'.val + 0) + e.val), 0, 0] :=
    off11_n L k' (⟨0, by decide⟩ : Fin 8) e _ (by show _ = 32 * k'.val + (4 * 0 + e.val); omega)
  have hoff2 : k2_off11 L k' 0#32 (BitVec.ofNat 32 e.val) = ![512 * (widL L).val + (32 * k'.val + (4 * 0 + e.val)), 0, 0] :=
    off11_n L k' (⟨0, by decide⟩ : Fin 8) e _ rfl
  refine (sep_mono_right (Entails.of_eq (oRow_landed d L cmb ix o (8 * k'.val + 0) hc e _ (k2_off11_inb L k' 0 e) hoff1 _
    (fun x => drn_pay0 _ e x)))).trans ?_
  exact put_oRow d L (widL L) _ _ (k2_off11_inb L k' 0 e) hoff2 (gOut cmb ix)

/-- The four slices of row buffer 0, back from their copies, are the buffer whole. -/
theorem drn_join0 (gv : FVec F S80x128 .f32) :
    (iprop(((bslE0 ⟨0, by decide⟩).view.loc (thrV d L) ↦[(bslE0 ⟨0, by decide⟩).view.set]{fullShare} gv)
        ∗ ((bslE0 ⟨1, by decide⟩).view.loc (thrV d L) ↦[(bslE0 ⟨1, by decide⟩).view.set]{fullShare} gv)
        ∗ ((bslE0 ⟨2, by decide⟩).view.loc (thrV d L) ↦[(bslE0 ⟨2, by decide⟩).view.set]{fullShare} gv)
        ∗ ((bslE0 ⟨3, by decide⟩).view.loc (thrV d L) ↦[(bslE0 ⟨3, by decide⟩).view.set]{fullShare} gv)) : sProp 𝕄)
      ⊢ ((bufM0).view.loc (thrV d L) ↦{fullShare} gv : sProp 𝕄) := by
  exact Entails.of_eq (buf_split0 d L gv).symm

/-- A landed copy out of row buffer 1 joins the tile's finished rows. -/
theorem drn_put1 (k' : Fin k2_t1_loop.trips) (e : Fin 4) (a a' : ℕ) (ha : a = 32 * k'.val + (4 * 1 + e.val)) (ha' : a' = a + 1) :
    (iprop(doneI d L cmb ix a ∗ ((oRowE1 L k' e).view.loc (thrV d L) ↦[(oRowE1 L k' e).view.set]{fullShare}
        (oRowE1 L k' e).view.writes (Elt F) o
          [⟨Rect.whole S20x128, ReadAs.same.apply ((bslE1 e).view.read (Elt F) (gbuf cmb ix (widL L) (8 * k'.val + 1)))⟩])) : sProp 𝕄)
      ⊢ doneI d L cmb ix a' := by
  subst ha ha'
  have he := e.isLt
  have hk : k'.val < 16 := trips_eq ▸ k'.isLt
  have hc : 8 * k'.val + 1 < 128 := by omega
  have hoff1 : k2_off11 L k' 1#32 (BitVec.ofNat 32 e.val) = ![512 * (widL L).val + (4 * (8 * k'.val + 1) + e.val), 0, 0] :=
    off11_n L k' (⟨1, by decide⟩ : Fin 8) e _ (by show _ = 32 * k'.val + (4 * 1 + e.val); omega)
  have hoff2 : k2_off11 L k' 1#32 (BitVec.ofNat 32 e.val) = ![512 * (widL L).val + (32 * k'.val + (4 * 1 + e.val)), 0, 0] :=
    off11_n L k' (⟨1, by decide⟩ : Fin 8) e _ rfl
  refine (sep_mono_right (Entails.of_eq (oRow_landed d L cmb ix o (8 * k'.val + 1) hc e _ (k2_off11_inb L k' 1 e) hoff1 _
    (fun x => drn_pay1 _ e x)))).trans ?_
  exact put_oRow d L (widL L) _ _ (k2_off11_inb L k' 1 e) hoff2 (gOut cmb ix)

/-- The four slices of row buffer 1, back from their copies, are the buffer whole. -/
theorem drn_join1 (gv : FVec F S80x128 .f32) :
    (iprop(((bslE1 ⟨0, by decide⟩).view.loc (thrV d L) ↦[(bslE1 ⟨0, by decide⟩).view.set]{fullShare} gv)
        ∗ ((bslE1 ⟨1, by decide⟩).view.loc (thrV d L) ↦[(bslE1 ⟨1, by decide⟩).view.set]{fullShare} gv)
        ∗ ((bslE1 ⟨2, by decide⟩).view.loc (thrV d L) ↦[(bslE1 ⟨2, by decide⟩).view.set]{fullShare} gv)
        ∗ ((bslE1 ⟨3, by decide⟩).view.loc (thrV d L) ↦[(bslE1 ⟨3, by decide⟩).view.set]{fullShare} gv)) : sProp 𝕄)
      ⊢ ((bufM1).view.loc (thrV d L) ↦{fullShare} gv : sProp 𝕄) := by
  exact Entails.of_eq (buf_split1 d L gv).symm

/-- A landed copy out of row buffer 2 joins the tile's finished rows. -/
theorem drn_put2 (k' : Fin k2_t1_loop.trips) (e : Fin 4) (a a' : ℕ) (ha : a = 32 * k'.val + (4 * 2 + e.val)) (ha' : a' = a + 1) :
    (iprop(doneI d L cmb ix a ∗ ((oRowE2 L k' e).view.loc (thrV d L) ↦[(oRowE2 L k' e).view.set]{fullShare}
        (oRowE2 L k' e).view.writes (Elt F) o
          [⟨Rect.whole S20x128, ReadAs.same.apply ((bslE2 e).view.read (Elt F) (gbuf cmb ix (widL L) (8 * k'.val + 2)))⟩])) : sProp 𝕄)
      ⊢ doneI d L cmb ix a' := by
  subst ha ha'
  have he := e.isLt
  have hk : k'.val < 16 := trips_eq ▸ k'.isLt
  have hc : 8 * k'.val + 2 < 128 := by omega
  have hoff1 : k2_off11 L k' 2#32 (BitVec.ofNat 32 e.val) = ![512 * (widL L).val + (4 * (8 * k'.val + 2) + e.val), 0, 0] :=
    off11_n L k' (⟨2, by decide⟩ : Fin 8) e _ (by show _ = 32 * k'.val + (4 * 2 + e.val); omega)
  have hoff2 : k2_off11 L k' 2#32 (BitVec.ofNat 32 e.val) = ![512 * (widL L).val + (32 * k'.val + (4 * 2 + e.val)), 0, 0] :=
    off11_n L k' (⟨2, by decide⟩ : Fin 8) e _ rfl
  refine (sep_mono_right (Entails.of_eq (oRow_landed d L cmb ix o (8 * k'.val + 2) hc e _ (k2_off11_inb L k' 2 e) hoff1 _
    (fun x => drn_pay2 _ e x)))).trans ?_
  exact put_oRow d L (widL L) _ _ (k2_off11_inb L k' 2 e) hoff2 (gOut cmb ix)

/-- The four slices of row buffer 2, back from their copies, are the buffer whole. -/
theorem drn_join2 (gv : FVec F S80x128 .f32) :
    (iprop(((bslE2 ⟨0, by decide⟩).view.loc (thrV d L) ↦[(bslE2 ⟨0, by decide⟩).view.set]{fullShare} gv)
        ∗ ((bslE2 ⟨1, by decide⟩).view.loc (thrV d L) ↦[(bslE2 ⟨1, by decide⟩).view.set]{fullShare} gv)
        ∗ ((bslE2 ⟨2, by decide⟩).view.loc (thrV d L) ↦[(bslE2 ⟨2, by decide⟩).view.set]{fullShare} gv)
        ∗ ((bslE2 ⟨3, by decide⟩).view.loc (thrV d L) ↦[(bslE2 ⟨3, by decide⟩).view.set]{fullShare} gv)) : sProp 𝕄)
      ⊢ ((bufM2).view.loc (thrV d L) ↦{fullShare} gv : sProp 𝕄) := by
  exact Entails.of_eq (buf_split2 d L gv).symm

/-- A landed copy out of row buffer 3 joins the tile's finished rows. -/
theorem drn_put3 (k' : Fin k2_t1_loop.trips) (e : Fin 4) (a a' : ℕ) (ha : a = 32 * k'.val + (4 * 3 + e.val)) (ha' : a' = a + 1) :
    (iprop(doneI d L cmb ix a ∗ ((oRowE3 L k' e).view.loc (thrV d L) ↦[(oRowE3 L k' e).view.set]{fullShare}
        (oRowE3 L k' e).view.writes (Elt F) o
          [⟨Rect.whole S20x128, ReadAs.same.apply ((bslE3 e).view.read (Elt F) (gbuf cmb ix (widL L) (8 * k'.val + 3)))⟩])) : sProp 𝕄)
      ⊢ doneI d L cmb ix a' := by
  subst ha ha'
  have he := e.isLt
  have hk : k'.val < 16 := trips_eq ▸ k'.isLt
  have hc : 8 * k'.val + 3 < 128 := by omega
  have hoff1 : k2_off11 L k' 3#32 (BitVec.ofNat 32 e.val) = ![512 * (widL L).val + (4 * (8 * k'.val + 3) + e.val), 0, 0] :=
    off11_n L k' (⟨3, by decide⟩ : Fin 8) e _ (by show _ = 32 * k'.val + (4 * 3 + e.val); omega)
  have hoff2 : k2_off11 L k' 3#32 (BitVec.ofNat 32 e.val) = ![512 * (widL L).val + (32 * k'.val + (4 * 3 + e.val)), 0, 0] :=
    off11_n L k' (⟨3, by decide⟩ : Fin 8) e _ rfl
  refine (sep_mono_right (Entails.of_eq (oRow_landed d L cmb ix o (8 * k'.val + 3) hc e _ (k2_off11_inb L k' 3 e) hoff1 _
    (fun x => drn_pay3 _ e x)))).trans ?_
  exact put_oRow d L (widL L) _ _ (k2_off11_inb L k' 3 e) hoff2 (gOut cmb ix)

/-- The four slices of row buffer 3, back from their copies, are the buffer whole. -/
theorem drn_join3 (gv : FVec F S80x128 .f32) :
    (iprop(((bslE3 ⟨0, by decide⟩).view.loc (thrV d L) ↦[(bslE3 ⟨0, by decide⟩).view.set]{fullShare} gv)
        ∗ ((bslE3 ⟨1, by decide⟩).view.loc (thrV d L) ↦[(bslE3 ⟨1, by decide⟩).view.set]{fullShare} gv)
        ∗ ((bslE3 ⟨2, by decide⟩).view.loc (thrV d L) ↦[(bslE3 ⟨2, by decide⟩).view.set]{fullShare} gv)
        ∗ ((bslE3 ⟨3, by decide⟩).view.loc (thrV d L) ↦[(bslE3 ⟨3, by decide⟩).view.set]{fullShare} gv)) : sProp 𝕄)
      ⊢ ((bufM3).view.loc (thrV d L) ↦{fullShare} gv : sProp 𝕄) := by
  exact Entails.of_eq (buf_split3 d L gv).symm

/-- A landed copy out of row buffer 4 joins the tile's finished rows. -/
theorem drn_put4 (k' : Fin k2_t1_loop.trips) (e : Fin 4) (a a' : ℕ) (ha : a = 32 * k'.val + (4 * 4 + e.val)) (ha' : a' = a + 1) :
    (iprop(doneI d L cmb ix a ∗ ((oRowE4 L k' e).view.loc (thrV d L) ↦[(oRowE4 L k' e).view.set]{fullShare}
        (oRowE4 L k' e).view.writes (Elt F) o
          [⟨Rect.whole S20x128, ReadAs.same.apply ((bslE4 e).view.read (Elt F) (gbuf cmb ix (widL L) (8 * k'.val + 4)))⟩])) : sProp 𝕄)
      ⊢ doneI d L cmb ix a' := by
  subst ha ha'
  have he := e.isLt
  have hk : k'.val < 16 := trips_eq ▸ k'.isLt
  have hc : 8 * k'.val + 4 < 128 := by omega
  have hoff1 : k2_off11 L k' 4#32 (BitVec.ofNat 32 e.val) = ![512 * (widL L).val + (4 * (8 * k'.val + 4) + e.val), 0, 0] :=
    off11_n L k' (⟨4, by decide⟩ : Fin 8) e _ (by show _ = 32 * k'.val + (4 * 4 + e.val); omega)
  have hoff2 : k2_off11 L k' 4#32 (BitVec.ofNat 32 e.val) = ![512 * (widL L).val + (32 * k'.val + (4 * 4 + e.val)), 0, 0] :=
    off11_n L k' (⟨4, by decide⟩ : Fin 8) e _ rfl
  refine (sep_mono_right (Entails.of_eq (oRow_landed d L cmb ix o (8 * k'.val + 4) hc e _ (k2_off11_inb L k' 4 e) hoff1 _
    (fun x => drn_pay4 _ e x)))).trans ?_
  exact put_oRow d L (widL L) _ _ (k2_off11_inb L k' 4 e) hoff2 (gOut cmb ix)

/-- The four slices of row buffer 4, back from their copies, are the buffer whole. -/
theorem drn_join4 (gv : FVec F S80x128 .f32) :
    (iprop(((bslE4 ⟨0, by decide⟩).view.loc (thrV d L) ↦[(bslE4 ⟨0, by decide⟩).view.set]{fullShare} gv)
        ∗ ((bslE4 ⟨1, by decide⟩).view.loc (thrV d L) ↦[(bslE4 ⟨1, by decide⟩).view.set]{fullShare} gv)
        ∗ ((bslE4 ⟨2, by decide⟩).view.loc (thrV d L) ↦[(bslE4 ⟨2, by decide⟩).view.set]{fullShare} gv)
        ∗ ((bslE4 ⟨3, by decide⟩).view.loc (thrV d L) ↦[(bslE4 ⟨3, by decide⟩).view.set]{fullShare} gv)) : sProp 𝕄)
      ⊢ ((bufM4).view.loc (thrV d L) ↦{fullShare} gv : sProp 𝕄) := by
  exact Entails.of_eq (buf_split4 d L gv).symm

/-- A landed copy out of row buffer 5 joins the tile's finished rows. -/
theorem drn_put5 (k' : Fin k2_t1_loop.trips) (e : Fin 4) (a a' : ℕ) (ha : a = 32 * k'.val + (4 * 5 + e.val)) (ha' : a' = a + 1) :
    (iprop(doneI d L cmb ix a ∗ ((oRowE5 L k' e).view.loc (thrV d L) ↦[(oRowE5 L k' e).view.set]{fullShare}
        (oRowE5 L k' e).view.writes (Elt F) o
          [⟨Rect.whole S20x128, ReadAs.same.apply ((bslE5 e).view.read (Elt F) (gbuf cmb ix (widL L) (8 * k'.val + 5)))⟩])) : sProp 𝕄)
      ⊢ doneI d L cmb ix a' := by
  subst ha ha'
  have he := e.isLt
  have hk : k'.val < 16 := trips_eq ▸ k'.isLt
  have hc : 8 * k'.val + 5 < 128 := by omega
  have hoff1 : k2_off11 L k' 5#32 (BitVec.ofNat 32 e.val) = ![512 * (widL L).val + (4 * (8 * k'.val + 5) + e.val), 0, 0] :=
    off11_n L k' (⟨5, by decide⟩ : Fin 8) e _ (by show _ = 32 * k'.val + (4 * 5 + e.val); omega)
  have hoff2 : k2_off11 L k' 5#32 (BitVec.ofNat 32 e.val) = ![512 * (widL L).val + (32 * k'.val + (4 * 5 + e.val)), 0, 0] :=
    off11_n L k' (⟨5, by decide⟩ : Fin 8) e _ rfl
  refine (sep_mono_right (Entails.of_eq (oRow_landed d L cmb ix o (8 * k'.val + 5) hc e _ (k2_off11_inb L k' 5 e) hoff1 _
    (fun x => drn_pay5 _ e x)))).trans ?_
  exact put_oRow d L (widL L) _ _ (k2_off11_inb L k' 5 e) hoff2 (gOut cmb ix)

/-- The four slices of row buffer 5, back from their copies, are the buffer whole. -/
theorem drn_join5 (gv : FVec F S80x128 .f32) :
    (iprop(((bslE5 ⟨0, by decide⟩).view.loc (thrV d L) ↦[(bslE5 ⟨0, by decide⟩).view.set]{fullShare} gv)
        ∗ ((bslE5 ⟨1, by decide⟩).view.loc (thrV d L) ↦[(bslE5 ⟨1, by decide⟩).view.set]{fullShare} gv)
        ∗ ((bslE5 ⟨2, by decide⟩).view.loc (thrV d L) ↦[(bslE5 ⟨2, by decide⟩).view.set]{fullShare} gv)
        ∗ ((bslE5 ⟨3, by decide⟩).view.loc (thrV d L) ↦[(bslE5 ⟨3, by decide⟩).view.set]{fullShare} gv)) : sProp 𝕄)
      ⊢ ((bufM5).view.loc (thrV d L) ↦{fullShare} gv : sProp 𝕄) := by
  exact Entails.of_eq (buf_split5 d L gv).symm

/-- A landed copy out of row buffer 6 joins the tile's finished rows. -/
theorem drn_put6 (k' : Fin k2_t1_loop.trips) (e : Fin 4) (a a' : ℕ) (ha : a = 32 * k'.val + (4 * 6 + e.val)) (ha' : a' = a + 1) :
    (iprop(doneI d L cmb ix a ∗ ((oRowE6 L k' e).view.loc (thrV d L) ↦[(oRowE6 L k' e).view.set]{fullShare}
        (oRowE6 L k' e).view.writes (Elt F) o
          [⟨Rect.whole S20x128, ReadAs.same.apply ((bslE6 e).view.read (Elt F) (gbuf cmb ix (widL L) (8 * k'.val + 6)))⟩])) : sProp 𝕄)
      ⊢ doneI d L cmb ix a' := by
  subst ha ha'
  have he := e.isLt
  have hk : k'.val < 16 := trips_eq ▸ k'.isLt
  have hc : 8 * k'.val + 6 < 128 := by omega
  have hoff1 : k2_off11 L k' 6#32 (BitVec.ofNat 32 e.val) = ![512 * (widL L).val + (4 * (8 * k'.val + 6) + e.val), 0, 0] :=
    off11_n L k' (⟨6, by decide⟩ : Fin 8) e _ (by show _ = 32 * k'.val + (4 * 6 + e.val); omega)
  have hoff2 : k2_off11 L k' 6#32 (BitVec.ofNat 32 e.val) = ![512 * (widL L).val + (32 * k'.val + (4 * 6 + e.val)), 0, 0] :=
    off11_n L k' (⟨6, by decide⟩ : Fin 8) e _ rfl
  refine (sep_mono_right (Entails.of_eq (oRow_landed d L cmb ix o (8 * k'.val + 6) hc e _ (k2_off11_inb L k' 6 e) hoff1 _
    (fun x => drn_pay6 _ e x)))).trans ?_
  exact put_oRow d L (widL L) _ _ (k2_off11_inb L k' 6 e) hoff2 (gOut cmb ix)

/-- The four slices of row buffer 6, back from their copies, are the buffer whole. -/
theorem drn_join6 (gv : FVec F S80x128 .f32) :
    (iprop(((bslE6 ⟨0, by decide⟩).view.loc (thrV d L) ↦[(bslE6 ⟨0, by decide⟩).view.set]{fullShare} gv)
        ∗ ((bslE6 ⟨1, by decide⟩).view.loc (thrV d L) ↦[(bslE6 ⟨1, by decide⟩).view.set]{fullShare} gv)
        ∗ ((bslE6 ⟨2, by decide⟩).view.loc (thrV d L) ↦[(bslE6 ⟨2, by decide⟩).view.set]{fullShare} gv)
        ∗ ((bslE6 ⟨3, by decide⟩).view.loc (thrV d L) ↦[(bslE6 ⟨3, by decide⟩).view.set]{fullShare} gv)) : sProp 𝕄)
      ⊢ ((bufM6).view.loc (thrV d L) ↦{fullShare} gv : sProp 𝕄) := by
  exact Entails.of_eq (buf_split6 d L gv).symm

/-- A landed copy out of row buffer 7 joins the tile's finished rows. -/
theorem drn_put7 (k' : Fin k2_t1_loop.trips) (e : Fin 4) (a a' : ℕ) (ha : a = 32 * k'.val + (4 * 7 + e.val)) (ha' : a' = a + 1) :
    (iprop(doneI d L cmb ix a ∗ ((oRowE7 L k' e).view.loc (thrV d L) ↦[(oRowE7 L k' e).view.set]{fullShare}
        (oRowE7 L k' e).view.writes (Elt F) o
          [⟨Rect.whole S20x128, ReadAs.same.apply ((bslE7 e).view.read (Elt F) (gbuf cmb ix (widL L) (8 * k'.val + 7)))⟩])) : sProp 𝕄)
      ⊢ doneI d L cmb ix a' := by
  subst ha ha'
  have he := e.isLt
  have hk : k'.val < 16 := trips_eq ▸ k'.isLt
  have hc : 8 * k'.val + 7 < 128 := by omega
  have hoff1 : k2_off11 L k' 7#32 (BitVec.ofNat 32 e.val) = ![512 * (widL L).val + (4 * (8 * k'.val + 7) + e.val), 0, 0] :=
    off11_n L k' (⟨7, by decide⟩ : Fin 8) e _ (by show _ = 32 * k'.val + (4 * 7 + e.val); omega)
  have hoff2 : k2_off11 L k' 7#32 (BitVec.ofNat 32 e.val) = ![512 * (widL L).val + (32 * k'.val + (4 * 7 + e.val)), 0, 0] :=
    off11_n L k' (⟨7, by decide⟩ : Fin 8) e _ rfl
  refine (sep_mono_right (Entails.of_eq (oRow_landed d L cmb ix o (8 * k'.val + 7) hc e _ (k2_off11_inb L k' 7 e) hoff1 _
    (fun x => drn_pay7 _ e x)))).trans ?_
  exact put_oRow d L (widL L) _ _ (k2_off11_inb L k' 7 e) hoff2 (gOut cmb ix)

/-- The four slices of row buffer 7, back from their copies, are the buffer whole. -/
theorem drn_join7 (gv : FVec F S80x128 .f32) :
    (iprop(((bslE7 ⟨0, by decide⟩).view.loc (thrV d L) ↦[(bslE7 ⟨0, by decide⟩).view.set]{fullShare} gv)
        ∗ ((bslE7 ⟨1, by decide⟩).view.loc (thrV d L) ↦[(bslE7 ⟨1, by decide⟩).view.set]{fullShare} gv)
        ∗ ((bslE7 ⟨2, by decide⟩).view.loc (thrV d L) ↦[(bslE7 ⟨2, by decide⟩).view.set]{fullShare} gv)
        ∗ ((bslE7 ⟨3, by decide⟩).view.loc (thrV d L) ↦[(bslE7 ⟨3, by decide⟩).view.set]{fullShare} gv)) : sProp 𝕄)
      ⊢ ((bufM7).view.loc (thrV d L) ↦{fullShare} gv : sProp 𝕄) := by
  exact Entails.of_eq (buf_split7 d L gv).symm

end DrainLemmas

end Cert.Proof.Tile

end
-- ==== Proof.TileBodyTripS.lean ====
import proofs.«206393_g35751307772044_cont_8to1_b_353_20_alg».proof.Proof.TileBodyDrn

noncomputable section

namespace Cert.Proof.Tile

open Cert.KernelIdeal Cert.KernelIdeal.Gen
open Cert.Proof.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ

section SemHide

variable (d : Dev nD) (L : grid2.Coords)

/-- A semaphore's counter at zero, as a run names the semaphore, kept aside under the program's name for it. -/
theorem ts_sem_hide (s s' : DmaSem sig) (h : s' = s) :
    (semVal (thrV d L, SemLoc.dma s') 0 : sProp 𝕄) ⊢ hid (semVal (thrV d L, SemLoc.dma s) 0) := by
  subst h; exact .rfl

end SemHide

variable (d : Dev nD) (L : grid2.Coords) (cmb : Buf (Elt F) (v5Loc d)) (ix : Buf (Elt F) (v6Loc d)) (o : Buf (Elt F) (v7Loc d))
  (sc0 : Buf (Elt F) ((lstV).view.loc (thrV d L))) (O : CellTallies nD τ sig (HIx 1))

set_option maxHeartbeats 16000000 in
theorem trip_next (v2 : BitVec 32) (k k' : Fin k2_t1_loop.trips) (hk : k.val = k'.val + 1)
    (hsc0 : ∀ (r : Fin 128) (x : Fin 80), sc0 (ValueIdx.ix2 r x) = ix (ValueIdx.ix3 (widL L) r x))
    (hscb : ∀ i, (sc0 i).toNat < 1960) (W : Waits sig (HIx 1)) :
    iprop(Transfers.MayWaits (thrV d L) none O ∗ owes (thrV d L) O W ∗ toksI d L cmb sc0 ∗ doneI d L cmb ix (32 * k'.val) ∗ todoI d L o (32 * k.val)
        ∗ batsI d L cmb ix o k' (8 * k'.val))
      ⊢ (wp frame (wpE (defs₀ (F := F)) 𝒱₀ (thrV d L) none) Set.univ
          (k2_t1_body L v5V (Memref.isWhole_whole _) v6V (Memref.isWhole_whole _) v7V (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) (Memref.whole cc2_scratch5) (Memref.isWhole_whole _)
            (Memref.whole cc2_scratch6) (Memref.isWhole_whole _) (Memref.whole cc2_scratch7) (Memref.isWhole_whole _)
            (Memref.whole cc2_scratch8) (Memref.isWhole_whole _)
            cc2_scratch9 cc2_scratch10 cc2_scratch11 cc2_scratch12 cc2_scratch13 cc2_scratch14 cc2_scratch15 cc2_scratch16
            cc2_scratch17 cc2_scratch18 cc2_scratch19 cc2_scratch20 cc2_scratch21 cc2_scratch22 cc2_scratch23 cc2_scratch24 cc2_scoped0 v2 k ())
          (fun _ => iprop(Transfers.MayWaits (thrV d L) none O ∗ owesI d L O W ∗ toksI d L cmb sc0 ∗ doneI d L cmb ix (32 * k'.val + 32)
            ∗ todoI d L o (32 * k.val + 32) ∗ batsI d L cmb ix o k (8 * k.val))) : sProp 𝕄) := by
  have hk16 : k.val < 16 := trips_eq ▸ k.isLt
  have hk'16 : k'.val < 16 := trips_eq ▸ k'.isLt
  have hc1 : k2_cond1 k = 1#1 := (cond1_iff k).mpr (by omega)
  have hc2 : k2_cond2 k = 1#1 := (cond2_iff k).mpr (by omega)
  have hc3 : k2_cond3 k = 1#1 := (cond3_iff k).mpr (by omega)
  have hc4 : k2_cond4 k = 1#1 := (cond4_iff k).mpr (by omega)
  have hc5 : k2_cond5 k = 1#1 := (cond5_iff k).mpr (by omega)
  have hc6 : k2_cond6 k = 1#1 := (cond6_iff k).mpr (by omega)
  have hc7 : k2_cond7 k = 1#1 := (cond7_iff k).mpr (by omega)
  have hc8 : k2_cond8 k = 1#1 := (cond8_iff k).mpr (by omega)
  have hin0 : ∀ x, ((lstM0 k).view.read (Elt F) sc0 x).toNat < 1960 := lst_inb d L sc0 hscb _ _
  have hin1 : ∀ x, ((lstM1 k).view.read (Elt F) sc0 x).toNat < 1960 := lst_inb d L sc0 hscb _ _
  have hin2 : ∀ x, ((lstM2 k).view.read (Elt F) sc0 x).toNat < 1960 := lst_inb d L sc0 hscb _ _
  have hin3 : ∀ x, ((lstM3 k).view.read (Elt F) sc0 x).toNat < 1960 := lst_inb d L sc0 hscb _ _
  have hin4 : ∀ x, ((lstM4 k).view.read (Elt F) sc0 x).toNat < 1960 := lst_inb d L sc0 hscb _ _
  have hin5 : ∀ x, ((lstM5 k).view.read (Elt F) sc0 x).toNat < 1960 := lst_inb d L sc0 hscb _ _
  have hin6 : ∀ x, ((lstM6 k).view.read (Elt F) sc0 x).toNat < 1960 := lst_inb d L sc0 hscb _ _
  have hin7 : ∀ x, ((lstM7 k).view.read (Elt F) sc0 x).toNat < 1960 := lst_inb d L sc0 hscb _ _
  iintro ⟨#Hmw, HO, ⟨Hv0, Hv1, Hv2, Hv3, Hv4, Hv5, Hv6, Hv7, Hl0, Hl1, Hl2, Hl3, Hl4, Hl5, Hl6, Hl7, Hg0, Hg1, Hg2, Hg3, Hg4, Hg5, Hg6, Hg7⟩, Hd, Ht, HB0, HB1, HB2, HB3, HB4, HB5, HB6, HB7⟩
  ihave Ht := (take_oRow' d L (widL L) (32 * k.val) (32 * k.val + 1) (by omega) (by omega) (k2_off11 L k 0#32 0#32) (k2_off11_inb L k 0 0) (off11_n L k 0 0 _ (by rfl)) o) $$ Ht
  icases Ht with ⟨Ho0_0, Ht⟩
  ihave Ht := (take_oRow' d L (widL L) (32 * k.val + 1) (32 * k.val + 2) (by omega) (by omega) (k2_off11 L k 0#32 1#32) (k2_off11_inb L k 0 1) (off11_n L k 0 1 _ (by rfl)) o) $$ Ht
  icases Ht with ⟨Ho0_1, Ht⟩
  ihave Ht := (take_oRow' d L (widL L) (32 * k.val + 2) (32 * k.val + 3) (by omega) (by omega) (k2_off11 L k 0#32 2#32) (k2_off11_inb L k 0 2) (off11_n L k 0 2 _ (by rfl)) o) $$ Ht
  icases Ht with ⟨Ho0_2, Ht⟩
  ihave Ht := (take_oRow' d L (widL L) (32 * k.val + 3) (32 * k.val + 4) (by omega) (by omega) (k2_off11 L k 0#32 3#32) (k2_off11_inb L k 0 3) (off11_n L k 0 3 _ (by rfl)) o) $$ Ht
  icases Ht with ⟨Ho0_3, Ht⟩
  ihave Ht := (take_oRow' d L (widL L) (32 * k.val + 4) (32 * k.val + 5) (by omega) (by omega) (k2_off11 L k 1#32 0#32) (k2_off11_inb L k 1 0) (off11_n L k 1 0 _ (by rfl)) o) $$ Ht
  icases Ht with ⟨Ho1_0, Ht⟩
  ihave Ht := (take_oRow' d L (widL L) (32 * k.val + 5) (32 * k.val + 6) (by omega) (by omega) (k2_off11 L k 1#32 1#32) (k2_off11_inb L k 1 1) (off11_n L k 1 1 _ (by rfl)) o) $$ Ht
  icases Ht with ⟨Ho1_1, Ht⟩
  ihave Ht := (take_oRow' d L (widL L) (32 * k.val + 6) (32 * k.val + 7) (by omega) (by omega) (k2_off11 L k 1#32 2#32) (k2_off11_inb L k 1 2) (off11_n L k 1 2 _ (by rfl)) o) $$ Ht
  icases Ht with ⟨Ho1_2, Ht⟩
  ihave Ht := (take_oRow' d L (widL L) (32 * k.val + 7) (32 * k.val + 8) (by omega) (by omega) (k2_off11 L k 1#32 3#32) (k2_off11_inb L k 1 3) (off11_n L k 1 3 _ (by rfl)) o) $$ Ht
  icases Ht with ⟨Ho1_3, Ht⟩
  ihave Ht := (take_oRow' d L (widL L) (32 * k.val + 8) (32 * k.val + 9) (by omega) (by omega) (k2_off11 L k 2#32 0#32) (k2_off11_inb L k 2 0) (off11_n L k 2 0 _ (by rfl)) o) $$ Ht
  icases Ht with ⟨Ho2_0, Ht⟩
  ihave Ht := (take_oRow' d L (widL L) (32 * k.val + 9) (32 * k.val + 10) (by omega) (by omega) (k2_off11 L k 2#32 1#32) (k2_off11_inb L k 2 1) (off11_n L k 2 1 _ (by rfl)) o) $$ Ht
  icases Ht with ⟨Ho2_1, Ht⟩
  ihave Ht := (take_oRow' d L (widL L) (32 * k.val + 10) (32 * k.val + 11) (by omega) (by omega) (k2_off11 L k 2#32 2#32) (k2_off11_inb L k 2 2) (off11_n L k 2 2 _ (by rfl)) o) $$ Ht
  icases Ht with ⟨Ho2_2, Ht⟩
  ihave Ht := (take_oRow' d L (widL L) (32 * k.val + 11) (32 * k.val + 12) (by omega) (by omega) (k2_off11 L k 2#32 3#32) (k2_off11_inb L k 2 3) (off11_n L k 2 3 _ (by rfl)) o) $$ Ht
  icases Ht with ⟨Ho2_3, Ht⟩
  ihave Ht := (take_oRow' d L (widL L) (32 * k.val + 12) (32 * k.val + 13) (by omega) (by omega) (k2_off11 L k 3#32 0#32) (k2_off11_inb L k 3 0) (off11_n L k 3 0 _ (by rfl)) o) $$ Ht
  icases Ht with ⟨Ho3_0, Ht⟩
  ihave Ht := (take_oRow' d L (widL L) (32 * k.val + 13) (32 * k.val + 14) (by omega) (by omega) (k2_off11 L k 3#32 1#32) (k2_off11_inb L k 3 1) (off11_n L k 3 1 _ (by rfl)) o) $$ Ht
  icases Ht with ⟨Ho3_1, Ht⟩
  ihave Ht := (take_oRow' d L (widL L) (32 * k.val + 14) (32 * k.val + 15) (by omega) (by omega) (k2_off11 L k 3#32 2#32) (k2_off11_inb L k 3 2) (off11_n L k 3 2 _ (by rfl)) o) $$ Ht
  icases Ht with ⟨Ho3_2, Ht⟩
  ihave Ht := (take_oRow' d L (widL L) (32 * k.val + 15) (32 * k.val + 16) (by omega) (by omega) (k2_off11 L k 3#32 3#32) (k2_off11_inb L k 3 3) (off11_n L k 3 3 _ (by rfl)) o) $$ Ht
  icases Ht with ⟨Ho3_3, Ht⟩
  ihave Ht := (take_oRow' d L (widL L) (32 * k.val + 16) (32 * k.val + 17) (by omega) (by omega) (k2_off11 L k 4#32 0#32) (k2_off11_inb L k 4 0) (off11_n L k 4 0 _ (by rfl)) o) $$ Ht
  icases Ht with ⟨Ho4_0, Ht⟩
  ihave Ht := (take_oRow' d L (widL L) (32 * k.val + 17) (32 * k.val + 18) (by omega) (by omega) (k2_off11 L k 4#32 1#32) (k2_off11_inb L k 4 1) (off11_n L k 4 1 _ (by rfl)) o) $$ Ht
  icases Ht with ⟨Ho4_1, Ht⟩
  ihave Ht := (take_oRow' d L (widL L) (32 * k.val + 18) (32 * k.val + 19) (by omega) (by omega) (k2_off11 L k 4#32 2#32) (k2_off11_inb L k 4 2) (off11_n L k 4 2 _ (by rfl)) o) $$ Ht
  icases Ht with ⟨Ho4_2, Ht⟩
  ihave Ht := (take_oRow' d L (widL L) (32 * k.val + 19) (32 * k.val + 20) (by omega) (by omega) (k2_off11 L k 4#32 3#32) (k2_off11_inb L k 4 3) (off11_n L k 4 3 _ (by rfl)) o) $$ Ht
  icases Ht with ⟨Ho4_3, Ht⟩
  ihave Ht := (take_oRow' d L (widL L) (32 * k.val + 20) (32 * k.val + 21) (by omega) (by omega) (k2_off11 L k 5#32 0#32) (k2_off11_inb L k 5 0) (off11_n L k 5 0 _ (by rfl)) o) $$ Ht
  icases Ht with ⟨Ho5_0, Ht⟩
  ihave Ht := (take_oRow' d L (widL L) (32 * k.val + 21) (32 * k.val + 22) (by omega) (by omega) (k2_off11 L k 5#32 1#32) (k2_off11_inb L k 5 1) (off11_n L k 5 1 _ (by rfl)) o) $$ Ht
  icases Ht with ⟨Ho5_1, Ht⟩
  ihave Ht := (take_oRow' d L (widL L) (32 * k.val + 22) (32 * k.val + 23) (by omega) (by omega) (k2_off11 L k 5#32 2#32) (k2_off11_inb L k 5 2) (off11_n L k 5 2 _ (by rfl)) o) $$ Ht
  icases Ht with ⟨Ho5_2, Ht⟩
  ihave Ht := (take_oRow' d L (widL L) (32 * k.val + 23) (32 * k.val + 24) (by omega) (by omega) (k2_off11 L k 5#32 3#32) (k2_off11_inb L k 5 3) (off11_n L k 5 3 _ (by rfl)) o) $$ Ht
  icases Ht with ⟨Ho5_3, Ht⟩
  ihave Ht := (take_oRow' d L (widL L) (32 * k.val + 24) (32 * k.val + 25) (by omega) (by omega) (k2_off11 L k 6#32 0#32) (k2_off11_inb L k 6 0) (off11_n L k 6 0 _ (by rfl)) o) $$ Ht
  icases Ht with ⟨Ho6_0, Ht⟩
  ihave Ht := (take_oRow' d L (widL L) (32 * k.val + 25) (32 * k.val + 26) (by omega) (by omega) (k2_off11 L k 6#32 1#32) (k2_off11_inb L k 6 1) (off11_n L k 6 1 _ (by rfl)) o) $$ Ht
  icases Ht with ⟨Ho6_1, Ht⟩
  ihave Ht := (take_oRow' d L (widL L) (32 * k.val + 26) (32 * k.val + 27) (by omega) (by omega) (k2_off11 L k 6#32 2#32) (k2_off11_inb L k 6 2) (off11_n L k 6 2 _ (by rfl)) o) $$ Ht
  icases Ht with ⟨Ho6_2, Ht⟩
  ihave Ht := (take_oRow' d L (widL L) (32 * k.val + 27) (32 * k.val + 28) (by omega) (by omega) (k2_off11 L k 6#32 3#32) (k2_off11_inb L k 6 3) (off11_n L k 6 3 _ (by rfl)) o) $$ Ht
  icases Ht with ⟨Ho6_3, Ht⟩
  ihave Ht := (take_oRow' d L (widL L) (32 * k.val + 28) (32 * k.val + 29) (by omega) (by omega) (k2_off11 L k 7#32 0#32) (k2_off11_inb L k 7 0) (off11_n L k 7 0 _ (by rfl)) o) $$ Ht
  icases Ht with ⟨Ho7_0, Ht⟩
  ihave Ht := (take_oRow' d L (widL L) (32 * k.val + 29) (32 * k.val + 30) (by omega) (by omega) (k2_off11 L k 7#32 1#32) (k2_off11_inb L k 7 1) (off11_n L k 7 1 _ (by rfl)) o) $$ Ht
  icases Ht with ⟨Ho7_1, Ht⟩
  ihave Ht := (take_oRow' d L (widL L) (32 * k.val + 30) (32 * k.val + 31) (by omega) (by omega) (k2_off11 L k 7#32 2#32) (k2_off11_inb L k 7 2) (off11_n L k 7 2 _ (by rfl)) o) $$ Ht
  icases Ht with ⟨Ho7_2, Ht⟩
  ihave Ht := (take_oRow' d L (widL L) (32 * k.val + 31) (32 * k.val + 32) (by omega) (by omega) (k2_off11 L k 7#32 3#32) (k2_off11_inb L k 7 3) (off11_n L k 7 3 _ (by rfl)) o) $$ Ht
  icases Ht with ⟨Ho7_3, Ht⟩
  unfold k2_t1_body
  sl_exec
  -- buffer 0 drained: its four rows of the output join the finished rows, its slices the whole buffer; its semaphore kept aside
  ihave Hd := (drn_put0 d L cmb ix o k' ⟨0, by decide⟩ (32 * k'.val) (32 * k'.val + 1) (by first | rfl | omega) (by first | rfl | omega)) $$ [Hd HB0_dst0]
  · isplitl [Hd] <;> iassumption
  ihave Hd := (drn_put0 d L cmb ix o k' ⟨1, by decide⟩ (32 * k'.val + 1) (32 * k'.val + 2) (by first | rfl | omega) (by first | rfl | omega)) $$ [Hd HB0_dst1]
  · isplitl [Hd] <;> iassumption
  ihave Hd := (drn_put0 d L cmb ix o k' ⟨2, by decide⟩ (32 * k'.val + 2) (32 * k'.val + 3) (by first | rfl | omega) (by first | rfl | omega)) $$ [Hd HB0_dst2]
  · isplitl [Hd] <;> iassumption
  ihave Hd := (drn_put0 d L cmb ix o k' ⟨3, by decide⟩ (32 * k'.val + 3) (32 * k'.val + 4) (by first | rfl | omega) (by first | rfl | omega)) $$ [Hd HB0_dst3]
  · isplitl [Hd] <;> iassumption
  ihave Hb0 := (drn_join0 d L _) $$ [HB0_src0 HB0_src1 HB0_src2 HB0_src3]
  · isplitl [HB0_src0]; · iexact HB0_src0
    isplitl [HB0_src1]; · iexact HB0_src1
    isplitl [HB0_src2]; · iexact HB0_src2
    iexact HB0_src3
  ihave Hs0 := (ts_sem_hide d L cc2_scratch17.sem (⟨17, _⟩ : DmaSem sig) rfl) $$ HB0
  sl_exec
  -- buffer 1 drained: its four rows of the output join the finished rows, its slices the whole buffer; its semaphore kept aside
  ihave Hd := (drn_put1 d L cmb ix o k' ⟨0, by decide⟩ (32 * k'.val + 4) (32 * k'.val + 5) (by first | rfl | omega) (by first | rfl | omega)) $$ [Hd HB1_dst0]
  · isplitl [Hd] <;> iassumption
  ihave Hd := (drn_put1 d L cmb ix o k' ⟨1, by decide⟩ (32 * k'.val + 5) (32 * k'.val + 6) (by first | rfl | omega) (by first | rfl | omega)) $$ [Hd HB1_dst1]
  · isplitl [Hd] <;> iassumption
  ihave Hd := (drn_put1 d L cmb ix o k' ⟨2, by decide⟩ (32 * k'.val + 6) (32 * k'.val + 7) (by first | rfl | omega) (by first | rfl | omega)) $$ [Hd HB1_dst2]
  · isplitl [Hd] <;> iassumption
  ihave Hd := (drn_put1 d L cmb ix o k' ⟨3, by decide⟩ (32 * k'.val + 7) (32 * k'.val + 8) (by first | rfl | omega) (by first | rfl | omega)) $$ [Hd HB1_dst3]
  · isplitl [Hd] <;> iassumption
  ihave Hb1 := (drn_join1 d L _) $$ [HB1_src0 HB1_src1 HB1_src2 HB1_src3]
  · isplitl [HB1_src0]; · iexact HB1_src0
    isplitl [HB1_src1]; · iexact HB1_src1
    isplitl [HB1_src2]; · iexact HB1_src2
    iexact HB1_src3
  ihave Hs1 := (ts_sem_hide d L cc2_scratch18.sem (⟨18, _⟩ : DmaSem sig) rfl) $$ HB1
  sl_exec
  -- buffer 2 drained: its four rows of the output join the finished rows, its slices the whole buffer; its semaphore kept aside
  ihave Hd := (drn_put2 d L cmb ix o k' ⟨0, by decide⟩ (32 * k'.val + 8) (32 * k'.val + 9) (by first | rfl | omega) (by first | rfl | omega)) $$ [Hd HB2_dst0]
  · isplitl [Hd] <;> iassumption
  ihave Hd := (drn_put2 d L cmb ix o k' ⟨1, by decide⟩ (32 * k'.val + 9) (32 * k'.val + 10) (by first | rfl | omega) (by first | rfl | omega)) $$ [Hd HB2_dst1]
  · isplitl [Hd] <;> iassumption
  ihave Hd := (drn_put2 d L cmb ix o k' ⟨2, by decide⟩ (32 * k'.val + 10) (32 * k'.val + 11) (by first | rfl | omega) (by first | rfl | omega)) $$ [Hd HB2_dst2]
  · isplitl [Hd] <;> iassumption
  ihave Hd := (drn_put2 d L cmb ix o k' ⟨3, by decide⟩ (32 * k'.val + 11) (32 * k'.val + 12) (by first | rfl | omega) (by first | rfl | omega)) $$ [Hd HB2_dst3]
  · isplitl [Hd] <;> iassumption
  ihave Hb2 := (drn_join2 d L _) $$ [HB2_src0 HB2_src1 HB2_src2 HB2_src3]
  · isplitl [HB2_src0]; · iexact HB2_src0
    isplitl [HB2_src1]; · iexact HB2_src1
    isplitl [HB2_src2]; · iexact HB2_src2
    iexact HB2_src3
  ihave Hs2 := (ts_sem_hide d L cc2_scratch19.sem (⟨19, _⟩ : DmaSem sig) rfl) $$ HB2
  sl_exec
  -- buffer 3 drained: its four rows of the output join the finished rows, its slices the whole buffer; its semaphore kept aside
  ihave Hd := (drn_put3 d L cmb ix o k' ⟨0, by decide⟩ (32 * k'.val + 12) (32 * k'.val + 13) (by first | rfl | omega) (by first | rfl | omega)) $$ [Hd HB3_dst0]
  · isplitl [Hd] <;> iassumption
  ihave Hd := (drn_put3 d L cmb ix o k' ⟨1, by decide⟩ (32 * k'.val + 13) (32 * k'.val + 14) (by first | rfl | omega) (by first | rfl | omega)) $$ [Hd HB3_dst1]
  · isplitl [Hd] <;> iassumption
  ihave Hd := (drn_put3 d L cmb ix o k' ⟨2, by decide⟩ (32 * k'.val + 14) (32 * k'.val + 15) (by first | rfl | omega) (by first | rfl | omega)) $$ [Hd HB3_dst2]
  · isplitl [Hd] <;> iassumption
  ihave Hd := (drn_put3 d L cmb ix o k' ⟨3, by decide⟩ (32 * k'.val + 15) (32 * k'.val + 16) (by first | rfl | omega) (by first | rfl | omega)) $$ [Hd HB3_dst3]
  · isplitl [Hd] <;> iassumption
  ihave Hb3 := (drn_join3 d L _) $$ [HB3_src0 HB3_src1 HB3_src2 HB3_src3]
  · isplitl [HB3_src0]; · iexact HB3_src0
    isplitl [HB3_src1]; · iexact HB3_src1
    isplitl [HB3_src2]; · iexact HB3_src2
    iexact HB3_src3
  ihave Hs3 := (ts_sem_hide d L cc2_scratch20.sem (⟨20, _⟩ : DmaSem sig) rfl) $$ HB3
  sl_exec
  -- buffer 4 drained: its four rows of the output join the finished rows, its slices the whole buffer; its semaphore kept aside
  ihave Hd := (drn_put4 d L cmb ix o k' ⟨0, by decide⟩ (32 * k'.val + 16) (32 * k'.val + 17) (by first | rfl | omega) (by first | rfl | omega)) $$ [Hd HB4_dst0]
  · isplitl [Hd] <;> iassumption
  ihave Hd := (drn_put4 d L cmb ix o k' ⟨1, by decide⟩ (32 * k'.val + 17) (32 * k'.val + 18) (by first | rfl | omega) (by first | rfl | omega)) $$ [Hd HB4_dst1]
  · isplitl [Hd] <;> iassumption
  ihave Hd := (drn_put4 d L cmb ix o k' ⟨2, by decide⟩ (32 * k'.val + 18) (32 * k'.val + 19) (by first | rfl | omega) (by first | rfl | omega)) $$ [Hd HB4_dst2]
  · isplitl [Hd] <;> iassumption
  ihave Hd := (drn_put4 d L cmb ix o k' ⟨3, by decide⟩ (32 * k'.val + 19) (32 * k'.val + 20) (by first | rfl | omega) (by first | rfl | omega)) $$ [Hd HB4_dst3]
  · isplitl [Hd] <;> iassumption
  ihave Hb4 := (drn_join4 d L _) $$ [HB4_src0 HB4_src1 HB4_src2 HB4_src3]
  · isplitl [HB4_src0]; · iexact HB4_src0
    isplitl [HB4_src1]; · iexact HB4_src1
    isplitl [HB4_src2]; · iexact HB4_src2
    iexact HB4_src3
  ihave Hs4 := (ts_sem_hide d L cc2_scratch21.sem (⟨21, _⟩ : DmaSem sig) rfl) $$ HB4
  sl_exec
  -- buffer 5 drained: its four rows of the output join the finished rows, its slices the whole buffer; its semaphore kept aside
  ihave Hd := (drn_put5 d L cmb ix o k' ⟨0, by decide⟩ (32 * k'.val + 20) (32 * k'.val + 21) (by first | rfl | omega) (by first | rfl | omega)) $$ [Hd HB5_dst0]
  · isplitl [Hd] <;> iassumption
  ihave Hd := (drn_put5 d L cmb ix o k' ⟨1, by decide⟩ (32 * k'.val + 21) (32 * k'.val + 22) (by first | rfl | omega) (by first | rfl | omega)) $$ [Hd HB5_dst1]
  · isplitl [Hd] <;> iassumption
  ihave Hd := (drn_put5 d L cmb ix o k' ⟨2, by decide⟩ (32 * k'.val + 22) (32 * k'.val + 23) (by first | rfl | omega) (by first | rfl | omega)) $$ [Hd HB5_dst2]
  · isplitl [Hd] <;> iassumption
  ihave Hd := (drn_put5 d L cmb ix o k' ⟨3, by decide⟩ (32 * k'.val + 23) (32 * k'.val + 24) (by first | rfl | omega) (by first | rfl | omega)) $$ [Hd HB5_dst3]
  · isplitl [Hd] <;> iassumption
  ihave Hb5 := (drn_join5 d L _) $$ [HB5_src0 HB5_src1 HB5_src2 HB5_src3]
  · isplitl [HB5_src0]; · iexact HB5_src0
    isplitl [HB5_src1]; · iexact HB5_src1
    isplitl [HB5_src2]; · iexact HB5_src2
    iexact HB5_src3
  ihave Hs5 := (ts_sem_hide d L cc2_scratch22.sem (⟨22, _⟩ : DmaSem sig) rfl) $$ HB5
  sl_exec
  -- buffer 6 drained: its four rows of the output join the finished rows, its slices the whole buffer; its semaphore kept aside
  ihave Hd := (drn_put6 d L cmb ix o k' ⟨0, by decide⟩ (32 * k'.val + 24) (32 * k'.val + 25) (by first | rfl | omega) (by first | rfl | omega)) $$ [Hd HB6_dst0]
  · isplitl [Hd] <;> iassumption
  ihave Hd := (drn_put6 d L cmb ix o k' ⟨1, by decide⟩ (32 * k'.val + 25) (32 * k'.val + 26) (by first | rfl | omega) (by first | rfl | omega)) $$ [Hd HB6_dst1]
  · isplitl [Hd] <;> iassumption
  ihave Hd := (drn_put6 d L cmb ix o k' ⟨2, by decide⟩ (32 * k'.val + 26) (32 * k'.val + 27) (by first | rfl | omega) (by first | rfl | omega)) $$ [Hd HB6_dst2]
  · isplitl [Hd] <;> iassumption
  ihave Hd := (drn_put6 d L cmb ix o k' ⟨3, by decide⟩ (32 * k'.val + 27) (32 * k'.val + 28) (by first | rfl | omega) (by first | rfl | omega)) $$ [Hd HB6_dst3]
  · isplitl [Hd] <;> iassumption
  ihave Hb6 := (drn_join6 d L _) $$ [HB6_src0 HB6_src1 HB6_src2 HB6_src3]
  · isplitl [HB6_src0]; · iexact HB6_src0
    isplitl [HB6_src1]; · iexact HB6_src1
    isplitl [HB6_src2]; · iexact HB6_src2
    iexact HB6_src3
  ihave Hs6 := (ts_sem_hide d L cc2_scratch23.sem (⟨23, _⟩ : DmaSem sig) rfl) $$ HB6
  sl_exec
  -- buffer 7 drained: its four rows of the output join the finished rows, its slices the whole buffer; its semaphore kept aside
  ihave Hd := (drn_put7 d L cmb ix o k' ⟨0, by decide⟩ (32 * k'.val + 28) (32 * k'.val + 29) (by first | rfl | omega) (by first | rfl | omega)) $$ [Hd HB7_dst0]
  · isplitl [Hd] <;> iassumption
  ihave Hd := (drn_put7 d L cmb ix o k' ⟨1, by decide⟩ (32 * k'.val + 29) (32 * k'.val + 30) (by first | rfl | omega) (by first | rfl | omega)) $$ [Hd HB7_dst1]
  · isplitl [Hd] <;> iassumption
  ihave Hd := (drn_put7 d L cmb ix o k' ⟨2, by decide⟩ (32 * k'.val + 30) (32 * k'.val + 31) (by first | rfl | omega) (by first | rfl | omega)) $$ [Hd HB7_dst2]
  · isplitl [Hd] <;> iassumption
  ihave Hd := (drn_put7 d L cmb ix o k' ⟨3, by decide⟩ (32 * k'.val + 31) (32 * k'.val + 32) (by first | rfl | omega) (by first | rfl | omega)) $$ [Hd HB7_dst3]
  · isplitl [Hd] <;> iassumption
  ihave Hb7 := (drn_join7 d L _) $$ [HB7_src0 HB7_src1 HB7_src2 HB7_src3]
  · isplitl [HB7_src0]; · iexact HB7_src0
    isplitl [HB7_src1]; · iexact HB7_src1
    isplitl [HB7_src2]; · iexact HB7_src2
    iexact HB7_src3
  ihave Hs7 := (ts_sem_hide d L cc2_scratch24.sem (⟨24, _⟩ : DmaSem sig) rfl) $$ HB7
  sl_exec
  -- buffer 0: the gathered rows named, the buffer as its four slices, the batch of its four copies allocated
  ihave Hb0 := (buf_land0 d L _ _) $$ Hb0
  icases Hb0 with ⟨%g0, %hg0, Hq0_0, Hq0_1, Hq0_2, Hq0_3⟩
  have hg0' : g0 = gbuf cmb ix (widL L) (8 * k.val + 0) :=
    hg0.trans (gather_val d L cmb ix sc0 hsc0 (8 * k.val + 0) (by omega) _ (k2_off3_inb k 0) (k2_off3_eq k 0) (fun x => hin0 x))
  subst hg0'
  ihave Hs0 := (Entails.of_eq (hid_eq _)) $$ Hs0
  imod (Transfers.batch_alloc' (Lvl := ℕ) countersEmb (thrV d L) default 81920 (dlv0 d L k o (gbuf cmb ix (widL L) (8 * k.val + 0))) (sm := .dma cc2_scratch17.sem) (E := Set.univ)) $$ Hs0 with HB0
  sl_exec
  -- buffer 1: the gathered rows named, the buffer as its four slices, the batch of its four copies allocated
  ihave Hb1 := (buf_land1 d L _ _) $$ Hb1
  icases Hb1 with ⟨%g1, %hg1, Hq1_0, Hq1_1, Hq1_2, Hq1_3⟩
  have hg1' : g1 = gbuf cmb ix (widL L) (8 * k.val + 1) :=
    hg1.trans (gather_val d L cmb ix sc0 hsc0 (8 * k.val + 1) (by omega) _ (k2_off3_inb k 1) (k2_off3_eq k 1) (fun x => hin1 x))
  subst hg1'
  ihave Hs1 := (Entails.of_eq (hid_eq _)) $$ Hs1
  imod (Transfers.batch_alloc' (Lvl := ℕ) countersEmb (thrV d L) default 81920 (dlv1 d L k o (gbuf cmb ix (widL L) (8 * k.val + 1))) (sm := .dma cc2_scratch18.sem) (E := Set.univ)) $$ Hs1 with HB1
  sl_exec
  -- buffer 2: the gathered rows named, the buffer as its four slices, the batch of its four copies allocated
  ihave Hb2 := (buf_land2 d L _ _) $$ Hb2
  icases Hb2 with ⟨%g2, %hg2, Hq2_0, Hq2_1, Hq2_2, Hq2_3⟩
  have hg2' : g2 = gbuf cmb ix (widL L) (8 * k.val + 2) :=
    hg2.trans (gather_val d L cmb ix sc0 hsc0 (8 * k.val + 2) (by omega) _ (k2_off3_inb k 2) (k2_off3_eq k 2) (fun x => hin2 x))
  subst hg2'
  ihave Hs2 := (Entails.of_eq (hid_eq _)) $$ Hs2
  imod (Transfers.batch_alloc' (Lvl := ℕ) countersEmb (thrV d L) default 81920 (dlv2 d L k o (gbuf cmb ix (widL L) (8 * k.val + 2))) (sm := .dma cc2_scratch19.sem) (E := Set.univ)) $$ Hs2 with HB2
  sl_exec
  -- buffer 3: the gathered rows named, the buffer as its four slices, the batch of its four copies allocated
  ihave Hb3 := (buf_land3 d L _ _) $$ Hb3
  icases Hb3 with ⟨%g3, %hg3, Hq3_0, Hq3_1, Hq3_2, Hq3_3⟩
  have hg3' : g3 = gbuf cmb ix (widL L) (8 * k.val + 3) :=
    hg3.trans (gather_val d L cmb ix sc0 hsc0 (8 * k.val + 3) (by omega) _ (k2_off3_inb k 3) (k2_off3_eq k 3) (fun x => hin3 x))
  subst hg3'
  ihave Hs3 := (Entails.of_eq (hid_eq _)) $$ Hs3
  imod (Transfers.batch_alloc' (Lvl := ℕ) countersEmb (thrV d L) default 81920 (dlv3 d L k o (gbuf cmb ix (widL L) (8 * k.val + 3))) (sm := .dma cc2_scratch20.sem) (E := Set.univ)) $$ Hs3 with HB3
  sl_exec
  -- buffer 4: the gathered rows named, the buffer as its four slices, the batch of its four copies allocated
  ihave Hb4 := (buf_land4 d L _ _) $$ Hb4
  icases Hb4 with ⟨%g4, %hg4, Hq4_0, Hq4_1, Hq4_2, Hq4_3⟩
  have hg4' : g4 = gbuf cmb ix (widL L) (8 * k.val + 4) :=
    hg4.trans (gather_val d L cmb ix sc0 hsc0 (8 * k.val + 4) (by omega) _ (k2_off3_inb k 4) (k2_off3_eq k 4) (fun x => hin4 x))
  subst hg4'
  ihave Hs4 := (Entails.of_eq (hid_eq _)) $$ Hs4
  imod (Transfers.batch_alloc' (Lvl := ℕ) countersEmb (thrV d L) default 81920 (dlv4 d L k o (gbuf cmb ix (widL L) (8 * k.val + 4))) (sm := .dma cc2_scratch21.sem) (E := Set.univ)) $$ Hs4 with HB4
  sl_exec
  -- buffer 5: the gathered rows named, the buffer as its four slices, the batch of its four copies allocated
  ihave Hb5 := (buf_land5 d L _ _) $$ Hb5
  icases Hb5 with ⟨%g5, %hg5, Hq5_0, Hq5_1, Hq5_2, Hq5_3⟩
  have hg5' : g5 = gbuf cmb ix (widL L) (8 * k.val + 5) :=
    hg5.trans (gather_val d L cmb ix sc0 hsc0 (8 * k.val + 5) (by omega) _ (k2_off3_inb k 5) (k2_off3_eq k 5) (fun x => hin5 x))
  subst hg5'
  ihave Hs5 := (Entails.of_eq (hid_eq _)) $$ Hs5
  imod (Transfers.batch_alloc' (Lvl := ℕ) countersEmb (thrV d L) default 81920 (dlv5 d L k o (gbuf cmb ix (widL L) (8 * k.val + 5))) (sm := .dma cc2_scratch22.sem) (E := Set.univ)) $$ Hs5 with HB5
  sl_exec
  -- buffer 6: the gathered rows named, the buffer as its four slices, the batch of its four copies allocated
  ihave Hb6 := (buf_land6 d L _ _) $$ Hb6
  icases Hb6 with ⟨%g6, %hg6, Hq6_0, Hq6_1, Hq6_2, Hq6_3⟩
  have hg6' : g6 = gbuf cmb ix (widL L) (8 * k.val + 6) :=
    hg6.trans (gather_val d L cmb ix sc0 hsc0 (8 * k.val + 6) (by omega) _ (k2_off3_inb k 6) (k2_off3_eq k 6) (fun x => hin6 x))
  subst hg6'
  ihave Hs6 := (Entails.of_eq (hid_eq _)) $$ Hs6
  imod (Transfers.batch_alloc' (Lvl := ℕ) countersEmb (thrV d L) default 81920 (dlv6 d L k o (gbuf cmb ix (widL L) (8 * k.val + 6))) (sm := .dma cc2_scratch23.sem) (E := Set.univ)) $$ Hs6 with HB6
  sl_exec
  -- buffer 7: the gathered rows named, the buffer as its four slices, the batch of its four copies allocated
  ihave Hb7 := (buf_land7 d L _ _) $$ Hb7
  icases Hb7 with ⟨%g7, %hg7, Hq7_0, Hq7_1, Hq7_2, Hq7_3⟩
  have hg7' : g7 = gbuf cmb ix (widL L) (8 * k.val + 7) :=
    hg7.trans (gather_val d L cmb ix sc0 hsc0 (8 * k.val + 7) (by omega) _ (k2_off3_inb k 7) (k2_off3_eq k 7) (fun x => hin7 x))
  subst hg7'
  ihave Hs7 := (Entails.of_eq (hid_eq _)) $$ Hs7
  imod (Transfers.batch_alloc' (Lvl := ℕ) countersEmb (thrV d L) default 81920 (dlv7 d L k o (gbuf cmb ix (widL L) (8 * k.val + 7))) (sm := .dma cc2_scratch24.sem) (E := Set.univ)) $$ Hs7 with HB7
  sl_exec
  sl_step
  isplitr; · iexact Hmw
  isplitl [HO]
  · iexists _; isplitr
    swap; · iexact HO
    ipureintro
    repeat (first | exact fun p hp => Or.inl hp | refine mem_ins ?_ rfl)
  isplitl [Hv0 Hv1 Hv2 Hv3 Hv4 Hv5 Hv6 Hv7 Hl0 Hl1 Hl2 Hl3 Hl4 Hl5 Hl6 Hl7 Hg0 Hg1 Hg2 Hg3 Hg4 Hg5 Hg6 Hg7]
  · isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    iexact Hg7
  isplitl [Hd]; · iexact Hd
  isplitl [Ht]; · iexact Ht
  isplitl [HB0]; · iexact HB0
  isplitl [HB1]; · iexact HB1
  isplitl [HB2]; · iexact HB2
  isplitl [HB3]; · iexact HB3
  isplitl [HB4]; · iexact HB4
  isplitl [HB5]; · iexact HB5
  isplitl [HB6]; · iexact HB6
  iexact HB7

end Cert.Proof.Tile

end
-- ==== Proof.TileBodyDrain.lean ====
import proofs.«206393_g35751307772044_cont_8to1_b_353_20_alg».proof.Proof.TileBodyInv

noncomputable section

namespace Cert.Proof.Tile

open Cert.KernelIdeal Cert.KernelIdeal.Gen
open Cert.Proof.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ

variable (d : Dev nD) (L : grid2.Coords) (cmb : Buf (Elt F) (v5Loc d)) (ix : Buf (Elt F) (v6Loc d)) (o : Buf (Elt F) (v7Loc d))
  (sc0 : Buf (Elt F) ((lstV).view.loc (thrV d L))) (O : CellTallies nD τ sig (HIx 1))

/-- Slice `e` of row buffer 0 read at (p, q) is the buffer at (20 e + p, q). -/
private theorem cdrn_pay0 (gv : FVec F S80x128 .f32) (e : Fin 4) (x : S20x128.Idx) :
    ReadAs.same.apply ((bslE0 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE0 e).view.read (Elt F) gv x = _
  rw [show (bslE0 e).view.read (Elt F) gv x = gv ((bslE0 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- One landed batch element of row buffer 0's copies joins the tile's finished rows. -/
private theorem cdrn_row0 (k : Fin k2_t1_loop.trips) (hk : k.val = 15) (e : Fin 4) (a a' : ℕ)
    (ha : a = 32 * k.val + (4 * 0 + e.val)) (ha' : a' = a + 1) :
    iprop(doneI d L cmb ix a ∗ ((oRowE0 L k e).view.loc (thrV d L) ↦[(oRowE0 L k e).view.set]{fullShare}
        (oRowE0 L k e).view.writes (Elt F) o
          [⟨Rect.whole S20x128, ReadAs.same.apply ((bslE0 e).view.read (Elt F) (gbuf cmb ix (widL L) (8 * k.val + 0)))⟩]))
      ⊢ (doneI d L cmb ix a' : sProp 𝕄) := by
  subst ha ha'
  have he := e.isLt
  have hc : 8 * k.val + 0 < 128 := by omega
  have hoff1 : k2_off11 L k 0#32 (BitVec.ofNat 32 e.val) = ![512 * (widL L).val + (4 * (8 * k.val + 0) + e.val), 0, 0] :=
    off11_n L k (⟨0, by decide⟩ : Fin 8) e _ (by show _ = 32 * k.val + (4 * 0 + e.val); omega)
  have hoff2 : k2_off11 L k 0#32 (BitVec.ofNat 32 e.val) = ![512 * (widL L).val + (32 * k.val + (4 * 0 + e.val)), 0, 0] :=
    off11_n L k (⟨0, by decide⟩ : Fin 8) e _ rfl
  refine (sep_mono_right (Entails.of_eq (oRow_landed d L cmb ix o (8 * k.val + 0) hc e _ (k2_off11_inb L k 0 e) hoff1 _
    (fun x => cdrn_pay0 _ e x)))).trans ?_
  exact put_oRow d L (widL L) _ _ (k2_off11_inb L k 0 e) hoff2 (gOut cmb ix)

/-- Row buffer 0's four slices back are the buffer whole, at some contents. -/
private theorem cdrn_buf0 (gv : FVec F S80x128 .f32) :
    iprop(((bslE0 0).view.loc (thrV d L) ↦[(bslE0 0).view.set]{fullShare} gv)
        ∗ ((bslE0 1).view.loc (thrV d L) ↦[(bslE0 1).view.set]{fullShare} gv)
        ∗ ((bslE0 2).view.loc (thrV d L) ↦[(bslE0 2).view.set]{fullShare} gv)
        ∗ ((bslE0 3).view.loc (thrV d L) ↦[(bslE0 3).view.set]{fullShare} gv))
      ⊢ (iprop(∃ f, (bufM0).view.loc (thrV d L) ↦{fullShare} f) : sProp 𝕄) := by
  iintro H
  iexists gv
  iapply (Entails.of_eq (buf_split0 d L gv).symm)
  iexact H

/-- Slice `e` of row buffer 1 read at (p, q) is the buffer at (20 e + p, q). -/
private theorem cdrn_pay1 (gv : FVec F S80x128 .f32) (e : Fin 4) (x : S20x128.Idx) :
    ReadAs.same.apply ((bslE1 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE1 e).view.read (Elt F) gv x = _
  rw [show (bslE1 e).view.read (Elt F) gv x = gv ((bslE1 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- One landed batch element of row buffer 1's copies joins the tile's finished rows. -/
private theorem cdrn_row1 (k : Fin k2_t1_loop.trips) (hk : k.val = 15) (e : Fin 4) (a a' : ℕ)
    (ha : a = 32 * k.val + (4 * 1 + e.val)) (ha' : a' = a + 1) :
    iprop(doneI d L cmb ix a ∗ ((oRowE1 L k e).view.loc (thrV d L) ↦[(oRowE1 L k e).view.set]{fullShare}
        (oRowE1 L k e).view.writes (Elt F) o
          [⟨Rect.whole S20x128, ReadAs.same.apply ((bslE1 e).view.read (Elt F) (gbuf cmb ix (widL L) (8 * k.val + 1)))⟩]))
      ⊢ (doneI d L cmb ix a' : sProp 𝕄) := by
  subst ha ha'
  have he := e.isLt
  have hc : 8 * k.val + 1 < 128 := by omega
  have hoff1 : k2_off11 L k 1#32 (BitVec.ofNat 32 e.val) = ![512 * (widL L).val + (4 * (8 * k.val + 1) + e.val), 0, 0] :=
    off11_n L k (⟨1, by decide⟩ : Fin 8) e _ (by show _ = 32 * k.val + (4 * 1 + e.val); omega)
  have hoff2 : k2_off11 L k 1#32 (BitVec.ofNat 32 e.val) = ![512 * (widL L).val + (32 * k.val + (4 * 1 + e.val)), 0, 0] :=
    off11_n L k (⟨1, by decide⟩ : Fin 8) e _ rfl
  refine (sep_mono_right (Entails.of_eq (oRow_landed d L cmb ix o (8 * k.val + 1) hc e _ (k2_off11_inb L k 1 e) hoff1 _
    (fun x => cdrn_pay1 _ e x)))).trans ?_
  exact put_oRow d L (widL L) _ _ (k2_off11_inb L k 1 e) hoff2 (gOut cmb ix)

/-- Row buffer 1's four slices back are the buffer whole, at some contents. -/
private theorem cdrn_buf1 (gv : FVec F S80x128 .f32) :
    iprop(((bslE1 0).view.loc (thrV d L) ↦[(bslE1 0).view.set]{fullShare} gv)
        ∗ ((bslE1 1).view.loc (thrV d L) ↦[(bslE1 1).view.set]{fullShare} gv)
        ∗ ((bslE1 2).view.loc (thrV d L) ↦[(bslE1 2).view.set]{fullShare} gv)
        ∗ ((bslE1 3).view.loc (thrV d L) ↦[(bslE1 3).view.set]{fullShare} gv))
      ⊢ (iprop(∃ f, (bufM1).view.loc (thrV d L) ↦{fullShare} f) : sProp 𝕄) := by
  iintro H
  iexists gv
  iapply (Entails.of_eq (buf_split1 d L gv).symm)
  iexact H

/-- Slice `e` of row buffer 2 read at (p, q) is the buffer at (20 e + p, q). -/
private theorem cdrn_pay2 (gv : FVec F S80x128 .f32) (e : Fin 4) (x : S20x128.Idx) :
    ReadAs.same.apply ((bslE2 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE2 e).view.read (Elt F) gv x = _
  rw [show (bslE2 e).view.read (Elt F) gv x = gv ((bslE2 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- One landed batch element of row buffer 2's copies joins the tile's finished rows. -/
private theorem cdrn_row2 (k : Fin k2_t1_loop.trips) (hk : k.val = 15) (e : Fin 4) (a a' : ℕ)
    (ha : a = 32 * k.val + (4 * 2 + e.val)) (ha' : a' = a + 1) :
    iprop(doneI d L cmb ix a ∗ ((oRowE2 L k e).view.loc (thrV d L) ↦[(oRowE2 L k e).view.set]{fullShare}
        (oRowE2 L k e).view.writes (Elt F) o
          [⟨Rect.whole S20x128, ReadAs.same.apply ((bslE2 e).view.read (Elt F) (gbuf cmb ix (widL L) (8 * k.val + 2)))⟩]))
      ⊢ (doneI d L cmb ix a' : sProp 𝕄) := by
  subst ha ha'
  have he := e.isLt
  have hc : 8 * k.val + 2 < 128 := by omega
  have hoff1 : k2_off11 L k 2#32 (BitVec.ofNat 32 e.val) = ![512 * (widL L).val + (4 * (8 * k.val + 2) + e.val), 0, 0] :=
    off11_n L k (⟨2, by decide⟩ : Fin 8) e _ (by show _ = 32 * k.val + (4 * 2 + e.val); omega)
  have hoff2 : k2_off11 L k 2#32 (BitVec.ofNat 32 e.val) = ![512 * (widL L).val + (32 * k.val + (4 * 2 + e.val)), 0, 0] :=
    off11_n L k (⟨2, by decide⟩ : Fin 8) e _ rfl
  refine (sep_mono_right (Entails.of_eq (oRow_landed d L cmb ix o (8 * k.val + 2) hc e _ (k2_off11_inb L k 2 e) hoff1 _
    (fun x => cdrn_pay2 _ e x)))).trans ?_
  exact put_oRow d L (widL L) _ _ (k2_off11_inb L k 2 e) hoff2 (gOut cmb ix)

/-- Row buffer 2's four slices back are the buffer whole, at some contents. -/
private theorem cdrn_buf2 (gv : FVec F S80x128 .f32) :
    iprop(((bslE2 0).view.loc (thrV d L) ↦[(bslE2 0).view.set]{fullShare} gv)
        ∗ ((bslE2 1).view.loc (thrV d L) ↦[(bslE2 1).view.set]{fullShare} gv)
        ∗ ((bslE2 2).view.loc (thrV d L) ↦[(bslE2 2).view.set]{fullShare} gv)
        ∗ ((bslE2 3).view.loc (thrV d L) ↦[(bslE2 3).view.set]{fullShare} gv))
      ⊢ (iprop(∃ f, (bufM2).view.loc (thrV d L) ↦{fullShare} f) : sProp 𝕄) := by
  iintro H
  iexists gv
  iapply (Entails.of_eq (buf_split2 d L gv).symm)
  iexact H

/-- Slice `e` of row buffer 3 read at (p, q) is the buffer at (20 e + p, q). -/
private theorem cdrn_pay3 (gv : FVec F S80x128 .f32) (e : Fin 4) (x : S20x128.Idx) :
    ReadAs.same.apply ((bslE3 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE3 e).view.read (Elt F) gv x = _
  rw [show (bslE3 e).view.read (Elt F) gv x = gv ((bslE3 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- One landed batch element of row buffer 3's copies joins the tile's finished rows. -/
private theorem cdrn_row3 (k : Fin k2_t1_loop.trips) (hk : k.val = 15) (e : Fin 4) (a a' : ℕ)
    (ha : a = 32 * k.val + (4 * 3 + e.val)) (ha' : a' = a + 1) :
    iprop(doneI d L cmb ix a ∗ ((oRowE3 L k e).view.loc (thrV d L) ↦[(oRowE3 L k e).view.set]{fullShare}
        (oRowE3 L k e).view.writes (Elt F) o
          [⟨Rect.whole S20x128, ReadAs.same.apply ((bslE3 e).view.read (Elt F) (gbuf cmb ix (widL L) (8 * k.val + 3)))⟩]))
      ⊢ (doneI d L cmb ix a' : sProp 𝕄) := by
  subst ha ha'
  have he := e.isLt
  have hc : 8 * k.val + 3 < 128 := by omega
  have hoff1 : k2_off11 L k 3#32 (BitVec.ofNat 32 e.val) = ![512 * (widL L).val + (4 * (8 * k.val + 3) + e.val), 0, 0] :=
    off11_n L k (⟨3, by decide⟩ : Fin 8) e _ (by show _ = 32 * k.val + (4 * 3 + e.val); omega)
  have hoff2 : k2_off11 L k 3#32 (BitVec.ofNat 32 e.val) = ![512 * (widL L).val + (32 * k.val + (4 * 3 + e.val)), 0, 0] :=
    off11_n L k (⟨3, by decide⟩ : Fin 8) e _ rfl
  refine (sep_mono_right (Entails.of_eq (oRow_landed d L cmb ix o (8 * k.val + 3) hc e _ (k2_off11_inb L k 3 e) hoff1 _
    (fun x => cdrn_pay3 _ e x)))).trans ?_
  exact put_oRow d L (widL L) _ _ (k2_off11_inb L k 3 e) hoff2 (gOut cmb ix)

/-- Row buffer 3's four slices back are the buffer whole, at some contents. -/
private theorem cdrn_buf3 (gv : FVec F S80x128 .f32) :
    iprop(((bslE3 0).view.loc (thrV d L) ↦[(bslE3 0).view.set]{fullShare} gv)
        ∗ ((bslE3 1).view.loc (thrV d L) ↦[(bslE3 1).view.set]{fullShare} gv)
        ∗ ((bslE3 2).view.loc (thrV d L) ↦[(bslE3 2).view.set]{fullShare} gv)
        ∗ ((bslE3 3).view.loc (thrV d L) ↦[(bslE3 3).view.set]{fullShare} gv))
      ⊢ (iprop(∃ f, (bufM3).view.loc (thrV d L) ↦{fullShare} f) : sProp 𝕄) := by
  iintro H
  iexists gv
  iapply (Entails.of_eq (buf_split3 d L gv).symm)
  iexact H

/-- Slice `e` of row buffer 4 read at (p, q) is the buffer at (20 e + p, q). -/
private theorem cdrn_pay4 (gv : FVec F S80x128 .f32) (e : Fin 4) (x : S20x128.Idx) :
    ReadAs.same.apply ((bslE4 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE4 e).view.read (Elt F) gv x = _
  rw [show (bslE4 e).view.read (Elt F) gv x = gv ((bslE4 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- One landed batch element of row buffer 4's copies joins the tile's finished rows. -/
private theorem cdrn_row4 (k : Fin k2_t1_loop.trips) (hk : k.val = 15) (e : Fin 4) (a a' : ℕ)
    (ha : a = 32 * k.val + (4 * 4 + e.val)) (ha' : a' = a + 1) :
    iprop(doneI d L cmb ix a ∗ ((oRowE4 L k e).view.loc (thrV d L) ↦[(oRowE4 L k e).view.set]{fullShare}
        (oRowE4 L k e).view.writes (Elt F) o
          [⟨Rect.whole S20x128, ReadAs.same.apply ((bslE4 e).view.read (Elt F) (gbuf cmb ix (widL L) (8 * k.val + 4)))⟩]))
      ⊢ (doneI d L cmb ix a' : sProp 𝕄) := by
  subst ha ha'
  have he := e.isLt
  have hc : 8 * k.val + 4 < 128 := by omega
  have hoff1 : k2_off11 L k 4#32 (BitVec.ofNat 32 e.val) = ![512 * (widL L).val + (4 * (8 * k.val + 4) + e.val), 0, 0] :=
    off11_n L k (⟨4, by decide⟩ : Fin 8) e _ (by show _ = 32 * k.val + (4 * 4 + e.val); omega)
  have hoff2 : k2_off11 L k 4#32 (BitVec.ofNat 32 e.val) = ![512 * (widL L).val + (32 * k.val + (4 * 4 + e.val)), 0, 0] :=
    off11_n L k (⟨4, by decide⟩ : Fin 8) e _ rfl
  refine (sep_mono_right (Entails.of_eq (oRow_landed d L cmb ix o (8 * k.val + 4) hc e _ (k2_off11_inb L k 4 e) hoff1 _
    (fun x => cdrn_pay4 _ e x)))).trans ?_
  exact put_oRow d L (widL L) _ _ (k2_off11_inb L k 4 e) hoff2 (gOut cmb ix)

/-- Row buffer 4's four slices back are the buffer whole, at some contents. -/
private theorem cdrn_buf4 (gv : FVec F S80x128 .f32) :
    iprop(((bslE4 0).view.loc (thrV d L) ↦[(bslE4 0).view.set]{fullShare} gv)
        ∗ ((bslE4 1).view.loc (thrV d L) ↦[(bslE4 1).view.set]{fullShare} gv)
        ∗ ((bslE4 2).view.loc (thrV d L) ↦[(bslE4 2).view.set]{fullShare} gv)
        ∗ ((bslE4 3).view.loc (thrV d L) ↦[(bslE4 3).view.set]{fullShare} gv))
      ⊢ (iprop(∃ f, (bufM4).view.loc (thrV d L) ↦{fullShare} f) : sProp 𝕄) := by
  iintro H
  iexists gv
  iapply (Entails.of_eq (buf_split4 d L gv).symm)
  iexact H

/-- Slice `e` of row buffer 5 read at (p, q) is the buffer at (20 e + p, q). -/
private theorem cdrn_pay5 (gv : FVec F S80x128 .f32) (e : Fin 4) (x : S20x128.Idx) :
    ReadAs.same.apply ((bslE5 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE5 e).view.read (Elt F) gv x = _
  rw [show (bslE5 e).view.read (Elt F) gv x = gv ((bslE5 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- One landed batch element of row buffer 5's copies joins the tile's finished rows. -/
private theorem cdrn_row5 (k : Fin k2_t1_loop.trips) (hk : k.val = 15) (e : Fin 4) (a a' : ℕ)
    (ha : a = 32 * k.val + (4 * 5 + e.val)) (ha' : a' = a + 1) :
    iprop(doneI d L cmb ix a ∗ ((oRowE5 L k e).view.loc (thrV d L) ↦[(oRowE5 L k e).view.set]{fullShare}
        (oRowE5 L k e).view.writes (Elt F) o
          [⟨Rect.whole S20x128, ReadAs.same.apply ((bslE5 e).view.read (Elt F) (gbuf cmb ix (widL L) (8 * k.val + 5)))⟩]))
      ⊢ (doneI d L cmb ix a' : sProp 𝕄) := by
  subst ha ha'
  have he := e.isLt
  have hc : 8 * k.val + 5 < 128 := by omega
  have hoff1 : k2_off11 L k 5#32 (BitVec.ofNat 32 e.val) = ![512 * (widL L).val + (4 * (8 * k.val + 5) + e.val), 0, 0] :=
    off11_n L k (⟨5, by decide⟩ : Fin 8) e _ (by show _ = 32 * k.val + (4 * 5 + e.val); omega)
  have hoff2 : k2_off11 L k 5#32 (BitVec.ofNat 32 e.val) = ![512 * (widL L).val + (32 * k.val + (4 * 5 + e.val)), 0, 0] :=
    off11_n L k (⟨5, by decide⟩ : Fin 8) e _ rfl
  refine (sep_mono_right (Entails.of_eq (oRow_landed d L cmb ix o (8 * k.val + 5) hc e _ (k2_off11_inb L k 5 e) hoff1 _
    (fun x => cdrn_pay5 _ e x)))).trans ?_
  exact put_oRow d L (widL L) _ _ (k2_off11_inb L k 5 e) hoff2 (gOut cmb ix)

/-- Row buffer 5's four slices back are the buffer whole, at some contents. -/
private theorem cdrn_buf5 (gv : FVec F S80x128 .f32) :
    iprop(((bslE5 0).view.loc (thrV d L) ↦[(bslE5 0).view.set]{fullShare} gv)
        ∗ ((bslE5 1).view.loc (thrV d L) ↦[(bslE5 1).view.set]{fullShare} gv)
        ∗ ((bslE5 2).view.loc (thrV d L) ↦[(bslE5 2).view.set]{fullShare} gv)
        ∗ ((bslE5 3).view.loc (thrV d L) ↦[(bslE5 3).view.set]{fullShare} gv))
      ⊢ (iprop(∃ f, (bufM5).view.loc (thrV d L) ↦{fullShare} f) : sProp 𝕄) := by
  iintro H
  iexists gv
  iapply (Entails.of_eq (buf_split5 d L gv).symm)
  iexact H

/-- Slice `e` of row buffer 6 read at (p, q) is the buffer at (20 e + p, q). -/
private theorem cdrn_pay6 (gv : FVec F S80x128 .f32) (e : Fin 4) (x : S20x128.Idx) :
    ReadAs.same.apply ((bslE6 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE6 e).view.read (Elt F) gv x = _
  rw [show (bslE6 e).view.read (Elt F) gv x = gv ((bslE6 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- One landed batch element of row buffer 6's copies joins the tile's finished rows. -/
private theorem cdrn_row6 (k : Fin k2_t1_loop.trips) (hk : k.val = 15) (e : Fin 4) (a a' : ℕ)
    (ha : a = 32 * k.val + (4 * 6 + e.val)) (ha' : a' = a + 1) :
    iprop(doneI d L cmb ix a ∗ ((oRowE6 L k e).view.loc (thrV d L) ↦[(oRowE6 L k e).view.set]{fullShare}
        (oRowE6 L k e).view.writes (Elt F) o
          [⟨Rect.whole S20x128, ReadAs.same.apply ((bslE6 e).view.read (Elt F) (gbuf cmb ix (widL L) (8 * k.val + 6)))⟩]))
      ⊢ (doneI d L cmb ix a' : sProp 𝕄) := by
  subst ha ha'
  have he := e.isLt
  have hc : 8 * k.val + 6 < 128 := by omega
  have hoff1 : k2_off11 L k 6#32 (BitVec.ofNat 32 e.val) = ![512 * (widL L).val + (4 * (8 * k.val + 6) + e.val), 0, 0] :=
    off11_n L k (⟨6, by decide⟩ : Fin 8) e _ (by show _ = 32 * k.val + (4 * 6 + e.val); omega)
  have hoff2 : k2_off11 L k 6#32 (BitVec.ofNat 32 e.val) = ![512 * (widL L).val + (32 * k.val + (4 * 6 + e.val)), 0, 0] :=
    off11_n L k (⟨6, by decide⟩ : Fin 8) e _ rfl
  refine (sep_mono_right (Entails.of_eq (oRow_landed d L cmb ix o (8 * k.val + 6) hc e _ (k2_off11_inb L k 6 e) hoff1 _
    (fun x => cdrn_pay6 _ e x)))).trans ?_
  exact put_oRow d L (widL L) _ _ (k2_off11_inb L k 6 e) hoff2 (gOut cmb ix)

/-- Row buffer 6's four slices back are the buffer whole, at some contents. -/
private theorem cdrn_buf6 (gv : FVec F S80x128 .f32) :
    iprop(((bslE6 0).view.loc (thrV d L) ↦[(bslE6 0).view.set]{fullShare} gv)
        ∗ ((bslE6 1).view.loc (thrV d L) ↦[(bslE6 1).view.set]{fullShare} gv)
        ∗ ((bslE6 2).view.loc (thrV d L) ↦[(bslE6 2).view.set]{fullShare} gv)
        ∗ ((bslE6 3).view.loc (thrV d L) ↦[(bslE6 3).view.set]{fullShare} gv))
      ⊢ (iprop(∃ f, (bufM6).view.loc (thrV d L) ↦{fullShare} f) : sProp 𝕄) := by
  iintro H
  iexists gv
  iapply (Entails.of_eq (buf_split6 d L gv).symm)
  iexact H

/-- Slice `e` of row buffer 7 read at (p, q) is the buffer at (20 e + p, q). -/
private theorem cdrn_pay7 (gv : FVec F S80x128 .f32) (e : Fin 4) (x : S20x128.Idx) :
    ReadAs.same.apply ((bslE7 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE7 e).view.read (Elt F) gv x = _
  rw [show (bslE7 e).view.read (Elt F) gv x = gv ((bslE7 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- One landed batch element of row buffer 7's copies joins the tile's finished rows. -/
private theorem cdrn_row7 (k : Fin k2_t1_loop.trips) (hk : k.val = 15) (e : Fin 4) (a a' : ℕ)
    (ha : a = 32 * k.val + (4 * 7 + e.val)) (ha' : a' = a + 1) :
    iprop(doneI d L cmb ix a ∗ ((oRowE7 L k e).view.loc (thrV d L) ↦[(oRowE7 L k e).view.set]{fullShare}
        (oRowE7 L k e).view.writes (Elt F) o
          [⟨Rect.whole S20x128, ReadAs.same.apply ((bslE7 e).view.read (Elt F) (gbuf cmb ix (widL L) (8 * k.val + 7)))⟩]))
      ⊢ (doneI d L cmb ix a' : sProp 𝕄) := by
  subst ha ha'
  have he := e.isLt
  have hc : 8 * k.val + 7 < 128 := by omega
  have hoff1 : k2_off11 L k 7#32 (BitVec.ofNat 32 e.val) = ![512 * (widL L).val + (4 * (8 * k.val + 7) + e.val), 0, 0] :=
    off11_n L k (⟨7, by decide⟩ : Fin 8) e _ (by show _ = 32 * k.val + (4 * 7 + e.val); omega)
  have hoff2 : k2_off11 L k 7#32 (BitVec.ofNat 32 e.val) = ![512 * (widL L).val + (32 * k.val + (4 * 7 + e.val)), 0, 0] :=
    off11_n L k (⟨7, by decide⟩ : Fin 8) e _ rfl
  refine (sep_mono_right (Entails.of_eq (oRow_landed d L cmb ix o (8 * k.val + 7) hc e _ (k2_off11_inb L k 7 e) hoff1 _
    (fun x => cdrn_pay7 _ e x)))).trans ?_
  exact put_oRow d L (widL L) _ _ (k2_off11_inb L k 7 e) hoff2 (gOut cmb ix)

/-- Row buffer 7's four slices back are the buffer whole, at some contents. -/
private theorem cdrn_buf7 (gv : FVec F S80x128 .f32) :
    iprop(((bslE7 0).view.loc (thrV d L) ↦[(bslE7 0).view.set]{fullShare} gv)
        ∗ ((bslE7 1).view.loc (thrV d L) ↦[(bslE7 1).view.set]{fullShare} gv)
        ∗ ((bslE7 2).view.loc (thrV d L) ↦[(bslE7 2).view.set]{fullShare} gv)
        ∗ ((bslE7 3).view.loc (thrV d L) ↦[(bslE7 3).view.set]{fullShare} gv))
      ⊢ (iprop(∃ f, (bufM7).view.loc (thrV d L) ↦{fullShare} f) : sProp 𝕄) := by
  iintro H
  iexists gv
  iapply (Entails.of_eq (buf_split7 d L gv).symm)
  iexact H

set_option maxHeartbeats 4000000 in
theorem tile_drain (v2 : BitVec 32) (k : Fin k2_t1_loop.trips) (hk : k.val = 15) (W : Waits sig (HIx 1)) (Q : PUnit → sProp 𝕄) :
    iprop(Transfers.MayWaits (thrV d L) none O ∗ owes (thrV d L) O W ∗ doneI d L cmb ix (32 * k.val) ∗ batsI d L cmb ix o k (8 * k.val)
        ∗ (iprop(owesI d L O W ∗ doneI d L cmb ix (32 * k.val + 32) ∗ lastI d L) -∗ Q ⟨⟩))
      ⊢ (wp frame (wpE (defs₀ (F := F)) 𝒱₀ (thrV d L) none) Set.univ
          (drainProg L v5V (Memref.isWhole_whole _) v6V (Memref.isWhole_whole _) v7V (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) (Memref.whole cc2_scratch5) (Memref.isWhole_whole _)
            (Memref.whole cc2_scratch6) (Memref.isWhole_whole _) (Memref.whole cc2_scratch7) (Memref.isWhole_whole _)
            (Memref.whole cc2_scratch8) (Memref.isWhole_whole _)
            cc2_scratch9 cc2_scratch10 cc2_scratch11 cc2_scratch12 cc2_scratch13 cc2_scratch14 cc2_scratch15 cc2_scratch16
            cc2_scratch17 cc2_scratch18 cc2_scratch19 cc2_scratch20 cc2_scratch21 cc2_scratch22 cc2_scratch23 cc2_scratch24 cc2_scoped0 v2) Q : sProp 𝕄) := by
  iintro ⟨Hmw, HO, Hdone, ⟨HB0, HB1, HB2, HB3, HB4, HB5, HB6, HB7⟩, Hk⟩
  unfold drainProg
  sl_exec
  ihave Hdone := (cdrn_row0 d L cmb ix o k hk (⟨0, by decide⟩ : Fin 4) (32 * k.val) (32 * k.val + 1) (by show _ = 32 * k.val + (4 * 0 + 0); omega) (by omega)) $$ [Hdone HB0_dst0]
  · isplitl [Hdone] <;> iassumption
  ihave Hdone := (cdrn_row0 d L cmb ix o k hk (⟨1, by decide⟩ : Fin 4) (32 * k.val + 1) (32 * k.val + 2) (by show _ = 32 * k.val + (4 * 0 + 1); omega) (by omega)) $$ [Hdone HB0_dst1]
  · isplitl [Hdone] <;> iassumption
  ihave Hdone := (cdrn_row0 d L cmb ix o k hk (⟨2, by decide⟩ : Fin 4) (32 * k.val + 2) (32 * k.val + 3) (by show _ = 32 * k.val + (4 * 0 + 2); omega) (by omega)) $$ [Hdone HB0_dst2]
  · isplitl [Hdone] <;> iassumption
  ihave Hdone := (cdrn_row0 d L cmb ix o k hk (⟨3, by decide⟩ : Fin 4) (32 * k.val + 3) (32 * k.val + 4) (by show _ = 32 * k.val + (4 * 0 + 3); omega) (by omega)) $$ [Hdone HB0_dst3]
  · isplitl [Hdone] <;> iassumption
  ihave Hdone := (cdrn_row1 d L cmb ix o k hk (⟨0, by decide⟩ : Fin 4) (32 * k.val + 4) (32 * k.val + 5) (by show _ = 32 * k.val + (4 * 1 + 0); omega) (by omega)) $$ [Hdone HB1_dst0]
  · isplitl [Hdone] <;> iassumption
  ihave Hdone := (cdrn_row1 d L cmb ix o k hk (⟨1, by decide⟩ : Fin 4) (32 * k.val + 5) (32 * k.val + 6) (by show _ = 32 * k.val + (4 * 1 + 1); omega) (by omega)) $$ [Hdone HB1_dst1]
  · isplitl [Hdone] <;> iassumption
  ihave Hdone := (cdrn_row1 d L cmb ix o k hk (⟨2, by decide⟩ : Fin 4) (32 * k.val + 6) (32 * k.val + 7) (by show _ = 32 * k.val + (4 * 1 + 2); omega) (by omega)) $$ [Hdone HB1_dst2]
  · isplitl [Hdone] <;> iassumption
  ihave Hdone := (cdrn_row1 d L cmb ix o k hk (⟨3, by decide⟩ : Fin 4) (32 * k.val + 7) (32 * k.val + 8) (by show _ = 32 * k.val + (4 * 1 + 3); omega) (by omega)) $$ [Hdone HB1_dst3]
  · isplitl [Hdone] <;> iassumption
  ihave Hdone := (cdrn_row2 d L cmb ix o k hk (⟨0, by decide⟩ : Fin 4) (32 * k.val + 8) (32 * k.val + 9) (by show _ = 32 * k.val + (4 * 2 + 0); omega) (by omega)) $$ [Hdone HB2_dst0]
  · isplitl [Hdone] <;> iassumption
  ihave Hdone := (cdrn_row2 d L cmb ix o k hk (⟨1, by decide⟩ : Fin 4) (32 * k.val + 9) (32 * k.val + 10) (by show _ = 32 * k.val + (4 * 2 + 1); omega) (by omega)) $$ [Hdone HB2_dst1]
  · isplitl [Hdone] <;> iassumption
  ihave Hdone := (cdrn_row2 d L cmb ix o k hk (⟨2, by decide⟩ : Fin 4) (32 * k.val + 10) (32 * k.val + 11) (by show _ = 32 * k.val + (4 * 2 + 2); omega) (by omega)) $$ [Hdone HB2_dst2]
  · isplitl [Hdone] <;> iassumption
  ihave Hdone := (cdrn_row2 d L cmb ix o k hk (⟨3, by decide⟩ : Fin 4) (32 * k.val + 11) (32 * k.val + 12) (by show _ = 32 * k.val + (4 * 2 + 3); omega) (by omega)) $$ [Hdone HB2_dst3]
  · isplitl [Hdone] <;> iassumption
  ihave Hdone := (cdrn_row3 d L cmb ix o k hk (⟨0, by decide⟩ : Fin 4) (32 * k.val + 12) (32 * k.val + 13) (by show _ = 32 * k.val + (4 * 3 + 0); omega) (by omega)) $$ [Hdone HB3_dst0]
  · isplitl [Hdone] <;> iassumption
  ihave Hdone := (cdrn_row3 d L cmb ix o k hk (⟨1, by decide⟩ : Fin 4) (32 * k.val + 13) (32 * k.val + 14) (by show _ = 32 * k.val + (4 * 3 + 1); omega) (by omega)) $$ [Hdone HB3_dst1]
  · isplitl [Hdone] <;> iassumption
  ihave Hdone := (cdrn_row3 d L cmb ix o k hk (⟨2, by decide⟩ : Fin 4) (32 * k.val + 14) (32 * k.val + 15) (by show _ = 32 * k.val + (4 * 3 + 2); omega) (by omega)) $$ [Hdone HB3_dst2]
  · isplitl [Hdone] <;> iassumption
  ihave Hdone := (cdrn_row3 d L cmb ix o k hk (⟨3, by decide⟩ : Fin 4) (32 * k.val + 15) (32 * k.val + 16) (by show _ = 32 * k.val + (4 * 3 + 3); omega) (by omega)) $$ [Hdone HB3_dst3]
  · isplitl [Hdone] <;> iassumption
  ihave Hdone := (cdrn_row4 d L cmb ix o k hk (⟨0, by decide⟩ : Fin 4) (32 * k.val + 16) (32 * k.val + 17) (by show _ = 32 * k.val + (4 * 4 + 0); omega) (by omega)) $$ [Hdone HB4_dst0]
  · isplitl [Hdone] <;> iassumption
  ihave Hdone := (cdrn_row4 d L cmb ix o k hk (⟨1, by decide⟩ : Fin 4) (32 * k.val + 17) (32 * k.val + 18) (by show _ = 32 * k.val + (4 * 4 + 1); omega) (by omega)) $$ [Hdone HB4_dst1]
  · isplitl [Hdone] <;> iassumption
  ihave Hdone := (cdrn_row4 d L cmb ix o k hk (⟨2, by decide⟩ : Fin 4) (32 * k.val + 18) (32 * k.val + 19) (by show _ = 32 * k.val + (4 * 4 + 2); omega) (by omega)) $$ [Hdone HB4_dst2]
  · isplitl [Hdone] <;> iassumption
  ihave Hdone := (cdrn_row4 d L cmb ix o k hk (⟨3, by decide⟩ : Fin 4) (32 * k.val + 19) (32 * k.val + 20) (by show _ = 32 * k.val + (4 * 4 + 3); omega) (by omega)) $$ [Hdone HB4_dst3]
  · isplitl [Hdone] <;> iassumption
  ihave Hdone := (cdrn_row5 d L cmb ix o k hk (⟨0, by decide⟩ : Fin 4) (32 * k.val + 20) (32 * k.val + 21) (by show _ = 32 * k.val + (4 * 5 + 0); omega) (by omega)) $$ [Hdone HB5_dst0]
  · isplitl [Hdone] <;> iassumption
  ihave Hdone := (cdrn_row5 d L cmb ix o k hk (⟨1, by decide⟩ : Fin 4) (32 * k.val + 21) (32 * k.val + 22) (by show _ = 32 * k.val + (4 * 5 + 1); omega) (by omega)) $$ [Hdone HB5_dst1]
  · isplitl [Hdone] <;> iassumption
  ihave Hdone := (cdrn_row5 d L cmb ix o k hk (⟨2, by decide⟩ : Fin 4) (32 * k.val + 22) (32 * k.val + 23) (by show _ = 32 * k.val + (4 * 5 + 2); omega) (by omega)) $$ [Hdone HB5_dst2]
  · isplitl [Hdone] <;> iassumption
  ihave Hdone := (cdrn_row5 d L cmb ix o k hk (⟨3, by decide⟩ : Fin 4) (32 * k.val + 23) (32 * k.val + 24) (by show _ = 32 * k.val + (4 * 5 + 3); omega) (by omega)) $$ [Hdone HB5_dst3]
  · isplitl [Hdone] <;> iassumption
  ihave Hdone := (cdrn_row6 d L cmb ix o k hk (⟨0, by decide⟩ : Fin 4) (32 * k.val + 24) (32 * k.val + 25) (by show _ = 32 * k.val + (4 * 6 + 0); omega) (by omega)) $$ [Hdone HB6_dst0]
  · isplitl [Hdone] <;> iassumption
  ihave Hdone := (cdrn_row6 d L cmb ix o k hk (⟨1, by decide⟩ : Fin 4) (32 * k.val + 25) (32 * k.val + 26) (by show _ = 32 * k.val + (4 * 6 + 1); omega) (by omega)) $$ [Hdone HB6_dst1]
  · isplitl [Hdone] <;> iassumption
  ihave Hdone := (cdrn_row6 d L cmb ix o k hk (⟨2, by decide⟩ : Fin 4) (32 * k.val + 26) (32 * k.val + 27) (by show _ = 32 * k.val + (4 * 6 + 2); omega) (by omega)) $$ [Hdone HB6_dst2]
  · isplitl [Hdone] <;> iassumption
  ihave Hdone := (cdrn_row6 d L cmb ix o k hk (⟨3, by decide⟩ : Fin 4) (32 * k.val + 27) (32 * k.val + 28) (by show _ = 32 * k.val + (4 * 6 + 3); omega) (by omega)) $$ [Hdone HB6_dst3]
  · isplitl [Hdone] <;> iassumption
  ihave Hdone := (cdrn_row7 d L cmb ix o k hk (⟨0, by decide⟩ : Fin 4) (32 * k.val + 28) (32 * k.val + 29) (by show _ = 32 * k.val + (4 * 7 + 0); omega) (by omega)) $$ [Hdone HB7_dst0]
  · isplitl [Hdone] <;> iassumption
  ihave Hdone := (cdrn_row7 d L cmb ix o k hk (⟨1, by decide⟩ : Fin 4) (32 * k.val + 29) (32 * k.val + 30) (by show _ = 32 * k.val + (4 * 7 + 1); omega) (by omega)) $$ [Hdone HB7_dst1]
  · isplitl [Hdone] <;> iassumption
  ihave Hdone := (cdrn_row7 d L cmb ix o k hk (⟨2, by decide⟩ : Fin 4) (32 * k.val + 30) (32 * k.val + 31) (by show _ = 32 * k.val + (4 * 7 + 2); omega) (by omega)) $$ [Hdone HB7_dst2]
  · isplitl [Hdone] <;> iassumption
  ihave Hdone := (cdrn_row7 d L cmb ix o k hk (⟨3, by decide⟩ : Fin 4) (32 * k.val + 31) (32 * k.val + 32) (by show _ = 32 * k.val + (4 * 7 + 3); omega) (by omega)) $$ [Hdone HB7_dst3]
  · isplitl [Hdone] <;> iassumption
  ihave Hbuf0 := (cdrn_buf0 d L (gbuf cmb ix (widL L) (8 * k.val + 0))) $$ [HB0_src0 HB0_src1 HB0_src2 HB0_src3]
  · isplitl [HB0_src0]; · iexact HB0_src0
    isplitl [HB0_src1]; · iexact HB0_src1
    isplitl [HB0_src2]; · iexact HB0_src2
    iexact HB0_src3
  ihave Hbuf1 := (cdrn_buf1 d L (gbuf cmb ix (widL L) (8 * k.val + 1))) $$ [HB1_src0 HB1_src1 HB1_src2 HB1_src3]
  · isplitl [HB1_src0]; · iexact HB1_src0
    isplitl [HB1_src1]; · iexact HB1_src1
    isplitl [HB1_src2]; · iexact HB1_src2
    iexact HB1_src3
  ihave Hbuf2 := (cdrn_buf2 d L (gbuf cmb ix (widL L) (8 * k.val + 2))) $$ [HB2_src0 HB2_src1 HB2_src2 HB2_src3]
  · isplitl [HB2_src0]; · iexact HB2_src0
    isplitl [HB2_src1]; · iexact HB2_src1
    isplitl [HB2_src2]; · iexact HB2_src2
    iexact HB2_src3
  ihave Hbuf3 := (cdrn_buf3 d L (gbuf cmb ix (widL L) (8 * k.val + 3))) $$ [HB3_src0 HB3_src1 HB3_src2 HB3_src3]
  · isplitl [HB3_src0]; · iexact HB3_src0
    isplitl [HB3_src1]; · iexact HB3_src1
    isplitl [HB3_src2]; · iexact HB3_src2
    iexact HB3_src3
  ihave Hbuf4 := (cdrn_buf4 d L (gbuf cmb ix (widL L) (8 * k.val + 4))) $$ [HB4_src0 HB4_src1 HB4_src2 HB4_src3]
  · isplitl [HB4_src0]; · iexact HB4_src0
    isplitl [HB4_src1]; · iexact HB4_src1
    isplitl [HB4_src2]; · iexact HB4_src2
    iexact HB4_src3
  ihave Hbuf5 := (cdrn_buf5 d L (gbuf cmb ix (widL L) (8 * k.val + 5))) $$ [HB5_src0 HB5_src1 HB5_src2 HB5_src3]
  · isplitl [HB5_src0]; · iexact HB5_src0
    isplitl [HB5_src1]; · iexact HB5_src1
    isplitl [HB5_src2]; · iexact HB5_src2
    iexact HB5_src3
  ihave Hbuf6 := (cdrn_buf6 d L (gbuf cmb ix (widL L) (8 * k.val + 6))) $$ [HB6_src0 HB6_src1 HB6_src2 HB6_src3]
  · isplitl [HB6_src0]; · iexact HB6_src0
    isplitl [HB6_src1]; · iexact HB6_src1
    isplitl [HB6_src2]; · iexact HB6_src2
    iexact HB6_src3
  ihave Hbuf7 := (cdrn_buf7 d L (gbuf cmb ix (widL L) (8 * k.val + 7))) $$ [HB7_src0 HB7_src1 HB7_src2 HB7_src3]
  · isplitl [HB7_src0]; · iexact HB7_src0
    isplitl [HB7_src1]; · iexact HB7_src1
    isplitl [HB7_src2]; · iexact HB7_src2
    iexact HB7_src3
  sl_step
  iapply Hk
  isplitl [HO]
  · iexists _
    isplitr
    swap
    · iexact HO
    ipureintro
    repeat (first | exact fun p hp => Or.inl hp | refine mem_ins ?_ rfl)
  isplitl [Hdone]; · iexact Hdone
  isplitl [Hbuf0]; · iexact Hbuf0
  isplitl [Hbuf1]; · iexact Hbuf1
  isplitl [Hbuf2]; · iexact Hbuf2
  isplitl [Hbuf3]; · iexact Hbuf3
  isplitl [Hbuf4]; · iexact Hbuf4
  isplitl [Hbuf5]; · iexact Hbuf5
  isplitl [Hbuf6]; · iexact Hbuf6
  isplitl [Hbuf7]; · iexact Hbuf7
  isplitl [HB0]; · iexact HB0
  isplitl [HB1]; · iexact HB1
  isplitl [HB2]; · iexact HB2
  isplitl [HB3]; · iexact HB3
  isplitl [HB4]; · iexact HB4
  isplitl [HB5]; · iexact HB5
  isplitl [HB6]; · iexact HB6
  iexact HB7

end Cert.Proof.Tile

end
-- ==== Proof.TileBody.lean ====
/-
  The tile's body, assembled: one vector subcore's run of the gather kernel, from the operands the launch hands it to
  its rows of the output at the gather's whole-array function.

  The index fetch lands the tile's row of the index array in the list scratch; its words are the index array's at
  (worker, chunk, position), each below 1960 by the precondition. The loop runs sixteen trips under one invariant: before
  trip n the tile's first 32 (n − 1) rows of the output hold the gathered values, its rows from 32 n on are as launched, and
  the thirty-two rows between are the destinations of the eight batches of four copies the trip before left in flight
  (none before the first trip, where the row buffers are free and the copies' semaphores at zero); one read token of the
  table and one of the list per gather semaphore, and the gather semaphores at zero, pass from trip to trip. The first
  trip starts from free buffers, a later one drains the batches left to it; after the last trip the remaining statements
  drain the last batches, and the read tokens are joined back into the tile's share of the table and the whole list.
-/
import proofs.«206393_g35751307772044_cont_8to1_b_353_20_alg».proof.Proof.TileBodyPro
import proofs.«206393_g35751307772044_cont_8to1_b_353_20_alg».proof.Proof.TileBodyTrip0
import proofs.«206393_g35751307772044_cont_8to1_b_353_20_alg».proof.Proof.TileBodyTripS
import proofs.«206393_g35751307772044_cont_8to1_b_353_20_alg».proof.Proof.TileBodyDrain

noncomputable section

namespace Cert.Proof.Tile

open Cert.KernelIdeal Cert.KernelIdeal.Gen
open Cert.Proof.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ

section Steps

variable (d : Dev nD) (L : grid2.Coords) (cmb : Buf (Elt F) (v5Loc d)) (ix : Buf (Elt F) (v6Loc d)) (o : Buf (Elt F) (v7Loc d))
  (sc0 : Buf (Elt F) ((lstV).view.loc (thrV d L))) (O : CellTallies nD τ sig (HIx 1))

/-- A trip below sixteen is its own number's trip. -/
private theorem dpro_fk_val (k : Fin k2_t1_loop.trips) : fk k.val = k := by
  have h16 : k.val < 16 := trips_eq ▸ k.isLt
  exact Fin.ext (Nat.mod_eq_of_lt h16)

/-- The invariant before the first trip. -/
private theorem dpro_tripI_zero (W : Waits sig (HIx 1)) (n : ℕ) (hn : n = 0) (u : Unit) :
    (tripI d L cmb ix o sc0 O W n u : sProp 𝕄)
      = iprop(Transfers.MayWaits (thrV d L) none O ∗ owesI d L O W ∗ toksI d L cmb sc0 ∗ doneI d L cmb ix 0 ∗ todoI d L o (32 * n)
          ∗ firstI d L) := by
  subst hn; unfold tripI; rw [if_pos rfl]

/-- The invariant after trip `k`. -/
private theorem dpro_tripI_succ (W : Waits sig (HIx 1)) (k : Fin k2_t1_loop.trips) (n : ℕ) (hn : n = k.val + 1) (u : Unit) :
    (tripI d L cmb ix o sc0 O W n u : sProp 𝕄)
      = iprop(Transfers.MayWaits (thrV d L) none O ∗ owesI d L O W ∗ toksI d L cmb sc0 ∗ doneI d L cmb ix (32 * k.val)
          ∗ todoI d L o (32 * k.val + 32) ∗ batsI d L cmb ix o k (8 * k.val)) := by
  subst hn; unfold tripI
  rw [if_neg (Nat.succ_ne_zero _), Nat.add_sub_cancel, dpro_fk_val, show 32 * (k.val + 1) = 32 * k.val + 32 from by omega]

/-- Waits recorded beyond waits recorded beyond `W` are recorded beyond `W`. -/
private theorem dpro_owesI_trans {W W' : Waits sig (HIx 1)} (h : ∀ p ∈ W', p ∈ W ∨ p.2 = none) :
    owesI d L O W' ⊢ (owesI d L O W : sProp 𝕄) := by
  iintro ⟨%W'', %h'', HO⟩
  iexists W''; isplitr
  · ipureintro; intro p hp
    rcases h'' p hp with h1 | h1
    · exact h p h1
    · exact .inr h1
  · iexact HO

/-- Nothing of the output is done before the first trip. -/
private theorem dpro_done_zero : (doneI d L cmb ix 0 : sProp 𝕄) = iprop(emp) := by
  show (v7Loc d ↦[rowsTo (widL L) 0]{fullShare} gOut cmb ix : sProp 𝕄) = iprop(emp)
  rw [rowsTo_zero, pointsTo_empty]

/-- THE FIRST TRIP, from the invariant to the invariant. -/
private theorem dpro_step0 (v2 : BitVec 32) (k : Fin k2_t1_loop.trips) (hk : k.val = 0)
    (hsc0 : ∀ (r : Fin 128) (x : Fin 80), sc0 (ValueIdx.ix2 r x) = ix (ValueIdx.ix3 (widL L) r x))
    (hscb : ∀ i, (sc0 i).toNat < 1960) (W : Waits sig (HIx 1)) :
    (tripI d L cmb ix o sc0 O W k.val () : sProp 𝕄)
      ⊢ (wp frame (wpE (defs₀ (F := F)) 𝒱₀ (thrV d L) none) Set.univ
          (k2_t1_body L v5V (Memref.isWhole_whole _) v6V (Memref.isWhole_whole _) v7V (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) (Memref.whole cc2_scratch5) (Memref.isWhole_whole _)
            (Memref.whole cc2_scratch6) (Memref.isWhole_whole _) (Memref.whole cc2_scratch7) (Memref.isWhole_whole _)
            (Memref.whole cc2_scratch8) (Memref.isWhole_whole _)
            cc2_scratch9 cc2_scratch10 cc2_scratch11 cc2_scratch12 cc2_scratch13 cc2_scratch14 cc2_scratch15 cc2_scratch16
            cc2_scratch17 cc2_scratch18 cc2_scratch19 cc2_scratch20 cc2_scratch21 cc2_scratch22 cc2_scratch23 cc2_scratch24 cc2_scoped0 v2 k ())
          (tripI d L cmb ix o sc0 O W (k.val + 1)) : sProp 𝕄) := by
  rw [dpro_tripI_zero d L cmb ix o sc0 O W k.val hk (),
    show (tripI d L cmb ix o sc0 O W (k.val + 1) : Unit → sProp 𝕄) = fun u => _ from funext fun u => dpro_tripI_succ d L cmb ix o sc0 O W k _ rfl u,
    dpro_done_zero]
  iintro ⟨Hmw, ⟨%W', %hW', HO⟩, Ht, -, Htodo, Hf⟩
  iapply (wp_mono frame _ _ (fun _ => (show iprop(Transfers.MayWaits (thrV d L) none O ∗ owesI d L O W' ∗ toksI d L cmb sc0 ∗ todoI d L o (32 * k.val + 32)
            ∗ batsI d L cmb ix o k (8 * k.val))
        ⊢ (iprop(Transfers.MayWaits (thrV d L) none O ∗ owesI d L O W ∗ toksI d L cmb sc0 ∗ doneI d L cmb ix (32 * k.val)
          ∗ todoI d L o (32 * k.val + 32) ∗ batsI d L cmb ix o k (8 * k.val)) : sProp 𝕄) from by
      rw [hk, dpro_done_zero]
      iintro ⟨Hmw, Ho, Ht, Htodo, Hb⟩
      isplitl [Hmw]; · iexact Hmw
      isplitl [Ho]; · iapply (dpro_owesI_trans d L O hW'); iexact Ho
      isplitl [Ht]; · iexact Ht
      isplitl []; · iempintro
      isplitl [Htodo]; · iexact Htodo
      iexact Hb)))
  iapply (trip_first d L cmb ix o sc0 O v2 k hk hsc0 hscb W')
  isplitl [Hmw]; · iexact Hmw
  isplitl [HO]; · iexact HO
  isplitl [Ht]; · iexact Ht
  isplitl [Htodo]; · iexact Htodo
  iexact Hf

/-- A LATER TRIP, from the invariant to the invariant. -/
private theorem dpro_stepS (v2 : BitVec 32) (k : Fin k2_t1_loop.trips) (hk : k.val ≠ 0)
    (hsc0 : ∀ (r : Fin 128) (x : Fin 80), sc0 (ValueIdx.ix2 r x) = ix (ValueIdx.ix3 (widL L) r x))
    (hscb : ∀ i, (sc0 i).toNat < 1960) (W : Waits sig (HIx 1)) :
    (tripI d L cmb ix o sc0 O W k.val () : sProp 𝕄)
      ⊢ (wp frame (wpE (defs₀ (F := F)) 𝒱₀ (thrV d L) none) Set.univ
          (k2_t1_body L v5V (Memref.isWhole_whole _) v6V (Memref.isWhole_whole _) v7V (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) (Memref.whole cc2_scratch5) (Memref.isWhole_whole _)
            (Memref.whole cc2_scratch6) (Memref.isWhole_whole _) (Memref.whole cc2_scratch7) (Memref.isWhole_whole _)
            (Memref.whole cc2_scratch8) (Memref.isWhole_whole _)
            cc2_scratch9 cc2_scratch10 cc2_scratch11 cc2_scratch12 cc2_scratch13 cc2_scratch14 cc2_scratch15 cc2_scratch16
            cc2_scratch17 cc2_scratch18 cc2_scratch19 cc2_scratch20 cc2_scratch21 cc2_scratch22 cc2_scratch23 cc2_scratch24 cc2_scoped0 v2 k ())
          (tripI d L cmb ix o sc0 O W (k.val + 1)) : sProp 𝕄) := by
  have h16 : k.val < 16 := trips_eq ▸ k.isLt
  have hk' : k.val = (fk (k.val - 1)).val + 1 := by
    show k.val = (k.val - 1) % 16 + 1
    omega
  have e32 : 32 * (fk (k.val - 1)).val + 32 = 32 * k.val := by omega
  rw [dpro_tripI_succ d L cmb ix o sc0 O W (fk (k.val - 1)) k.val hk' (),
    show (tripI d L cmb ix o sc0 O W (k.val + 1) : Unit → sProp 𝕄) = fun u => _ from funext fun u => dpro_tripI_succ d L cmb ix o sc0 O W k _ rfl u,
    e32]
  iintro ⟨Hmw, ⟨%W', %hW', HO⟩, Ht, Hd, Htodo, Hb⟩
  iapply (wp_mono frame _ _ (fun _ => (show iprop(Transfers.MayWaits (thrV d L) none O ∗ owesI d L O W' ∗ toksI d L cmb sc0
            ∗ doneI d L cmb ix (32 * (fk (k.val - 1)).val + 32) ∗ todoI d L o (32 * k.val + 32) ∗ batsI d L cmb ix o k (8 * k.val))
        ⊢ (iprop(Transfers.MayWaits (thrV d L) none O ∗ owesI d L O W ∗ toksI d L cmb sc0 ∗ doneI d L cmb ix (32 * k.val)
          ∗ todoI d L o (32 * k.val + 32) ∗ batsI d L cmb ix o k (8 * k.val)) : sProp 𝕄) from by
      rw [e32]
      iintro ⟨Hmw, Ho, Ht, Hd, Htodo, Hb⟩
      isplitl [Hmw]; · iexact Hmw
      isplitl [Ho]; · iapply (dpro_owesI_trans d L O hW'); iexact Ho
      isplitl [Ht]; · iexact Ht
      isplitl [Hd]; · iexact Hd
      isplitl [Htodo]; · iexact Htodo
      iexact Hb)))
  iapply (trip_next d L cmb ix o sc0 O v2 k (fk (k.val - 1)) hk' hsc0 hscb W')
  isplitl [Hmw]; · iexact Hmw
  isplitl [HO]; · iexact HO
  isplitl [Ht]; · iexact Ht
  isplitl [Hd]; · iexact Hd
  isplitl [Htodo]; · iexact Htodo
  iexact Hb

end Steps

section Assembly

variable (d : Dev nD) (L : grid2.Coords)

/-- The list scratch after the index fetch, at contents named: word (r, x) is the index array's word (worker, r, x). -/
private theorem dpro_name_list (ix : Buf (Elt F) (v6Loc d)) (f0 : Buf (Elt F) ((thrV d L).loc cc2_scratch0))
    (pay : S128x80.Idx → BitVec 32) (hpay : pay = ReadAs.same.apply ((idxRowM L).view.read (Elt F) ix)) :
    ((lstV).view.loc (V d (cV L) (jV L)) ↦{fullShare} View.write (Elt F) (Memref.whole cc2_scratch0).view f0 pay Finset.univ : sProp 𝕄)
      ⊢ iprop(∃ sc0 : Buf (Elt F) ((lstV).view.loc (thrV d L)),
          ⌜∀ (r : Fin 128) (x : Fin 80), sc0 (ValueIdx.ix2 r x) = ix (ValueIdx.ix3 (widL L) r x)⌝
            ∗ ((lstV).view.loc (thrV d L) ↦{fullShare} sc0)) := by
  subst hpay
  iintro H
  iexists (View.write (Elt F) (Memref.whole cc2_scratch0).view f0 (ReadAs.same.apply ((idxRowM L).view.read (Elt F) ix)) Finset.univ)
  isplitr
  · ipureintro
    intro r x
    rw [View.write_whole_univ]
    exact fetch_val d L ix r x
  · iexact H

set_option maxHeartbeats 4000000 in
theorem tile_body (hF : (K (F := F)).Facts) (d : Dev nD) (L : grid2.Coords)
    (cmb : Buf (Elt F) (v5Loc d)) (ix : Buf (Elt F) (v6Loc d)) (o : Buf (Elt F) (v7Loc d))
    (hin : ∀ j, (ix j).toNat < 1960)
    (O : CellTallies nD τ sig (HIx 1)) (W : Waits sig (HIx 1)) (hO : ∀ g, O g none = 0) :
    iprop(levAts (K (F := F)).L (K (F := F)).lev ∗ emp
        ∗ (tileGo (U := U) d (widL L) cmb ix o)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc2_gather_kernel L v5V (Memref.isWhole_whole _) v6V (Memref.isWhole_whole _) v7V (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) (Memref.whole cc2_scratch5) (Memref.isWhole_whole _)
            (Memref.whole cc2_scratch6) (Memref.isWhole_whole _) (Memref.whole cc2_scratch7) (Memref.isWhole_whole _)
            (Memref.whole cc2_scratch8) (Memref.isWhole_whole _)
            cc2_scratch9 cc2_scratch10 cc2_scratch11 cc2_scratch12 cc2_scratch13 cc2_scratch14 cc2_scratch15 cc2_scratch16
            cc2_scratch17 cc2_scratch18 cc2_scratch19 cc2_scratch20 cc2_scratch21 cc2_scratch22 cc2_scratch23 cc2_scratch24 cc2_scoped0)
          (fun _ => iprop((tileGo (U := U) d (widL L) cmb ix (gOut cmb ix))
            ∗ scopedBufs (V d (cV L) (jV L)) ∗ scopedSems0 (V d (cV L) (jV L))
            ∗ ∃ W', ⌜∀ p ∈ W', p ∈ W ∨ p.2 = none⌝ ∗ owes (V d (cV L) (jV L)) O W')) : sProp 𝕄) := by
  simp only [cc2_gather_kernel_eq_skeleton]; unfold cc2_gather_kernel_skel
  rw [(K (F := F)).scopedBufs_V hF d (cV L) (jV L), SparseCore.Cfg.scopedSems0_V (Val := Elt F) d (cV L) (jV L), ownSems0_V, ownBufs_V]
  unfold tileGo
  iintro ⟨#Hlv, -, ⟨Hc, Hi, Ho⟩, ⟨⟨%f0, Hl⟩, ⟨%f1, Hb0⟩, ⟨%f2, Hb1⟩, ⟨%f3, Hb2⟩, ⟨%f4, Hb3⟩, ⟨%f5, Hb4⟩, ⟨%f6, Hb5⟩, ⟨%f7, Hb6⟩, ⟨%f8, Hb7⟩, Hbufs⟩, ⟨Hg0, Hg1, Hg2, Hg3, Hg4, Hg5, Hg6, Hg7, Hs0, Hs1, Hs2, Hs3, Hs4, Hs5, Hs6, Hs7, Hsc, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (show (v6Loc d ↦[idxRows (widL L)]{fullShare} ix : sProp 𝕄)
      = ((idxRowM L).view.loc (V d (cV L) (jV L)) ↦[(idxRowM L).view.set]{fullShare} ix) by rw [set_idxRow])) $$ Hi
  ihave Hl' := (Entails.of_eq (show ((thrV d L).loc cc2_scratch0 ↦{fullShare} f0 : sProp 𝕄) = ((lstV).view.loc (V d (cV L) (jV L)) ↦{fullShare} f0) from rfl)) $$ Hl
  sl_unfold [k2_part23]
  -- the index fetch and its wait
  sl_exec
  -- the fetched list, named; its words name rows of the table
  ihave Hn := (dpro_name_list (F := F) d L ix f0 (tile_body.sl.dma0 d L ix) rfl) $$ Hl'
  icases Hn with ⟨%sc0, %hsc0, Hl⟩
  have hscb : ∀ i, (sc0 i).toNat < 1960 := fun i => by
    obtain ⟨r, x, rfl⟩ : ∃ (r : Fin 128) (x : Fin 80), i = ValueIdx.ix2 r x := ⟨i 0, i 1, ValueIdx.eq_ix2 (n0 := 128) (n1 := 80) i⟩
    rw [hsc0]; exact hin _
  -- one read token of the table and of the list per gather semaphore
  ihave Hc' := (toks_9_16 (F := F) (ℓ := (v5V).view.loc (thrV d L)) Finset.univ (cq (widL L)) cmb).1 $$ Hc
  icases Hc' with ⟨Hc17, Hc08, Hc9, Hc10, Hc11, Hc12, Hc13, Hc14, Hc15, Hc16⟩
  ihave Hl'' := (toks_9_16 (F := F) (ℓ := (lstV).view.loc (thrV d L)) Finset.univ fullShare sc0).1 $$ Hl
  icases Hl'' with ⟨Hl17, Hl08, Hl9, Hl10, Hl11, Hl12, Hl13, Hl14, Hl15, Hl16⟩
  ihave Ho' := (Entails.of_eq (show (v7Loc d ↦[outRows (widL L)]{fullShare} o : sProp 𝕄)
      = (v7Loc d ↦[rowsFrom (widL L) 0]{fullShare} o) by rw [outRows_eq])) $$ Ho
  rw [Prog.bind_assoc]
  sl_for (tripI d L cmb ix o sc0 O W) $$ [Hmw HO Hc9 Hc10 Hc11 Hc12 Hc13 Hc14 Hc15 Hc16 Hl9 Hl10 Hl11 Hl12 Hl13 Hl14 Hl15 Hl16 Hg0 Hg1 Hg2 Hg3 Hg4 Hg5 Hg6 Hg7 Ho' Hb0 Hb1 Hb2 Hb3 Hb4 Hb5 Hb6 Hb7 Hs0 Hs1 Hs2 Hs3 Hs4 Hs5 Hs6 Hs7]
  case region =>
    intro k acc
    unfold tile_body.sl.prog.body_1
    by_cases hk : k.val = 0
    · exact dpro_step0 d L cmb ix o sc0 O (tile_body.sl.v2 L) k hk hsc0 hscb W
    · exact dpro_stepS d L cmb ix o sc0 O (tile_body.sl.v2 L) k hk hsc0 hscb W
  · rw [dpro_tripI_zero d L cmb ix o sc0 O W 0 rfl, dpro_done_zero]
    isplitl [Hmw]; · iexact Hmw
    isplitl [HO]
    · iexists _; isplitr
      swap; · iexact HO
      ipureintro; intro p hp
      rcases Finset.mem_insert.mp hp with hp | hp
      · exact .inr (hp ▸ rfl)
      · exact .inl hp
    isplitl [Hc9 Hc10 Hc11 Hc12 Hc13 Hc14 Hc15 Hc16 Hl9 Hl10 Hl11 Hl12 Hl13 Hl14 Hl15 Hl16 Hg0 Hg1 Hg2 Hg3 Hg4 Hg5 Hg6 Hg7]
    ·
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      isplitl [Hc16]; · iexact Hc16
      isplitl [Hl9]; · iexact Hl9
      isplitl [Hl10]; · iexact Hl10
      isplitl [Hl11]; · iexact Hl11
      isplitl [Hl12]; · iexact Hl12
      isplitl [Hl13]; · iexact Hl13
      isplitl [Hl14]; · iexact Hl14
      isplitl [Hl15]; · iexact Hl15
      isplitl [Hl16]; · iexact Hl16
      isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      iexact Hg7
    isplitl []; · iempintro
    isplitl [Ho']; · iexact Ho'
    isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    isplitl [Hs0]; · iapply (Entails.of_eq (hid_eq _).symm); iexact Hs0
    isplitl [Hs1]; · iapply (Entails.of_eq (hid_eq _).symm); iexact Hs1
    isplitl [Hs2]; · iapply (Entails.of_eq (hid_eq _).symm); iexact Hs2
    isplitl [Hs3]; · iapply (Entails.of_eq (hid_eq _).symm); iexact Hs3
    isplitl [Hs4]; · iapply (Entails.of_eq (hid_eq _).symm); iexact Hs4
    isplitl [Hs5]; · iapply (Entails.of_eq (hid_eq _).symm); iexact Hs5
    isplitl [Hs6]; · iapply (Entails.of_eq (hid_eq _).symm); iexact Hs6
    iapply (Entails.of_eq (hid_eq _).symm); iexact Hs7
  iintro %acc HI
  -- the invariant after the sixteenth trip
  ihave HI' := (Entails.of_eq (dpro_tripI_succ d L cmb ix o sc0 O W (fk 15) _ trips_eq acc)) $$ HI
  icases HI' with ⟨Hmw2, ⟨%W', %hW', HO⟩, ⟨Tc9, Tc10, Tc11, Tc12, Tc13, Tc14, Tc15, Tc16, Tl9, Tl10, Tl11, Tl12, Tl13, Tl14, Tl15, Tl16, Tg0, Tg1, Tg2, Tg3, Tg4, Tg5, Tg6, Tg7⟩, Hd, Htodo, Hb⟩
  ihave He := (Entails.of_eq (show (todoI d L o (32 * (fk 15).val + 32) : sProp 𝕄) = iprop(emp) from by
    show (v7Loc d ↦[rowsFrom (widL L) 512]{fullShare} o : sProp 𝕄) = iprop(emp)
    rw [rowsFrom_end, pointsTo_empty])) $$ Htodo
  icases He with -
  -- the statements after the loop: the last trip's copies drained
  iapply (tile_drain d L cmb ix o O (tile_body.sl.v2 L) (fk 15) rfl W' _)
  isplitl [Hmw2]; · iexact Hmw2
  isplitl [HO]; · iexact HO
  isplitl [Hd]; · iexact Hd
  isplitl [Hb]; · iexact Hb
  iintro ⟨Hw, Hd, ⟨Lb0, Lb1, Lb2, Lb3, Lb4, Lb5, Lb6, Lb7, Ls0, Ls1, Ls2, Ls3, Ls4, Ls5, Ls6, Ls7⟩⟩
  -- the read tokens joined back
  ihave Hc := (toks_9_16 (F := F) (ℓ := (v5V).view.loc (thrV d L)) Finset.univ (cq (widL L)) cmb).2 $$ [Hc17 Hc08 Tc9 Tc10 Tc11 Tc12 Tc13 Tc14 Tc15 Tc16]
  · isplitl [Hc17]; · iexact Hc17
    isplitl [Hc08]; · iexact Hc08
    isplitl [Tc9]; · iexact Tc9
    isplitl [Tc10]; · iexact Tc10
    isplitl [Tc11]; · iexact Tc11
    isplitl [Tc12]; · iexact Tc12
    isplitl [Tc13]; · iexact Tc13
    isplitl [Tc14]; · iexact Tc14
    isplitl [Tc15]; · iexact Tc15
    iexact Tc16
  ihave Hl := (toks_9_16 (F := F) (ℓ := (lstV).view.loc (thrV d L)) Finset.univ fullShare sc0).2 $$ [Hl17 Hl08 Tl9 Tl10 Tl11 Tl12 Tl13 Tl14 Tl15 Tl16]
  · isplitl [Hl17]; · iexact Hl17
    isplitl [Hl08]; · iexact Hl08
    isplitl [Tl9]; · iexact Tl9
    isplitl [Tl10]; · iexact Tl10
    isplitl [Tl11]; · iexact Tl11
    isplitl [Tl12]; · iexact Tl12
    isplitl [Tl13]; · iexact Tl13
    isplitl [Tl14]; · iexact Tl14
    isplitl [Tl15]; · iexact Tl15
    iexact Tl16
  -- the tile's operands, its own buffers and semaphores, the waits recorded
  isplitl [Hc Hi' Hd]
  · isplitl [Hc]; · iexact Hc
    isplitl [Hi']
    · iapply (Entails.of_eq (show ((idxRowM L).view.loc (V d (cV L) (jV L)) ↦[(idxRowM L).view.set]{fullShare} ix : sProp 𝕄)
        = (v6Loc d ↦[idxRows (widL L)]{fullShare} ix) by rw [set_idxRow])); iexact Hi'
    iapply (Entails.of_eq (show (doneI d L cmb ix (32 * (fk 15).val + 32) : sProp 𝕄)
        = (v7Loc d ↦[outRows (widL L)]{fullShare} gOut cmb ix) from by
      show (v7Loc d ↦[rowsTo (widL L) 512]{fullShare} gOut cmb ix : sProp 𝕄) = _
      rw [rowsTo_end, outRows_eq])); iexact Hd
  isplitl [Hl Lb0 Lb1 Lb2 Lb3 Lb4 Lb5 Lb6 Lb7 Hbufs]
  · isplitl [Hl]; · iexists _; iexact Hl
    isplitl [Lb0]; · iexact Lb0
    isplitl [Lb1]; · iexact Lb1
    isplitl [Lb2]; · iexact Lb2
    isplitl [Lb3]; · iexact Lb3
    isplitl [Lb4]; · iexact Lb4
    isplitl [Lb5]; · iexact Lb5
    isplitl [Lb6]; · iexact Lb6
    isplitl [Lb7]; · iexact Lb7
    iexact Hbufs
  isplitl [Tg0 Tg1 Tg2 Tg3 Tg4 Tg5 Tg6 Tg7 Ls0 Ls1 Ls2 Ls3 Ls4 Ls5 Ls6 Ls7 Hsc Hsems]
  ·
    isplitl [Tg0]; · iexact Tg0
    isplitl [Tg1]; · iexact Tg1
    isplitl [Tg2]; · iexact Tg2
    isplitl [Tg3]; · iexact Tg3
    isplitl [Tg4]; · iexact Tg4
    isplitl [Tg5]; · iexact Tg5
    isplitl [Tg6]; · iexact Tg6
    isplitl [Tg7]; · iexact Tg7
    isplitl [Ls0]; · iexact Ls0
    isplitl [Ls1]; · iexact Ls1
    isplitl [Ls2]; · iexact Ls2
    isplitl [Ls3]; · iexact Ls3
    isplitl [Ls4]; · iexact Ls4
    isplitl [Ls5]; · iexact Ls5
    isplitl [Ls6]; · iexact Ls6
    isplitl [Ls7]; · iexact Ls7
    isplitl [Hsc]; · iexact Hsc
    iexact Hsems
  iapply (dpro_owesI_trans d L O hW'); iexact Hw

end Assembly

end Cert.Proof.Tile

end
-- ==== Proof.Obl.lean ====
/-
  The SparseCore launch's per-tile obligation, from the tile's body: on vector subcore i of SparseCore c, the label's
  program is the gather kernel at grid coordinates (c, i); handed its read share of the table, its row of the index
  array and its rows of the output, it ends with those rows at the gather's whole-array function. The tile of grid
  coordinates (c, i) is worker 2 i + c, the worker whose operands the launch hands it.
-/
import proofs.«206393_g35751307772044_cont_8to1_b_353_20_alg».proof.Proof.Launch
import proofs.«206393_g35751307772044_cont_8to1_b_353_20_alg».proof.Proof.TileBody

noncomputable section

namespace Cert.Proof.Launch

open Cert.KernelIdeal Cert.Proof.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.Facts₀ Cert.KernelIdeal.Facts

variable {F : FTy → Type} [Cert.KernelIdeal.Facts]

local notation "𝕄" => MT nD τ sig (HIx 1) (Elt F) ℕ UU ℕ

variable (m : (ℓ : Loc nD τ sig) → Buf (Elt F) ℓ)

variable [FloatOps F]

/-! ## The obligation -/

/-- Grid coordinates from a SparseCore's and a vector subcore's number. -/
def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2_gather_kernel (coordsV c s)
          v5V (Memref.isWhole_whole _) v6V (Memref.isWhole_whole _) v7V (Memref.isWhole_whole _)
          (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _)
          cc2_scratch9 cc2_scratch10 cc2_scratch11 cc2_scratch12 cc2_scratch13 cc2_scratch14 cc2_scratch15 cc2_scratch16 cc2_scratch17 cc2_scratch18 cc2_scratch19 cc2_scratch20 cc2_scratch21 cc2_scratch22 cc2_scratch23 cc2_scratch24 cc2_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile at grid coordinates (c, i) is worker 2 i + c. -/
theorem widL_coordsV (c : Fin (grid2.bound 0)) (s : Fin (grid2.bound 1)) (c' : Fin 2) (i' : Fin 16)
    (hc : c'.val = c.val) (hi : i'.val = s.val) : Tile.widL (coordsV c s) = wid c' i' := by
  apply Fin.ext
  show s.val * 2 + c.val = i'.val * 2 + c'.val
  rw [hc, hi]

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hw : Tile.widL (coordsV ⟨_, hci.1⟩ ⟨_, hci.2⟩) = wid (Fin.cast nCore_zero c) (Fin.cast nSub_zero i) :=
    widL_coordsV _ _ _ _ rfl rfl
  have hb := Tile.tile_body (F := F) (U := UU) facts d (coordsV ⟨_, hci.1⟩ ⟨_, hci.2⟩) (cmbV m d) (ixV m d) (m (v7Loc d))
    (hpre d) O W hO
  rw [hw] at hb
  exact hb.trans (wp_mono frame _ _ fun _ => obl_post)

end Cert.Proof.Launch

end
-- ==== Proof.Run.lean ====
/-
  The program's run: from any launch memory whose index words name rows of the table, every weakly fair execution of
  all the threads ends, the five arguments unchanged and the result array at `gOut` of the table and index array.
-/
import proofs.«206393_g35751307772044_cont_8to1_b_353_20_alg».proof.Proof.Main
import proofs.«206393_g35751307772044_cont_8to1_b_353_20_alg».proof.Proof.Obl

noncomputable section

namespace Cert.Proof.Launch

open Cert.KernelIdeal Cert.Proof.Common
open Idealize.ShloMosaic Idealize.SL.Sem

variable {F : FTy → Type} [Cert.KernelIdeal.Facts]
variable (m : (ℓ : Loc nD τ sig) → Buf (Elt F) ℓ) (ρ : Dev nD → PrngReg)
variable [FloatOps F]

theorem run_main [∀ e, Nonempty (Elt F e)] (hpre : PreOK m) :
    θ_run (Cert.KernelIdeal.defs (F := F)) (Cert.KernelIdeal.threads (F := F)) ⟨m, fun _ => 0, ρ⟩ (QC m) :=
  run_of m ρ (tileObl m hpre) (hmain m ρ)

end Cert.Proof.Launch

end
-- ==== Proof.CommonK.lean ====
/-
  Shared definitions: the values the kernel's three calls compute, as pure functions generic in the float
  instance, and the per-tile operands of the SparseCore call.

  * `comb0`: the layer-normalised table of the first TensorCore call, entry (s, n, k) = LN(pos s + letter n) k · w k + b k,
    written with the body's own vector operations.
  * `idx0`: the flat row numbers of the second TensorCore call, entry (r, s) = x (r, s) + 98 · s as 32-bit words.
  * `gOut`: the gather's result as ONE whole-array function: entry (b, s, k) of the output is column k of the table row
    named by the index word at chunk position (b / 512, (b mod 512) / 4, (b mod 4) · 20 + s) — tile b / 512 handles batch
    rows [512 · (b / 512), …), in chunks of four batch elements of twenty positions each.
-/
import proofs.«206393_g35751307772044_cont_8to1_b_353_20_alg».proof.Kernel
import Idealize.ShloMosaic.Lib.SparseCore.Launch
import Idealize.ShloMosaic.Lib.Transfers
import Idealize.ShloMosaic.Lib.ValueIdx

noncomputable section

namespace Cert.ProofK.Common

open Cert.Kernel
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)
open Cert.Kernel.Facts₀ Cert.Kernel.Facts

variable {F : FTy → Type} [FloatOps F] [Cert.Kernel.Facts]

/-! ## The three calls' values -/

/-- The first call's table: `(pos s + letter n)` normalised over its 128 columns (mean and variance as sums divided by
    128, the variance shifted by ε under the square root), scaled by `w` and shifted by `b`; the operations are the body's. -/
def comb0 (lt : FVec F S98x128 .f32) (p20 : FVec F S20x128 .f32) (w1 b1 : FVec F S1x128 .f32) : FVec F S20x98x128 .f32 :=
  let v1 : FVec F S20x128 .f32 := shapeCast S20x128 p20 shapeCasts_S20x128_S20x128
  let v2 : FVec F S20x1x128 .f32 := shapeCast S20x1x128 v1 shapeCasts_S20x128_S20x1x128
  let v4 : FVec F S1x98x128 .f32 := shapeCast S1x98x128 lt shapeCasts_S98x128_S1x98x128
  let v5 : FVec F S20x98x128 .f32 := broadcastTo S20x98x128 v2 broadcasts_S20x1x128_S20x98x128
  let v6 : FVec F S20x98x128 .f32 := broadcastTo S20x98x128 v4 broadcasts_S1x98x128_S20x98x128
  let v7 : FVec F S20x98x128 .f32 := addf v5 v6
  let v8 : FVec F S20x98 .f32 := multiReduction .add [2] S20x98 v7 0x00000000#32 reduces_S20x98x128_S20x98 (.inl rfl) rfl
  let v9 : FVec F S20x98x1 .f32 := shapeCast S20x98x1 v8 shapeCasts_S20x98_S20x98x1
  let v10 : FVec F S20x98x1 .f32 := broadcast S20x98x1 (Scalar.ofBits .f32 0x43000000#32)
  let v11 : FVec F S20x98x1 .f32 := divf v9 v10
  let v12 : FVec F S20x98x128 .f32 := broadcastTo S20x98x128 v11 broadcasts_S20x98x1_S20x98x128
  let v13 : FVec F S20x98x128 .f32 := subf v7 v12
  let v14 : FVec F S20x98x128 .f32 := mulf v13 v13
  let v15 : FVec F S20x98 .f32 := multiReduction .add [2] S20x98 v14 0x00000000#32 reduces_S20x98x128_S20x98 (.inl rfl) rfl
  let v16 : FVec F S20x98x1 .f32 := shapeCast S20x98x1 v15 shapeCasts_S20x98_S20x98x1
  let v17 : FVec F S20x98x1 .f32 := broadcast S20x98x1 (Scalar.ofBits .f32 0x43000000#32)
  let v18 : FVec F S20x98x1 .f32 := divf v16 v17
  let v19 : FVec F S20x98x128 .f32 := broadcastTo S20x98x128 v11 broadcasts_S20x98x1_S20x98x128
  let v20 : FVec F S20x98x128 .f32 := subf v7 v19
  let v21 : FVec F S20x98x1 .f32 := broadcast S20x98x1 (Scalar.ofBits .f32 0x3727C5AC#32)
  let v22 : FVec F S20x98x1 .f32 := addf v18 v21
  let v23 : FVec F S20x98x1 .f32 := sqrt v22
  let v24 : FVec F S20x98x128 .f32 := broadcastTo S20x98x128 v23 broadcasts_S20x98x1_S20x98x128
  let v25 : FVec F S20x98x128 .f32 := divf v20 v24
  let v27 : FVec F S1x128 .f32 := shapeCast S1x128 w1 shapeCasts_S1x128_S1x128
  let v28 : FVec F S1x1x128 .f32 := shapeCast S1x1x128 v27 shapeCasts_S1x128_S1x1x128
  let v29 : FVec F S20x98x128 .f32 := broadcastTo S20x98x128 v28 broadcasts_S1x1x128_S20x98x128
  let v30 : FVec F S20x98x128 .f32 := mulf v25 v29
  let v32 : FVec F S1x128 .f32 := shapeCast S1x128 b1 shapeCasts_S1x128_S1x128
  let v33 : FVec F S1x1x128 .f32 := shapeCast S1x1x128 v32 shapeCasts_S1x128_S1x1x128
  let v34 : FVec F S20x98x128 .f32 := broadcastTo S20x98x128 v33 broadcasts_S1x1x128_S20x98x128
  addf v30 v34

/-- One block of the second call: the block's words plus 98 times the column number. -/
def idxBlk (x : IVec S1024x20 32) : IVec S1024x20 32 :=
  addi x (muli (iota .tc S1024x20 32 [1] iota_S1024x20_d1_w32) (broadcast S1024x20 (98#32 : BitVec 32)))

/-- The second call's whole result: word (r, s) is `x (r, s) + 98 · s`. -/
def idx0 (x : IVec S16384x20 32) : IVec S16384x20 32 :=
  fun j => x j + BitVec.ofNat 32 (j 1).val * 98#32

/-- A natural number as a row of the 1960-row table (itself, when below 1960). -/
def rowOf (n : ℕ) : Fin 1960 := ⟨n % 1960, Nat.mod_lt _ (by decide)⟩

theorem rowOf_of_lt {n : ℕ} (h : n < 1960) : (rowOf n).val = n := Nat.mod_eq_of_lt h

/-- Where the index word of output element (b, s, ·) sits in the [32, 128, 80] index array: tile `b / 512`, chunk
    `(b mod 512) / 4`, position `(b mod 4) · 20 + s`. -/
def pos3 (j : S16384x20x128.Idx) : S32x128x80.Idx :=
  have h0 : (j 0).val < 16384 := (j 0).isLt
  have h1 : (j 1).val < 20 := (j 1).isLt
  ix3 (⟨(j 0).val / 512, by omega⟩ : Fin 32) (⟨(j 0).val % 512 / 4, by omega⟩ : Fin 128) (⟨(j 0).val % 4 * 20 + (j 1).val, by omega⟩ : Fin 80)

/-- The gather's result as one whole-array function of the table and the index array. -/
def gOut (cmb : FVec F S1960x128 .f32) (ix : IVec S32x128x80 32) : FVec F S16384x20x128 .f32 :=
  fun j => cmb (ix2 (rowOf (ix (pos3 j)).toNat) (⟨(j 2).val, (j 2).isLt⟩ : Fin 128))

/-! ## The arrays the SparseCore call works on, and a tile's operands -/

section Tile

variable {U : Type} [URA U]

local notation "𝕄" => MT nD τ sig (HIx 1) (Elt F) ℕ U ℕ

abbrev v5Loc (d : Dev nD) : Loc nD τ sig := (SparseCore.T d).loc main_v5
abbrev v6Loc (d : Dev nD) : Loc nD τ sig := (SparseCore.T d).loc main_v6
abbrev v7Loc (d : Dev nD) : Loc nD τ sig := (SparseCore.T d).loc main_v7

abbrev v5V : Memref sig .scVector .hbm S1960x128 .f32 := Memref.whole main_v5_scv
abbrev v6V : Memref sig .scVector .hbm S32x128x80 .i32 := Memref.whole main_v6_scv
abbrev v7V : Memref sig .scVector .hbm S16384x20x128 .f32 := Memref.whole main_v7_scv

/-- Tile `i` of SparseCore `c` is worker `2 i + c`. -/
def wid (c : Fin 2) (i : Fin 16) : Fin 32 := ⟨i.val * 2 + c.val, by omega⟩

theorem idiv : 32 ∣ S32x128x80.size 0 := ⟨1, rfl⟩
theorem odiv : 32 ∣ S16384x20x128.size 0 := ⟨512, rfl⟩

/-- Worker `w`'s rows of the index array (row `w`), and of the output (rows `[512 w, 512 w + 512)`). -/
abbrev idxRect (w : Fin 32) : Rect S32x128x80 := Rect.part (s := S32x128x80) (a₀ := 0) idiv w
abbrev outRect (w : Fin 32) : Rect S16384x20x128 := Rect.part (s := S16384x20x128) (a₀ := 0) odiv w
abbrev idxRows (w : Fin 32) : Finset S32x128x80.Idx := ((v6V).view.slice (idxRect w)).set
abbrev outRows (w : Fin 32) : Finset S16384x20x128.Idx := ((v7V).view.slice (outRect w)).set

/-- Worker `w`'s read share of the table. -/
abbrev cq (w : Fin 32) : PosShare TreeShare := shareTok fullShare 32 w

/-- What a tile is handed: its read share of the whole table, its row of the index array, its rows of the output. -/
def tileGo (d : Dev nD) (w : Fin 32) (cmb : Buf (Elt F) (v5Loc d)) (ix : Buf (Elt F) (v6Loc d)) (o : Buf (Elt F) (v7Loc d)) : sProp 𝕄 :=
  iprop((v5Loc d ↦{cq w} cmb) ∗ (v6Loc d ↦[idxRows w]{fullShare} ix) ∗ (v7Loc d ↦[outRows w]{fullShare} o))

end Tile

end Cert.ProofK.Common

end
-- ==== Proof.LaunchK.lean ====
/-
  The launch: the program's threads — @main on the TensorCore, the two SparseCores' sequencers and their sixteen tiles
  each — run to the end from any memory with zero semaphores, the arguments unchanged and the result array holding
  `gOut` of the table and the index array @main computed.
-/
import proofs.«206393_g35751307772044_cont_8to1_b_353_20_alg».proof.Proof.CommonK
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Tactic
import proofs.«206393_g35751307772044_cont_8to1_b_353_20_alg».proof.Proof.Gen.Kernel
import proofs.«206393_g35751307772044_cont_8to1_b_353_20_alg».proof.Proof.Gen.Kernel.Launch

noncomputable section

namespace Cert.ProofK.Launch

open Cert.Kernel Cert.ProofK.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Kernel.Facts₀ Cert.Kernel.Facts

variable {F : FTy → Type} [Cert.Kernel.Facts]

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR
instance EP_landsIn : (EP : Emb UP 𝕄).LandsIn (upEmb : UEmb _ 𝕄) := by infer_instance

/-! ## The launch memory and what @main computes from it -/

variable (m : (ℓ : Loc nD τ sig) → Buf (Elt F) ℓ) (ρ : Dev nD → PrngReg)

variable [FloatOps F]

/-- The table the SparseCore call gathers from: the first call's result on the launch arguments, as 1960 rows. -/
def cmbV (d : Dev nD) : Buf (Elt F) (v5Loc d) :=
  shapeCast S1960x128
    (comb0 (F := F) (m ((SparseCore.T d).loc main_arg1)) (extractStridedSlice S20x128 ![0, 0] (m ((SparseCore.T d).loc main_arg2)) slices_S25x128_S20x128_0_0)
      (shapeCast S1x128 (m ((SparseCore.T d).loc main_arg3)) shapeCasts_S128_S1x128) (shapeCast S1x128 (m ((SparseCore.T d).loc main_arg4)) shapeCasts_S128_S1x128))
    shapeCasts_S20x98x128_S1960x128

/-- The index array: the second call's result on the launch argument, as [32, 128, 80]. -/
def ixV (d : Dev nD) : Buf (Elt F) (v6Loc d) :=
  shapeCast S32x128x80 (idx0 (m ((SparseCore.T d).loc main_arg0))) shapeCasts_S16384x20_S32x128x80

/-- What the proof asks of the launch memory: every index word names a row of the table. -/
def PreOK : Prop := ∀ (d : Dev nD) (j : S32x128x80.Idx), (ixV m d j).toNat < 1960

/-! ## What the handshakes carry -/

abbrev goRes (d : Dev nD) (c : Fin 2) (i : Fin 16) : sProp 𝕄 := tileGo d (wid c i) (cmbV m d) (ixV m d) (m (v7Loc d))
abbrev tdRes (d : Dev nD) (c : Fin 2) (i : Fin 16) : sProp 𝕄 := tileGo d (wid c i) (cmbV m d) (ixV m d) (gOut (cmbV m d) (ixV m d))

instance tileGo_storable (d : Dev nD) (w : Fin 32) (cmb : Buf (Elt F) (v5Loc d)) (ix : Buf (Elt F) (v6Loc d)) (o : Buf (Elt F) (v7Loc d)) :
    BI.Storable (upEmb : UEmb _ 𝕄) (tileGo (U := UU) d w cmb ix o) := by unfold tileGo; infer_instance

/-- The one call hands each SparseCore its sixteen tiles' operands and takes their results back. -/
def P : (K (F := F)).Pay (nD := nD) (Val := Elt F) (Name := ℕ) (U := UU) where
  st := fun q d c => match q with
    | 0 => bigSep Finset.univ fun i : Fin ((K (F := F)).nSub 0) => goRes m d (Fin.cast nCore_zero c) (Fin.cast nSub_zero i)
  dn := fun q d c => match q with
    | 0 => bigSep Finset.univ fun i : Fin ((K (F := F)).nSub 0) => tdRes m d (Fin.cast nCore_zero c) (Fin.cast nSub_zero i)
  go := fun q d c i => match q with
    | 0 => goRes m d (Fin.cast nCore_zero c) (Fin.cast nSub_zero i)
  td := fun q d c i => match q with
    | 0 => tdRes m d (Fin.cast nCore_zero c) (Fin.cast nSub_zero i)
  x := fun _ _ => iprop(emp)

instance P_storable : (P (F := F) m).IsStorable where
  st q d c := match q with
    | 0 => (inferInstance : BI.Storable (upEmb : UEmb _ 𝕄)
      (bigSep Finset.univ fun i : Fin ((K (F := F)).nSub 0) => goRes m d (Fin.cast nCore_zero c) (Fin.cast nSub_zero i)))
  dn q d c := match q with
    | 0 => (inferInstance : BI.Storable (upEmb : UEmb _ 𝕄)
      (bigSep Finset.univ fun i : Fin ((K (F := F)).nSub 0) => tdRes m d (Fin.cast nCore_zero c) (Fin.cast nSub_zero i)))
  go q d c i := match q with
    | 0 => (inferInstance : BI.Storable (upEmb : UEmb _ 𝕄) (goRes m d (Fin.cast nCore_zero c) (Fin.cast nSub_zero i)))
  td q d c i := match q with
    | 0 => (inferInstance : BI.Storable (upEmb : UEmb _ 𝕄) (tdRes m d (Fin.cast nCore_zero c) (Fin.cast nSub_zero i)))

/-- A SparseCore's operands ARE its tiles' operands, and its results theirs. -/
theorem vecSplit : (K (F := F)).VecSplit' (P m) 0 := by
  intro d c
  show (bigSep Finset.univ fun i : Fin ((K (F := F)).nSub 0) => goRes m d (Fin.cast nCore_zero c) (Fin.cast nSub_zero i)) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ (bigSep Finset.univ fun i : Fin ((K (F := F)).nSub 0) => tdRes m d (Fin.cast nCore_zero c) (Fin.cast nSub_zero i))))
  iintro H; imodintro
  isplitl [H]; · iexact H
  iintro H; iexact H

/-! ## The launch element of the ghost state -/

/-- The handshakes' rounds, the two pipelines' staging cells' rounds, the transfers' counters. -/
def u₀ : UU :=
  (initOf (K (F := F)).hsCells (K (F := F)).hsToks,
    (initOf (Pipeline.cells cfgs Gen.cellOf_inj) (Pipeline.launchToks cfgs Gen.cellOf_inj), 1))

/-- What @main's proof starts from beside the launch memory: both pipelines' staging cells' ghost state and duty tokens. -/
abbrev Gd (d : Dev nD) : sProp 𝕄 :=
  bigSep Finset.univ fun p : Fin 2 => iprop(Pipeline.cellsGhost cfgs (EP (F := F)) p d ∗ Pipeline.toksInit cfgs (EP (F := F)) p d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  unfold u₀
  iintro Hu
  ihave H := (ownU_pair (A := UH) (B := UP × Counters) (initOf (K (F := F)).hsCells (K (F := F)).hsToks) (initOf (Pipeline.cells cfgs Gen.cellOf_inj) (Pipeline.launchToks cfgs Gen.cellOf_inj), (1 : Counters))) $$ Hu
  icases H with ⟨HH, HR⟩
  ihave H2 := (own_pair_emb (embR : Emb (UP × Counters) 𝕄) (initOf (Pipeline.cells cfgs Gen.cellOf_inj) (Pipeline.launchToks cfgs Gen.cellOf_inj)) (1 : Counters)) $$ HR
  icases H2 with ⟨HP, -⟩
  imod (Pipeline.fund_ghost cfgs (EP (F := F)) Gen.cellOf_inj) $$ HP with ⟨Hg, Ht⟩
  imodintro
  isplitl [HH]; · iexact HH
  isplitl [Hg Ht]
  · unfold Gd
    simp only [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## What the TensorCore ends with, read off the final memory -/

abbrev argLoc0 (d : Dev nD) : Loc nD τ sig := (SparseCore.T d).loc main_arg0
abbrev argLoc1 (d : Dev nD) : Loc nD τ sig := (SparseCore.T d).loc main_arg1
abbrev argLoc2 (d : Dev nD) : Loc nD τ sig := (SparseCore.T d).loc main_arg2
abbrev argLoc3 (d : Dev nD) : Loc nD τ sig := (SparseCore.T d).loc main_arg3
abbrev argLoc4 (d : Dev nD) : Loc nD τ sig := (SparseCore.T d).loc main_arg4

/-- The result array at the gather's whole-array function, the five arguments at their launch contents. -/
abbrev FIN (d : Dev nD) : sProp 𝕄 :=
  iprop((v7Loc d ↦{fullShare} gOut (cmbV m d) (ixV m d)) ∗ (argLoc0 d ↦{fullShare} m (argLoc0 d)) ∗ (argLoc1 d ↦{fullShare} m (argLoc1 d))
    ∗ (argLoc2 d ↦{fullShare} m (argLoc2 d)) ∗ (argLoc3 d ↦{fullShare} m (argLoc3 d)) ∗ (argLoc4 d ↦{fullShare} m (argLoc4 d)))

def fq (d : Dev nD) (s' : Phys nD τ sig (Elt F)) : Prop :=
  s'.mem.mem (v7Loc d) = gOut (cmbV m d) (ixV m d) ∧ s'.mem.mem (argLoc0 d) = m (argLoc0 d) ∧ s'.mem.mem (argLoc1 d) = m (argLoc1 d)
    ∧ s'.mem.mem (argLoc2 d) = m (argLoc2 d) ∧ s'.mem.mem (argLoc3 d) = m (argLoc3 d) ∧ s'.mem.mem (argLoc4 d) = m (argLoc4 d)

set_option maxRecDepth 16384 in
theorem hfin (d : Dev nD) (s' : Phys nD τ sig (Elt F)) : iprop(FIN m d ∗ SI s') ⊢ (⌜fq m d s'⌝ : sProp 𝕄) := by
  iintro ⟨⟨Ho, H0, H1, H2, H3, H4⟩, HSI⟩
  ihave H := (persistent_entails_right (SI_pointsTo_agree (st := s') (ℓ := v7Loc d) (I := Finset.univ) (q := fullShare) (f := gOut (cmbV m d) (ixV m d)))) $$ [HSI Ho]
  · isplitl [HSI] <;> iassumption
  icases H with ⟨%ho, HSI, -⟩
  ihave H := (persistent_entails_right (SI_pointsTo_agree (st := s') (ℓ := argLoc0 d) (I := Finset.univ) (q := fullShare) (f := m (argLoc0 d)))) $$ [HSI H0]
  · isplitl [HSI] <;> iassumption
  icases H with ⟨%h0, HSI, -⟩
  ihave H := (persistent_entails_right (SI_pointsTo_agree (st := s') (ℓ := argLoc1 d) (I := Finset.univ) (q := fullShare) (f := m (argLoc1 d)))) $$ [HSI H1]
  · isplitl [HSI] <;> iassumption
  icases H with ⟨%h1, HSI, -⟩
  ihave H := (persistent_entails_right (SI_pointsTo_agree (st := s') (ℓ := argLoc2 d) (I := Finset.univ) (q := fullShare) (f := m (argLoc2 d)))) $$ [HSI H2]
  · isplitl [HSI] <;> iassumption
  icases H with ⟨%h2, HSI, -⟩
  ihave H := (persistent_entails_right (SI_pointsTo_agree (st := s') (ℓ := argLoc3 d) (I := Finset.univ) (q := fullShare) (f := m (argLoc3 d)))) $$ [HSI H3]
  · isplitl [HSI] <;> iassumption
  icases H with ⟨%h3, HSI, -⟩
  ihave H := (SI_pointsTo_agree (st := s') (ℓ := argLoc4 d) (I := Finset.univ) (q := fullShare) (f := m (argLoc4 d))) $$ [HSI H4]
  · isplitl [HSI] <;> iassumption
  icases H with %h4
  ipureintro
  exact ⟨funext fun i => ho i (Finset.mem_univ i), funext fun i => h0 i (Finset.mem_univ i), funext fun i => h1 i (Finset.mem_univ i),
    funext fun i => h2 i (Finset.mem_univ i), funext fun i => h3 i (Finset.mem_univ i), funext fun i => h4 i (Finset.mem_univ i)⟩

/-! ## The program's run -/

def QC : PUnit × MemSt nD τ sig (Elt F) → Prop := fun r => ∀ c : Dev nD,
  r.2.mem (v7Loc c) = gOut (cmbV m c) (ixV m c) ∧ r.2.mem (argLoc0 c) = m (argLoc0 c) ∧ r.2.mem (argLoc1 c) = m (argLoc1 c)
    ∧ r.2.mem (argLoc2 c) = m (argLoc2 c) ∧ r.2.mem (argLoc3 c) = m (argLoc3 c) ∧ r.2.mem (argLoc4 c) = m (argLoc4 c)

/-- The run, from the tile's obligation and @main's proof on the TensorCore. -/
theorem run_of [∀ e, Nonempty (Elt F e)]
    (htile : (K (F := F)).TileObl (D (F := F)) 𝒱 (P m) v₀ 0)
    (hmain : ∀ (κ : GSem nD τ sig → ℕ) (d : Dev nD),
      iprop((K (F := F)).ctx EH (P m) κ ∗ (K (F := F)).tcSt EH d 0 ∗ (K (F := F)).tcRes m ρ d ∗ Gd (F := F) d)
        ⊢ wp frame (wpE ((K (F := F)).defs (D (F := F))) 𝒱 (SparseCore.T d) none) Set.univ (main d)
            fun _ => iprop((K (F := F)).tcSt EH d 1 ∗ FIN m d)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun d => Gd (F := F) d) (FIN m) (u₀ (F := F)) (sep_elim_left.trans (hu₀ m)) hmain (fq m) (hfin m) (QC m) (fun _ h => h)

end Cert.ProofK.Launch

end
-- ==== Proof.TailK.lean ====
/-
  The SparseCore call on the TensorCore: the whole table, index array and output split among the thirty-two workers —
  a read share of the table each, a row of the index array each, 512 batch rows of the output each — and the output
  joined back at the one whole-array function every worker wrote its rows of.
-/
import proofs.«206393_g35751307772044_cont_8to1_b_353_20_alg».proof.Proof.LaunchK

noncomputable section

namespace Cert.ProofK.Launch

open Cert.Kernel Cert.ProofK.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split)
open Cert.Kernel.Facts₀ Cert.Kernel.Facts

variable {F : FTy → Type} [Cert.Kernel.Facts]

local notation "𝕄" => MT nD τ sig (HIx 1) (Elt F) ℕ UU ℕ

/-! ## The workers' rows split and join -/

theorem idxRows_eq (w : Fin 32) : idxRows w = (idxRect w).set := by
  show ((View.whole (main_v6_scv : Ref sig .scVector)).slice (idxRect w)).set = _
  rw [View.set_slice]; exact Finset.map_refl
theorem outRows_eq (w : Fin 32) : outRows w = (outRect w).set := by
  show ((View.whole (main_v7_scv : Ref sig .scVector)).slice (outRect w)).set = _
  rw [View.set_slice]; exact Finset.map_refl
theorem idxRows_disjoint : ∀ i ∈ (Finset.univ : Finset (Fin 32)), ∀ j ∈ (Finset.univ : Finset (Fin 32)), i ≠ j → Disjoint (idxRows i) (idxRows j) :=
  fun i _ j _ h => by rw [idxRows_eq, idxRows_eq]; exact Rect.part_disjoint idiv h
theorem outRows_disjoint : ∀ i ∈ (Finset.univ : Finset (Fin 32)), ∀ j ∈ (Finset.univ : Finset (Fin 32)), i ≠ j → Disjoint (outRows i) (outRows j) :=
  fun i _ j _ h => by rw [outRows_eq, outRows_eq]; exact Rect.part_disjoint odiv h
theorem idxRows_cover : (Finset.univ : Finset (Fin 32)).biUnion idxRows = Finset.univ :=
  (Finset.biUnion_congr rfl fun i _ => idxRows_eq i).trans (Rect.biUnion_part idiv)
theorem outRows_cover : (Finset.univ : Finset (Fin 32)).biUnion outRows = Finset.univ :=
  (Finset.biUnion_congr rfl fun i _ => outRows_eq i).trans (Rect.biUnion_part odiv)

theorem v6_rows (d : Dev nD) (f : Buf (Elt F) (v6Loc d)) :
    (v6Loc d ↦{fullShare} f : sProp 𝕄) = bigSep Finset.univ fun w : Fin 32 => v6Loc d ↦[idxRows w]{fullShare} f := by
  rw [← pointsTo_biUnion Finset.univ (ℓ := v6Loc d) idxRows idxRows_disjoint, idxRows_cover]; try rfl
theorem v7_rows (d : Dev nD) (f : Buf (Elt F) (v7Loc d)) :
    (v7Loc d ↦{fullShare} f : sProp 𝕄) = bigSep Finset.univ fun w : Fin 32 => v7Loc d ↦[outRows w]{fullShare} f := by
  rw [← pointsTo_biUnion Finset.univ (ℓ := v7Loc d) outRows outRows_disjoint, outRows_cover]; try rfl

/-! ## Workers as (SparseCore, tile) pairs -/

/-- Worker `2 i + c` is tile `i` of SparseCore `c`. -/
def widEquiv : Fin 2 × Fin 16 ≃ Fin 32 where
  toFun p := wid p.1 p.2
  invFun w := (⟨w.val % 2, Nat.mod_lt _ (by decide)⟩, ⟨w.val / 2, by have := w.isLt; omega⟩)
  left_inv p := by
    obtain ⟨⟨c, hc⟩, ⟨i, hi⟩⟩ := p
    simp only [wid, Prod.mk.injEq, Fin.mk.injEq]
    constructor <;> omega
  right_inv w := by
    obtain ⟨w, hw⟩ := w
    simp only [wid, Fin.mk.injEq]
    omega

theorem bigSep_wid (Φ : Fin 32 → sProp 𝕄) :
    bigSep Finset.univ Φ = bigSep Finset.univ fun c : Fin 2 => bigSep Finset.univ fun i : Fin 16 => Φ (wid c i) := by
  rw [bigSep_univ_equiv widEquiv Φ, bigSep_univ_prod]; rfl

variable (m : (ℓ : Loc nD τ sig) → Buf (Elt F) ℓ) (ρ : Dev nD → PrngReg)
variable [FloatOps F]

theorem st0_eq (d : Dev nD) :
    (bigSep Finset.univ fun c : Fin ((K (F := F)).nCore 0) => (P m).st 0 d c)
      = bigSep Finset.univ fun w : Fin 32 => tileGo (U := UU) d w (cmbV m d) (ixV m d) (m (v7Loc d)) := by
  rw [bigSep_wid]
  exact bigSep_congr fun c _ => by
    show (bigSep Finset.univ fun i : Fin ((K (F := F)).nSub 0) => goRes m d (Fin.cast nCore_zero c) (Fin.cast nSub_zero i)) = _
    rfl
theorem dn0_eq (d : Dev nD) :
    (bigSep Finset.univ fun c : Fin ((K (F := F)).nCore 0) => (P m).dn 0 d c)
      = bigSep Finset.univ fun w : Fin 32 => tileGo (U := UU) d w (cmbV m d) (ixV m d) (gOut (cmbV m d) (ixV m d)) := by
  rw [bigSep_wid]
  exact bigSep_congr fun c _ => by
    show (bigSep Finset.univ fun i : Fin ((K (F := F)).nSub 0) => tdRes m d (Fin.cast nCore_zero c) (Fin.cast nSub_zero i)) = _
    rfl

/-! ## The call -/

/-- The SparseCore call on the TensorCore: from the whole table, index array and output, to the output at `gOut`. -/
theorem hcall (κ : GSem nD τ sig → ℕ) (d : Dev nD) {Φ : PUnit → sProp 𝕄} :
    iprop((K (F := F)).ctx EH (P m) κ ∗ (K (F := F)).tcSt EH d 0
        ∗ (v5Loc d ↦{fullShare} cmbV m d) ∗ (v6Loc d ↦{fullShare} ixV m d) ∗ (v7Loc d ↦{fullShare} m (v7Loc d))
        ∗ (iprop((K (F := F)).tcSt EH d 1 ∗ (v7Loc d ↦{fullShare} gOut (cmbV m d) (ixV m d))) -∗ Φ ⟨⟩))
      ⊢ wp frame (wpE ((K (F := F)).defs (D (F := F))) 𝒱 (SparseCore.T d) none) Set.univ ((K (F := F)).run d 0) Φ := by
  iintro ⟨#Hctx, Hst, H5, H6, H7, Hk⟩
  ihave H5' := (pointsTo_toks_split (ℓ := v5Loc d) (S := Finset.univ) (f := cmbV m d) fullShare 32) $$ H5
  icases H5' with ⟨-, H5s⟩
  ihave H6s := (Entails.of_eq (v6_rows d (ixV m d))) $$ H6
  ihave H7s := (Entails.of_eq (v7_rows d (m (v7Loc d)))) $$ H7
  iapply ((K (F := F)).wp_run (D (F := F)) 𝒱 (EH := EH) (P := P m) κ d 0) $$ [Hst H5s H6s H7s Hk]
  isplitr; · iexact Hctx
  isplitl [Hst]; · iexact Hst
  isplitl [H5s H6s H7s]
  · rw [st0_eq]; unfold tileGo
    rw [bigSep_sep', bigSep_sep']
    isplitl [H5s]; · iexact H5s
    isplitl [H6s]; · iexact H6s
    iexact H7s
  iintro ⟨Hst, Hdn⟩
  ihave Hdn' := (Entails.of_eq (dn0_eq m d)) $$ Hdn
  ihave Hdn'' := (Entails.of_eq (show (bigSep Finset.univ fun w : Fin 32 => tileGo (U := UU) d w (cmbV m d) (ixV m d) (gOut (cmbV m d) (ixV m d)))
      = iprop((bigSep Finset.univ fun w : Fin 32 => v5Loc d ↦{cq w} cmbV m d) ∗ (bigSep Finset.univ fun w : Fin 32 => v6Loc d ↦[idxRows w]{fullShare} ixV m d)
          ∗ (bigSep Finset.univ fun w : Fin 32 => v7Loc d ↦[outRows w]{fullShare} gOut (cmbV m d) (ixV m d))) by
        unfold tileGo; rw [bigSep_sep', bigSep_sep'])) $$ Hdn'
  icases Hdn'' with ⟨-, -, H7s⟩
  ihave H7 := (Entails.of_eq (v7_rows d (gOut (cmbV m d) (ixV m d))).symm) $$ H7s
  iapply Hk
  isplitl [Hst]; · iexact Hst
  iexact H7

end Cert.ProofK.Launch

end
-- ==== Proof.Region0K.lean ====
/-
  The first TensorCore call (the normalised table) as a pipeline: what each window's staging buffer holds around the
  body, the body's run, the proof data and the body obligation, at a parameter `V` for the core's buffer contents when
  the call is entered and a parameter `O` for what the core owes while it runs.

  The call has no grid: one point, five windows that are each their whole array. The body loads the four input
  buffers whole, computes the table from them and stores it whole into the output buffer.
-/
import proofs.«206393_g35751307772044_cont_8to1_b_353_20_alg».proof.Proof.Gen.Kernel.Launch
import proofs.«206393_g35751307772044_cont_8to1_b_353_20_alg».proof.Proof.Gen.Kernel.Skeleton
import proofs.«206393_g35751307772044_cont_8to1_b_353_20_alg».proof.Proof.Gen.Kernel.Points
import proofs.«206393_g35751307772044_cont_8to1_b_353_20_alg».proof.Proof.CommonK
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.ProofK.Reg0

open Cert.Kernel Cert.Kernel.Gen Cert.ProofK.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx)

variable {F : FTy → Type} [FloatOps F]
variable {U : Type} [URA U]

local notation "𝕄" => MT nD τ sig (HIx 1) (Elt F) ℕ U ℕ

/- The TensorCore's buffer contents when the region is entered, the tallies each core owes throughout, the
   kernel's variants and the credit tokens' index: parameters. -/
variable (V : (c : Dev nD) → (b : Ref sig .tc) → Buf (Elt F) ((c : Thread nD τ).loc b))
variable (O : Dev nD → CellTallies nD τ sig (HIx 1)) (𝒱₀ : Variants) (ι : HIx 1)

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/- An input window's staging buffer holds its block at the point, fetched there or not, for any proof data whose
   array is the entry contents and whose body leaves the block in place. -/
theorem before0_0_of {c : Dev nD} (dat : Dat τ (Elt F) (HIx 1) ℕ U ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) (HIx 1) ℕ U ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) (HIx 1) ℕ U ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) (HIx 1) ℕ U ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole-shape rectangle -/

abbrev rP : Rect S20x128 := Rect.unit (s := S20x128) ![0, 0] S20x128.size inb_S20x128_S20x128_0_0
abbrev rL : Rect S98x128 := Rect.unit (s := S98x128) ![0, 0] S98x128.size inb_S98x128_S98x128_0_0
abbrev rW : Rect S1x128 := Rect.unit (s := S1x128) ![0, 0] S1x128.size inb_S1x128_S1x128_0_0
abbrev rC : Rect S20x98x128 := Rect.unit (s := S20x98x128) ![0, 0, 0] S20x98x128.size inb_S20x98x128_S20x98x128_0_0_0

/-- The table's staging buffer after the body, from the four input blocks: its one store as a piece. -/
def out0_4 (x0 : Vec F S98x128 .f32) (x1 : Vec F S20x128 .f32) (x2 : Vec F S1x128 .f32) (x3 : Vec F S1x128 .f32) : Vec F S20x98x128 .f32 :=
  View.canon [⟨rC, k0_pay1 (View.ld x1 rP) (View.ld x0 rL) (View.ld x2 rW) (View.ld x3 rW)⟩]

theorem hz3 : (![0, 0, 0] : Fin 3 → Nat) = fun _ => 0 := funext fun a => by fin_cases a <;> rfl
theorem hz2 : (![0, 0] : Fin 2 → Nat) = fun _ => 0 := funext fun a => by fin_cases a <;> rfl

/-- The one store is through the whole shape, so it covers the buffer. -/
theorem cover0_4 (p0 : Vec F S20x98x128 .f32) (y : S20x98x128.Idx) :
    ∃ pc ∈ ([⟨rC, p0⟩] : List (View.Piece (Elt F) S20x98x128 .f32)), y ∈ pc.1.set :=
  ⟨_, List.mem_singleton_self _, View.mem_set_unit_zero hz3 inb_S20x98x128_S20x98x128_0_0_0 y⟩

/-! ## The body's triple -/

set_option maxHeartbeats 1000000 in
/-- The body on whole staging memrefs, the four inputs' at read contents `xW` and the output's at anything, runs to the
    continuation holding the inputs' as they were and the output's at `out0_4` of them. -/
theorem sound_kernel0 (c : Dev nD) (E : Set ℕ) (arg0 : Memref sig .tc .vmem S98x128 .f32) (harg0 : arg0.IsWhole) (arg1 : Memref sig .tc .vmem S20x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S20x98x128 .f32) (harg4 : arg4.IsWhole)
    (x0 : Vec F S98x128 .f32) (x1 : Vec F S20x128 .f32) (x2 : Vec F S1x128 .f32) (x3 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out0_4 x0 x1 x2 x3)) -∗ K ⟨⟩))
      ⊢ wp frame (wpE (defs₀ (F := F)) 𝒱₀ c none) E (cc0__comb_body arg0 harg0 arg1 harg1 arg2 harg2 arg3 harg3 arg4 harg4) K := by
  simp only [cc0__comb_body_eq_skeleton]; unfold cc0__comb_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the first call on core `c`: the arrays as the region finds them; after the body each input's
    buffer at its block and the output's at `out0_4` of the input blocks; the invariant the core's scoped buffers that
    are no staging buffer of this call, untouched; the core owing `O c` throughout, every pair its waits
    have recorded being at the index `none`; full shares. -/
def dat0 (c : Dev nD) : Dat τ (Elt F) (HIx 1) ℕ U ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.scopedRest (Ix := HIx 1) (Name := ℕ) (U := U) (Lvl := ℕ) (Val := Elt F) spec0 c
  q _ := fullShare
  owed _ := O c
  recorded _ := {p | p.2 = none}

theorem A_eq0 (c : Dev nD) (w : Fin cfg0.W) : (dat0 (U := U) V O c).A w = V c (Pipeline.arrRef spec0 w) := by
  dsimp only [dat0]

theorem after0_0 (c : Dev nD) (t : Fin cfg0.N) : (dat0 (U := U) V O c).after 0 t = iblk0 V c 0 t := by dsimp only [dat0]
theorem after0_1 (c : Dev nD) (t : Fin cfg0.N) : (dat0 (U := U) V O c).after 1 t = iblk0 V c 1 t := by dsimp only [dat0]
theorem after0_2 (c : Dev nD) (t : Fin cfg0.N) : (dat0 (U := U) V O c).after 2 t = iblk0 V c 2 t := by dsimp only [dat0]
theorem after0_3 (c : Dev nD) (t : Fin cfg0.N) : (dat0 (U := U) V O c).after 3 t = iblk0 V c 3 t := by dsimp only [dat0]
theorem after0_4 (c : Dev nD) (t : Fin cfg0.N) : (dat0 (U := U) V O c).after 4 t = out0_4 (iblk0 V c 0 t) (iblk0 V c 1 t) (iblk0 V c 2 t) (iblk0 V c 3 t) := by dsimp only [dat0]

theorem before0_0 (c : Dev nD) (t : Fin cfg0.N) (d) : (dat0 (U := U) V O c).before 0 t d = iblk0 V c 0 t :=
  before0_0_of V (dat0 V O c) (A_eq0 V O c 0) (after0_0 V O c) t d
theorem before0_1 (c : Dev nD) (t : Fin cfg0.N) (d) : (dat0 (U := U) V O c).before 1 t d = iblk0 V c 1 t :=
  before0_1_of V (dat0 V O c) (A_eq0 V O c 1) (after0_1 V O c) t d
theorem before0_2 (c : Dev nD) (t : Fin cfg0.N) (d) : (dat0 (U := U) V O c).before 2 t d = iblk0 V c 2 t :=
  before0_2_of V (dat0 V O c) (A_eq0 V O c 2) (after0_2 V O c) t d
theorem before0_3 (c : Dev nD) (t : Fin cfg0.N) (d) : (dat0 (U := U) V O c).before 3 t d = iblk0 V c 3 t :=
  before0_3_of V (dat0 V O c) (A_eq0 V O c 3) (after0_3 V O c) t d

/-! ## The body obligation, at a generic point -/

/-- What the body is called with at point `t`, the windows one by one, -/
def bodyPre0 (c : Dev nD) (t : Fin cfg0.N) : sProp 𝕄 :=
  iprop((dat0 (U := U) V O c).Φ t.castSucc ∗ (dat0 (U := U) V O c).owesAt ι t.castSucc
    ∗ (∃ d, owns (c : Thread nD τ) (st0_0 t) fullShare ((dat0 (U := U) V O c).before 0 t d))
    ∗ (∃ d, owns (c : Thread nD τ) (st0_1 t) fullShare ((dat0 (U := U) V O c).before 1 t d))
    ∗ (∃ d, owns (c : Thread nD τ) (st0_2 t) fullShare ((dat0 (U := U) V O c).before 2 t d))
    ∗ (∃ d, owns (c : Thread nD τ) (st0_3 t) fullShare ((dat0 (U := U) V O c).before 3 t d))
    ∗ (∃ d, owns (c : Thread nD τ) (st0_4 t) fullShare ((dat0 (U := U) V O c).before 4 t d)))

/-- and what it returns. -/
def bodyPost0 (c : Dev nD) (t : Fin cfg0.N) : sProp 𝕄 :=
  iprop((dat0 (U := U) V O c).Φ t.succ ∗ (dat0 (U := U) V O c).owesAt ι t.succ
    ∗ owns (c : Thread nD τ) (st0_0 t) fullShare ((dat0 (U := U) V O c).after 0 t)
    ∗ owns (c : Thread nD τ) (st0_1 t) fullShare ((dat0 (U := U) V O c).after 1 t)
    ∗ owns (c : Thread nD τ) (st0_2 t) fullShare ((dat0 (U := U) V O c).after 2 t)
    ∗ owns (c : Thread nD τ) (st0_3 t) fullShare ((dat0 (U := U) V O c).after 3 t)
    ∗ owns (c : Thread nD τ) (st0_4 t) fullShare ((dat0 (U := U) V O c).after 4 t))

/-- The body at the point: the inputs' memrefs hold their blocks, so the triple applies; the invariant and what the
    core owes pass through unread. -/
theorem sound_body0 (c : Dev nD) (t : Fin cfg0.N) :
    bodyPre0 (U := U) V O ι c t ⊢ wp frame (wpE (defs₀ (F := F)) 𝒱₀ c none) Set.univ (bodyAt0 t) (fun _ => bodyPost0 (U := U) V O ι c t) := by
  unfold bodyPre0 bodyPost0 bodyAt0
  simp only [before0_0, before0_1, before0_2, before0_3]
  rw [show (dat0 (U := U) V O c).Φ t.succ = (dat0 (U := U) V O c).Φ t.castSucc from rfl,
    show (dat0 (U := U) V O c).owesAt ι t.succ = (dat0 (U := U) V O c).owesAt ι t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 𝒱₀ c Set.univ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) (U := U) V O c) (defs₀ (F := F)) 𝒱₀ ι Set.univ := fun t => by
  rw [bigSep_W0, bigSep_W0]
  exact sound_body0 V O 𝒱₀ ι c t

theorem body_obligation0_loose (c : Dev nD) : BodyObligationLoose (dat0 (F := F) (U := U) V O c) (defs₀ (F := F)) 𝒱₀ ι Set.univ :=
  (body_obligation0 V O 𝒱₀ ι c).loose

/-! ## The value: the output array after the call, as one function of the input arrays -/

/-- The stored value is the table of the four loaded buffers. -/
theorem out0_4_eq (x0 : Vec F S98x128 .f32) (x1 : Vec F S20x128 .f32) (x2 : Vec F S1x128 .f32) (x3 : Vec F S1x128 .f32) :
    out0_4 x0 x1 x2 x3 = comb0 x0 x1 x2 x3 := by
  unfold out0_4
  rw [View.canon_unit_zero hz3]
  simp only [View.ld_unit_zero (S := S20x128) hz2, View.ld_unit_zero (S := S98x128) hz2, View.ld_unit_zero (S := S1x128) hz2]
  rfl

/-- Every window's block index is zero on every axis: each block is its whole array. -/
theorem idx_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0 :=
  (by decide +kernel : ∀ t : Fin grid0.N, _)

/- Each input window's block is its whole array. -/
theorem iblk0_0 (c : Dev nD) (t : Fin cfg0.N) : iblk0 V c 0 t = V c main_arg1 := by
  have e := idx_facts0 t
  funext j
  show V c main_arg1 (((cfg0.win 0).blk t).view.emb j) = V c main_arg1 j
  have h : ((cfg0.win 0).blk t).view.emb j = j := by
    funext a; apply Fin.ext
    match a with
    | ⟨0, _⟩ => show win0_0.index t (0 : Fin 2) * 98 + 1 * (j 0).val = (j 0).val; omega
    | ⟨1, _⟩ => show win0_0.index t (1 : Fin 2) * 128 + 1 * (j 1).val = (j 1).val; omega
  rw [h]
theorem iblk0_1 (c : Dev nD) (t : Fin cfg0.N) : iblk0 V c 1 t = V c main_v0 := by
  have e := idx_facts0 t
  funext j
  show V c main_v0 (((cfg0.win 1).blk t).view.emb j) = V c main_v0 j
  have h : ((cfg0.win 1).blk t).view.emb j = j := by
    funext a; apply Fin.ext
    match a with
    | ⟨0, _⟩ => show win0_1.index t (0 : Fin 2) * 20 + 1 * (j 0).val = (j 0).val; omega
    | ⟨1, _⟩ => show win0_1.index t (1 : Fin 2) * 128 + 1 * (j 1).val = (j 1).val; omega
  rw [h]
theorem iblk0_2 (c : Dev nD) (t : Fin cfg0.N) : iblk0 V c 2 t = V c main_v1 := by
  have e := idx_facts0 t
  funext j
  show V c main_v1 (((cfg0.win 2).blk t).view.emb j) = V c main_v1 j
  have h : ((cfg0.win 2).blk t).view.emb j = j := by
    funext a; apply Fin.ext
    match a with
    | ⟨0, _⟩ => show win0_2.index t (0 : Fin 2) * 1 + 1 * (j 0).val = (j 0).val; omega
    | ⟨1, _⟩ => show win0_2.index t (1 : Fin 2) * 128 + 1 * (j 1).val = (j 1).val; omega
  rw [h]
theorem iblk0_3 (c : Dev nD) (t : Fin cfg0.N) : iblk0 V c 3 t = V c main_v2 := by
  have e := idx_facts0 t
  funext j
  show V c main_v2 (((cfg0.win 3).blk t).view.emb j) = V c main_v2 j
  have h : ((cfg0.win 3).blk t).view.emb j = j := by
    funext a; apply Fin.ext
    match a with
    | ⟨0, _⟩ => show win0_3.index t (0 : Fin 2) * 1 + 1 * (j 0).val = (j 0).val; omega
    | ⟨1, _⟩ => show win0_3.index t (1 : Fin 2) * 128 + 1 * (j 1).val = (j 1).val; omega
  rw [h]

/-- What the point writes back is the (whole) block of the table of the input arrays as the call finds them. -/
theorem flushed0_4_eq (c : Dev nD) (t : Fin cfg0.N) :
    (dat0 (U := U) V O c).flushed 4 t
      = ((cfg0.win 4).blk t).view.read (Elt F) (comb0 (V c main_arg1) (V c main_v0) (V c main_v1) (V c main_v2)) := by
  show (cfg0.win 4).cut (grid0.coords t) ((dat0 (U := U) V O c).after 4 t) = _
  rw [after0_4, out0_4_eq, iblk0_0, iblk0_1, iblk0_2, iblk0_3]
  have e := idx_facts0 t
  funext j
  show comb0 (V c main_arg1) (V c main_v0) (V c main_v1) (V c main_v2) j
    = comb0 (V c main_arg1) (V c main_v0) (V c main_v1) (V c main_v2) (((cfg0.win 4).blk t).view.emb j)
  have h : ((cfg0.win 4).blk t).view.emb j = j := by
    funext a; apply Fin.ext
    match a with
    | ⟨0, _⟩ => show win0_4.index t (0 : Fin 3) * 20 + 1 * (j 0).val = (j 0).val; omega
    | ⟨1, _⟩ => show win0_4.index t (1 : Fin 3) * 98 + 1 * (j 1).val = (j 1).val; omega
    | ⟨2, _⟩ => show win0_4.index t (2 : Fin 3) * 128 + 1 * (j 2).val = (j 2).val; omega
  rw [h]

/-- An index of the output array is in the point's block iff each coordinate is in the block's range on its axis. -/
theorem mem_blk0_4 (t : Fin cfg0.N) (i : S20x98x128.Idx) :
    i ∈ ((cfg0.win 4).blk t).view.set ↔ ∀ a : Fin 3, win0_4.index t a * S20x98x128.size a ≤ (i a).val ∧ (i a).val < win0_4.index t a * S20x98x128.size a + S20x98x128.size a := by
  show i ∈ ((View.whole main_v3).slice (win0_4.rect t)).set ↔ _
  rw [View.set_slice_whole, Rect.mem_set_unit]
  exact Iff.rfl

/-- The one point's block covers the output array. -/
theorem cover0 (i : S20x98x128.Idx) : ∃ t : Fin cfg0.N, (cfg0.win 4).flush t = true ∧ i ∈ ((cfg0.win 4).blk t).view.set := by
  refine ⟨t0_0, flush0_4 t0_0, ?_⟩
  rw [mem_blk0_4]
  have e := idx_facts0 t0_0
  have h0 : (i 0).val < 20 := (i 0).isLt
  have h1 : (i 1).val < 98 := (i 1).isLt
  have h2 : (i 2).val < 128 := (i 2).isLt
  intro a
  match a with
  | ⟨0, _⟩ => show win0_4.index t0_0 (0 : Fin 3) * 20 ≤ (i 0).val ∧ (i 0).val < win0_4.index t0_0 (0 : Fin 3) * 20 + 20; omega
  | ⟨1, _⟩ => show win0_4.index t0_0 (1 : Fin 3) * 98 ≤ (i 1).val ∧ (i 1).val < win0_4.index t0_0 (1 : Fin 3) * 98 + 98; omega
  | ⟨2, _⟩ => show win0_4.index t0_0 (2 : Fin 3) * 128 ≤ (i 2).val ∧ (i 2).val < win0_4.index t0_0 (2 : Fin 3) * 128 + 128; omega

/-- THE VALUE: after the call the output array is the normalised table of the three input arrays as the call found them. -/
theorem value0 (c : Dev nD) :
    (dat0 (U := U) V O c).arrAt 4 cfg0.N = comb0 (V c main_arg1) (V c main_v0) (V c main_v1) (V c main_v2) :=
  (dat0 (U := U) V O c).arrAt_eq_of_cover 4 _ (fun t _ => flushed0_4_eq V O c t) cover0

/-- An input's array is never written. -/
theorem kept0 (c : Dev nD) (w : Fin cfg0.W) (hw : (cfg0.win w).isOut = false) (n : Nat) :
    (dat0 (U := U) V O c).arrAt w n = V c (Pipeline.arrRef spec0 w) :=
  ((dat0 (U := U) V O c).arrAt_in w hw n).trans (A_eq0 V O c w)

end Cert.ProofK.Reg0

end
-- ==== Proof.Region1K.lean ====
/-
  The second TensorCore call (the flat row numbers) as a pipeline: what each window's staging buffer holds around the
  body, the body's run, the proof data and the body obligation, at a parameter `V` for the core's buffer contents when
  the call is entered and a parameter `O` for what the core owes while it runs.

  The grid has 16 points; point `t` works on rows [1024 t, 1024 t + 1024) of the input and of the result, each staged
  through two buffers in turn. The body loads the input block whole, adds 98 times the column number to every word and
  stores the block whole into the output buffer.
-/
import proofs.«206393_g35751307772044_cont_8to1_b_353_20_alg».proof.Proof.Gen.Kernel.Launch
import proofs.«206393_g35751307772044_cont_8to1_b_353_20_alg».proof.Proof.Gen.Kernel.Skeleton
import proofs.«206393_g35751307772044_cont_8to1_b_353_20_alg».proof.Proof.Gen.Kernel.Points
import proofs.«206393_g35751307772044_cont_8to1_b_353_20_alg».proof.Proof.CommonK
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.ProofK.Reg1

open Cert.Kernel Cert.Kernel.Gen Cert.ProofK.Common
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx)

variable {F : FTy → Type} [FloatOps F]
variable {U : Type} [URA U]

local notation "𝕄" => MT nD τ sig (HIx 1) (Elt F) ℕ U ℕ

/- The TensorCore's buffer contents when the region is entered, the tallies each core owes throughout, the
   kernel's variants and the credit tokens' index: parameters. -/
variable (V : (c : Dev nD) → (b : Ref sig .tc) → Buf (Elt F) ((c : Thread nD τ).loc b))
variable (O : Dev nD → CellTallies nD τ sig (HIx 1)) (𝒱₀ : Variants) (ι : HIx 1)

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/- The input window's staging buffer holds its block at the point, fetched there or not, for any proof data whose
   array is the entry contents and whose body leaves the block in place. -/
theorem before1_0_of {c : Dev nD} (dat : Dat τ (Elt F) (HIx 1) ℕ U ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer through its whole-shape rectangle -/

abbrev rX : Rect S1024x20 := Rect.unit (s := S1024x20) ![0, 0] S1024x20.size inb_S1024x20_S1024x20_0_0

/-- The result's staging buffer after the body, from the input block: its one store as a piece. -/
def out1_1 (x0 : Vec F S1024x20 .i32) : Vec F S1024x20 .i32 :=
  View.canon [⟨rX, k1_pay1 (View.ld x0 rX)⟩]

theorem hz2 : (![0, 0] : Fin 2 → Nat) = fun _ => 0 := funext fun a => by fin_cases a <;> rfl

/-- The one store is through the whole shape, so it covers the buffer. -/
theorem cover1_1 (p0 : Vec F S1024x20 .i32) (y : S1024x20.Idx) :
    ∃ pc ∈ ([⟨rX, p0⟩] : List (View.Piece (Elt F) S1024x20 .i32)), y ∈ pc.1.set :=
  ⟨_, List.mem_singleton_self _, View.mem_set_unit_zero hz2 inb_S1024x20_S1024x20_0_0 y⟩

/-! ## The body's triple -/

set_option maxHeartbeats 1000000 in
/-- The body on whole staging memrefs, the input's at read contents `x0` and the output's at anything, runs to the
    continuation holding the input's as it was and the output's at `out1_1 x0`. -/
theorem sound_kernel1 (c : Dev nD) (E : Set ℕ) (i : grid1.Coords) (arg1 : Memref sig .tc .vmem S1024x20 .i32) (harg1 : arg1.IsWhole) (arg2 : Memref sig .tc .vmem S1024x20 .i32) (harg2 : arg2.IsWhole)
    (x0 : Vec F S1024x20 .i32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) 𝒱₀ c none) E (cc1__idx_body i arg1 harg1 arg2 harg2) K := by
  simp only [cc1__idx_body_eq_skeleton]; unfold cc1__idx_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of the second call on core `c`: the arrays as the region finds them; after the body at point `t` the
    input's buffer at its block and the output's at `out1_1` of it; the invariant the core's scoped buffers that are no
    staging buffer of this call, untouched; the core owing `O c` throughout, every pair its waits
    have recorded being at the index `none`; full shares. -/
def dat1 (c : Dev nD) : Dat τ (Elt F) (HIx 1) ℕ U ℕ cfg1 c where
  A w := V c (Pipeline.arrRef spec1 w)
  after w t := match w with
    | ⟨0, _⟩ => iblk1 V c 0 t
    | ⟨1, _⟩ => out1_1 (iblk1 V c 0 t)
  Φ _ := Pipeline.scopedRest (Ix := HIx 1) (Name := ℕ) (U := U) (Lvl := ℕ) (Val := Elt F) spec1 c
  q _ := fullShare
  owed _ := O c
  recorded _ := {p | p.2 = none}

theorem A_eq1 (c : Dev nD) (w : Fin cfg1.W) : (dat1 (U := U) V O c).A w = V c (Pipeline.arrRef spec1 w) := by
  dsimp only [dat1]

theorem after1_0 (c : Dev nD) (t : Fin cfg1.N) : (dat1 (U := U) V O c).after 0 t = iblk1 V c 0 t := by dsimp only [dat1]
theorem after1_1 (c : Dev nD) (t : Fin cfg1.N) : (dat1 (U := U) V O c).after 1 t = out1_1 (iblk1 V c 0 t) := by dsimp only [dat1]

theorem before1_0 (c : Dev nD) (t : Fin cfg1.N) (d) : (dat1 (U := U) V O c).before 0 t d = iblk1 V c 0 t :=
  before1_0_of V (dat1 V O c) (A_eq1 V O c 0) (after1_0 V O c) t d

/-! ## The body obligation, at a generic point -/

/-- What the body is called with at point `t`, the windows one by one, -/
def bodyPre1 (c : Dev nD) (t : Fin cfg1.N) : sProp 𝕄 :=
  iprop((dat1 (U := U) V O c).Φ t.castSucc ∗ (dat1 (U := U) V O c).owesAt ι t.castSucc
    ∗ (∃ d, owns (c : Thread nD τ) (st1_0 t) fullShare ((dat1 (U := U) V O c).before 0 t d))
    ∗ (∃ d, owns (c : Thread nD τ) (st1_1 t) fullShare ((dat1 (U := U) V O c).before 1 t d)))

/-- and what it returns. -/
def bodyPost1 (c : Dev nD) (t : Fin cfg1.N) : sProp 𝕄 :=
  iprop((dat1 (U := U) V O c).Φ t.succ ∗ (dat1 (U := U) V O c).owesAt ι t.succ
    ∗ owns (c : Thread nD τ) (st1_0 t) fullShare ((dat1 (U := U) V O c).after 0 t)
    ∗ owns (c : Thread nD τ) (st1_1 t) fullShare ((dat1 (U := U) V O c).after 1 t))

/-- The body at any point: the input's memref holds its block, so the triple applies; the invariant and what the core
    owes pass through unread. -/
theorem sound_body1 (c : Dev nD) (t : Fin cfg1.N) :
    bodyPre1 (U := U) V O ι c t ⊢ wp frame (wpE (defs₀ (F := F)) 𝒱₀ c none) Set.univ (bodyAt1 t) (fun _ => bodyPost1 (U := U) V O ι c t) := by
  unfold bodyPre1 bodyPost1 bodyAt1
  simp only [before1_0]
  rw [show (dat1 (U := U) V O c).Φ t.succ = (dat1 (U := U) V O c).Φ t.castSucc from rfl,
    show (dat1 (U := U) V O c).owesAt ι t.succ = (dat1 (U := U) V O c).owesAt ι t.castSucc from rfl,
    after1_0, after1_1]
  iintro ⟨HΦ, Ho, ⟨%d0, H0⟩, ⟨%d1, H1⟩⟩
  iapply (sound_kernel1 𝒱₀ c Set.univ (grid1.coords t) _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) (U := U) V O c) (defs₀ (F := F)) 𝒱₀ ι Set.univ := fun t => by
  rw [bigSep_W1, bigSep_W1]
  exact sound_body1 V O 𝒱₀ ι c t

theorem body_obligation1_loose (c : Dev nD) : BodyObligationLoose (dat1 (F := F) (U := U) V O c) (defs₀ (F := F)) 𝒱₀ ι Set.univ :=
  (body_obligation1 V O 𝒱₀ ι c).loose

/-! ## The value: the output array after the call, as one function of the input array -/

/-- The stored word at (r, s) of a block is the loaded word plus 98 s. -/
theorem pay1_apply (x : Vec F S1024x20 .i32) (j : S1024x20.Idx) :
    k1_pay1 x j = (x j : BitVec 32) + BitVec.ofNat 32 (j 1).val * 98#32 := by
  unfold k1_pay1
  show (x j : BitVec 32) + iota .tc S1024x20 32 [1] iota_S1024x20_d1_w32 j * 98#32 = _
  rw [iota_single_apply]

/-- The printed index maps, decided over the grid: the input window moves with the output window, whose block index
    is the point's number on the rows and zero on the columns. -/
theorem idx_facts1 : ∀ t : Fin cfg1.N, win1_0.index t (0 : Fin 2) = win1_1.index t (0 : Fin 2) + 0
    ∧ win1_0.index t (1 : Fin 2) = win1_1.index t (1 : Fin 2) + 0
    ∧ 0 ≤ win1_1.index t (0 : Fin 2) ∧ win1_1.index t (0 : Fin 2) ≤ 15
    ∧ 0 ≤ win1_1.index t (1 : Fin 2) ∧ win1_1.index t (1 : Fin 2) ≤ 0 :=
  (by decide +kernel : ∀ t : Fin grid1.N, _)

/-- Every block of the output array is some point's. -/
theorem idx_onto1 : ∀ (q0 : Fin 16) (q1 : Fin 1), ∃ t : Fin cfg1.N, win1_1.index t = ![q0.val + 0, q1.val + 0] :=
  (by decide +kernel : ∀ (q0 : Fin 16) (q1 : Fin 1), ∃ t : Fin grid1.N, win1_1.index t = ![q0.val + 0, q1.val + 0])

/-- At one element: if the loaded block's word at `j` is the array's at `i`, and `i` is column `j 1`, the stored word is the
    array's row number there. -/
theorem pay1_eq_idx0 (A : IVec S16384x20 32) (x : Vec F S1024x20 .i32) (j : S1024x20.Idx) (i i' : S16384x20.Idx)
    (hx : x j = A i) (hi : i = i') (h1 : (i' 1).val = (j 1).val) : k1_pay1 x j = idx0 A i' := by
  subst hi
  rw [pay1_apply, hx]
  show A i + BitVec.ofNat 32 (j 1).val * 98#32 = A i + BitVec.ofNat 32 (i 1).val * 98#32
  rw [h1]

/-- What point `t` writes back is block `t` of the row numbers of the input array as the call finds it. -/
theorem flushed1_1_eq (c : Dev nD) (t : Fin cfg1.N) :
    (dat1 (U := U) V O c).flushed 1 t = ((cfg1.win 1).blk t).view.read (Elt F) (idx0 (V c main_arg0)) := by
  show (cfg1.win 1).cut (grid1.coords t) ((dat1 (U := U) V O c).after 1 t) = _
  rw [after1_1]
  unfold out1_1
  rw [View.canon_unit_zero hz2]
  simp only [View.ld_unit_zero (S := S1024x20) hz2]
  obtain ⟨e0, e1, e2, e3, e4, e5⟩ := idx_facts1 t
  funext j
  have h0 : ((cfg1.win 0).blk t).view.emb j = ((cfg1.win 1).blk t).view.emb j := by
    funext a; apply Fin.ext
    match a with
    | ⟨0, _⟩ => show win1_0.index t (0 : Fin 2) * 1024 + 1 * (j 0).val = win1_1.index t (0 : Fin 2) * 1024 + 1 * (j 0).val; omega
    | ⟨1, _⟩ => show win1_0.index t (1 : Fin 2) * 20 + 1 * (j 1).val = win1_1.index t (1 : Fin 2) * 20 + 1 * (j 1).val; omega
  have h1 : ((((cfg1.win 1).blk t).view.emb j) 1).val = (j 1).val := by
    show win1_1.index t (1 : Fin 2) * 20 + 1 * (j 1).val = (j 1).val; omega
  show k1_pay1 (iblk1 V c 0 t) j = idx0 (V c main_arg0) (((cfg1.win 1).blk t).view.emb j)
  exact pay1_eq_idx0 (V c main_arg0) (iblk1 V c 0 t) j (((cfg1.win 0).blk t).view.emb j) _ rfl h0 h1

/-- An index of the output array is in point `t`'s block iff each coordinate is in the block's range on its axis. -/
theorem mem_blk1_1 (t : Fin cfg1.N) (i : S16384x20.Idx) :
    i ∈ ((cfg1.win 1).blk t).view.set ↔ ∀ a : Fin 2, win1_1.index t a * S1024x20.size a ≤ (i a).val ∧ (i a).val < win1_1.index t a * S1024x20.size a + S1024x20.size a := by
  show i ∈ ((View.whole main_v4).slice (win1_1.rect t)).set ↔ _
  rw [View.set_slice_whole, Rect.mem_set_unit]
  exact Iff.rfl

/-- The sixteen points' blocks cover the output array: row `r` is in the block of point `r / 1024`. -/
theorem cover1 (i : S16384x20.Idx) : ∃ t : Fin cfg1.N, (cfg1.win 1).flush t = true ∧ i ∈ ((cfg1.win 1).blk t).view.set := by
  have hi0 : (i 0).val < 16384 := (i 0).isLt
  have hi1 : (i 1).val < 20 := (i 1).isLt
  obtain ⟨t, ht⟩ := idx_onto1 ⟨(i 0).val / 1024 - 0, by omega⟩ ⟨(i 1).val / 20 - 0, by omega⟩
  have q0 : win1_1.index t (0 : Fin 2) = (i 0).val / 1024 - 0 + 0 := congrFun ht 0
  have q1 : win1_1.index t (1 : Fin 2) = (i 1).val / 20 - 0 + 0 := congrFun ht 1
  refine ⟨t, flush1_1 t, ?_⟩
  rw [mem_blk1_1]
  intro a
  match a with
  | ⟨0, _⟩ => show win1_1.index t (0 : Fin 2) * 1024 ≤ (i 0).val ∧ (i 0).val < win1_1.index t (0 : Fin 2) * 1024 + 1024; omega
  | ⟨1, _⟩ => show win1_1.index t (1 : Fin 2) * 20 ≤ (i 1).val ∧ (i 1).val < win1_1.index t (1 : Fin 2) * 20 + 20; omega

/-- THE VALUE: after the call the output array holds, at (r, s), the input's word there plus 98 s. -/
theorem value1 (c : Dev nD) : (dat1 (U := U) V O c).arrAt 1 cfg1.N = idx0 (V c main_arg0) :=
  (dat1 (U := U) V O c).arrAt_eq_of_cover 1 _ (fun t _ => flushed1_1_eq V O c t) cover1

/-- The input's array is never written. -/
theorem kept1 (c : Dev nD) (n : Nat) : (dat1 (U := U) V O c).arrAt 0 n = V c main_arg0 :=
  ((dat1 (U := U) V O c).arrAt_in 0 rfl n).trans (A_eq1 V O c 0)

end Cert.ProofK.Reg1

end
-- ==== Proof.RegionsK.lean ====
/-
  The two TensorCore calls as segments of @main, over a thread state that carries every unscoped buffer of the core at a
  valuation: the valuations at the three boundaries (before the first call, between the calls, after the second), both
  calls' proof data at their entry valuations, the two segment records, and the calls' results read at the valuations.
-/
import proofs.«206393_g35751307772044_cont_8to1_b_353_20_alg».proof.Proof.Region0K
import proofs.«206393_g35751307772044_cont_8to1_b_353_20_alg».proof.Proof.Region1K
import Idealize.ShloMosaic.Lib.Pipeline.RegionsLoop
import Idealize.ShloMosaic.Lib.Pipeline.FrameSuffix

set_option maxRecDepth 16384

noncomputable section

namespace Cert.ProofK.Regs

open Cert.Kernel Cert.Kernel.Gen Cert.ProofK.Common Cert.ProofK.Reg0 Cert.ProofK.Reg1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx)

variable {F : FTy → Type} [FloatOps F]
variable {U : Type} [URA U]

local notation "𝕄" => MT nD τ sig (HIx 1) (Elt F) ℕ U ℕ

variable (m : (ℓ : Loc nD τ sig) → Buf (Elt F) ℓ)
variable (O : Dev nD → CellTallies nD τ sig (HIx 1)) (hO : ∀ c g, O c g none = 0)

/-! ## The buffer contents at each boundary: a fold through @main -/

/-- The three host operations before the first call: the first twenty rows of the position table, and the scale and the
    shift as one-row arrays. -/
abbrev hostA : List (HloOp τ sig (Elt F)) :=
  [StableHlo.unary main_arg2 main_v0 ((extractStridedSlice S20x128 ![0, 0] · slices_S25x128_S20x128_0_0) : (⟨S25x128, .f32⟩ : BufTy).Contents (Elt F) → (⟨S20x128, .f32⟩ : BufTy).Contents (Elt F)),
   StableHlo.reshape main_arg3 main_v1 rfl shapeCasts_S128_S1x128,
   StableHlo.reshape main_arg4 main_v2 rfl shapeCasts_S128_S1x128]

/-- Core `c`'s buffers at launch. -/
abbrev W0 : Dev nD → Valuation τ sig (Elt F) := fun c b => m ((c : Dev nD), b)
/-- After the three host operations (the first call's entry). -/
abbrev W1 : Dev nD → Valuation τ sig (Elt F) := fun c => StableHlo.after hostA (W0 m c)
/-- The same read at the TensorCore's references. -/
abbrev V1 : (c : Dev nD) → (b : Ref sig .tc) → Buf (Elt F) ((c : Thread nD τ).loc b) := fun c b => W1 m c b
/-- At the first call's exit: its arrays at what the pipeline leaves, every other buffer as entered. -/
def W2 (c : Dev nD) : Valuation τ sig (Elt F) :=
  Pipeline.withArrays spec0 c (W1 m c) fun w => (dat0 (U := U) (V1 m) O c).arrAt w cfg0.N
theorem W2_arr (c : Dev nD) (w : Fin cfg0.W) :
    W2 (U := U) m O c (Proc.devRef .tc (Pipeline.arrRef spec0 w)) = (dat0 (U := U) (V1 m) O c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 (U := U) m O c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 (U := U) m O c b
theorem hF0 (c : Dev nD) (w : Fin cfg0.W) : (dat0 (U := U) (V1 m) O c).arrAt w cfg0.N = V2 (U := U) m O c (Pipeline.arrRef spec0 w) :=
  (W2_arr m O c w).symm
theorem hrest0 (c : Dev nD) : ∀ b, b ∉ Finset.univ.image (Pipeline.arrRef spec0) → V2 (U := U) m O c b = V1 m c b :=
  fun b hb => W2_of_ne m O c b fun w e => hb (Finset.mem_image.mpr ⟨w, Finset.mem_univ _, e⟩)

/-- At the second call's exit: its arrays at what the pipeline leaves, every other buffer as entered. -/
def W3 (c : Dev nD) : Valuation τ sig (Elt F) :=
  Pipeline.withArrays spec1 c (W2 (U := U) m O c) fun w => (dat1 (U := U) (V2 (U := U) m O) O c).arrAt w cfg1.N
theorem W3_arr (c : Dev nD) (w : Fin cfg1.W) :
    W3 (U := U) m O c (Proc.devRef .tc (Pipeline.arrRef spec1 w)) = (dat1 (U := U) (V2 (U := U) m O) O c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 (U := U) m O c (Proc.devRef .tc b) = W2 (U := U) m O c (Proc.devRef .tc b) := by
  unfold W3; exact Pipeline.withArrays_of_ne spec1 c _ _ b hb
abbrev V3 : (c : Dev nD) → (b : Ref sig .tc) → Buf (Elt F) ((c : Thread nD τ).loc b) := fun c b => W3 (U := U) m O c b
theorem hF1 (c : Dev nD) (w : Fin cfg1.W) : (dat1 (U := U) (V2 (U := U) m O) O c).arrAt w cfg1.N = V3 (U := U) m O c (Pipeline.arrRef spec1 w) :=
  (W3_arr m O c w).symm
theorem hrest1 (c : Dev nD) : ∀ b, b ∉ Finset.univ.image (Pipeline.arrRef spec1) → V3 (U := U) m O c b = V2 (U := U) m O c b :=
  fun b hb => W3_of_ne m O c b fun w e => hb (Finset.mem_image.mpr ⟨w, Finset.mem_univ _, e⟩)

/-! ## The proof data family and the thread state -/

/-- No pipeline has a prefetched table. -/
abbrev adm : (p : Fin 2) → (pcfgs (F := F) p).Adm := fun p => (cfgs p).toPCfg_adm

/-- Both pipelines' proof data, each at its call's entry contents: a literal match, so that the pinned configuration at a
    numeral reduces to the printed one. -/
def pdats : (p : Fin 2) → (c : Dev nD) → Dat τ (Elt F) (HIx 1) ℕ U ℕ (Pipeline.pin (pcfgs (F := F)) adm p) c
  | ⟨0, _⟩ => fun c => dat0 (U := U) (V1 m) O c
  | ⟨1, _⟩ => fun c => dat1 (U := U) (V2 (U := U) m O) O c

/-- The thread state between two segments, at the valuation `Wv`: every unscoped buffer at it, what the core owes with
    every recorded pair at the index `none`, the generator register at some state, and whatever else rides along. -/
abbrev TS (Rest : Dev nD → sProp 𝕄) (Wv : Dev nD → Valuation τ sig (Elt F)) (c : Dev nD) : sProp 𝕄 :=
  iprop(StableHlo.held (c : Thread nD τ) (Pipeline.ucRefs τ sig) (Wv c)
    ∗ (∃ W : Finset (SemLoc sig × HIx 1), ⌜(↑W : Set (SemLoc sig × HIx 1)) ⊆ {p : SemLoc sig × HIx 1 | p.2 = none}⌝ ∗ owes (c : Thread nD τ) (O c) W)
    ∗ (∃ r, prngReg c r) ∗ Rest c)

set_option backward.isDefEq.respectTransparency.types false in
/-- Call 0 as a segment over the thread state: entered from every unscoped buffer at the entry valuation, left with the
    call's arrays at what its write-backs leave. Its arrays are split out of the unscoped buffers at the entry and put
    back at the exit; what the core owes passes through with its recorded pairs still at the index `none` (the call's
    own waits are at that index); the generator register and what rides along bypass the call; the call has no
    semaphore of its own. -/
def reg0 (Rest : Dev nD → sProp 𝕄) : Pipeline.RegionSeg (pcfgs (F := F)) adm (pdats (U := U) m O) none defs₀ Variants.none (sc (F := F)).L (sc (F := F)).lev 0 where
  win := launch0.win.to₀
  block_pos := launch0.block_pos
  stage_whole := launch0.stage_whole
  K := PEmpty
  osem k := k.elim
  ho := Pipeline.OwnSemFacts.none _
  hbody c := body_obligation0_loose (V1 m) O Variants.none none c
  hwaits c := Pipeline.cellsWaits_of_cut (Pipeline.pin (pcfgs (F := F)) adm) (pdats (U := U) m O) none 0 c 0 (O c) (fun _ => rfl)
    (fun _ _ => Finset.mem_univ _) (fun _ _ => le_rfl)
    (fun g i h => ⟨Finset.mem_univ _, by
      cases i with
      | none => rw [hO] at h; exact absurd h (lt_irrefl _)
      | some q => exact (sc (F := F)).lev_some_pos g q⟩)
  pre c := TS (U := U) O Rest (W1 m) c
  post c := TS (U := U) O Rest (W2 (U := U) m O) c
  X _ := iprop(emp)
  Y _ := iprop(emp)
  Z c := iprop(Pipeline.unscopedRest (Ix := HIx 1) (Name := ℕ) (U := U) (Lvl := ℕ) spec0 c ((V1 m) c) ∗ (∃ r, prngReg c r) ∗ Rest c)
  hentry c := by
    rw [Pipeline.ownSems0_none]
    have hsplit := Pipeline.arrays_of_unscopedBufs (p := 0) (pcfgs (F := F)) adm (pdats (U := U) m O) launch0.win launch0.arr_whole c
      ((pdats (U := U) m O 0 c).share_full fun _ => rfl) (V1 m c) fun _ => rfl
    rw [Pipeline.unscopedBufs_held] at hsplit
    iintro ⟨⟨Hub, HO, Hp, HR⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    isplitl [Hrest]; · iexact Hrest
    isplitl [Hp]; · iexact Hp
    iexact HR
  hin c := by
    rw [show (pdats (U := U) m O 0 c).Φ 0 = Pipeline.scopedRest (Ix := HIx 1) (Name := ℕ) (U := U) (Lvl := ℕ) (Val := Elt F) spec0 c from rfl]
    iintro ⟨-, -, Hr⟩
    iexact Hr
  hout c := by
    rw [Pipeline.ownSems0_none, show (pdats (U := U) m O 0 c).Φ (Fin.last _) = Pipeline.scopedRest (Ix := HIx 1) (Name := ℕ) (U := U) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := U) (Lvl := ℕ)
      launch0.win launch0.arr_whole c (pdats (U := U) m O) ((pdats (U := U) m O 0 c).share_full fun _ => rfl)
      (V1 m c) (V2 (U := U) m O c) ((pdats (U := U) m O 0 c).arrAt · cfg0.N) (hF0 m O c) (hrest0 m O c)
    rw [Pipeline.unscopedBufs_held] at hjoin
    iintro ⟨Ha, HO, -, Hrest, Hp, HR⟩
    imodintro
    isplitl [Ha Hrest]
    · iapply hjoin; isplitl [Ha] <;> iassumption
    isplitl [HO]
    · unfold Pipeline.Dat.owesAt Pipeline.owesWithin
      icases HO with ⟨%W, %hW, HO⟩; iexists W; isplitr
      · ipureintro; exact fun p hp => (hW hp).elim id (by rintro ⟨w, s, rfl⟩; rfl)
      iexact HO
    isplitl [Hp]; · iexact Hp
    iexact HR

set_option backward.isDefEq.respectTransparency.types false in
/-- Call 1 as a segment over the thread state: entered from every unscoped buffer at the entry valuation, left with the
    call's arrays at what its write-backs leave. Its arrays are split out of the unscoped buffers at the entry and put
    back at the exit; what the core owes passes through with its recorded pairs still at the index `none` (the call's
    own waits are at that index); the generator register and what rides along bypass the call; the call has no
    semaphore of its own. -/
def reg1 (Rest : Dev nD → sProp 𝕄) : Pipeline.RegionSeg (pcfgs (F := F)) adm (pdats (U := U) m O) none defs₀ Variants.none (sc (F := F)).L (sc (F := F)).lev 1 where
  win := launch1.win.to₀
  block_pos := launch1.block_pos
  stage_whole := launch1.stage_whole
  K := PEmpty
  osem k := k.elim
  ho := Pipeline.OwnSemFacts.none _
  hbody c := body_obligation1_loose (V2 (U := U) m O) O Variants.none none c
  hwaits c := Pipeline.cellsWaits_of_cut (Pipeline.pin (pcfgs (F := F)) adm) (pdats (U := U) m O) none 1 c 0 (O c) (fun _ => rfl)
    (fun _ _ => Finset.mem_univ _) (fun _ _ => le_rfl)
    (fun g i h => ⟨Finset.mem_univ _, by
      cases i with
      | none => rw [hO] at h; exact absurd h (lt_irrefl _)
      | some q => exact (sc (F := F)).lev_some_pos g q⟩)
  pre c := TS (U := U) O Rest (W2 (U := U) m O) c
  post c := TS (U := U) O Rest (W3 (U := U) m O) c
  X _ := iprop(emp)
  Y _ := iprop(emp)
  Z c := iprop(Pipeline.unscopedRest (Ix := HIx 1) (Name := ℕ) (U := U) (Lvl := ℕ) spec1 c ((V2 (U := U) m O) c) ∗ (∃ r, prngReg c r) ∗ Rest c)
  hentry c := by
    rw [Pipeline.ownSems0_none]
    have hsplit := Pipeline.arrays_of_unscopedBufs (p := 1) (pcfgs (F := F)) adm (pdats (U := U) m O) launch1.win launch1.arr_whole c
      ((pdats (U := U) m O 1 c).share_full fun _ => rfl) (V2 (U := U) m O c) fun _ => rfl
    rw [Pipeline.unscopedBufs_held] at hsplit
    iintro ⟨⟨Hub, HO, Hp, HR⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitr; · iempintro
    isplitl [Hrest]; · iexact Hrest
    isplitl [Hp]; · iexact Hp
    iexact HR
  hin c := by
    rw [show (pdats (U := U) m O 1 c).Φ 0 = Pipeline.scopedRest (Ix := HIx 1) (Name := ℕ) (U := U) (Lvl := ℕ) (Val := Elt F) spec1 c from rfl]
    iintro ⟨-, -, Hr⟩
    iexact Hr
  hout c := by
    rw [Pipeline.ownSems0_none, show (pdats (U := U) m O 1 c).Φ (Fin.last _) = Pipeline.scopedRest (Ix := HIx 1) (Name := ℕ) (U := U) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := U) (Lvl := ℕ)
      launch1.win launch1.arr_whole c (pdats (U := U) m O) ((pdats (U := U) m O 1 c).share_full fun _ => rfl)
      (V2 (U := U) m O c) (V3 (U := U) m O c) ((pdats (U := U) m O 1 c).arrAt · cfg1.N) (hF1 m O c) (hrest1 m O c)
    rw [Pipeline.unscopedBufs_held] at hjoin
    iintro ⟨Ha, HO, -, Hrest, Hp, HR⟩
    imodintro
    isplitl [Ha Hrest]
    · iapply hjoin; isplitl [Ha] <;> iassumption
    isplitl [HO]
    · unfold Pipeline.Dat.owesAt Pipeline.owesWithin
      icases HO with ⟨%W, %hW, HO⟩; iexists W; isplitr
      · ipureintro; exact fun p hp => (hW hp).elim id (by rintro ⟨w, s, rfl⟩; rfl)
      iexact HO
    isplitl [Hp]; · iexact Hp
    iexact HR

/-! ## The two calls' results, read at the valuations -/

/-- No host operation before the first call writes the index array, -/
theorem W1_main_arg0 (c : Dev nD) : W1 m c (Proc.devRef .tc main_arg0) = W0 m c (Proc.devRef .tc main_arg0) :=
  StableHlo.after_of_forall_not_mem (b := Proc.devRef .tc main_arg0) _ _ (List.forall_iff_forall_mem.mp (by
    simp only [hostA, List.Forall, StableHlo.unary_writes, StableHlo.reshape_writes, Finset.mem_singleton]
    repeat' apply And.intro
    all_goals exact StableHlo.devRef_ne_of_ne (by decide)))
/-- nor the letter table. -/
theorem W1_main_arg1 (c : Dev nD) : W1 m c (Proc.devRef .tc main_arg1) = W0 m c (Proc.devRef .tc main_arg1) :=
  StableHlo.after_of_forall_not_mem (b := Proc.devRef .tc main_arg1) _ _ (List.forall_iff_forall_mem.mp (by
    simp only [hostA, List.Forall, StableHlo.unary_writes, StableHlo.reshape_writes, Finset.mem_singleton]
    repeat' apply And.intro
    all_goals exact StableHlo.devRef_ne_of_ne (by decide)))

/-- After the first call its result array is the normalised table of the letter table, the first twenty position rows, the
    scale and the shift, as the call found them. -/
theorem W2_main_v3 (c : Dev nD) :
    W2 (U := U) m O c (Proc.devRef .tc main_v3) = comb0 (V1 m c main_arg1) (V1 m c main_v0) (V1 m c main_v1) (V1 m c main_v2) :=
  (W2_arr m O c 4).trans (value0 (V1 m) O c)

/-- The first call leaves the index array as it was. -/
theorem W2_main_arg0 (c : Dev nD) : W2 (U := U) m O c (Proc.devRef .tc main_arg0) = W0 m c (Proc.devRef .tc main_arg0) :=
  (W2_of_ne m O c main_arg0 (by decide)).trans (W1_main_arg0 m c)

/-- After the second call its result array holds, at (r, s), the launch's index word there plus 98 s. -/
theorem W3_main_v4 (c : Dev nD) :
    W3 (U := U) m O c (Proc.devRef .tc main_v4) = idx0 (W0 m c (Proc.devRef .tc main_arg0)) :=
  (W3_arr m O c 1).trans ((value1 (V2 (U := U) m O) O c).trans (congrArg idx0 (W2_main_arg0 m O c)))

/-- The second call leaves the first call's table as it was. -/
theorem W3_main_v3 (c : Dev nD) : W3 (U := U) m O c (Proc.devRef .tc main_v3) = W2 (U := U) m O c (Proc.devRef .tc main_v3) :=
  W3_of_ne m O c main_v3 (by decide)

end Cert.ProofK.Regs

end
-- ==== Proof.SegsK.lean ====
/-
  @main's TensorCore part as four segments — the host operations before the calls, the two calls, the host operations
  after them — over the thread state that carries every unscoped buffer at a valuation; the program as the run of
  those segments followed by the SparseCore call; and the last valuation read back: the table and the index array the
  SparseCore call works on, and the arguments and the result array as launched.
-/
import proofs.«206393_g35751307772044_cont_8to1_b_353_20_alg».proof.Proof.RegionsK
import proofs.«206393_g35751307772044_cont_8to1_b_353_20_alg».proof.Proof.LaunchK
import Idealize.ShloMosaic.Lib.StableHlo.Run

set_option maxRecDepth 16384

noncomputable section

namespace Cert.ProofK.Regs

open Cert.Kernel Cert.Kernel.Gen Cert.ProofK.Common Cert.ProofK.Reg0 Cert.ProofK.Reg1
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Idealize.ShloMosaic.SparseCore.Cfg (HIx)

variable {F : FTy → Type} [FloatOps F]
variable {U : Type} [URA U]

local notation "𝕄" => MT nD τ sig (HIx 1) (Elt F) ℕ U ℕ

variable (m : (ℓ : Loc nD τ sig) → Buf (Elt F) ℓ)
variable (O : Dev nD → CellTallies nD τ sig (HIx 1)) (hO : ∀ c g, O c g none = 0)

/-! ## The host operations after the calls, and the last valuation -/

/-- The two host operations after the calls: the table as 1960 rows, the row numbers as [32, 128, 80]. -/
abbrev hostB : List (HloOp τ sig (Elt F)) :=
  [StableHlo.reshape main_v3 main_v5 rfl shapeCasts_S20x98x128_S1960x128,
   StableHlo.reshape main_v4 main_v6 rfl shapeCasts_S16384x20_S32x128x80]

/-- After them: what the SparseCore call is started from. -/
abbrev W4 : Dev nD → Valuation τ sig (Elt F) := fun c => StableHlo.after hostB (W3 (U := U) m O c)

/-! ## The host stretches as segments -/

theorem hostA_sub : (hostA : List (HloOp τ sig (Elt F))).Forall fun op => op.bufs ⊆ StableHlo.tcRefs τ sig :=
  ⟨StableHlo.unary_bufs_sub .., StableHlo.reshape_bufs_sub .., StableHlo.reshape_bufs_sub ..⟩
theorem hostB_sub : (hostB : List (HloOp τ sig (Elt F))).Forall fun op => op.bufs ⊆ StableHlo.tcRefs τ sig :=
  ⟨StableHlo.reshape_bufs_sub .., StableHlo.reshape_bufs_sub ..⟩
theorem hostA_fresh : (hostA : List (HloOp τ sig (Elt F))).Forall fun op => op.fresh = ∅ := by
  simp only [List.Forall]; repeat' constructor
theorem hostB_fresh : (hostB : List (HloOp τ sig (Elt F))).Forall fun op => op.fresh = ∅ := by
  simp only [List.Forall]; repeat' constructor

/-- What rides beside the buffers through a host stretch: the thread state but for the buffers. -/
abbrev RR (Rest : Dev nD → sProp 𝕄) (c : Dev nD) : sProp 𝕄 :=
  iprop((∃ W : Finset (SemLoc sig × HIx 1), ⌜(↑W : Set (SemLoc sig × HIx 1)) ⊆ {p : SemLoc sig × HIx 1 | p.2 = none}⌝ ∗ owes (c : Thread nD τ) (O c) W)
    ∗ (∃ r, prngReg c r) ∗ Rest c)

/-- A line of host operations as a segment: over the unscoped references from the valuation `W`, the rest of the
    thread state riding along; it leaves them at the valuation the operations make of `W`. -/
abbrev hseg (Rest : Dev nD → sProp 𝕄) (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := U) (pcfgs (F := F)) defs₀ Variants.none (sc (F := F)).L (sc (F := F)).lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (RR (U := U) O Rest)

abbrev hsegA (Rest : Dev nD → sProp 𝕄) := hseg (U := U) O Rest hostA hostA_sub hostA_fresh (W0 m)
abbrev hsegB (Rest : Dev nD → sProp 𝕄) := hseg (U := U) O Rest hostB hostB_sub hostB_fresh (W3 (U := U) m O)

/-! ## The four segments -/

abbrev segs (Rest : Dev nD → sProp 𝕄) : List (Pipeline.Seg (pcfgs (F := F)) adm (pdats (U := U) m O) none defs₀ Variants.none (sc (F := F)).L (sc (F := F)).lev) :=
  [.host (hsegA (U := U) m O Rest), .region (reg0 (U := U) m O hO Rest), .region (reg1 (U := U) m O hO Rest), .host (hsegB (U := U) m O Rest)]

/-- The two calls are different pipelines. -/
theorem segs_pipes (Rest : Dev nD → sProp 𝕄) : (Pipeline.Seg.pipes (segs (U := U) m O hO Rest)).Nodup := by
  simp only [segs, Pipeline.Seg.pipes_host, Pipeline.Seg.pipes_region, Pipeline.Seg.pipes_nil]; decide

/-- Each segment is entered from what the one before it left: the thread state at the launch valuation, then at the
    valuation each segment makes of the one before. -/
theorem segs_chain (Rest : Dev nD → sProp 𝕄) :
    Pipeline.Seg.Chains (TS (U := U) O Rest (W0 m)) (segs (U := U) m O hO Rest) (TS (U := U) O Rest (W4 (U := U) m O)) :=
  ⟨fun _ => .rfl, fun _ => .rfl, fun _ => .rfl, fun _ => .rfl, fun _ => .rfl⟩

/-! ## The program is the segments' run, then the SparseCore call -/

theorem main_eq (Rest : Dev nD → sProp 𝕄) (d : Dev nD) :
    Cert.Kernel.main (F := F) d
      = (SparseCore.liftProg (Pipeline.Seg.run (segs (U := U) m O hO Rest)) >>= fun _ => (sc (F := F)).run d 0 >>= fun _ => pure ⟨⟩) := by
  chain_rfl

/-! ## The last valuation, read back -/

/-- Before the first call the position rows are the first twenty of the position table, -/
theorem W1_main_v0 (c : Dev nD) :
    (W1 m c (Proc.devRef .tc main_v0) : Vec F S20x128 .f32)
      = extractStridedSlice S20x128 ![0, 0] (W0 m c (Proc.devRef .tc main_arg2) : Vec F S25x128 .f32) slices_S25x128_S20x128_0_0 := by
  dsimp only [W1, hostA]; after_results <;> rfl
/-- the scale is the scale vector as one row, -/
theorem W1_main_v1 (c : Dev nD) :
    (W1 m c (Proc.devRef .tc main_v1) : Vec F S1x128 .f32)
      = shapeCast S1x128 (W0 m c (Proc.devRef .tc main_arg3) : Vec F S128 .f32) shapeCasts_S128_S1x128 := by
  dsimp only [W1, hostA]; after_results <;> rfl
/-- and the shift is the shift vector as one row. -/
theorem W1_main_v2 (c : Dev nD) :
    (W1 m c (Proc.devRef .tc main_v2) : Vec F S1x128 .f32)
      = shapeCast S1x128 (W0 m c (Proc.devRef .tc main_arg4) : Vec F S128 .f32) shapeCasts_S128_S1x128 := by
  dsimp only [W1, hostA]; after_results <;> rfl

/-- After the calls the table the SparseCore call reads is the first call's result as 1960 rows, -/
theorem W4_main_v5_raw (c : Dev nD) :
    (W4 (U := U) m O c (Proc.devRef .tc main_v5) : Vec F S1960x128 .f32)
      = shapeCast S1960x128 (W3 (U := U) m O c (Proc.devRef .tc main_v3) : Vec F S20x98x128 .f32) shapeCasts_S20x98x128_S1960x128 := by
  dsimp only [W4, hostB]; after_results <;> rfl
/-- and the index array is the second call's result as [32, 128, 80]. -/
theorem W4_main_v6_raw (c : Dev nD) :
    (W4 (U := U) m O c (Proc.devRef .tc main_v6) : Vec F S32x128x80 .i32)
      = shapeCast S32x128x80 (W3 (U := U) m O c (Proc.devRef .tc main_v4) : Vec F S16384x20 .i32) shapeCasts_S16384x20_S32x128x80 := by
  dsimp only [W4, hostB]; after_results <;> rfl

/-- The table the SparseCore call gathers from is the normalised table of the launch arguments, as 1960 rows. -/
theorem W4_main_v5 (c : Dev nD) : W4 (U := U) m O c (Proc.devRef .tc main_v5) = Cert.ProofK.Launch.cmbV m c := by
  refine (W4_main_v5_raw m O c).trans ?_
  unfold Cert.ProofK.Launch.cmbV
  refine congrArg (fun x => shapeCast S1960x128 x shapeCasts_S20x98x128_S1960x128) ?_
  refine ((W3_main_v3 m O c).trans (W2_main_v3 m O c)).trans ?_
  have h1 : (V1 m c main_arg1 : Vec F S98x128 .f32) = m ((SparseCore.T c).loc main_arg1) := W1_main_arg1 m c
  have h0 := W1_main_v0 m c
  have hw := W1_main_v1 m c
  have hb := W1_main_v2 m c
  show comb0 (V1 m c main_arg1) (V1 m c main_v0) (V1 m c main_v1) (V1 m c main_v2) = _
  rw [h1, show (V1 m c main_v0 : Vec F S20x128 .f32) = _ from h0, show (V1 m c main_v1 : Vec F S1x128 .f32) = _ from hw,
    show (V1 m c main_v2 : Vec F S1x128 .f32) = _ from hb]

/-- The index array the SparseCore call reads is the row numbers of the launch's index argument, as [32, 128, 80]. -/
theorem W4_main_v6 (c : Dev nD) : W4 (U := U) m O c (Proc.devRef .tc main_v6) = Cert.ProofK.Launch.ixV m c := by
  refine (W4_main_v6_raw m O c).trans ?_
  unfold Cert.ProofK.Launch.ixV
  exact congrArg (fun x => shapeCast S32x128x80 x shapeCasts_S16384x20_S32x128x80) (W3_main_v4 m O c)

/-- No host operation after the calls writes `main_arg0`. -/
theorem W4_W3_main_arg0 (c : Dev nD) : W4 (U := U) m O c (Proc.devRef .tc main_arg0) = W3 (U := U) m O c (Proc.devRef .tc main_arg0) :=
  StableHlo.after_of_forall_not_mem (b := Proc.devRef .tc main_arg0) _ _ (List.forall_iff_forall_mem.mp (by
    simp only [hostB, List.Forall, StableHlo.unary_writes, StableHlo.reshape_writes, Finset.mem_singleton]
    repeat' apply And.intro
    all_goals exact StableHlo.devRef_ne_of_ne (by decide)))
/-- `main_arg0` is as launched after the two calls and the host operations around them: none of them writes it. -/
theorem W4_main_arg0 (c : Dev nD) : W4 (U := U) m O c (Proc.devRef .tc main_arg0) = m ((SparseCore.T c).loc main_arg0) :=
  calc W4 (U := U) m O c (Proc.devRef .tc main_arg0)
    _ = W3 (U := U) m O c (Proc.devRef .tc main_arg0) := W4_W3_main_arg0 m O c
    _ = W2 (U := U) m O c (Proc.devRef .tc main_arg0) := (W3_arr m O c 0).trans (kept1 (V2 (U := U) m O) O c _)
    _ = W1 m c (Proc.devRef .tc main_arg0) := W2_of_ne m O c main_arg0 (by decide)
    _ = W0 m c (Proc.devRef .tc main_arg0) := W1_main_arg0 m c
    _ = m ((SparseCore.T c).loc main_arg0) := rfl

/-- No host operation after the calls writes `main_arg1`. -/
theorem W4_W3_main_arg1 (c : Dev nD) : W4 (U := U) m O c (Proc.devRef .tc main_arg1) = W3 (U := U) m O c (Proc.devRef .tc main_arg1) :=
  StableHlo.after_of_forall_not_mem (b := Proc.devRef .tc main_arg1) _ _ (List.forall_iff_forall_mem.mp (by
    simp only [hostB, List.Forall, StableHlo.unary_writes, StableHlo.reshape_writes, Finset.mem_singleton]
    repeat' apply And.intro
    all_goals exact StableHlo.devRef_ne_of_ne (by decide)))
/-- `main_arg1` is as launched after the two calls and the host operations around them: none of them writes it. -/
theorem W4_main_arg1 (c : Dev nD) : W4 (U := U) m O c (Proc.devRef .tc main_arg1) = m ((SparseCore.T c).loc main_arg1) :=
  calc W4 (U := U) m O c (Proc.devRef .tc main_arg1)
    _ = W3 (U := U) m O c (Proc.devRef .tc main_arg1) := W4_W3_main_arg1 m O c
    _ = W2 (U := U) m O c (Proc.devRef .tc main_arg1) := W3_of_ne m O c main_arg1 (by decide)
    _ = W1 m c (Proc.devRef .tc main_arg1) := (W2_arr m O c 0).trans (kept0 (V1 m) O c 0 rfl _)
    _ = W0 m c (Proc.devRef .tc main_arg1) := W1_main_arg1 m c
    _ = m ((SparseCore.T c).loc main_arg1) := rfl

/-- No host operation before the calls writes `main_arg2`. -/
theorem W1_main_arg2 (c : Dev nD) : W1 m c (Proc.devRef .tc main_arg2) = W0 m c (Proc.devRef .tc main_arg2) :=
  StableHlo.after_of_forall_not_mem (b := Proc.devRef .tc main_arg2) _ _ (List.forall_iff_forall_mem.mp (by
    simp only [hostA, List.Forall, StableHlo.unary_writes, StableHlo.reshape_writes, Finset.mem_singleton]
    repeat' apply And.intro
    all_goals exact StableHlo.devRef_ne_of_ne (by decide)))
/-- No host operation after the calls writes `main_arg2`. -/
theorem W4_W3_main_arg2 (c : Dev nD) : W4 (U := U) m O c (Proc.devRef .tc main_arg2) = W3 (U := U) m O c (Proc.devRef .tc main_arg2) :=
  StableHlo.after_of_forall_not_mem (b := Proc.devRef .tc main_arg2) _ _ (List.forall_iff_forall_mem.mp (by
    simp only [hostB, List.Forall, StableHlo.unary_writes, StableHlo.reshape_writes, Finset.mem_singleton]
    repeat' apply And.intro
    all_goals exact StableHlo.devRef_ne_of_ne (by decide)))
/-- `main_arg2` is as launched after the two calls and the host operations around them: none of them writes it. -/
theorem W4_main_arg2 (c : Dev nD) : W4 (U := U) m O c (Proc.devRef .tc main_arg2) = m ((SparseCore.T c).loc main_arg2) :=
  calc W4 (U := U) m O c (Proc.devRef .tc main_arg2)
    _ = W3 (U := U) m O c (Proc.devRef .tc main_arg2) := W4_W3_main_arg2 m O c
    _ = W2 (U := U) m O c (Proc.devRef .tc main_arg2) := W3_of_ne m O c main_arg2 (by decide)
    _ = W1 m c (Proc.devRef .tc main_arg2) := W2_of_ne m O c main_arg2 (by decide)
    _ = W0 m c (Proc.devRef .tc main_arg2) := W1_main_arg2 m c
    _ = m ((SparseCore.T c).loc main_arg2) := rfl

/-- No host operation before the calls writes `main_arg3`. -/
theorem W1_main_arg3 (c : Dev nD) : W1 m c (Proc.devRef .tc main_arg3) = W0 m c (Proc.devRef .tc main_arg3) :=
  StableHlo.after_of_forall_not_mem (b := Proc.devRef .tc main_arg3) _ _ (List.forall_iff_forall_mem.mp (by
    simp only [hostA, List.Forall, StableHlo.unary_writes, StableHlo.reshape_writes, Finset.mem_singleton]
    repeat' apply And.intro
    all_goals exact StableHlo.devRef_ne_of_ne (by decide)))
/-- No host operation after the calls writes `main_arg3`. -/
theorem W4_W3_main_arg3 (c : Dev nD) : W4 (U := U) m O c (Proc.devRef .tc main_arg3) = W3 (U := U) m O c (Proc.devRef .tc main_arg3) :=
  StableHlo.after_of_forall_not_mem (b := Proc.devRef .tc main_arg3) _ _ (List.forall_iff_forall_mem.mp (by
    simp only [hostB, List.Forall, StableHlo.unary_writes, StableHlo.reshape_writes, Finset.mem_singleton]
    repeat' apply And.intro
    all_goals exact StableHlo.devRef_ne_of_ne (by decide)))
/-- `main_arg3` is as launched after the two calls and the host operations around them: none of them writes it. -/
theorem W4_main_arg3 (c : Dev nD) : W4 (U := U) m O c (Proc.devRef .tc main_arg3) = m ((SparseCore.T c).loc main_arg3) :=
  calc W4 (U := U) m O c (Proc.devRef .tc main_arg3)
    _ = W3 (U := U) m O c (Proc.devRef .tc main_arg3) := W4_W3_main_arg3 m O c
    _ = W2 (U := U) m O c (Proc.devRef .tc main_arg3) := W3_of_ne m O c main_arg3 (by decide)
    _ = W1 m c (Proc.devRef .tc main_arg3) := W2_of_ne m O c main_arg3 (by decide)
    _ = W0 m c (Proc.devRef .tc main_arg3) := W1_main_arg3 m c
    _ = m ((SparseCore.T c).loc main_arg3) := rfl

/-- No host operation before the calls writes `main_arg4`. -/
theorem W1_main_arg4 (c : Dev nD) : W1 m c (Proc.devRef .tc main_arg4) = W0 m c (Proc.devRef .tc main_arg4) :=
  StableHlo.after_of_forall_not_mem (b := Proc.devRef .tc main_arg4) _ _ (List.forall_iff_forall_mem.mp (by
    simp only [hostA, List.Forall, StableHlo.unary_writes, StableHlo.reshape_writes, Finset.mem_singleton]
    repeat' apply And.intro
    all_goals exact StableHlo.devRef_ne_of_ne (by decide)))
/-- No host operation after the calls writes `main_arg4`. -/
theorem W4_W3_main_arg4 (c : Dev nD) : W4 (U := U) m O c (Proc.devRef .tc main_arg4) = W3 (U := U) m O c (Proc.devRef .tc main_arg4) :=
  StableHlo.after_of_forall_not_mem (b := Proc.devRef .tc main_arg4) _ _ (List.forall_iff_forall_mem.mp (by
    simp only [hostB, List.Forall, StableHlo.unary_writes, StableHlo.reshape_writes, Finset.mem_singleton]
    repeat' apply And.intro
    all_goals exact StableHlo.devRef_ne_of_ne (by decide)))
/-- `main_arg4` is as launched after the two calls and the host operations around them: none of them writes it. -/
theorem W4_main_arg4 (c : Dev nD) : W4 (U := U) m O c (Proc.devRef .tc main_arg4) = m ((SparseCore.T c).loc main_arg4) :=
  calc W4 (U := U) m O c (Proc.devRef .tc main_arg4)
    _ = W3 (U := U) m O c (Proc.devRef .tc main_arg4) := W4_W3_main_arg4 m O c
    _ = W2 (U := U) m O c (Proc.devRef .tc main_arg4) := W3_of_ne m O c main_arg4 (by decide)
    _ = W1 m c (Proc.devRef .tc main_arg4) := W2_of_ne m O c main_arg4 (by decide)
    _ = W0 m c (Proc.devRef .tc main_arg4) := W1_main_arg4 m c
    _ = m ((SparseCore.T c).loc main_arg4) := rfl

/-- No host operation before the calls writes `main_v7`. -/
theorem W1_main_v7 (c : Dev nD) : W1 m c (Proc.devRef .tc main_v7) = W0 m c (Proc.devRef .tc main_v7) :=
  StableHlo.after_of_forall_not_mem (b := Proc.devRef .tc main_v7) _ _ (List.forall_iff_forall_mem.mp (by
    simp only [hostA, List.Forall, StableHlo.unary_writes, StableHlo.reshape_writes, Finset.mem_singleton]
    repeat' apply And.intro
    all_goals exact StableHlo.devRef_ne_of_ne (by decide)))
/-- No host operation after the calls writes `main_v7`. -/
theorem W4_W3_main_v7 (c : Dev nD) : W4 (U := U) m O c (Proc.devRef .tc main_v7) = W3 (U := U) m O c (Proc.devRef .tc main_v7) :=
  StableHlo.after_of_forall_not_mem (b := Proc.devRef .tc main_v7) _ _ (List.forall_iff_forall_mem.mp (by
    simp only [hostB, List.Forall, StableHlo.unary_writes, StableHlo.reshape_writes, Finset.mem_singleton]
    repeat' apply And.intro
    all_goals exact StableHlo.devRef_ne_of_ne (by decide)))
/-- `main_v7` is as launched after the two calls and the host operations around them: none of them writes it. -/
theorem W4_main_v7 (c : Dev nD) : W4 (U := U) m O c (Proc.devRef .tc main_v7) = m ((SparseCore.T c).loc main_v7) :=
  calc W4 (U := U) m O c (Proc.devRef .tc main_v7)
    _ = W3 (U := U) m O c (Proc.devRef .tc main_v7) := W4_W3_main_v7 m O c
    _ = W2 (U := U) m O c (Proc.devRef .tc main_v7) := W3_of_ne m O c main_v7 (by decide)
    _ = W1 m c (Proc.devRef .tc main_v7) := W2_of_ne m O c main_v7 (by decide)
    _ = W0 m c (Proc.devRef .tc main_v7) := W1_main_v7 m c
    _ = m ((SparseCore.T c).loc main_v7) := rfl

end Cert.ProofK.Regs

end
-- ==== Proof.MainK.lean ====
/-
  @main on the TensorCore: three host operations, the two TensorCore calls, two host reshapes, then the SparseCore
  call — from the launch memory to the result array at `gOut` of the table and index array computed on the way.
-/
import proofs.«206393_g35751307772044_cont_8to1_b_353_20_alg».proof.Proof.TailK
import proofs.«206393_g35751307772044_cont_8to1_b_353_20_alg».proof.Proof.SegsK

noncomputable section

namespace Cert.ProofK.Launch

open Cert.Kernel Cert.ProofK.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Kernel.Facts₀ Cert.Kernel.Facts

variable {F : FTy → Type} [Cert.Kernel.Facts]

local notation "𝕄" => MT nD τ sig (HIx 1) (Elt F) ℕ UU ℕ

/-! ## What the TensorCore owes while the regions run, and what its waits have recorded -/

/-- The TensorCore owes nothing at the kernels' own index. -/
theorem Otc_none (d : Dev nD) (g : GSem nD τ sig) : (K (F := F)).Otc d 0 g none = 0 := by
  by_contra h
  have := SparseCore.Cfg.lev_of_Otc_pos (K := K (F := F)) (Nat.pos_of_ne_zero h)
  rw [SparseCore.Cfg.lev_none] at this; omega

/-- Recorded pairs all at the kernels' own index are below every level of the handshakes. -/
theorem wbelow_of_sub (d : Dev nD) {W : Waits sig (HIx 1)} (h : (↑W : Set (SemLoc sig × HIx 1)) ⊆ {p | p.2 = none}) :
    (K (F := F)).WBelow (SparseCore.T d) W 0 := fun p hp => by
  have e : p.2 = none := h (Finset.mem_coe.mpr hp)
  rw [e]; exact le_rfl

theorem sub_of_wbelow (d : Dev nD) {W : Waits sig (HIx 1)} (h : (K (F := F)).WBelow (SparseCore.T d) W 0) :
    (↑W : Set (SemLoc sig × HIx 1)) ⊆ {p | p.2 = none} := fun p hp => by
  have hp' := h p (Finset.mem_coe.mp hp)
  show p.2 = none
  cases hι : p.2 with
  | none => rfl
  | some q =>
    rw [hι] at hp'
    have := (K (F := F)).lev_some_pos (SparseCore.T d, p.1) q
    omega

/-! ## The TensorCore's unscoped buffers, one by one -/

theorem unscopedBufs_eq (d : Dev nD) (W : (b : Ref sig .tc) → Buf (Elt F) ((d.tc : Thread nD τ).loc b)) :
    (unscopedBufs d W : sProp 𝕄)
      = iprop((argLoc0 d ↦{fullShare} W main_arg0) ∗ (argLoc1 d ↦{fullShare} W main_arg1) ∗ (argLoc2 d ↦{fullShare} W main_arg2)
          ∗ (argLoc3 d ↦{fullShare} W main_arg3) ∗ (argLoc4 d ↦{fullShare} W main_arg4)
          ∗ ((SparseCore.T d).loc main_v0 ↦{fullShare} W main_v0) ∗ ((SparseCore.T d).loc main_v1 ↦{fullShare} W main_v1)
          ∗ ((SparseCore.T d).loc main_v2 ↦{fullShare} W main_v2) ∗ ((SparseCore.T d).loc main_v3 ↦{fullShare} W main_v3)
          ∗ ((SparseCore.T d).loc main_v4 ↦{fullShare} W main_v4) ∗ (v5Loc d ↦{fullShare} W main_v5) ∗ (v6Loc d ↦{fullShare} W main_v6)
          ∗ (v7Loc d ↦{fullShare} W main_v7)) := by
  unfold unscopedBufs
  rw [show (Finset.univ.filter fun b : Ref sig .tc => ¬ b.isScoped)
      = {main_arg0, main_arg1, main_arg2, main_arg3, main_arg4, main_v0, main_v1, main_v2, main_v3, main_v4, main_v5, main_v6, main_v7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    bigSep_singleton]

/-! ## @main -/

variable (m : (ℓ : Loc nD τ sig) → Buf (Elt F) ℓ) (ρ : Dev nD → PrngReg)
variable [FloatOps F]

/-- What the TensorCore owes while the two TensorCore calls run: the start signals of the SparseCore call to come. -/
abbrev OO : Dev nD → CellTallies nD τ sig (HIx 1) := fun d => (K (F := F)).Otc d 0
theorem hOO : ∀ (c : Dev nD) (g : GSem nD τ sig), OO (F := F) c g none = 0 := fun c g => Otc_none c g

/-- What of the TensorCore's handshake state rides through the two calls untouched, with its own protocol's semaphores. -/
abbrev tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))
abbrev RestTc (d : Dev nD) : sProp 𝕄 := iprop(tcRest (F := F) d ∗ (K (F := F)).tcSems0 d)

theorem tcSt_zero (d : Dev nD) :
    ((K (F := F)).tcSt EH d 0 : sProp 𝕄)
      = iprop((∃ W, ⌜(K (F := F)).WBelow (SparseCore.T d) W 0⌝ ∗ owes (SparseCore.T d) ((K (F := F)).Otc d 0) W) ∗ tcRest (F := F) d) := rfl

set_option maxRecDepth 16384 in
theorem hmain (κ : GSem nD τ sig → ℕ) (d : Dev nD) :
    iprop((K (F := F)).ctx EH (P m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d) := by
  rw [Regs.main_eq (U := UU) m (OO (F := F)) hOO (RestTc (F := F)) d]
  simp only [wp_bind, wp_pure]
  unfold SparseCore.Cfg.tcRes
  rw [tcSt_zero]
  iintro ⟨#Hctx, ⟨⟨%W, %hW, HO⟩, Hrest⟩, ⟨Hbd, Hub, Hsems, Hprng⟩, HG⟩
  ihave Hlev := (SparseCore.Cfg.ctx_levAts κ) $$ Hctx
  iapply ((K (F := F)).wp_liftProg (D (F := F)) 𝒱 (SparseCore.T d) Set.univ none _ _)
  iapply (Pipeline.wp_segs (pcfgs (F := F)) Regs.adm (Regs.pdats (U := UU) m (OO (F := F))) none Gen.cellOf_inj (EP (F := F)) defs₀ 𝒱₀ (K (F := F)).L (K (F := F)).lev d
      (Regs.segs (U := UU) m (OO (F := F)) hOO (RestTc (F := F))) Finset.univ (Regs.TS (U := UU) (OO (F := F)) (RestTc (F := F)) (Regs.W0 m))
      (Regs.TS (U := UU) (OO (F := F)) (RestTc (F := F)) (Regs.W4 (U := UU) m (OO (F := F))))
      (Regs.segs_pipes m (OO (F := F)) hOO (RestTc (F := F))) (fun p _ => Finset.mem_univ p) (Regs.segs_chain m (OO (F := F)) hOO (RestTc (F := F)))) $$ [Hbd Hub HO Hrest Hsems Hprng HG]
  isplitr
  · -- after the segments: the SparseCore call from the last valuation
    have e0 := Regs.W4_main_arg0 (U := UU) m (OO (F := F)) d
    have e1 := Regs.W4_main_arg1 (U := UU) m (OO (F := F)) d
    have e2 := Regs.W4_main_arg2 (U := UU) m (OO (F := F)) d
    have e3 := Regs.W4_main_arg3 (U := UU) m (OO (F := F)) d
    have e4 := Regs.W4_main_arg4 (U := UU) m (OO (F := F)) d
    have e5 := Regs.W4_main_v5 (U := UU) m (OO (F := F)) d
    have e6 := Regs.W4_main_v6 (U := UU) m (OO (F := F)) d
    have e7 := Regs.W4_main_v7 (U := UU) m (OO (F := F)) d
    iintro ⟨-, Hh, ⟨%W', %hW', HO⟩, -, Hrest, -⟩
    ihave Hub := (Entails.of_eq (Pipeline.unscopedBufs_held (Ix := HIx 1) (Name := ℕ) (U := UU) (Lvl := ℕ) d (Regs.W4 (U := UU) m (OO (F := F)) d)).symm) $$ Hh
    ihave Hub' := (Entails.of_eq (unscopedBufs_eq d _)) $$ Hub
    icases Hub' with ⟨H0, H1, H2, H3, H4, -, -, -, -, -, H5, H6, H7⟩
    ihave H0' := (Entails.of_eq (congrArg (fun f => (argLoc0 d ↦{fullShare} f : sProp 𝕄)) e0)) $$ H0
    ihave H1' := (Entails.of_eq (congrArg (fun f => (argLoc1 d ↦{fullShare} f : sProp 𝕄)) e1)) $$ H1
    ihave H2' := (Entails.of_eq (congrArg (fun f => (argLoc2 d ↦{fullShare} f : sProp 𝕄)) e2)) $$ H2
    ihave H3' := (Entails.of_eq (congrArg (fun f => (argLoc3 d ↦{fullShare} f : sProp 𝕄)) e3)) $$ H3
    ihave H4' := (Entails.of_eq (congrArg (fun f => (argLoc4 d ↦{fullShare} f : sProp 𝕄)) e4)) $$ H4
    ihave H5' := (Entails.of_eq (congrArg (fun f => (v5Loc d ↦{fullShare} f : sProp 𝕄)) e5)) $$ H5
    ihave H6' := (Entails.of_eq (congrArg (fun f => (v6Loc d ↦{fullShare} f : sProp 𝕄)) e6)) $$ H6
    ihave H7' := (Entails.of_eq (congrArg (fun f => (v7Loc d ↦{fullShare} f : sProp 𝕄)) e7)) $$ H7
    iapply (hcall m κ d) $$ [HO Hrest H5' H6' H7' H0' H1' H2' H3' H4']
    isplitr; · iexact Hctx
    isplitl [HO Hrest]
    · rw [tcSt_zero]
      isplitl [HO]
      · iexists W'; isplitr
        · ipureintro; exact wbelow_of_sub d hW'
        · iexact HO
      iexact Hrest
    isplitl [H5']; · iexact H5'
    isplitl [H6']; · iexact H6'
    isplitl [H7']; · iexact H7'
    iintro ⟨Hst, H7⟩
    imodintro
    isplitl [Hst]; · iexact Hst
    isplitl [H7]; · iexact H7
    isplitl [H0']; · iexact H0'
    isplitl [H1']; · iexact H1'
    isplitl [H2']; · iexact H2'
    isplitl [H3']; · iexact H3'
    iexact H4'
  isplitl [Hbd]; · iexact Hbd
  isplitl [Hub HO Hrest Hsems Hprng]
  · -- the first thread state: the launch's buffers, what the TensorCore owes, the rest riding along
    isplitl [Hub]
    · iapply (Entails.of_eq (Pipeline.unscopedBufs_held (Ix := HIx 1) (Name := ℕ) (U := UU) (Lvl := ℕ) d (Regs.W0 m d))); iexact Hub
    isplitl [HO]
    · iexists W; isplitr
      · ipureintro; exact sub_of_wbelow d hW
      · iexact HO
    isplitl [Hprng]; · iexists _; iexact Hprng
    isplitl [Hrest]; · iexact Hrest
    iexact Hsems
  isplitr; · iexact Hlev
  iapply (Entails.of_eq (show (Gd (F := F) d : sProp 𝕄) = Pipeline.ghostOn (pcfgs (F := F)) Regs.adm (EP (F := F)) Finset.univ d from rfl))
  iexact HG

end Cert.ProofK.Launch

end
-- ==== Proof.TileBodyDefsK.lean ====
import proofs.«206393_g35751307772044_cont_8to1_b_353_20_alg».proof.Proof.CommonK
import Idealize.ShloMosaic.Lib.SparseCore.Launch
import Idealize.ShloMosaic.Lib.SparseCore.Ops
import Idealize.ShloMosaic.Lib.SparseCore.Stream
import Idealize.ShloMosaic.Lib.Batch
import Idealize.ShloMosaic.Lib.Pipeline.Kit
import Idealize.ShloMosaic.Lib.Tactic
import proofs.«206393_g35751307772044_cont_8to1_b_353_20_alg».proof.Proof.Gen.Kernel
import proofs.«206393_g35751307772044_cont_8to1_b_353_20_alg».proof.Proof.Gen.Kernel.Skeleton

noncomputable section

namespace Cert.ProofK.Tile

open Cert.Kernel Cert.Kernel.Gen
open Cert.ProofK.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev 𝒱₀ : Variants := Variants.none

variable {U : Type} [URA U] [CountersIn U]

local notation "𝕄" => MT nD τ sig (HIx 1) (Elt F) ℕ U ℕ

/-! ## The tile -/

theorem bound_zero : grid2.bound 0 = 2 := rfl
theorem bound_one : grid2.bound 1 = 16 := rfl

abbrev cV (L : grid2.Coords) : Fin τ.nSC := (L 0).castLE hcore2
abbrev jV (L : grid2.Coords) : Fin τ.nSub := (L 1).castLE hsub2
/-- The worker number of the tile at grid coordinates `L`: twice the subcore plus the core. -/
abbrev widL (L : grid2.Coords) : Fin 32 := wid (Fin.cast bound_zero (L 0)) (Fin.cast bound_one (L 1))

/-! ## The memrefs as the program spells them -/

abbrev thrV (d : Dev nD) (L : grid2.Coords) : Thread nD τ := V d (cV L) (jV L)

/-- The whole table as the gathers slice it. -/
abbrev srcAll : Memref sig .scVector .hbm S1960x128 .f32 :=
  (v5V).slice (Rect.unit (s := S1960x128) ![0, 0] S1960x128.size inb_S1960x128_S1960x128_0_0) (fun _ => rfl)
/-- The tile's row of the index array, squeezed. -/
abbrev idxRowM (L : grid2.Coords) : Memref sig .scVector .hbm S128x80 .i32 :=
  ((v6V).slice (Rect.unit (s := S32x128x80) (k2_off1 L) S1x128x80.size (k2_off1_inb L)) (fun _ => rfl)).squeeze S128x80 squeezes_S1x128x80_S128x80
abbrev lstV : Memref sig .scVector .vmem S128x80 .i32 := Memref.whole cc2_scratch0
abbrev bufM0 : Memref sig .scVector .vmem S80x128 .f32 := Memref.whole cc2_scratch1
abbrev bufM1 : Memref sig .scVector .vmem S80x128 .f32 := Memref.whole cc2_scratch2
abbrev bufM2 : Memref sig .scVector .vmem S80x128 .f32 := Memref.whole cc2_scratch3
abbrev bufM3 : Memref sig .scVector .vmem S80x128 .f32 := Memref.whole cc2_scratch4
abbrev bufM4 : Memref sig .scVector .vmem S80x128 .f32 := Memref.whole cc2_scratch5
abbrev bufM5 : Memref sig .scVector .vmem S80x128 .f32 := Memref.whole cc2_scratch6
abbrev bufM6 : Memref sig .scVector .vmem S80x128 .f32 := Memref.whole cc2_scratch7
abbrev bufM7 : Memref sig .scVector .vmem S80x128 .f32 := Memref.whole cc2_scratch8
abbrev lstM0 (k : Fin k2_t1_loop.trips) : Memref sig .scVector .vmem S80 .i32 :=
  ((lstV).slice (Rect.unit (s := S128x80) (k2_off3 k 0#32) S1x80.size (k2_off3_inb k 0)) (fun _ => rfl)).squeeze S80 squeezes_S1x80_S80
abbrev lstM1 (k : Fin k2_t1_loop.trips) : Memref sig .scVector .vmem S80 .i32 :=
  ((lstV).slice (Rect.unit (s := S128x80) (k2_off3 k 1#32) S1x80.size (k2_off3_inb k 1)) (fun _ => rfl)).squeeze S80 squeezes_S1x80_S80
abbrev lstM2 (k : Fin k2_t1_loop.trips) : Memref sig .scVector .vmem S80 .i32 :=
  ((lstV).slice (Rect.unit (s := S128x80) (k2_off3 k 2#32) S1x80.size (k2_off3_inb k 2)) (fun _ => rfl)).squeeze S80 squeezes_S1x80_S80
abbrev lstM3 (k : Fin k2_t1_loop.trips) : Memref sig .scVector .vmem S80 .i32 :=
  ((lstV).slice (Rect.unit (s := S128x80) (k2_off3 k 3#32) S1x80.size (k2_off3_inb k 3)) (fun _ => rfl)).squeeze S80 squeezes_S1x80_S80
abbrev lstM4 (k : Fin k2_t1_loop.trips) : Memref sig .scVector .vmem S80 .i32 :=
  ((lstV).slice (Rect.unit (s := S128x80) (k2_off3 k 4#32) S1x80.size (k2_off3_inb k 4)) (fun _ => rfl)).squeeze S80 squeezes_S1x80_S80
abbrev lstM5 (k : Fin k2_t1_loop.trips) : Memref sig .scVector .vmem S80 .i32 :=
  ((lstV).slice (Rect.unit (s := S128x80) (k2_off3 k 5#32) S1x80.size (k2_off3_inb k 5)) (fun _ => rfl)).squeeze S80 squeezes_S1x80_S80
abbrev lstM6 (k : Fin k2_t1_loop.trips) : Memref sig .scVector .vmem S80 .i32 :=
  ((lstV).slice (Rect.unit (s := S128x80) (k2_off3 k 6#32) S1x80.size (k2_off3_inb k 6)) (fun _ => rfl)).squeeze S80 squeezes_S1x80_S80
abbrev lstM7 (k : Fin k2_t1_loop.trips) : Memref sig .scVector .vmem S80 .i32 :=
  ((lstV).slice (Rect.unit (s := S128x80) (k2_off3 k 7#32) S1x80.size (k2_off3_inb k 7)) (fun _ => rfl)).squeeze S80 squeezes_S1x80_S80
abbrev bsl0_0 : Memref sig .scVector .vmem S20x128 .f32 := (bufM0).slice (Rect.unit (s := S80x128) ![0, 0] S20x128.size inb_S80x128_S20x128_0_0) (fun _ => rfl)
abbrev bsl0_1 : Memref sig .scVector .vmem S20x128 .f32 := (bufM0).slice (Rect.unit (s := S80x128) ![20, 0] S20x128.size inb_S80x128_S20x128_20_0) (fun _ => rfl)
abbrev bsl0_2 : Memref sig .scVector .vmem S20x128 .f32 := (bufM0).slice (Rect.unit (s := S80x128) ![40, 0] S20x128.size inb_S80x128_S20x128_40_0) (fun _ => rfl)
abbrev bsl0_3 : Memref sig .scVector .vmem S20x128 .f32 := (bufM0).slice (Rect.unit (s := S80x128) ![60, 0] S20x128.size inb_S80x128_S20x128_60_0) (fun _ => rfl)
abbrev bsl1_0 : Memref sig .scVector .vmem S20x128 .f32 := (bufM1).slice (Rect.unit (s := S80x128) ![0, 0] S20x128.size inb_S80x128_S20x128_0_0) (fun _ => rfl)
abbrev bsl1_1 : Memref sig .scVector .vmem S20x128 .f32 := (bufM1).slice (Rect.unit (s := S80x128) ![20, 0] S20x128.size inb_S80x128_S20x128_20_0) (fun _ => rfl)
abbrev bsl1_2 : Memref sig .scVector .vmem S20x128 .f32 := (bufM1).slice (Rect.unit (s := S80x128) ![40, 0] S20x128.size inb_S80x128_S20x128_40_0) (fun _ => rfl)
abbrev bsl1_3 : Memref sig .scVector .vmem S20x128 .f32 := (bufM1).slice (Rect.unit (s := S80x128) ![60, 0] S20x128.size inb_S80x128_S20x128_60_0) (fun _ => rfl)
abbrev bsl2_0 : Memref sig .scVector .vmem S20x128 .f32 := (bufM2).slice (Rect.unit (s := S80x128) ![0, 0] S20x128.size inb_S80x128_S20x128_0_0) (fun _ => rfl)
abbrev bsl2_1 : Memref sig .scVector .vmem S20x128 .f32 := (bufM2).slice (Rect.unit (s := S80x128) ![20, 0] S20x128.size inb_S80x128_S20x128_20_0) (fun _ => rfl)
abbrev bsl2_2 : Memref sig .scVector .vmem S20x128 .f32 := (bufM2).slice (Rect.unit (s := S80x128) ![40, 0] S20x128.size inb_S80x128_S20x128_40_0) (fun _ => rfl)
abbrev bsl2_3 : Memref sig .scVector .vmem S20x128 .f32 := (bufM2).slice (Rect.unit (s := S80x128) ![60, 0] S20x128.size inb_S80x128_S20x128_60_0) (fun _ => rfl)
abbrev bsl3_0 : Memref sig .scVector .vmem S20x128 .f32 := (bufM3).slice (Rect.unit (s := S80x128) ![0, 0] S20x128.size inb_S80x128_S20x128_0_0) (fun _ => rfl)
abbrev bsl3_1 : Memref sig .scVector .vmem S20x128 .f32 := (bufM3).slice (Rect.unit (s := S80x128) ![20, 0] S20x128.size inb_S80x128_S20x128_20_0) (fun _ => rfl)
abbrev bsl3_2 : Memref sig .scVector .vmem S20x128 .f32 := (bufM3).slice (Rect.unit (s := S80x128) ![40, 0] S20x128.size inb_S80x128_S20x128_40_0) (fun _ => rfl)
abbrev bsl3_3 : Memref sig .scVector .vmem S20x128 .f32 := (bufM3).slice (Rect.unit (s := S80x128) ![60, 0] S20x128.size inb_S80x128_S20x128_60_0) (fun _ => rfl)
abbrev bsl4_0 : Memref sig .scVector .vmem S20x128 .f32 := (bufM4).slice (Rect.unit (s := S80x128) ![0, 0] S20x128.size inb_S80x128_S20x128_0_0) (fun _ => rfl)
abbrev bsl4_1 : Memref sig .scVector .vmem S20x128 .f32 := (bufM4).slice (Rect.unit (s := S80x128) ![20, 0] S20x128.size inb_S80x128_S20x128_20_0) (fun _ => rfl)
abbrev bsl4_2 : Memref sig .scVector .vmem S20x128 .f32 := (bufM4).slice (Rect.unit (s := S80x128) ![40, 0] S20x128.size inb_S80x128_S20x128_40_0) (fun _ => rfl)
abbrev bsl4_3 : Memref sig .scVector .vmem S20x128 .f32 := (bufM4).slice (Rect.unit (s := S80x128) ![60, 0] S20x128.size inb_S80x128_S20x128_60_0) (fun _ => rfl)
abbrev bsl5_0 : Memref sig .scVector .vmem S20x128 .f32 := (bufM5).slice (Rect.unit (s := S80x128) ![0, 0] S20x128.size inb_S80x128_S20x128_0_0) (fun _ => rfl)
abbrev bsl5_1 : Memref sig .scVector .vmem S20x128 .f32 := (bufM5).slice (Rect.unit (s := S80x128) ![20, 0] S20x128.size inb_S80x128_S20x128_20_0) (fun _ => rfl)
abbrev bsl5_2 : Memref sig .scVector .vmem S20x128 .f32 := (bufM5).slice (Rect.unit (s := S80x128) ![40, 0] S20x128.size inb_S80x128_S20x128_40_0) (fun _ => rfl)
abbrev bsl5_3 : Memref sig .scVector .vmem S20x128 .f32 := (bufM5).slice (Rect.unit (s := S80x128) ![60, 0] S20x128.size inb_S80x128_S20x128_60_0) (fun _ => rfl)
abbrev bsl6_0 : Memref sig .scVector .vmem S20x128 .f32 := (bufM6).slice (Rect.unit (s := S80x128) ![0, 0] S20x128.size inb_S80x128_S20x128_0_0) (fun _ => rfl)
abbrev bsl6_1 : Memref sig .scVector .vmem S20x128 .f32 := (bufM6).slice (Rect.unit (s := S80x128) ![20, 0] S20x128.size inb_S80x128_S20x128_20_0) (fun _ => rfl)
abbrev bsl6_2 : Memref sig .scVector .vmem S20x128 .f32 := (bufM6).slice (Rect.unit (s := S80x128) ![40, 0] S20x128.size inb_S80x128_S20x128_40_0) (fun _ => rfl)
abbrev bsl6_3 : Memref sig .scVector .vmem S20x128 .f32 := (bufM6).slice (Rect.unit (s := S80x128) ![60, 0] S20x128.size inb_S80x128_S20x128_60_0) (fun _ => rfl)
abbrev bsl7_0 : Memref sig .scVector .vmem S20x128 .f32 := (bufM7).slice (Rect.unit (s := S80x128) ![0, 0] S20x128.size inb_S80x128_S20x128_0_0) (fun _ => rfl)
abbrev bsl7_1 : Memref sig .scVector .vmem S20x128 .f32 := (bufM7).slice (Rect.unit (s := S80x128) ![20, 0] S20x128.size inb_S80x128_S20x128_20_0) (fun _ => rfl)
abbrev bsl7_2 : Memref sig .scVector .vmem S20x128 .f32 := (bufM7).slice (Rect.unit (s := S80x128) ![40, 0] S20x128.size inb_S80x128_S20x128_40_0) (fun _ => rfl)
abbrev bsl7_3 : Memref sig .scVector .vmem S20x128 .f32 := (bufM7).slice (Rect.unit (s := S80x128) ![60, 0] S20x128.size inb_S80x128_S20x128_60_0) (fun _ => rfl)
abbrev oRow0_0 (L : grid2.Coords) (k : Fin k2_t1_loop.trips) : Memref sig .scVector .hbm S20x128 .f32 :=
  ((v7V).slice (Rect.unit (s := S16384x20x128) (k2_off11 L k 0#32 0#32) S1x20x128.size (k2_off11_inb L k 0 0)) (fun _ => rfl)).squeeze S20x128 squeezes_S1x20x128_S20x128
abbrev oRow0_1 (L : grid2.Coords) (k : Fin k2_t1_loop.trips) : Memref sig .scVector .hbm S20x128 .f32 :=
  ((v7V).slice (Rect.unit (s := S16384x20x128) (k2_off11 L k 0#32 1#32) S1x20x128.size (k2_off11_inb L k 0 1)) (fun _ => rfl)).squeeze S20x128 squeezes_S1x20x128_S20x128
abbrev oRow0_2 (L : grid2.Coords) (k : Fin k2_t1_loop.trips) : Memref sig .scVector .hbm S20x128 .f32 :=
  ((v7V).slice (Rect.unit (s := S16384x20x128) (k2_off11 L k 0#32 2#32) S1x20x128.size (k2_off11_inb L k 0 2)) (fun _ => rfl)).squeeze S20x128 squeezes_S1x20x128_S20x128
abbrev oRow0_3 (L : grid2.Coords) (k : Fin k2_t1_loop.trips) : Memref sig .scVector .hbm S20x128 .f32 :=
  ((v7V).slice (Rect.unit (s := S16384x20x128) (k2_off11 L k 0#32 3#32) S1x20x128.size (k2_off11_inb L k 0 3)) (fun _ => rfl)).squeeze S20x128 squeezes_S1x20x128_S20x128
abbrev oRow1_0 (L : grid2.Coords) (k : Fin k2_t1_loop.trips) : Memref sig .scVector .hbm S20x128 .f32 :=
  ((v7V).slice (Rect.unit (s := S16384x20x128) (k2_off11 L k 1#32 0#32) S1x20x128.size (k2_off11_inb L k 1 0)) (fun _ => rfl)).squeeze S20x128 squeezes_S1x20x128_S20x128
abbrev oRow1_1 (L : grid2.Coords) (k : Fin k2_t1_loop.trips) : Memref sig .scVector .hbm S20x128 .f32 :=
  ((v7V).slice (Rect.unit (s := S16384x20x128) (k2_off11 L k 1#32 1#32) S1x20x128.size (k2_off11_inb L k 1 1)) (fun _ => rfl)).squeeze S20x128 squeezes_S1x20x128_S20x128
abbrev oRow1_2 (L : grid2.Coords) (k : Fin k2_t1_loop.trips) : Memref sig .scVector .hbm S20x128 .f32 :=
  ((v7V).slice (Rect.unit (s := S16384x20x128) (k2_off11 L k 1#32 2#32) S1x20x128.size (k2_off11_inb L k 1 2)) (fun _ => rfl)).squeeze S20x128 squeezes_S1x20x128_S20x128
abbrev oRow1_3 (L : grid2.Coords) (k : Fin k2_t1_loop.trips) : Memref sig .scVector .hbm S20x128 .f32 :=
  ((v7V).slice (Rect.unit (s := S16384x20x128) (k2_off11 L k 1#32 3#32) S1x20x128.size (k2_off11_inb L k 1 3)) (fun _ => rfl)).squeeze S20x128 squeezes_S1x20x128_S20x128
abbrev oRow2_0 (L : grid2.Coords) (k : Fin k2_t1_loop.trips) : Memref sig .scVector .hbm S20x128 .f32 :=
  ((v7V).slice (Rect.unit (s := S16384x20x128) (k2_off11 L k 2#32 0#32) S1x20x128.size (k2_off11_inb L k 2 0)) (fun _ => rfl)).squeeze S20x128 squeezes_S1x20x128_S20x128
abbrev oRow2_1 (L : grid2.Coords) (k : Fin k2_t1_loop.trips) : Memref sig .scVector .hbm S20x128 .f32 :=
  ((v7V).slice (Rect.unit (s := S16384x20x128) (k2_off11 L k 2#32 1#32) S1x20x128.size (k2_off11_inb L k 2 1)) (fun _ => rfl)).squeeze S20x128 squeezes_S1x20x128_S20x128
abbrev oRow2_2 (L : grid2.Coords) (k : Fin k2_t1_loop.trips) : Memref sig .scVector .hbm S20x128 .f32 :=
  ((v7V).slice (Rect.unit (s := S16384x20x128) (k2_off11 L k 2#32 2#32) S1x20x128.size (k2_off11_inb L k 2 2)) (fun _ => rfl)).squeeze S20x128 squeezes_S1x20x128_S20x128
abbrev oRow2_3 (L : grid2.Coords) (k : Fin k2_t1_loop.trips) : Memref sig .scVector .hbm S20x128 .f32 :=
  ((v7V).slice (Rect.unit (s := S16384x20x128) (k2_off11 L k 2#32 3#32) S1x20x128.size (k2_off11_inb L k 2 3)) (fun _ => rfl)).squeeze S20x128 squeezes_S1x20x128_S20x128
abbrev oRow3_0 (L : grid2.Coords) (k : Fin k2_t1_loop.trips) : Memref sig .scVector .hbm S20x128 .f32 :=
  ((v7V).slice (Rect.unit (s := S16384x20x128) (k2_off11 L k 3#32 0#32) S1x20x128.size (k2_off11_inb L k 3 0)) (fun _ => rfl)).squeeze S20x128 squeezes_S1x20x128_S20x128
abbrev oRow3_1 (L : grid2.Coords) (k : Fin k2_t1_loop.trips) : Memref sig .scVector .hbm S20x128 .f32 :=
  ((v7V).slice (Rect.unit (s := S16384x20x128) (k2_off11 L k 3#32 1#32) S1x20x128.size (k2_off11_inb L k 3 1)) (fun _ => rfl)).squeeze S20x128 squeezes_S1x20x128_S20x128
abbrev oRow3_2 (L : grid2.Coords) (k : Fin k2_t1_loop.trips) : Memref sig .scVector .hbm S20x128 .f32 :=
  ((v7V).slice (Rect.unit (s := S16384x20x128) (k2_off11 L k 3#32 2#32) S1x20x128.size (k2_off11_inb L k 3 2)) (fun _ => rfl)).squeeze S20x128 squeezes_S1x20x128_S20x128
abbrev oRow3_3 (L : grid2.Coords) (k : Fin k2_t1_loop.trips) : Memref sig .scVector .hbm S20x128 .f32 :=
  ((v7V).slice (Rect.unit (s := S16384x20x128) (k2_off11 L k 3#32 3#32) S1x20x128.size (k2_off11_inb L k 3 3)) (fun _ => rfl)).squeeze S20x128 squeezes_S1x20x128_S20x128
abbrev oRow4_0 (L : grid2.Coords) (k : Fin k2_t1_loop.trips) : Memref sig .scVector .hbm S20x128 .f32 :=
  ((v7V).slice (Rect.unit (s := S16384x20x128) (k2_off11 L k 4#32 0#32) S1x20x128.size (k2_off11_inb L k 4 0)) (fun _ => rfl)).squeeze S20x128 squeezes_S1x20x128_S20x128
abbrev oRow4_1 (L : grid2.Coords) (k : Fin k2_t1_loop.trips) : Memref sig .scVector .hbm S20x128 .f32 :=
  ((v7V).slice (Rect.unit (s := S16384x20x128) (k2_off11 L k 4#32 1#32) S1x20x128.size (k2_off11_inb L k 4 1)) (fun _ => rfl)).squeeze S20x128 squeezes_S1x20x128_S20x128
abbrev oRow4_2 (L : grid2.Coords) (k : Fin k2_t1_loop.trips) : Memref sig .scVector .hbm S20x128 .f32 :=
  ((v7V).slice (Rect.unit (s := S16384x20x128) (k2_off11 L k 4#32 2#32) S1x20x128.size (k2_off11_inb L k 4 2)) (fun _ => rfl)).squeeze S20x128 squeezes_S1x20x128_S20x128
abbrev oRow4_3 (L : grid2.Coords) (k : Fin k2_t1_loop.trips) : Memref sig .scVector .hbm S20x128 .f32 :=
  ((v7V).slice (Rect.unit (s := S16384x20x128) (k2_off11 L k 4#32 3#32) S1x20x128.size (k2_off11_inb L k 4 3)) (fun _ => rfl)).squeeze S20x128 squeezes_S1x20x128_S20x128
abbrev oRow5_0 (L : grid2.Coords) (k : Fin k2_t1_loop.trips) : Memref sig .scVector .hbm S20x128 .f32 :=
  ((v7V).slice (Rect.unit (s := S16384x20x128) (k2_off11 L k 5#32 0#32) S1x20x128.size (k2_off11_inb L k 5 0)) (fun _ => rfl)).squeeze S20x128 squeezes_S1x20x128_S20x128
abbrev oRow5_1 (L : grid2.Coords) (k : Fin k2_t1_loop.trips) : Memref sig .scVector .hbm S20x128 .f32 :=
  ((v7V).slice (Rect.unit (s := S16384x20x128) (k2_off11 L k 5#32 1#32) S1x20x128.size (k2_off11_inb L k 5 1)) (fun _ => rfl)).squeeze S20x128 squeezes_S1x20x128_S20x128
abbrev oRow5_2 (L : grid2.Coords) (k : Fin k2_t1_loop.trips) : Memref sig .scVector .hbm S20x128 .f32 :=
  ((v7V).slice (Rect.unit (s := S16384x20x128) (k2_off11 L k 5#32 2#32) S1x20x128.size (k2_off11_inb L k 5 2)) (fun _ => rfl)).squeeze S20x128 squeezes_S1x20x128_S20x128
abbrev oRow5_3 (L : grid2.Coords) (k : Fin k2_t1_loop.trips) : Memref sig .scVector .hbm S20x128 .f32 :=
  ((v7V).slice (Rect.unit (s := S16384x20x128) (k2_off11 L k 5#32 3#32) S1x20x128.size (k2_off11_inb L k 5 3)) (fun _ => rfl)).squeeze S20x128 squeezes_S1x20x128_S20x128
abbrev oRow6_0 (L : grid2.Coords) (k : Fin k2_t1_loop.trips) : Memref sig .scVector .hbm S20x128 .f32 :=
  ((v7V).slice (Rect.unit (s := S16384x20x128) (k2_off11 L k 6#32 0#32) S1x20x128.size (k2_off11_inb L k 6 0)) (fun _ => rfl)).squeeze S20x128 squeezes_S1x20x128_S20x128
abbrev oRow6_1 (L : grid2.Coords) (k : Fin k2_t1_loop.trips) : Memref sig .scVector .hbm S20x128 .f32 :=
  ((v7V).slice (Rect.unit (s := S16384x20x128) (k2_off11 L k 6#32 1#32) S1x20x128.size (k2_off11_inb L k 6 1)) (fun _ => rfl)).squeeze S20x128 squeezes_S1x20x128_S20x128
abbrev oRow6_2 (L : grid2.Coords) (k : Fin k2_t1_loop.trips) : Memref sig .scVector .hbm S20x128 .f32 :=
  ((v7V).slice (Rect.unit (s := S16384x20x128) (k2_off11 L k 6#32 2#32) S1x20x128.size (k2_off11_inb L k 6 2)) (fun _ => rfl)).squeeze S20x128 squeezes_S1x20x128_S20x128
abbrev oRow6_3 (L : grid2.Coords) (k : Fin k2_t1_loop.trips) : Memref sig .scVector .hbm S20x128 .f32 :=
  ((v7V).slice (Rect.unit (s := S16384x20x128) (k2_off11 L k 6#32 3#32) S1x20x128.size (k2_off11_inb L k 6 3)) (fun _ => rfl)).squeeze S20x128 squeezes_S1x20x128_S20x128
abbrev oRow7_0 (L : grid2.Coords) (k : Fin k2_t1_loop.trips) : Memref sig .scVector .hbm S20x128 .f32 :=
  ((v7V).slice (Rect.unit (s := S16384x20x128) (k2_off11 L k 7#32 0#32) S1x20x128.size (k2_off11_inb L k 7 0)) (fun _ => rfl)).squeeze S20x128 squeezes_S1x20x128_S20x128
abbrev oRow7_1 (L : grid2.Coords) (k : Fin k2_t1_loop.trips) : Memref sig .scVector .hbm S20x128 .f32 :=
  ((v7V).slice (Rect.unit (s := S16384x20x128) (k2_off11 L k 7#32 1#32) S1x20x128.size (k2_off11_inb L k 7 1)) (fun _ => rfl)).squeeze S20x128 squeezes_S1x20x128_S20x128
abbrev oRow7_2 (L : grid2.Coords) (k : Fin k2_t1_loop.trips) : Memref sig .scVector .hbm S20x128 .f32 :=
  ((v7V).slice (Rect.unit (s := S16384x20x128) (k2_off11 L k 7#32 2#32) S1x20x128.size (k2_off11_inb L k 7 2)) (fun _ => rfl)).squeeze S20x128 squeezes_S1x20x128_S20x128
abbrev oRow7_3 (L : grid2.Coords) (k : Fin k2_t1_loop.trips) : Memref sig .scVector .hbm S20x128 .f32 :=
  ((v7V).slice (Rect.unit (s := S16384x20x128) (k2_off11 L k 7#32 3#32) S1x20x128.size (k2_off11_inb L k 7 3)) (fun _ => rfl)).squeeze S20x128 squeezes_S1x20x128_S20x128

/-! ## Rows of the output array -/

section Geometry

/-- The tile's rows from its `a`-th on; its first `a` rows; its `a`-th row. -/
def rowsFrom (w : Fin 32) (a : ℕ) : Finset S16384x20x128.Idx :=
  Finset.univ.filter fun j => 512 * w.val + a ≤ (j 0).val ∧ (j 0).val < 512 * w.val + 512
def rowsTo (w : Fin 32) (a : ℕ) : Finset S16384x20x128.Idx :=
  Finset.univ.filter fun j => 512 * w.val ≤ (j 0).val ∧ (j 0).val < 512 * w.val + a
def rowAt (w : Fin 32) (a : ℕ) : Finset S16384x20x128.Idx :=
  Finset.univ.filter fun j => (j 0).val = 512 * w.val + a

theorem mem_rowsFrom {w : Fin 32} {a : ℕ} {j : S16384x20x128.Idx} :
    j ∈ rowsFrom w a ↔ 512 * w.val + a ≤ (j 0).val ∧ (j 0).val < 512 * w.val + 512 := by simp [rowsFrom]
theorem mem_rowsTo {w : Fin 32} {a : ℕ} {j : S16384x20x128.Idx} :
    j ∈ rowsTo w a ↔ 512 * w.val ≤ (j 0).val ∧ (j 0).val < 512 * w.val + a := by simp [rowsTo]
theorem mem_rowAt {w : Fin 32} {a : ℕ} {j : S16384x20x128.Idx} :
    j ∈ rowAt w a ↔ (j 0).val = 512 * w.val + a := by simp [rowAt]

theorem rowsFrom_succ (w : Fin 32) {a : ℕ} (ha : a < 512) : rowsFrom w a = rowAt w a ∪ rowsFrom w (a + 1) := by
  ext j; simp only [Finset.mem_union, mem_rowsFrom, mem_rowAt]; omega
theorem rowAt_disj_from (w : Fin 32) (a : ℕ) : Disjoint (rowAt w a) (rowsFrom w (a + 1)) := by
  rw [Finset.disjoint_left]; intro j h1 h2; rw [mem_rowAt] at h1; rw [mem_rowsFrom] at h2; omega
theorem rowsTo_succ (w : Fin 32) (a : ℕ) : rowsTo w (a + 1) = rowsTo w a ∪ rowAt w a := by
  ext j; simp only [Finset.mem_union, mem_rowsTo, mem_rowAt]; omega
theorem rowsTo_disj_at (w : Fin 32) (a : ℕ) : Disjoint (rowsTo w a) (rowAt w a) := by
  rw [Finset.disjoint_left]; intro j h1 h2; rw [mem_rowAt] at h2; rw [mem_rowsTo] at h1; omega
theorem rowsTo_zero (w : Fin 32) : rowsTo w 0 = ∅ := by
  ext j; simp only [mem_rowsTo, Finset.notMem_empty, iff_false]; omega
theorem rowsFrom_end (w : Fin 32) : rowsFrom w 512 = ∅ := by
  ext j; simp only [mem_rowsFrom, Finset.notMem_empty, iff_false]; omega
theorem rowsTo_end (w : Fin 32) : rowsTo w 512 = rowsFrom w 0 := by
  ext j; simp only [mem_rowsTo, mem_rowsFrom]; omega

/-- A unit rectangle of whole rows of the output, by its first row and row count. -/
theorem mem_unit_rows {off size : Fin 3 → ℕ} {inb : ∀ a, off a + size a ≤ S16384x20x128.size a} {A n : ℕ}
    (hoff : off = ![A, 0, 0]) (hsz : size = ![n, 20, 128]) (j : S16384x20x128.Idx) :
    j ∈ (Rect.unit (s := S16384x20x128) off size inb).set ↔ A ≤ (j 0).val ∧ (j 0).val < A + n := by
  subst hoff hsz
  rw [Rect.mem_set_unit]
  constructor
  · intro h; exact h 0
  · intro h a
    have h1 : (j 1).val < 20 := (j 1).isLt
    have h2 : (j 2).val < 128 := (j 2).isLt
    fin_cases a
    · exact h
    · show 0 ≤ (j 1).val ∧ (j 1).val < 0 + 20; omega
    · show 0 ≤ (j 2).val ∧ (j 2).val < 0 + 128; omega

theorem outRows_eq (w : Fin 32) : outRows w = rowsFrom w 0 := by
  ext j
  rw [mem_rowsFrom]
  show j ∈ ((View.whole main_v7_scv).slice (outRect w)).set ↔ _
  rw [View.set_slice_whole]
  refine (mem_unit_rows (A := 512 * w.val) (n := 512) ?_ ?_ j).trans ?_
  · funext a; fin_cases a <;> simp [Shape.partIx, Shape.partSize] <;> omega
  · funext a; fin_cases a <;> simp [Shape.partSize]
  · omega

/-- One batch element's rows of the output as a squeezed slice: its elements are the tile's row. -/
theorem set_oRow (w : Fin 32) (n : ℕ) (off : Fin 3 → ℕ) (inb : ∀ a, off a + S1x20x128.size a ≤ S16384x20x128.size a)
    (hoff : off = ![512 * w.val + n, 0, 0]) :
    (((v7V).slice (Rect.unit (s := S16384x20x128) off S1x20x128.size inb) (fun _ => rfl)).squeeze S20x128 squeezes_S1x20x128_S20x128).view.set
      = rowAt w n := by
  show (((View.whole main_v7_scv).slice (Rect.unit (s := S16384x20x128) off S1x20x128.size inb)).reshape S20x128 squeezes_S1x20x128_S20x128.numel_eq).set = _
  rw [View.set_reshape, View.set_slice_whole]
  ext j
  rw [mem_rowAt, mem_unit_rows hoff rfl j]
  omega

end Geometry

/-! ## The tile's own semaphores and buffers -/

section Own

variable (d : Dev nD) (L : grid2.Coords)

abbrev cellV (s : DmaSem sig) : GSem nD τ sig := (thrV d L, .dma s)

theorem cellV_ne {a b : DmaSem sig} (h : a ≠ b) : cellV d L a ≠ cellV d L b :=
  fun e => h (SemLoc.dma.inj (Prod.mk.inj e).2)

/-- The seventeen DMA semaphores of the kernel are among the subcore's own cells: they, at zero, and the rest. -/
theorem ownSems0_V :
    (ownSems0 (thrV d L) : sProp 𝕄)
      = iprop(semVal (cellV d L cc2_scratch9.sem) 0
          ∗ semVal (cellV d L cc2_scratch10.sem) 0
          ∗ semVal (cellV d L cc2_scratch11.sem) 0
          ∗ semVal (cellV d L cc2_scratch12.sem) 0
          ∗ semVal (cellV d L cc2_scratch13.sem) 0
          ∗ semVal (cellV d L cc2_scratch14.sem) 0
          ∗ semVal (cellV d L cc2_scratch15.sem) 0
          ∗ semVal (cellV d L cc2_scratch16.sem) 0
          ∗ semVal (cellV d L cc2_scratch17.sem) 0
          ∗ semVal (cellV d L cc2_scratch18.sem) 0
          ∗ semVal (cellV d L cc2_scratch19.sem) 0
          ∗ semVal (cellV d L cc2_scratch20.sem) 0
          ∗ semVal (cellV d L cc2_scratch21.sem) 0
          ∗ semVal (cellV d L cc2_scratch22.sem) 0
          ∗ semVal (cellV d L cc2_scratch23.sem) 0
          ∗ semVal (cellV d L cc2_scratch24.sem) 0
          ∗ semVal (cellV d L cc2_scoped0.sem) 0
          ∗ bigSep ((((((((((((((((((ownCells (thrV d L)).erase (cellV d L cc2_scratch9.sem)).erase (cellV d L cc2_scratch10.sem)).erase (cellV d L cc2_scratch11.sem)).erase (cellV d L cc2_scratch12.sem)).erase (cellV d L cc2_scratch13.sem)).erase (cellV d L cc2_scratch14.sem)).erase (cellV d L cc2_scratch15.sem)).erase (cellV d L cc2_scratch16.sem)).erase (cellV d L cc2_scratch17.sem)).erase (cellV d L cc2_scratch18.sem)).erase (cellV d L cc2_scratch19.sem)).erase (cellV d L cc2_scratch20.sem)).erase (cellV d L cc2_scratch21.sem)).erase (cellV d L cc2_scratch22.sem)).erase (cellV d L cc2_scratch23.sem)).erase (cellV d L cc2_scratch24.sem)).erase (cellV d L cc2_scoped0.sem)) fun g => semVal g 0) := by
  unfold SparseCore.Cfg.ownSems0
  rw [SparseCore.bigSep_erase' ((mem_ownCells (g := cellV d L cc2_scratch9.sem)).mpr ⟨rfl, by show (SemLoc.dma cc2_scratch9.sem : SemLoc sig).isScoped .scVector = true; decide⟩),
    SparseCore.bigSep_erase' (Finset.mem_erase.mpr ⟨cellV_ne d L (show cc2_scratch10.sem ≠ cc2_scratch9.sem by decide), (mem_ownCells (g := cellV d L cc2_scratch10.sem)).mpr ⟨rfl, by show (SemLoc.dma cc2_scratch10.sem : SemLoc sig).isScoped .scVector = true; decide⟩⟩),
    SparseCore.bigSep_erase' (Finset.mem_erase.mpr ⟨cellV_ne d L (show cc2_scratch11.sem ≠ cc2_scratch10.sem by decide), Finset.mem_erase.mpr ⟨cellV_ne d L (show cc2_scratch11.sem ≠ cc2_scratch9.sem by decide), (mem_ownCells (g := cellV d L cc2_scratch11.sem)).mpr ⟨rfl, by show (SemLoc.dma cc2_scratch11.sem : SemLoc sig).isScoped .scVector = true; decide⟩⟩⟩),
    SparseCore.bigSep_erase' (Finset.mem_erase.mpr ⟨cellV_ne d L (show cc2_scratch12.sem ≠ cc2_scratch11.sem by decide), Finset.mem_erase.mpr ⟨cellV_ne d L (show cc2_scratch12.sem ≠ cc2_scratch10.sem by decide), Finset.mem_erase.mpr ⟨cellV_ne d L (show cc2_scratch12.sem ≠ cc2_scratch9.sem by decide), (mem_ownCells (g := cellV d L cc2_scratch12.sem)).mpr ⟨rfl, by show (SemLoc.dma cc2_scratch12.sem : SemLoc sig).isScoped .scVector = true; decide⟩⟩⟩⟩),
    SparseCore.bigSep_erase' (Finset.mem_erase.mpr ⟨cellV_ne d L (show cc2_scratch13.sem ≠ cc2_scratch12.sem by decide), Finset.mem_erase.mpr ⟨cellV_ne d L (show cc2_scratch13.sem ≠ cc2_scratch11.sem by decide), Finset.mem_erase.mpr ⟨cellV_ne d L (show cc2_scratch13.sem ≠ cc2_scratch10.sem by decide), Finset.mem_erase.mpr ⟨cellV_ne d L (show cc2_scratch13.sem ≠ cc2_scratch9.sem by decide), (mem_ownCells (g := cellV d L cc2_scratch13.sem)).mpr ⟨rfl, by show (SemLoc.dma cc2_scratch13.sem : SemLoc sig).isScoped .scVector = true; decide⟩⟩⟩⟩⟩),
    SparseCore.bigSep_erase' (Finset.mem_erase.mpr ⟨cellV_ne d L (show cc2_scratch14.sem ≠ cc2_scratch13.sem by decide), Finset.mem_erase.mpr ⟨cellV_ne d L (show cc2_scratch14.sem ≠ cc2_scratch12.sem by decide), Finset.mem_erase.mpr ⟨cellV_ne d L (show cc2_scratch14.sem ≠ cc2_scratch11.sem by decide), Finset.mem_erase.mpr ⟨cellV_ne d L (show cc2_scratch14.sem ≠ cc2_scratch10.sem by decide), Finset.mem_erase.mpr ⟨cellV_ne d L (show cc2_scratch14.sem ≠ cc2_scratch9.sem by decide), (mem_ownCells (g := cellV d L cc2_scratch14.sem)).mpr ⟨rfl, by show (SemLoc.dma cc2_scratch14.sem : SemLoc sig).isScoped .scVector = true; decide⟩⟩⟩⟩⟩⟩),
    SparseCore.bigSep_erase' (Finset.mem_erase.mpr ⟨cellV_ne d L (show cc2_scratch15.sem ≠ cc2_scratch14.sem by decide), Finset.mem_erase.mpr ⟨cellV_ne d L (show cc2_scratch15.sem ≠ cc2_scratch13.sem by decide), Finset.mem_erase.mpr ⟨cellV_ne d L (show cc2_scratch15.sem ≠ cc2_scratch12.sem by decide), Finset.mem_erase.mpr ⟨cellV_ne d L (show cc2_scratch15.sem ≠ cc2_scratch11.sem by decide), Finset.mem_erase.mpr ⟨cellV_ne d L (show cc2_scratch15.sem ≠ cc2_scratch10.sem by decide), Finset.mem_erase.mpr ⟨cellV_ne d L (show cc2_scratch15.sem ≠ cc2_scratch9.sem by decide), (mem_ownCells (g := cellV d L cc2_scratch15.sem)).mpr ⟨rfl, by show (SemLoc.dma cc2_scratch15.sem : SemLoc sig).isScoped .scVector = true; decide⟩⟩⟩⟩⟩⟩⟩),
    SparseCore.bigSep_erase' (Finset.mem_erase.mpr ⟨cellV_ne d L (show cc2_scratch16.sem ≠ cc2_scratch15.sem by decide), Finset.mem_erase.mpr ⟨cellV_ne d L (show cc2_scratch16.sem ≠ cc2_scratch14.sem by decide), Finset.mem_erase.mpr ⟨cellV_ne d L (show cc2_scratch16.sem ≠ cc2_scratch13.sem by decide), Finset.mem_erase.mpr ⟨cellV_ne d L (show cc2_scratch16.sem ≠ cc2_scratch12.sem by decide), Finset.mem_erase.mpr ⟨cellV_ne d L (show cc2_scratch16.sem ≠ cc2_scratch11.sem by decide), Finset.mem_erase.mpr ⟨cellV_ne d L (show cc2_scratch16.sem ≠ cc2_scratch10.sem by decide), Finset.mem_erase.mpr ⟨cellV_ne d L (show cc2_scratch16.sem ≠ cc2_scratch9.sem by decide), (mem_ownCells (g := cellV d L cc2_scratch16.sem)).mpr ⟨rfl, by show (SemLoc.dma cc2_scratch16.sem : SemLoc sig).isScoped .scVector = true; decide⟩⟩⟩⟩⟩⟩⟩⟩),
    SparseCore.bigSep_erase' (Finset.mem_erase.mpr ⟨cellV_ne d L (show cc2_scratch17.sem ≠ cc2_scratch16.sem by decide), Finset.mem_erase.mpr ⟨cellV_ne d L (show cc2_scratch17.sem ≠ cc2_scratch15.sem by decide), Finset.mem_erase.mpr ⟨cellV_ne d L (show cc2_scratch17.sem ≠ cc2_scratch14.sem by decide), Finset.mem_erase.mpr ⟨cellV_ne d L (show cc2_scratch17.sem ≠ cc2_scratch13.sem by decide), Finset.mem_erase.mpr ⟨cellV_ne d L (show cc2_scratch17.sem ≠ cc2_scratch12.sem by decide), Finset.mem_erase.mpr ⟨cellV_ne d L (show cc2_scratch17.sem ≠ cc2_scratch11.sem by decide), Finset.mem_erase.mpr ⟨cellV_ne d L (show cc2_scratch17.sem ≠ cc2_scratch10.sem by decide), Finset.mem_erase.mpr ⟨cellV_ne d L (show cc2_scratch17.sem ≠ cc2_scratch9.sem by decide), (mem_ownCells (g := cellV d L cc2_scratch17.sem)).mpr ⟨rfl, by show (SemLoc.dma cc2_scratch17.sem : SemLoc sig).isScoped .scVector = true; decide⟩⟩⟩⟩⟩⟩⟩⟩⟩),
    SparseCore.bigSep_erase' (Finset.mem_erase.mpr ⟨cellV_ne d L (show cc2_scratch18.sem ≠ cc2_scratch17.sem by decide), Finset.mem_erase.mpr ⟨cellV_ne d L (show cc2_scratch18.sem ≠ cc2_scratch16.sem by decide), Finset.mem_erase.mpr ⟨cellV_ne d L (show cc2_scratch18.sem ≠ cc2_scratch15.sem by decide), Finset.mem_erase.mpr ⟨cellV_ne d L (show cc2_scratch18.sem ≠ cc2_scratch14.sem by decide), Finset.mem_erase.mpr ⟨cellV_ne d L (show cc2_scratch18.sem ≠ cc2_scratch13.sem by decide), Finset.mem_erase.mpr ⟨cellV_ne d L (show cc2_scratch18.sem ≠ cc2_scratch12.sem by decide), Finset.mem_erase.mpr ⟨cellV_ne d L (show cc2_scratch18.sem ≠ cc2_scratch11.sem by decide), Finset.mem_erase.mpr ⟨cellV_ne d L (show cc2_scratch18.sem ≠ cc2_scratch10.sem by decide), Finset.mem_erase.mpr ⟨cellV_ne d L (show cc2_scratch18.sem ≠ cc2_scratch9.sem by decide), (mem_ownCells (g := cellV d L cc2_scratch18.sem)).mpr ⟨rfl, by show (SemLoc.dma cc2_scratch18.sem : SemLoc sig).isScoped .scVector = true; decide⟩⟩⟩⟩⟩⟩⟩⟩⟩⟩),
    SparseCore.bigSep_erase' (Finset.mem_erase.mpr ⟨cellV_ne d L (show cc2_scratch19.sem ≠ cc2_scratch18.sem by decide), Finset.mem_erase.mpr ⟨cellV_ne d L (show cc2_scratch19.sem ≠ cc2_scratch17.sem by decide), Finset.mem_erase.mpr ⟨cellV_ne d L (show cc2_scratch19.sem ≠ cc2_scratch16.sem by decide), Finset.mem_erase.mpr ⟨cellV_ne d L (show cc2_scratch19.sem ≠ cc2_scratch15.sem by decide), Finset.mem_erase.mpr ⟨cellV_ne d L (show cc2_scratch19.sem ≠ cc2_scratch14.sem by decide), Finset.mem_erase.mpr ⟨cellV_ne d L (show cc2_scratch19.sem ≠ cc2_scratch13.sem by decide), Finset.mem_erase.mpr ⟨cellV_ne d L (show cc2_scratch19.sem ≠ cc2_scratch12.sem by decide), Finset.mem_erase.mpr ⟨cellV_ne d L (show cc2_scratch19.sem ≠ cc2_scratch11.sem by decide), Finset.mem_erase.mpr ⟨cellV_ne d L (show cc2_scratch19.sem ≠ cc2_scratch10.sem by decide), Finset.mem_erase.mpr ⟨cellV_ne d L (show cc2_scratch19.sem ≠ cc2_scratch9.sem by decide), (mem_ownCells (g := cellV d L cc2_scratch19.sem)).mpr ⟨rfl, by show (SemLoc.dma cc2_scratch19.sem : SemLoc sig).isScoped .scVector = true; decide⟩⟩⟩⟩⟩⟩⟩⟩⟩⟩⟩),
    SparseCore.bigSep_erase' (Finset.mem_erase.mpr ⟨cellV_ne d L (show cc2_scratch20.sem ≠ cc2_scratch19.sem by decide), Finset.mem_erase.mpr ⟨cellV_ne d L (show cc2_scratch20.sem ≠ cc2_scratch18.sem by decide), Finset.mem_erase.mpr ⟨cellV_ne d L (show cc2_scratch20.sem ≠ cc2_scratch17.sem by decide), Finset.mem_erase.mpr ⟨cellV_ne d L (show cc2_scratch20.sem ≠ cc2_scratch16.sem by decide), Finset.mem_erase.mpr ⟨cellV_ne d L (show cc2_scratch20.sem ≠ cc2_scratch15.sem by decide), Finset.mem_erase.mpr ⟨cellV_ne d L (show cc2_scratch20.sem ≠ cc2_scratch14.sem by decide), Finset.mem_erase.mpr ⟨cellV_ne d L (show cc2_scratch20.sem ≠ cc2_scratch13.sem by decide), Finset.mem_erase.mpr ⟨cellV_ne d L (show cc2_scratch20.sem ≠ cc2_scratch12.sem by decide), Finset.mem_erase.mpr ⟨cellV_ne d L (show cc2_scratch20.sem ≠ cc2_scratch11.sem by decide), Finset.mem_erase.mpr ⟨cellV_ne d L (show cc2_scratch20.sem ≠ cc2_scratch10.sem by decide), Finset.mem_erase.mpr ⟨cellV_ne d L (show cc2_scratch20.sem ≠ cc2_scratch9.sem by decide), (mem_ownCells (g := cellV d L cc2_scratch20.sem)).mpr ⟨rfl, by show (SemLoc.dma cc2_scratch20.sem : SemLoc sig).isScoped .scVector = true; decide⟩⟩⟩⟩⟩⟩⟩⟩⟩⟩⟩⟩),
    SparseCore.bigSep_erase' (Finset.mem_erase.mpr ⟨cellV_ne d L (show cc2_scratch21.sem ≠ cc2_scratch20.sem by decide), Finset.mem_erase.mpr ⟨cellV_ne d L (show cc2_scratch21.sem ≠ cc2_scratch19.sem by decide), Finset.mem_erase.mpr ⟨cellV_ne d L (show cc2_scratch21.sem ≠ cc2_scratch18.sem by decide), Finset.mem_erase.mpr ⟨cellV_ne d L (show cc2_scratch21.sem ≠ cc2_scratch17.sem by decide), Finset.mem_erase.mpr ⟨cellV_ne d L (show cc2_scratch21.sem ≠ cc2_scratch16.sem by decide), Finset.mem_erase.mpr ⟨cellV_ne d L (show cc2_scratch21.sem ≠ cc2_scratch15.sem by decide), Finset.mem_erase.mpr ⟨cellV_ne d L (show cc2_scratch21.sem ≠ cc2_scratch14.sem by decide), Finset.mem_erase.mpr ⟨cellV_ne d L (show cc2_scratch21.sem ≠ cc2_scratch13.sem by decide), Finset.mem_erase.mpr ⟨cellV_ne d L (show cc2_scratch21.sem ≠ cc2_scratch12.sem by decide), Finset.mem_erase.mpr ⟨cellV_ne d L (show cc2_scratch21.sem ≠ cc2_scratch11.sem by decide), Finset.mem_erase.mpr ⟨cellV_ne d L (show cc2_scratch21.sem ≠ cc2_scratch10.sem by decide), Finset.mem_erase.mpr ⟨cellV_ne d L (show cc2_scratch21.sem ≠ cc2_scratch9.sem by decide), (mem_ownCells (g := cellV d L cc2_scratch21.sem)).mpr ⟨rfl, by show (SemLoc.dma cc2_scratch21.sem : SemLoc sig).isScoped .scVector = true; decide⟩⟩⟩⟩⟩⟩⟩⟩⟩⟩⟩⟩⟩),
    SparseCore.bigSep_erase' (Finset.mem_erase.mpr ⟨cellV_ne d L (show cc2_scratch22.sem ≠ cc2_scratch21.sem by decide), Finset.mem_erase.mpr ⟨cellV_ne d L (show cc2_scratch22.sem ≠ cc2_scratch20.sem by decide), Finset.mem_erase.mpr ⟨cellV_ne d L (show cc2_scratch22.sem ≠ cc2_scratch19.sem by decide), Finset.mem_erase.mpr ⟨cellV_ne d L (show cc2_scratch22.sem ≠ cc2_scratch18.sem by decide), Finset.mem_erase.mpr ⟨cellV_ne d L (show cc2_scratch22.sem ≠ cc2_scratch17.sem by decide), Finset.mem_erase.mpr ⟨cellV_ne d L (show cc2_scratch22.sem ≠ cc2_scratch16.sem by decide), Finset.mem_erase.mpr ⟨cellV_ne d L (show cc2_scratch22.sem ≠ cc2_scratch15.sem by decide), Finset.mem_erase.mpr ⟨cellV_ne d L (show cc2_scratch22.sem ≠ cc2_scratch14.sem by decide), Finset.mem_erase.mpr ⟨cellV_ne d L (show cc2_scratch22.sem ≠ cc2_scratch13.sem by decide), Finset.mem_erase.mpr ⟨cellV_ne d L (show cc2_scratch22.sem ≠ cc2_scratch12.sem by decide), Finset.mem_erase.mpr ⟨cellV_ne d L (show cc2_scratch22.sem ≠ cc2_scratch11.sem by decide), Finset.mem_erase.mpr ⟨cellV_ne d L (show cc2_scratch22.sem ≠ cc2_scratch10.sem by decide), Finset.mem_erase.mpr ⟨cellV_ne d L (show cc2_scratch22.sem ≠ cc2_scratch9.sem by decide), (mem_ownCells (g := cellV d L cc2_scratch22.sem)).mpr ⟨rfl, by show (SemLoc.dma cc2_scratch22.sem : SemLoc sig).isScoped .scVector = true; decide⟩⟩⟩⟩⟩⟩⟩⟩⟩⟩⟩⟩⟩⟩),
    SparseCore.bigSep_erase' (Finset.mem_erase.mpr ⟨cellV_ne d L (show cc2_scratch23.sem ≠ cc2_scratch22.sem by decide), Finset.mem_erase.mpr ⟨cellV_ne d L (show cc2_scratch23.sem ≠ cc2_scratch21.sem by decide), Finset.mem_erase.mpr ⟨cellV_ne d L (show cc2_scratch23.sem ≠ cc2_scratch20.sem by decide), Finset.mem_erase.mpr ⟨cellV_ne d L (show cc2_scratch23.sem ≠ cc2_scratch19.sem by decide), Finset.mem_erase.mpr ⟨cellV_ne d L (show cc2_scratch23.sem ≠ cc2_scratch18.sem by decide), Finset.mem_erase.mpr ⟨cellV_ne d L (show cc2_scratch23.sem ≠ cc2_scratch17.sem by decide), Finset.mem_erase.mpr ⟨cellV_ne d L (show cc2_scratch23.sem ≠ cc2_scratch16.sem by decide), Finset.mem_erase.mpr ⟨cellV_ne d L (show cc2_scratch23.sem ≠ cc2_scratch15.sem by decide), Finset.mem_erase.mpr ⟨cellV_ne d L (show cc2_scratch23.sem ≠ cc2_scratch14.sem by decide), Finset.mem_erase.mpr ⟨cellV_ne d L (show cc2_scratch23.sem ≠ cc2_scratch13.sem by decide), Finset.mem_erase.mpr ⟨cellV_ne d L (show cc2_scratch23.sem ≠ cc2_scratch12.sem by decide), Finset.mem_erase.mpr ⟨cellV_ne d L (show cc2_scratch23.sem ≠ cc2_scratch11.sem by decide), Finset.mem_erase.mpr ⟨cellV_ne d L (show cc2_scratch23.sem ≠ cc2_scratch10.sem by decide), Finset.mem_erase.mpr ⟨cellV_ne d L (show cc2_scratch23.sem ≠ cc2_scratch9.sem by decide), (mem_ownCells (g := cellV d L cc2_scratch23.sem)).mpr ⟨rfl, by show (SemLoc.dma cc2_scratch23.sem : SemLoc sig).isScoped .scVector = true; decide⟩⟩⟩⟩⟩⟩⟩⟩⟩⟩⟩⟩⟩⟩⟩),
    SparseCore.bigSep_erase' (Finset.mem_erase.mpr ⟨cellV_ne d L (show cc2_scratch24.sem ≠ cc2_scratch23.sem by decide), Finset.mem_erase.mpr ⟨cellV_ne d L (show cc2_scratch24.sem ≠ cc2_scratch22.sem by decide), Finset.mem_erase.mpr ⟨cellV_ne d L (show cc2_scratch24.sem ≠ cc2_scratch21.sem by decide), Finset.mem_erase.mpr ⟨cellV_ne d L (show cc2_scratch24.sem ≠ cc2_scratch20.sem by decide), Finset.mem_erase.mpr ⟨cellV_ne d L (show cc2_scratch24.sem ≠ cc2_scratch19.sem by decide), Finset.mem_erase.mpr ⟨cellV_ne d L (show cc2_scratch24.sem ≠ cc2_scratch18.sem by decide), Finset.mem_erase.mpr ⟨cellV_ne d L (show cc2_scratch24.sem ≠ cc2_scratch17.sem by decide), Finset.mem_erase.mpr ⟨cellV_ne d L (show cc2_scratch24.sem ≠ cc2_scratch16.sem by decide), Finset.mem_erase.mpr ⟨cellV_ne d L (show cc2_scratch24.sem ≠ cc2_scratch15.sem by decide), Finset.mem_erase.mpr ⟨cellV_ne d L (show cc2_scratch24.sem ≠ cc2_scratch14.sem by decide), Finset.mem_erase.mpr ⟨cellV_ne d L (show cc2_scratch24.sem ≠ cc2_scratch13.sem by decide), Finset.mem_erase.mpr ⟨cellV_ne d L (show cc2_scratch24.sem ≠ cc2_scratch12.sem by decide), Finset.mem_erase.mpr ⟨cellV_ne d L (show cc2_scratch24.sem ≠ cc2_scratch11.sem by decide), Finset.mem_erase.mpr ⟨cellV_ne d L (show cc2_scratch24.sem ≠ cc2_scratch10.sem by decide), Finset.mem_erase.mpr ⟨cellV_ne d L (show cc2_scratch24.sem ≠ cc2_scratch9.sem by decide), (mem_ownCells (g := cellV d L cc2_scratch24.sem)).mpr ⟨rfl, by show (SemLoc.dma cc2_scratch24.sem : SemLoc sig).isScoped .scVector = true; decide⟩⟩⟩⟩⟩⟩⟩⟩⟩⟩⟩⟩⟩⟩⟩⟩),
    SparseCore.bigSep_erase' (Finset.mem_erase.mpr ⟨cellV_ne d L (show cc2_scoped0.sem ≠ cc2_scratch24.sem by decide), Finset.mem_erase.mpr ⟨cellV_ne d L (show cc2_scoped0.sem ≠ cc2_scratch23.sem by decide), Finset.mem_erase.mpr ⟨cellV_ne d L (show cc2_scoped0.sem ≠ cc2_scratch22.sem by decide), Finset.mem_erase.mpr ⟨cellV_ne d L (show cc2_scoped0.sem ≠ cc2_scratch21.sem by decide), Finset.mem_erase.mpr ⟨cellV_ne d L (show cc2_scoped0.sem ≠ cc2_scratch20.sem by decide), Finset.mem_erase.mpr ⟨cellV_ne d L (show cc2_scoped0.sem ≠ cc2_scratch19.sem by decide), Finset.mem_erase.mpr ⟨cellV_ne d L (show cc2_scoped0.sem ≠ cc2_scratch18.sem by decide), Finset.mem_erase.mpr ⟨cellV_ne d L (show cc2_scoped0.sem ≠ cc2_scratch17.sem by decide), Finset.mem_erase.mpr ⟨cellV_ne d L (show cc2_scoped0.sem ≠ cc2_scratch16.sem by decide), Finset.mem_erase.mpr ⟨cellV_ne d L (show cc2_scoped0.sem ≠ cc2_scratch15.sem by decide), Finset.mem_erase.mpr ⟨cellV_ne d L (show cc2_scoped0.sem ≠ cc2_scratch14.sem by decide), Finset.mem_erase.mpr ⟨cellV_ne d L (show cc2_scoped0.sem ≠ cc2_scratch13.sem by decide), Finset.mem_erase.mpr ⟨cellV_ne d L (show cc2_scoped0.sem ≠ cc2_scratch12.sem by decide), Finset.mem_erase.mpr ⟨cellV_ne d L (show cc2_scoped0.sem ≠ cc2_scratch11.sem by decide), Finset.mem_erase.mpr ⟨cellV_ne d L (show cc2_scoped0.sem ≠ cc2_scratch10.sem by decide), Finset.mem_erase.mpr ⟨cellV_ne d L (show cc2_scoped0.sem ≠ cc2_scratch9.sem by decide), (mem_ownCells (g := cellV d L cc2_scoped0.sem)).mpr ⟨rfl, by show (SemLoc.dma cc2_scoped0.sem : SemLoc sig).isScoped .scVector = true; decide⟩⟩⟩⟩⟩⟩⟩⟩⟩⟩⟩⟩⟩⟩⟩⟩⟩)]

/-- The nine scratch buffers are among the subcore's own: they, each at some contents, and the rest. -/
theorem ownBufs_V :
    (ownBufs (thrV d L) : sProp 𝕄)
      = iprop((∃ f, (thrV d L).loc cc2_scratch0 ↦{fullShare} f)
          ∗ (∃ f, (thrV d L).loc cc2_scratch1 ↦{fullShare} f)
          ∗ (∃ f, (thrV d L).loc cc2_scratch2 ↦{fullShare} f)
          ∗ (∃ f, (thrV d L).loc cc2_scratch3 ↦{fullShare} f)
          ∗ (∃ f, (thrV d L).loc cc2_scratch4 ↦{fullShare} f)
          ∗ (∃ f, (thrV d L).loc cc2_scratch5 ↦{fullShare} f)
          ∗ (∃ f, (thrV d L).loc cc2_scratch6 ↦{fullShare} f)
          ∗ (∃ f, (thrV d L).loc cc2_scratch7 ↦{fullShare} f)
          ∗ (∃ f, (thrV d L).loc cc2_scratch8 ↦{fullShare} f)
          ∗ bigSep ((((((((((ownRefs (τ := τ) (.scVector (cV L) (jV L))).erase ((Proc.scVector (cV L) (jV L)).devRef cc2_scratch0)).erase ((Proc.scVector (cV L) (jV L)).devRef cc2_scratch1)).erase ((Proc.scVector (cV L) (jV L)).devRef cc2_scratch2)).erase ((Proc.scVector (cV L) (jV L)).devRef cc2_scratch3)).erase ((Proc.scVector (cV L) (jV L)).devRef cc2_scratch4)).erase ((Proc.scVector (cV L) (jV L)).devRef cc2_scratch5)).erase ((Proc.scVector (cV L) (jV L)).devRef cc2_scratch6)).erase ((Proc.scVector (cV L) (jV L)).devRef cc2_scratch7)).erase ((Proc.scVector (cV L) (jV L)).devRef cc2_scratch8))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc2_scratch0) rfl),
    SparseCore.bigSep_erase' (Finset.mem_erase.mpr ⟨fun e => absurd (Proc.devRef_injective _ e) (show (cc2_scratch1 : Ref sig .scVector) ≠ cc2_scratch0 by decide), SparseCore.Cfg.mem_ownRefs_of_owner (p := Proc.scVector (cV L) (jV L)) (b := (Proc.scVector (cV L) (jV L)).devRef cc2_scratch1) rfl⟩),
    SparseCore.bigSep_erase' (Finset.mem_erase.mpr ⟨fun e => absurd (Proc.devRef_injective _ e) (show (cc2_scratch2 : Ref sig .scVector) ≠ cc2_scratch1 by decide), Finset.mem_erase.mpr ⟨fun e => absurd (Proc.devRef_injective _ e) (show (cc2_scratch2 : Ref sig .scVector) ≠ cc2_scratch0 by decide), SparseCore.Cfg.mem_ownRefs_of_owner (p := Proc.scVector (cV L) (jV L)) (b := (Proc.scVector (cV L) (jV L)).devRef cc2_scratch2) rfl⟩⟩),
    SparseCore.bigSep_erase' (Finset.mem_erase.mpr ⟨fun e => absurd (Proc.devRef_injective _ e) (show (cc2_scratch3 : Ref sig .scVector) ≠ cc2_scratch2 by decide), Finset.mem_erase.mpr ⟨fun e => absurd (Proc.devRef_injective _ e) (show (cc2_scratch3 : Ref sig .scVector) ≠ cc2_scratch1 by decide), Finset.mem_erase.mpr ⟨fun e => absurd (Proc.devRef_injective _ e) (show (cc2_scratch3 : Ref sig .scVector) ≠ cc2_scratch0 by decide), SparseCore.Cfg.mem_ownRefs_of_owner (p := Proc.scVector (cV L) (jV L)) (b := (Proc.scVector (cV L) (jV L)).devRef cc2_scratch3) rfl⟩⟩⟩),
    SparseCore.bigSep_erase' (Finset.mem_erase.mpr ⟨fun e => absurd (Proc.devRef_injective _ e) (show (cc2_scratch4 : Ref sig .scVector) ≠ cc2_scratch3 by decide), Finset.mem_erase.mpr ⟨fun e => absurd (Proc.devRef_injective _ e) (show (cc2_scratch4 : Ref sig .scVector) ≠ cc2_scratch2 by decide), Finset.mem_erase.mpr ⟨fun e => absurd (Proc.devRef_injective _ e) (show (cc2_scratch4 : Ref sig .scVector) ≠ cc2_scratch1 by decide), Finset.mem_erase.mpr ⟨fun e => absurd (Proc.devRef_injective _ e) (show (cc2_scratch4 : Ref sig .scVector) ≠ cc2_scratch0 by decide), SparseCore.Cfg.mem_ownRefs_of_owner (p := Proc.scVector (cV L) (jV L)) (b := (Proc.scVector (cV L) (jV L)).devRef cc2_scratch4) rfl⟩⟩⟩⟩),
    SparseCore.bigSep_erase' (Finset.mem_erase.mpr ⟨fun e => absurd (Proc.devRef_injective _ e) (show (cc2_scratch5 : Ref sig .scVector) ≠ cc2_scratch4 by decide), Finset.mem_erase.mpr ⟨fun e => absurd (Proc.devRef_injective _ e) (show (cc2_scratch5 : Ref sig .scVector) ≠ cc2_scratch3 by decide), Finset.mem_erase.mpr ⟨fun e => absurd (Proc.devRef_injective _ e) (show (cc2_scratch5 : Ref sig .scVector) ≠ cc2_scratch2 by decide), Finset.mem_erase.mpr ⟨fun e => absurd (Proc.devRef_injective _ e) (show (cc2_scratch5 : Ref sig .scVector) ≠ cc2_scratch1 by decide), Finset.mem_erase.mpr ⟨fun e => absurd (Proc.devRef_injective _ e) (show (cc2_scratch5 : Ref sig .scVector) ≠ cc2_scratch0 by decide), SparseCore.Cfg.mem_ownRefs_of_owner (p := Proc.scVector (cV L) (jV L)) (b := (Proc.scVector (cV L) (jV L)).devRef cc2_scratch5) rfl⟩⟩⟩⟩⟩),
    SparseCore.bigSep_erase' (Finset.mem_erase.mpr ⟨fun e => absurd (Proc.devRef_injective _ e) (show (cc2_scratch6 : Ref sig .scVector) ≠ cc2_scratch5 by decide), Finset.mem_erase.mpr ⟨fun e => absurd (Proc.devRef_injective _ e) (show (cc2_scratch6 : Ref sig .scVector) ≠ cc2_scratch4 by decide), Finset.mem_erase.mpr ⟨fun e => absurd (Proc.devRef_injective _ e) (show (cc2_scratch6 : Ref sig .scVector) ≠ cc2_scratch3 by decide), Finset.mem_erase.mpr ⟨fun e => absurd (Proc.devRef_injective _ e) (show (cc2_scratch6 : Ref sig .scVector) ≠ cc2_scratch2 by decide), Finset.mem_erase.mpr ⟨fun e => absurd (Proc.devRef_injective _ e) (show (cc2_scratch6 : Ref sig .scVector) ≠ cc2_scratch1 by decide), Finset.mem_erase.mpr ⟨fun e => absurd (Proc.devRef_injective _ e) (show (cc2_scratch6 : Ref sig .scVector) ≠ cc2_scratch0 by decide), SparseCore.Cfg.mem_ownRefs_of_owner (p := Proc.scVector (cV L) (jV L)) (b := (Proc.scVector (cV L) (jV L)).devRef cc2_scratch6) rfl⟩⟩⟩⟩⟩⟩),
    SparseCore.bigSep_erase' (Finset.mem_erase.mpr ⟨fun e => absurd (Proc.devRef_injective _ e) (show (cc2_scratch7 : Ref sig .scVector) ≠ cc2_scratch6 by decide), Finset.mem_erase.mpr ⟨fun e => absurd (Proc.devRef_injective _ e) (show (cc2_scratch7 : Ref sig .scVector) ≠ cc2_scratch5 by decide), Finset.mem_erase.mpr ⟨fun e => absurd (Proc.devRef_injective _ e) (show (cc2_scratch7 : Ref sig .scVector) ≠ cc2_scratch4 by decide), Finset.mem_erase.mpr ⟨fun e => absurd (Proc.devRef_injective _ e) (show (cc2_scratch7 : Ref sig .scVector) ≠ cc2_scratch3 by decide), Finset.mem_erase.mpr ⟨fun e => absurd (Proc.devRef_injective _ e) (show (cc2_scratch7 : Ref sig .scVector) ≠ cc2_scratch2 by decide), Finset.mem_erase.mpr ⟨fun e => absurd (Proc.devRef_injective _ e) (show (cc2_scratch7 : Ref sig .scVector) ≠ cc2_scratch1 by decide), Finset.mem_erase.mpr ⟨fun e => absurd (Proc.devRef_injective _ e) (show (cc2_scratch7 : Ref sig .scVector) ≠ cc2_scratch0 by decide), SparseCore.Cfg.mem_ownRefs_of_owner (p := Proc.scVector (cV L) (jV L)) (b := (Proc.scVector (cV L) (jV L)).devRef cc2_scratch7) rfl⟩⟩⟩⟩⟩⟩⟩),
    SparseCore.bigSep_erase' (Finset.mem_erase.mpr ⟨fun e => absurd (Proc.devRef_injective _ e) (show (cc2_scratch8 : Ref sig .scVector) ≠ cc2_scratch7 by decide), Finset.mem_erase.mpr ⟨fun e => absurd (Proc.devRef_injective _ e) (show (cc2_scratch8 : Ref sig .scVector) ≠ cc2_scratch6 by decide), Finset.mem_erase.mpr ⟨fun e => absurd (Proc.devRef_injective _ e) (show (cc2_scratch8 : Ref sig .scVector) ≠ cc2_scratch5 by decide), Finset.mem_erase.mpr ⟨fun e => absurd (Proc.devRef_injective _ e) (show (cc2_scratch8 : Ref sig .scVector) ≠ cc2_scratch4 by decide), Finset.mem_erase.mpr ⟨fun e => absurd (Proc.devRef_injective _ e) (show (cc2_scratch8 : Ref sig .scVector) ≠ cc2_scratch3 by decide), Finset.mem_erase.mpr ⟨fun e => absurd (Proc.devRef_injective _ e) (show (cc2_scratch8 : Ref sig .scVector) ≠ cc2_scratch2 by decide), Finset.mem_erase.mpr ⟨fun e => absurd (Proc.devRef_injective _ e) (show (cc2_scratch8 : Ref sig .scVector) ≠ cc2_scratch1 by decide), Finset.mem_erase.mpr ⟨fun e => absurd (Proc.devRef_injective _ e) (show (cc2_scratch8 : Ref sig .scVector) ≠ cc2_scratch0 by decide), SparseCore.Cfg.mem_ownRefs_of_owner (p := Proc.scVector (cV L) (jV L)) (b := (Proc.scVector (cV L) (jV L)).devRef cc2_scratch8) rfl⟩⟩⟩⟩⟩⟩⟩⟩)]

end Own

/-! ## Carving and joining -/

section Res

variable (d : Dev nD) (L : grid2.Coords)

/-- An assertion kept out of a run's sight. -/
def hid (P : sProp 𝕄) : sProp 𝕄 := P
theorem hid_eq (P : sProp 𝕄) : hid P = P := rfl

/-- One batch element's rows of the output, as the copies slice them. -/
abbrev oRowG (off : Fin 3 → ℕ) (inb : ∀ a, off a + S1x20x128.size a ≤ S16384x20x128.size a) : Memref sig .scVector .hbm S20x128 .f32 :=
  ((v7V).slice (Rect.unit (s := S16384x20x128) off S1x20x128.size inb) (fun _ => rfl)).squeeze S20x128 squeezes_S1x20x128_S20x128

/-- The tile's rows from the `a`-th on are its `a`-th row, as a copy names it, and the rows after. -/
theorem take_oRow (w : Fin 32) (a : ℕ) (ha : a < 512) (off : Fin 3 → ℕ) (inb : ∀ a, off a + S1x20x128.size a ≤ S16384x20x128.size a)
    (hoff : off = ![512 * w.val + a, 0, 0]) (f : Buf (Elt F) (v7Loc d)) :
    (v7Loc d ↦[rowsFrom w a]{fullShare} f : sProp 𝕄)
      ⊣⊢ iprop(((oRowG off inb).view.loc (thrV d L) ↦[(oRowG off inb).view.set]{fullShare} f) ∗ v7Loc d ↦[rowsFrom w (a + 1)]{fullShare} f) := by
  rw [rowsFrom_succ w ha, set_oRow w a off inb hoff]
  exact pointsTo_union (rowAt_disj_from w a)

/-- The tile's first `a` rows and its `a`-th, as a copy names it, are its first `a + 1`. -/
theorem put_oRow (w : Fin 32) (a : ℕ) (off : Fin 3 → ℕ) (inb : ∀ a, off a + S1x20x128.size a ≤ S16384x20x128.size a)
    (hoff : off = ![512 * w.val + a, 0, 0]) (g : Buf (Elt F) (v7Loc d)) :
    iprop((v7Loc d ↦[rowsTo w a]{fullShare} g) ∗ ((oRowG off inb).view.loc (thrV d L) ↦[(oRowG off inb).view.set]{fullShare} g))
      ⊢ (v7Loc d ↦[rowsTo w (a + 1)]{fullShare} g : sProp 𝕄) := by
  rw [rowsTo_succ w a, set_oRow w a off inb hoff]
  exact (pointsTo_union (rowsTo_disj_at w a)).2

end Res

/-! ## The gathered values -/

section Values

/-- What the gather of chunk `c` of worker `w` leaves in a row buffer: row `r` is the table row the index word at
    (w, c, r) names. -/
def gbuf (cmb : FVec F S1960x128 .f32) (ix : IVec S32x128x80 32) (w : Fin 32) (c : ℕ) : FVec F S80x128 .f32 :=
  fun i => cmb (ValueIdx.ix2 (rowOf (ix (ValueIdx.ix3 w (⟨c % 128, Nat.mod_lt _ (by decide)⟩ : Fin 128) (⟨(i 0).val, (i 0).isLt⟩ : Fin 80))).toNat)
    (⟨(i 1).val, (i 1).isLt⟩ : Fin 128))

/-- A row of the list scratch, squeezed, as the gathers slice it. -/
abbrev lstG (off : Fin 2 → ℕ) (inb : ∀ a, off a + S1x80.size a ≤ S128x80.size a) : Memref sig .scVector .vmem S80 .i32 :=
  ((lstV).slice (Rect.unit (s := S128x80) off S1x80.size inb) (fun _ => rfl)).squeeze S80 squeezes_S1x80_S80

end Values

end Cert.ProofK.Tile

end
-- ==== Proof.TileBodyProK.lean ====
import proofs.«206393_g35751307772044_cont_8to1_b_353_20_alg».proof.Proof.TileBodyDefsK
import Idealize.ShloMosaic.Lib.ValueLayout

noncomputable section

namespace Cert.ProofK.Tile

open Cert.Kernel Cert.Kernel.Gen
open Cert.ProofK.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ

section Prologue

variable (d : Dev nD) (L : grid2.Coords)

/-- The worker number of the tile at grid coordinates `L`, as a number. -/
theorem widL_val : (widL L).val = 2 * (L 1).val + (L 0).val := by
  show (L 1).val * 2 + (L 0).val = _
  omega

/-- The rectangle the index fetch slices — one row of the [32, 128, 80] index array at the tile's worker number — is the
    worker's part of the array cut into 32 along its first axis. -/
theorem idxRect_eq :
    Rect.unit (s := S32x128x80) (k2_off1 L) S1x128x80.size (k2_off1_inb L) = idxRect (widL L) := by
  unfold idxRect Rect.part Rect.block
  congr 1 <;> funext a
  · rw [k2_off1_eq]
    match a with
    | 0 => simp [Shape.partIx, Shape.partSize, widL_val]
    | 1 => simp [Shape.partIx, Shape.partSize]
    | 2 => simp [Shape.partIx, Shape.partSize]
  · match a with
    | 0 => simp [Shape.partSize]
    | 1 => simp [Shape.partSize]
    | 2 => simp [Shape.partSize]

/-- The tile's row of the index array, as the index fetch slices it, is worker `widL L`'s rows. -/
theorem set_idxRow : (idxRowM L).view.set = idxRows (widL L) := by
  show (((v6V).view.slice (Rect.unit (s := S32x128x80) (k2_off1 L) S1x128x80.size (k2_off1_inb L))).reshape S128x80
      squeezes_S1x128x80_S128x80.numel_eq).set = ((v6V).view.slice (idxRect (widL L))).set
  rw [View.set_reshape]
  exact idxRect_eq L ▸ rfl

/-- What the index fetch lands in the list scratch: word (r, x) is the index array's word (worker, r, x). -/
theorem fetch_val (ix : Buf (Elt F) (v6Loc d)) (r : Fin 128) (x : Fin 80) :
    (ReadAs.same.apply ((idxRowM L).view.read (Elt F) ix) : S128x80.Idx → BitVec 32) (ValueIdx.ix2 r x)
      = ix (ValueIdx.ix3 (widL L) r x) := by
  show (idxRowM L).view.read (Elt F) ix (ValueIdx.ix2 r x) = _
  refine ((View.read_apply _ _).trans (cast_eq _ _)).trans (congrArg ix ?_)
  -- the squeezed slice places (r, x) at (worker, r, x): the unit axis put back at 0, then the rectangle's offsets added
  show (Rect.unit (s := S32x128x80) (k2_off1 L) S1x128x80.size (k2_off1_inb L)).emb
      (Shape.reshapeEquiv squeezes_S1x128x80_S128x80.numel_eq (ValueIdx.ix2 r x)) = _
  rw [ValueIdx.reshapeEquiv_ix2_1ab]
  funext a
  apply Fin.ext
  rw [Rect.emb_apply]
  have hw := widL_val L
  have ho := k2_off1_eq L
  match a with
  | 0 => show k2_off1 L 0 + 1 * 0 = (widL L).val; rw [ho, hw]; rfl
  | 1 => show k2_off1 L 1 + 1 * r.val = r.val; rw [ho]; show 0 + 1 * r.val = r.val; omega
  | 2 => show k2_off1 L 2 + 1 * x.val = x.val; rw [ho]; show 0 + 1 * x.val = x.val; omega

/-- A points-to at share `q` as: what is left after seventeen read tokens, the first nine tokens kept together, and
    tokens 9 … 16 one by one (one per gather semaphore, by the semaphore's number). -/
theorem toks_9_16 {ℓ : Loc nD τ sig} (S : Finset (Idx ℓ)) (q : PosShare TreeShare) (f : Buf (Elt F) ℓ) :
    (ℓ ↦[S]{q} f : sProp 𝕄)
      ⊣⊢ iprop((ℓ ↦[S]{Transfers.shareDrop q 17} f) ∗ (BI.bigSep (Finset.range 9) fun i => ℓ ↦[S]{Transfers.shareTokN q i} f)
          ∗ (ℓ ↦[S]{Transfers.shareTokN q 9} f) ∗ (ℓ ↦[S]{Transfers.shareTokN q 10} f) ∗ (ℓ ↦[S]{Transfers.shareTokN q 11} f) ∗ (ℓ ↦[S]{Transfers.shareTokN q 12} f) ∗ (ℓ ↦[S]{Transfers.shareTokN q 13} f) ∗ (ℓ ↦[S]{Transfers.shareTokN q 14} f) ∗ (ℓ ↦[S]{Transfers.shareTokN q 15} f) ∗ (ℓ ↦[S]{Transfers.shareTokN q 16} f)) := by
  -- one more token off the remainder
  have step : ∀ k, (ℓ ↦[S]{Transfers.shareDrop q k} f : sProp 𝕄)
      ⊣⊢ iprop((ℓ ↦[S]{Transfers.shareDrop q (k + 1)} f) ∗ ℓ ↦[S]{Transfers.shareTokN q k} f) :=
    fun k => pointsTo_share (PosShare.mem_left_op_right _)
  constructor
  · iintro H
    ihave H := (Transfers.pointsTo_toks_range (ℓ := ℓ) (S := S) (f := f) q 9).1 $$ H
    icases H with ⟨Hd, Hb⟩
    ihave Hd := (step 9).1 $$ Hd; icases Hd with ⟨Hd, H9⟩
    ihave Hd := (step 10).1 $$ Hd; icases Hd with ⟨Hd, H10⟩
    ihave Hd := (step 11).1 $$ Hd; icases Hd with ⟨Hd, H11⟩
    ihave Hd := (step 12).1 $$ Hd; icases Hd with ⟨Hd, H12⟩
    ihave Hd := (step 13).1 $$ Hd; icases Hd with ⟨Hd, H13⟩
    ihave Hd := (step 14).1 $$ Hd; icases Hd with ⟨Hd, H14⟩
    ihave Hd := (step 15).1 $$ Hd; icases Hd with ⟨Hd, H15⟩
    ihave Hd := (step 16).1 $$ Hd; icases Hd with ⟨Hd, H16⟩
    isplitl [Hd]; · iexact Hd
    isplitl [Hb]; · iexact Hb
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · iintro ⟨Hd, Hb, H9, H10, H11, H12, H13, H14, H15, H16⟩
    ihave Hd := (step 16).2 $$ [Hd H16]
    · isplitl [Hd] <;> iassumption
    ihave Hd := (step 15).2 $$ [Hd H15]
    · isplitl [Hd] <;> iassumption
    ihave Hd := (step 14).2 $$ [Hd H14]
    · isplitl [Hd] <;> iassumption
    ihave Hd := (step 13).2 $$ [Hd H13]
    · isplitl [Hd] <;> iassumption
    ihave Hd := (step 12).2 $$ [Hd H12]
    · isplitl [Hd] <;> iassumption
    ihave Hd := (step 11).2 $$ [Hd H11]
    · isplitl [Hd] <;> iassumption
    ihave Hd := (step 10).2 $$ [Hd H10]
    · isplitl [Hd] <;> iassumption
    ihave Hd := (step 9).2 $$ [Hd H9]
    · isplitl [Hd] <;> iassumption
    iapply (Transfers.pointsTo_toks_range (ℓ := ℓ) (S := S) (f := f) q 9).2
    isplitl [Hd]; · iexact Hd
    iexact Hb

end Prologue

end Cert.ProofK.Tile

end
-- ==== Proof.TileBodyValK.lean ====
import proofs.«206393_g35751307772044_cont_8to1_b_353_20_alg».proof.Proof.TileBodyDefsK

noncomputable section

namespace Cert.ProofK.Tile

open Cert.Kernel Cert.Kernel.Gen
open Cert.ProofK.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ

section ValueLemmas

variable (d : Dev nD) (L : grid2.Coords)

/-- The whole table sliced at offset zero and full size places an index at itself. -/
private theorem srcAll_emb (y : S1960x128.Idx) : (srcAll).view.emb y = y := by
  funext a; apply Fin.ext
  show ((Rect.unit (s := S1960x128) ![0, 0] S1960x128.size inb_S1960x128_S1960x128_0_0).emb y a : ℕ) = (y a).val
  rw [Rect.emb_apply]
  match a with
  | ⟨0, _⟩ => show 0 + 1 * (y 0).val = (y 0).val; omega
  | ⟨1, _⟩ => show 0 + 1 * (y 1).val = (y 1).val; omega

/-- Row `c` of the list scratch, squeezed, places position `k` at (c, k). -/
private theorem lstG_emb (c : ℕ) (hc : c < 128) (inb : ∀ a, (![c, 0] : Fin 2 → ℕ) a + S1x80.size a ≤ S128x80.size a) (k : Fin 80) :
    (lstG ![c, 0] inb).view.emb (ValueIdx.ix1 k) = ValueIdx.ix2 (⟨c, hc⟩ : Fin 128) k := by
  have hre : Shape.reshapeEquiv squeezes_S1x80_S80.numel_eq (ValueIdx.ix1 k : S80.Idx) = (ValueIdx.ix2 (0 : Fin 1) k : S1x80.Idx) :=
    Shape.reshapeEquiv_eq_of_rowMajor _ (by
      rw [Shape.rowMajor_val_two, Shape.rowMajor_val_one]
      show 0 * 80 + k.val = k.val
      omega)
  show (Rect.unit (s := S128x80) ![c, 0] S1x80.size inb).emb (Shape.reshapeEquiv squeezes_S1x80_S80.numel_eq (ValueIdx.ix1 k : S80.Idx)) = _
  rw [hre]
  funext a; apply Fin.ext
  rw [Rect.emb_apply]
  match a with
  | ⟨0, _⟩ => show c + 1 * 0 = c; omega
  | ⟨1, _⟩ => show 0 + 1 * k.val = k.val; omega

/-- The index of a one-axis shape at a row-major position is that position. -/
private theorem rowMajor_symm_S80 (q : Fin S80.numel) : S80.rowMajor.symm q = ValueIdx.ix1 (⟨q.val, q.isLt⟩ : Fin 80) := by
  rw [Equiv.symm_apply_eq]
  apply Fin.ext
  rw [Shape.rowMajor_val_one]

/-- One batch element's rows of the output, squeezed, place (p, k) at (A, p, k), `A` the element's row. -/
private theorem oRowG_emb (A : ℕ) (hA : A < 16384) (inb : ∀ a, (![A, 0, 0] : Fin 3 → ℕ) a + S1x20x128.size a ≤ S16384x20x128.size a)
    (x : S20x128.Idx) :
    (oRowG ![A, 0, 0] inb).view.emb x
      = ValueIdx.ix3 (⟨A, hA⟩ : Fin 16384) (⟨(x 0).val, (x 0).isLt⟩ : Fin 20) (⟨(x 1).val, (x 1).isLt⟩ : Fin 128) := by
  have hre : Shape.reshapeEquiv squeezes_S1x20x128_S20x128.numel_eq x
      = (ValueIdx.ix3 (0 : Fin 1) (⟨(x 0).val, (x 0).isLt⟩ : Fin 20) (⟨(x 1).val, (x 1).isLt⟩ : Fin 128) : S1x20x128.Idx) :=
    Shape.reshapeEquiv_eq_of_rowMajor _ (by
      rw [Shape.rowMajor_val_three, Shape.rowMajor_val_two]
      show (0 * 20 + (x 0).val) * 128 + (x 1).val = (x 0).val * 128 + (x 1).val
      omega)
  show (Rect.unit (s := S16384x20x128) ![A, 0, 0] S1x20x128.size inb).emb (Shape.reshapeEquiv squeezes_S1x20x128_S20x128.numel_eq x) = _
  rw [hre]
  funext a; apply Fin.ext
  rw [Rect.emb_apply]
  match a with
  | ⟨0, _⟩ => show A + 1 * 0 = A; omega
  | ⟨1, _⟩ => show 0 + 1 * (x 0).val = (x 0).val; omega
  | ⟨2, _⟩ => show 0 + 1 * (x 1).val = (x 1).val; omega

/-- The gather's payload over list row `c` of the fetched index rows is `gbuf` at chunk `c`. -/
theorem gather_val (cmb : Buf (Elt F) (v5Loc d)) (ix : Buf (Elt F) (v6Loc d)) (sc0 : Buf (Elt F) ((lstV).view.loc (thrV d L)))
    (hsc0 : ∀ (r : Fin 128) (x : Fin 80), sc0 (ValueIdx.ix2 r x) = ix (ValueIdx.ix3 (widL L) r x))
    (c : ℕ) (hc : c < 128) (off : Fin 2 → ℕ) (inb : ∀ a, off a + S1x80.size a ≤ S128x80.size a) (hoff : off = ![c, 0])
    (hin : ∀ x, ((lstG off inb).view.read (Elt F) sc0 x).toNat < S1960x128.size gathers_S1960x128_S80x128.axis) :
    SparseCore.gatherPayload gathers_S1960x128_S80x128 ((srcAll).view.read (Elt F) cmb)
        (SparseCore.rows ((lstG off inb).view.read (Elt F) sc0) rfl hin)
      = gbuf cmb ix (widL L) c := by
  subst hoff
  have hrd : ∀ k : Fin 80, (lstG ![c, 0] inb).view.read (Elt F) sc0 (ValueIdx.ix1 k) = ix (ValueIdx.ix3 (widL L) (⟨c, hc⟩ : Fin 128) k) := fun k => by
    rw [show (lstG ![c, 0] inb).view.read (Elt F) sc0 (ValueIdx.ix1 k) = sc0 ((lstG ![c, 0] inb).view.emb (ValueIdx.ix1 k)) from
      (View.read_apply _ _).trans (cast_eq _ _), lstG_emb c hc inb k, hsc0]
  have hcm : (⟨c % 128, Nat.mod_lt _ (by decide)⟩ : Fin 128) = ⟨c, hc⟩ := Fin.ext (Nat.mod_eq_of_lt hc)
  funext i
  obtain ⟨r, k, rfl⟩ : ∃ (r : Fin 80) (k : Fin 128), i = ValueIdx.ix2 r k := ⟨i 0, i 1, ValueIdx.eq_ix2 i⟩
  unfold SparseCore.gatherPayload gbuf
  rw [show ∀ y, (srcAll).view.read (Elt F) cmb y = cmb ((srcAll).view.emb y) from fun y => (View.read_apply _ _).trans (cast_eq _ _),
    srcAll_emb, hcm]
  refine congrArg cmb (funext fun a => Fin.ext ?_)
  match a with
  | ⟨0, _⟩ =>
    have h1 : (SparseCore.rows ((lstG ![c, 0] inb).view.read (Elt F) sc0) rfl hin r).val = (ix (ValueIdx.ix3 (widL L) (⟨c, hc⟩ : Fin 128) r)).toNat := by
      unfold SparseCore.rows
      show ((lstG ![c, 0] inb).view.read (Elt F) sc0 (S80.rowMajor.symm (Fin.cast _ r))).toNat = _
      rw [rowMajor_symm_S80, hrd]
      rfl
    have h2 := hin (ValueIdx.ix1 r)
    rw [hrd] at h2
    show ((gathers_S1960x128_S80x128.idx _ (ValueIdx.ix2 r k)) gathers_S1960x128_S80x128.axis).val
      = (ix (ValueIdx.ix3 (widL L) (⟨c, hc⟩ : Fin 128) (⟨r.val, r.isLt⟩ : Fin 80))).toNat % 1960
    rw [Shape.Gathers.idx_axis]
    exact h1.trans (Nat.mod_eq_of_lt h2).symm
  | ⟨1, _⟩ =>
    show ((gathers_S1960x128_S80x128.idx _ (ValueIdx.ix2 r k)) (⟨1, by decide⟩ : Fin 2)).val = k.val
    rw [Shape.Gathers.idx_of_ne _ _ _ _ (by decide)]
    rfl

/-- A batch element's rows of the output written with a payload that is slice `e` of `gbuf` at chunk `c` are the
    whole-array function `gOut` there. -/
theorem oRow_landed (cmb : Buf (Elt F) (v5Loc d)) (ix : Buf (Elt F) (v6Loc d)) (o : Buf (Elt F) (v7Loc d))
    (c : ℕ) (hc : c < 128) (e : Fin 4) (off : Fin 3 → ℕ) (inb : ∀ a, off a + S1x20x128.size a ≤ S16384x20x128.size a)
    (hoff : off = ![512 * (widL L).val + (4 * c + e.val), 0, 0])
    (pay : S20x128.Idx → F .f32)
    (hpay : ∀ x : S20x128.Idx, pay x = gbuf cmb ix (widL L) c (ValueIdx.ix2 (⟨20 * e.val + (x 0).val, by have := e.isLt; have h0 : (x 0).val < 20 := (x 0).isLt; omega⟩ : Fin 80) (⟨(x 1).val, (x 1).isLt⟩ : Fin 128))) :
    ((oRowG off inb).view.loc (thrV d L) ↦[(oRowG off inb).view.set]{fullShare}
        (oRowG off inb).view.writes (Elt F) o [⟨Rect.whole S20x128, pay⟩] : sProp 𝕄)
      = ((oRowG off inb).view.loc (thrV d L) ↦[(oRowG off inb).view.set]{fullShare} gOut cmb ix) := by
  subst hoff
  have hA : 512 * (widL L).val + (4 * c + e.val) < 16384 := by have := (widL L).isLt; have := e.isLt; omega
  refine pointsTo_congr fun i hi => ?_
  obtain ⟨x, -, rfl⟩ := Finset.mem_map.mp hi
  have hpos : pos3 (ValueIdx.ix3 (⟨512 * (widL L).val + (4 * c + e.val), hA⟩ : Fin 16384) (⟨(x 0).val, (x 0).isLt⟩ : Fin 20) (⟨(x 1).val, (x 1).isLt⟩ : Fin 128))
      = ValueIdx.ix3 (widL L) (⟨c % 128, Nat.mod_lt _ (by decide)⟩ : Fin 128)
          (⟨20 * e.val + (x 0).val, by have := e.isLt; have h0 : (x 0).val < 20 := (x 0).isLt; omega⟩ : Fin 80) := by
    have := e.isLt
    funext a; apply Fin.ext
    match a with
    | ⟨0, _⟩ => show (512 * (widL L).val + (4 * c + e.val)) / 512 = (widL L).val; omega
    | ⟨1, _⟩ => show (512 * (widL L).val + (4 * c + e.val)) % 512 / 4 = c % 128; omega
    | ⟨2, _⟩ => show (512 * (widL L).val + (4 * c + e.val)) % 4 * 20 + (x 0).val = 20 * e.val + (x 0).val; omega
  have hw : (oRowG ![512 * (widL L).val + (4 * c + e.val), 0, 0] inb).view.writes (Elt F) o [⟨Rect.whole S20x128, pay⟩]
      = (oRowG ![512 * (widL L).val + (4 * c + e.val), 0, 0] inb).view.write (Elt F) o pay Finset.univ :=
    (View.write_univ_eq_writes_whole (oRowG ![512 * (widL L).val + (4 * c + e.val), 0, 0] inb).view o [] pay).symm
  rw [hw, View.write_emb_of_mem _ _ (Finset.mem_univ x), cast_eq, hpay x, oRowG_emb _ hA inb x]
  unfold gbuf gOut
  rw [hpos]

end ValueLemmas

end Cert.ProofK.Tile

end
-- ==== Proof.TileBodyInvK.lean ====
import proofs.«206393_g35751307772044_cont_8to1_b_353_20_alg».proof.Proof.TileBodyValK

noncomputable section

namespace Cert.ProofK.Tile

open Cert.Kernel Cert.Kernel.Gen
open Cert.ProofK.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U]

local notation "𝕄" => MT nD τ sig (HIx 1) (Elt F) ℕ U ℕ

/-! ## The loop's conditions, the row buffers' slices, the batches -/

section Conds

theorem cond1_iff : ∀ k : Fin k2_t1_loop.trips, k2_cond1 k = 1#1 ↔ 0 < k.val := by decide +kernel
theorem cond2_iff : ∀ k : Fin k2_t1_loop.trips, k2_cond2 k = 1#1 ↔ 0 < k.val := by decide +kernel
theorem cond3_iff : ∀ k : Fin k2_t1_loop.trips, k2_cond3 k = 1#1 ↔ 0 < k.val := by decide +kernel
theorem cond4_iff : ∀ k : Fin k2_t1_loop.trips, k2_cond4 k = 1#1 ↔ 0 < k.val := by decide +kernel
theorem cond5_iff : ∀ k : Fin k2_t1_loop.trips, k2_cond5 k = 1#1 ↔ 0 < k.val := by decide +kernel
theorem cond6_iff : ∀ k : Fin k2_t1_loop.trips, k2_cond6 k = 1#1 ↔ 0 < k.val := by decide +kernel
theorem cond7_iff : ∀ k : Fin k2_t1_loop.trips, k2_cond7 k = 1#1 ↔ 0 < k.val := by decide +kernel
theorem cond8_iff : ∀ k : Fin k2_t1_loop.trips, k2_cond8 k = 1#1 ↔ 0 < k.val := by decide +kernel

theorem trips_eq : k2_t1_loop.trips = 16 := by decide +kernel

end Conds

section Slices

variable (d : Dev nD) (L : grid2.Coords)

theorem pts_union_eq {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

theorem pts_split4 {ℓ : Loc nD τ sig} (A B C D' : Finset (Idx ℓ)) (q : PosShare TreeShare) (f : Buf (Elt F) ℓ)
    (h1 : Disjoint A (B ∪ (C ∪ D'))) (h2 : Disjoint B (C ∪ D')) (h3 : Disjoint C D') (hcov : A ∪ (B ∪ (C ∪ D')) = Finset.univ) :
    (ℓ ↦{q} f : sProp 𝕄) = iprop((ℓ ↦[A]{q} f) ∗ (ℓ ↦[B]{q} f) ∗ (ℓ ↦[C]{q} f) ∗ ℓ ↦[D']{q} f) := by
  rw [show (ℓ ↦{q} f : sProp 𝕄) = (ℓ ↦[Finset.univ]{q} f) from rfl, ← hcov, pts_union_eq h1, pts_union_eq h2, pts_union_eq h3]

theorem inb_bsl (e : Fin 4) : ∀ a, (![20 * e.val, 0] : Fin 2 → ℕ) a + S20x128.size a ≤ S80x128.size a := by
  have := e.isLt; intro a; fin_cases a
  · show 20 * e.val + 20 ≤ 80; omega
  · show 0 + 128 ≤ 128; omega

/-- Rows `[20 e, 20 e + 20)` of a row buffer's shape. -/
abbrev brect (e : Fin 4) : Rect S80x128 := Rect.unit (s := S80x128) ![20 * e.val, 0] S20x128.size (inb_bsl e)

theorem mem_brect (e : Fin 4) (j : S80x128.Idx) : j ∈ (brect e).set ↔ 20 * e.val ≤ (j 0).val ∧ (j 0).val < 20 * e.val + 20 := by
  rw [Rect.mem_set_unit]
  constructor
  · intro h; exact h 0
  · intro h a
    have h1 : (j 1).val < 128 := (j 1).isLt
    fin_cases a
    · exact h
    · show 0 ≤ (j 1).val ∧ (j 1).val < 0 + 128; omega

theorem brect_cover : (brect 0).set ∪ ((brect 1).set ∪ ((brect 2).set ∪ (brect 3).set)) = Finset.univ := by
  ext j
  have h0 : (j 0).val < 80 := (j 0).isLt
  simp only [Finset.mem_union, mem_brect, Finset.mem_univ, iff_true]
  show (20 * 0 ≤ (j 0).val ∧ (j 0).val < 20 * 0 + 20) ∨ (20 * 1 ≤ (j 0).val ∧ (j 0).val < 20 * 1 + 20) ∨ (20 * 2 ≤ (j 0).val ∧ (j 0).val < 20 * 2 + 20) ∨ (20 * 3 ≤ (j 0).val ∧ (j 0).val < 20 * 3 + 20)
  omega

theorem brect_disj {e e' : Fin 4} (h : e.val < e'.val) : Disjoint (brect e).set (brect e').set := by
  rw [Finset.disjoint_left]; intro j h1 h2; rw [mem_brect] at h1 h2; omega

theorem brect_h3 : Disjoint (brect 2).set (brect 3).set := brect_disj (by decide)
theorem brect_h2 : Disjoint (brect 1).set ((brect 2).set ∪ (brect 3).set) :=
  Finset.disjoint_union_right.mpr ⟨brect_disj (by decide), brect_disj (by decide)⟩
theorem brect_h1 : Disjoint (brect 0).set ((brect 1).set ∪ ((brect 2).set ∪ (brect 3).set)) :=
  Finset.disjoint_union_right.mpr ⟨brect_disj (by decide), Finset.disjoint_union_right.mpr ⟨brect_disj (by decide), brect_disj (by decide)⟩⟩

/-- Row buffer 0 held whole is its four slices. -/
theorem buf_split0 (f : Buf (Elt F) ((bufM0).view.loc (thrV d L))) :
    ((bufM0).view.loc (thrV d L) ↦{fullShare} f : sProp 𝕄)
      = iprop(((bsl0_0).view.loc (thrV d L) ↦[(bsl0_0).view.set]{fullShare} f) ∗ ((bsl0_1).view.loc (thrV d L) ↦[(bsl0_1).view.set]{fullShare} f) ∗ ((bsl0_2).view.loc (thrV d L) ↦[(bsl0_2).view.set]{fullShare} f) ∗ ((bsl0_3).view.loc (thrV d L) ↦[(bsl0_3).view.set]{fullShare} f)) := by
  have s0 : (bsl0_0).view.set = (brect 0).set := by
    show ((View.whole cc2_scratch1).slice _).set = _
    rw [View.set_slice_whole]; rfl
  have s1 : (bsl0_1).view.set = (brect 1).set := by
    show ((View.whole cc2_scratch1).slice _).set = _
    rw [View.set_slice_whole]; rfl
  have s2 : (bsl0_2).view.set = (brect 2).set := by
    show ((View.whole cc2_scratch1).slice _).set = _
    rw [View.set_slice_whole]; rfl
  have s3 : (bsl0_3).view.set = (brect 3).set := by
    show ((View.whole cc2_scratch1).slice _).set = _
    rw [View.set_slice_whole]; rfl
  rw [s0, s1, s2, s3]
  exact pts_split4 _ _ _ _ _ _ brect_h1 brect_h2 brect_h3 brect_cover
/-- Row buffer 1 held whole is its four slices. -/
theorem buf_split1 (f : Buf (Elt F) ((bufM1).view.loc (thrV d L))) :
    ((bufM1).view.loc (thrV d L) ↦{fullShare} f : sProp 𝕄)
      = iprop(((bsl1_0).view.loc (thrV d L) ↦[(bsl1_0).view.set]{fullShare} f) ∗ ((bsl1_1).view.loc (thrV d L) ↦[(bsl1_1).view.set]{fullShare} f) ∗ ((bsl1_2).view.loc (thrV d L) ↦[(bsl1_2).view.set]{fullShare} f) ∗ ((bsl1_3).view.loc (thrV d L) ↦[(bsl1_3).view.set]{fullShare} f)) := by
  have s0 : (bsl1_0).view.set = (brect 0).set := by
    show ((View.whole cc2_scratch2).slice _).set = _
    rw [View.set_slice_whole]; rfl
  have s1 : (bsl1_1).view.set = (brect 1).set := by
    show ((View.whole cc2_scratch2).slice _).set = _
    rw [View.set_slice_whole]; rfl
  have s2 : (bsl1_2).view.set = (brect 2).set := by
    show ((View.whole cc2_scratch2).slice _).set = _
    rw [View.set_slice_whole]; rfl
  have s3 : (bsl1_3).view.set = (brect 3).set := by
    show ((View.whole cc2_scratch2).slice _).set = _
    rw [View.set_slice_whole]; rfl
  rw [s0, s1, s2, s3]
  exact pts_split4 _ _ _ _ _ _ brect_h1 brect_h2 brect_h3 brect_cover
/-- Row buffer 2 held whole is its four slices. -/
theorem buf_split2 (f : Buf (Elt F) ((bufM2).view.loc (thrV d L))) :
    ((bufM2).view.loc (thrV d L) ↦{fullShare} f : sProp 𝕄)
      = iprop(((bsl2_0).view.loc (thrV d L) ↦[(bsl2_0).view.set]{fullShare} f) ∗ ((bsl2_1).view.loc (thrV d L) ↦[(bsl2_1).view.set]{fullShare} f) ∗ ((bsl2_2).view.loc (thrV d L) ↦[(bsl2_2).view.set]{fullShare} f) ∗ ((bsl2_3).view.loc (thrV d L) ↦[(bsl2_3).view.set]{fullShare} f)) := by
  have s0 : (bsl2_0).view.set = (brect 0).set := by
    show ((View.whole cc2_scratch3).slice _).set = _
    rw [View.set_slice_whole]; rfl
  have s1 : (bsl2_1).view.set = (brect 1).set := by
    show ((View.whole cc2_scratch3).slice _).set = _
    rw [View.set_slice_whole]; rfl
  have s2 : (bsl2_2).view.set = (brect 2).set := by
    show ((View.whole cc2_scratch3).slice _).set = _
    rw [View.set_slice_whole]; rfl
  have s3 : (bsl2_3).view.set = (brect 3).set := by
    show ((View.whole cc2_scratch3).slice _).set = _
    rw [View.set_slice_whole]; rfl
  rw [s0, s1, s2, s3]
  exact pts_split4 _ _ _ _ _ _ brect_h1 brect_h2 brect_h3 brect_cover
/-- Row buffer 3 held whole is its four slices. -/
theorem buf_split3 (f : Buf (Elt F) ((bufM3).view.loc (thrV d L))) :
    ((bufM3).view.loc (thrV d L) ↦{fullShare} f : sProp 𝕄)
      = iprop(((bsl3_0).view.loc (thrV d L) ↦[(bsl3_0).view.set]{fullShare} f) ∗ ((bsl3_1).view.loc (thrV d L) ↦[(bsl3_1).view.set]{fullShare} f) ∗ ((bsl3_2).view.loc (thrV d L) ↦[(bsl3_2).view.set]{fullShare} f) ∗ ((bsl3_3).view.loc (thrV d L) ↦[(bsl3_3).view.set]{fullShare} f)) := by
  have s0 : (bsl3_0).view.set = (brect 0).set := by
    show ((View.whole cc2_scratch4).slice _).set = _
    rw [View.set_slice_whole]; rfl
  have s1 : (bsl3_1).view.set = (brect 1).set := by
    show ((View.whole cc2_scratch4).slice _).set = _
    rw [View.set_slice_whole]; rfl
  have s2 : (bsl3_2).view.set = (brect 2).set := by
    show ((View.whole cc2_scratch4).slice _).set = _
    rw [View.set_slice_whole]; rfl
  have s3 : (bsl3_3).view.set = (brect 3).set := by
    show ((View.whole cc2_scratch4).slice _).set = _
    rw [View.set_slice_whole]; rfl
  rw [s0, s1, s2, s3]
  exact pts_split4 _ _ _ _ _ _ brect_h1 brect_h2 brect_h3 brect_cover
/-- Row buffer 4 held whole is its four slices. -/
theorem buf_split4 (f : Buf (Elt F) ((bufM4).view.loc (thrV d L))) :
    ((bufM4).view.loc (thrV d L) ↦{fullShare} f : sProp 𝕄)
      = iprop(((bsl4_0).view.loc (thrV d L) ↦[(bsl4_0).view.set]{fullShare} f) ∗ ((bsl4_1).view.loc (thrV d L) ↦[(bsl4_1).view.set]{fullShare} f) ∗ ((bsl4_2).view.loc (thrV d L) ↦[(bsl4_2).view.set]{fullShare} f) ∗ ((bsl4_3).view.loc (thrV d L) ↦[(bsl4_3).view.set]{fullShare} f)) := by
  have s0 : (bsl4_0).view.set = (brect 0).set := by
    show ((View.whole cc2_scratch5).slice _).set = _
    rw [View.set_slice_whole]; rfl
  have s1 : (bsl4_1).view.set = (brect 1).set := by
    show ((View.whole cc2_scratch5).slice _).set = _
    rw [View.set_slice_whole]; rfl
  have s2 : (bsl4_2).view.set = (brect 2).set := by
    show ((View.whole cc2_scratch5).slice _).set = _
    rw [View.set_slice_whole]; rfl
  have s3 : (bsl4_3).view.set = (brect 3).set := by
    show ((View.whole cc2_scratch5).slice _).set = _
    rw [View.set_slice_whole]; rfl
  rw [s0, s1, s2, s3]
  exact pts_split4 _ _ _ _ _ _ brect_h1 brect_h2 brect_h3 brect_cover
/-- Row buffer 5 held whole is its four slices. -/
theorem buf_split5 (f : Buf (Elt F) ((bufM5).view.loc (thrV d L))) :
    ((bufM5).view.loc (thrV d L) ↦{fullShare} f : sProp 𝕄)
      = iprop(((bsl5_0).view.loc (thrV d L) ↦[(bsl5_0).view.set]{fullShare} f) ∗ ((bsl5_1).view.loc (thrV d L) ↦[(bsl5_1).view.set]{fullShare} f) ∗ ((bsl5_2).view.loc (thrV d L) ↦[(bsl5_2).view.set]{fullShare} f) ∗ ((bsl5_3).view.loc (thrV d L) ↦[(bsl5_3).view.set]{fullShare} f)) := by
  have s0 : (bsl5_0).view.set = (brect 0).set := by
    show ((View.whole cc2_scratch6).slice _).set = _
    rw [View.set_slice_whole]; rfl
  have s1 : (bsl5_1).view.set = (brect 1).set := by
    show ((View.whole cc2_scratch6).slice _).set = _
    rw [View.set_slice_whole]; rfl
  have s2 : (bsl5_2).view.set = (brect 2).set := by
    show ((View.whole cc2_scratch6).slice _).set = _
    rw [View.set_slice_whole]; rfl
  have s3 : (bsl5_3).view.set = (brect 3).set := by
    show ((View.whole cc2_scratch6).slice _).set = _
    rw [View.set_slice_whole]; rfl
  rw [s0, s1, s2, s3]
  exact pts_split4 _ _ _ _ _ _ brect_h1 brect_h2 brect_h3 brect_cover
/-- Row buffer 6 held whole is its four slices. -/
theorem buf_split6 (f : Buf (Elt F) ((bufM6).view.loc (thrV d L))) :
    ((bufM6).view.loc (thrV d L) ↦{fullShare} f : sProp 𝕄)
      = iprop(((bsl6_0).view.loc (thrV d L) ↦[(bsl6_0).view.set]{fullShare} f) ∗ ((bsl6_1).view.loc (thrV d L) ↦[(bsl6_1).view.set]{fullShare} f) ∗ ((bsl6_2).view.loc (thrV d L) ↦[(bsl6_2).view.set]{fullShare} f) ∗ ((bsl6_3).view.loc (thrV d L) ↦[(bsl6_3).view.set]{fullShare} f)) := by
  have s0 : (bsl6_0).view.set = (brect 0).set := by
    show ((View.whole cc2_scratch7).slice _).set = _
    rw [View.set_slice_whole]; rfl
  have s1 : (bsl6_1).view.set = (brect 1).set := by
    show ((View.whole cc2_scratch7).slice _).set = _
    rw [View.set_slice_whole]; rfl
  have s2 : (bsl6_2).view.set = (brect 2).set := by
    show ((View.whole cc2_scratch7).slice _).set = _
    rw [View.set_slice_whole]; rfl
  have s3 : (bsl6_3).view.set = (brect 3).set := by
    show ((View.whole cc2_scratch7).slice _).set = _
    rw [View.set_slice_whole]; rfl
  rw [s0, s1, s2, s3]
  exact pts_split4 _ _ _ _ _ _ brect_h1 brect_h2 brect_h3 brect_cover
/-- Row buffer 7 held whole is its four slices. -/
theorem buf_split7 (f : Buf (Elt F) ((bufM7).view.loc (thrV d L))) :
    ((bufM7).view.loc (thrV d L) ↦{fullShare} f : sProp 𝕄)
      = iprop(((bsl7_0).view.loc (thrV d L) ↦[(bsl7_0).view.set]{fullShare} f) ∗ ((bsl7_1).view.loc (thrV d L) ↦[(bsl7_1).view.set]{fullShare} f) ∗ ((bsl7_2).view.loc (thrV d L) ↦[(bsl7_2).view.set]{fullShare} f) ∗ ((bsl7_3).view.loc (thrV d L) ↦[(bsl7_3).view.set]{fullShare} f)) := by
  have s0 : (bsl7_0).view.set = (brect 0).set := by
    show ((View.whole cc2_scratch8).slice _).set = _
    rw [View.set_slice_whole]; rfl
  have s1 : (bsl7_1).view.set = (brect 1).set := by
    show ((View.whole cc2_scratch8).slice _).set = _
    rw [View.set_slice_whole]; rfl
  have s2 : (bsl7_2).view.set = (brect 2).set := by
    show ((View.whole cc2_scratch8).slice _).set = _
    rw [View.set_slice_whole]; rfl
  have s3 : (bsl7_3).view.set = (brect 3).set := by
    show ((View.whole cc2_scratch8).slice _).set = _
    rw [View.set_slice_whole]; rfl
  rw [s0, s1, s2, s3]
  exact pts_split4 _ _ _ _ _ _ brect_h1 brect_h2 brect_h3 brect_cover

end Slices

section Batches

variable [FloatOps F]

variable (d : Dev nD) (L : grid2.Coords)

theorem mem_ins {W W' : Waits sig (HIx 1)} {p₀ : SemLoc sig × HIx 1} (h : ∀ p ∈ W', p ∈ W ∨ p.2 = none) (h0 : p₀.2 = none) :
    ∀ p ∈ insert p₀ W', p ∈ W ∨ p.2 = none := by
  intro p hp
  rcases Finset.mem_insert.mp hp with rfl | hp
  · exact .inr h0
  · exact h p hp

/-- Every word of a list row is in range when every word of the list scratch is. -/
theorem lst_inb (sc0 : Buf (Elt F) ((lstV).view.loc (thrV d L))) (h : ∀ i, (sc0 i).toNat < 1960)
    (off : Fin 2 → ℕ) (inb : ∀ a, off a + S1x80.size a ≤ S128x80.size a) :
    ∀ x, ((lstG off inb).view.read (Elt F) sc0 x).toNat < 1960 := fun x => by
  rw [show (lstG off inb).view.read (Elt F) sc0 x = sc0 ((lstG off inb).view.emb x) from (View.read_apply _ _).trans (cast_eq _ _)]
  exact h _

/-- Slice `e` of row buffer 0, and batch element `e` of its chunk's rows of the output, uniformly in `e`. -/
abbrev bslE0 (e : Fin 4) : Memref sig .scVector .vmem S20x128 .f32 := (bufM0).slice (brect e) (fun _ => rfl)
abbrev oRowE0 (L : grid2.Coords) (k : Fin k2_t1_loop.trips) (e : Fin 4) : Memref sig .scVector .hbm S20x128 .f32 :=
  oRowG (k2_off11 L k 0#32 (BitVec.ofNat 32 e.val)) (k2_off11_inb L k 0 e)
/-- The deliveries of the four copies out of row buffer 0 at trip `k`: the output rows written with the slice, the slice back. -/
abbrev dlv0 (k : Fin k2_t1_loop.trips) (o : Buf (Elt F) (v7Loc d)) (gv : FVec F S80x128 .f32) (e : Fin 4) : sProp 𝕄 :=
  iprop(((oRowE0 L k e).view.loc (thrV d L) ↦[(oRowE0 L k e).view.set]{fullShare}
          (oRowE0 L k e).view.writes (Elt F) o [⟨Rect.whole S20x128, ReadAs.same.apply ((bslE0 e).view.read (Elt F) gv)⟩])
      ∗ ((bslE0 e).view.loc (thrV d L) ↦[(bslE0 e).view.set]{fullShare} gv))
abbrev bat0 (k : Fin k2_t1_loop.trips) (o : Buf (Elt F) (v7Loc d)) (gv : FVec F S80x128 .f32) (j u : ℕ) : sProp 𝕄 :=
  Transfers.Batch countersEmb (thrV d L) (.dma cc2_scratch17.sem) default 81920 (dlv0 d L k o gv) j u
/-- Slice `e` of row buffer 1, and batch element `e` of its chunk's rows of the output, uniformly in `e`. -/
abbrev bslE1 (e : Fin 4) : Memref sig .scVector .vmem S20x128 .f32 := (bufM1).slice (brect e) (fun _ => rfl)
abbrev oRowE1 (L : grid2.Coords) (k : Fin k2_t1_loop.trips) (e : Fin 4) : Memref sig .scVector .hbm S20x128 .f32 :=
  oRowG (k2_off11 L k 1#32 (BitVec.ofNat 32 e.val)) (k2_off11_inb L k 1 e)
/-- The deliveries of the four copies out of row buffer 1 at trip `k`: the output rows written with the slice, the slice back. -/
abbrev dlv1 (k : Fin k2_t1_loop.trips) (o : Buf (Elt F) (v7Loc d)) (gv : FVec F S80x128 .f32) (e : Fin 4) : sProp 𝕄 :=
  iprop(((oRowE1 L k e).view.loc (thrV d L) ↦[(oRowE1 L k e).view.set]{fullShare}
          (oRowE1 L k e).view.writes (Elt F) o [⟨Rect.whole S20x128, ReadAs.same.apply ((bslE1 e).view.read (Elt F) gv)⟩])
      ∗ ((bslE1 e).view.loc (thrV d L) ↦[(bslE1 e).view.set]{fullShare} gv))
abbrev bat1 (k : Fin k2_t1_loop.trips) (o : Buf (Elt F) (v7Loc d)) (gv : FVec F S80x128 .f32) (j u : ℕ) : sProp 𝕄 :=
  Transfers.Batch countersEmb (thrV d L) (.dma cc2_scratch18.sem) default 81920 (dlv1 d L k o gv) j u
/-- Slice `e` of row buffer 2, and batch element `e` of its chunk's rows of the output, uniformly in `e`. -/
abbrev bslE2 (e : Fin 4) : Memref sig .scVector .vmem S20x128 .f32 := (bufM2).slice (brect e) (fun _ => rfl)
abbrev oRowE2 (L : grid2.Coords) (k : Fin k2_t1_loop.trips) (e : Fin 4) : Memref sig .scVector .hbm S20x128 .f32 :=
  oRowG (k2_off11 L k 2#32 (BitVec.ofNat 32 e.val)) (k2_off11_inb L k 2 e)
/-- The deliveries of the four copies out of row buffer 2 at trip `k`: the output rows written with the slice, the slice back. -/
abbrev dlv2 (k : Fin k2_t1_loop.trips) (o : Buf (Elt F) (v7Loc d)) (gv : FVec F S80x128 .f32) (e : Fin 4) : sProp 𝕄 :=
  iprop(((oRowE2 L k e).view.loc (thrV d L) ↦[(oRowE2 L k e).view.set]{fullShare}
          (oRowE2 L k e).view.writes (Elt F) o [⟨Rect.whole S20x128, ReadAs.same.apply ((bslE2 e).view.read (Elt F) gv)⟩])
      ∗ ((bslE2 e).view.loc (thrV d L) ↦[(bslE2 e).view.set]{fullShare} gv))
abbrev bat2 (k : Fin k2_t1_loop.trips) (o : Buf (Elt F) (v7Loc d)) (gv : FVec F S80x128 .f32) (j u : ℕ) : sProp 𝕄 :=
  Transfers.Batch countersEmb (thrV d L) (.dma cc2_scratch19.sem) default 81920 (dlv2 d L k o gv) j u
/-- Slice `e` of row buffer 3, and batch element `e` of its chunk's rows of the output, uniformly in `e`. -/
abbrev bslE3 (e : Fin 4) : Memref sig .scVector .vmem S20x128 .f32 := (bufM3).slice (brect e) (fun _ => rfl)
abbrev oRowE3 (L : grid2.Coords) (k : Fin k2_t1_loop.trips) (e : Fin 4) : Memref sig .scVector .hbm S20x128 .f32 :=
  oRowG (k2_off11 L k 3#32 (BitVec.ofNat 32 e.val)) (k2_off11_inb L k 3 e)
/-- The deliveries of the four copies out of row buffer 3 at trip `k`: the output rows written with the slice, the slice back. -/
abbrev dlv3 (k : Fin k2_t1_loop.trips) (o : Buf (Elt F) (v7Loc d)) (gv : FVec F S80x128 .f32) (e : Fin 4) : sProp 𝕄 :=
  iprop(((oRowE3 L k e).view.loc (thrV d L) ↦[(oRowE3 L k e).view.set]{fullShare}
          (oRowE3 L k e).view.writes (Elt F) o [⟨Rect.whole S20x128, ReadAs.same.apply ((bslE3 e).view.read (Elt F) gv)⟩])
      ∗ ((bslE3 e).view.loc (thrV d L) ↦[(bslE3 e).view.set]{fullShare} gv))
abbrev bat3 (k : Fin k2_t1_loop.trips) (o : Buf (Elt F) (v7Loc d)) (gv : FVec F S80x128 .f32) (j u : ℕ) : sProp 𝕄 :=
  Transfers.Batch countersEmb (thrV d L) (.dma cc2_scratch20.sem) default 81920 (dlv3 d L k o gv) j u
/-- Slice `e` of row buffer 4, and batch element `e` of its chunk's rows of the output, uniformly in `e`. -/
abbrev bslE4 (e : Fin 4) : Memref sig .scVector .vmem S20x128 .f32 := (bufM4).slice (brect e) (fun _ => rfl)
abbrev oRowE4 (L : grid2.Coords) (k : Fin k2_t1_loop.trips) (e : Fin 4) : Memref sig .scVector .hbm S20x128 .f32 :=
  oRowG (k2_off11 L k 4#32 (BitVec.ofNat 32 e.val)) (k2_off11_inb L k 4 e)
/-- The deliveries of the four copies out of row buffer 4 at trip `k`: the output rows written with the slice, the slice back. -/
abbrev dlv4 (k : Fin k2_t1_loop.trips) (o : Buf (Elt F) (v7Loc d)) (gv : FVec F S80x128 .f32) (e : Fin 4) : sProp 𝕄 :=
  iprop(((oRowE4 L k e).view.loc (thrV d L) ↦[(oRowE4 L k e).view.set]{fullShare}
          (oRowE4 L k e).view.writes (Elt F) o [⟨Rect.whole S20x128, ReadAs.same.apply ((bslE4 e).view.read (Elt F) gv)⟩])
      ∗ ((bslE4 e).view.loc (thrV d L) ↦[(bslE4 e).view.set]{fullShare} gv))
abbrev bat4 (k : Fin k2_t1_loop.trips) (o : Buf (Elt F) (v7Loc d)) (gv : FVec F S80x128 .f32) (j u : ℕ) : sProp 𝕄 :=
  Transfers.Batch countersEmb (thrV d L) (.dma cc2_scratch21.sem) default 81920 (dlv4 d L k o gv) j u
/-- Slice `e` of row buffer 5, and batch element `e` of its chunk's rows of the output, uniformly in `e`. -/
abbrev bslE5 (e : Fin 4) : Memref sig .scVector .vmem S20x128 .f32 := (bufM5).slice (brect e) (fun _ => rfl)
abbrev oRowE5 (L : grid2.Coords) (k : Fin k2_t1_loop.trips) (e : Fin 4) : Memref sig .scVector .hbm S20x128 .f32 :=
  oRowG (k2_off11 L k 5#32 (BitVec.ofNat 32 e.val)) (k2_off11_inb L k 5 e)
/-- The deliveries of the four copies out of row buffer 5 at trip `k`: the output rows written with the slice, the slice back. -/
abbrev dlv5 (k : Fin k2_t1_loop.trips) (o : Buf (Elt F) (v7Loc d)) (gv : FVec F S80x128 .f32) (e : Fin 4) : sProp 𝕄 :=
  iprop(((oRowE5 L k e).view.loc (thrV d L) ↦[(oRowE5 L k e).view.set]{fullShare}
          (oRowE5 L k e).view.writes (Elt F) o [⟨Rect.whole S20x128, ReadAs.same.apply ((bslE5 e).view.read (Elt F) gv)⟩])
      ∗ ((bslE5 e).view.loc (thrV d L) ↦[(bslE5 e).view.set]{fullShare} gv))
abbrev bat5 (k : Fin k2_t1_loop.trips) (o : Buf (Elt F) (v7Loc d)) (gv : FVec F S80x128 .f32) (j u : ℕ) : sProp 𝕄 :=
  Transfers.Batch countersEmb (thrV d L) (.dma cc2_scratch22.sem) default 81920 (dlv5 d L k o gv) j u
/-- Slice `e` of row buffer 6, and batch element `e` of its chunk's rows of the output, uniformly in `e`. -/
abbrev bslE6 (e : Fin 4) : Memref sig .scVector .vmem S20x128 .f32 := (bufM6).slice (brect e) (fun _ => rfl)
abbrev oRowE6 (L : grid2.Coords) (k : Fin k2_t1_loop.trips) (e : Fin 4) : Memref sig .scVector .hbm S20x128 .f32 :=
  oRowG (k2_off11 L k 6#32 (BitVec.ofNat 32 e.val)) (k2_off11_inb L k 6 e)
/-- The deliveries of the four copies out of row buffer 6 at trip `k`: the output rows written with the slice, the slice back. -/
abbrev dlv6 (k : Fin k2_t1_loop.trips) (o : Buf (Elt F) (v7Loc d)) (gv : FVec F S80x128 .f32) (e : Fin 4) : sProp 𝕄 :=
  iprop(((oRowE6 L k e).view.loc (thrV d L) ↦[(oRowE6 L k e).view.set]{fullShare}
          (oRowE6 L k e).view.writes (Elt F) o [⟨Rect.whole S20x128, ReadAs.same.apply ((bslE6 e).view.read (Elt F) gv)⟩])
      ∗ ((bslE6 e).view.loc (thrV d L) ↦[(bslE6 e).view.set]{fullShare} gv))
abbrev bat6 (k : Fin k2_t1_loop.trips) (o : Buf (Elt F) (v7Loc d)) (gv : FVec F S80x128 .f32) (j u : ℕ) : sProp 𝕄 :=
  Transfers.Batch countersEmb (thrV d L) (.dma cc2_scratch23.sem) default 81920 (dlv6 d L k o gv) j u
/-- Slice `e` of row buffer 7, and batch element `e` of its chunk's rows of the output, uniformly in `e`. -/
abbrev bslE7 (e : Fin 4) : Memref sig .scVector .vmem S20x128 .f32 := (bufM7).slice (brect e) (fun _ => rfl)
abbrev oRowE7 (L : grid2.Coords) (k : Fin k2_t1_loop.trips) (e : Fin 4) : Memref sig .scVector .hbm S20x128 .f32 :=
  oRowG (k2_off11 L k 7#32 (BitVec.ofNat 32 e.val)) (k2_off11_inb L k 7 e)
/-- The deliveries of the four copies out of row buffer 7 at trip `k`: the output rows written with the slice, the slice back. -/
abbrev dlv7 (k : Fin k2_t1_loop.trips) (o : Buf (Elt F) (v7Loc d)) (gv : FVec F S80x128 .f32) (e : Fin 4) : sProp 𝕄 :=
  iprop(((oRowE7 L k e).view.loc (thrV d L) ↦[(oRowE7 L k e).view.set]{fullShare}
          (oRowE7 L k e).view.writes (Elt F) o [⟨Rect.whole S20x128, ReadAs.same.apply ((bslE7 e).view.read (Elt F) gv)⟩])
      ∗ ((bslE7 e).view.loc (thrV d L) ↦[(bslE7 e).view.set]{fullShare} gv))
abbrev bat7 (k : Fin k2_t1_loop.trips) (o : Buf (Elt F) (v7Loc d)) (gv : FVec F S80x128 .f32) (j u : ℕ) : sProp 𝕄 :=
  Transfers.Batch countersEmb (thrV d L) (.dma cc2_scratch24.sem) default 81920 (dlv7 d L k o gv) j u

end Batches

section Offs

theorem widL_eq (L : grid2.Coords) : (widL L).val = 2 * (L 1).val + (L 0).val := by
  show (L 1).val * 2 + (L 0).val = _; omega

/-- The rows of the output the copies of buffer `r₁`, batch element `r₂`, at trip `k` name: the tile's row `32 k + 4 r₁ + r₂`. -/
theorem off11_n (L : grid2.Coords) (k : Fin k2_t1_loop.trips) (r₁ : Fin 8) (r₂ : Fin 4) (a : ℕ) (ha : a = 32 * k.val + (4 * r₁.val + r₂.val)) :
    k2_off11 L k (BitVec.ofNat 32 r₁.val) (BitVec.ofNat 32 r₂.val) = ![512 * (widL L).val + a, 0, 0] := by
  subst ha
  rw [k2_off11_eq, widL_eq]
  refine congrArg (fun a => (![a, 0, 0] : Fin 3 → ℕ)) ?_
  omega

end Offs

section Res2

variable (d : Dev nD) (L : grid2.Coords)

/-- `take_oRow` with the next row number given. -/
theorem take_oRow' (w : Fin 32) (a a' : ℕ) (ha : a < 512) (ha' : a' = a + 1) (off : Fin 3 → ℕ) (inb : ∀ a, off a + S1x20x128.size a ≤ S16384x20x128.size a)
    (hoff : off = ![512 * w.val + a, 0, 0]) (f : Buf (Elt F) (v7Loc d)) :
    (v7Loc d ↦[rowsFrom w a]{fullShare} f : sProp 𝕄)
      ⊢ iprop(((oRowG off inb).view.loc (thrV d L) ↦[(oRowG off inb).view.set]{fullShare} f) ∗ v7Loc d ↦[rowsFrom w a']{fullShare} f) := by
  subst ha'; exact (take_oRow d L w a ha off inb hoff f).1

end Res2

section Land

variable (d : Dev nD) (L : grid2.Coords)

theorem writes_whole0 (f : Buf (Elt F) ((bufM0).view.loc (thrV d L))) (pay : (Rect.whole S80x128).shape.Idx → Elt F .f32) :
    (bufM0).view.writes (Elt F) f [⟨Rect.whole S80x128, pay⟩] = pay := by
  funext i
  show ((View.whole cc2_scratch1).slice (Rect.whole S80x128)).write (Elt F) f pay Finset.univ i = pay i
  have hi : ((View.whole cc2_scratch1).slice (Rect.whole S80x128)).emb i = i := by
    show (View.whole cc2_scratch1).emb ((Rect.whole S80x128).emb i) = i
    rw [Rect.emb_whole_apply]; rfl
  conv_lhs => rw [← hi]
  exact (View.write_emb_of_mem _ _ (Finset.mem_univ _)).trans (cast_eq _ _)

/-- Row buffer 0 after a gather landed in it whole: its four slices at the gathered rows. -/
theorem buf_land0 (f : Buf (Elt F) ((bufM0).view.loc (thrV d L))) (pay : (Rect.whole S80x128).shape.Idx → Elt F .f32) :
    ((bufM0).view.loc (thrV d L) ↦{fullShare} (bufM0).view.writes (Elt F) f [⟨Rect.whole S80x128, pay⟩] : sProp 𝕄)
      ⊢ iprop(∃ g : FVec F S80x128 .f32, ⌜g = pay⌝ ∗ ((bsl0_0).view.loc (thrV d L) ↦[(bsl0_0).view.set]{fullShare} g) ∗ ((bsl0_1).view.loc (thrV d L) ↦[(bsl0_1).view.set]{fullShare} g) ∗ ((bsl0_2).view.loc (thrV d L) ↦[(bsl0_2).view.set]{fullShare} g) ∗ ((bsl0_3).view.loc (thrV d L) ↦[(bsl0_3).view.set]{fullShare} g)) := by
  rw [writes_whole0, buf_split0]
  iintro H
  iexists pay
  isplitr; · ipureintro; rfl
  iexact H
theorem writes_whole1 (f : Buf (Elt F) ((bufM1).view.loc (thrV d L))) (pay : (Rect.whole S80x128).shape.Idx → Elt F .f32) :
    (bufM1).view.writes (Elt F) f [⟨Rect.whole S80x128, pay⟩] = pay := by
  funext i
  show ((View.whole cc2_scratch2).slice (Rect.whole S80x128)).write (Elt F) f pay Finset.univ i = pay i
  have hi : ((View.whole cc2_scratch2).slice (Rect.whole S80x128)).emb i = i := by
    show (View.whole cc2_scratch2).emb ((Rect.whole S80x128).emb i) = i
    rw [Rect.emb_whole_apply]; rfl
  conv_lhs => rw [← hi]
  exact (View.write_emb_of_mem _ _ (Finset.mem_univ _)).trans (cast_eq _ _)

/-- Row buffer 1 after a gather landed in it whole: its four slices at the gathered rows. -/
theorem buf_land1 (f : Buf (Elt F) ((bufM1).view.loc (thrV d L))) (pay : (Rect.whole S80x128).shape.Idx → Elt F .f32) :
    ((bufM1).view.loc (thrV d L) ↦{fullShare} (bufM1).view.writes (Elt F) f [⟨Rect.whole S80x128, pay⟩] : sProp 𝕄)
      ⊢ iprop(∃ g : FVec F S80x128 .f32, ⌜g = pay⌝ ∗ ((bsl1_0).view.loc (thrV d L) ↦[(bsl1_0).view.set]{fullShare} g) ∗ ((bsl1_1).view.loc (thrV d L) ↦[(bsl1_1).view.set]{fullShare} g) ∗ ((bsl1_2).view.loc (thrV d L) ↦[(bsl1_2).view.set]{fullShare} g) ∗ ((bsl1_3).view.loc (thrV d L) ↦[(bsl1_3).view.set]{fullShare} g)) := by
  rw [writes_whole1, buf_split1]
  iintro H
  iexists pay
  isplitr; · ipureintro; rfl
  iexact H
theorem writes_whole2 (f : Buf (Elt F) ((bufM2).view.loc (thrV d L))) (pay : (Rect.whole S80x128).shape.Idx → Elt F .f32) :
    (bufM2).view.writes (Elt F) f [⟨Rect.whole S80x128, pay⟩] = pay := by
  funext i
  show ((View.whole cc2_scratch3).slice (Rect.whole S80x128)).write (Elt F) f pay Finset.univ i = pay i
  have hi : ((View.whole cc2_scratch3).slice (Rect.whole S80x128)).emb i = i := by
    show (View.whole cc2_scratch3).emb ((Rect.whole S80x128).emb i) = i
    rw [Rect.emb_whole_apply]; rfl
  conv_lhs => rw [← hi]
  exact (View.write_emb_of_mem _ _ (Finset.mem_univ _)).trans (cast_eq _ _)

/-- Row buffer 2 after a gather landed in it whole: its four slices at the gathered rows. -/
theorem buf_land2 (f : Buf (Elt F) ((bufM2).view.loc (thrV d L))) (pay : (Rect.whole S80x128).shape.Idx → Elt F .f32) :
    ((bufM2).view.loc (thrV d L) ↦{fullShare} (bufM2).view.writes (Elt F) f [⟨Rect.whole S80x128, pay⟩] : sProp 𝕄)
      ⊢ iprop(∃ g : FVec F S80x128 .f32, ⌜g = pay⌝ ∗ ((bsl2_0).view.loc (thrV d L) ↦[(bsl2_0).view.set]{fullShare} g) ∗ ((bsl2_1).view.loc (thrV d L) ↦[(bsl2_1).view.set]{fullShare} g) ∗ ((bsl2_2).view.loc (thrV d L) ↦[(bsl2_2).view.set]{fullShare} g) ∗ ((bsl2_3).view.loc (thrV d L) ↦[(bsl2_3).view.set]{fullShare} g)) := by
  rw [writes_whole2, buf_split2]
  iintro H
  iexists pay
  isplitr; · ipureintro; rfl
  iexact H
theorem writes_whole3 (f : Buf (Elt F) ((bufM3).view.loc (thrV d L))) (pay : (Rect.whole S80x128).shape.Idx → Elt F .f32) :
    (bufM3).view.writes (Elt F) f [⟨Rect.whole S80x128, pay⟩] = pay := by
  funext i
  show ((View.whole cc2_scratch4).slice (Rect.whole S80x128)).write (Elt F) f pay Finset.univ i = pay i
  have hi : ((View.whole cc2_scratch4).slice (Rect.whole S80x128)).emb i = i := by
    show (View.whole cc2_scratch4).emb ((Rect.whole S80x128).emb i) = i
    rw [Rect.emb_whole_apply]; rfl
  conv_lhs => rw [← hi]
  exact (View.write_emb_of_mem _ _ (Finset.mem_univ _)).trans (cast_eq _ _)

/-- Row buffer 3 after a gather landed in it whole: its four slices at the gathered rows. -/
theorem buf_land3 (f : Buf (Elt F) ((bufM3).view.loc (thrV d L))) (pay : (Rect.whole S80x128).shape.Idx → Elt F .f32) :
    ((bufM3).view.loc (thrV d L) ↦{fullShare} (bufM3).view.writes (Elt F) f [⟨Rect.whole S80x128, pay⟩] : sProp 𝕄)
      ⊢ iprop(∃ g : FVec F S80x128 .f32, ⌜g = pay⌝ ∗ ((bsl3_0).view.loc (thrV d L) ↦[(bsl3_0).view.set]{fullShare} g) ∗ ((bsl3_1).view.loc (thrV d L) ↦[(bsl3_1).view.set]{fullShare} g) ∗ ((bsl3_2).view.loc (thrV d L) ↦[(bsl3_2).view.set]{fullShare} g) ∗ ((bsl3_3).view.loc (thrV d L) ↦[(bsl3_3).view.set]{fullShare} g)) := by
  rw [writes_whole3, buf_split3]
  iintro H
  iexists pay
  isplitr; · ipureintro; rfl
  iexact H
theorem writes_whole4 (f : Buf (Elt F) ((bufM4).view.loc (thrV d L))) (pay : (Rect.whole S80x128).shape.Idx → Elt F .f32) :
    (bufM4).view.writes (Elt F) f [⟨Rect.whole S80x128, pay⟩] = pay := by
  funext i
  show ((View.whole cc2_scratch5).slice (Rect.whole S80x128)).write (Elt F) f pay Finset.univ i = pay i
  have hi : ((View.whole cc2_scratch5).slice (Rect.whole S80x128)).emb i = i := by
    show (View.whole cc2_scratch5).emb ((Rect.whole S80x128).emb i) = i
    rw [Rect.emb_whole_apply]; rfl
  conv_lhs => rw [← hi]
  exact (View.write_emb_of_mem _ _ (Finset.mem_univ _)).trans (cast_eq _ _)

/-- Row buffer 4 after a gather landed in it whole: its four slices at the gathered rows. -/
theorem buf_land4 (f : Buf (Elt F) ((bufM4).view.loc (thrV d L))) (pay : (Rect.whole S80x128).shape.Idx → Elt F .f32) :
    ((bufM4).view.loc (thrV d L) ↦{fullShare} (bufM4).view.writes (Elt F) f [⟨Rect.whole S80x128, pay⟩] : sProp 𝕄)
      ⊢ iprop(∃ g : FVec F S80x128 .f32, ⌜g = pay⌝ ∗ ((bsl4_0).view.loc (thrV d L) ↦[(bsl4_0).view.set]{fullShare} g) ∗ ((bsl4_1).view.loc (thrV d L) ↦[(bsl4_1).view.set]{fullShare} g) ∗ ((bsl4_2).view.loc (thrV d L) ↦[(bsl4_2).view.set]{fullShare} g) ∗ ((bsl4_3).view.loc (thrV d L) ↦[(bsl4_3).view.set]{fullShare} g)) := by
  rw [writes_whole4, buf_split4]
  iintro H
  iexists pay
  isplitr; · ipureintro; rfl
  iexact H
theorem writes_whole5 (f : Buf (Elt F) ((bufM5).view.loc (thrV d L))) (pay : (Rect.whole S80x128).shape.Idx → Elt F .f32) :
    (bufM5).view.writes (Elt F) f [⟨Rect.whole S80x128, pay⟩] = pay := by
  funext i
  show ((View.whole cc2_scratch6).slice (Rect.whole S80x128)).write (Elt F) f pay Finset.univ i = pay i
  have hi : ((View.whole cc2_scratch6).slice (Rect.whole S80x128)).emb i = i := by
    show (View.whole cc2_scratch6).emb ((Rect.whole S80x128).emb i) = i
    rw [Rect.emb_whole_apply]; rfl
  conv_lhs => rw [← hi]
  exact (View.write_emb_of_mem _ _ (Finset.mem_univ _)).trans (cast_eq _ _)

/-- Row buffer 5 after a gather landed in it whole: its four slices at the gathered rows. -/
theorem buf_land5 (f : Buf (Elt F) ((bufM5).view.loc (thrV d L))) (pay : (Rect.whole S80x128).shape.Idx → Elt F .f32) :
    ((bufM5).view.loc (thrV d L) ↦{fullShare} (bufM5).view.writes (Elt F) f [⟨Rect.whole S80x128, pay⟩] : sProp 𝕄)
      ⊢ iprop(∃ g : FVec F S80x128 .f32, ⌜g = pay⌝ ∗ ((bsl5_0).view.loc (thrV d L) ↦[(bsl5_0).view.set]{fullShare} g) ∗ ((bsl5_1).view.loc (thrV d L) ↦[(bsl5_1).view.set]{fullShare} g) ∗ ((bsl5_2).view.loc (thrV d L) ↦[(bsl5_2).view.set]{fullShare} g) ∗ ((bsl5_3).view.loc (thrV d L) ↦[(bsl5_3).view.set]{fullShare} g)) := by
  rw [writes_whole5, buf_split5]
  iintro H
  iexists pay
  isplitr; · ipureintro; rfl
  iexact H
theorem writes_whole6 (f : Buf (Elt F) ((bufM6).view.loc (thrV d L))) (pay : (Rect.whole S80x128).shape.Idx → Elt F .f32) :
    (bufM6).view.writes (Elt F) f [⟨Rect.whole S80x128, pay⟩] = pay := by
  funext i
  show ((View.whole cc2_scratch7).slice (Rect.whole S80x128)).write (Elt F) f pay Finset.univ i = pay i
  have hi : ((View.whole cc2_scratch7).slice (Rect.whole S80x128)).emb i = i := by
    show (View.whole cc2_scratch7).emb ((Rect.whole S80x128).emb i) = i
    rw [Rect.emb_whole_apply]; rfl
  conv_lhs => rw [← hi]
  exact (View.write_emb_of_mem _ _ (Finset.mem_univ _)).trans (cast_eq _ _)

/-- Row buffer 6 after a gather landed in it whole: its four slices at the gathered rows. -/
theorem buf_land6 (f : Buf (Elt F) ((bufM6).view.loc (thrV d L))) (pay : (Rect.whole S80x128).shape.Idx → Elt F .f32) :
    ((bufM6).view.loc (thrV d L) ↦{fullShare} (bufM6).view.writes (Elt F) f [⟨Rect.whole S80x128, pay⟩] : sProp 𝕄)
      ⊢ iprop(∃ g : FVec F S80x128 .f32, ⌜g = pay⌝ ∗ ((bsl6_0).view.loc (thrV d L) ↦[(bsl6_0).view.set]{fullShare} g) ∗ ((bsl6_1).view.loc (thrV d L) ↦[(bsl6_1).view.set]{fullShare} g) ∗ ((bsl6_2).view.loc (thrV d L) ↦[(bsl6_2).view.set]{fullShare} g) ∗ ((bsl6_3).view.loc (thrV d L) ↦[(bsl6_3).view.set]{fullShare} g)) := by
  rw [writes_whole6, buf_split6]
  iintro H
  iexists pay
  isplitr; · ipureintro; rfl
  iexact H
theorem writes_whole7 (f : Buf (Elt F) ((bufM7).view.loc (thrV d L))) (pay : (Rect.whole S80x128).shape.Idx → Elt F .f32) :
    (bufM7).view.writes (Elt F) f [⟨Rect.whole S80x128, pay⟩] = pay := by
  funext i
  show ((View.whole cc2_scratch8).slice (Rect.whole S80x128)).write (Elt F) f pay Finset.univ i = pay i
  have hi : ((View.whole cc2_scratch8).slice (Rect.whole S80x128)).emb i = i := by
    show (View.whole cc2_scratch8).emb ((Rect.whole S80x128).emb i) = i
    rw [Rect.emb_whole_apply]; rfl
  conv_lhs => rw [← hi]
  exact (View.write_emb_of_mem _ _ (Finset.mem_univ _)).trans (cast_eq _ _)

/-- Row buffer 7 after a gather landed in it whole: its four slices at the gathered rows. -/
theorem buf_land7 (f : Buf (Elt F) ((bufM7).view.loc (thrV d L))) (pay : (Rect.whole S80x128).shape.Idx → Elt F .f32) :
    ((bufM7).view.loc (thrV d L) ↦{fullShare} (bufM7).view.writes (Elt F) f [⟨Rect.whole S80x128, pay⟩] : sProp 𝕄)
      ⊢ iprop(∃ g : FVec F S80x128 .f32, ⌜g = pay⌝ ∗ ((bsl7_0).view.loc (thrV d L) ↦[(bsl7_0).view.set]{fullShare} g) ∗ ((bsl7_1).view.loc (thrV d L) ↦[(bsl7_1).view.set]{fullShare} g) ∗ ((bsl7_2).view.loc (thrV d L) ↦[(bsl7_2).view.set]{fullShare} g) ∗ ((bsl7_3).view.loc (thrV d L) ↦[(bsl7_3).view.set]{fullShare} g)) := by
  rw [writes_whole7, buf_split7]
  iintro H
  iexists pay
  isplitr; · ipureintro; rfl
  iexact H

end Land

section DrainProg

/-- The kernel's statements after the loop: the thirty-two waits that drain the last trip's copies. -/
noncomputable def drainProg (i : grid2.Coords) (arg2 : Memref sig .scVector .hbm S1960x128 .f32) (harg2 : arg2.IsWhole) (arg3 : Memref sig .scVector .hbm S32x128x80 .i32) (harg3 : arg3.IsWhole) (arg4 : Memref sig .scVector .hbm S16384x20x128 .f32) (harg4 : arg4.IsWhole) (arg5 : Memref sig .scVector .vmem S128x80 .i32) (harg5 : arg5.IsWhole) (arg6 : Memref sig .scVector .vmem S80x128 .f32) (harg6 : arg6.IsWhole) (arg7 : Memref sig .scVector .vmem S80x128 .f32) (harg7 : arg7.IsWhole) (arg8 : Memref sig .scVector .vmem S80x128 .f32) (harg8 : arg8.IsWhole) (arg9 : Memref sig .scVector .vmem S80x128 .f32) (harg9 : arg9.IsWhole) (arg10 : Memref sig .scVector .vmem S80x128 .f32) (harg10 : arg10.IsWhole) (arg11 : Memref sig .scVector .vmem S80x128 .f32) (harg11 : arg11.IsWhole) (arg12 : Memref sig .scVector .vmem S80x128 .f32) (harg12 : arg12.IsWhole) (arg13 : Memref sig .scVector .vmem S80x128 .f32) (harg13 : arg13.IsWhole) (arg14 : DmaSems sig S_) (arg15 : DmaSems sig S_) (arg16 : DmaSems sig S_) (arg17 : DmaSems sig S_) (arg18 : DmaSems sig S_) (arg19 : DmaSems sig S_) (arg20 : DmaSems sig S_) (arg21 : DmaSems sig S_) (arg22 : DmaSems sig S_) (arg23 : DmaSems sig S_) (arg24 : DmaSems sig S_) (arg25 : DmaSems sig S_) (arg26 : DmaSems sig S_) (arg27 : DmaSems sig S_) (arg28 : DmaSems sig S_) (arg29 : DmaSems sig S_) (v260_r0 : DmaSems sig S_) (v2 : BitVec 32) :
    Prog (TpuEff nD τ sig (Elt F) Λ₀ (.scVector ((i 0).castLE hcore2) ((i 1).castLE hsub2))) PUnit := do
  k2_part24 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 arg23 arg24 arg25 arg26 arg27 arg28 arg29 v260_r0 v2 -- statements 61–120 of 641: their part
  k2_part25 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 arg23 arg24 arg25 arg26 arg27 arg28 arg29 v260_r0 v2 -- statements 121–180 of 641: their part
  k2_part26 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 arg23 arg24 arg25 arg26 arg27 arg28 arg29 v260_r0 v2 -- statements 181–240 of 641: their part
  k2_part27 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 arg23 arg24 arg25 arg26 arg27 arg28 arg29 v260_r0 v2 -- statements 241–300 of 641: their part
  k2_part28 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 arg23 arg24 arg25 arg26 arg27 arg28 arg29 v260_r0 v2 -- statements 301–360 of 641: their part
  k2_part29 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 arg23 arg24 arg25 arg26 arg27 arg28 arg29 v260_r0 v2 -- statements 361–420 of 641: their part
  k2_part30 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 arg23 arg24 arg25 arg26 arg27 arg28 arg29 v260_r0 v2 -- statements 421–480 of 641: their part
  k2_part31 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 arg23 arg24 arg25 arg26 arg27 arg28 arg29 v260_r0 v2 -- statements 481–540 of 641: their part
  k2_part32 i arg2 harg2 arg3 harg3 arg4 harg4 arg5 harg5 arg6 harg6 arg7 harg7 arg8 harg8 arg9 harg9 arg10 harg10 arg11 harg11 arg12 harg12 arg13 harg13 arg14 arg15 arg16 arg17 arg18 arg19 arg20 arg21 arg22 arg23 arg24 arg25 arg26 arg27 arg28 arg29 v260_r0 v2 -- statements 541–600 of 641: their part
  -- %243 = tpu.memref_slice %arg4[%231, %c0_i32_296, %c0_i32_297] : memref<16384x20x128xf32, #tpu.memory_space<hbm>> -> memref<1x20x128xf32, #tpu.memory_space<hbm>>  @ kernel:72  — not in the skeleton
  -- %244 = tpu.memref_squeeze %243 : memref<1x20x128xf32, #tpu.memory_space<hbm>> -> memref<20x128xf32, #tpu.memory_space<hbm>>  @ kernel:72  — not in the skeleton
  let v245 : Memref sig .scVector .hbm S1x20x128 .f32 := arg4.slice (Rect.unit (s := S16384x20x128) (k2_off12 i 1#32) S1x20x128.size (k2_off12_inb i 1)) (fun _ => rfl) -- %245 = tpu.memref_slice %arg4[%231, %c0_i32_298, %c0_i32_299] : memref<16384x20x128xf32, #tpu.memory_space<hbm>> -> memref<1x20x128xf32, #tpu.memory_space<hbm>>  @ kernel:72
  let v246 : Memref sig .scVector .hbm S20x128 .f32 := v245.squeeze S20x128 squeezes_S1x20x128_S20x128 -- %246 = tpu.memref_squeeze %245 : memref<1x20x128xf32, #tpu.memory_space<hbm>> -> memref<20x128xf32, #tpu.memory_space<hbm>>  @ kernel:72
  let v247 : Memref sig .scVector .vmem S20x128 .f32 := arg13.slice (Rect.unit (s := S80x128) ![20, 0] S20x128.size inb_S80x128_S20x128_20_0) (fun _ => rfl) -- %247 = tpu.memref_slice %arg13[%c20_i32_300, %c0_i32_301] : memref<80x128xf32, #tpu.memory_space<vmem>> -> memref<20x128xf32, #tpu.memory_space<vmem>>  @ kernel:72
  Prog.lift (.waitDma2 arg29.sem v247 v246 (View.wordExact_bits rfl) ((View.wordExact_bits rfl).reshape _ _)) -- tpu.wait_dma2 semaphore(%arg29 : memref<!tpu.dma_semaphore, #tpu.memory_space<semaphore_mem>>) src(%247 : memref<20x128xf32, #tpu.memory_space<vmem>>) dst(%246 : memref<20x128xf32, #tpu.memory_space<hbm>>)  @ kernel:72
  -- %248 = tpu.memref_slice %arg13[%c40_i32_302, %c0_i32_303] : memref<80x128xf32, #tpu.memory_space<vmem>> -> memref<20x128xf32, #tpu.memory_space<vmem>>  @ kernel:72  — not in the skeleton
  -- %249 = tpu.memref_slice %arg4[%233, %c0_i32_304, %c0_i32_305] : memref<16384x20x128xf32, #tpu.memory_space<hbm>> -> memref<1x20x128xf32, #tpu.memory_space<hbm>>  @ kernel:72  — not in the skeleton
  -- %250 = tpu.memref_squeeze %249 : memref<1x20x128xf32, #tpu.memory_space<hbm>> -> memref<20x128xf32, #tpu.memory_space<hbm>>  @ kernel:72  — not in the skeleton
  let v251 : Memref sig .scVector .hbm S1x20x128 .f32 := arg4.slice (Rect.unit (s := S16384x20x128) (k2_off12 i 2#32) S1x20x128.size (k2_off12_inb i 2)) (fun _ => rfl) -- %251 = tpu.memref_slice %arg4[%233, %c0_i32_306, %c0_i32_307] : memref<16384x20x128xf32, #tpu.memory_space<hbm>> -> memref<1x20x128xf32, #tpu.memory_space<hbm>>  @ kernel:72
  let v252 : Memref sig .scVector .hbm S20x128 .f32 := v251.squeeze S20x128 squeezes_S1x20x128_S20x128 -- %252 = tpu.memref_squeeze %251 : memref<1x20x128xf32, #tpu.memory_space<hbm>> -> memref<20x128xf32, #tpu.memory_space<hbm>>  @ kernel:72
  let v253 : Memref sig .scVector .vmem S20x128 .f32 := arg13.slice (Rect.unit (s := S80x128) ![40, 0] S20x128.size inb_S80x128_S20x128_40_0) (fun _ => rfl) -- %253 = tpu.memref_slice %arg13[%c40_i32_308, %c0_i32_309] : memref<80x128xf32, #tpu.memory_space<vmem>> -> memref<20x128xf32, #tpu.memory_space<vmem>>  @ kernel:72
  Prog.lift (.waitDma2 arg29.sem v253 v252 (View.wordExact_bits rfl) ((View.wordExact_bits rfl).reshape _ _)) -- tpu.wait_dma2 semaphore(%arg29 : memref<!tpu.dma_semaphore, #tpu.memory_space<semaphore_mem>>) src(%253 : memref<20x128xf32, #tpu.memory_space<vmem>>) dst(%252 : memref<20x128xf32, #tpu.memory_space<hbm>>)  @ kernel:72
  -- %254 = tpu.memref_slice %arg13[%c60_i32_310, %c0_i32_311] : memref<80x128xf32, #tpu.memory_space<vmem>> -> memref<20x128xf32, #tpu.memory_space<vmem>>  @ kernel:72  — not in the skeleton
  -- %255 = tpu.memref_slice %arg4[%235, %c0_i32_312, %c0_i32_313] : memref<16384x20x128xf32, #tpu.memory_space<hbm>> -> memref<1x20x128xf32, #tpu.memory_space<hbm>>  @ kernel:72  — not in the skeleton
  -- %256 = tpu.memref_squeeze %255 : memref<1x20x128xf32, #tpu.memory_space<hbm>> -> memref<20x128xf32, #tpu.memory_space<hbm>>  @ kernel:72  — not in the skeleton
  let v257 : Memref sig .scVector .hbm S1x20x128 .f32 := arg4.slice (Rect.unit (s := S16384x20x128) (k2_off12 i 3#32) S1x20x128.size (k2_off12_inb i 3)) (fun _ => rfl) -- %257 = tpu.memref_slice %arg4[%235, %c0_i32_314, %c0_i32_315] : memref<16384x20x128xf32, #tpu.memory_space<hbm>> -> memref<1x20x128xf32, #tpu.memory_space<hbm>>  @ kernel:72
  let v258 : Memref sig .scVector .hbm S20x128 .f32 := v257.squeeze S20x128 squeezes_S1x20x128_S20x128 -- %258 = tpu.memref_squeeze %257 : memref<1x20x128xf32, #tpu.memory_space<hbm>> -> memref<20x128xf32, #tpu.memory_space<hbm>>  @ kernel:72
  let v259 : Memref sig .scVector .vmem S20x128 .f32 := arg13.slice (Rect.unit (s := S80x128) ![60, 0] S20x128.size inb_S80x128_S20x128_60_0) (fun _ => rfl) -- %259 = tpu.memref_slice %arg13[%c60_i32_316, %c0_i32_317] : memref<80x128xf32, #tpu.memory_space<vmem>> -> memref<20x128xf32, #tpu.memory_space<vmem>>  @ kernel:72
  Prog.lift (.waitDma2 arg29.sem v259 v258 (View.wordExact_bits rfl) ((View.wordExact_bits rfl).reshape _ _)) -- tpu.wait_dma2 semaphore(%arg29 : memref<!tpu.dma_semaphore, #tpu.memory_space<semaphore_mem>>) src(%259 : memref<20x128xf32, #tpu.memory_space<vmem>>) dst(%258 : memref<20x128xf32, #tpu.memory_space<hbm>>)  @ kernel:72
  pure ⟨⟩                                                               -- func.return

end DrainProg

/-! ## The loop's invariant -/

section Inv

variable (d : Dev nD) (L : grid2.Coords) (cmb : Buf (Elt F) (v5Loc d)) (ix : Buf (Elt F) (v6Loc d)) (o : Buf (Elt F) (v7Loc d))
  (sc0 : Buf (Elt F) ((lstV).view.loc (thrV d L))) (O : CellTallies nD τ sig (HIx 1))

/-- A natural number as a trip (itself, below sixteen). -/
def fk (n : ℕ) : Fin k2_t1_loop.trips := ⟨n % 16, trips_eq ▸ Nat.mod_lt _ (by decide)⟩

/-- The table's and the list's read tokens, one per gather semaphore, and the gather semaphores at zero: every trip
    finds them so and leaves them so. -/
abbrev toksI : sProp 𝕄 :=
  iprop(((v5V).view.loc (thrV d L) ↦{Transfers.shareTokN (cq (widL L)) 9} cmb)
      ∗ ((v5V).view.loc (thrV d L) ↦{Transfers.shareTokN (cq (widL L)) 10} cmb)
      ∗ ((v5V).view.loc (thrV d L) ↦{Transfers.shareTokN (cq (widL L)) 11} cmb)
      ∗ ((v5V).view.loc (thrV d L) ↦{Transfers.shareTokN (cq (widL L)) 12} cmb)
      ∗ ((v5V).view.loc (thrV d L) ↦{Transfers.shareTokN (cq (widL L)) 13} cmb)
      ∗ ((v5V).view.loc (thrV d L) ↦{Transfers.shareTokN (cq (widL L)) 14} cmb)
      ∗ ((v5V).view.loc (thrV d L) ↦{Transfers.shareTokN (cq (widL L)) 15} cmb)
      ∗ ((v5V).view.loc (thrV d L) ↦{Transfers.shareTokN (cq (widL L)) 16} cmb)
      ∗ ((lstV).view.loc (thrV d L) ↦{Transfers.shareTokN fullShare 9} sc0)
      ∗ ((lstV).view.loc (thrV d L) ↦{Transfers.shareTokN fullShare 10} sc0)
      ∗ ((lstV).view.loc (thrV d L) ↦{Transfers.shareTokN fullShare 11} sc0)
      ∗ ((lstV).view.loc (thrV d L) ↦{Transfers.shareTokN fullShare 12} sc0)
      ∗ ((lstV).view.loc (thrV d L) ↦{Transfers.shareTokN fullShare 13} sc0)
      ∗ ((lstV).view.loc (thrV d L) ↦{Transfers.shareTokN fullShare 14} sc0)
      ∗ ((lstV).view.loc (thrV d L) ↦{Transfers.shareTokN fullShare 15} sc0)
      ∗ ((lstV).view.loc (thrV d L) ↦{Transfers.shareTokN fullShare 16} sc0)
      ∗ semVal (thrV d L, SemLoc.dma cc2_scratch9.sem) 0
      ∗ semVal (thrV d L, SemLoc.dma cc2_scratch10.sem) 0
      ∗ semVal (thrV d L, SemLoc.dma cc2_scratch11.sem) 0
      ∗ semVal (thrV d L, SemLoc.dma cc2_scratch12.sem) 0
      ∗ semVal (thrV d L, SemLoc.dma cc2_scratch13.sem) 0
      ∗ semVal (thrV d L, SemLoc.dma cc2_scratch14.sem) 0
      ∗ semVal (thrV d L, SemLoc.dma cc2_scratch15.sem) 0
      ∗ semVal (thrV d L, SemLoc.dma cc2_scratch16.sem) 0)

/-- The waits recorded so far are the launch's or the kernel's own. -/
abbrev owesI (W : Waits sig (HIx 1)) : sProp 𝕄 :=
  iprop(∃ W', ⌜∀ p ∈ W', p ∈ W ∨ p.2 = none⌝ ∗ owes (thrV d L) O W')

/-- The eight batches of four copies each that trip `k` leaves in flight, chunk `c + b` out of row buffer `b`. -/
abbrev batsI (k : Fin k2_t1_loop.trips) (c : ℕ) : sProp 𝕄 :=
  iprop(bat0 d L k o (gbuf cmb ix (widL L) (c + 0)) 4 0
      ∗ bat1 d L k o (gbuf cmb ix (widL L) (c + 1)) 4 0
      ∗ bat2 d L k o (gbuf cmb ix (widL L) (c + 2)) 4 0
      ∗ bat3 d L k o (gbuf cmb ix (widL L) (c + 3)) 4 0
      ∗ bat4 d L k o (gbuf cmb ix (widL L) (c + 4)) 4 0
      ∗ bat5 d L k o (gbuf cmb ix (widL L) (c + 5)) 4 0
      ∗ bat6 d L k o (gbuf cmb ix (widL L) (c + 6)) 4 0
      ∗ bat7 d L k o (gbuf cmb ix (widL L) (c + 7)) 4 0)

/-- Before the first trip: the row buffers at some contents, the copies' semaphores at zero (kept out of a run's sight). -/
abbrev firstI : sProp 𝕄 :=
  iprop((∃ f, (bufM0).view.loc (thrV d L) ↦{fullShare} f)
      ∗ (∃ f, (bufM1).view.loc (thrV d L) ↦{fullShare} f)
      ∗ (∃ f, (bufM2).view.loc (thrV d L) ↦{fullShare} f)
      ∗ (∃ f, (bufM3).view.loc (thrV d L) ↦{fullShare} f)
      ∗ (∃ f, (bufM4).view.loc (thrV d L) ↦{fullShare} f)
      ∗ (∃ f, (bufM5).view.loc (thrV d L) ↦{fullShare} f)
      ∗ (∃ f, (bufM6).view.loc (thrV d L) ↦{fullShare} f)
      ∗ (∃ f, (bufM7).view.loc (thrV d L) ↦{fullShare} f)
      ∗ hid (semVal (thrV d L, SemLoc.dma cc2_scratch17.sem) 0)
      ∗ hid (semVal (thrV d L, SemLoc.dma cc2_scratch18.sem) 0)
      ∗ hid (semVal (thrV d L, SemLoc.dma cc2_scratch19.sem) 0)
      ∗ hid (semVal (thrV d L, SemLoc.dma cc2_scratch20.sem) 0)
      ∗ hid (semVal (thrV d L, SemLoc.dma cc2_scratch21.sem) 0)
      ∗ hid (semVal (thrV d L, SemLoc.dma cc2_scratch22.sem) 0)
      ∗ hid (semVal (thrV d L, SemLoc.dma cc2_scratch23.sem) 0)
      ∗ hid (semVal (thrV d L, SemLoc.dma cc2_scratch24.sem) 0))

/-- After the last wait: the row buffers at some contents, the copies' semaphores at zero. -/
abbrev lastI : sProp 𝕄 :=
  iprop((∃ f, (bufM0).view.loc (thrV d L) ↦{fullShare} f)
      ∗ (∃ f, (bufM1).view.loc (thrV d L) ↦{fullShare} f)
      ∗ (∃ f, (bufM2).view.loc (thrV d L) ↦{fullShare} f)
      ∗ (∃ f, (bufM3).view.loc (thrV d L) ↦{fullShare} f)
      ∗ (∃ f, (bufM4).view.loc (thrV d L) ↦{fullShare} f)
      ∗ (∃ f, (bufM5).view.loc (thrV d L) ↦{fullShare} f)
      ∗ (∃ f, (bufM6).view.loc (thrV d L) ↦{fullShare} f)
      ∗ (∃ f, (bufM7).view.loc (thrV d L) ↦{fullShare} f)
      ∗ semVal (thrV d L, SemLoc.dma cc2_scratch17.sem) 0
      ∗ semVal (thrV d L, SemLoc.dma cc2_scratch18.sem) 0
      ∗ semVal (thrV d L, SemLoc.dma cc2_scratch19.sem) 0
      ∗ semVal (thrV d L, SemLoc.dma cc2_scratch20.sem) 0
      ∗ semVal (thrV d L, SemLoc.dma cc2_scratch21.sem) 0
      ∗ semVal (thrV d L, SemLoc.dma cc2_scratch22.sem) 0
      ∗ semVal (thrV d L, SemLoc.dma cc2_scratch23.sem) 0
      ∗ semVal (thrV d L, SemLoc.dma cc2_scratch24.sem) 0)

/-- The tile's first `a` rows of the output at the gathered values; its rows from the `a`-th on as launched. -/
abbrev doneI (a : ℕ) : sProp 𝕄 := v7Loc d ↦[rowsTo (widL L) a]{fullShare} gOut cmb ix
abbrev todoI (a : ℕ) : sProp 𝕄 := v7Loc d ↦[rowsFrom (widL L) a]{fullShare} o

/-- Before trip `n`. -/
def tripI (W : Waits sig (HIx 1)) (n : ℕ) (_ : Unit) : sProp 𝕄 :=
  iprop(Transfers.MayWaits (thrV d L) none O ∗ owesI d L O W ∗ toksI d L cmb sc0 ∗ doneI d L cmb ix (32 * (n - 1)) ∗ todoI d L o (32 * n)
    ∗ (if n = 0 then firstI d L else batsI d L cmb ix o (fk (n - 1)) (8 * (n - 1))))

end Inv

end Cert.ProofK.Tile

end
-- ==== Proof.TileBodyTrip0K.lean ====
import proofs.«206393_g35751307772044_cont_8to1_b_353_20_alg».proof.Proof.TileBodyInvK

noncomputable section

namespace Cert.ProofK.Tile

open Cert.Kernel Cert.Kernel.Gen
open Cert.ProofK.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ

variable (d : Dev nD) (L : grid2.Coords) (cmb : Buf (Elt F) (v5Loc d)) (ix : Buf (Elt F) (v6Loc d)) (o : Buf (Elt F) (v7Loc d))
  (sc0 : Buf (Elt F) ((lstV).view.loc (thrV d L))) (O : CellTallies nD τ sig (HIx 1))

set_option maxHeartbeats 8000000 in
theorem trip_first (v2 : BitVec 32) (k : Fin k2_t1_loop.trips) (hk : k.val = 0)
    (hsc0 : ∀ (r : Fin 128) (x : Fin 80), sc0 (ValueIdx.ix2 r x) = ix (ValueIdx.ix3 (widL L) r x))
    (hscb : ∀ i, (sc0 i).toNat < 1960) (W : Waits sig (HIx 1)) :
    iprop(Transfers.MayWaits (thrV d L) none O ∗ owes (thrV d L) O W ∗ toksI d L cmb sc0 ∗ todoI d L o (32 * k.val) ∗ firstI d L)
      ⊢ (wp frame (wpE (defs₀ (F := F)) 𝒱₀ (thrV d L) none) Set.univ
          (k2_t1_body L v5V (Memref.isWhole_whole _) v6V (Memref.isWhole_whole _) v7V (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) (Memref.whole cc2_scratch5) (Memref.isWhole_whole _)
            (Memref.whole cc2_scratch6) (Memref.isWhole_whole _) (Memref.whole cc2_scratch7) (Memref.isWhole_whole _)
            (Memref.whole cc2_scratch8) (Memref.isWhole_whole _)
            cc2_scratch9 cc2_scratch10 cc2_scratch11 cc2_scratch12 cc2_scratch13 cc2_scratch14 cc2_scratch15 cc2_scratch16
            cc2_scratch17 cc2_scratch18 cc2_scratch19 cc2_scratch20 cc2_scratch21 cc2_scratch22 cc2_scratch23 cc2_scratch24 cc2_scoped0 v2 k ())
          (fun _ => iprop(Transfers.MayWaits (thrV d L) none O ∗ owesI d L O W ∗ toksI d L cmb sc0 ∗ todoI d L o (32 * k.val + 32)
            ∗ batsI d L cmb ix o k (8 * k.val))) : sProp 𝕄) := by
  have hk16 : k.val < 16 := trips_eq ▸ k.isLt
  have hc1 : ¬ k2_cond1 k = 1#1 := fun h => by have := (cond1_iff k).mp h; omega
  have hc2 : ¬ k2_cond2 k = 1#1 := fun h => by have := (cond2_iff k).mp h; omega
  have hc3 : ¬ k2_cond3 k = 1#1 := fun h => by have := (cond3_iff k).mp h; omega
  have hc4 : ¬ k2_cond4 k = 1#1 := fun h => by have := (cond4_iff k).mp h; omega
  have hc5 : ¬ k2_cond5 k = 1#1 := fun h => by have := (cond5_iff k).mp h; omega
  have hc6 : ¬ k2_cond6 k = 1#1 := fun h => by have := (cond6_iff k).mp h; omega
  have hc7 : ¬ k2_cond7 k = 1#1 := fun h => by have := (cond7_iff k).mp h; omega
  have hc8 : ¬ k2_cond8 k = 1#1 := fun h => by have := (cond8_iff k).mp h; omega
  have hin0 : ∀ x, ((lstM0 k).view.read (Elt F) sc0 x).toNat < 1960 := lst_inb d L sc0 hscb _ _
  have hin1 : ∀ x, ((lstM1 k).view.read (Elt F) sc0 x).toNat < 1960 := lst_inb d L sc0 hscb _ _
  have hin2 : ∀ x, ((lstM2 k).view.read (Elt F) sc0 x).toNat < 1960 := lst_inb d L sc0 hscb _ _
  have hin3 : ∀ x, ((lstM3 k).view.read (Elt F) sc0 x).toNat < 1960 := lst_inb d L sc0 hscb _ _
  have hin4 : ∀ x, ((lstM4 k).view.read (Elt F) sc0 x).toNat < 1960 := lst_inb d L sc0 hscb _ _
  have hin5 : ∀ x, ((lstM5 k).view.read (Elt F) sc0 x).toNat < 1960 := lst_inb d L sc0 hscb _ _
  have hin6 : ∀ x, ((lstM6 k).view.read (Elt F) sc0 x).toNat < 1960 := lst_inb d L sc0 hscb _ _
  have hin7 : ∀ x, ((lstM7 k).view.read (Elt F) sc0 x).toNat < 1960 := lst_inb d L sc0 hscb _ _
  iintro ⟨#Hmw, HO, ⟨Hv0, Hv1, Hv2, Hv3, Hv4, Hv5, Hv6, Hv7, Hl0, Hl1, Hl2, Hl3, Hl4, Hl5, Hl6, Hl7, Hg0, Hg1, Hg2, Hg3, Hg4, Hg5, Hg6, Hg7⟩, Ht, ⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, Hs0, Hs1, Hs2, Hs3, Hs4, Hs5, Hs6, Hs7⟩
  ihave Ht := (take_oRow' d L (widL L) (32 * k.val) (32 * k.val + 1) (by omega) (by omega) (k2_off11 L k 0#32 0#32) (k2_off11_inb L k 0 0) (off11_n L k 0 0 _ (by rfl)) o) $$ Ht
  icases Ht with ⟨Ho0_0, Ht⟩
  ihave Ht := (take_oRow' d L (widL L) (32 * k.val + 1) (32 * k.val + 2) (by omega) (by omega) (k2_off11 L k 0#32 1#32) (k2_off11_inb L k 0 1) (off11_n L k 0 1 _ (by rfl)) o) $$ Ht
  icases Ht with ⟨Ho0_1, Ht⟩
  ihave Ht := (take_oRow' d L (widL L) (32 * k.val + 2) (32 * k.val + 3) (by omega) (by omega) (k2_off11 L k 0#32 2#32) (k2_off11_inb L k 0 2) (off11_n L k 0 2 _ (by rfl)) o) $$ Ht
  icases Ht with ⟨Ho0_2, Ht⟩
  ihave Ht := (take_oRow' d L (widL L) (32 * k.val + 3) (32 * k.val + 4) (by omega) (by omega) (k2_off11 L k 0#32 3#32) (k2_off11_inb L k 0 3) (off11_n L k 0 3 _ (by rfl)) o) $$ Ht
  icases Ht with ⟨Ho0_3, Ht⟩
  ihave Ht := (take_oRow' d L (widL L) (32 * k.val + 4) (32 * k.val + 5) (by omega) (by omega) (k2_off11 L k 1#32 0#32) (k2_off11_inb L k 1 0) (off11_n L k 1 0 _ (by rfl)) o) $$ Ht
  icases Ht with ⟨Ho1_0, Ht⟩
  ihave Ht := (take_oRow' d L (widL L) (32 * k.val + 5) (32 * k.val + 6) (by omega) (by omega) (k2_off11 L k 1#32 1#32) (k2_off11_inb L k 1 1) (off11_n L k 1 1 _ (by rfl)) o) $$ Ht
  icases Ht with ⟨Ho1_1, Ht⟩
  ihave Ht := (take_oRow' d L (widL L) (32 * k.val + 6) (32 * k.val + 7) (by omega) (by omega) (k2_off11 L k 1#32 2#32) (k2_off11_inb L k 1 2) (off11_n L k 1 2 _ (by rfl)) o) $$ Ht
  icases Ht with ⟨Ho1_2, Ht⟩
  ihave Ht := (take_oRow' d L (widL L) (32 * k.val + 7) (32 * k.val + 8) (by omega) (by omega) (k2_off11 L k 1#32 3#32) (k2_off11_inb L k 1 3) (off11_n L k 1 3 _ (by rfl)) o) $$ Ht
  icases Ht with ⟨Ho1_3, Ht⟩
  ihave Ht := (take_oRow' d L (widL L) (32 * k.val + 8) (32 * k.val + 9) (by omega) (by omega) (k2_off11 L k 2#32 0#32) (k2_off11_inb L k 2 0) (off11_n L k 2 0 _ (by rfl)) o) $$ Ht
  icases Ht with ⟨Ho2_0, Ht⟩
  ihave Ht := (take_oRow' d L (widL L) (32 * k.val + 9) (32 * k.val + 10) (by omega) (by omega) (k2_off11 L k 2#32 1#32) (k2_off11_inb L k 2 1) (off11_n L k 2 1 _ (by rfl)) o) $$ Ht
  icases Ht with ⟨Ho2_1, Ht⟩
  ihave Ht := (take_oRow' d L (widL L) (32 * k.val + 10) (32 * k.val + 11) (by omega) (by omega) (k2_off11 L k 2#32 2#32) (k2_off11_inb L k 2 2) (off11_n L k 2 2 _ (by rfl)) o) $$ Ht
  icases Ht with ⟨Ho2_2, Ht⟩
  ihave Ht := (take_oRow' d L (widL L) (32 * k.val + 11) (32 * k.val + 12) (by omega) (by omega) (k2_off11 L k 2#32 3#32) (k2_off11_inb L k 2 3) (off11_n L k 2 3 _ (by rfl)) o) $$ Ht
  icases Ht with ⟨Ho2_3, Ht⟩
  ihave Ht := (take_oRow' d L (widL L) (32 * k.val + 12) (32 * k.val + 13) (by omega) (by omega) (k2_off11 L k 3#32 0#32) (k2_off11_inb L k 3 0) (off11_n L k 3 0 _ (by rfl)) o) $$ Ht
  icases Ht with ⟨Ho3_0, Ht⟩
  ihave Ht := (take_oRow' d L (widL L) (32 * k.val + 13) (32 * k.val + 14) (by omega) (by omega) (k2_off11 L k 3#32 1#32) (k2_off11_inb L k 3 1) (off11_n L k 3 1 _ (by rfl)) o) $$ Ht
  icases Ht with ⟨Ho3_1, Ht⟩
  ihave Ht := (take_oRow' d L (widL L) (32 * k.val + 14) (32 * k.val + 15) (by omega) (by omega) (k2_off11 L k 3#32 2#32) (k2_off11_inb L k 3 2) (off11_n L k 3 2 _ (by rfl)) o) $$ Ht
  icases Ht with ⟨Ho3_2, Ht⟩
  ihave Ht := (take_oRow' d L (widL L) (32 * k.val + 15) (32 * k.val + 16) (by omega) (by omega) (k2_off11 L k 3#32 3#32) (k2_off11_inb L k 3 3) (off11_n L k 3 3 _ (by rfl)) o) $$ Ht
  icases Ht with ⟨Ho3_3, Ht⟩
  ihave Ht := (take_oRow' d L (widL L) (32 * k.val + 16) (32 * k.val + 17) (by omega) (by omega) (k2_off11 L k 4#32 0#32) (k2_off11_inb L k 4 0) (off11_n L k 4 0 _ (by rfl)) o) $$ Ht
  icases Ht with ⟨Ho4_0, Ht⟩
  ihave Ht := (take_oRow' d L (widL L) (32 * k.val + 17) (32 * k.val + 18) (by omega) (by omega) (k2_off11 L k 4#32 1#32) (k2_off11_inb L k 4 1) (off11_n L k 4 1 _ (by rfl)) o) $$ Ht
  icases Ht with ⟨Ho4_1, Ht⟩
  ihave Ht := (take_oRow' d L (widL L) (32 * k.val + 18) (32 * k.val + 19) (by omega) (by omega) (k2_off11 L k 4#32 2#32) (k2_off11_inb L k 4 2) (off11_n L k 4 2 _ (by rfl)) o) $$ Ht
  icases Ht with ⟨Ho4_2, Ht⟩
  ihave Ht := (take_oRow' d L (widL L) (32 * k.val + 19) (32 * k.val + 20) (by omega) (by omega) (k2_off11 L k 4#32 3#32) (k2_off11_inb L k 4 3) (off11_n L k 4 3 _ (by rfl)) o) $$ Ht
  icases Ht with ⟨Ho4_3, Ht⟩
  ihave Ht := (take_oRow' d L (widL L) (32 * k.val + 20) (32 * k.val + 21) (by omega) (by omega) (k2_off11 L k 5#32 0#32) (k2_off11_inb L k 5 0) (off11_n L k 5 0 _ (by rfl)) o) $$ Ht
  icases Ht with ⟨Ho5_0, Ht⟩
  ihave Ht := (take_oRow' d L (widL L) (32 * k.val + 21) (32 * k.val + 22) (by omega) (by omega) (k2_off11 L k 5#32 1#32) (k2_off11_inb L k 5 1) (off11_n L k 5 1 _ (by rfl)) o) $$ Ht
  icases Ht with ⟨Ho5_1, Ht⟩
  ihave Ht := (take_oRow' d L (widL L) (32 * k.val + 22) (32 * k.val + 23) (by omega) (by omega) (k2_off11 L k 5#32 2#32) (k2_off11_inb L k 5 2) (off11_n L k 5 2 _ (by rfl)) o) $$ Ht
  icases Ht with ⟨Ho5_2, Ht⟩
  ihave Ht := (take_oRow' d L (widL L) (32 * k.val + 23) (32 * k.val + 24) (by omega) (by omega) (k2_off11 L k 5#32 3#32) (k2_off11_inb L k 5 3) (off11_n L k 5 3 _ (by rfl)) o) $$ Ht
  icases Ht with ⟨Ho5_3, Ht⟩
  ihave Ht := (take_oRow' d L (widL L) (32 * k.val + 24) (32 * k.val + 25) (by omega) (by omega) (k2_off11 L k 6#32 0#32) (k2_off11_inb L k 6 0) (off11_n L k 6 0 _ (by rfl)) o) $$ Ht
  icases Ht with ⟨Ho6_0, Ht⟩
  ihave Ht := (take_oRow' d L (widL L) (32 * k.val + 25) (32 * k.val + 26) (by omega) (by omega) (k2_off11 L k 6#32 1#32) (k2_off11_inb L k 6 1) (off11_n L k 6 1 _ (by rfl)) o) $$ Ht
  icases Ht with ⟨Ho6_1, Ht⟩
  ihave Ht := (take_oRow' d L (widL L) (32 * k.val + 26) (32 * k.val + 27) (by omega) (by omega) (k2_off11 L k 6#32 2#32) (k2_off11_inb L k 6 2) (off11_n L k 6 2 _ (by rfl)) o) $$ Ht
  icases Ht with ⟨Ho6_2, Ht⟩
  ihave Ht := (take_oRow' d L (widL L) (32 * k.val + 27) (32 * k.val + 28) (by omega) (by omega) (k2_off11 L k 6#32 3#32) (k2_off11_inb L k 6 3) (off11_n L k 6 3 _ (by rfl)) o) $$ Ht
  icases Ht with ⟨Ho6_3, Ht⟩
  ihave Ht := (take_oRow' d L (widL L) (32 * k.val + 28) (32 * k.val + 29) (by omega) (by omega) (k2_off11 L k 7#32 0#32) (k2_off11_inb L k 7 0) (off11_n L k 7 0 _ (by rfl)) o) $$ Ht
  icases Ht with ⟨Ho7_0, Ht⟩
  ihave Ht := (take_oRow' d L (widL L) (32 * k.val + 29) (32 * k.val + 30) (by omega) (by omega) (k2_off11 L k 7#32 1#32) (k2_off11_inb L k 7 1) (off11_n L k 7 1 _ (by rfl)) o) $$ Ht
  icases Ht with ⟨Ho7_1, Ht⟩
  ihave Ht := (take_oRow' d L (widL L) (32 * k.val + 30) (32 * k.val + 31) (by omega) (by omega) (k2_off11 L k 7#32 2#32) (k2_off11_inb L k 7 2) (off11_n L k 7 2 _ (by rfl)) o) $$ Ht
  icases Ht with ⟨Ho7_2, Ht⟩
  ihave Ht := (take_oRow' d L (widL L) (32 * k.val + 31) (32 * k.val + 32) (by omega) (by omega) (k2_off11 L k 7#32 3#32) (k2_off11_inb L k 7 3) (off11_n L k 7 3 _ (by rfl)) o) $$ Ht
  icases Ht with ⟨Ho7_3, Ht⟩
  unfold k2_t1_body
  sl_exec
  -- buffer 0: the gathered rows named, the buffer as its four slices, the batch of its four copies allocated
  ihave Hb0 := (buf_land0 d L _ _) $$ Hb0
  icases Hb0 with ⟨%g0, %hg0, Hq0_0, Hq0_1, Hq0_2, Hq0_3⟩
  have hg0' : g0 = gbuf cmb ix (widL L) (8 * k.val + 0) :=
    hg0.trans (gather_val d L cmb ix sc0 hsc0 (8 * k.val + 0) (by omega) _ (k2_off3_inb k 0) (k2_off3_eq k 0) (fun x => hin0 x))
  subst hg0'
  ihave Hs0 := (Entails.of_eq (hid_eq _)) $$ Hs0
  imod (Transfers.batch_alloc' (Lvl := ℕ) countersEmb (thrV d L) default 81920 (dlv0 d L k o (gbuf cmb ix (widL L) (8 * k.val + 0))) (sm := .dma cc2_scratch17.sem) (E := Set.univ)) $$ Hs0 with HB0
  sl_exec
  -- buffer 1: the gathered rows named, the buffer as its four slices, the batch of its four copies allocated
  ihave Hb1 := (buf_land1 d L _ _) $$ Hb1
  icases Hb1 with ⟨%g1, %hg1, Hq1_0, Hq1_1, Hq1_2, Hq1_3⟩
  have hg1' : g1 = gbuf cmb ix (widL L) (8 * k.val + 1) :=
    hg1.trans (gather_val d L cmb ix sc0 hsc0 (8 * k.val + 1) (by omega) _ (k2_off3_inb k 1) (k2_off3_eq k 1) (fun x => hin1 x))
  subst hg1'
  ihave Hs1 := (Entails.of_eq (hid_eq _)) $$ Hs1
  imod (Transfers.batch_alloc' (Lvl := ℕ) countersEmb (thrV d L) default 81920 (dlv1 d L k o (gbuf cmb ix (widL L) (8 * k.val + 1))) (sm := .dma cc2_scratch18.sem) (E := Set.univ)) $$ Hs1 with HB1
  sl_exec
  -- buffer 2: the gathered rows named, the buffer as its four slices, the batch of its four copies allocated
  ihave Hb2 := (buf_land2 d L _ _) $$ Hb2
  icases Hb2 with ⟨%g2, %hg2, Hq2_0, Hq2_1, Hq2_2, Hq2_3⟩
  have hg2' : g2 = gbuf cmb ix (widL L) (8 * k.val + 2) :=
    hg2.trans (gather_val d L cmb ix sc0 hsc0 (8 * k.val + 2) (by omega) _ (k2_off3_inb k 2) (k2_off3_eq k 2) (fun x => hin2 x))
  subst hg2'
  ihave Hs2 := (Entails.of_eq (hid_eq _)) $$ Hs2
  imod (Transfers.batch_alloc' (Lvl := ℕ) countersEmb (thrV d L) default 81920 (dlv2 d L k o (gbuf cmb ix (widL L) (8 * k.val + 2))) (sm := .dma cc2_scratch19.sem) (E := Set.univ)) $$ Hs2 with HB2
  sl_exec
  -- buffer 3: the gathered rows named, the buffer as its four slices, the batch of its four copies allocated
  ihave Hb3 := (buf_land3 d L _ _) $$ Hb3
  icases Hb3 with ⟨%g3, %hg3, Hq3_0, Hq3_1, Hq3_2, Hq3_3⟩
  have hg3' : g3 = gbuf cmb ix (widL L) (8 * k.val + 3) :=
    hg3.trans (gather_val d L cmb ix sc0 hsc0 (8 * k.val + 3) (by omega) _ (k2_off3_inb k 3) (k2_off3_eq k 3) (fun x => hin3 x))
  subst hg3'
  ihave Hs3 := (Entails.of_eq (hid_eq _)) $$ Hs3
  imod (Transfers.batch_alloc' (Lvl := ℕ) countersEmb (thrV d L) default 81920 (dlv3 d L k o (gbuf cmb ix (widL L) (8 * k.val + 3))) (sm := .dma cc2_scratch20.sem) (E := Set.univ)) $$ Hs3 with HB3
  sl_exec
  -- buffer 4: the gathered rows named, the buffer as its four slices, the batch of its four copies allocated
  ihave Hb4 := (buf_land4 d L _ _) $$ Hb4
  icases Hb4 with ⟨%g4, %hg4, Hq4_0, Hq4_1, Hq4_2, Hq4_3⟩
  have hg4' : g4 = gbuf cmb ix (widL L) (8 * k.val + 4) :=
    hg4.trans (gather_val d L cmb ix sc0 hsc0 (8 * k.val + 4) (by omega) _ (k2_off3_inb k 4) (k2_off3_eq k 4) (fun x => hin4 x))
  subst hg4'
  ihave Hs4 := (Entails.of_eq (hid_eq _)) $$ Hs4
  imod (Transfers.batch_alloc' (Lvl := ℕ) countersEmb (thrV d L) default 81920 (dlv4 d L k o (gbuf cmb ix (widL L) (8 * k.val + 4))) (sm := .dma cc2_scratch21.sem) (E := Set.univ)) $$ Hs4 with HB4
  sl_exec
  -- buffer 5: the gathered rows named, the buffer as its four slices, the batch of its four copies allocated
  ihave Hb5 := (buf_land5 d L _ _) $$ Hb5
  icases Hb5 with ⟨%g5, %hg5, Hq5_0, Hq5_1, Hq5_2, Hq5_3⟩
  have hg5' : g5 = gbuf cmb ix (widL L) (8 * k.val + 5) :=
    hg5.trans (gather_val d L cmb ix sc0 hsc0 (8 * k.val + 5) (by omega) _ (k2_off3_inb k 5) (k2_off3_eq k 5) (fun x => hin5 x))
  subst hg5'
  ihave Hs5 := (Entails.of_eq (hid_eq _)) $$ Hs5
  imod (Transfers.batch_alloc' (Lvl := ℕ) countersEmb (thrV d L) default 81920 (dlv5 d L k o (gbuf cmb ix (widL L) (8 * k.val + 5))) (sm := .dma cc2_scratch22.sem) (E := Set.univ)) $$ Hs5 with HB5
  sl_exec
  -- buffer 6: the gathered rows named, the buffer as its four slices, the batch of its four copies allocated
  ihave Hb6 := (buf_land6 d L _ _) $$ Hb6
  icases Hb6 with ⟨%g6, %hg6, Hq6_0, Hq6_1, Hq6_2, Hq6_3⟩
  have hg6' : g6 = gbuf cmb ix (widL L) (8 * k.val + 6) :=
    hg6.trans (gather_val d L cmb ix sc0 hsc0 (8 * k.val + 6) (by omega) _ (k2_off3_inb k 6) (k2_off3_eq k 6) (fun x => hin6 x))
  subst hg6'
  ihave Hs6 := (Entails.of_eq (hid_eq _)) $$ Hs6
  imod (Transfers.batch_alloc' (Lvl := ℕ) countersEmb (thrV d L) default 81920 (dlv6 d L k o (gbuf cmb ix (widL L) (8 * k.val + 6))) (sm := .dma cc2_scratch23.sem) (E := Set.univ)) $$ Hs6 with HB6
  sl_exec
  -- buffer 7: the gathered rows named, the buffer as its four slices, the batch of its four copies allocated
  ihave Hb7 := (buf_land7 d L _ _) $$ Hb7
  icases Hb7 with ⟨%g7, %hg7, Hq7_0, Hq7_1, Hq7_2, Hq7_3⟩
  have hg7' : g7 = gbuf cmb ix (widL L) (8 * k.val + 7) :=
    hg7.trans (gather_val d L cmb ix sc0 hsc0 (8 * k.val + 7) (by omega) _ (k2_off3_inb k 7) (k2_off3_eq k 7) (fun x => hin7 x))
  subst hg7'
  ihave Hs7 := (Entails.of_eq (hid_eq _)) $$ Hs7
  imod (Transfers.batch_alloc' (Lvl := ℕ) countersEmb (thrV d L) default 81920 (dlv7 d L k o (gbuf cmb ix (widL L) (8 * k.val + 7))) (sm := .dma cc2_scratch24.sem) (E := Set.univ)) $$ Hs7 with HB7
  sl_exec
  sl_step
  isplitr; · iexact Hmw
  isplitl [HO]
  · iexists _; isplitr
    swap; · iexact HO
    ipureintro
    repeat (first | exact fun p hp => Or.inl hp | refine mem_ins ?_ rfl)
  isplitl [Hv0 Hv1 Hv2 Hv3 Hv4 Hv5 Hv6 Hv7 Hl0 Hl1 Hl2 Hl3 Hl4 Hl5 Hl6 Hl7 Hg0 Hg1 Hg2 Hg3 Hg4 Hg5 Hg6 Hg7]
  · isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    iexact Hg7
  isplitl [Ht]; · iexact Ht
  isplitl [HB0]; · iexact HB0
  isplitl [HB1]; · iexact HB1
  isplitl [HB2]; · iexact HB2
  isplitl [HB3]; · iexact HB3
  isplitl [HB4]; · iexact HB4
  isplitl [HB5]; · iexact HB5
  isplitl [HB6]; · iexact HB6
  iexact HB7

end Cert.ProofK.Tile

end
-- ==== Proof.TileBodyDrnK.lean ====
import proofs.«206393_g35751307772044_cont_8to1_b_353_20_alg».proof.Proof.TileBodyInvK

noncomputable section

namespace Cert.ProofK.Tile

open Cert.Kernel Cert.Kernel.Gen
open Cert.ProofK.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ

section DrainLemmas

variable (d : Dev nD) (L : grid2.Coords) (cmb : Buf (Elt F) (v5Loc d)) (ix : Buf (Elt F) (v6Loc d)) (o : Buf (Elt F) (v7Loc d))

/-- Slice `e` of row buffer 0 read at (p, q) is the buffer at (20 e + p, q). -/
private theorem drn_pay0 (gv : FVec F S80x128 .f32) (e : Fin 4) (x : S20x128.Idx) :
    ReadAs.same.apply ((bslE0 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE0 e).view.read (Elt F) gv x = _
  rw [show (bslE0 e).view.read (Elt F) gv x = gv ((bslE0 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- Slice `e` of row buffer 1 read at (p, q) is the buffer at (20 e + p, q). -/
private theorem drn_pay1 (gv : FVec F S80x128 .f32) (e : Fin 4) (x : S20x128.Idx) :
    ReadAs.same.apply ((bslE1 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE1 e).view.read (Elt F) gv x = _
  rw [show (bslE1 e).view.read (Elt F) gv x = gv ((bslE1 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- Slice `e` of row buffer 2 read at (p, q) is the buffer at (20 e + p, q). -/
private theorem drn_pay2 (gv : FVec F S80x128 .f32) (e : Fin 4) (x : S20x128.Idx) :
    ReadAs.same.apply ((bslE2 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE2 e).view.read (Elt F) gv x = _
  rw [show (bslE2 e).view.read (Elt F) gv x = gv ((bslE2 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- Slice `e` of row buffer 3 read at (p, q) is the buffer at (20 e + p, q). -/
private theorem drn_pay3 (gv : FVec F S80x128 .f32) (e : Fin 4) (x : S20x128.Idx) :
    ReadAs.same.apply ((bslE3 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE3 e).view.read (Elt F) gv x = _
  rw [show (bslE3 e).view.read (Elt F) gv x = gv ((bslE3 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- Slice `e` of row buffer 4 read at (p, q) is the buffer at (20 e + p, q). -/
private theorem drn_pay4 (gv : FVec F S80x128 .f32) (e : Fin 4) (x : S20x128.Idx) :
    ReadAs.same.apply ((bslE4 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE4 e).view.read (Elt F) gv x = _
  rw [show (bslE4 e).view.read (Elt F) gv x = gv ((bslE4 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- Slice `e` of row buffer 5 read at (p, q) is the buffer at (20 e + p, q). -/
private theorem drn_pay5 (gv : FVec F S80x128 .f32) (e : Fin 4) (x : S20x128.Idx) :
    ReadAs.same.apply ((bslE5 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE5 e).view.read (Elt F) gv x = _
  rw [show (bslE5 e).view.read (Elt F) gv x = gv ((bslE5 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- Slice `e` of row buffer 6 read at (p, q) is the buffer at (20 e + p, q). -/
private theorem drn_pay6 (gv : FVec F S80x128 .f32) (e : Fin 4) (x : S20x128.Idx) :
    ReadAs.same.apply ((bslE6 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE6 e).view.read (Elt F) gv x = _
  rw [show (bslE6 e).view.read (Elt F) gv x = gv ((bslE6 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- Slice `e` of row buffer 7 read at (p, q) is the buffer at (20 e + p, q). -/
private theorem drn_pay7 (gv : FVec F S80x128 .f32) (e : Fin 4) (x : S20x128.Idx) :
    ReadAs.same.apply ((bslE7 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE7 e).view.read (Elt F) gv x = _
  rw [show (bslE7 e).view.read (Elt F) gv x = gv ((bslE7 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- A landed copy out of row buffer 0 joins the tile's finished rows. -/
theorem drn_put0 (k' : Fin k2_t1_loop.trips) (e : Fin 4) (a a' : ℕ) (ha : a = 32 * k'.val + (4 * 0 + e.val)) (ha' : a' = a + 1) :
    (iprop(doneI d L cmb ix a ∗ ((oRowE0 L k' e).view.loc (thrV d L) ↦[(oRowE0 L k' e).view.set]{fullShare}
        (oRowE0 L k' e).view.writes (Elt F) o
          [⟨Rect.whole S20x128, ReadAs.same.apply ((bslE0 e).view.read (Elt F) (gbuf cmb ix (widL L) (8 * k'.val + 0)))⟩])) : sProp 𝕄)
      ⊢ doneI d L cmb ix a' := by
  subst ha ha'
  have he := e.isLt
  have hk : k'.val < 16 := trips_eq ▸ k'.isLt
  have hc : 8 * k'.val + 0 < 128 := by omega
  have hoff1 : k2_off11 L k' 0#32 (BitVec.ofNat 32 e.val) = ![512 * (widL L).val + (4 * (8 * k'.val + 0) + e.val), 0, 0] :=
    off11_n L k' (⟨0, by decide⟩ : Fin 8) e _ (by show _ = 32 * k'.val + (4 * 0 + e.val); omega)
  have hoff2 : k2_off11 L k' 0#32 (BitVec.ofNat 32 e.val) = ![512 * (widL L).val + (32 * k'.val + (4 * 0 + e.val)), 0, 0] :=
    off11_n L k' (⟨0, by decide⟩ : Fin 8) e _ rfl
  refine (sep_mono_right (Entails.of_eq (oRow_landed d L cmb ix o (8 * k'.val + 0) hc e _ (k2_off11_inb L k' 0 e) hoff1 _
    (fun x => drn_pay0 _ e x)))).trans ?_
  exact put_oRow d L (widL L) _ _ (k2_off11_inb L k' 0 e) hoff2 (gOut cmb ix)

/-- The four slices of row buffer 0, back from their copies, are the buffer whole. -/
theorem drn_join0 (gv : FVec F S80x128 .f32) :
    (iprop(((bslE0 ⟨0, by decide⟩).view.loc (thrV d L) ↦[(bslE0 ⟨0, by decide⟩).view.set]{fullShare} gv)
        ∗ ((bslE0 ⟨1, by decide⟩).view.loc (thrV d L) ↦[(bslE0 ⟨1, by decide⟩).view.set]{fullShare} gv)
        ∗ ((bslE0 ⟨2, by decide⟩).view.loc (thrV d L) ↦[(bslE0 ⟨2, by decide⟩).view.set]{fullShare} gv)
        ∗ ((bslE0 ⟨3, by decide⟩).view.loc (thrV d L) ↦[(bslE0 ⟨3, by decide⟩).view.set]{fullShare} gv)) : sProp 𝕄)
      ⊢ ((bufM0).view.loc (thrV d L) ↦{fullShare} gv : sProp 𝕄) := by
  exact Entails.of_eq (buf_split0 d L gv).symm

/-- A landed copy out of row buffer 1 joins the tile's finished rows. -/
theorem drn_put1 (k' : Fin k2_t1_loop.trips) (e : Fin 4) (a a' : ℕ) (ha : a = 32 * k'.val + (4 * 1 + e.val)) (ha' : a' = a + 1) :
    (iprop(doneI d L cmb ix a ∗ ((oRowE1 L k' e).view.loc (thrV d L) ↦[(oRowE1 L k' e).view.set]{fullShare}
        (oRowE1 L k' e).view.writes (Elt F) o
          [⟨Rect.whole S20x128, ReadAs.same.apply ((bslE1 e).view.read (Elt F) (gbuf cmb ix (widL L) (8 * k'.val + 1)))⟩])) : sProp 𝕄)
      ⊢ doneI d L cmb ix a' := by
  subst ha ha'
  have he := e.isLt
  have hk : k'.val < 16 := trips_eq ▸ k'.isLt
  have hc : 8 * k'.val + 1 < 128 := by omega
  have hoff1 : k2_off11 L k' 1#32 (BitVec.ofNat 32 e.val) = ![512 * (widL L).val + (4 * (8 * k'.val + 1) + e.val), 0, 0] :=
    off11_n L k' (⟨1, by decide⟩ : Fin 8) e _ (by show _ = 32 * k'.val + (4 * 1 + e.val); omega)
  have hoff2 : k2_off11 L k' 1#32 (BitVec.ofNat 32 e.val) = ![512 * (widL L).val + (32 * k'.val + (4 * 1 + e.val)), 0, 0] :=
    off11_n L k' (⟨1, by decide⟩ : Fin 8) e _ rfl
  refine (sep_mono_right (Entails.of_eq (oRow_landed d L cmb ix o (8 * k'.val + 1) hc e _ (k2_off11_inb L k' 1 e) hoff1 _
    (fun x => drn_pay1 _ e x)))).trans ?_
  exact put_oRow d L (widL L) _ _ (k2_off11_inb L k' 1 e) hoff2 (gOut cmb ix)

/-- The four slices of row buffer 1, back from their copies, are the buffer whole. -/
theorem drn_join1 (gv : FVec F S80x128 .f32) :
    (iprop(((bslE1 ⟨0, by decide⟩).view.loc (thrV d L) ↦[(bslE1 ⟨0, by decide⟩).view.set]{fullShare} gv)
        ∗ ((bslE1 ⟨1, by decide⟩).view.loc (thrV d L) ↦[(bslE1 ⟨1, by decide⟩).view.set]{fullShare} gv)
        ∗ ((bslE1 ⟨2, by decide⟩).view.loc (thrV d L) ↦[(bslE1 ⟨2, by decide⟩).view.set]{fullShare} gv)
        ∗ ((bslE1 ⟨3, by decide⟩).view.loc (thrV d L) ↦[(bslE1 ⟨3, by decide⟩).view.set]{fullShare} gv)) : sProp 𝕄)
      ⊢ ((bufM1).view.loc (thrV d L) ↦{fullShare} gv : sProp 𝕄) := by
  exact Entails.of_eq (buf_split1 d L gv).symm

/-- A landed copy out of row buffer 2 joins the tile's finished rows. -/
theorem drn_put2 (k' : Fin k2_t1_loop.trips) (e : Fin 4) (a a' : ℕ) (ha : a = 32 * k'.val + (4 * 2 + e.val)) (ha' : a' = a + 1) :
    (iprop(doneI d L cmb ix a ∗ ((oRowE2 L k' e).view.loc (thrV d L) ↦[(oRowE2 L k' e).view.set]{fullShare}
        (oRowE2 L k' e).view.writes (Elt F) o
          [⟨Rect.whole S20x128, ReadAs.same.apply ((bslE2 e).view.read (Elt F) (gbuf cmb ix (widL L) (8 * k'.val + 2)))⟩])) : sProp 𝕄)
      ⊢ doneI d L cmb ix a' := by
  subst ha ha'
  have he := e.isLt
  have hk : k'.val < 16 := trips_eq ▸ k'.isLt
  have hc : 8 * k'.val + 2 < 128 := by omega
  have hoff1 : k2_off11 L k' 2#32 (BitVec.ofNat 32 e.val) = ![512 * (widL L).val + (4 * (8 * k'.val + 2) + e.val), 0, 0] :=
    off11_n L k' (⟨2, by decide⟩ : Fin 8) e _ (by show _ = 32 * k'.val + (4 * 2 + e.val); omega)
  have hoff2 : k2_off11 L k' 2#32 (BitVec.ofNat 32 e.val) = ![512 * (widL L).val + (32 * k'.val + (4 * 2 + e.val)), 0, 0] :=
    off11_n L k' (⟨2, by decide⟩ : Fin 8) e _ rfl
  refine (sep_mono_right (Entails.of_eq (oRow_landed d L cmb ix o (8 * k'.val + 2) hc e _ (k2_off11_inb L k' 2 e) hoff1 _
    (fun x => drn_pay2 _ e x)))).trans ?_
  exact put_oRow d L (widL L) _ _ (k2_off11_inb L k' 2 e) hoff2 (gOut cmb ix)

/-- The four slices of row buffer 2, back from their copies, are the buffer whole. -/
theorem drn_join2 (gv : FVec F S80x128 .f32) :
    (iprop(((bslE2 ⟨0, by decide⟩).view.loc (thrV d L) ↦[(bslE2 ⟨0, by decide⟩).view.set]{fullShare} gv)
        ∗ ((bslE2 ⟨1, by decide⟩).view.loc (thrV d L) ↦[(bslE2 ⟨1, by decide⟩).view.set]{fullShare} gv)
        ∗ ((bslE2 ⟨2, by decide⟩).view.loc (thrV d L) ↦[(bslE2 ⟨2, by decide⟩).view.set]{fullShare} gv)
        ∗ ((bslE2 ⟨3, by decide⟩).view.loc (thrV d L) ↦[(bslE2 ⟨3, by decide⟩).view.set]{fullShare} gv)) : sProp 𝕄)
      ⊢ ((bufM2).view.loc (thrV d L) ↦{fullShare} gv : sProp 𝕄) := by
  exact Entails.of_eq (buf_split2 d L gv).symm

/-- A landed copy out of row buffer 3 joins the tile's finished rows. -/
theorem drn_put3 (k' : Fin k2_t1_loop.trips) (e : Fin 4) (a a' : ℕ) (ha : a = 32 * k'.val + (4 * 3 + e.val)) (ha' : a' = a + 1) :
    (iprop(doneI d L cmb ix a ∗ ((oRowE3 L k' e).view.loc (thrV d L) ↦[(oRowE3 L k' e).view.set]{fullShare}
        (oRowE3 L k' e).view.writes (Elt F) o
          [⟨Rect.whole S20x128, ReadAs.same.apply ((bslE3 e).view.read (Elt F) (gbuf cmb ix (widL L) (8 * k'.val + 3)))⟩])) : sProp 𝕄)
      ⊢ doneI d L cmb ix a' := by
  subst ha ha'
  have he := e.isLt
  have hk : k'.val < 16 := trips_eq ▸ k'.isLt
  have hc : 8 * k'.val + 3 < 128 := by omega
  have hoff1 : k2_off11 L k' 3#32 (BitVec.ofNat 32 e.val) = ![512 * (widL L).val + (4 * (8 * k'.val + 3) + e.val), 0, 0] :=
    off11_n L k' (⟨3, by decide⟩ : Fin 8) e _ (by show _ = 32 * k'.val + (4 * 3 + e.val); omega)
  have hoff2 : k2_off11 L k' 3#32 (BitVec.ofNat 32 e.val) = ![512 * (widL L).val + (32 * k'.val + (4 * 3 + e.val)), 0, 0] :=
    off11_n L k' (⟨3, by decide⟩ : Fin 8) e _ rfl
  refine (sep_mono_right (Entails.of_eq (oRow_landed d L cmb ix o (8 * k'.val + 3) hc e _ (k2_off11_inb L k' 3 e) hoff1 _
    (fun x => drn_pay3 _ e x)))).trans ?_
  exact put_oRow d L (widL L) _ _ (k2_off11_inb L k' 3 e) hoff2 (gOut cmb ix)

/-- The four slices of row buffer 3, back from their copies, are the buffer whole. -/
theorem drn_join3 (gv : FVec F S80x128 .f32) :
    (iprop(((bslE3 ⟨0, by decide⟩).view.loc (thrV d L) ↦[(bslE3 ⟨0, by decide⟩).view.set]{fullShare} gv)
        ∗ ((bslE3 ⟨1, by decide⟩).view.loc (thrV d L) ↦[(bslE3 ⟨1, by decide⟩).view.set]{fullShare} gv)
        ∗ ((bslE3 ⟨2, by decide⟩).view.loc (thrV d L) ↦[(bslE3 ⟨2, by decide⟩).view.set]{fullShare} gv)
        ∗ ((bslE3 ⟨3, by decide⟩).view.loc (thrV d L) ↦[(bslE3 ⟨3, by decide⟩).view.set]{fullShare} gv)) : sProp 𝕄)
      ⊢ ((bufM3).view.loc (thrV d L) ↦{fullShare} gv : sProp 𝕄) := by
  exact Entails.of_eq (buf_split3 d L gv).symm

/-- A landed copy out of row buffer 4 joins the tile's finished rows. -/
theorem drn_put4 (k' : Fin k2_t1_loop.trips) (e : Fin 4) (a a' : ℕ) (ha : a = 32 * k'.val + (4 * 4 + e.val)) (ha' : a' = a + 1) :
    (iprop(doneI d L cmb ix a ∗ ((oRowE4 L k' e).view.loc (thrV d L) ↦[(oRowE4 L k' e).view.set]{fullShare}
        (oRowE4 L k' e).view.writes (Elt F) o
          [⟨Rect.whole S20x128, ReadAs.same.apply ((bslE4 e).view.read (Elt F) (gbuf cmb ix (widL L) (8 * k'.val + 4)))⟩])) : sProp 𝕄)
      ⊢ doneI d L cmb ix a' := by
  subst ha ha'
  have he := e.isLt
  have hk : k'.val < 16 := trips_eq ▸ k'.isLt
  have hc : 8 * k'.val + 4 < 128 := by omega
  have hoff1 : k2_off11 L k' 4#32 (BitVec.ofNat 32 e.val) = ![512 * (widL L).val + (4 * (8 * k'.val + 4) + e.val), 0, 0] :=
    off11_n L k' (⟨4, by decide⟩ : Fin 8) e _ (by show _ = 32 * k'.val + (4 * 4 + e.val); omega)
  have hoff2 : k2_off11 L k' 4#32 (BitVec.ofNat 32 e.val) = ![512 * (widL L).val + (32 * k'.val + (4 * 4 + e.val)), 0, 0] :=
    off11_n L k' (⟨4, by decide⟩ : Fin 8) e _ rfl
  refine (sep_mono_right (Entails.of_eq (oRow_landed d L cmb ix o (8 * k'.val + 4) hc e _ (k2_off11_inb L k' 4 e) hoff1 _
    (fun x => drn_pay4 _ e x)))).trans ?_
  exact put_oRow d L (widL L) _ _ (k2_off11_inb L k' 4 e) hoff2 (gOut cmb ix)

/-- The four slices of row buffer 4, back from their copies, are the buffer whole. -/
theorem drn_join4 (gv : FVec F S80x128 .f32) :
    (iprop(((bslE4 ⟨0, by decide⟩).view.loc (thrV d L) ↦[(bslE4 ⟨0, by decide⟩).view.set]{fullShare} gv)
        ∗ ((bslE4 ⟨1, by decide⟩).view.loc (thrV d L) ↦[(bslE4 ⟨1, by decide⟩).view.set]{fullShare} gv)
        ∗ ((bslE4 ⟨2, by decide⟩).view.loc (thrV d L) ↦[(bslE4 ⟨2, by decide⟩).view.set]{fullShare} gv)
        ∗ ((bslE4 ⟨3, by decide⟩).view.loc (thrV d L) ↦[(bslE4 ⟨3, by decide⟩).view.set]{fullShare} gv)) : sProp 𝕄)
      ⊢ ((bufM4).view.loc (thrV d L) ↦{fullShare} gv : sProp 𝕄) := by
  exact Entails.of_eq (buf_split4 d L gv).symm

/-- A landed copy out of row buffer 5 joins the tile's finished rows. -/
theorem drn_put5 (k' : Fin k2_t1_loop.trips) (e : Fin 4) (a a' : ℕ) (ha : a = 32 * k'.val + (4 * 5 + e.val)) (ha' : a' = a + 1) :
    (iprop(doneI d L cmb ix a ∗ ((oRowE5 L k' e).view.loc (thrV d L) ↦[(oRowE5 L k' e).view.set]{fullShare}
        (oRowE5 L k' e).view.writes (Elt F) o
          [⟨Rect.whole S20x128, ReadAs.same.apply ((bslE5 e).view.read (Elt F) (gbuf cmb ix (widL L) (8 * k'.val + 5)))⟩])) : sProp 𝕄)
      ⊢ doneI d L cmb ix a' := by
  subst ha ha'
  have he := e.isLt
  have hk : k'.val < 16 := trips_eq ▸ k'.isLt
  have hc : 8 * k'.val + 5 < 128 := by omega
  have hoff1 : k2_off11 L k' 5#32 (BitVec.ofNat 32 e.val) = ![512 * (widL L).val + (4 * (8 * k'.val + 5) + e.val), 0, 0] :=
    off11_n L k' (⟨5, by decide⟩ : Fin 8) e _ (by show _ = 32 * k'.val + (4 * 5 + e.val); omega)
  have hoff2 : k2_off11 L k' 5#32 (BitVec.ofNat 32 e.val) = ![512 * (widL L).val + (32 * k'.val + (4 * 5 + e.val)), 0, 0] :=
    off11_n L k' (⟨5, by decide⟩ : Fin 8) e _ rfl
  refine (sep_mono_right (Entails.of_eq (oRow_landed d L cmb ix o (8 * k'.val + 5) hc e _ (k2_off11_inb L k' 5 e) hoff1 _
    (fun x => drn_pay5 _ e x)))).trans ?_
  exact put_oRow d L (widL L) _ _ (k2_off11_inb L k' 5 e) hoff2 (gOut cmb ix)

/-- The four slices of row buffer 5, back from their copies, are the buffer whole. -/
theorem drn_join5 (gv : FVec F S80x128 .f32) :
    (iprop(((bslE5 ⟨0, by decide⟩).view.loc (thrV d L) ↦[(bslE5 ⟨0, by decide⟩).view.set]{fullShare} gv)
        ∗ ((bslE5 ⟨1, by decide⟩).view.loc (thrV d L) ↦[(bslE5 ⟨1, by decide⟩).view.set]{fullShare} gv)
        ∗ ((bslE5 ⟨2, by decide⟩).view.loc (thrV d L) ↦[(bslE5 ⟨2, by decide⟩).view.set]{fullShare} gv)
        ∗ ((bslE5 ⟨3, by decide⟩).view.loc (thrV d L) ↦[(bslE5 ⟨3, by decide⟩).view.set]{fullShare} gv)) : sProp 𝕄)
      ⊢ ((bufM5).view.loc (thrV d L) ↦{fullShare} gv : sProp 𝕄) := by
  exact Entails.of_eq (buf_split5 d L gv).symm

/-- A landed copy out of row buffer 6 joins the tile's finished rows. -/
theorem drn_put6 (k' : Fin k2_t1_loop.trips) (e : Fin 4) (a a' : ℕ) (ha : a = 32 * k'.val + (4 * 6 + e.val)) (ha' : a' = a + 1) :
    (iprop(doneI d L cmb ix a ∗ ((oRowE6 L k' e).view.loc (thrV d L) ↦[(oRowE6 L k' e).view.set]{fullShare}
        (oRowE6 L k' e).view.writes (Elt F) o
          [⟨Rect.whole S20x128, ReadAs.same.apply ((bslE6 e).view.read (Elt F) (gbuf cmb ix (widL L) (8 * k'.val + 6)))⟩])) : sProp 𝕄)
      ⊢ doneI d L cmb ix a' := by
  subst ha ha'
  have he := e.isLt
  have hk : k'.val < 16 := trips_eq ▸ k'.isLt
  have hc : 8 * k'.val + 6 < 128 := by omega
  have hoff1 : k2_off11 L k' 6#32 (BitVec.ofNat 32 e.val) = ![512 * (widL L).val + (4 * (8 * k'.val + 6) + e.val), 0, 0] :=
    off11_n L k' (⟨6, by decide⟩ : Fin 8) e _ (by show _ = 32 * k'.val + (4 * 6 + e.val); omega)
  have hoff2 : k2_off11 L k' 6#32 (BitVec.ofNat 32 e.val) = ![512 * (widL L).val + (32 * k'.val + (4 * 6 + e.val)), 0, 0] :=
    off11_n L k' (⟨6, by decide⟩ : Fin 8) e _ rfl
  refine (sep_mono_right (Entails.of_eq (oRow_landed d L cmb ix o (8 * k'.val + 6) hc e _ (k2_off11_inb L k' 6 e) hoff1 _
    (fun x => drn_pay6 _ e x)))).trans ?_
  exact put_oRow d L (widL L) _ _ (k2_off11_inb L k' 6 e) hoff2 (gOut cmb ix)

/-- The four slices of row buffer 6, back from their copies, are the buffer whole. -/
theorem drn_join6 (gv : FVec F S80x128 .f32) :
    (iprop(((bslE6 ⟨0, by decide⟩).view.loc (thrV d L) ↦[(bslE6 ⟨0, by decide⟩).view.set]{fullShare} gv)
        ∗ ((bslE6 ⟨1, by decide⟩).view.loc (thrV d L) ↦[(bslE6 ⟨1, by decide⟩).view.set]{fullShare} gv)
        ∗ ((bslE6 ⟨2, by decide⟩).view.loc (thrV d L) ↦[(bslE6 ⟨2, by decide⟩).view.set]{fullShare} gv)
        ∗ ((bslE6 ⟨3, by decide⟩).view.loc (thrV d L) ↦[(bslE6 ⟨3, by decide⟩).view.set]{fullShare} gv)) : sProp 𝕄)
      ⊢ ((bufM6).view.loc (thrV d L) ↦{fullShare} gv : sProp 𝕄) := by
  exact Entails.of_eq (buf_split6 d L gv).symm

/-- A landed copy out of row buffer 7 joins the tile's finished rows. -/
theorem drn_put7 (k' : Fin k2_t1_loop.trips) (e : Fin 4) (a a' : ℕ) (ha : a = 32 * k'.val + (4 * 7 + e.val)) (ha' : a' = a + 1) :
    (iprop(doneI d L cmb ix a ∗ ((oRowE7 L k' e).view.loc (thrV d L) ↦[(oRowE7 L k' e).view.set]{fullShare}
        (oRowE7 L k' e).view.writes (Elt F) o
          [⟨Rect.whole S20x128, ReadAs.same.apply ((bslE7 e).view.read (Elt F) (gbuf cmb ix (widL L) (8 * k'.val + 7)))⟩])) : sProp 𝕄)
      ⊢ doneI d L cmb ix a' := by
  subst ha ha'
  have he := e.isLt
  have hk : k'.val < 16 := trips_eq ▸ k'.isLt
  have hc : 8 * k'.val + 7 < 128 := by omega
  have hoff1 : k2_off11 L k' 7#32 (BitVec.ofNat 32 e.val) = ![512 * (widL L).val + (4 * (8 * k'.val + 7) + e.val), 0, 0] :=
    off11_n L k' (⟨7, by decide⟩ : Fin 8) e _ (by show _ = 32 * k'.val + (4 * 7 + e.val); omega)
  have hoff2 : k2_off11 L k' 7#32 (BitVec.ofNat 32 e.val) = ![512 * (widL L).val + (32 * k'.val + (4 * 7 + e.val)), 0, 0] :=
    off11_n L k' (⟨7, by decide⟩ : Fin 8) e _ rfl
  refine (sep_mono_right (Entails.of_eq (oRow_landed d L cmb ix o (8 * k'.val + 7) hc e _ (k2_off11_inb L k' 7 e) hoff1 _
    (fun x => drn_pay7 _ e x)))).trans ?_
  exact put_oRow d L (widL L) _ _ (k2_off11_inb L k' 7 e) hoff2 (gOut cmb ix)

/-- The four slices of row buffer 7, back from their copies, are the buffer whole. -/
theorem drn_join7 (gv : FVec F S80x128 .f32) :
    (iprop(((bslE7 ⟨0, by decide⟩).view.loc (thrV d L) ↦[(bslE7 ⟨0, by decide⟩).view.set]{fullShare} gv)
        ∗ ((bslE7 ⟨1, by decide⟩).view.loc (thrV d L) ↦[(bslE7 ⟨1, by decide⟩).view.set]{fullShare} gv)
        ∗ ((bslE7 ⟨2, by decide⟩).view.loc (thrV d L) ↦[(bslE7 ⟨2, by decide⟩).view.set]{fullShare} gv)
        ∗ ((bslE7 ⟨3, by decide⟩).view.loc (thrV d L) ↦[(bslE7 ⟨3, by decide⟩).view.set]{fullShare} gv)) : sProp 𝕄)
      ⊢ ((bufM7).view.loc (thrV d L) ↦{fullShare} gv : sProp 𝕄) := by
  exact Entails.of_eq (buf_split7 d L gv).symm

end DrainLemmas

end Cert.ProofK.Tile

end
-- ==== Proof.TileBodyTripSK.lean ====
import proofs.«206393_g35751307772044_cont_8to1_b_353_20_alg».proof.Proof.TileBodyDrnK

noncomputable section

namespace Cert.ProofK.Tile

open Cert.Kernel Cert.Kernel.Gen
open Cert.ProofK.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ

section SemHide

variable (d : Dev nD) (L : grid2.Coords)

/-- A semaphore's counter at zero, as a run names the semaphore, kept aside under the program's name for it. -/
theorem ts_sem_hide (s s' : DmaSem sig) (h : s' = s) :
    (semVal (thrV d L, SemLoc.dma s') 0 : sProp 𝕄) ⊢ hid (semVal (thrV d L, SemLoc.dma s) 0) := by
  subst h; exact .rfl

end SemHide

variable (d : Dev nD) (L : grid2.Coords) (cmb : Buf (Elt F) (v5Loc d)) (ix : Buf (Elt F) (v6Loc d)) (o : Buf (Elt F) (v7Loc d))
  (sc0 : Buf (Elt F) ((lstV).view.loc (thrV d L))) (O : CellTallies nD τ sig (HIx 1))

set_option maxHeartbeats 16000000 in
theorem trip_next (v2 : BitVec 32) (k k' : Fin k2_t1_loop.trips) (hk : k.val = k'.val + 1)
    (hsc0 : ∀ (r : Fin 128) (x : Fin 80), sc0 (ValueIdx.ix2 r x) = ix (ValueIdx.ix3 (widL L) r x))
    (hscb : ∀ i, (sc0 i).toNat < 1960) (W : Waits sig (HIx 1)) :
    iprop(Transfers.MayWaits (thrV d L) none O ∗ owes (thrV d L) O W ∗ toksI d L cmb sc0 ∗ doneI d L cmb ix (32 * k'.val) ∗ todoI d L o (32 * k.val)
        ∗ batsI d L cmb ix o k' (8 * k'.val))
      ⊢ (wp frame (wpE (defs₀ (F := F)) 𝒱₀ (thrV d L) none) Set.univ
          (k2_t1_body L v5V (Memref.isWhole_whole _) v6V (Memref.isWhole_whole _) v7V (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) (Memref.whole cc2_scratch5) (Memref.isWhole_whole _)
            (Memref.whole cc2_scratch6) (Memref.isWhole_whole _) (Memref.whole cc2_scratch7) (Memref.isWhole_whole _)
            (Memref.whole cc2_scratch8) (Memref.isWhole_whole _)
            cc2_scratch9 cc2_scratch10 cc2_scratch11 cc2_scratch12 cc2_scratch13 cc2_scratch14 cc2_scratch15 cc2_scratch16
            cc2_scratch17 cc2_scratch18 cc2_scratch19 cc2_scratch20 cc2_scratch21 cc2_scratch22 cc2_scratch23 cc2_scratch24 cc2_scoped0 v2 k ())
          (fun _ => iprop(Transfers.MayWaits (thrV d L) none O ∗ owesI d L O W ∗ toksI d L cmb sc0 ∗ doneI d L cmb ix (32 * k'.val + 32)
            ∗ todoI d L o (32 * k.val + 32) ∗ batsI d L cmb ix o k (8 * k.val))) : sProp 𝕄) := by
  have hk16 : k.val < 16 := trips_eq ▸ k.isLt
  have hk'16 : k'.val < 16 := trips_eq ▸ k'.isLt
  have hc1 : k2_cond1 k = 1#1 := (cond1_iff k).mpr (by omega)
  have hc2 : k2_cond2 k = 1#1 := (cond2_iff k).mpr (by omega)
  have hc3 : k2_cond3 k = 1#1 := (cond3_iff k).mpr (by omega)
  have hc4 : k2_cond4 k = 1#1 := (cond4_iff k).mpr (by omega)
  have hc5 : k2_cond5 k = 1#1 := (cond5_iff k).mpr (by omega)
  have hc6 : k2_cond6 k = 1#1 := (cond6_iff k).mpr (by omega)
  have hc7 : k2_cond7 k = 1#1 := (cond7_iff k).mpr (by omega)
  have hc8 : k2_cond8 k = 1#1 := (cond8_iff k).mpr (by omega)
  have hin0 : ∀ x, ((lstM0 k).view.read (Elt F) sc0 x).toNat < 1960 := lst_inb d L sc0 hscb _ _
  have hin1 : ∀ x, ((lstM1 k).view.read (Elt F) sc0 x).toNat < 1960 := lst_inb d L sc0 hscb _ _
  have hin2 : ∀ x, ((lstM2 k).view.read (Elt F) sc0 x).toNat < 1960 := lst_inb d L sc0 hscb _ _
  have hin3 : ∀ x, ((lstM3 k).view.read (Elt F) sc0 x).toNat < 1960 := lst_inb d L sc0 hscb _ _
  have hin4 : ∀ x, ((lstM4 k).view.read (Elt F) sc0 x).toNat < 1960 := lst_inb d L sc0 hscb _ _
  have hin5 : ∀ x, ((lstM5 k).view.read (Elt F) sc0 x).toNat < 1960 := lst_inb d L sc0 hscb _ _
  have hin6 : ∀ x, ((lstM6 k).view.read (Elt F) sc0 x).toNat < 1960 := lst_inb d L sc0 hscb _ _
  have hin7 : ∀ x, ((lstM7 k).view.read (Elt F) sc0 x).toNat < 1960 := lst_inb d L sc0 hscb _ _
  iintro ⟨#Hmw, HO, ⟨Hv0, Hv1, Hv2, Hv3, Hv4, Hv5, Hv6, Hv7, Hl0, Hl1, Hl2, Hl3, Hl4, Hl5, Hl6, Hl7, Hg0, Hg1, Hg2, Hg3, Hg4, Hg5, Hg6, Hg7⟩, Hd, Ht, HB0, HB1, HB2, HB3, HB4, HB5, HB6, HB7⟩
  ihave Ht := (take_oRow' d L (widL L) (32 * k.val) (32 * k.val + 1) (by omega) (by omega) (k2_off11 L k 0#32 0#32) (k2_off11_inb L k 0 0) (off11_n L k 0 0 _ (by rfl)) o) $$ Ht
  icases Ht with ⟨Ho0_0, Ht⟩
  ihave Ht := (take_oRow' d L (widL L) (32 * k.val + 1) (32 * k.val + 2) (by omega) (by omega) (k2_off11 L k 0#32 1#32) (k2_off11_inb L k 0 1) (off11_n L k 0 1 _ (by rfl)) o) $$ Ht
  icases Ht with ⟨Ho0_1, Ht⟩
  ihave Ht := (take_oRow' d L (widL L) (32 * k.val + 2) (32 * k.val + 3) (by omega) (by omega) (k2_off11 L k 0#32 2#32) (k2_off11_inb L k 0 2) (off11_n L k 0 2 _ (by rfl)) o) $$ Ht
  icases Ht with ⟨Ho0_2, Ht⟩
  ihave Ht := (take_oRow' d L (widL L) (32 * k.val + 3) (32 * k.val + 4) (by omega) (by omega) (k2_off11 L k 0#32 3#32) (k2_off11_inb L k 0 3) (off11_n L k 0 3 _ (by rfl)) o) $$ Ht
  icases Ht with ⟨Ho0_3, Ht⟩
  ihave Ht := (take_oRow' d L (widL L) (32 * k.val + 4) (32 * k.val + 5) (by omega) (by omega) (k2_off11 L k 1#32 0#32) (k2_off11_inb L k 1 0) (off11_n L k 1 0 _ (by rfl)) o) $$ Ht
  icases Ht with ⟨Ho1_0, Ht⟩
  ihave Ht := (take_oRow' d L (widL L) (32 * k.val + 5) (32 * k.val + 6) (by omega) (by omega) (k2_off11 L k 1#32 1#32) (k2_off11_inb L k 1 1) (off11_n L k 1 1 _ (by rfl)) o) $$ Ht
  icases Ht with ⟨Ho1_1, Ht⟩
  ihave Ht := (take_oRow' d L (widL L) (32 * k.val + 6) (32 * k.val + 7) (by omega) (by omega) (k2_off11 L k 1#32 2#32) (k2_off11_inb L k 1 2) (off11_n L k 1 2 _ (by rfl)) o) $$ Ht
  icases Ht with ⟨Ho1_2, Ht⟩
  ihave Ht := (take_oRow' d L (widL L) (32 * k.val + 7) (32 * k.val + 8) (by omega) (by omega) (k2_off11 L k 1#32 3#32) (k2_off11_inb L k 1 3) (off11_n L k 1 3 _ (by rfl)) o) $$ Ht
  icases Ht with ⟨Ho1_3, Ht⟩
  ihave Ht := (take_oRow' d L (widL L) (32 * k.val + 8) (32 * k.val + 9) (by omega) (by omega) (k2_off11 L k 2#32 0#32) (k2_off11_inb L k 2 0) (off11_n L k 2 0 _ (by rfl)) o) $$ Ht
  icases Ht with ⟨Ho2_0, Ht⟩
  ihave Ht := (take_oRow' d L (widL L) (32 * k.val + 9) (32 * k.val + 10) (by omega) (by omega) (k2_off11 L k 2#32 1#32) (k2_off11_inb L k 2 1) (off11_n L k 2 1 _ (by rfl)) o) $$ Ht
  icases Ht with ⟨Ho2_1, Ht⟩
  ihave Ht := (take_oRow' d L (widL L) (32 * k.val + 10) (32 * k.val + 11) (by omega) (by omega) (k2_off11 L k 2#32 2#32) (k2_off11_inb L k 2 2) (off11_n L k 2 2 _ (by rfl)) o) $$ Ht
  icases Ht with ⟨Ho2_2, Ht⟩
  ihave Ht := (take_oRow' d L (widL L) (32 * k.val + 11) (32 * k.val + 12) (by omega) (by omega) (k2_off11 L k 2#32 3#32) (k2_off11_inb L k 2 3) (off11_n L k 2 3 _ (by rfl)) o) $$ Ht
  icases Ht with ⟨Ho2_3, Ht⟩
  ihave Ht := (take_oRow' d L (widL L) (32 * k.val + 12) (32 * k.val + 13) (by omega) (by omega) (k2_off11 L k 3#32 0#32) (k2_off11_inb L k 3 0) (off11_n L k 3 0 _ (by rfl)) o) $$ Ht
  icases Ht with ⟨Ho3_0, Ht⟩
  ihave Ht := (take_oRow' d L (widL L) (32 * k.val + 13) (32 * k.val + 14) (by omega) (by omega) (k2_off11 L k 3#32 1#32) (k2_off11_inb L k 3 1) (off11_n L k 3 1 _ (by rfl)) o) $$ Ht
  icases Ht with ⟨Ho3_1, Ht⟩
  ihave Ht := (take_oRow' d L (widL L) (32 * k.val + 14) (32 * k.val + 15) (by omega) (by omega) (k2_off11 L k 3#32 2#32) (k2_off11_inb L k 3 2) (off11_n L k 3 2 _ (by rfl)) o) $$ Ht
  icases Ht with ⟨Ho3_2, Ht⟩
  ihave Ht := (take_oRow' d L (widL L) (32 * k.val + 15) (32 * k.val + 16) (by omega) (by omega) (k2_off11 L k 3#32 3#32) (k2_off11_inb L k 3 3) (off11_n L k 3 3 _ (by rfl)) o) $$ Ht
  icases Ht with ⟨Ho3_3, Ht⟩
  ihave Ht := (take_oRow' d L (widL L) (32 * k.val + 16) (32 * k.val + 17) (by omega) (by omega) (k2_off11 L k 4#32 0#32) (k2_off11_inb L k 4 0) (off11_n L k 4 0 _ (by rfl)) o) $$ Ht
  icases Ht with ⟨Ho4_0, Ht⟩
  ihave Ht := (take_oRow' d L (widL L) (32 * k.val + 17) (32 * k.val + 18) (by omega) (by omega) (k2_off11 L k 4#32 1#32) (k2_off11_inb L k 4 1) (off11_n L k 4 1 _ (by rfl)) o) $$ Ht
  icases Ht with ⟨Ho4_1, Ht⟩
  ihave Ht := (take_oRow' d L (widL L) (32 * k.val + 18) (32 * k.val + 19) (by omega) (by omega) (k2_off11 L k 4#32 2#32) (k2_off11_inb L k 4 2) (off11_n L k 4 2 _ (by rfl)) o) $$ Ht
  icases Ht with ⟨Ho4_2, Ht⟩
  ihave Ht := (take_oRow' d L (widL L) (32 * k.val + 19) (32 * k.val + 20) (by omega) (by omega) (k2_off11 L k 4#32 3#32) (k2_off11_inb L k 4 3) (off11_n L k 4 3 _ (by rfl)) o) $$ Ht
  icases Ht with ⟨Ho4_3, Ht⟩
  ihave Ht := (take_oRow' d L (widL L) (32 * k.val + 20) (32 * k.val + 21) (by omega) (by omega) (k2_off11 L k 5#32 0#32) (k2_off11_inb L k 5 0) (off11_n L k 5 0 _ (by rfl)) o) $$ Ht
  icases Ht with ⟨Ho5_0, Ht⟩
  ihave Ht := (take_oRow' d L (widL L) (32 * k.val + 21) (32 * k.val + 22) (by omega) (by omega) (k2_off11 L k 5#32 1#32) (k2_off11_inb L k 5 1) (off11_n L k 5 1 _ (by rfl)) o) $$ Ht
  icases Ht with ⟨Ho5_1, Ht⟩
  ihave Ht := (take_oRow' d L (widL L) (32 * k.val + 22) (32 * k.val + 23) (by omega) (by omega) (k2_off11 L k 5#32 2#32) (k2_off11_inb L k 5 2) (off11_n L k 5 2 _ (by rfl)) o) $$ Ht
  icases Ht with ⟨Ho5_2, Ht⟩
  ihave Ht := (take_oRow' d L (widL L) (32 * k.val + 23) (32 * k.val + 24) (by omega) (by omega) (k2_off11 L k 5#32 3#32) (k2_off11_inb L k 5 3) (off11_n L k 5 3 _ (by rfl)) o) $$ Ht
  icases Ht with ⟨Ho5_3, Ht⟩
  ihave Ht := (take_oRow' d L (widL L) (32 * k.val + 24) (32 * k.val + 25) (by omega) (by omega) (k2_off11 L k 6#32 0#32) (k2_off11_inb L k 6 0) (off11_n L k 6 0 _ (by rfl)) o) $$ Ht
  icases Ht with ⟨Ho6_0, Ht⟩
  ihave Ht := (take_oRow' d L (widL L) (32 * k.val + 25) (32 * k.val + 26) (by omega) (by omega) (k2_off11 L k 6#32 1#32) (k2_off11_inb L k 6 1) (off11_n L k 6 1 _ (by rfl)) o) $$ Ht
  icases Ht with ⟨Ho6_1, Ht⟩
  ihave Ht := (take_oRow' d L (widL L) (32 * k.val + 26) (32 * k.val + 27) (by omega) (by omega) (k2_off11 L k 6#32 2#32) (k2_off11_inb L k 6 2) (off11_n L k 6 2 _ (by rfl)) o) $$ Ht
  icases Ht with ⟨Ho6_2, Ht⟩
  ihave Ht := (take_oRow' d L (widL L) (32 * k.val + 27) (32 * k.val + 28) (by omega) (by omega) (k2_off11 L k 6#32 3#32) (k2_off11_inb L k 6 3) (off11_n L k 6 3 _ (by rfl)) o) $$ Ht
  icases Ht with ⟨Ho6_3, Ht⟩
  ihave Ht := (take_oRow' d L (widL L) (32 * k.val + 28) (32 * k.val + 29) (by omega) (by omega) (k2_off11 L k 7#32 0#32) (k2_off11_inb L k 7 0) (off11_n L k 7 0 _ (by rfl)) o) $$ Ht
  icases Ht with ⟨Ho7_0, Ht⟩
  ihave Ht := (take_oRow' d L (widL L) (32 * k.val + 29) (32 * k.val + 30) (by omega) (by omega) (k2_off11 L k 7#32 1#32) (k2_off11_inb L k 7 1) (off11_n L k 7 1 _ (by rfl)) o) $$ Ht
  icases Ht with ⟨Ho7_1, Ht⟩
  ihave Ht := (take_oRow' d L (widL L) (32 * k.val + 30) (32 * k.val + 31) (by omega) (by omega) (k2_off11 L k 7#32 2#32) (k2_off11_inb L k 7 2) (off11_n L k 7 2 _ (by rfl)) o) $$ Ht
  icases Ht with ⟨Ho7_2, Ht⟩
  ihave Ht := (take_oRow' d L (widL L) (32 * k.val + 31) (32 * k.val + 32) (by omega) (by omega) (k2_off11 L k 7#32 3#32) (k2_off11_inb L k 7 3) (off11_n L k 7 3 _ (by rfl)) o) $$ Ht
  icases Ht with ⟨Ho7_3, Ht⟩
  unfold k2_t1_body
  sl_exec
  -- buffer 0 drained: its four rows of the output join the finished rows, its slices the whole buffer; its semaphore kept aside
  ihave Hd := (drn_put0 d L cmb ix o k' ⟨0, by decide⟩ (32 * k'.val) (32 * k'.val + 1) (by first | rfl | omega) (by first | rfl | omega)) $$ [Hd HB0_dst0]
  · isplitl [Hd] <;> iassumption
  ihave Hd := (drn_put0 d L cmb ix o k' ⟨1, by decide⟩ (32 * k'.val + 1) (32 * k'.val + 2) (by first | rfl | omega) (by first | rfl | omega)) $$ [Hd HB0_dst1]
  · isplitl [Hd] <;> iassumption
  ihave Hd := (drn_put0 d L cmb ix o k' ⟨2, by decide⟩ (32 * k'.val + 2) (32 * k'.val + 3) (by first | rfl | omega) (by first | rfl | omega)) $$ [Hd HB0_dst2]
  · isplitl [Hd] <;> iassumption
  ihave Hd := (drn_put0 d L cmb ix o k' ⟨3, by decide⟩ (32 * k'.val + 3) (32 * k'.val + 4) (by first | rfl | omega) (by first | rfl | omega)) $$ [Hd HB0_dst3]
  · isplitl [Hd] <;> iassumption
  ihave Hb0 := (drn_join0 d L _) $$ [HB0_src0 HB0_src1 HB0_src2 HB0_src3]
  · isplitl [HB0_src0]; · iexact HB0_src0
    isplitl [HB0_src1]; · iexact HB0_src1
    isplitl [HB0_src2]; · iexact HB0_src2
    iexact HB0_src3
  ihave Hs0 := (ts_sem_hide d L cc2_scratch17.sem (⟨17, _⟩ : DmaSem sig) rfl) $$ HB0
  sl_exec
  -- buffer 1 drained: its four rows of the output join the finished rows, its slices the whole buffer; its semaphore kept aside
  ihave Hd := (drn_put1 d L cmb ix o k' ⟨0, by decide⟩ (32 * k'.val + 4) (32 * k'.val + 5) (by first | rfl | omega) (by first | rfl | omega)) $$ [Hd HB1_dst0]
  · isplitl [Hd] <;> iassumption
  ihave Hd := (drn_put1 d L cmb ix o k' ⟨1, by decide⟩ (32 * k'.val + 5) (32 * k'.val + 6) (by first | rfl | omega) (by first | rfl | omega)) $$ [Hd HB1_dst1]
  · isplitl [Hd] <;> iassumption
  ihave Hd := (drn_put1 d L cmb ix o k' ⟨2, by decide⟩ (32 * k'.val + 6) (32 * k'.val + 7) (by first | rfl | omega) (by first | rfl | omega)) $$ [Hd HB1_dst2]
  · isplitl [Hd] <;> iassumption
  ihave Hd := (drn_put1 d L cmb ix o k' ⟨3, by decide⟩ (32 * k'.val + 7) (32 * k'.val + 8) (by first | rfl | omega) (by first | rfl | omega)) $$ [Hd HB1_dst3]
  · isplitl [Hd] <;> iassumption
  ihave Hb1 := (drn_join1 d L _) $$ [HB1_src0 HB1_src1 HB1_src2 HB1_src3]
  · isplitl [HB1_src0]; · iexact HB1_src0
    isplitl [HB1_src1]; · iexact HB1_src1
    isplitl [HB1_src2]; · iexact HB1_src2
    iexact HB1_src3
  ihave Hs1 := (ts_sem_hide d L cc2_scratch18.sem (⟨18, _⟩ : DmaSem sig) rfl) $$ HB1
  sl_exec
  -- buffer 2 drained: its four rows of the output join the finished rows, its slices the whole buffer; its semaphore kept aside
  ihave Hd := (drn_put2 d L cmb ix o k' ⟨0, by decide⟩ (32 * k'.val + 8) (32 * k'.val + 9) (by first | rfl | omega) (by first | rfl | omega)) $$ [Hd HB2_dst0]
  · isplitl [Hd] <;> iassumption
  ihave Hd := (drn_put2 d L cmb ix o k' ⟨1, by decide⟩ (32 * k'.val + 9) (32 * k'.val + 10) (by first | rfl | omega) (by first | rfl | omega)) $$ [Hd HB2_dst1]
  · isplitl [Hd] <;> iassumption
  ihave Hd := (drn_put2 d L cmb ix o k' ⟨2, by decide⟩ (32 * k'.val + 10) (32 * k'.val + 11) (by first | rfl | omega) (by first | rfl | omega)) $$ [Hd HB2_dst2]
  · isplitl [Hd] <;> iassumption
  ihave Hd := (drn_put2 d L cmb ix o k' ⟨3, by decide⟩ (32 * k'.val + 11) (32 * k'.val + 12) (by first | rfl | omega) (by first | rfl | omega)) $$ [Hd HB2_dst3]
  · isplitl [Hd] <;> iassumption
  ihave Hb2 := (drn_join2 d L _) $$ [HB2_src0 HB2_src1 HB2_src2 HB2_src3]
  · isplitl [HB2_src0]; · iexact HB2_src0
    isplitl [HB2_src1]; · iexact HB2_src1
    isplitl [HB2_src2]; · iexact HB2_src2
    iexact HB2_src3
  ihave Hs2 := (ts_sem_hide d L cc2_scratch19.sem (⟨19, _⟩ : DmaSem sig) rfl) $$ HB2
  sl_exec
  -- buffer 3 drained: its four rows of the output join the finished rows, its slices the whole buffer; its semaphore kept aside
  ihave Hd := (drn_put3 d L cmb ix o k' ⟨0, by decide⟩ (32 * k'.val + 12) (32 * k'.val + 13) (by first | rfl | omega) (by first | rfl | omega)) $$ [Hd HB3_dst0]
  · isplitl [Hd] <;> iassumption
  ihave Hd := (drn_put3 d L cmb ix o k' ⟨1, by decide⟩ (32 * k'.val + 13) (32 * k'.val + 14) (by first | rfl | omega) (by first | rfl | omega)) $$ [Hd HB3_dst1]
  · isplitl [Hd] <;> iassumption
  ihave Hd := (drn_put3 d L cmb ix o k' ⟨2, by decide⟩ (32 * k'.val + 14) (32 * k'.val + 15) (by first | rfl | omega) (by first | rfl | omega)) $$ [Hd HB3_dst2]
  · isplitl [Hd] <;> iassumption
  ihave Hd := (drn_put3 d L cmb ix o k' ⟨3, by decide⟩ (32 * k'.val + 15) (32 * k'.val + 16) (by first | rfl | omega) (by first | rfl | omega)) $$ [Hd HB3_dst3]
  · isplitl [Hd] <;> iassumption
  ihave Hb3 := (drn_join3 d L _) $$ [HB3_src0 HB3_src1 HB3_src2 HB3_src3]
  · isplitl [HB3_src0]; · iexact HB3_src0
    isplitl [HB3_src1]; · iexact HB3_src1
    isplitl [HB3_src2]; · iexact HB3_src2
    iexact HB3_src3
  ihave Hs3 := (ts_sem_hide d L cc2_scratch20.sem (⟨20, _⟩ : DmaSem sig) rfl) $$ HB3
  sl_exec
  -- buffer 4 drained: its four rows of the output join the finished rows, its slices the whole buffer; its semaphore kept aside
  ihave Hd := (drn_put4 d L cmb ix o k' ⟨0, by decide⟩ (32 * k'.val + 16) (32 * k'.val + 17) (by first | rfl | omega) (by first | rfl | omega)) $$ [Hd HB4_dst0]
  · isplitl [Hd] <;> iassumption
  ihave Hd := (drn_put4 d L cmb ix o k' ⟨1, by decide⟩ (32 * k'.val + 17) (32 * k'.val + 18) (by first | rfl | omega) (by first | rfl | omega)) $$ [Hd HB4_dst1]
  · isplitl [Hd] <;> iassumption
  ihave Hd := (drn_put4 d L cmb ix o k' ⟨2, by decide⟩ (32 * k'.val + 18) (32 * k'.val + 19) (by first | rfl | omega) (by first | rfl | omega)) $$ [Hd HB4_dst2]
  · isplitl [Hd] <;> iassumption
  ihave Hd := (drn_put4 d L cmb ix o k' ⟨3, by decide⟩ (32 * k'.val + 19) (32 * k'.val + 20) (by first | rfl | omega) (by first | rfl | omega)) $$ [Hd HB4_dst3]
  · isplitl [Hd] <;> iassumption
  ihave Hb4 := (drn_join4 d L _) $$ [HB4_src0 HB4_src1 HB4_src2 HB4_src3]
  · isplitl [HB4_src0]; · iexact HB4_src0
    isplitl [HB4_src1]; · iexact HB4_src1
    isplitl [HB4_src2]; · iexact HB4_src2
    iexact HB4_src3
  ihave Hs4 := (ts_sem_hide d L cc2_scratch21.sem (⟨21, _⟩ : DmaSem sig) rfl) $$ HB4
  sl_exec
  -- buffer 5 drained: its four rows of the output join the finished rows, its slices the whole buffer; its semaphore kept aside
  ihave Hd := (drn_put5 d L cmb ix o k' ⟨0, by decide⟩ (32 * k'.val + 20) (32 * k'.val + 21) (by first | rfl | omega) (by first | rfl | omega)) $$ [Hd HB5_dst0]
  · isplitl [Hd] <;> iassumption
  ihave Hd := (drn_put5 d L cmb ix o k' ⟨1, by decide⟩ (32 * k'.val + 21) (32 * k'.val + 22) (by first | rfl | omega) (by first | rfl | omega)) $$ [Hd HB5_dst1]
  · isplitl [Hd] <;> iassumption
  ihave Hd := (drn_put5 d L cmb ix o k' ⟨2, by decide⟩ (32 * k'.val + 22) (32 * k'.val + 23) (by first | rfl | omega) (by first | rfl | omega)) $$ [Hd HB5_dst2]
  · isplitl [Hd] <;> iassumption
  ihave Hd := (drn_put5 d L cmb ix o k' ⟨3, by decide⟩ (32 * k'.val + 23) (32 * k'.val + 24) (by first | rfl | omega) (by first | rfl | omega)) $$ [Hd HB5_dst3]
  · isplitl [Hd] <;> iassumption
  ihave Hb5 := (drn_join5 d L _) $$ [HB5_src0 HB5_src1 HB5_src2 HB5_src3]
  · isplitl [HB5_src0]; · iexact HB5_src0
    isplitl [HB5_src1]; · iexact HB5_src1
    isplitl [HB5_src2]; · iexact HB5_src2
    iexact HB5_src3
  ihave Hs5 := (ts_sem_hide d L cc2_scratch22.sem (⟨22, _⟩ : DmaSem sig) rfl) $$ HB5
  sl_exec
  -- buffer 6 drained: its four rows of the output join the finished rows, its slices the whole buffer; its semaphore kept aside
  ihave Hd := (drn_put6 d L cmb ix o k' ⟨0, by decide⟩ (32 * k'.val + 24) (32 * k'.val + 25) (by first | rfl | omega) (by first | rfl | omega)) $$ [Hd HB6_dst0]
  · isplitl [Hd] <;> iassumption
  ihave Hd := (drn_put6 d L cmb ix o k' ⟨1, by decide⟩ (32 * k'.val + 25) (32 * k'.val + 26) (by first | rfl | omega) (by first | rfl | omega)) $$ [Hd HB6_dst1]
  · isplitl [Hd] <;> iassumption
  ihave Hd := (drn_put6 d L cmb ix o k' ⟨2, by decide⟩ (32 * k'.val + 26) (32 * k'.val + 27) (by first | rfl | omega) (by first | rfl | omega)) $$ [Hd HB6_dst2]
  · isplitl [Hd] <;> iassumption
  ihave Hd := (drn_put6 d L cmb ix o k' ⟨3, by decide⟩ (32 * k'.val + 27) (32 * k'.val + 28) (by first | rfl | omega) (by first | rfl | omega)) $$ [Hd HB6_dst3]
  · isplitl [Hd] <;> iassumption
  ihave Hb6 := (drn_join6 d L _) $$ [HB6_src0 HB6_src1 HB6_src2 HB6_src3]
  · isplitl [HB6_src0]; · iexact HB6_src0
    isplitl [HB6_src1]; · iexact HB6_src1
    isplitl [HB6_src2]; · iexact HB6_src2
    iexact HB6_src3
  ihave Hs6 := (ts_sem_hide d L cc2_scratch23.sem (⟨23, _⟩ : DmaSem sig) rfl) $$ HB6
  sl_exec
  -- buffer 7 drained: its four rows of the output join the finished rows, its slices the whole buffer; its semaphore kept aside
  ihave Hd := (drn_put7 d L cmb ix o k' ⟨0, by decide⟩ (32 * k'.val + 28) (32 * k'.val + 29) (by first | rfl | omega) (by first | rfl | omega)) $$ [Hd HB7_dst0]
  · isplitl [Hd] <;> iassumption
  ihave Hd := (drn_put7 d L cmb ix o k' ⟨1, by decide⟩ (32 * k'.val + 29) (32 * k'.val + 30) (by first | rfl | omega) (by first | rfl | omega)) $$ [Hd HB7_dst1]
  · isplitl [Hd] <;> iassumption
  ihave Hd := (drn_put7 d L cmb ix o k' ⟨2, by decide⟩ (32 * k'.val + 30) (32 * k'.val + 31) (by first | rfl | omega) (by first | rfl | omega)) $$ [Hd HB7_dst2]
  · isplitl [Hd] <;> iassumption
  ihave Hd := (drn_put7 d L cmb ix o k' ⟨3, by decide⟩ (32 * k'.val + 31) (32 * k'.val + 32) (by first | rfl | omega) (by first | rfl | omega)) $$ [Hd HB7_dst3]
  · isplitl [Hd] <;> iassumption
  ihave Hb7 := (drn_join7 d L _) $$ [HB7_src0 HB7_src1 HB7_src2 HB7_src3]
  · isplitl [HB7_src0]; · iexact HB7_src0
    isplitl [HB7_src1]; · iexact HB7_src1
    isplitl [HB7_src2]; · iexact HB7_src2
    iexact HB7_src3
  ihave Hs7 := (ts_sem_hide d L cc2_scratch24.sem (⟨24, _⟩ : DmaSem sig) rfl) $$ HB7
  sl_exec
  -- buffer 0: the gathered rows named, the buffer as its four slices, the batch of its four copies allocated
  ihave Hb0 := (buf_land0 d L _ _) $$ Hb0
  icases Hb0 with ⟨%g0, %hg0, Hq0_0, Hq0_1, Hq0_2, Hq0_3⟩
  have hg0' : g0 = gbuf cmb ix (widL L) (8 * k.val + 0) :=
    hg0.trans (gather_val d L cmb ix sc0 hsc0 (8 * k.val + 0) (by omega) _ (k2_off3_inb k 0) (k2_off3_eq k 0) (fun x => hin0 x))
  subst hg0'
  ihave Hs0 := (Entails.of_eq (hid_eq _)) $$ Hs0
  imod (Transfers.batch_alloc' (Lvl := ℕ) countersEmb (thrV d L) default 81920 (dlv0 d L k o (gbuf cmb ix (widL L) (8 * k.val + 0))) (sm := .dma cc2_scratch17.sem) (E := Set.univ)) $$ Hs0 with HB0
  sl_exec
  -- buffer 1: the gathered rows named, the buffer as its four slices, the batch of its four copies allocated
  ihave Hb1 := (buf_land1 d L _ _) $$ Hb1
  icases Hb1 with ⟨%g1, %hg1, Hq1_0, Hq1_1, Hq1_2, Hq1_3⟩
  have hg1' : g1 = gbuf cmb ix (widL L) (8 * k.val + 1) :=
    hg1.trans (gather_val d L cmb ix sc0 hsc0 (8 * k.val + 1) (by omega) _ (k2_off3_inb k 1) (k2_off3_eq k 1) (fun x => hin1 x))
  subst hg1'
  ihave Hs1 := (Entails.of_eq (hid_eq _)) $$ Hs1
  imod (Transfers.batch_alloc' (Lvl := ℕ) countersEmb (thrV d L) default 81920 (dlv1 d L k o (gbuf cmb ix (widL L) (8 * k.val + 1))) (sm := .dma cc2_scratch18.sem) (E := Set.univ)) $$ Hs1 with HB1
  sl_exec
  -- buffer 2: the gathered rows named, the buffer as its four slices, the batch of its four copies allocated
  ihave Hb2 := (buf_land2 d L _ _) $$ Hb2
  icases Hb2 with ⟨%g2, %hg2, Hq2_0, Hq2_1, Hq2_2, Hq2_3⟩
  have hg2' : g2 = gbuf cmb ix (widL L) (8 * k.val + 2) :=
    hg2.trans (gather_val d L cmb ix sc0 hsc0 (8 * k.val + 2) (by omega) _ (k2_off3_inb k 2) (k2_off3_eq k 2) (fun x => hin2 x))
  subst hg2'
  ihave Hs2 := (Entails.of_eq (hid_eq _)) $$ Hs2
  imod (Transfers.batch_alloc' (Lvl := ℕ) countersEmb (thrV d L) default 81920 (dlv2 d L k o (gbuf cmb ix (widL L) (8 * k.val + 2))) (sm := .dma cc2_scratch19.sem) (E := Set.univ)) $$ Hs2 with HB2
  sl_exec
  -- buffer 3: the gathered rows named, the buffer as its four slices, the batch of its four copies allocated
  ihave Hb3 := (buf_land3 d L _ _) $$ Hb3
  icases Hb3 with ⟨%g3, %hg3, Hq3_0, Hq3_1, Hq3_2, Hq3_3⟩
  have hg3' : g3 = gbuf cmb ix (widL L) (8 * k.val + 3) :=
    hg3.trans (gather_val d L cmb ix sc0 hsc0 (8 * k.val + 3) (by omega) _ (k2_off3_inb k 3) (k2_off3_eq k 3) (fun x => hin3 x))
  subst hg3'
  ihave Hs3 := (Entails.of_eq (hid_eq _)) $$ Hs3
  imod (Transfers.batch_alloc' (Lvl := ℕ) countersEmb (thrV d L) default 81920 (dlv3 d L k o (gbuf cmb ix (widL L) (8 * k.val + 3))) (sm := .dma cc2_scratch20.sem) (E := Set.univ)) $$ Hs3 with HB3
  sl_exec
  -- buffer 4: the gathered rows named, the buffer as its four slices, the batch of its four copies allocated
  ihave Hb4 := (buf_land4 d L _ _) $$ Hb4
  icases Hb4 with ⟨%g4, %hg4, Hq4_0, Hq4_1, Hq4_2, Hq4_3⟩
  have hg4' : g4 = gbuf cmb ix (widL L) (8 * k.val + 4) :=
    hg4.trans (gather_val d L cmb ix sc0 hsc0 (8 * k.val + 4) (by omega) _ (k2_off3_inb k 4) (k2_off3_eq k 4) (fun x => hin4 x))
  subst hg4'
  ihave Hs4 := (Entails.of_eq (hid_eq _)) $$ Hs4
  imod (Transfers.batch_alloc' (Lvl := ℕ) countersEmb (thrV d L) default 81920 (dlv4 d L k o (gbuf cmb ix (widL L) (8 * k.val + 4))) (sm := .dma cc2_scratch21.sem) (E := Set.univ)) $$ Hs4 with HB4
  sl_exec
  -- buffer 5: the gathered rows named, the buffer as its four slices, the batch of its four copies allocated
  ihave Hb5 := (buf_land5 d L _ _) $$ Hb5
  icases Hb5 with ⟨%g5, %hg5, Hq5_0, Hq5_1, Hq5_2, Hq5_3⟩
  have hg5' : g5 = gbuf cmb ix (widL L) (8 * k.val + 5) :=
    hg5.trans (gather_val d L cmb ix sc0 hsc0 (8 * k.val + 5) (by omega) _ (k2_off3_inb k 5) (k2_off3_eq k 5) (fun x => hin5 x))
  subst hg5'
  ihave Hs5 := (Entails.of_eq (hid_eq _)) $$ Hs5
  imod (Transfers.batch_alloc' (Lvl := ℕ) countersEmb (thrV d L) default 81920 (dlv5 d L k o (gbuf cmb ix (widL L) (8 * k.val + 5))) (sm := .dma cc2_scratch22.sem) (E := Set.univ)) $$ Hs5 with HB5
  sl_exec
  -- buffer 6: the gathered rows named, the buffer as its four slices, the batch of its four copies allocated
  ihave Hb6 := (buf_land6 d L _ _) $$ Hb6
  icases Hb6 with ⟨%g6, %hg6, Hq6_0, Hq6_1, Hq6_2, Hq6_3⟩
  have hg6' : g6 = gbuf cmb ix (widL L) (8 * k.val + 6) :=
    hg6.trans (gather_val d L cmb ix sc0 hsc0 (8 * k.val + 6) (by omega) _ (k2_off3_inb k 6) (k2_off3_eq k 6) (fun x => hin6 x))
  subst hg6'
  ihave Hs6 := (Entails.of_eq (hid_eq _)) $$ Hs6
  imod (Transfers.batch_alloc' (Lvl := ℕ) countersEmb (thrV d L) default 81920 (dlv6 d L k o (gbuf cmb ix (widL L) (8 * k.val + 6))) (sm := .dma cc2_scratch23.sem) (E := Set.univ)) $$ Hs6 with HB6
  sl_exec
  -- buffer 7: the gathered rows named, the buffer as its four slices, the batch of its four copies allocated
  ihave Hb7 := (buf_land7 d L _ _) $$ Hb7
  icases Hb7 with ⟨%g7, %hg7, Hq7_0, Hq7_1, Hq7_2, Hq7_3⟩
  have hg7' : g7 = gbuf cmb ix (widL L) (8 * k.val + 7) :=
    hg7.trans (gather_val d L cmb ix sc0 hsc0 (8 * k.val + 7) (by omega) _ (k2_off3_inb k 7) (k2_off3_eq k 7) (fun x => hin7 x))
  subst hg7'
  ihave Hs7 := (Entails.of_eq (hid_eq _)) $$ Hs7
  imod (Transfers.batch_alloc' (Lvl := ℕ) countersEmb (thrV d L) default 81920 (dlv7 d L k o (gbuf cmb ix (widL L) (8 * k.val + 7))) (sm := .dma cc2_scratch24.sem) (E := Set.univ)) $$ Hs7 with HB7
  sl_exec
  sl_step
  isplitr; · iexact Hmw
  isplitl [HO]
  · iexists _; isplitr
    swap; · iexact HO
    ipureintro
    repeat (first | exact fun p hp => Or.inl hp | refine mem_ins ?_ rfl)
  isplitl [Hv0 Hv1 Hv2 Hv3 Hv4 Hv5 Hv6 Hv7 Hl0 Hl1 Hl2 Hl3 Hl4 Hl5 Hl6 Hl7 Hg0 Hg1 Hg2 Hg3 Hg4 Hg5 Hg6 Hg7]
  · isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [Hg0]; · iexact Hg0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    iexact Hg7
  isplitl [Hd]; · iexact Hd
  isplitl [Ht]; · iexact Ht
  isplitl [HB0]; · iexact HB0
  isplitl [HB1]; · iexact HB1
  isplitl [HB2]; · iexact HB2
  isplitl [HB3]; · iexact HB3
  isplitl [HB4]; · iexact HB4
  isplitl [HB5]; · iexact HB5
  isplitl [HB6]; · iexact HB6
  iexact HB7

end Cert.ProofK.Tile

end
-- ==== Proof.TileBodyDrainK.lean ====
import proofs.«206393_g35751307772044_cont_8to1_b_353_20_alg».proof.Proof.TileBodyInvK

noncomputable section

namespace Cert.ProofK.Tile

open Cert.Kernel Cert.Kernel.Gen
open Cert.ProofK.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ

variable (d : Dev nD) (L : grid2.Coords) (cmb : Buf (Elt F) (v5Loc d)) (ix : Buf (Elt F) (v6Loc d)) (o : Buf (Elt F) (v7Loc d))
  (sc0 : Buf (Elt F) ((lstV).view.loc (thrV d L))) (O : CellTallies nD τ sig (HIx 1))

/-- Slice `e` of row buffer 0 read at (p, q) is the buffer at (20 e + p, q). -/
private theorem cdrn_pay0 (gv : FVec F S80x128 .f32) (e : Fin 4) (x : S20x128.Idx) :
    ReadAs.same.apply ((bslE0 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE0 e).view.read (Elt F) gv x = _
  rw [show (bslE0 e).view.read (Elt F) gv x = gv ((bslE0 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- One landed batch element of row buffer 0's copies joins the tile's finished rows. -/
private theorem cdrn_row0 (k : Fin k2_t1_loop.trips) (hk : k.val = 15) (e : Fin 4) (a a' : ℕ)
    (ha : a = 32 * k.val + (4 * 0 + e.val)) (ha' : a' = a + 1) :
    iprop(doneI d L cmb ix a ∗ ((oRowE0 L k e).view.loc (thrV d L) ↦[(oRowE0 L k e).view.set]{fullShare}
        (oRowE0 L k e).view.writes (Elt F) o
          [⟨Rect.whole S20x128, ReadAs.same.apply ((bslE0 e).view.read (Elt F) (gbuf cmb ix (widL L) (8 * k.val + 0)))⟩]))
      ⊢ (doneI d L cmb ix a' : sProp 𝕄) := by
  subst ha ha'
  have he := e.isLt
  have hc : 8 * k.val + 0 < 128 := by omega
  have hoff1 : k2_off11 L k 0#32 (BitVec.ofNat 32 e.val) = ![512 * (widL L).val + (4 * (8 * k.val + 0) + e.val), 0, 0] :=
    off11_n L k (⟨0, by decide⟩ : Fin 8) e _ (by show _ = 32 * k.val + (4 * 0 + e.val); omega)
  have hoff2 : k2_off11 L k 0#32 (BitVec.ofNat 32 e.val) = ![512 * (widL L).val + (32 * k.val + (4 * 0 + e.val)), 0, 0] :=
    off11_n L k (⟨0, by decide⟩ : Fin 8) e _ rfl
  refine (sep_mono_right (Entails.of_eq (oRow_landed d L cmb ix o (8 * k.val + 0) hc e _ (k2_off11_inb L k 0 e) hoff1 _
    (fun x => cdrn_pay0 _ e x)))).trans ?_
  exact put_oRow d L (widL L) _ _ (k2_off11_inb L k 0 e) hoff2 (gOut cmb ix)

/-- Row buffer 0's four slices back are the buffer whole, at some contents. -/
private theorem cdrn_buf0 (gv : FVec F S80x128 .f32) :
    iprop(((bslE0 0).view.loc (thrV d L) ↦[(bslE0 0).view.set]{fullShare} gv)
        ∗ ((bslE0 1).view.loc (thrV d L) ↦[(bslE0 1).view.set]{fullShare} gv)
        ∗ ((bslE0 2).view.loc (thrV d L) ↦[(bslE0 2).view.set]{fullShare} gv)
        ∗ ((bslE0 3).view.loc (thrV d L) ↦[(bslE0 3).view.set]{fullShare} gv))
      ⊢ (iprop(∃ f, (bufM0).view.loc (thrV d L) ↦{fullShare} f) : sProp 𝕄) := by
  iintro H
  iexists gv
  iapply (Entails.of_eq (buf_split0 d L gv).symm)
  iexact H

/-- Slice `e` of row buffer 1 read at (p, q) is the buffer at (20 e + p, q). -/
private theorem cdrn_pay1 (gv : FVec F S80x128 .f32) (e : Fin 4) (x : S20x128.Idx) :
    ReadAs.same.apply ((bslE1 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE1 e).view.read (Elt F) gv x = _
  rw [show (bslE1 e).view.read (Elt F) gv x = gv ((bslE1 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- One landed batch element of row buffer 1's copies joins the tile's finished rows. -/
private theorem cdrn_row1 (k : Fin k2_t1_loop.trips) (hk : k.val = 15) (e : Fin 4) (a a' : ℕ)
    (ha : a = 32 * k.val + (4 * 1 + e.val)) (ha' : a' = a + 1) :
    iprop(doneI d L cmb ix a ∗ ((oRowE1 L k e).view.loc (thrV d L) ↦[(oRowE1 L k e).view.set]{fullShare}
        (oRowE1 L k e).view.writes (Elt F) o
          [⟨Rect.whole S20x128, ReadAs.same.apply ((bslE1 e).view.read (Elt F) (gbuf cmb ix (widL L) (8 * k.val + 1)))⟩]))
      ⊢ (doneI d L cmb ix a' : sProp 𝕄) := by
  subst ha ha'
  have he := e.isLt
  have hc : 8 * k.val + 1 < 128 := by omega
  have hoff1 : k2_off11 L k 1#32 (BitVec.ofNat 32 e.val) = ![512 * (widL L).val + (4 * (8 * k.val + 1) + e.val), 0, 0] :=
    off11_n L k (⟨1, by decide⟩ : Fin 8) e _ (by show _ = 32 * k.val + (4 * 1 + e.val); omega)
  have hoff2 : k2_off11 L k 1#32 (BitVec.ofNat 32 e.val) = ![512 * (widL L).val + (32 * k.val + (4 * 1 + e.val)), 0, 0] :=
    off11_n L k (⟨1, by decide⟩ : Fin 8) e _ rfl
  refine (sep_mono_right (Entails.of_eq (oRow_landed d L cmb ix o (8 * k.val + 1) hc e _ (k2_off11_inb L k 1 e) hoff1 _
    (fun x => cdrn_pay1 _ e x)))).trans ?_
  exact put_oRow d L (widL L) _ _ (k2_off11_inb L k 1 e) hoff2 (gOut cmb ix)

/-- Row buffer 1's four slices back are the buffer whole, at some contents. -/
private theorem cdrn_buf1 (gv : FVec F S80x128 .f32) :
    iprop(((bslE1 0).view.loc (thrV d L) ↦[(bslE1 0).view.set]{fullShare} gv)
        ∗ ((bslE1 1).view.loc (thrV d L) ↦[(bslE1 1).view.set]{fullShare} gv)
        ∗ ((bslE1 2).view.loc (thrV d L) ↦[(bslE1 2).view.set]{fullShare} gv)
        ∗ ((bslE1 3).view.loc (thrV d L) ↦[(bslE1 3).view.set]{fullShare} gv))
      ⊢ (iprop(∃ f, (bufM1).view.loc (thrV d L) ↦{fullShare} f) : sProp 𝕄) := by
  iintro H
  iexists gv
  iapply (Entails.of_eq (buf_split1 d L gv).symm)
  iexact H

/-- Slice `e` of row buffer 2 read at (p, q) is the buffer at (20 e + p, q). -/
private theorem cdrn_pay2 (gv : FVec F S80x128 .f32) (e : Fin 4) (x : S20x128.Idx) :
    ReadAs.same.apply ((bslE2 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE2 e).view.read (Elt F) gv x = _
  rw [show (bslE2 e).view.read (Elt F) gv x = gv ((bslE2 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- One landed batch element of row buffer 2's copies joins the tile's finished rows. -/
private theorem cdrn_row2 (k : Fin k2_t1_loop.trips) (hk : k.val = 15) (e : Fin 4) (a a' : ℕ)
    (ha : a = 32 * k.val + (4 * 2 + e.val)) (ha' : a' = a + 1) :
    iprop(doneI d L cmb ix a ∗ ((oRowE2 L k e).view.loc (thrV d L) ↦[(oRowE2 L k e).view.set]{fullShare}
        (oRowE2 L k e).view.writes (Elt F) o
          [⟨Rect.whole S20x128, ReadAs.same.apply ((bslE2 e).view.read (Elt F) (gbuf cmb ix (widL L) (8 * k.val + 2)))⟩]))
      ⊢ (doneI d L cmb ix a' : sProp 𝕄) := by
  subst ha ha'
  have he := e.isLt
  have hc : 8 * k.val + 2 < 128 := by omega
  have hoff1 : k2_off11 L k 2#32 (BitVec.ofNat 32 e.val) = ![512 * (widL L).val + (4 * (8 * k.val + 2) + e.val), 0, 0] :=
    off11_n L k (⟨2, by decide⟩ : Fin 8) e _ (by show _ = 32 * k.val + (4 * 2 + e.val); omega)
  have hoff2 : k2_off11 L k 2#32 (BitVec.ofNat 32 e.val) = ![512 * (widL L).val + (32 * k.val + (4 * 2 + e.val)), 0, 0] :=
    off11_n L k (⟨2, by decide⟩ : Fin 8) e _ rfl
  refine (sep_mono_right (Entails.of_eq (oRow_landed d L cmb ix o (8 * k.val + 2) hc e _ (k2_off11_inb L k 2 e) hoff1 _
    (fun x => cdrn_pay2 _ e x)))).trans ?_
  exact put_oRow d L (widL L) _ _ (k2_off11_inb L k 2 e) hoff2 (gOut cmb ix)

/-- Row buffer 2's four slices back are the buffer whole, at some contents. -/
private theorem cdrn_buf2 (gv : FVec F S80x128 .f32) :
    iprop(((bslE2 0).view.loc (thrV d L) ↦[(bslE2 0).view.set]{fullShare} gv)
        ∗ ((bslE2 1).view.loc (thrV d L) ↦[(bslE2 1).view.set]{fullShare} gv)
        ∗ ((bslE2 2).view.loc (thrV d L) ↦[(bslE2 2).view.set]{fullShare} gv)
        ∗ ((bslE2 3).view.loc (thrV d L) ↦[(bslE2 3).view.set]{fullShare} gv))
      ⊢ (iprop(∃ f, (bufM2).view.loc (thrV d L) ↦{fullShare} f) : sProp 𝕄) := by
  iintro H
  iexists gv
  iapply (Entails.of_eq (buf_split2 d L gv).symm)
  iexact H

/-- Slice `e` of row buffer 3 read at (p, q) is the buffer at (20 e + p, q). -/
private theorem cdrn_pay3 (gv : FVec F S80x128 .f32) (e : Fin 4) (x : S20x128.Idx) :
    ReadAs.same.apply ((bslE3 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE3 e).view.read (Elt F) gv x = _
  rw [show (bslE3 e).view.read (Elt F) gv x = gv ((bslE3 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- One landed batch element of row buffer 3's copies joins the tile's finished rows. -/
private theorem cdrn_row3 (k : Fin k2_t1_loop.trips) (hk : k.val = 15) (e : Fin 4) (a a' : ℕ)
    (ha : a = 32 * k.val + (4 * 3 + e.val)) (ha' : a' = a + 1) :
    iprop(doneI d L cmb ix a ∗ ((oRowE3 L k e).view.loc (thrV d L) ↦[(oRowE3 L k e).view.set]{fullShare}
        (oRowE3 L k e).view.writes (Elt F) o
          [⟨Rect.whole S20x128, ReadAs.same.apply ((bslE3 e).view.read (Elt F) (gbuf cmb ix (widL L) (8 * k.val + 3)))⟩]))
      ⊢ (doneI d L cmb ix a' : sProp 𝕄) := by
  subst ha ha'
  have he := e.isLt
  have hc : 8 * k.val + 3 < 128 := by omega
  have hoff1 : k2_off11 L k 3#32 (BitVec.ofNat 32 e.val) = ![512 * (widL L).val + (4 * (8 * k.val + 3) + e.val), 0, 0] :=
    off11_n L k (⟨3, by decide⟩ : Fin 8) e _ (by show _ = 32 * k.val + (4 * 3 + e.val); omega)
  have hoff2 : k2_off11 L k 3#32 (BitVec.ofNat 32 e.val) = ![512 * (widL L).val + (32 * k.val + (4 * 3 + e.val)), 0, 0] :=
    off11_n L k (⟨3, by decide⟩ : Fin 8) e _ rfl
  refine (sep_mono_right (Entails.of_eq (oRow_landed d L cmb ix o (8 * k.val + 3) hc e _ (k2_off11_inb L k 3 e) hoff1 _
    (fun x => cdrn_pay3 _ e x)))).trans ?_
  exact put_oRow d L (widL L) _ _ (k2_off11_inb L k 3 e) hoff2 (gOut cmb ix)

/-- Row buffer 3's four slices back are the buffer whole, at some contents. -/
private theorem cdrn_buf3 (gv : FVec F S80x128 .f32) :
    iprop(((bslE3 0).view.loc (thrV d L) ↦[(bslE3 0).view.set]{fullShare} gv)
        ∗ ((bslE3 1).view.loc (thrV d L) ↦[(bslE3 1).view.set]{fullShare} gv)
        ∗ ((bslE3 2).view.loc (thrV d L) ↦[(bslE3 2).view.set]{fullShare} gv)
        ∗ ((bslE3 3).view.loc (thrV d L) ↦[(bslE3 3).view.set]{fullShare} gv))
      ⊢ (iprop(∃ f, (bufM3).view.loc (thrV d L) ↦{fullShare} f) : sProp 𝕄) := by
  iintro H
  iexists gv
  iapply (Entails.of_eq (buf_split3 d L gv).symm)
  iexact H

/-- Slice `e` of row buffer 4 read at (p, q) is the buffer at (20 e + p, q). -/
private theorem cdrn_pay4 (gv : FVec F S80x128 .f32) (e : Fin 4) (x : S20x128.Idx) :
    ReadAs.same.apply ((bslE4 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE4 e).view.read (Elt F) gv x = _
  rw [show (bslE4 e).view.read (Elt F) gv x = gv ((bslE4 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- One landed batch element of row buffer 4's copies joins the tile's finished rows. -/
private theorem cdrn_row4 (k : Fin k2_t1_loop.trips) (hk : k.val = 15) (e : Fin 4) (a a' : ℕ)
    (ha : a = 32 * k.val + (4 * 4 + e.val)) (ha' : a' = a + 1) :
    iprop(doneI d L cmb ix a ∗ ((oRowE4 L k e).view.loc (thrV d L) ↦[(oRowE4 L k e).view.set]{fullShare}
        (oRowE4 L k e).view.writes (Elt F) o
          [⟨Rect.whole S20x128, ReadAs.same.apply ((bslE4 e).view.read (Elt F) (gbuf cmb ix (widL L) (8 * k.val + 4)))⟩]))
      ⊢ (doneI d L cmb ix a' : sProp 𝕄) := by
  subst ha ha'
  have he := e.isLt
  have hc : 8 * k.val + 4 < 128 := by omega
  have hoff1 : k2_off11 L k 4#32 (BitVec.ofNat 32 e.val) = ![512 * (widL L).val + (4 * (8 * k.val + 4) + e.val), 0, 0] :=
    off11_n L k (⟨4, by decide⟩ : Fin 8) e _ (by show _ = 32 * k.val + (4 * 4 + e.val); omega)
  have hoff2 : k2_off11 L k 4#32 (BitVec.ofNat 32 e.val) = ![512 * (widL L).val + (32 * k.val + (4 * 4 + e.val)), 0, 0] :=
    off11_n L k (⟨4, by decide⟩ : Fin 8) e _ rfl
  refine (sep_mono_right (Entails.of_eq (oRow_landed d L cmb ix o (8 * k.val + 4) hc e _ (k2_off11_inb L k 4 e) hoff1 _
    (fun x => cdrn_pay4 _ e x)))).trans ?_
  exact put_oRow d L (widL L) _ _ (k2_off11_inb L k 4 e) hoff2 (gOut cmb ix)

/-- Row buffer 4's four slices back are the buffer whole, at some contents. -/
private theorem cdrn_buf4 (gv : FVec F S80x128 .f32) :
    iprop(((bslE4 0).view.loc (thrV d L) ↦[(bslE4 0).view.set]{fullShare} gv)
        ∗ ((bslE4 1).view.loc (thrV d L) ↦[(bslE4 1).view.set]{fullShare} gv)
        ∗ ((bslE4 2).view.loc (thrV d L) ↦[(bslE4 2).view.set]{fullShare} gv)
        ∗ ((bslE4 3).view.loc (thrV d L) ↦[(bslE4 3).view.set]{fullShare} gv))
      ⊢ (iprop(∃ f, (bufM4).view.loc (thrV d L) ↦{fullShare} f) : sProp 𝕄) := by
  iintro H
  iexists gv
  iapply (Entails.of_eq (buf_split4 d L gv).symm)
  iexact H

/-- Slice `e` of row buffer 5 read at (p, q) is the buffer at (20 e + p, q). -/
private theorem cdrn_pay5 (gv : FVec F S80x128 .f32) (e : Fin 4) (x : S20x128.Idx) :
    ReadAs.same.apply ((bslE5 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE5 e).view.read (Elt F) gv x = _
  rw [show (bslE5 e).view.read (Elt F) gv x = gv ((bslE5 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- One landed batch element of row buffer 5's copies joins the tile's finished rows. -/
private theorem cdrn_row5 (k : Fin k2_t1_loop.trips) (hk : k.val = 15) (e : Fin 4) (a a' : ℕ)
    (ha : a = 32 * k.val + (4 * 5 + e.val)) (ha' : a' = a + 1) :
    iprop(doneI d L cmb ix a ∗ ((oRowE5 L k e).view.loc (thrV d L) ↦[(oRowE5 L k e).view.set]{fullShare}
        (oRowE5 L k e).view.writes (Elt F) o
          [⟨Rect.whole S20x128, ReadAs.same.apply ((bslE5 e).view.read (Elt F) (gbuf cmb ix (widL L) (8 * k.val + 5)))⟩]))
      ⊢ (doneI d L cmb ix a' : sProp 𝕄) := by
  subst ha ha'
  have he := e.isLt
  have hc : 8 * k.val + 5 < 128 := by omega
  have hoff1 : k2_off11 L k 5#32 (BitVec.ofNat 32 e.val) = ![512 * (widL L).val + (4 * (8 * k.val + 5) + e.val), 0, 0] :=
    off11_n L k (⟨5, by decide⟩ : Fin 8) e _ (by show _ = 32 * k.val + (4 * 5 + e.val); omega)
  have hoff2 : k2_off11 L k 5#32 (BitVec.ofNat 32 e.val) = ![512 * (widL L).val + (32 * k.val + (4 * 5 + e.val)), 0, 0] :=
    off11_n L k (⟨5, by decide⟩ : Fin 8) e _ rfl
  refine (sep_mono_right (Entails.of_eq (oRow_landed d L cmb ix o (8 * k.val + 5) hc e _ (k2_off11_inb L k 5 e) hoff1 _
    (fun x => cdrn_pay5 _ e x)))).trans ?_
  exact put_oRow d L (widL L) _ _ (k2_off11_inb L k 5 e) hoff2 (gOut cmb ix)

/-- Row buffer 5's four slices back are the buffer whole, at some contents. -/
private theorem cdrn_buf5 (gv : FVec F S80x128 .f32) :
    iprop(((bslE5 0).view.loc (thrV d L) ↦[(bslE5 0).view.set]{fullShare} gv)
        ∗ ((bslE5 1).view.loc (thrV d L) ↦[(bslE5 1).view.set]{fullShare} gv)
        ∗ ((bslE5 2).view.loc (thrV d L) ↦[(bslE5 2).view.set]{fullShare} gv)
        ∗ ((bslE5 3).view.loc (thrV d L) ↦[(bslE5 3).view.set]{fullShare} gv))
      ⊢ (iprop(∃ f, (bufM5).view.loc (thrV d L) ↦{fullShare} f) : sProp 𝕄) := by
  iintro H
  iexists gv
  iapply (Entails.of_eq (buf_split5 d L gv).symm)
  iexact H

/-- Slice `e` of row buffer 6 read at (p, q) is the buffer at (20 e + p, q). -/
private theorem cdrn_pay6 (gv : FVec F S80x128 .f32) (e : Fin 4) (x : S20x128.Idx) :
    ReadAs.same.apply ((bslE6 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE6 e).view.read (Elt F) gv x = _
  rw [show (bslE6 e).view.read (Elt F) gv x = gv ((bslE6 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- One landed batch element of row buffer 6's copies joins the tile's finished rows. -/
private theorem cdrn_row6 (k : Fin k2_t1_loop.trips) (hk : k.val = 15) (e : Fin 4) (a a' : ℕ)
    (ha : a = 32 * k.val + (4 * 6 + e.val)) (ha' : a' = a + 1) :
    iprop(doneI d L cmb ix a ∗ ((oRowE6 L k e).view.loc (thrV d L) ↦[(oRowE6 L k e).view.set]{fullShare}
        (oRowE6 L k e).view.writes (Elt F) o
          [⟨Rect.whole S20x128, ReadAs.same.apply ((bslE6 e).view.read (Elt F) (gbuf cmb ix (widL L) (8 * k.val + 6)))⟩]))
      ⊢ (doneI d L cmb ix a' : sProp 𝕄) := by
  subst ha ha'
  have he := e.isLt
  have hc : 8 * k.val + 6 < 128 := by omega
  have hoff1 : k2_off11 L k 6#32 (BitVec.ofNat 32 e.val) = ![512 * (widL L).val + (4 * (8 * k.val + 6) + e.val), 0, 0] :=
    off11_n L k (⟨6, by decide⟩ : Fin 8) e _ (by show _ = 32 * k.val + (4 * 6 + e.val); omega)
  have hoff2 : k2_off11 L k 6#32 (BitVec.ofNat 32 e.val) = ![512 * (widL L).val + (32 * k.val + (4 * 6 + e.val)), 0, 0] :=
    off11_n L k (⟨6, by decide⟩ : Fin 8) e _ rfl
  refine (sep_mono_right (Entails.of_eq (oRow_landed d L cmb ix o (8 * k.val + 6) hc e _ (k2_off11_inb L k 6 e) hoff1 _
    (fun x => cdrn_pay6 _ e x)))).trans ?_
  exact put_oRow d L (widL L) _ _ (k2_off11_inb L k 6 e) hoff2 (gOut cmb ix)

/-- Row buffer 6's four slices back are the buffer whole, at some contents. -/
private theorem cdrn_buf6 (gv : FVec F S80x128 .f32) :
    iprop(((bslE6 0).view.loc (thrV d L) ↦[(bslE6 0).view.set]{fullShare} gv)
        ∗ ((bslE6 1).view.loc (thrV d L) ↦[(bslE6 1).view.set]{fullShare} gv)
        ∗ ((bslE6 2).view.loc (thrV d L) ↦[(bslE6 2).view.set]{fullShare} gv)
        ∗ ((bslE6 3).view.loc (thrV d L) ↦[(bslE6 3).view.set]{fullShare} gv))
      ⊢ (iprop(∃ f, (bufM6).view.loc (thrV d L) ↦{fullShare} f) : sProp 𝕄) := by
  iintro H
  iexists gv
  iapply (Entails.of_eq (buf_split6 d L gv).symm)
  iexact H

/-- Slice `e` of row buffer 7 read at (p, q) is the buffer at (20 e + p, q). -/
private theorem cdrn_pay7 (gv : FVec F S80x128 .f32) (e : Fin 4) (x : S20x128.Idx) :
    ReadAs.same.apply ((bslE7 e).view.read (Elt F) gv) x
      = gv (ValueIdx.ix2 (⟨20 * e.val + (x 0).val, by have := e.isLt; have h0 : (x 0).val < 20 := (x 0).isLt; omega⟩ : Fin 80) (⟨(x 1).val, (x 1).isLt⟩ : Fin 128)) := by
  show (bslE7 e).view.read (Elt F) gv x = _
  rw [show (bslE7 e).view.read (Elt F) gv x = gv ((bslE7 e).view.emb x) from (View.read_apply _ _).trans (cast_eq _ _)]
  refine congrArg gv (funext fun a => Fin.ext ?_)
  show ((brect e).emb x a : ℕ) = _
  rw [Rect.emb_apply]
  match a with
  | ⟨0, _⟩ => show 20 * e.val + 1 * (x 0).val = 20 * e.val + (x 0).val; omega
  | ⟨1, _⟩ => show 0 + 1 * (x 1).val = (x 1).val; omega

/-- One landed batch element of row buffer 7's copies joins the tile's finished rows. -/
private theorem cdrn_row7 (k : Fin k2_t1_loop.trips) (hk : k.val = 15) (e : Fin 4) (a a' : ℕ)
    (ha : a = 32 * k.val + (4 * 7 + e.val)) (ha' : a' = a + 1) :
    iprop(doneI d L cmb ix a ∗ ((oRowE7 L k e).view.loc (thrV d L) ↦[(oRowE7 L k e).view.set]{fullShare}
        (oRowE7 L k e).view.writes (Elt F) o
          [⟨Rect.whole S20x128, ReadAs.same.apply ((bslE7 e).view.read (Elt F) (gbuf cmb ix (widL L) (8 * k.val + 7)))⟩]))
      ⊢ (doneI d L cmb ix a' : sProp 𝕄) := by
  subst ha ha'
  have he := e.isLt
  have hc : 8 * k.val + 7 < 128 := by omega
  have hoff1 : k2_off11 L k 7#32 (BitVec.ofNat 32 e.val) = ![512 * (widL L).val + (4 * (8 * k.val + 7) + e.val), 0, 0] :=
    off11_n L k (⟨7, by decide⟩ : Fin 8) e _ (by show _ = 32 * k.val + (4 * 7 + e.val); omega)
  have hoff2 : k2_off11 L k 7#32 (BitVec.ofNat 32 e.val) = ![512 * (widL L).val + (32 * k.val + (4 * 7 + e.val)), 0, 0] :=
    off11_n L k (⟨7, by decide⟩ : Fin 8) e _ rfl
  refine (sep_mono_right (Entails.of_eq (oRow_landed d L cmb ix o (8 * k.val + 7) hc e _ (k2_off11_inb L k 7 e) hoff1 _
    (fun x => cdrn_pay7 _ e x)))).trans ?_
  exact put_oRow d L (widL L) _ _ (k2_off11_inb L k 7 e) hoff2 (gOut cmb ix)

/-- Row buffer 7's four slices back are the buffer whole, at some contents. -/
private theorem cdrn_buf7 (gv : FVec F S80x128 .f32) :
    iprop(((bslE7 0).view.loc (thrV d L) ↦[(bslE7 0).view.set]{fullShare} gv)
        ∗ ((bslE7 1).view.loc (thrV d L) ↦[(bslE7 1).view.set]{fullShare} gv)
        ∗ ((bslE7 2).view.loc (thrV d L) ↦[(bslE7 2).view.set]{fullShare} gv)
        ∗ ((bslE7 3).view.loc (thrV d L) ↦[(bslE7 3).view.set]{fullShare} gv))
      ⊢ (iprop(∃ f, (bufM7).view.loc (thrV d L) ↦{fullShare} f) : sProp 𝕄) := by
  iintro H
  iexists gv
  iapply (Entails.of_eq (buf_split7 d L gv).symm)
  iexact H

set_option maxHeartbeats 4000000 in
theorem tile_drain (v2 : BitVec 32) (k : Fin k2_t1_loop.trips) (hk : k.val = 15) (W : Waits sig (HIx 1)) (Q : PUnit → sProp 𝕄) :
    iprop(Transfers.MayWaits (thrV d L) none O ∗ owes (thrV d L) O W ∗ doneI d L cmb ix (32 * k.val) ∗ batsI d L cmb ix o k (8 * k.val)
        ∗ (iprop(owesI d L O W ∗ doneI d L cmb ix (32 * k.val + 32) ∗ lastI d L) -∗ Q ⟨⟩))
      ⊢ (wp frame (wpE (defs₀ (F := F)) 𝒱₀ (thrV d L) none) Set.univ
          (drainProg L v5V (Memref.isWhole_whole _) v6V (Memref.isWhole_whole _) v7V (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) (Memref.whole cc2_scratch5) (Memref.isWhole_whole _)
            (Memref.whole cc2_scratch6) (Memref.isWhole_whole _) (Memref.whole cc2_scratch7) (Memref.isWhole_whole _)
            (Memref.whole cc2_scratch8) (Memref.isWhole_whole _)
            cc2_scratch9 cc2_scratch10 cc2_scratch11 cc2_scratch12 cc2_scratch13 cc2_scratch14 cc2_scratch15 cc2_scratch16
            cc2_scratch17 cc2_scratch18 cc2_scratch19 cc2_scratch20 cc2_scratch21 cc2_scratch22 cc2_scratch23 cc2_scratch24 cc2_scoped0 v2) Q : sProp 𝕄) := by
  iintro ⟨Hmw, HO, Hdone, ⟨HB0, HB1, HB2, HB3, HB4, HB5, HB6, HB7⟩, Hk⟩
  unfold drainProg
  sl_exec
  ihave Hdone := (cdrn_row0 d L cmb ix o k hk (⟨0, by decide⟩ : Fin 4) (32 * k.val) (32 * k.val + 1) (by show _ = 32 * k.val + (4 * 0 + 0); omega) (by omega)) $$ [Hdone HB0_dst0]
  · isplitl [Hdone] <;> iassumption
  ihave Hdone := (cdrn_row0 d L cmb ix o k hk (⟨1, by decide⟩ : Fin 4) (32 * k.val + 1) (32 * k.val + 2) (by show _ = 32 * k.val + (4 * 0 + 1); omega) (by omega)) $$ [Hdone HB0_dst1]
  · isplitl [Hdone] <;> iassumption
  ihave Hdone := (cdrn_row0 d L cmb ix o k hk (⟨2, by decide⟩ : Fin 4) (32 * k.val + 2) (32 * k.val + 3) (by show _ = 32 * k.val + (4 * 0 + 2); omega) (by omega)) $$ [Hdone HB0_dst2]
  · isplitl [Hdone] <;> iassumption
  ihave Hdone := (cdrn_row0 d L cmb ix o k hk (⟨3, by decide⟩ : Fin 4) (32 * k.val + 3) (32 * k.val + 4) (by show _ = 32 * k.val + (4 * 0 + 3); omega) (by omega)) $$ [Hdone HB0_dst3]
  · isplitl [Hdone] <;> iassumption
  ihave Hdone := (cdrn_row1 d L cmb ix o k hk (⟨0, by decide⟩ : Fin 4) (32 * k.val + 4) (32 * k.val + 5) (by show _ = 32 * k.val + (4 * 1 + 0); omega) (by omega)) $$ [Hdone HB1_dst0]
  · isplitl [Hdone] <;> iassumption
  ihave Hdone := (cdrn_row1 d L cmb ix o k hk (⟨1, by decide⟩ : Fin 4) (32 * k.val + 5) (32 * k.val + 6) (by show _ = 32 * k.val + (4 * 1 + 1); omega) (by omega)) $$ [Hdone HB1_dst1]
  · isplitl [Hdone] <;> iassumption
  ihave Hdone := (cdrn_row1 d L cmb ix o k hk (⟨2, by decide⟩ : Fin 4) (32 * k.val + 6) (32 * k.val + 7) (by show _ = 32 * k.val + (4 * 1 + 2); omega) (by omega)) $$ [Hdone HB1_dst2]
  · isplitl [Hdone] <;> iassumption
  ihave Hdone := (cdrn_row1 d L cmb ix o k hk (⟨3, by decide⟩ : Fin 4) (32 * k.val + 7) (32 * k.val + 8) (by show _ = 32 * k.val + (4 * 1 + 3); omega) (by omega)) $$ [Hdone HB1_dst3]
  · isplitl [Hdone] <;> iassumption
  ihave Hdone := (cdrn_row2 d L cmb ix o k hk (⟨0, by decide⟩ : Fin 4) (32 * k.val + 8) (32 * k.val + 9) (by show _ = 32 * k.val + (4 * 2 + 0); omega) (by omega)) $$ [Hdone HB2_dst0]
  · isplitl [Hdone] <;> iassumption
  ihave Hdone := (cdrn_row2 d L cmb ix o k hk (⟨1, by decide⟩ : Fin 4) (32 * k.val + 9) (32 * k.val + 10) (by show _ = 32 * k.val + (4 * 2 + 1); omega) (by omega)) $$ [Hdone HB2_dst1]
  · isplitl [Hdone] <;> iassumption
  ihave Hdone := (cdrn_row2 d L cmb ix o k hk (⟨2, by decide⟩ : Fin 4) (32 * k.val + 10) (32 * k.val + 11) (by show _ = 32 * k.val + (4 * 2 + 2); omega) (by omega)) $$ [Hdone HB2_dst2]
  · isplitl [Hdone] <;> iassumption
  ihave Hdone := (cdrn_row2 d L cmb ix o k hk (⟨3, by decide⟩ : Fin 4) (32 * k.val + 11) (32 * k.val + 12) (by show _ = 32 * k.val + (4 * 2 + 3); omega) (by omega)) $$ [Hdone HB2_dst3]
  · isplitl [Hdone] <;> iassumption
  ihave Hdone := (cdrn_row3 d L cmb ix o k hk (⟨0, by decide⟩ : Fin 4) (32 * k.val + 12) (32 * k.val + 13) (by show _ = 32 * k.val + (4 * 3 + 0); omega) (by omega)) $$ [Hdone HB3_dst0]
  · isplitl [Hdone] <;> iassumption
  ihave Hdone := (cdrn_row3 d L cmb ix o k hk (⟨1, by decide⟩ : Fin 4) (32 * k.val + 13) (32 * k.val + 14) (by show _ = 32 * k.val + (4 * 3 + 1); omega) (by omega)) $$ [Hdone HB3_dst1]
  · isplitl [Hdone] <;> iassumption
  ihave Hdone := (cdrn_row3 d L cmb ix o k hk (⟨2, by decide⟩ : Fin 4) (32 * k.val + 14) (32 * k.val + 15) (by show _ = 32 * k.val + (4 * 3 + 2); omega) (by omega)) $$ [Hdone HB3_dst2]
  · isplitl [Hdone] <;> iassumption
  ihave Hdone := (cdrn_row3 d L cmb ix o k hk (⟨3, by decide⟩ : Fin 4) (32 * k.val + 15) (32 * k.val + 16) (by show _ = 32 * k.val + (4 * 3 + 3); omega) (by omega)) $$ [Hdone HB3_dst3]
  · isplitl [Hdone] <;> iassumption
  ihave Hdone := (cdrn_row4 d L cmb ix o k hk (⟨0, by decide⟩ : Fin 4) (32 * k.val + 16) (32 * k.val + 17) (by show _ = 32 * k.val + (4 * 4 + 0); omega) (by omega)) $$ [Hdone HB4_dst0]
  · isplitl [Hdone] <;> iassumption
  ihave Hdone := (cdrn_row4 d L cmb ix o k hk (⟨1, by decide⟩ : Fin 4) (32 * k.val + 17) (32 * k.val + 18) (by show _ = 32 * k.val + (4 * 4 + 1); omega) (by omega)) $$ [Hdone HB4_dst1]
  · isplitl [Hdone] <;> iassumption
  ihave Hdone := (cdrn_row4 d L cmb ix o k hk (⟨2, by decide⟩ : Fin 4) (32 * k.val + 18) (32 * k.val + 19) (by show _ = 32 * k.val + (4 * 4 + 2); omega) (by omega)) $$ [Hdone HB4_dst2]
  · isplitl [Hdone] <;> iassumption
  ihave Hdone := (cdrn_row4 d L cmb ix o k hk (⟨3, by decide⟩ : Fin 4) (32 * k.val + 19) (32 * k.val + 20) (by show _ = 32 * k.val + (4 * 4 + 3); omega) (by omega)) $$ [Hdone HB4_dst3]
  · isplitl [Hdone] <;> iassumption
  ihave Hdone := (cdrn_row5 d L cmb ix o k hk (⟨0, by decide⟩ : Fin 4) (32 * k.val + 20) (32 * k.val + 21) (by show _ = 32 * k.val + (4 * 5 + 0); omega) (by omega)) $$ [Hdone HB5_dst0]
  · isplitl [Hdone] <;> iassumption
  ihave Hdone := (cdrn_row5 d L cmb ix o k hk (⟨1, by decide⟩ : Fin 4) (32 * k.val + 21) (32 * k.val + 22) (by show _ = 32 * k.val + (4 * 5 + 1); omega) (by omega)) $$ [Hdone HB5_dst1]
  · isplitl [Hdone] <;> iassumption
  ihave Hdone := (cdrn_row5 d L cmb ix o k hk (⟨2, by decide⟩ : Fin 4) (32 * k.val + 22) (32 * k.val + 23) (by show _ = 32 * k.val + (4 * 5 + 2); omega) (by omega)) $$ [Hdone HB5_dst2]
  · isplitl [Hdone] <;> iassumption
  ihave Hdone := (cdrn_row5 d L cmb ix o k hk (⟨3, by decide⟩ : Fin 4) (32 * k.val + 23) (32 * k.val + 24) (by show _ = 32 * k.val + (4 * 5 + 3); omega) (by omega)) $$ [Hdone HB5_dst3]
  · isplitl [Hdone] <;> iassumption
  ihave Hdone := (cdrn_row6 d L cmb ix o k hk (⟨0, by decide⟩ : Fin 4) (32 * k.val + 24) (32 * k.val + 25) (by show _ = 32 * k.val + (4 * 6 + 0); omega) (by omega)) $$ [Hdone HB6_dst0]
  · isplitl [Hdone] <;> iassumption
  ihave Hdone := (cdrn_row6 d L cmb ix o k hk (⟨1, by decide⟩ : Fin 4) (32 * k.val + 25) (32 * k.val + 26) (by show _ = 32 * k.val + (4 * 6 + 1); omega) (by omega)) $$ [Hdone HB6_dst1]
  · isplitl [Hdone] <;> iassumption
  ihave Hdone := (cdrn_row6 d L cmb ix o k hk (⟨2, by decide⟩ : Fin 4) (32 * k.val + 26) (32 * k.val + 27) (by show _ = 32 * k.val + (4 * 6 + 2); omega) (by omega)) $$ [Hdone HB6_dst2]
  · isplitl [Hdone] <;> iassumption
  ihave Hdone := (cdrn_row6 d L cmb ix o k hk (⟨3, by decide⟩ : Fin 4) (32 * k.val + 27) (32 * k.val + 28) (by show _ = 32 * k.val + (4 * 6 + 3); omega) (by omega)) $$ [Hdone HB6_dst3]
  · isplitl [Hdone] <;> iassumption
  ihave Hdone := (cdrn_row7 d L cmb ix o k hk (⟨0, by decide⟩ : Fin 4) (32 * k.val + 28) (32 * k.val + 29) (by show _ = 32 * k.val + (4 * 7 + 0); omega) (by omega)) $$ [Hdone HB7_dst0]
  · isplitl [Hdone] <;> iassumption
  ihave Hdone := (cdrn_row7 d L cmb ix o k hk (⟨1, by decide⟩ : Fin 4) (32 * k.val + 29) (32 * k.val + 30) (by show _ = 32 * k.val + (4 * 7 + 1); omega) (by omega)) $$ [Hdone HB7_dst1]
  · isplitl [Hdone] <;> iassumption
  ihave Hdone := (cdrn_row7 d L cmb ix o k hk (⟨2, by decide⟩ : Fin 4) (32 * k.val + 30) (32 * k.val + 31) (by show _ = 32 * k.val + (4 * 7 + 2); omega) (by omega)) $$ [Hdone HB7_dst2]
  · isplitl [Hdone] <;> iassumption
  ihave Hdone := (cdrn_row7 d L cmb ix o k hk (⟨3, by decide⟩ : Fin 4) (32 * k.val + 31) (32 * k.val + 32) (by show _ = 32 * k.val + (4 * 7 + 3); omega) (by omega)) $$ [Hdone HB7_dst3]
  · isplitl [Hdone] <;> iassumption
  ihave Hbuf0 := (cdrn_buf0 d L (gbuf cmb ix (widL L) (8 * k.val + 0))) $$ [HB0_src0 HB0_src1 HB0_src2 HB0_src3]
  · isplitl [HB0_src0]; · iexact HB0_src0
    isplitl [HB0_src1]; · iexact HB0_src1
    isplitl [HB0_src2]; · iexact HB0_src2
    iexact HB0_src3
  ihave Hbuf1 := (cdrn_buf1 d L (gbuf cmb ix (widL L) (8 * k.val + 1))) $$ [HB1_src0 HB1_src1 HB1_src2 HB1_src3]
  · isplitl [HB1_src0]; · iexact HB1_src0
    isplitl [HB1_src1]; · iexact HB1_src1
    isplitl [HB1_src2]; · iexact HB1_src2
    iexact HB1_src3
  ihave Hbuf2 := (cdrn_buf2 d L (gbuf cmb ix (widL L) (8 * k.val + 2))) $$ [HB2_src0 HB2_src1 HB2_src2 HB2_src3]
  · isplitl [HB2_src0]; · iexact HB2_src0
    isplitl [HB2_src1]; · iexact HB2_src1
    isplitl [HB2_src2]; · iexact HB2_src2
    iexact HB2_src3
  ihave Hbuf3 := (cdrn_buf3 d L (gbuf cmb ix (widL L) (8 * k.val + 3))) $$ [HB3_src0 HB3_src1 HB3_src2 HB3_src3]
  · isplitl [HB3_src0]; · iexact HB3_src0
    isplitl [HB3_src1]; · iexact HB3_src1
    isplitl [HB3_src2]; · iexact HB3_src2
    iexact HB3_src3
  ihave Hbuf4 := (cdrn_buf4 d L (gbuf cmb ix (widL L) (8 * k.val + 4))) $$ [HB4_src0 HB4_src1 HB4_src2 HB4_src3]
  · isplitl [HB4_src0]; · iexact HB4_src0
    isplitl [HB4_src1]; · iexact HB4_src1
    isplitl [HB4_src2]; · iexact HB4_src2
    iexact HB4_src3
  ihave Hbuf5 := (cdrn_buf5 d L (gbuf cmb ix (widL L) (8 * k.val + 5))) $$ [HB5_src0 HB5_src1 HB5_src2 HB5_src3]
  · isplitl [HB5_src0]; · iexact HB5_src0
    isplitl [HB5_src1]; · iexact HB5_src1
    isplitl [HB5_src2]; · iexact HB5_src2
    iexact HB5_src3
  ihave Hbuf6 := (cdrn_buf6 d L (gbuf cmb ix (widL L) (8 * k.val + 6))) $$ [HB6_src0 HB6_src1 HB6_src2 HB6_src3]
  · isplitl [HB6_src0]; · iexact HB6_src0
    isplitl [HB6_src1]; · iexact HB6_src1
    isplitl [HB6_src2]; · iexact HB6_src2
    iexact HB6_src3
  ihave Hbuf7 := (cdrn_buf7 d L (gbuf cmb ix (widL L) (8 * k.val + 7))) $$ [HB7_src0 HB7_src1 HB7_src2 HB7_src3]
  · isplitl [HB7_src0]; · iexact HB7_src0
    isplitl [HB7_src1]; · iexact HB7_src1
    isplitl [HB7_src2]; · iexact HB7_src2
    iexact HB7_src3
  sl_step
  iapply Hk
  isplitl [HO]
  · iexists _
    isplitr
    swap
    · iexact HO
    ipureintro
    repeat (first | exact fun p hp => Or.inl hp | refine mem_ins ?_ rfl)
  isplitl [Hdone]; · iexact Hdone
  isplitl [Hbuf0]; · iexact Hbuf0
  isplitl [Hbuf1]; · iexact Hbuf1
  isplitl [Hbuf2]; · iexact Hbuf2
  isplitl [Hbuf3]; · iexact Hbuf3
  isplitl [Hbuf4]; · iexact Hbuf4
  isplitl [Hbuf5]; · iexact Hbuf5
  isplitl [Hbuf6]; · iexact Hbuf6
  isplitl [Hbuf7]; · iexact Hbuf7
  isplitl [HB0]; · iexact HB0
  isplitl [HB1]; · iexact HB1
  isplitl [HB2]; · iexact HB2
  isplitl [HB3]; · iexact HB3
  isplitl [HB4]; · iexact HB4
  isplitl [HB5]; · iexact HB5
  isplitl [HB6]; · iexact HB6
  iexact HB7

end Cert.ProofK.Tile

end
-- ==== Proof.TileBodyK.lean ====
/-
  The tile's body, assembled: one vector subcore's run of the gather kernel, from the operands the launch hands it to
  its rows of the output at the gather's whole-array function.

  The index fetch lands the tile's row of the index array in the list scratch; its words are the index array's at
  (worker, chunk, position), each below 1960 by the precondition. The loop runs sixteen trips under one invariant: before
  trip n the tile's first 32 (n − 1) rows of the output hold the gathered values, its rows from 32 n on are as launched, and
  the thirty-two rows between are the destinations of the eight batches of four copies the trip before left in flight
  (none before the first trip, where the row buffers are free and the copies' semaphores at zero); one read token of the
  table and one of the list per gather semaphore, and the gather semaphores at zero, pass from trip to trip. The first
  trip starts from free buffers, a later one drains the batches left to it; after the last trip the remaining statements
  drain the last batches, and the read tokens are joined back into the tile's share of the table and the whole list.
-/
import proofs.«206393_g35751307772044_cont_8to1_b_353_20_alg».proof.Proof.TileBodyProK
import proofs.«206393_g35751307772044_cont_8to1_b_353_20_alg».proof.Proof.TileBodyTrip0K
import proofs.«206393_g35751307772044_cont_8to1_b_353_20_alg».proof.Proof.TileBodyTripSK
import proofs.«206393_g35751307772044_cont_8to1_b_353_20_alg».proof.Proof.TileBodyDrainK

noncomputable section

namespace Cert.ProofK.Tile

open Cert.Kernel Cert.Kernel.Gen
open Cert.ProofK.Common
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} {U : Type} [URA U] [CountersIn U] [FloatOps F]

local notation "𝕄" => MT nD τ sig (HIx 1) (Elt F) ℕ U ℕ

section Steps

variable (d : Dev nD) (L : grid2.Coords) (cmb : Buf (Elt F) (v5Loc d)) (ix : Buf (Elt F) (v6Loc d)) (o : Buf (Elt F) (v7Loc d))
  (sc0 : Buf (Elt F) ((lstV).view.loc (thrV d L))) (O : CellTallies nD τ sig (HIx 1))

/-- A trip below sixteen is its own number's trip. -/
private theorem dpro_fk_val (k : Fin k2_t1_loop.trips) : fk k.val = k := by
  have h16 : k.val < 16 := trips_eq ▸ k.isLt
  exact Fin.ext (Nat.mod_eq_of_lt h16)

/-- The invariant before the first trip. -/
private theorem dpro_tripI_zero (W : Waits sig (HIx 1)) (n : ℕ) (hn : n = 0) (u : Unit) :
    (tripI d L cmb ix o sc0 O W n u : sProp 𝕄)
      = iprop(Transfers.MayWaits (thrV d L) none O ∗ owesI d L O W ∗ toksI d L cmb sc0 ∗ doneI d L cmb ix 0 ∗ todoI d L o (32 * n)
          ∗ firstI d L) := by
  subst hn; unfold tripI; rw [if_pos rfl]

/-- The invariant after trip `k`. -/
private theorem dpro_tripI_succ (W : Waits sig (HIx 1)) (k : Fin k2_t1_loop.trips) (n : ℕ) (hn : n = k.val + 1) (u : Unit) :
    (tripI d L cmb ix o sc0 O W n u : sProp 𝕄)
      = iprop(Transfers.MayWaits (thrV d L) none O ∗ owesI d L O W ∗ toksI d L cmb sc0 ∗ doneI d L cmb ix (32 * k.val)
          ∗ todoI d L o (32 * k.val + 32) ∗ batsI d L cmb ix o k (8 * k.val)) := by
  subst hn; unfold tripI
  rw [if_neg (Nat.succ_ne_zero _), Nat.add_sub_cancel, dpro_fk_val, show 32 * (k.val + 1) = 32 * k.val + 32 from by omega]

/-- Waits recorded beyond waits recorded beyond `W` are recorded beyond `W`. -/
private theorem dpro_owesI_trans {W W' : Waits sig (HIx 1)} (h : ∀ p ∈ W', p ∈ W ∨ p.2 = none) :
    owesI d L O W' ⊢ (owesI d L O W : sProp 𝕄) := by
  iintro ⟨%W'', %h'', HO⟩
  iexists W''; isplitr
  · ipureintro; intro p hp
    rcases h'' p hp with h1 | h1
    · exact h p h1
    · exact .inr h1
  · iexact HO

/-- Nothing of the output is done before the first trip. -/
private theorem dpro_done_zero : (doneI d L cmb ix 0 : sProp 𝕄) = iprop(emp) := by
  show (v7Loc d ↦[rowsTo (widL L) 0]{fullShare} gOut cmb ix : sProp 𝕄) = iprop(emp)
  rw [rowsTo_zero, pointsTo_empty]

/-- THE FIRST TRIP, from the invariant to the invariant. -/
private theorem dpro_step0 (v2 : BitVec 32) (k : Fin k2_t1_loop.trips) (hk : k.val = 0)
    (hsc0 : ∀ (r : Fin 128) (x : Fin 80), sc0 (ValueIdx.ix2 r x) = ix (ValueIdx.ix3 (widL L) r x))
    (hscb : ∀ i, (sc0 i).toNat < 1960) (W : Waits sig (HIx 1)) :
    (tripI d L cmb ix o sc0 O W k.val () : sProp 𝕄)
      ⊢ (wp frame (wpE (defs₀ (F := F)) 𝒱₀ (thrV d L) none) Set.univ
          (k2_t1_body L v5V (Memref.isWhole_whole _) v6V (Memref.isWhole_whole _) v7V (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) (Memref.whole cc2_scratch5) (Memref.isWhole_whole _)
            (Memref.whole cc2_scratch6) (Memref.isWhole_whole _) (Memref.whole cc2_scratch7) (Memref.isWhole_whole _)
            (Memref.whole cc2_scratch8) (Memref.isWhole_whole _)
            cc2_scratch9 cc2_scratch10 cc2_scratch11 cc2_scratch12 cc2_scratch13 cc2_scratch14 cc2_scratch15 cc2_scratch16
            cc2_scratch17 cc2_scratch18 cc2_scratch19 cc2_scratch20 cc2_scratch21 cc2_scratch22 cc2_scratch23 cc2_scratch24 cc2_scoped0 v2 k ())
          (tripI d L cmb ix o sc0 O W (k.val + 1)) : sProp 𝕄) := by
  rw [dpro_tripI_zero d L cmb ix o sc0 O W k.val hk (),
    show (tripI d L cmb ix o sc0 O W (k.val + 1) : Unit → sProp 𝕄) = fun u => _ from funext fun u => dpro_tripI_succ d L cmb ix o sc0 O W k _ rfl u,
    dpro_done_zero]
  iintro ⟨Hmw, ⟨%W', %hW', HO⟩, Ht, -, Htodo, Hf⟩
  iapply (wp_mono frame _ _ (fun _ => (show iprop(Transfers.MayWaits (thrV d L) none O ∗ owesI d L O W' ∗ toksI d L cmb sc0 ∗ todoI d L o (32 * k.val + 32)
            ∗ batsI d L cmb ix o k (8 * k.val))
        ⊢ (iprop(Transfers.MayWaits (thrV d L) none O ∗ owesI d L O W ∗ toksI d L cmb sc0 ∗ doneI d L cmb ix (32 * k.val)
          ∗ todoI d L o (32 * k.val + 32) ∗ batsI d L cmb ix o k (8 * k.val)) : sProp 𝕄) from by
      rw [hk, dpro_done_zero]
      iintro ⟨Hmw, Ho, Ht, Htodo, Hb⟩
      isplitl [Hmw]; · iexact Hmw
      isplitl [Ho]; · iapply (dpro_owesI_trans d L O hW'); iexact Ho
      isplitl [Ht]; · iexact Ht
      isplitl []; · iempintro
      isplitl [Htodo]; · iexact Htodo
      iexact Hb)))
  iapply (trip_first d L cmb ix o sc0 O v2 k hk hsc0 hscb W')
  isplitl [Hmw]; · iexact Hmw
  isplitl [HO]; · iexact HO
  isplitl [Ht]; · iexact Ht
  isplitl [Htodo]; · iexact Htodo
  iexact Hf

/-- A LATER TRIP, from the invariant to the invariant. -/
private theorem dpro_stepS (v2 : BitVec 32) (k : Fin k2_t1_loop.trips) (hk : k.val ≠ 0)
    (hsc0 : ∀ (r : Fin 128) (x : Fin 80), sc0 (ValueIdx.ix2 r x) = ix (ValueIdx.ix3 (widL L) r x))
    (hscb : ∀ i, (sc0 i).toNat < 1960) (W : Waits sig (HIx 1)) :
    (tripI d L cmb ix o sc0 O W k.val () : sProp 𝕄)
      ⊢ (wp frame (wpE (defs₀ (F := F)) 𝒱₀ (thrV d L) none) Set.univ
          (k2_t1_body L v5V (Memref.isWhole_whole _) v6V (Memref.isWhole_whole _) v7V (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) (Memref.whole cc2_scratch5) (Memref.isWhole_whole _)
            (Memref.whole cc2_scratch6) (Memref.isWhole_whole _) (Memref.whole cc2_scratch7) (Memref.isWhole_whole _)
            (Memref.whole cc2_scratch8) (Memref.isWhole_whole _)
            cc2_scratch9 cc2_scratch10 cc2_scratch11 cc2_scratch12 cc2_scratch13 cc2_scratch14 cc2_scratch15 cc2_scratch16
            cc2_scratch17 cc2_scratch18 cc2_scratch19 cc2_scratch20 cc2_scratch21 cc2_scratch22 cc2_scratch23 cc2_scratch24 cc2_scoped0 v2 k ())
          (tripI d L cmb ix o sc0 O W (k.val + 1)) : sProp 𝕄) := by
  have h16 : k.val < 16 := trips_eq ▸ k.isLt
  have hk' : k.val = (fk (k.val - 1)).val + 1 := by
    show k.val = (k.val - 1) % 16 + 1
    omega
  have e32 : 32 * (fk (k.val - 1)).val + 32 = 32 * k.val := by omega
  rw [dpro_tripI_succ d L cmb ix o sc0 O W (fk (k.val - 1)) k.val hk' (),
    show (tripI d L cmb ix o sc0 O W (k.val + 1) : Unit → sProp 𝕄) = fun u => _ from funext fun u => dpro_tripI_succ d L cmb ix o sc0 O W k _ rfl u,
    e32]
  iintro ⟨Hmw, ⟨%W', %hW', HO⟩, Ht, Hd, Htodo, Hb⟩
  iapply (wp_mono frame _ _ (fun _ => (show iprop(Transfers.MayWaits (thrV d L) none O ∗ owesI d L O W' ∗ toksI d L cmb sc0
            ∗ doneI d L cmb ix (32 * (fk (k.val - 1)).val + 32) ∗ todoI d L o (32 * k.val + 32) ∗ batsI d L cmb ix o k (8 * k.val))
        ⊢ (iprop(Transfers.MayWaits (thrV d L) none O ∗ owesI d L O W ∗ toksI d L cmb sc0 ∗ doneI d L cmb ix (32 * k.val)
          ∗ todoI d L o (32 * k.val + 32) ∗ batsI d L cmb ix o k (8 * k.val)) : sProp 𝕄) from by
      rw [e32]
      iintro ⟨Hmw, Ho, Ht, Hd, Htodo, Hb⟩
      isplitl [Hmw]; · iexact Hmw
      isplitl [Ho]; · iapply (dpro_owesI_trans d L O hW'); iexact Ho
      isplitl [Ht]; · iexact Ht
      isplitl [Hd]; · iexact Hd
      isplitl [Htodo]; · iexact Htodo
      iexact Hb)))
  iapply (trip_next d L cmb ix o sc0 O v2 k (fk (k.val - 1)) hk' hsc0 hscb W')
  isplitl [Hmw]; · iexact Hmw
  isplitl [HO]; · iexact HO
  isplitl [Ht]; · iexact Ht
  isplitl [Hd]; · iexact Hd
  isplitl [Htodo]; · iexact Htodo
  iexact Hb

end Steps

section Assembly

variable (d : Dev nD) (L : grid2.Coords)

/-- The list scratch after the index fetch, at contents named: word (r, x) is the index array's word (worker, r, x). -/
private theorem dpro_name_list (ix : Buf (Elt F) (v6Loc d)) (f0 : Buf (Elt F) ((thrV d L).loc cc2_scratch0))
    (pay : S128x80.Idx → BitVec 32) (hpay : pay = ReadAs.same.apply ((idxRowM L).view.read (Elt F) ix)) :
    ((lstV).view.loc (V d (cV L) (jV L)) ↦{fullShare} View.write (Elt F) (Memref.whole cc2_scratch0).view f0 pay Finset.univ : sProp 𝕄)
      ⊢ iprop(∃ sc0 : Buf (Elt F) ((lstV).view.loc (thrV d L)),
          ⌜∀ (r : Fin 128) (x : Fin 80), sc0 (ValueIdx.ix2 r x) = ix (ValueIdx.ix3 (widL L) r x)⌝
            ∗ ((lstV).view.loc (thrV d L) ↦{fullShare} sc0)) := by
  subst hpay
  iintro H
  iexists (View.write (Elt F) (Memref.whole cc2_scratch0).view f0 (ReadAs.same.apply ((idxRowM L).view.read (Elt F) ix)) Finset.univ)
  isplitr
  · ipureintro
    intro r x
    rw [View.write_whole_univ]
    exact fetch_val d L ix r x
  · iexact H

set_option maxHeartbeats 4000000 in
theorem tile_body (hF : (K (F := F)).Facts) (d : Dev nD) (L : grid2.Coords)
    (cmb : Buf (Elt F) (v5Loc d)) (ix : Buf (Elt F) (v6Loc d)) (o : Buf (Elt F) (v7Loc d))
    (hin : ∀ j, (ix j).toNat < 1960)
    (O : CellTallies nD τ sig (HIx 1)) (W : Waits sig (HIx 1)) (hO : ∀ g, O g none = 0) :
    iprop(levAts (K (F := F)).L (K (F := F)).lev ∗ emp
        ∗ (tileGo (U := U) d (widL L) cmb ix o)
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc2_gather_kernel L v5V (Memref.isWhole_whole _) v6V (Memref.isWhole_whole _) v7V (Memref.isWhole_whole _)
            (Memref.whole cc2_scratch0) (Memref.isWhole_whole _) (Memref.whole cc2_scratch1) (Memref.isWhole_whole _)
            (Memref.whole cc2_scratch2) (Memref.isWhole_whole _) (Memref.whole cc2_scratch3) (Memref.isWhole_whole _)
            (Memref.whole cc2_scratch4) (Memref.isWhole_whole _) (Memref.whole cc2_scratch5) (Memref.isWhole_whole _)
            (Memref.whole cc2_scratch6) (Memref.isWhole_whole _) (Memref.whole cc2_scratch7) (Memref.isWhole_whole _)
            (Memref.whole cc2_scratch8) (Memref.isWhole_whole _)
            cc2_scratch9 cc2_scratch10 cc2_scratch11 cc2_scratch12 cc2_scratch13 cc2_scratch14 cc2_scratch15 cc2_scratch16
            cc2_scratch17 cc2_scratch18 cc2_scratch19 cc2_scratch20 cc2_scratch21 cc2_scratch22 cc2_scratch23 cc2_scratch24 cc2_scoped0)
          (fun _ => iprop((tileGo (U := U) d (widL L) cmb ix (gOut cmb ix))
            ∗ scopedBufs (V d (cV L) (jV L)) ∗ scopedSems0 (V d (cV L) (jV L))
            ∗ ∃ W', ⌜∀ p ∈ W', p ∈ W ∨ p.2 = none⌝ ∗ owes (V d (cV L) (jV L)) O W')) : sProp 𝕄) := by
  simp only [cc2_gather_kernel_eq_skeleton]; unfold cc2_gather_kernel_skel
  rw [(K (F := F)).scopedBufs_V hF d (cV L) (jV L), SparseCore.Cfg.scopedSems0_V (Val := Elt F) d (cV L) (jV L), ownSems0_V, ownBufs_V]
  unfold tileGo
  iintro ⟨#Hlv, -, ⟨Hc, Hi, Ho⟩, ⟨⟨%f0, Hl⟩, ⟨%f1, Hb0⟩, ⟨%f2, Hb1⟩, ⟨%f3, Hb2⟩, ⟨%f4, Hb3⟩, ⟨%f5, Hb4⟩, ⟨%f6, Hb5⟩, ⟨%f7, Hb6⟩, ⟨%f8, Hb7⟩, Hbufs⟩, ⟨Hg0, Hg1, Hg2, Hg3, Hg4, Hg5, Hg6, Hg7, Hs0, Hs1, Hs2, Hs3, Hs4, Hs5, Hs6, Hs7, Hsc, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (show (v6Loc d ↦[idxRows (widL L)]{fullShare} ix : sProp 𝕄)
      = ((idxRowM L).view.loc (V d (cV L) (jV L)) ↦[(idxRowM L).view.set]{fullShare} ix) by rw [set_idxRow])) $$ Hi
  ihave Hl' := (Entails.of_eq (show ((thrV d L).loc cc2_scratch0 ↦{fullShare} f0 : sProp 𝕄) = ((lstV).view.loc (V d (cV L) (jV L)) ↦{fullShare} f0) from rfl)) $$ Hl
  sl_unfold [k2_part23]
  -- the index fetch and its wait
  sl_exec
  -- the fetched list, named; its words name rows of the table
  ihave Hn := (dpro_name_list (F := F) d L ix f0 (tile_body.sl.dma0 d L ix) rfl) $$ Hl'
  icases Hn with ⟨%sc0, %hsc0, Hl⟩
  have hscb : ∀ i, (sc0 i).toNat < 1960 := fun i => by
    obtain ⟨r, x, rfl⟩ : ∃ (r : Fin 128) (x : Fin 80), i = ValueIdx.ix2 r x := ⟨i 0, i 1, ValueIdx.eq_ix2 (n0 := 128) (n1 := 80) i⟩
    rw [hsc0]; exact hin _
  -- one read token of the table and of the list per gather semaphore
  ihave Hc' := (toks_9_16 (F := F) (ℓ := (v5V).view.loc (thrV d L)) Finset.univ (cq (widL L)) cmb).1 $$ Hc
  icases Hc' with ⟨Hc17, Hc08, Hc9, Hc10, Hc11, Hc12, Hc13, Hc14, Hc15, Hc16⟩
  ihave Hl'' := (toks_9_16 (F := F) (ℓ := (lstV).view.loc (thrV d L)) Finset.univ fullShare sc0).1 $$ Hl
  icases Hl'' with ⟨Hl17, Hl08, Hl9, Hl10, Hl11, Hl12, Hl13, Hl14, Hl15, Hl16⟩
  ihave Ho' := (Entails.of_eq (show (v7Loc d ↦[outRows (widL L)]{fullShare} o : sProp 𝕄)
      = (v7Loc d ↦[rowsFrom (widL L) 0]{fullShare} o) by rw [outRows_eq])) $$ Ho
  rw [Prog.bind_assoc]
  sl_for (tripI d L cmb ix o sc0 O W) $$ [Hmw HO Hc9 Hc10 Hc11 Hc12 Hc13 Hc14 Hc15 Hc16 Hl9 Hl10 Hl11 Hl12 Hl13 Hl14 Hl15 Hl16 Hg0 Hg1 Hg2 Hg3 Hg4 Hg5 Hg6 Hg7 Ho' Hb0 Hb1 Hb2 Hb3 Hb4 Hb5 Hb6 Hb7 Hs0 Hs1 Hs2 Hs3 Hs4 Hs5 Hs6 Hs7]
  case region =>
    intro k acc
    unfold tile_body.sl.prog.body_1
    by_cases hk : k.val = 0
    · exact dpro_step0 d L cmb ix o sc0 O (tile_body.sl.v2 L) k hk hsc0 hscb W
    · exact dpro_stepS d L cmb ix o sc0 O (tile_body.sl.v2 L) k hk hsc0 hscb W
  · rw [dpro_tripI_zero d L cmb ix o sc0 O W 0 rfl, dpro_done_zero]
    isplitl [Hmw]; · iexact Hmw
    isplitl [HO]
    · iexists _; isplitr
      swap; · iexact HO
      ipureintro; intro p hp
      rcases Finset.mem_insert.mp hp with hp | hp
      · exact .inr (hp ▸ rfl)
      · exact .inl hp
    isplitl [Hc9 Hc10 Hc11 Hc12 Hc13 Hc14 Hc15 Hc16 Hl9 Hl10 Hl11 Hl12 Hl13 Hl14 Hl15 Hl16 Hg0 Hg1 Hg2 Hg3 Hg4 Hg5 Hg6 Hg7]
    ·
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      isplitl [Hc16]; · iexact Hc16
      isplitl [Hl9]; · iexact Hl9
      isplitl [Hl10]; · iexact Hl10
      isplitl [Hl11]; · iexact Hl11
      isplitl [Hl12]; · iexact Hl12
      isplitl [Hl13]; · iexact Hl13
      isplitl [Hl14]; · iexact Hl14
      isplitl [Hl15]; · iexact Hl15
      isplitl [Hl16]; · iexact Hl16
      isplitl [Hg0]; · iexact Hg0
      isplitl [Hg1]; · iexact Hg1
      isplitl [Hg2]; · iexact Hg2
      isplitl [Hg3]; · iexact Hg3
      isplitl [Hg4]; · iexact Hg4
      isplitl [Hg5]; · iexact Hg5
      isplitl [Hg6]; · iexact Hg6
      iexact Hg7
    isplitl []; · iempintro
    isplitl [Ho']; · iexact Ho'
    isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    isplitl [Hs0]; · iapply (Entails.of_eq (hid_eq _).symm); iexact Hs0
    isplitl [Hs1]; · iapply (Entails.of_eq (hid_eq _).symm); iexact Hs1
    isplitl [Hs2]; · iapply (Entails.of_eq (hid_eq _).symm); iexact Hs2
    isplitl [Hs3]; · iapply (Entails.of_eq (hid_eq _).symm); iexact Hs3
    isplitl [Hs4]; · iapply (Entails.of_eq (hid_eq _).symm); iexact Hs4
    isplitl [Hs5]; · iapply (Entails.of_eq (hid_eq _).symm); iexact Hs5
    isplitl [Hs6]; · iapply (Entails.of_eq (hid_eq _).symm); iexact Hs6
    iapply (Entails.of_eq (hid_eq _).symm); iexact Hs7
  iintro %acc HI
  -- the invariant after the sixteenth trip
  ihave HI' := (Entails.of_eq (dpro_tripI_succ d L cmb ix o sc0 O W (fk 15) _ trips_eq acc)) $$ HI
  icases HI' with ⟨Hmw2, ⟨%W', %hW', HO⟩, ⟨Tc9, Tc10, Tc11, Tc12, Tc13, Tc14, Tc15, Tc16, Tl9, Tl10, Tl11, Tl12, Tl13, Tl14, Tl15, Tl16, Tg0, Tg1, Tg2, Tg3, Tg4, Tg5, Tg6, Tg7⟩, Hd, Htodo, Hb⟩
  ihave He := (Entails.of_eq (show (todoI d L o (32 * (fk 15).val + 32) : sProp 𝕄) = iprop(emp) from by
    show (v7Loc d ↦[rowsFrom (widL L) 512]{fullShare} o : sProp 𝕄) = iprop(emp)
    rw [rowsFrom_end, pointsTo_empty])) $$ Htodo
  icases He with -
  -- the statements after the loop: the last trip's copies drained
  iapply (tile_drain d L cmb ix o O (tile_body.sl.v2 L) (fk 15) rfl W' _)
  isplitl [Hmw2]; · iexact Hmw2
  isplitl [HO]; · iexact HO
  isplitl [Hd]; · iexact Hd
  isplitl [Hb]; · iexact Hb
  iintro ⟨Hw, Hd, ⟨Lb0, Lb1, Lb2, Lb3, Lb4, Lb5, Lb6, Lb7, Ls0, Ls1, Ls2, Ls3, Ls4, Ls5, Ls6, Ls7⟩⟩
  -- the read tokens joined back
  ihave Hc := (toks_9_16 (F := F) (ℓ := (v5V).view.loc (thrV d L)) Finset.univ (cq (widL L)) cmb).2 $$ [Hc17 Hc08 Tc9 Tc10 Tc11 Tc12 Tc13 Tc14 Tc15 Tc16]
  · isplitl [Hc17]; · iexact Hc17
    isplitl [Hc08]; · iexact Hc08
    isplitl [Tc9]; · iexact Tc9
    isplitl [Tc10]; · iexact Tc10
    isplitl [Tc11]; · iexact Tc11
    isplitl [Tc12]; · iexact Tc12
    isplitl [Tc13]; · iexact Tc13
    isplitl [Tc14]; · iexact Tc14
    isplitl [Tc15]; · iexact Tc15
    iexact Tc16
  ihave Hl := (toks_9_16 (F := F) (ℓ := (lstV).view.loc (thrV d L)) Finset.univ fullShare sc0).2 $$ [Hl17 Hl08 Tl9 Tl10 Tl11 Tl12 Tl13 Tl14 Tl15 Tl16]
  · isplitl [Hl17]; · iexact Hl17
    isplitl [Hl08]; · iexact Hl08
    isplitl [Tl9]; · iexact Tl9
    isplitl [Tl10]; · iexact Tl10
    isplitl [Tl11]; · iexact Tl11
    isplitl [Tl12]; · iexact Tl12
    isplitl [Tl13]; · iexact Tl13
    isplitl [Tl14]; · iexact Tl14
    isplitl [Tl15]; · iexact Tl15
    iexact Tl16
  -- the tile's operands, its own buffers and semaphores, the waits recorded
  isplitl [Hc Hi' Hd]
  · isplitl [Hc]; · iexact Hc
    isplitl [Hi']
    · iapply (Entails.of_eq (show ((idxRowM L).view.loc (V d (cV L) (jV L)) ↦[(idxRowM L).view.set]{fullShare} ix : sProp 𝕄)
        = (v6Loc d ↦[idxRows (widL L)]{fullShare} ix) by rw [set_idxRow])); iexact Hi'
    iapply (Entails.of_eq (show (doneI d L cmb ix (32 * (fk 15).val + 32) : sProp 𝕄)
        = (v7Loc d ↦[outRows (widL L)]{fullShare} gOut cmb ix) from by
      show (v7Loc d ↦[rowsTo (widL L) 512]{fullShare} gOut cmb ix : sProp 𝕄) = _
      rw [rowsTo_end, outRows_eq])); iexact Hd
  isplitl [Hl Lb0 Lb1 Lb2 Lb3 Lb4 Lb5 Lb6 Lb7 Hbufs]
  · isplitl [Hl]; · iexists _; iexact Hl
    isplitl [Lb0]; · iexact Lb0
    isplitl [Lb1]; · iexact Lb1
    isplitl [Lb2]; · iexact Lb2
    isplitl [Lb3]; · iexact Lb3
    isplitl [Lb4]; · iexact Lb4
    isplitl [Lb5]; · iexact Lb5
    isplitl [Lb6]; · iexact Lb6
    isplitl [Lb7]; · iexact Lb7
    iexact Hbufs
  isplitl [Tg0 Tg1 Tg2 Tg3 Tg4 Tg5 Tg6 Tg7 Ls0 Ls1 Ls2 Ls3 Ls4 Ls5 Ls6 Ls7 Hsc Hsems]
  ·
    isplitl [Tg0]; · iexact Tg0
    isplitl [Tg1]; · iexact Tg1
    isplitl [Tg2]; · iexact Tg2
    isplitl [Tg3]; · iexact Tg3
    isplitl [Tg4]; · iexact Tg4
    isplitl [Tg5]; · iexact Tg5
    isplitl [Tg6]; · iexact Tg6
    isplitl [Tg7]; · iexact Tg7
    isplitl [Ls0]; · iexact Ls0
    isplitl [Ls1]; · iexact Ls1
    isplitl [Ls2]; · iexact Ls2
    isplitl [Ls3]; · iexact Ls3
    isplitl [Ls4]; · iexact Ls4
    isplitl [Ls5]; · iexact Ls5
    isplitl [Ls6]; · iexact Ls6
    isplitl [Ls7]; · iexact Ls7
    isplitl [Hsc]; · iexact Hsc
    iexact Hsems
  iapply (dpro_owesI_trans d L O hW'); iexact Hw

end Assembly

end Cert.ProofK.Tile

end
-- ==== Proof.OblK.lean ====
/-
  The SparseCore launch's per-tile obligation, from the tile's body: on vector subcore i of SparseCore c, the label's
  program is the gather kernel at grid coordinates (c, i); handed its read share of the table, its row of the index
  array and its rows of the output, it ends with those rows at the gather's whole-array function. The tile of grid
  coordinates (c, i) is worker 2 i + c, the worker whose operands the launch hands it.
-/
import proofs.«206393_g35751307772044_cont_8to1_b_353_20_alg».proof.Proof.LaunchK
import proofs.«206393_g35751307772044_cont_8to1_b_353_20_alg».proof.Proof.TileBodyK

noncomputable section

namespace Cert.ProofK.Launch

open Cert.Kernel Cert.ProofK.Common

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Kernel.Facts₀ Cert.Kernel.Facts

variable {F : FTy → Type} [Cert.Kernel.Facts]

local notation "𝕄" => MT nD τ sig (HIx 1) (Elt F) ℕ UU ℕ

variable (m : (ℓ : Loc nD τ sig) → Buf (Elt F) ℓ)

variable [FloatOps F]

/-! ## The obligation -/

/-- Grid coordinates from a SparseCore's and a vector subcore's number. -/
def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2_gather_kernel (coordsV c s)
          v5V (Memref.isWhole_whole _) v6V (Memref.isWhole_whole _) v7V (Memref.isWhole_whole _)
          (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _)
          cc2_scratch9 cc2_scratch10 cc2_scratch11 cc2_scratch12 cc2_scratch13 cc2_scratch14 cc2_scratch15 cc2_scratch16 cc2_scratch17 cc2_scratch18 cc2_scratch19 cc2_scratch20 cc2_scratch21 cc2_scratch22 cc2_scratch23 cc2_scratch24 cc2_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile at grid coordinates (c, i) is worker 2 i + c. -/
theorem widL_coordsV (c : Fin (grid2.bound 0)) (s : Fin (grid2.bound 1)) (c' : Fin 2) (i' : Fin 16)
    (hc : c'.val = c.val) (hi : i'.val = s.val) : Tile.widL (coordsV c s) = wid c' i' := by
  apply Fin.ext
  show s.val * 2 + c.val = i'.val * 2 + c'.val
  rw [hc, hi]

set_option maxRecDepth 16384 in
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hw : Tile.widL (coordsV ⟨_, hci.1⟩ ⟨_, hci.2⟩) = wid (Fin.cast nCore_zero c) (Fin.cast nSub_zero i) :=
    widL_coordsV _ _ _ _ rfl rfl
  have hb := Tile.tile_body (F := F) (U := UU) facts d (coordsV ⟨_, hci.1⟩ ⟨_, hci.2⟩) (cmbV m d) (ixV m d) (m (v7Loc d))
    (hpre d) O W hO
  rw [hw] at hb
  exact hb.trans (wp_mono frame _ _ fun _ => obl_post)

end Cert.ProofK.Launch

end
-- ==== Proof.RunK.lean ====
/-
  The program's run: from any launch memory whose index words name rows of the table, every weakly fair execution of
  all the threads ends, the five arguments unchanged and the result array at `gOut` of the table and index array.
-/
import proofs.«206393_g35751307772044_cont_8to1_b_353_20_alg».proof.Proof.MainK
import proofs.«206393_g35751307772044_cont_8to1_b_353_20_alg».proof.Proof.OblK

noncomputable section

namespace Cert.ProofK.Launch

open Cert.Kernel Cert.ProofK.Common
open Idealize.ShloMosaic Idealize.SL.Sem

variable {F : FTy → Type} [Cert.Kernel.Facts]
variable (m : (ℓ : Loc nD τ sig) → Buf (Elt F) ℓ) (ρ : Dev nD → PrngReg)
variable [FloatOps F]

theorem run_main [∀ e, Nonempty (Elt F e)] (hpre : PreOK m) :
    θ_run (Cert.Kernel.defs (F := F)) (Cert.Kernel.threads (F := F)) ⟨m, fun _ => 0, ρ⟩ (QC m) :=
  run_of m ρ (tileObl m hpre) (hmain m ρ)

end Cert.ProofK.Launch

end
-- ==== Proof.PreOKK.lean ====
/-
  From the precondition to what the kernel's run asks of the launch memory: every flat row number the second call
  computes names a row of the table. Each letter word is in [0, 97] (the precondition's last conjunct), so the word at
  position s plus 98 s is below 20 · 98 = 1960. This holds at every float instance: the float inputs play no part.
-/
import proofs.«206393_g35751307772044_cont_8to1_b_353_20_alg».proof.Proof.Gen.Pre_input_domain
import proofs.«206393_g35751307772044_cont_8to1_b_353_20_alg».proof.Proof.LaunchK
import proofs.«206393_g35751307772044_cont_8to1_b_353_20_alg».proof.Proof.PreDecode

noncomputable section

namespace Cert.ProofK.Launch

open Idealize.ShloMosaic Idealize.SL.Sem
open Cert.Proof

/-- Under the precondition every flat row number the second call computes names a row of the table: each letter word is
    in [0, 97], so x + 98 s < 1960. At any float instance (the float inputs play no part). -/
theorem preOK_of_pre {F : FTy → Type} [FloatOps F]
    (m : (ℓ : Loc Cert.Kernel.nD Cert.Kernel.τ Cert.Kernel.sig) → Buf (Elt F) ℓ)
    (hpre : ∀ c : Dev Cert.Kernel.nD,
      (Cert.Pre_input_domain.fn (F := F) (m ((c.tc : Thread Cert.Kernel.nD Cert.Kernel.τ).loc Cert.Kernel.main_arg0))
        (m ((c.tc : Thread Cert.Kernel.nD Cert.Kernel.τ).loc Cert.Kernel.main_arg1))
        (m ((c.tc : Thread Cert.Kernel.nD Cert.Kernel.τ).loc Cert.Kernel.main_arg2))
        (m ((c.tc : Thread Cert.Kernel.nD Cert.Kernel.τ).loc Cert.Kernel.main_arg3))
        (m ((c.tc : Thread Cert.Kernel.nD Cert.Kernel.τ).loc Cert.Kernel.main_arg4))) = (fun _ => 1#1)) :
    PreOK (F := F) m := by
  intro d j
  unfold ixV
  exact PreDecode.idx3_lt _ _ (fun _ => rfl)
    (fun i => PreDecode.letters_in_range (F := F) _ _ _ _ _ (hpre d) i) _ j

end Cert.ProofK.Launch

end
-- ==== Proof.lean ====
/-
  The kernel and its reference compute the same embedding layer, and each program runs to the end with its arguments
  left as they were. The kernel works in three calls. The first builds, once, the table of every normalised row there can
  be: for each position s < 20 and letter n < 98 the row pos s + letter n, its mean subtracted, divided by the square
  root of its variance plus ε, scaled by w and shifted by b. The second turns each letter word x (r, s) into the flat row
  number x (r, s) + 98 s. In the third, thirty-two workers of 512 batch rows each gather those rows of the table into the
  result. The reference normalises letter (x (r, s)) + pos s at every (r, s): the same row, because addition commutes, so
  its result is row 98 s + x (r, s) of the table, a row number below 1960 because the precondition puts every letter word
  in [0, 97].
  `Spec` states the result; `RefRun` and `RefRead` run the reference and read it at an index; `PreDecode` and `PreOK`
  decode the precondition; `Region0`, `Region1`, `Regions`, `Segs` and `Main` are the first two calls and @main around
  them; `TileBody…`, `Obl` and `Tail` are the workers' gather; `Launch` and `Run` are the run of all the threads;
  `Bridge` joins the gathered table to `Spec`, and `Final` the five conjuncts. A module whose name ends in K is the same
  text read at the word-level program, whose frame is its run with the result's value dropped.
-/
import proofs.«206393_g35751307772044_cont_8to1_b_353_20_alg».proof.Defs
import proofs.«206393_g35751307772044_cont_8to1_b_353_20_alg».proof.Proof.Gen.Kernel
import proofs.«206393_g35751307772044_cont_8to1_b_353_20_alg».proof.Proof.Gen.Kernel.Skeleton
import proofs.«206393_g35751307772044_cont_8to1_b_353_20_alg».proof.Proof.Gen.Kernel.Launch
import proofs.«206393_g35751307772044_cont_8to1_b_353_20_alg».proof.Proof.Gen.Kernel.Regions
import proofs.«206393_g35751307772044_cont_8to1_b_353_20_alg».proof.Proof.Gen.Kernel.Points
import proofs.«206393_g35751307772044_cont_8to1_b_353_20_alg».proof.Proof.Gen.KernelIdeal
import proofs.«206393_g35751307772044_cont_8to1_b_353_20_alg».proof.Proof.Gen.KernelIdeal.Skeleton
import proofs.«206393_g35751307772044_cont_8to1_b_353_20_alg».proof.Proof.Gen.KernelIdeal.Launch
import proofs.«206393_g35751307772044_cont_8to1_b_353_20_alg».proof.Proof.Gen.KernelIdeal.Regions
import proofs.«206393_g35751307772044_cont_8to1_b_353_20_alg».proof.Proof.Gen.KernelIdeal.Points
import proofs.«206393_g35751307772044_cont_8to1_b_353_20_alg».proof.Proof.Gen.ReferenceIdeal
import proofs.«206393_g35751307772044_cont_8to1_b_353_20_alg».proof.Proof.Gen.Pre_input_domain
import proofs.«206393_g35751307772044_cont_8to1_b_353_20_alg».proof.Proof.Final
import proofs.«206393_g35751307772044_cont_8to1_b_353_20_alg».proof.Proof.Run
import proofs.«206393_g35751307772044_cont_8to1_b_353_20_alg».proof.Proof.RunK
import proofs.«206393_g35751307772044_cont_8to1_b_353_20_alg».proof.Proof.PreOKK
import Idealize.ShloMosaic.Adequacy
import Idealize.ShloMosaic.Init

noncomputable section

namespace Cert.Proof

open Idealize.ShloMosaic Idealize.SL.Sem

/-- The claim, from the two kernel programs' runs: the idealised one's, whose post names the result and the arguments, and
    the word-level one's, of which the frame keeps the arguments. -/
theorem claim : Cert.Claim :=
  Cert.Proof.Final.claim_of
    (fun m ρ h => Cert.Proof.Launch.run_main (F := Ideal) m ρ h)
    (fun m g hpre => (θ_run (Cert.Kernel.defs (F := Bits)) _ _).mono (fun _ h c => (h c).2)
      (Cert.ProofK.Launch.run_main (F := Bits) m g (Cert.ProofK.Launch.preOK_of_pre m hpre)))

end Cert.Proof

end
